-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v235)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v235) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v317) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S64x1 : Shape := ⟨2, ![64, 1]⟩
abbrev S1 : Shape := ⟨1, ![1]⟩
abbrev S3x64x64 : Shape := ⟨3, ![3, 64, 64]⟩
abbrev S3x64 : Shape := ⟨2, ![3, 64]⟩
abbrev S4x64 : Shape := ⟨2, ![4, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S4x64 : S_.BroadcastsInDim S4x64 (![] : Fin 0 → Fin S4x64.rank)
  reducesTo_S4x64_S_d0_1 : S4x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_arg20 : FVec F S16 .f32) (main_v83 : IVec S_ 1) (main_v84 : FVec F S64x16 .f32) (main_cst_32 : FVec F S_ .f32) : IVec S_ 1 :=
  let main_v85 : FVec F S64x16 .f32 := broadcastInDim S64x16 ![] bcast_S_S64x16 main_cst_32
  let main_v86 : IVec S64x16 1 := cmpf .olt main_v84 main_v85
  let main_c_33 : IVec S_ 1 := constantI S_ 1 1#1
  let main_v87 : IVec S_ 1 := (fun x v => Host.reduce IntOp.andi x v reducesTo_S64x16_S_d0_1 h_S_) main_v86 main_c_33
  let main_v88 : IVec S_ 1 := andi main_v83 main_v87
  let main_v89 : FVec F S16 .f32 := Host.absf main_arg20
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  main_v93

def fn_part4 {F : FTy → Type} [FloatOps F] (main_arg16 : FVec F S3x64 .f32) (main_arg17 : FVec F S4x64 .f32) (main_arg18 : FVec F S4x64 .f32) (main_arg19 : FVec F S64x16 .f32) (main_arg20 : FVec F S16 .f32) (main_v63 : IVec S_ 1) (main_v67 : IVec S_ 1) : IVec S_ 1 :=
  let main_v68 : IVec S_ 1 := andi main_v63 main_v67
  let main_v69 : FVec F S3x64 .f32 := Host.absf main_arg16
  let main_cst_26 : FVec F S_ .f32 := constant S_ .f32 0x7F800000#32
  let main_v70 : FVec F S3x64 .f32 := broadcastInDim S3x64 ![] bcast_S_S3x64 main_cst_26
  let main_v71 : IVec S3x64 1 := cmpf .olt main_v69 main_v70
  let main_c_27 : IVec S_ 1 := constantI S_ 1 1#1
  let main_v72 : IVec S_ 1 := (fun x v => Host.reduce IntOp.andi x v reducesTo_S3x64_S_d0_1 h_S_) main_v71 main_c_27
  let main_v73 : IVec S_ 1 := andi main_v68 main_v72
  let main_v74 : FVec F S4x64 .f32 := Host.absf main_arg17
  let main_cst_28 : FVec F S_ .f32 := constant S_ .f32 0x7F800000#32
  let main_v75 : FVec F S4x64 .f32 := broadcastInDim S4x64 ![] bcast_S_S4x64 main_cst_28
  let main_v76 : IVec S4x64 1 := cmpf .olt main_v74 main_v75
  let main_c_29 : IVec S_ 1 := constantI S_ 1 1#1
  let main_v77 : IVec S_ 1 := (fun x v => Host.reduce IntOp.andi x v reducesTo_S4x64_S_d0_1 h_S_) main_v76 main_c_29
  let main_v78 : IVec S_ 1 := andi main_v73 main_v77
  let main_v79 : FVec F S4x64 .f32 := Host.absf main_arg18
  let main_cst_30 : FVec F S_ .f32 := constant S_ .f32 0x7F800000#32
  let main_v80 : FVec F S4x64 .f32 := broadcastInDim S4x64 ![] bcast_S_S4x64 main_cst_30
  let main_v81 : IVec S4x64 1 := cmpf .olt main_v79 main_v80
  let main_c_31 : IVec S_ 1 := constantI S_ 1 1#1
  let main_v82 : IVec S_ 1 := (fun x v => Host.reduce IntOp.andi x v reducesTo_S4x64_S_d0_1 h_S_) main_v81 main_c_31
  let main_v83 : IVec S_ 1 := andi main_v78 main_v82
  let main_v84 : FVec F S64x16 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128x64 .f32) (main_arg14 : FVec F S64 .f32) (main_arg15 : FVec F S3x64x64 .f32) (main_arg16 : FVec F S3x64 .f32) (main_arg17 : FVec F S4x64 .f32) (main_arg18 : FVec F S4x64 .f32) (main_arg19 : FVec F S64x16 .f32) (main_arg20 : FVec F S16 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S3x64x64 .f32 := Host.absf main_arg15
  let main_cst_24 : FVec F S_ .f32 := constant S_ .f32 0x7F800000#32
  let main_v65 : FVec F S3x64x64 .f32 := broadcastInDim S3x64x64 ![] bcast_S_S3x64x64 main_cst_24
  let main_v66 : IVec S3x64x64 1 := cmpf .olt main_v64 main_v65
  let main_c_25 : IVec S_ 1 := constantI S_ 1 1#1
  let main_v67 : IVec S_ 1 := (fun x v => Host.reduce IntOp.andi x v reducesTo_S3x64x64_S_d0_1_2 h_S_) main_v66 main_c_25
  fn_part4 (F := F) main_arg16 main_arg17 main_arg18 main_arg19 main_arg20 main_v63 main_v67

def fn_part2 {F : FTy → Type} [FloatOps F] (main_arg9 : FVec F S128x64 .f32) (main_arg10 : FVec F S64 .f32) (main_arg11 : FVec F S64x1 .f32) (main_arg12 : FVec F S1 .f32) (main_arg13 : FVec F S128x64 .f32) (main_arg14 : FVec F S64 .f32) (main_arg15 : FVec F S3x64x64 .f32) (main_arg16 : FVec F S3x64 .f32) (main_arg17 : FVec F S4x64 .f32) (main_arg18 : FVec F S4x64 .f32) (main_arg19 : FVec F S64x16 .f32) (main_arg20 : FVec F S16 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg13 main_arg14 main_arg15 main_arg16 main_arg17 main_arg18 main_arg19 main_arg20 main_v48 main_v49 main_v50

def fn_part1 {F : FTy → Type} [FloatOps F] (main_arg6 : FVec F S32 .f32) (main_arg7 : FVec F S32x128 .f32) (main_arg8 : FVec F S128 .f32) (main_arg9 : FVec F S128x64 .f32) (main_arg10 : FVec F S64 .f32) (main_arg11 : FVec F S64x1 .f32) (main_arg12 : FVec F S1 .f32) (main_arg13 : FVec F S128x64 .f32) (main_arg14 : FVec F S64 .f32) (main_arg15 : FVec F S3x64x64 .f32) (main_arg16 : FVec F S3x64 .f32) (main_arg17 : FVec F S4x64 .f32) (main_arg18 : FVec F S4x64 .f32) (main_arg19 : FVec F S64x16 .f32) (main_arg20 : FVec F S16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x128 .f32 := Host.absf main_arg7
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x32 .f32) (main_arg6 : FVec F S32 .f32) (main_arg7 : FVec F S32x128 .f32) (main_arg8 : FVec F S128 .f32) (main_arg9 : FVec F S128x64 .f32) (main_arg10 : FVec F S64 .f32) (main_arg11 : FVec F S64x1 .f32) (main_arg12 : FVec F S1 .f32) (main_arg13 : FVec F S128x64 .f32) (main_arg14 : FVec F S64 .f32) (main_arg15 : FVec F S3x64x64 .f32) (main_arg16 : FVec F S3x64 .f32) (main_arg17 : FVec F S4x64 .f32) (main_arg18 : FVec F S4x64 .f32) (main_arg19 : FVec F S64x16 .f32) (main_arg20 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S64x1 : Shape := ⟨2, ![64, 1]⟩
abbrev S1 : Shape := ⟨1, ![1]⟩
abbrev S3x64x64 : Shape := ⟨3, ![3, 64, 64]⟩
abbrev S3x64 : Shape := ⟨2, ![3, 64]⟩
abbrev S4x64 : Shape := ⟨2, ![4, 64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S1x32 : Shape := ⟨2, ![1, 32]⟩
abbrev S1x128 : Shape := ⟨2, ![1, 128]⟩
abbrev S5000x128 : Shape := ⟨2, ![5000, 128]⟩
abbrev S5000x64 : Shape := ⟨2, ![5000, 64]⟩
abbrev S5000x32 : Shape := ⟨2, ![5000, 32]⟩
abbrev S100000x1 : Shape := ⟨2, ![100000, 1]⟩
abbrev S1600000x128 : Shape := ⟨2, ![1600000, 128]⟩
abbrev S100000x64 : Shape := ⟨2, ![100000, 64]⟩
abbrev S1600000x64 : Shape := ⟨2, ![1600000, 64]⟩
abbrev S1x1 : Shape := ⟨2, ![1, 1]⟩
abbrev S5000x1 : Shape := ⟨2, ![5000, 1]⟩
abbrev S1x64x64 : Shape := ⟨3, ![1, 64, 64]⟩
abbrev S64x64 : Shape := ⟨2, ![64, 64]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 305
  | .vmem => 104
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x64, .f32⟩
  | 4 => ⟨S64, .f32⟩
  | 5 => ⟨S64x32, .f32⟩
  | 6 => ⟨S32, .f32⟩
  | 7 => ⟨S32x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S128x64, .f32⟩
  | 14 => ⟨S64, .f32⟩
  | 15 => ⟨S3x64x64, .f32⟩
  | 16 => ⟨S3x64, .f32⟩
  | 17 => ⟨S4x64, .f32⟩
  | 18 => ⟨S4x64, .f32⟩
  | 19 => ⟨S64x16, .f32⟩
  | 20 => ⟨S16, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S_, .f32⟩
  | 37 => ⟨S100000, .f32⟩
  | 38 => ⟨S100000, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .f32⟩
  | 45 => ⟨S1x64, .f32⟩
  | 46 => ⟨S1x32, .f32⟩
  | 47 => ⟨S1x128, .f32⟩
  | 48 => ⟨S100000x128, .f32⟩
  | 49 => ⟨S100000x1, .f32⟩
  | 50 => ⟨S100000x128, .f32⟩
  | 51 => ⟨S100000x128, .f32⟩
  | 52 => ⟨S100000x128, .bf16⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .bf16⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x1, .f32⟩
  | 68 => ⟨S100000x128, .f32⟩
  | 69 => ⟨S100000x128, .f32⟩
  | 70 => ⟨S1x64, .f32⟩
  | 71 => ⟨S100000x64, .f32⟩
  | 72 => ⟨S_, .f32⟩
  | 73 => ⟨S64, .f32⟩
  | 74 => ⟨S100000x64, .f32⟩
  | 75 => ⟨S_, .f32⟩
  | 76 => ⟨S64, .f32⟩
  | 77 => ⟨S_, .f32⟩
  | 78 => ⟨S64, .f32⟩
  | 79 => ⟨S64, .f32⟩
  | 80 => ⟨S_, .f32⟩
  | 81 => ⟨S64, .f32⟩
  | 82 => ⟨S64, .f32⟩
  | 83 => ⟨S64, .f32⟩
  | 84 => ⟨S64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S1x64, .f32⟩
  | 91 => ⟨S1x64, .f32⟩
  | 92 => ⟨S1x64, .f32⟩
  | 93 => ⟨S100000x64, .f32⟩
  | 94 => ⟨S100000x64, .bf16⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .bf16⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S100000x1, .f32⟩
  | 110 => ⟨S100000x64, .f32⟩
  | 111 => ⟨S100000x64, .f32⟩
  | 112 => ⟨S1x64, .f32⟩
  | 113 => ⟨S1x1, .f32⟩
  | 114 => ⟨S100000x64, .f32⟩
  | 115 => ⟨S1x64x64, .f32⟩
  | 116 => ⟨S64x64, .f32⟩
  | 117 => ⟨S1x64, .f32⟩
  | 118 => ⟨S64, .f32⟩
  | 119 => ⟨S100000x1, .f32⟩
  | 120 => ⟨S100000x64, .f32⟩
  | 121 => ⟨S100000x64, .f32⟩
  | 122 => ⟨S100000x64, .bf16⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .bf16⟩
  | 4 => ⟨S1600000x64, .f32⟩
  | 5 => ⟨S_, .f32⟩
  | 6 => ⟨S100000x64, .f32⟩
  | 7 => ⟨S1600000x1, .i32⟩
  | 8 => ⟨S100000x64, .f32⟩
  | 9 => ⟨S100000x1, .f32⟩
  | 10 => ⟨S100000x64, .f32⟩
  | 11 => ⟨S100000x64, .f32⟩
  | 12 => ⟨S1x64, .f32⟩
  | 13 => ⟨S100000x64, .f32⟩
  | 14 => ⟨S_, .f32⟩
  | 15 => ⟨S64, .f32⟩
  | 16 => ⟨S100000x64, .f32⟩
  | 17 => ⟨S_, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S64, .f32⟩
  | 26 => ⟨S64, .f32⟩
  | 27 => ⟨S1x64, .f32⟩
  | 28 => ⟨S64, .f32⟩
  | 29 => ⟨S1x64, .f32⟩
  | 30 => ⟨S64, .f32⟩
  | 31 => ⟨S1x64, .f32⟩
  | 32 => ⟨S1x64, .f32⟩
  | 33 => ⟨S1x64, .f32⟩
  | 34 => ⟨S1x64, .f32⟩
  | 35 => ⟨S100000x64, .f32⟩
  | 36 => ⟨S100000x64, .bf16⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .bf16⟩
  | 46 => ⟨S1600000x64, .f32⟩
  | 47 => ⟨S_, .f32⟩
  | 48 => ⟨S100000x64, .f32⟩
  | 49 => ⟨S1600000x1, .i32⟩
  | 50 => ⟨S100000x64, .f32⟩
  | 51 => ⟨S100000x1, .f32⟩
  | 52 => ⟨S100000x64, .f32⟩
  | 53 => ⟨S100000x64, .f32⟩
  | 54 => ⟨S1x64, .f32⟩
  | 55 => ⟨S1x1, .f32⟩
  | 56 => ⟨S100000x64, .f32⟩
  | 57 => ⟨S1x64x64, .f32⟩
  | 58 => ⟨S64x64, .f32⟩
  | 59 => ⟨S1x64, .f32⟩
  | 60 => ⟨S64, .f32⟩
  | 61 => ⟨S100000x1, .f32⟩
  | 62 => ⟨S100000x64, .f32⟩
  | 63 => ⟨S100000x64, .f32⟩
  | 64 => ⟨S100000x64, .bf16⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x64, .bf16⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S100000x1, .f32⟩
  | 80 => ⟨S100000x64, .f32⟩
  | 81 => ⟨S100000x64, .f32⟩
  | 82 => ⟨S1x64, .f32⟩
  | 83 => ⟨S100000x64, .f32⟩
  | 84 => ⟨S_, .f32⟩
  | 85 => ⟨S64, .f32⟩
  | 86 => ⟨S100000x64, .f32⟩
  | 87 => ⟨S_, .f32⟩
  | 88 => ⟨S64, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S64, .f32⟩
  | 96 => ⟨S64, .f32⟩
  | 97 => ⟨S1x64, .f32⟩
  | 98 => ⟨S64, .f32⟩
  | 99 => ⟨S1x64, .f32⟩
  | 100 => ⟨S64, .f32⟩
  | 101 => ⟨S1x64, .f32⟩
  | 102 => ⟨S1x64, .f32⟩
  | 103 => ⟨S1x64, .f32⟩
  | 104 => ⟨S1x64, .f32⟩
  | 105 => ⟨S100000x64, .f32⟩
  | 106 => ⟨S100000x64, .bf16⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x64, .bf16⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S100000x1, .f32⟩
  | 122 => ⟨S100000x64, .f32⟩
  | 123 => ⟨S100000x64, .f32⟩
  | 124 => ⟨S1x64, .f32⟩
  | 125 => ⟨S1x1, .f32⟩
  | 126 => ⟨S100000x64, .f32⟩
  | 127 => ⟨S1x64x64, .f32⟩
  | _ => ⟨S100000x128, .f32⟩

abbrev hbmTy0_2 (i : Nat) : BufTy := match i % 128 with
  | 0 => ⟨S64x64, .f32⟩
  | 1 => ⟨S1x64, .f32⟩
  | 2 => ⟨S64, .f32⟩
  | 3 => ⟨S100000x1, .f32⟩
  | 4 => ⟨S100000x64, .f32⟩
  | 5 => ⟨S100000x64, .f32⟩
  | 6 => ⟨S100000x64, .bf16⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x64, .bf16⟩
  | 16 => ⟨S1600000x64, .f32⟩
  | 17 => ⟨S_, .f32⟩
  | 18 => ⟨S100000x64, .f32⟩
  | 19 => ⟨S1600000x1, .i32⟩
  | 20 => ⟨S100000x64, .f32⟩
  | 21 => ⟨S100000x1, .f32⟩
  | 22 => ⟨S100000x64, .f32⟩
  | 23 => ⟨S100000x64, .f32⟩
  | 24 => ⟨S1x64, .f32⟩
  | 25 => ⟨S100000x64, .f32⟩
  | 26 => ⟨S_, .f32⟩
  | 27 => ⟨S64, .f32⟩
  | 28 => ⟨S100000x64, .f32⟩
  | 29 => ⟨S_, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S64, .f32⟩
  | 38 => ⟨S64, .f32⟩
  | 39 => ⟨S1x64, .f32⟩
  | 40 => ⟨S64, .f32⟩
  | 41 => ⟨S1x64, .f32⟩
  | 42 => ⟨S64, .f32⟩
  | 43 => ⟨S1x64, .f32⟩
  | 44 => ⟨S1x64, .f32⟩
  | 45 => ⟨S1x64, .f32⟩
  | 46 => ⟨S1x64, .f32⟩
  | 47 => ⟨S1x16, .f32⟩
  | 48 => ⟨S100000x16, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S32x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S128x64, .f32⟩
  | .local _ .vmem, ⟨29, _⟩ => ⟨S1x64, .f32⟩
  | .local _ .vmem, ⟨30, _⟩ => ⟨S64x1, .f32⟩
  | .local _ .vmem, ⟨31, _⟩ => ⟨S1x1, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S128x64, .f32⟩
  | .local _ .vmem, ⟨55, _⟩ => ⟨S1x64, .f32⟩
  | .local _ .vmem, ⟨56, _⟩ => ⟨S64x1, .f32⟩
  | .local _ .vmem, ⟨57, _⟩ => ⟨S1x1, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S64x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S1x64, .f32⟩
  | .local _ .vmem, ⟨69, _⟩ => ⟨S1x64, .f32⟩
  | .local _ .vmem, ⟨70, _⟩ => ⟨S1x64, .f32⟩
  | .local _ .vmem, ⟨71, _⟩ => ⟨S1x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S128x64, .f32⟩
  | .local _ .vmem, ⟨81, _⟩ => ⟨S1x64, .f32⟩
  | .local _ .vmem, ⟨82, _⟩ => ⟨S64x1, .f32⟩
  | .local _ .vmem, ⟨83, _⟩ => ⟨S1x1, .f32⟩
  | .local _ .vmem, ⟨84, _⟩ => ⟨S5000x64, .f32⟩
  | .local _ .vmem, ⟨85, _⟩ => ⟨S5000x64, .f32⟩
  | .local _ .vmem, ⟨86, _⟩ => ⟨S5000x64, .f32⟩
  | .local _ .vmem, ⟨87, _⟩ => ⟨S5000x64, .f32⟩
  | .local _ .vmem, ⟨88, _⟩ => ⟨S64x64, .f32⟩
  | .local _ .vmem, ⟨89, _⟩ => ⟨S1x64, .f32⟩
  | .local _ .vmem, ⟨90, _⟩ => ⟨S5000x64, .f32⟩
  | .local _ .vmem, ⟨91, _⟩ => ⟨S5000x64, .f32⟩
  | .local _ .vmem, ⟨92, _⟩ => ⟨S5000x64, .f32⟩
  | .local _ .vmem, ⟨93, _⟩ => ⟨S5000x64, .f32⟩
  | .local _ .vmem, ⟨94, _⟩ => ⟨S1x64, .f32⟩
  | .local _ .vmem, ⟨95, _⟩ => ⟨S1x64, .f32⟩
  | .local _ .vmem, ⟨96, _⟩ => ⟨S1x64, .f32⟩
  | .local _ .vmem, ⟨97, _⟩ => ⟨S1x64, .f32⟩
  | .local _ .vmem, ⟨98, _⟩ => ⟨S5000x64, .f32⟩
  | .local _ .vmem, ⟨99, _⟩ => ⟨S5000x64, .f32⟩
  | .local _ .vmem, ⟨100, _⟩ => ⟨S64x16, .f32⟩
  | .local _ .vmem, ⟨101, _⟩ => ⟨S1x16, .f32⟩
  | .local _ .vmem, ⟨102, _⟩ => ⟨S5000x16, .f32⟩
  | .local _ .vmem, ⟨103, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v4 : Ref sig .tc := ⟨.hbm, 30, rfl⟩
abbrev main_cst_2 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v8 : Ref sig .tc := ⟨.hbm, 38, rfl⟩
abbrev main_cst_4 : Ref sig .tc := ⟨.hbm, 39, rfl⟩
abbrev main_v9 : Ref sig .tc := ⟨.hbm, 40, rfl⟩
abbrev main_v10 : Ref sig .tc := ⟨.hbm, 41, rfl⟩
abbrev main_cst_5 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c : Ref sig .tc := ⟨.hbm, 53, rfl⟩
abbrev main_v21 : Ref sig .tc := ⟨.hbm, 54, rfl⟩
abbrev main_v22 : Ref sig .tc := ⟨.hbm, 55, rfl⟩
abbrev main_c_6 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_8 : Ref sig .tc := ⟨.hbm, 72, rfl⟩
abbrev main_v37 : Ref sig .tc := ⟨.hbm, 73, rfl⟩
abbrev main_v38 : Ref sig .tc := ⟨.hbm, 74, rfl⟩
abbrev main_cst_9 : Ref sig .tc := ⟨.hbm, 75, rfl⟩
abbrev main_v39 : Ref sig .tc := ⟨.hbm, 76, rfl⟩
abbrev main_cst_10 : Ref sig .tc := ⟨.hbm, 77, rfl⟩
abbrev main_v40 : Ref sig .tc := ⟨.hbm, 78, rfl⟩
abbrev main_v41 : Ref sig .tc := ⟨.hbm, 79, rfl⟩
abbrev main_cst_11 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_c_12 : Ref sig .tc := ⟨.hbm, 95, rfl⟩
abbrev main_v56 : Ref sig .tc := ⟨.hbm, 96, rfl⟩
abbrev main_v57 : Ref sig .tc := ⟨.hbm, 97, rfl⟩
abbrev main_c_13 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_14 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_15 : Ref sig .tc := ⟨.hbm, 123, rfl⟩
abbrev main_v81 : Ref sig .tc := ⟨.hbm, 124, rfl⟩
abbrev main_v82 : Ref sig .tc := ⟨.hbm, 125, rfl⟩
abbrev main_c_16 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_17 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_18 : Ref sig .tc := ⟨.hbm, 142, rfl⟩
abbrev main_v97 : Ref sig .tc := ⟨.hbm, 143, rfl⟩
abbrev main_v98 : Ref sig .tc := ⟨.hbm, 144, rfl⟩
abbrev main_cst_19 : Ref sig .tc := ⟨.hbm, 145, rfl⟩
abbrev main_v99 : Ref sig .tc := ⟨.hbm, 146, rfl⟩
abbrev main_cst_20 : Ref sig .tc := ⟨.hbm, 147, rfl⟩
abbrev main_v100 : Ref sig .tc := ⟨.hbm, 148, rfl⟩
abbrev main_v101 : Ref sig .tc := ⟨.hbm, 149, rfl⟩
abbrev main_cst_21 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_22 : Ref sig .tc := ⟨.hbm, 165, rfl⟩
abbrev main_v116 : Ref sig .tc := ⟨.hbm, 166, rfl⟩
abbrev main_v117 : Ref sig .tc := ⟨.hbm, 167, rfl⟩
abbrev main_c_23 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_24 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_c_25 : Ref sig .tc := ⟨.hbm, 193, rfl⟩
abbrev main_v141 : Ref sig .tc := ⟨.hbm, 194, rfl⟩
abbrev main_v142 : Ref sig .tc := ⟨.hbm, 195, rfl⟩
abbrev main_c_26 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst_27 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_28 : Ref sig .tc := ⟨.hbm, 212, rfl⟩
abbrev main_v157 : Ref sig .tc := ⟨.hbm, 213, rfl⟩
abbrev main_v158 : Ref sig .tc := ⟨.hbm, 214, rfl⟩
abbrev main_cst_29 : Ref sig .tc := ⟨.hbm, 215, rfl⟩
abbrev main_v159 : Ref sig .tc := ⟨.hbm, 216, rfl⟩
abbrev main_cst_30 : Ref sig .tc := ⟨.hbm, 217, rfl⟩
abbrev main_v160 : Ref sig .tc := ⟨.hbm, 218, rfl⟩
abbrev main_v161 : Ref sig .tc := ⟨.hbm, 219, rfl⟩
abbrev main_cst_31 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_c_32 : Ref sig .tc := ⟨.hbm, 235, rfl⟩
abbrev main_v176 : Ref sig .tc := ⟨.hbm, 236, rfl⟩
abbrev main_v177 : Ref sig .tc := ⟨.hbm, 237, rfl⟩
abbrev main_c_33 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_cst_34 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_c_35 : Ref sig .tc := ⟨.hbm, 263, rfl⟩
abbrev main_v201 : Ref sig .tc := ⟨.hbm, 264, rfl⟩
abbrev main_v202 : Ref sig .tc := ⟨.hbm, 265, rfl⟩
abbrev main_c_36 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_cst_37 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_cst_38 : Ref sig .tc := ⟨.hbm, 282, rfl⟩
abbrev main_v217 : Ref sig .tc := ⟨.hbm, 283, rfl⟩
abbrev main_v218 : Ref sig .tc := ⟨.hbm, 284, rfl⟩
abbrev main_cst_39 : Ref sig .tc := ⟨.hbm, 285, rfl⟩
abbrev main_v219 : Ref sig .tc := ⟨.hbm, 286, rfl⟩
abbrev main_cst_40 : Ref sig .tc := ⟨.hbm, 287, rfl⟩
abbrev main_v220 : Ref sig .tc := ⟨.hbm, 288, rfl⟩
abbrev main_v221 : Ref sig .tc := ⟨.hbm, 289, rfl⟩
abbrev main_cst_41 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc5_stg6_0 : Ref sig .tc := ⟨.vmem, 48, rfl⟩
abbrev cc5_stg6_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg6_0 : Ref sig .tc := ⟨.vmem, 58, rfl⟩
abbrev cc6_stg6_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg3_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg4_0 : Ref sig .tc := ⟨.vmem, 71, rfl⟩
abbrev cc8_stg5_0 : Ref sig .tc := ⟨.vmem, 72, rfl⟩
abbrev cc8_stg5_1 : Ref sig .tc := ⟨.vmem, 73, rfl⟩
abbrev cc8_stg6_0 : Ref sig .tc := ⟨.vmem, 74, rfl⟩
abbrev cc8_stg6_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg1_1 : Ref sig .tc := ⟨.vmem, 79, rfl⟩
abbrev cc9_stg2_0 : Ref sig .tc := ⟨.vmem, 80, rfl⟩
abbrev cc9_stg3_0 : Ref sig .tc := ⟨.vmem, 81, rfl⟩
abbrev cc9_stg4_0 : Ref sig .tc := ⟨.vmem, 82, rfl⟩
abbrev cc9_stg5_0 : Ref sig .tc := ⟨.vmem, 83, rfl⟩
abbrev cc9_stg6_0 : Ref sig .tc := ⟨.vmem, 84, rfl⟩
abbrev cc9_stg6_1 : Ref sig .tc := ⟨.vmem, 85, rfl⟩
abbrev cc10_stg0_0 : Ref sig .tc := ⟨.vmem, 86, rfl⟩
abbrev cc10_stg0_1 : Ref sig .tc := ⟨.vmem, 87, rfl⟩
abbrev cc10_stg1_0 : Ref sig .tc := ⟨.vmem, 88, rfl⟩
abbrev cc10_stg2_0 : Ref sig .tc := ⟨.vmem, 89, rfl⟩
abbrev cc10_stg3_0 : Ref sig .tc := ⟨.vmem, 90, rfl⟩
abbrev cc10_stg3_1 : Ref sig .tc := ⟨.vmem, 91, rfl⟩
abbrev cc11_stg0_0 : Ref sig .tc := ⟨.vmem, 92, rfl⟩
abbrev cc11_stg0_1 : Ref sig .tc := ⟨.vmem, 93, rfl⟩
abbrev cc11_stg1_0 : Ref sig .tc := ⟨.vmem, 94, rfl⟩
abbrev cc11_stg2_0 : Ref sig .tc := ⟨.vmem, 95, rfl⟩
abbrev cc11_stg3_0 : Ref sig .tc := ⟨.vmem, 96, rfl⟩
abbrev cc11_stg4_0 : Ref sig .tc := ⟨.vmem, 97, rfl⟩
abbrev cc11_stg5_0 : Ref sig .tc := ⟨.vmem, 98, rfl⟩
abbrev cc11_stg5_1 : Ref sig .tc := ⟨.vmem, 99, rfl⟩
abbrev cc11_stg6_0 : Ref sig .tc := ⟨.vmem, 100, rfl⟩
abbrev cc11_stg7_0 : Ref sig .tc := ⟨.vmem, 101, rfl⟩
abbrev cc11_stg8_0 : Ref sig .tc := ⟨.vmem, 102, rfl⟩
abbrev cc11_stg8_1 : Ref sig .tc := ⟨.vmem, 103, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc5_sem6_0 : DmaSem sig := 48
abbrev cc5_sem6_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem3_0 : DmaSem sig := 55
abbrev cc6_sem4_0 : DmaSem sig := 56
abbrev cc6_sem5_0 : DmaSem sig := 57
abbrev cc6_sem6_0 : DmaSem sig := 58
abbrev cc6_sem6_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem3_1 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem3_0 : DmaSem sig := 70
abbrev cc8_sem4_0 : DmaSem sig := 71
abbrev cc8_sem5_0 : DmaSem sig := 72
abbrev cc8_sem5_1 : DmaSem sig := 73
abbrev cc8_sem6_0 : DmaSem sig := 74
abbrev cc8_sem6_1 : DmaSem sig := 75
abbrev cc9_sem0_0 : DmaSem sig := 76
abbrev cc9_sem0_1 : DmaSem sig := 77
abbrev cc9_sem1_0 : DmaSem sig := 78
abbrev cc9_sem1_1 : DmaSem sig := 79
abbrev cc9_sem2_0 : DmaSem sig := 80
abbrev cc9_sem3_0 : DmaSem sig := 81
abbrev cc9_sem4_0 : DmaSem sig := 82
abbrev cc9_sem5_0 : DmaSem sig := 83
abbrev cc9_sem6_0 : DmaSem sig := 84
abbrev cc9_sem6_1 : DmaSem sig := 85
abbrev cc10_sem0_0 : DmaSem sig := 86
abbrev cc10_sem0_1 : DmaSem sig := 87
abbrev cc10_sem1_0 : DmaSem sig := 88
abbrev cc10_sem2_0 : DmaSem sig := 89
abbrev cc10_sem3_0 : DmaSem sig := 90
abbrev cc10_sem3_1 : DmaSem sig := 91
abbrev cc11_sem0_0 : DmaSem sig := 92
abbrev cc11_sem0_1 : DmaSem sig := 93
abbrev cc11_sem1_0 : DmaSem sig := 94
abbrev cc11_sem2_0 : DmaSem sig := 95
abbrev cc11_sem3_0 : DmaSem sig := 96
abbrev cc11_sem4_0 : DmaSem sig := 97
abbrev cc11_sem5_0 : DmaSem sig := 98
abbrev cc11_sem5_1 : DmaSem sig := 99
abbrev cc11_sem6_0 : DmaSem sig := 100
abbrev cc11_sem7_0 : DmaSem sig := 101
abbrev cc11_sem8_0 : DmaSem sig := 102
abbrev cc11_sem8_1 : DmaSem sig := 103

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S5000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x1 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x1 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S64x16 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x16 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 2 → Memref sig .tc .vmem S5000x16 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S64_S1x64 : S64.ShapeCasts S1x64
  shapeCasts_S32_S1x32 : S32.ShapeCasts S1x32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S5000x128_S5000x128 : S5000x128.ShapeCasts S5000x128
  inb_S5000x64_S5000x64_0_0 : ∀ a, (![0, 0] : Fin 2 → Nat) a + S5000x64.size a ≤ S5000x64.size a
  h_S5000x64 : 0 < S5000x64.numel
  reducesTo_S100000x64_S64_d0 : S100000x64.ReducesTo [0] S64
  h_S_ : 0 < S_.numel
  bcast_S_S64 : S_.BroadcastsInDim S64 (![] : Fin 0 → Fin S64.rank)
  slices_S4x64_S1x64_0_0 : S4x64.Slices ![0, 0] S1x64
  shapeCasts_S1x64_S64 : S1x64.ShapeCasts S64
  shapeCasts_S5000x64_S5000x64 : S5000x64.ShapeCasts S5000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S1_S1x1 : S1.ShapeCasts S1x1
  concatenates_S5000x64_S5000x64_S5000x128_d1 : Shape.Concatenates [S5000x64, S5000x64] S5000x128 1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x64 : S5000x1.Broadcasts S5000x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4x64_S1x64_1_0 : S4x64.Slices ![1, 0] S1x64
  slices_S3x64x64_S1x64x64_1_0_0 : S3x64x64.Slices ![1, 0, 0] S1x64x64
  slices_S3x64_S1x64_1_0 : S3x64.Slices ![1, 0] S1x64
  slices_S4x64_S1x64_2_0 : S4x64.Slices ![2, 0] S1x64
  slices_S3x64x64_S1x64x64_2_0_0 : S3x64x64.Slices ![2, 0, 0] S1x64x64
  slices_S3x64_S1x64_2_0 : S3x64.Slices ![2, 0] S1x64
  slices_S4x64_S1x64_3_0 : S4x64.Slices ![3, 0] S1x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  dot_S5000x32_S32x128_S5000x128_1_0_0_1_n_n_wf : DotDims.WF S5000x32 S32x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x1_S5000x1_1_0_0_1_n_n_wf : DotDims.WF S5000x64 S64x1 S5000x1 [1] [0] [0] [1] [] []
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x1.size a ≤ S64x1.size a
  hwx6_4 : ∀ i : grid6.Coords, EltTy.bits .f32 = 32 ∨ (Rect.block (s := S64x1) S64x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1.size a ≤ S1x1.size a
  hwx6_5 : ∀ i : grid6.Coords, EltTy.bits .f32 = 32 ∨ (Rect.block (s := S1x1) S1x1.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S100000x64.size a
  hwx6_6 : ∀ i : grid6.Coords, EltTy.bits .f32 = 32 ∨ (Rect.block (s := S100000x64) S5000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x64.size a ≤ S100000x64.size a
  hwx8_6 : ∀ i : grid8.Coords, EltTy.bits .f32 = 32 ∨ (Rect.block (s := S100000x64) S5000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x64.size a ≤ S128x64.size a
  hwx9_2 : ∀ i : grid9.Coords, EltTy.bits .f32 = 32 ∨ (Rect.block (s := S128x64) S128x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x1.size a ≤ S64x1.size a
  hwx9_4 : ∀ i : grid9.Coords, EltTy.bits .f32 = 32 ∨ (Rect.block (s := S64x1) S64x1.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x1.size a ≤ S1x1.size a
  hwx9_5 : ∀ i : grid9.Coords, EltTy.bits .f32 = 32 ∨ (Rect.block (s := S1x1) S1x1.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x64.size a ≤ S100000x64.size a
  hwx9_6 : ∀ i : grid9.Coords, EltTy.bits .f32 = 32 ∨ (Rect.block (s := S100000x64) S5000x64.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x64.size a ≤ S100000x64.size a
  hwx10_3 : ∀ i : grid10.Coords, EltTy.bits .f32 = 32 ∨ (Rect.block (s := S100000x64) S5000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S100000x64.size a
  hwx11_5 : ∀ i : grid11.Coords, EltTy.bits .f32 = 32 ∨ (Rect.block (s := S100000x64) S5000x64.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S64x16.size a ≤ S64x16.size a
  hwx11_6 : ∀ i : grid11.Coords, EltTy.bits .f32 = 32 ∨ (Rect.block (s := S64x16) S64x16.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x16.size a ≤ S1x16.size a
  hwx11_7 : ∀ i : grid11.Coords, EltTy.bits .f32 = 32 ∨ (Rect.block (s := S1x16) S1x16.size (cc11_transform_7 i) (hinb11_7 i)).WholeWords (EltTy.packing .f32)
  hstage11_8 : ∀ j, (stage11_8 j).IsWhole
  nbuf11_8 : grid11.bufCount reads11_8 false = 2
  hreads11_8 : ∀ i i' : grid11.Coords, (∀ a, reads11_8 a = true → i a = i' a) → cc11_transform_8 i = cc11_transform_8 i'
  hinb11_8 : ∀ (i : grid11.Coords) a, (cc11_transform_8 i a + 1) * S5000x16.size a ≤ S100000x16.size a
  hwx11_8 : ∀ i : grid11.Coords, EltTy.bits .f32 = 32 ∨ (Rect.block (s := S100000x16) S5000x16.size (cc11_transform_8 i) (hinb11_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v94) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v96) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v110) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v111) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v112) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v113) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v72) S5000x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v114) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v114) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v129) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg11) S64x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v131) S1x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v132) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v154) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v134) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v155) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v156) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v156) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v170) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v171) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v172) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v173) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v132) S5000x64.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v174) S5000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v174) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v189) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg9) S128x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v190) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg11) S64x1.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v191) S1x1.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v192) S5000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v214) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v194) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v215) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v216) S5000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v216) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v230) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v231) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v232) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v233) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v192) S5000x64.size cc11_transform_5 reads11_5 false false 2 stage11_5 sem11_5
    hrank11 hreads11_5 hinb11_5 nbuf11_5 (Memref.isWhole_whole _) hwx11_5 hstage11_5

abbrev win11_6 : Pipeline.Window sig grid11 :=
  Pipeline.Window.ofSpec (Memref.whole main_arg19) S64x16.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v234) S1x16.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v235) S5000x16.size cc11_transform_8 reads11_8 true false 2 stage11_8 sem11_8
    hrank11 hreads11_8 hinb11_8 nbuf11_8 (Memref.isWhole_whole _) hwx11_8 hstage11_8

abbrev win11 : Fin 9 → Pipeline.Window sig grid11 := fun | 0 => win11_0 | 1 => win11_1 | 2 => win11_2 | 3 => win11_3 | 4 => win11_4 | 5 => win11_5 | 6 => win11_6 | 7 => win11_7 | 8 => win11_8 | ⟨_ + 9, h⟩ => absurd h (Nat.not_lt.2 (Nat.le_add_left _ _))
abbrev spec11 : Fin 9 → Pipeline.WinSpec sig grid11.rank := fun w => (win11 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S64x1 : Shape := ⟨2, ![64, 1]⟩
abbrev S1 : Shape := ⟨1, ![1]⟩
abbrev S3x64x64 : Shape := ⟨3, ![3, 64, 64]⟩
abbrev S3x64 : Shape := ⟨2, ![3, 64]⟩
abbrev S4x64 : Shape := ⟨2, ![4, 64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩
abbrev S1x128 : Shape := ⟨2, ![1, 128]⟩
abbrev S100000x1 : Shape := ⟨2, ![100000, 1]⟩
abbrev S1600000x128 : Shape := ⟨2, ![1600000, 128]⟩
abbrev S1600000x64 : Shape := ⟨2, ![1600000, 64]⟩
abbrev S1x1 : Shape := ⟨2, ![1, 1]⟩
abbrev S1x64x64 : Shape := ⟨3, ![1, 64, 64]⟩
abbrev S64x64 : Shape := ⟨2, ![64, 64]⟩
abbrev S100000x16 : Shape := ⟨2, ![100000, 16]⟩
abbrev S1x16 : Shape := ⟨2, ![1, 16]⟩

abbrev nBuf : Space → Nat
  | .hbm => 495
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x64, .f32⟩
  | 4 => ⟨S64, .f32⟩
  | 5 => ⟨S64x32, .f32⟩
  | 6 => ⟨S32, .f32⟩
  | 7 => ⟨S32x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S128x64, .f32⟩
  | 14 => ⟨S64, .f32⟩
  | 15 => ⟨S3x64x64, .f32⟩
  | 16 => ⟨S3x64, .f32⟩
  | 17 => ⟨S4x64, .f32⟩
  | 18 => ⟨S4x64, .f32⟩
  | 19 => ⟨S64x16, .f32⟩
  | 20 => ⟨S16, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S_, .f32⟩
  | 37 => ⟨S100000, .f32⟩
  | 38 => ⟨S100000, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .f32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S100000x32, .f32⟩
  | 53 => ⟨S1x32, .f32⟩
  | 54 => ⟨S100000x32, .f32⟩
  | 55 => ⟨S100000x32, .f32⟩
  | 56 => ⟨S_, .f32⟩
  | 57 => ⟨S100000x32, .f32⟩
  | 58 => ⟨S100000x32, .f32⟩
  | 59 => ⟨S100000x128, .f32⟩
  | 60 => ⟨S1x128, .f32⟩
  | 61 => ⟨S100000x128, .f32⟩
  | 62 => ⟨S100000x128, .f32⟩
  | 63 => ⟨S100000x1, .f32⟩
  | 64 => ⟨S100000x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S100000x1, .f32⟩
  | 80 => ⟨S100000x128, .f32⟩
  | 81 => ⟨S100000x128, .f32⟩
  | 82 => ⟨S100000x64, .f32⟩
  | 83 => ⟨S1x64, .f32⟩
  | 84 => ⟨S100000x64, .f32⟩
  | 85 => ⟨S100000x64, .f32⟩
  | 86 => ⟨S1x64, .f32⟩
  | 87 => ⟨S64, .f32⟩
  | 88 => ⟨S1x64, .f32⟩
  | 89 => ⟨S64, .f32⟩
  | 90 => ⟨S_, .f32⟩
  | 91 => ⟨S64, .f32⟩
  | 92 => ⟨S_, .f32⟩
  | 93 => ⟨S64, .f32⟩
  | 94 => ⟨S64, .f32⟩
  | 95 => ⟨S_, .i32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S100000x64, .f32⟩
  | 103 => ⟨S100000x64, .f32⟩
  | 104 => ⟨S100000x64, .f32⟩
  | 105 => ⟨S_, .f32⟩
  | 106 => ⟨S_, .f32⟩
  | 107 => ⟨S_, .f32⟩
  | 108 => ⟨S_, .f32⟩
  | 109 => ⟨S64, .f32⟩
  | 110 => ⟨S64, .f32⟩
  | 111 => ⟨S64, .f32⟩
  | 112 => ⟨S_, .f32⟩
  | 113 => ⟨S_, .i1⟩
  | 114 => ⟨S_, .f32⟩
  | 115 => ⟨S_, .f32⟩
  | 116 => ⟨S64, .f32⟩
  | 117 => ⟨S64, .f32⟩
  | 118 => ⟨S1x64, .f32⟩
  | 119 => ⟨S100000x64, .f32⟩
  | 120 => ⟨S100000x64, .f32⟩
  | 121 => ⟨S_, .f32⟩
  | 122 => ⟨S64, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S_, .f32⟩
  | 19 => ⟨S100000x64, .f32⟩
  | 20 => ⟨S1600000x1, .i32⟩
  | 21 => ⟨S100000x64, .f32⟩
  | 22 => ⟨S100000x1, .f32⟩
  | 23 => ⟨S100000x64, .f32⟩
  | 24 => ⟨S100000x64, .f32⟩
  | 25 => ⟨S100000x128, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x1, .f32⟩
  | 34 => ⟨S1x1, .f32⟩
  | 35 => ⟨S100000x1, .f32⟩
  | 36 => ⟨S100000x1, .f32⟩
  | 37 => ⟨S100000x1, .f32⟩
  | 38 => ⟨S100000x1, .f32⟩
  | 39 => ⟨S_, .f32⟩
  | 40 => ⟨S100000x1, .f32⟩
  | 41 => ⟨S100000x1, .f32⟩
  | 42 => ⟨S_, .f32⟩
  | 43 => ⟨S100000x1, .f32⟩
  | 44 => ⟨S100000x1, .f32⟩
  | 45 => ⟨S100000x64, .f32⟩
  | 46 => ⟨S100000x64, .f32⟩
  | 47 => ⟨S100000x64, .f32⟩
  | 48 => ⟨S1x64x64, .f32⟩
  | 49 => ⟨S64x64, .f32⟩
  | 50 => ⟨S1x64, .f32⟩
  | 51 => ⟨S64, .f32⟩
  | 52 => ⟨S100000x1, .f32⟩
  | 53 => ⟨S100000x64, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x1, .f32⟩
  | 69 => ⟨S100000x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S1x64, .f32⟩
  | 76 => ⟨S64, .f32⟩
  | 77 => ⟨S1x64, .f32⟩
  | 78 => ⟨S64, .f32⟩
  | 79 => ⟨S_, .f32⟩
  | 80 => ⟨S64, .f32⟩
  | 81 => ⟨S_, .f32⟩
  | 82 => ⟨S64, .f32⟩
  | 83 => ⟨S64, .f32⟩
  | 84 => ⟨S_, .i32⟩
  | 85 => ⟨S_, .f32⟩
  | 86 => ⟨S64, .f32⟩
  | 87 => ⟨S1x64, .f32⟩
  | 88 => ⟨S_, .f32⟩
  | 89 => ⟨S1x64, .f32⟩
  | 90 => ⟨S1x64, .f32⟩
  | 91 => ⟨S100000x64, .f32⟩
  | 92 => ⟨S100000x64, .f32⟩
  | 93 => ⟨S100000x64, .f32⟩
  | 94 => ⟨S_, .f32⟩
  | 95 => ⟨S_, .f32⟩
  | 96 => ⟨S_, .f32⟩
  | 97 => ⟨S_, .f32⟩
  | 98 => ⟨S64, .f32⟩
  | 99 => ⟨S64, .f32⟩
  | 100 => ⟨S64, .f32⟩
  | 101 => ⟨S_, .f32⟩
  | 102 => ⟨S_, .i1⟩
  | 103 => ⟨S_, .f32⟩
  | 104 => ⟨S_, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S_, .f32⟩
  | 111 => ⟨S64, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .i32⟩
  | _ => ⟨S100000x128, .f32⟩

abbrev hbmTy0_2 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x64, .f32⟩
  | 8 => ⟨S_, .f32⟩
  | 9 => ⟨S100000x64, .f32⟩
  | 10 => ⟨S1600000x1, .i32⟩
  | 11 => ⟨S100000x64, .f32⟩
  | 12 => ⟨S100000x1, .f32⟩
  | 13 => ⟨S100000x64, .f32⟩
  | 14 => ⟨S100000x64, .f32⟩
  | 15 => ⟨S100000x128, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x1, .f32⟩
  | 24 => ⟨S1x1, .f32⟩
  | 25 => ⟨S100000x1, .f32⟩
  | 26 => ⟨S100000x1, .f32⟩
  | 27 => ⟨S100000x1, .f32⟩
  | 28 => ⟨S100000x1, .f32⟩
  | 29 => ⟨S_, .f32⟩
  | 30 => ⟨S100000x1, .f32⟩
  | 31 => ⟨S100000x1, .f32⟩
  | 32 => ⟨S_, .f32⟩
  | 33 => ⟨S100000x1, .f32⟩
  | 34 => ⟨S100000x1, .f32⟩
  | 35 => ⟨S100000x64, .f32⟩
  | 36 => ⟨S100000x64, .f32⟩
  | 37 => ⟨S100000x64, .f32⟩
  | 38 => ⟨S1x64x64, .f32⟩
  | 39 => ⟨S64x64, .f32⟩
  | 40 => ⟨S1x64, .f32⟩
  | 41 => ⟨S64, .f32⟩
  | 42 => ⟨S100000x1, .f32⟩
  | 43 => ⟨S100000x64, .f32⟩
  | 44 => ⟨S100000x64, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000x1, .f32⟩
  | 59 => ⟨S100000x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S1x64, .f32⟩
  | 66 => ⟨S64, .f32⟩
  | 67 => ⟨S1x64, .f32⟩
  | 68 => ⟨S64, .f32⟩
  | 69 => ⟨S_, .f32⟩
  | 70 => ⟨S64, .f32⟩
  | 71 => ⟨S_, .f32⟩
  | 72 => ⟨S64, .f32⟩
  | 73 => ⟨S64, .f32⟩
  | 74 => ⟨S_, .i32⟩
  | 75 => ⟨S_, .f32⟩
  | 76 => ⟨S64, .f32⟩
  | 77 => ⟨S1x64, .f32⟩
  | 78 => ⟨S_, .f32⟩
  | 79 => ⟨S1x64, .f32⟩
  | 80 => ⟨S1x64, .f32⟩
  | 81 => ⟨S100000x64, .f32⟩
  | 82 => ⟨S100000x64, .f32⟩
  | 83 => ⟨S100000x64, .f32⟩
  | 84 => ⟨S_, .f32⟩
  | 85 => ⟨S_, .f32⟩
  | 86 => ⟨S_, .f32⟩
  | 87 => ⟨S_, .f32⟩
  | 88 => ⟨S64, .f32⟩
  | 89 => ⟨S64, .f32⟩
  | 90 => ⟨S64, .f32⟩
  | 91 => ⟨S_, .f32⟩
  | 92 => ⟨S_, .i1⟩
  | 93 => ⟨S_, .f32⟩
  | 94 => ⟨S_, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S_, .f32⟩
  | 101 => ⟨S64, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S_, .f32⟩
  | 127 => ⟨S100000x64, .f32⟩
  | _ => ⟨S100000x128, .f32⟩

abbrev hbmTy0_3 (i : Nat) : BufTy := match i % 128 with
  | 0 => ⟨S1600000x1, .i32⟩
  | 1 => ⟨S100000x64, .f32⟩
  | 2 => ⟨S100000x1, .f32⟩
  | 3 => ⟨S100000x64, .f32⟩
  | 4 => ⟨S100000x64, .f32⟩
  | 5 => ⟨S100000x128, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S100000x1, .f32⟩
  | 14 => ⟨S1x1, .f32⟩
  | 15 => ⟨S100000x1, .f32⟩
  | 16 => ⟨S100000x1, .f32⟩
  | 17 => ⟨S100000x1, .f32⟩
  | 18 => ⟨S100000x1, .f32⟩
  | 19 => ⟨S_, .f32⟩
  | 20 => ⟨S100000x1, .f32⟩
  | 21 => ⟨S100000x1, .f32⟩
  | 22 => ⟨S_, .f32⟩
  | 23 => ⟨S100000x1, .f32⟩
  | 24 => ⟨S100000x1, .f32⟩
  | 25 => ⟨S100000x64, .f32⟩
  | 26 => ⟨S100000x64, .f32⟩
  | 27 => ⟨S100000x64, .f32⟩
  | 28 => ⟨S1x64x64, .f32⟩
  | 29 => ⟨S64x64, .f32⟩
  | 30 => ⟨S1x64, .f32⟩
  | 31 => ⟨S64, .f32⟩
  | 32 => ⟨S100000x1, .f32⟩
  | 33 => ⟨S100000x64, .f32⟩
  | 34 => ⟨S100000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S100000x1, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S1x64, .f32⟩
  | 56 => ⟨S64, .f32⟩
  | 57 => ⟨S1x64, .f32⟩
  | 58 => ⟨S64, .f32⟩
  | 59 => ⟨S_, .f32⟩
  | 60 => ⟨S64, .f32⟩
  | 61 => ⟨S_, .f32⟩
  | 62 => ⟨S64, .f32⟩
  | 63 => ⟨S64, .f32⟩
  | 64 => ⟨S_, .i32⟩
  | 65 => ⟨S_, .f32⟩
  | 66 => ⟨S64, .f32⟩
  | 67 => ⟨S1x64, .f32⟩
  | 68 => ⟨S_, .f32⟩
  | 69 => ⟨S1x64, .f32⟩
  | 70 => ⟨S1x64, .f32⟩
  | 71 => ⟨S100000x64, .f32⟩
  | 72 => ⟨S100000x64, .f32⟩
  | 73 => ⟨S100000x64, .f32⟩
  | 74 => ⟨S_, .f32⟩
  | 75 => ⟨S_, .f32⟩
  | 76 => ⟨S_, .f32⟩
  | 77 => ⟨S_, .f32⟩
  | 78 => ⟨S64, .f32⟩
  | 79 => ⟨S64, .f32⟩
  | 80 => ⟨S64, .f32⟩
  | 81 => ⟨S_, .f32⟩
  | 82 => ⟨S_, .i1⟩
  | 83 => ⟨S_, .f32⟩
  | 84 => ⟨S_, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S_, .f32⟩
  | 91 => ⟨S64, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x16, .f32⟩
  | 108 => ⟨S1x16, .f32⟩
  | 109 => ⟨S100000x16, .f32⟩
  | 110 => ⟨S100000x16, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v4 : Ref sig .tc := ⟨.hbm, 30, rfl⟩
abbrev main_cst_2 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v8 : Ref sig .tc := ⟨.hbm, 38, rfl⟩
abbrev main_cst_4 : Ref sig .tc := ⟨.hbm, 39, rfl⟩
abbrev main_v9 : Ref sig .tc := ⟨.hbm, 40, rfl⟩
abbrev main_v10 : Ref sig .tc := ⟨.hbm, 41, rfl⟩
abbrev main_cst_5 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_call2_cst : Ref sig .tc := ⟨.hbm, 49, rfl⟩
abbrev main_call2_v0 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_call3_cst : Ref sig .tc := ⟨.hbm, 56, rfl⟩
abbrev main_call3_v0 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c : Ref sig .tc := ⟨.hbm, 66, rfl⟩
abbrev main_v30 : Ref sig .tc := ⟨.hbm, 67, rfl⟩
abbrev main_v31 : Ref sig .tc := ⟨.hbm, 68, rfl⟩
abbrev main_c_6 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_7 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_8 : Ref sig .tc := ⟨.hbm, 90, rfl⟩
abbrev main_v51 : Ref sig .tc := ⟨.hbm, 91, rfl⟩
abbrev main_cst_9 : Ref sig .tc := ⟨.hbm, 92, rfl⟩
abbrev main_v52 : Ref sig .tc := ⟨.hbm, 93, rfl⟩
abbrev main_v53 : Ref sig .tc := ⟨.hbm, 94, rfl⟩
abbrev main_c_10 : Ref sig .tc := ⟨.hbm, 95, rfl⟩
abbrev main_call4_cst : Ref sig .tc := ⟨.hbm, 96, rfl⟩
abbrev main_call4_v0 : Ref sig .tc := ⟨.hbm, 97, rfl⟩
abbrev main_call4_v1 : Ref sig .tc := ⟨.hbm, 98, rfl⟩
abbrev main_call4_cst_0 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_v6 : Ref sig .tc := ⟨.hbm, 104, rfl⟩
abbrev main_call4_v7 : Ref sig .tc := ⟨.hbm, 105, rfl⟩
abbrev main_call4_cst_1 : Ref sig .tc := ⟨.hbm, 106, rfl⟩
abbrev main_call4_v8 : Ref sig .tc := ⟨.hbm, 107, rfl⟩
abbrev main_call4_cst_2 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_cst_3 : Ref sig .tc := ⟨.hbm, 112, rfl⟩
abbrev main_call4_v12 : Ref sig .tc := ⟨.hbm, 113, rfl⟩
abbrev main_call4_cst_4 : Ref sig .tc := ⟨.hbm, 114, rfl⟩
abbrev main_call4_call0_v0 : Ref sig .tc := ⟨.hbm, 115, rfl⟩
abbrev main_call4_call0_v1 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_cst_11 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_call5_cst : Ref sig .tc := ⟨.hbm, 134, rfl⟩
abbrev main_call5_v0 : Ref sig .tc := ⟨.hbm, 135, rfl⟩
abbrev main_v70 : Ref sig .tc := ⟨.hbm, 136, rfl⟩
abbrev main_c_12 : Ref sig .tc := ⟨.hbm, 137, rfl⟩
abbrev main_v71 : Ref sig .tc := ⟨.hbm, 138, rfl⟩
abbrev main_v72 : Ref sig .tc := ⟨.hbm, 139, rfl⟩
abbrev main_c_13 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_cst_14 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_call6_cst : Ref sig .tc := ⟨.hbm, 158, rfl⟩
abbrev main_call6_v0 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_cst_15 : Ref sig .tc := ⟨.hbm, 167, rfl⟩
abbrev main_v96 : Ref sig .tc := ⟨.hbm, 168, rfl⟩
abbrev main_v97 : Ref sig .tc := ⟨.hbm, 169, rfl⟩
abbrev main_cst_16 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_c_17 : Ref sig .tc := ⟨.hbm, 183, rfl⟩
abbrev main_v110 : Ref sig .tc := ⟨.hbm, 184, rfl⟩
abbrev main_v111 : Ref sig .tc := ⟨.hbm, 185, rfl⟩
abbrev main_c_18 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_cst_19 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_cst_20 : Ref sig .tc := ⟨.hbm, 207, rfl⟩
abbrev main_v131 : Ref sig .tc := ⟨.hbm, 208, rfl⟩
abbrev main_cst_21 : Ref sig .tc := ⟨.hbm, 209, rfl⟩
abbrev main_v132 : Ref sig .tc := ⟨.hbm, 210, rfl⟩
abbrev main_v133 : Ref sig .tc := ⟨.hbm, 211, rfl⟩
abbrev main_c_22 : Ref sig .tc := ⟨.hbm, 212, rfl⟩
abbrev main_call7_cst : Ref sig .tc := ⟨.hbm, 213, rfl⟩
abbrev main_call7_v0 : Ref sig .tc := ⟨.hbm, 214, rfl⟩
abbrev main_call7_v1 : Ref sig .tc := ⟨.hbm, 215, rfl⟩
abbrev main_call7_cst_0 : Ref sig .tc := ⟨.hbm, 216, rfl⟩
abbrev main_call7_v2 : Ref sig .tc := ⟨.hbm, 217, rfl⟩
abbrev main_call7_v3 : Ref sig .tc := ⟨.hbm, 218, rfl⟩
abbrev main_call7_v4 : Ref sig .tc := ⟨.hbm, 219, rfl⟩
abbrev main_call7_v5 : Ref sig .tc := ⟨.hbm, 220, rfl⟩
abbrev main_call7_v6 : Ref sig .tc := ⟨.hbm, 221, rfl⟩
abbrev main_call7_v7 : Ref sig .tc := ⟨.hbm, 222, rfl⟩
abbrev main_call7_cst_1 : Ref sig .tc := ⟨.hbm, 223, rfl⟩
abbrev main_call7_v8 : Ref sig .tc := ⟨.hbm, 224, rfl⟩
abbrev main_call7_cst_2 : Ref sig .tc := ⟨.hbm, 225, rfl⟩
abbrev main_call7_v9 : Ref sig .tc := ⟨.hbm, 226, rfl⟩
abbrev main_call7_v10 : Ref sig .tc := ⟨.hbm, 227, rfl⟩
abbrev main_call7_v11 : Ref sig .tc := ⟨.hbm, 228, rfl⟩
abbrev main_call7_cst_3 : Ref sig .tc := ⟨.hbm, 229, rfl⟩
abbrev main_call7_v12 : Ref sig .tc := ⟨.hbm, 230, rfl⟩
abbrev main_call7_cst_4 : Ref sig .tc := ⟨.hbm, 231, rfl⟩
abbrev main_call7_call0_v0 : Ref sig .tc := ⟨.hbm, 232, rfl⟩
abbrev main_call7_call0_v1 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_cst_23 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_call8_cst : Ref sig .tc := ⟨.hbm, 252, rfl⟩
abbrev main_call8_v0 : Ref sig .tc := ⟨.hbm, 253, rfl⟩
abbrev main_v151 : Ref sig .tc := ⟨.hbm, 254, rfl⟩
abbrev main_c_24 : Ref sig .tc := ⟨.hbm, 255, rfl⟩
abbrev main_v152 : Ref sig .tc := ⟨.hbm, 256, rfl⟩
abbrev main_v153 : Ref sig .tc := ⟨.hbm, 257, rfl⟩
abbrev main_c_25 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_cst_26 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_call9_cst : Ref sig .tc := ⟨.hbm, 276, rfl⟩
abbrev main_call9_v0 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_cst_27 : Ref sig .tc := ⟨.hbm, 285, rfl⟩
abbrev main_v177 : Ref sig .tc := ⟨.hbm, 286, rfl⟩
abbrev main_v178 : Ref sig .tc := ⟨.hbm, 287, rfl⟩
abbrev main_cst_28 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_c_29 : Ref sig .tc := ⟨.hbm, 301, rfl⟩
abbrev main_v191 : Ref sig .tc := ⟨.hbm, 302, rfl⟩
abbrev main_v192 : Ref sig .tc := ⟨.hbm, 303, rfl⟩
abbrev main_c_30 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_cst_31 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_v203 : Ref sig .tc := ⟨.hbm, 316, rfl⟩
abbrev main_v204 : Ref sig .tc := ⟨.hbm, 317, rfl⟩
abbrev main_v205 : Ref sig .tc := ⟨.hbm, 318, rfl⟩
abbrev main_v206 : Ref sig .tc := ⟨.hbm, 319, rfl⟩
abbrev main_v207 : Ref sig .tc := ⟨.hbm, 320, rfl⟩
abbrev main_v208 : Ref sig .tc := ⟨.hbm, 321, rfl⟩
abbrev main_v209 : Ref sig .tc := ⟨.hbm, 322, rfl⟩
abbrev main_v210 : Ref sig .tc := ⟨.hbm, 323, rfl⟩
abbrev main_v211 : Ref sig .tc := ⟨.hbm, 324, rfl⟩
abbrev main_cst_32 : Ref sig .tc := ⟨.hbm, 325, rfl⟩
abbrev main_v212 : Ref sig .tc := ⟨.hbm, 326, rfl⟩
abbrev main_cst_33 : Ref sig .tc := ⟨.hbm, 327, rfl⟩
abbrev main_v213 : Ref sig .tc := ⟨.hbm, 328, rfl⟩
abbrev main_v214 : Ref sig .tc := ⟨.hbm, 329, rfl⟩
abbrev main_c_34 : Ref sig .tc := ⟨.hbm, 330, rfl⟩
abbrev main_call10_cst : Ref sig .tc := ⟨.hbm, 331, rfl⟩
abbrev main_call10_v0 : Ref sig .tc := ⟨.hbm, 332, rfl⟩
abbrev main_call10_v1 : Ref sig .tc := ⟨.hbm, 333, rfl⟩
abbrev main_call10_cst_0 : Ref sig .tc := ⟨.hbm, 334, rfl⟩
abbrev main_call10_v2 : Ref sig .tc := ⟨.hbm, 335, rfl⟩
abbrev main_call10_v3 : Ref sig .tc := ⟨.hbm, 336, rfl⟩
abbrev main_call10_v4 : Ref sig .tc := ⟨.hbm, 337, rfl⟩
abbrev main_call10_v5 : Ref sig .tc := ⟨.hbm, 338, rfl⟩
abbrev main_call10_v6 : Ref sig .tc := ⟨.hbm, 339, rfl⟩
abbrev main_call10_v7 : Ref sig .tc := ⟨.hbm, 340, rfl⟩
abbrev main_call10_cst_1 : Ref sig .tc := ⟨.hbm, 341, rfl⟩
abbrev main_call10_v8 : Ref sig .tc := ⟨.hbm, 342, rfl⟩
abbrev main_call10_cst_2 : Ref sig .tc := ⟨.hbm, 343, rfl⟩
abbrev main_call10_v9 : Ref sig .tc := ⟨.hbm, 344, rfl⟩
abbrev main_call10_v10 : Ref sig .tc := ⟨.hbm, 345, rfl⟩
abbrev main_call10_v11 : Ref sig .tc := ⟨.hbm, 346, rfl⟩
abbrev main_call10_cst_3 : Ref sig .tc := ⟨.hbm, 347, rfl⟩
abbrev main_call10_v12 : Ref sig .tc := ⟨.hbm, 348, rfl⟩
abbrev main_call10_cst_4 : Ref sig .tc := ⟨.hbm, 349, rfl⟩
abbrev main_call10_call0_v0 : Ref sig .tc := ⟨.hbm, 350, rfl⟩
abbrev main_call10_call0_v1 : Ref sig .tc := ⟨.hbm, 351, rfl⟩
abbrev main_v215 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_cst_35 : Ref sig .tc := ⟨.hbm, 356, rfl⟩
abbrev main_v219 : Ref sig .tc := ⟨.hbm, 357, rfl⟩
abbrev main_v220 : Ref sig .tc := ⟨.hbm, 358, rfl⟩
abbrev main_v221 : Ref sig .tc := ⟨.hbm, 359, rfl⟩
abbrev main_v222 : Ref sig .tc := ⟨.hbm, 360, rfl⟩
abbrev main_v223 : Ref sig .tc := ⟨.hbm, 361, rfl⟩
abbrev main_v224 : Ref sig .tc := ⟨.hbm, 362, rfl⟩
abbrev main_v225 : Ref sig .tc := ⟨.hbm, 363, rfl⟩
abbrev main_v226 : Ref sig .tc := ⟨.hbm, 364, rfl⟩
abbrev main_v227 : Ref sig .tc := ⟨.hbm, 365, rfl⟩
abbrev main_v228 : Ref sig .tc := ⟨.hbm, 366, rfl⟩
abbrev main_v229 : Ref sig .tc := ⟨.hbm, 367, rfl⟩
abbrev main_v230 : Ref sig .tc := ⟨.hbm, 368, rfl⟩
abbrev main_v231 : Ref sig .tc := ⟨.hbm, 369, rfl⟩
abbrev main_call11_cst : Ref sig .tc := ⟨.hbm, 370, rfl⟩
abbrev main_call11_v0 : Ref sig .tc := ⟨.hbm, 371, rfl⟩
abbrev main_v232 : Ref sig .tc := ⟨.hbm, 372, rfl⟩
abbrev main_c_36 : Ref sig .tc := ⟨.hbm, 373, rfl⟩
abbrev main_v233 : Ref sig .tc := ⟨.hbm, 374, rfl⟩
abbrev main_v234 : Ref sig .tc := ⟨.hbm, 375, rfl⟩
abbrev main_c_37 : Ref sig .tc := ⟨.hbm, 376, rfl⟩
abbrev main_v235 : Ref sig .tc := ⟨.hbm, 377, rfl⟩
abbrev main_v236 : Ref sig .tc := ⟨.hbm, 378, rfl⟩
abbrev main_v237 : Ref sig .tc := ⟨.hbm, 379, rfl⟩
abbrev main_v238 : Ref sig .tc := ⟨.hbm, 380, rfl⟩
abbrev main_v239 : Ref sig .tc := ⟨.hbm, 381, rfl⟩
abbrev main_cst_38 : Ref sig .tc := ⟨.hbm, 382, rfl⟩
abbrev main_v240 : Ref sig .tc := ⟨.hbm, 383, rfl⟩
abbrev main_v241 : Ref sig .tc := ⟨.hbm, 384, rfl⟩
abbrev main_v242 : Ref sig .tc := ⟨.hbm, 385, rfl⟩
abbrev main_v243 : Ref sig .tc := ⟨.hbm, 386, rfl⟩
abbrev main_v244 : Ref sig .tc := ⟨.hbm, 387, rfl⟩
abbrev main_v245 : Ref sig .tc := ⟨.hbm, 388, rfl⟩
abbrev main_v246 : Ref sig .tc := ⟨.hbm, 389, rfl⟩
abbrev main_v247 : Ref sig .tc := ⟨.hbm, 390, rfl⟩
abbrev main_v248 : Ref sig .tc := ⟨.hbm, 391, rfl⟩
abbrev main_v249 : Ref sig .tc := ⟨.hbm, 392, rfl⟩
abbrev main_v250 : Ref sig .tc := ⟨.hbm, 393, rfl⟩
abbrev main_call12_cst : Ref sig .tc := ⟨.hbm, 394, rfl⟩
abbrev main_call12_v0 : Ref sig .tc := ⟨.hbm, 395, rfl⟩
abbrev main_v251 : Ref sig .tc := ⟨.hbm, 396, rfl⟩
abbrev main_v252 : Ref sig .tc := ⟨.hbm, 397, rfl⟩
abbrev main_v253 : Ref sig .tc := ⟨.hbm, 398, rfl⟩
abbrev main_v254 : Ref sig .tc := ⟨.hbm, 399, rfl⟩
abbrev main_v255 : Ref sig .tc := ⟨.hbm, 400, rfl⟩
abbrev main_v256 : Ref sig .tc := ⟨.hbm, 401, rfl⟩
abbrev main_v257 : Ref sig .tc := ⟨.hbm, 402, rfl⟩
abbrev main_cst_39 : Ref sig .tc := ⟨.hbm, 403, rfl⟩
abbrev main_v258 : Ref sig .tc := ⟨.hbm, 404, rfl⟩
abbrev main_v259 : Ref sig .tc := ⟨.hbm, 405, rfl⟩
abbrev main_cst_40 : Ref sig .tc := ⟨.hbm, 406, rfl⟩
abbrev main_v260 : Ref sig .tc := ⟨.hbm, 407, rfl⟩
abbrev main_v261 : Ref sig .tc := ⟨.hbm, 408, rfl⟩
abbrev main_v262 : Ref sig .tc := ⟨.hbm, 409, rfl⟩
abbrev main_v263 : Ref sig .tc := ⟨.hbm, 410, rfl⟩
abbrev main_v264 : Ref sig .tc := ⟨.hbm, 411, rfl⟩
abbrev main_v265 : Ref sig .tc := ⟨.hbm, 412, rfl⟩
abbrev main_v266 : Ref sig .tc := ⟨.hbm, 413, rfl⟩
abbrev main_v267 : Ref sig .tc := ⟨.hbm, 414, rfl⟩
abbrev main_v268 : Ref sig .tc := ⟨.hbm, 415, rfl⟩
abbrev main_v269 : Ref sig .tc := ⟨.hbm, 416, rfl⟩
abbrev main_v270 : Ref sig .tc := ⟨.hbm, 417, rfl⟩
abbrev main_v271 : Ref sig .tc := ⟨.hbm, 418, rfl⟩
abbrev main_c_41 : Ref sig .tc := ⟨.hbm, 419, rfl⟩
abbrev main_v272 : Ref sig .tc := ⟨.hbm, 420, rfl⟩
abbrev main_v273 : Ref sig .tc := ⟨.hbm, 421, rfl⟩
abbrev main_c_42 : Ref sig .tc := ⟨.hbm, 422, rfl⟩
abbrev main_v274 : Ref sig .tc := ⟨.hbm, 423, rfl⟩
abbrev main_v275 : Ref sig .tc := ⟨.hbm, 424, rfl⟩
abbrev main_v276 : Ref sig .tc := ⟨.hbm, 425, rfl⟩
abbrev main_v277 : Ref sig .tc := ⟨.hbm, 426, rfl⟩
abbrev main_v278 : Ref sig .tc := ⟨.hbm, 427, rfl⟩
abbrev main_cst_43 : Ref sig .tc := ⟨.hbm, 428, rfl⟩
abbrev main_v279 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_v283 : Ref sig .tc := ⟨.hbm, 433, rfl⟩
abbrev main_v284 : Ref sig .tc := ⟨.hbm, 434, rfl⟩
abbrev main_v285 : Ref sig .tc := ⟨.hbm, 435, rfl⟩
abbrev main_v286 : Ref sig .tc := ⟨.hbm, 436, rfl⟩
abbrev main_v287 : Ref sig .tc := ⟨.hbm, 437, rfl⟩
abbrev main_v288 : Ref sig .tc := ⟨.hbm, 438, rfl⟩
abbrev main_v289 : Ref sig .tc := ⟨.hbm, 439, rfl⟩
abbrev main_v290 : Ref sig .tc := ⟨.hbm, 440, rfl⟩
abbrev main_v291 : Ref sig .tc := ⟨.hbm, 441, rfl⟩
abbrev main_v292 : Ref sig .tc := ⟨.hbm, 442, rfl⟩
abbrev main_cst_44 : Ref sig .tc := ⟨.hbm, 443, rfl⟩
abbrev main_v293 : Ref sig .tc := ⟨.hbm, 444, rfl⟩
abbrev main_cst_45 : Ref sig .tc := ⟨.hbm, 445, rfl⟩
abbrev main_v294 : Ref sig .tc := ⟨.hbm, 446, rfl⟩
abbrev main_v295 : Ref sig .tc := ⟨.hbm, 447, rfl⟩
abbrev main_c_46 : Ref sig .tc := ⟨.hbm, 448, rfl⟩
abbrev main_call13_cst : Ref sig .tc := ⟨.hbm, 449, rfl⟩
abbrev main_call13_v0 : Ref sig .tc := ⟨.hbm, 450, rfl⟩
abbrev main_call13_v1 : Ref sig .tc := ⟨.hbm, 451, rfl⟩
abbrev main_call13_cst_0 : Ref sig .tc := ⟨.hbm, 452, rfl⟩
abbrev main_call13_v2 : Ref sig .tc := ⟨.hbm, 453, rfl⟩
abbrev main_call13_v3 : Ref sig .tc := ⟨.hbm, 454, rfl⟩
abbrev main_call13_v4 : Ref sig .tc := ⟨.hbm, 455, rfl⟩
abbrev main_call13_v5 : Ref sig .tc := ⟨.hbm, 456, rfl⟩
abbrev main_call13_v6 : Ref sig .tc := ⟨.hbm, 457, rfl⟩
abbrev main_call13_v7 : Ref sig .tc := ⟨.hbm, 458, rfl⟩
abbrev main_call13_cst_1 : Ref sig .tc := ⟨.hbm, 459, rfl⟩
abbrev main_call13_v8 : Ref sig .tc := ⟨.hbm, 460, rfl⟩
abbrev main_call13_cst_2 : Ref sig .tc := ⟨.hbm, 461, rfl⟩
abbrev main_call13_v9 : Ref sig .tc := ⟨.hbm, 462, rfl⟩
abbrev main_call13_v10 : Ref sig .tc := ⟨.hbm, 463, rfl⟩
abbrev main_call13_v11 : Ref sig .tc := ⟨.hbm, 464, rfl⟩
abbrev main_call13_cst_3 : Ref sig .tc := ⟨.hbm, 465, rfl⟩
abbrev main_call13_v12 : Ref sig .tc := ⟨.hbm, 466, rfl⟩
abbrev main_call13_cst_4 : Ref sig .tc := ⟨.hbm, 467, rfl⟩
abbrev main_call13_call0_v0 : Ref sig .tc := ⟨.hbm, 468, rfl⟩
abbrev main_call13_call0_v1 : Ref sig .tc := ⟨.hbm, 469, rfl⟩
abbrev main_v296 : Ref sig .tc := ⟨.hbm, 470, rfl⟩
abbrev main_v297 : Ref sig .tc := ⟨.hbm, 471, rfl⟩
abbrev main_v298 : Ref sig .tc := ⟨.hbm, 472, rfl⟩
abbrev main_v299 : Ref sig .tc := ⟨.hbm, 473, rfl⟩
abbrev main_cst_47 : Ref sig .tc := ⟨.hbm, 474, rfl⟩
abbrev main_v300 : Ref sig .tc := ⟨.hbm, 475, rfl⟩
abbrev main_v301 : Ref sig .tc := ⟨.hbm, 476, rfl⟩
abbrev main_v302 : Ref sig .tc := ⟨.hbm, 477, rfl⟩
abbrev main_v303 : Ref sig .tc := ⟨.hbm, 478, rfl⟩
abbrev main_v304 : Ref sig .tc := ⟨.hbm, 479, rfl⟩
abbrev main_v305 : Ref sig .tc := ⟨.hbm, 480, rfl⟩
abbrev main_v306 : Ref sig .tc := ⟨.hbm, 481, rfl⟩
abbrev main_v307 : Ref sig .tc := ⟨.hbm, 482, rfl⟩
abbrev main_v308 : Ref sig .tc := ⟨.hbm, 483, rfl⟩
abbrev main_v309 : Ref sig .tc := ⟨.hbm, 484, rfl⟩
abbrev main_v310 : Ref sig .tc := ⟨.hbm, 485, rfl⟩
abbrev main_v311 : Ref sig .tc := ⟨.hbm, 486, rfl⟩
abbrev main_v312 : Ref sig .tc := ⟨.hbm, 487, rfl⟩
abbrev main_call14_cst : Ref sig .tc := ⟨.hbm, 488, rfl⟩
abbrev main_call14_v0 : Ref sig .tc := ⟨.hbm, 489, rfl⟩
abbrev main_v313 : Ref sig .tc := ⟨.hbm, 490, rfl⟩
abbrev main_v314 : Ref sig .tc := ⟨.hbm, 491, rfl⟩
abbrev main_v315 : Ref sig .tc := ⟨.hbm, 492, rfl⟩
abbrev main_v316 : Ref sig .tc := ⟨.hbm, 493, rfl⟩
abbrev main_v317 : Ref sig .tc := ⟨.hbm, 494, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S4x64_S1x64_0_0 : S4x64.Slices ![0, 0] S1x64
  shapeCasts_S1x64_S64 : S1x64.ShapeCasts S64
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  slices_S4x64_S1x64_1_0 : S4x64.Slices ![1, 0] S1x64
  slices_S3x64x64_S1x64x64_1_0_0 : S3x64x64.Slices ![1, 0, 0] S1x64x64
  slices_S3x64_S1x64_1_0 : S3x64.Slices ![1, 0] S1x64
  slices_S4x64_S1x64_2_0 : S4x64.Slices ![2, 0] S1x64
  slices_S3x64x64_S1x64x64_2_0_0 : S3x64x64.Slices ![2, 0, 0] S1x64x64
  slices_S3x64_S1x64_2_0 : S3x64.Slices ![2, 0] S1x64
  slices_S4x64_S1x64_3_0 : S4x64.Slices ![3, 0] S1x64
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  dot_S100000x32_S32x128_S100000x128_1_0_0_1_n_n_wf : DotDims.WF S100000x32 S32x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x1_S100000x1_1_0_0_1_n_n_wf : DotDims.WF S100000x64 S64x1 S100000x1 [1] [0] [0] [1] [] []
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KRun.lean ====
/-
  The idealized kernel program's run with its result named.

  Every weakly fair execution of @main terminates without a fault; in the final state the result array holds what the
  last boundary of the program's fold over its 28 segments holds there, and every argument array is as launched.  The
  fold alternates stretches of host operations (each applied to the contents its stretch starts from) with pallas
  regions (each leaving in its output array what its grid points wrote back).  The argument is the one the frame
  statement has: the launch over the segments, the last thread state read against the final state; here the result
  buffer is read as well.
-/
import proofs.«130402_j14499809591446_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read at the last boundary's contents. -/
theorem run_result : θ_run defs (onTc (τ := τ) (main (F := F))) ⟨m, fun _ => 0, ρ⟩ (fun r => ∀ c : Dev nD,
      r.2.mem ((c.tc : Thread nD τ).loc main_v235) = W28 m ρ c (Proc.devRef .tc main_v235)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v235 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c),
       (h c _ (mem_uc main_arg9 (by decide))).trans (W28_main_arg9 m ρ c),
       (h c _ (mem_uc main_arg10 (by decide))).trans (W28_main_arg10 m ρ c),
       (h c _ (mem_uc main_arg11 (by decide))).trans (W28_main_arg11 m ρ c),
       (h c _ (mem_uc main_arg12 (by decide))).trans (W28_main_arg12 m ρ c),
       (h c _ (mem_uc main_arg13 (by decide))).trans (W28_main_arg13 m ρ c),
       (h c _ (mem_uc main_arg14 (by decide))).trans (W28_main_arg14 m ρ c),
       (h c _ (mem_uc main_arg15 (by decide))).trans (W28_main_arg15 m ρ c),
       (h c _ (mem_uc main_arg16 (by decide))).trans (W28_main_arg16 m ρ c),
       (h c _ (mem_uc main_arg17 (by decide))).trans (W28_main_arg17 m ρ c),
       (h c _ (mem_uc main_arg18 (by decide))).trans (W28_main_arg18 m ρ c),
       (h c _ (mem_uc main_arg19 (by decide))).trans (W28_main_arg19 m ρ c),
       (h c _ (mem_uc main_arg20 (by decide))).trans (W28_main_arg20 m ρ c)⟩)

end Cert.KernelIdeal.KRun

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«130402_j14499809591446_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibTileOps.lean ====
/-
  The three array operations a two-layer graph convolution is made of, entry by entry, and the two ways each is spelt.

  * `matProd x w`: the matrix product, entry (p, c) the sum over k of x(p, k) · w(k, c).
  * `scaleRows x n`: row p of x multiplied by the p-th entry of a one-column array n.
  * `addRow x b`: a one-row array b added to every row of x; `addRowClamp x b` the same, then the maximum with the
    zero literal's value.

  Each is what a tiled kernel computes block by block, and each is also a composition of whole-array host operations:
  a dot_general; a product with a vector broadcast to one column and then along the rows; a sum with a vector broadcast
  to one row and then down the columns; and a maximum with a broadcast scalar.  A vector cast to a column (or a row)
  and the same vector broadcast to a column (or a row) are the same array, which is where the two spellings meet.
  Nothing here needs an entry to be finite: every equation is the same product, sum or maximum of the same entries.
  Generic in the extents A, K, B and in the records of the host operations.
-/
import Idealize.ShloMosaic.PureOps.Ideal.Laws
import Idealize.ShloMosaic.Lib.ValueIdx
import Idealize.ShloMosaic.Lib.ValueLayout
import Idealize.ShloMosaic.Lib.Pipeline.Value
import proofs.«130402_j14499809591446_2_alg».proof.Proof.LibPlainDotFormats
import proofs.«130402_j14499809591446_2_alg».proof.Proof.LibKeepdims
import proofs.«130402_j14499809591446_2_alg».proof.Proof.LibJoinedRows
import proofs.«130402_j14499809591446_2_alg».proof.Proof.LibRowBcast

noncomputable section

namespace Cert.LibTileOps

open Idealize.ShloMosaic Idealize.ShloMosaic.ValueIdx
open scoped BigOperators

variable {A K B : ℕ}

/-- The matrix product, entry by entry. -/
def matProd (x : FVec Ideal ⟨2, ![A, K]⟩ .f32) (w : FVec Ideal ⟨2, ![K, B]⟩ .f32) : FVec Ideal ⟨2, ![A, B]⟩ .f32 :=
  fun i => ∑ k : Fin K, x (ix2 (i 0) k) * w (ix2 k (i 1))

/-- Row `p` multiplied by entry `p` of a one-column array. -/
def scaleRows (x : FVec Ideal ⟨2, ![A, B]⟩ .f32) (n : FVec Ideal ⟨2, ![A, 1]⟩ .f32) : FVec Ideal ⟨2, ![A, B]⟩ .f32 :=
  fun i => x i * n (ix2 (i 0) (0 : Fin 1))

/-- A one-row array added to every row. -/
def addRow (x : FVec Ideal ⟨2, ![A, B]⟩ .f32) (b : FVec Ideal ⟨2, ![1, B]⟩ .f32) : FVec Ideal ⟨2, ![A, B]⟩ .f32 :=
  fun i => x i + b (ix2 (0 : Fin 1) (i 1))

/-- A one-row array added to every row, then the maximum with the zero literal's value. -/
def addRowClamp (x : FVec Ideal ⟨2, ![A, B]⟩ .f32) (b : FVec Ideal ⟨2, ![1, B]⟩ .f32) : FVec Ideal ⟨2, ![A, B]⟩ .f32 :=
  fun i => max (x i + b (ix2 (0 : Fin 1) (i 1))) (Ideal.ofBits .f32 0x00000000#32)

theorem matProd_apply (x : FVec Ideal ⟨2, ![A, K]⟩ .f32) (w : FVec Ideal ⟨2, ![K, B]⟩ .f32) (p : Fin A) (c : Fin B) :
    matProd x w (ix2 p c) = ∑ k : Fin K, x (ix2 p k) * w (ix2 k c) := rfl

theorem scaleRows_apply (x : FVec Ideal ⟨2, ![A, B]⟩ .f32) (n : FVec Ideal ⟨2, ![A, 1]⟩ .f32) (p : Fin A) (q : Fin B) :
    scaleRows x n (ix2 p q) = x (ix2 p q) * n (ix2 p (0 : Fin 1)) := rfl

theorem addRow_apply (x : FVec Ideal ⟨2, ![A, B]⟩ .f32) (b : FVec Ideal ⟨2, ![1, B]⟩ .f32) (p : Fin A) (q : Fin B) :
    addRow x b (ix2 p q) = x (ix2 p q) + b (ix2 (0 : Fin 1) q) := rfl

theorem addRowClamp_apply (x : FVec Ideal ⟨2, ![A, B]⟩ .f32) (b : FVec Ideal ⟨2, ![1, B]⟩ .f32) (p : Fin A) (q : Fin B) :
    addRowClamp x b (ix2 p q) = max (x (ix2 p q) + b (ix2 (0 : Fin 1) q)) (Ideal.ofBits .f32 0x00000000#32) := rfl

/-! ## The host spellings -/

/-- A host dot_general of plain dimension numbers is the matrix product. -/
theorem dotGeneral_eq_matProd {D : DotDims ⟨2, ![A, K]⟩ ⟨2, ![K, B]⟩ ⟨2, ![A, B]⟩} (h : Cert.LibPlainDot.Plain D)
    (prec : Option ContractPrecision) (x : FVec Ideal ⟨2, ![A, K]⟩ .f32) (w : FVec Ideal ⟨2, ![K, B]⟩ .f32) :
    Host.dotGeneral D prec x w = matProd x w := by
  funext i
  obtain ⟨p, c, rfl⟩ : ∃ (p : Fin A) (c : Fin B), i = ix2 p c := ⟨i 0, i 1, eq_ix2 i⟩
  simp only [Host.dotGeneral]
  exact h.dotGeneral_apply prec _ x w p c

/-- A product with a vector broadcast to one column and then along the rows scales row `p` by the vector's entry
    `p`: the vector cast to a column is the same column. -/
theorem mulf_bcast_col_eq_scaleRows
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hc : (⟨1, ![A]⟩ : Shape).ShapeCasts ⟨2, ![A, 1]⟩)
    (y : FVec Ideal ⟨2, ![A, B]⟩ .f32) (n : FVec Ideal ⟨1, ![A]⟩ .f32) :
    mulf y (broadcastInDim ⟨2, ![A, B]⟩ ![0, 1] h2 (broadcastInDim ⟨2, ![A, 1]⟩ ![0] h1 n))
      = scaleRows y (shapeCast ⟨2, ![A, 1]⟩ n hc) := by
  funext i
  obtain ⟨p, q, rfl⟩ : ∃ (p : Fin A) (q : Fin B), i = ix2 p q := ⟨i 0, i 1, eq_ix2 i⟩
  rw [scaleRows_apply, mulf_apply, Cert.LibJoinedRows.bcast_col_rows_apply, Cert.LibJoinedRows.bcast_vec_col_apply,
    Cert.LibKeepdims.shapeCast_a_a1_apply]

/-- A sum with a vector broadcast to one row and then down the columns adds the vector's entry `q` to column `q`:
    the vector cast to a row is the same row. -/
theorem addf_bcast_row_eq_addRow
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (y : FVec Ideal ⟨2, ![A, B]⟩ .f32) (b : FVec Ideal ⟨1, ![B]⟩ .f32) :
    addf y (broadcastInDim ⟨2, ![A, B]⟩ ![0, 1] h2 (broadcastInDim ⟨2, ![1, B]⟩ ![1] h1 b))
      = addRow y (shapeCast ⟨2, ![1, B]⟩ b hc) := by
  funext i
  obtain ⟨p, q, rfl⟩ : ∃ (p : Fin A) (q : Fin B), i = ix2 p q := ⟨i 0, i 1, eq_ix2 i⟩
  rw [addRow_apply, addf_apply, Cert.LibRowBcast.bcast_vec_rows_apply, shapeCast_a_1a_apply]

/-- The same, followed by the maximum with a broadcast zero literal. -/
theorem maximumf_addf_bcast_row_eq_addRowClamp
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (h0 : (⟨0, ![]⟩ : Shape).BroadcastsInDim ⟨2, ![A, B]⟩ (![] : Fin 0 → Fin 2))
    (y : FVec Ideal ⟨2, ![A, B]⟩ .f32) (b : FVec Ideal ⟨1, ![B]⟩ .f32) :
    maximumf (addf y (broadcastInDim ⟨2, ![A, B]⟩ ![0, 1] h2 (broadcastInDim ⟨2, ![1, B]⟩ ![1] h1 b)))
        (broadcastInDim ⟨2, ![A, B]⟩ ![] h0 (constant (F := Ideal) ⟨0, ![]⟩ .f32 0x00000000#32))
      = addRowClamp y (shapeCast ⟨2, ![1, B]⟩ b hc) := by
  funext i
  obtain ⟨p, q, rfl⟩ : ∃ (p : Fin A) (q : Fin B), i = ix2 p q := ⟨i 0, i 1, eq_ix2 i⟩
  rw [addRowClamp_apply, maximumf_apply, addf_apply, Cert.LibRowBcast.bcast_vec_rows_apply, shapeCast_a_1a_apply,
    Cert.LibJoinedRows.bcast_scalar_apply, constant_apply]

end Cert.LibTileOps

end
-- ==== Proof.Net.lean ====
/-
  The network's dense stages, entry by entry, over the extended reals, generic in the number of rows.

  Every stage here is row-local: entry (p, q) of its result is computed from row p of each row-indexed operand and from
  the small weight arrays.  A tiled kernel therefore computes, on a block of rows, the block of the whole-array result,
  and a composition of whole-array host operations computes the same entries.

  * encoder x: three matrix products with a bias row each, the first two followed by the maximum with zero.
  * linear a: one matrix product and a bias row.
  * bnAffine y: (y - mu) * rsqrt (var + eps) * gamma + beta, column statistics given as one-row arrays.
  * bnRelu / bnResRelu: the same, (plus a residual,) then the maximum with zero.
  * gate h nb: the logistic function of a two-layer perceptron of the joined row (h | nb); attn h nb = h + gate * nb.
  * classifier: bnResRelu followed by a matrix product and a bias row.
-/
import proofs.«130402_j14499809591446_2_alg».proof.Proof.LibTileOps

noncomputable section

namespace Cert.Net

open Idealize.ShloMosaic Idealize.ShloMosaic.ValueIdx Cert.LibTileOps
open scoped BigOperators

/-- An f32 matrix at the ideal values. -/
abbrev Mat (a b : ℕ) := FVec Ideal ⟨2, ![a, b]⟩ .f32

variable {A A' K : ℕ}

/-- The value of the zero literal. -/
def zero : EReal := Ideal.ofBits .f32 0x00000000#32
/-- The value of the batch-norm epsilon literal. -/
def eps : EReal := Ideal.ofBits .f32 0x3727C5AC#32

/-- Two arrays with the same rows side by side. -/
def joinCols (h nb : Mat A 64) : Mat A 128 := fun i =>
  if hlt : (i 1).val < 64 then h (ix2 (i 0) ⟨(i 1).val, hlt⟩)
  else nb (ix2 (i 0) ⟨(i 1).val - 64, by have := (i 1).isLt; simp only [Matrix.cons_val_one, Matrix.cons_val_zero] at this; omega⟩)

def encoder (x : Mat A 128) (W1 : Mat 128 64) (b1 : Mat 1 64) (W2 : Mat 64 32) (b2 : Mat 1 32) (W3 : Mat 32 128) (b3 : Mat 1 128) :
    Mat A 128 :=
  addRow (matProd (addRowClamp (matProd (addRowClamp (matProd x W1) b1) W2) b2) W3) b3

def linear (a : Mat A K) (W : Mat K 64) (b : Mat 1 64) : Mat A 64 := addRow (matProd a W) b

def bnAffine (y : Mat A 64) (g bt mu var : Mat 1 64) : Mat A 64 := fun i =>
  (y i - mu (ix2 (0 : Fin 1) (i 1))) * Ideal.rsqrt (var (ix2 (0 : Fin 1) (i 1)) + eps) * g (ix2 (0 : Fin 1) (i 1)) + bt (ix2 (0 : Fin 1) (i 1))

def bnRelu (y : Mat A 64) (g bt mu var : Mat 1 64) : Mat A 64 := fun i => max (bnAffine y g bt mu var i) zero

def bnResRelu (y : Mat A 64) (g bt mu var : Mat 1 64) (h : Mat A 64) : Mat A 64 := fun i => max (bnAffine y g bt mu var i + h i) zero

def gate (h nb : Mat A 64) (W1 : Mat 128 64) (b1 : Mat 1 64) (W2 : Mat 64 1) (b2 : Mat 1 1) : Mat A 1 := fun i =>
  Ideal.logistic (addRow (matProd (addRowClamp (matProd (joinCols h nb) W1) b1) W2) b2 i)

def attn (h nb : Mat A 64) (W1 : Mat 128 64) (b1 : Mat 1 64) (W2 : Mat 64 1) (b2 : Mat 1 1) : Mat A 64 := fun i =>
  h i + gate h nb W1 b1 W2 b2 (ix2 (i 0) (0 : Fin 1)) * nb i

def classifier (y : Mat A 64) (g bt mu var : Mat 1 64) (h : Mat A 64) (fcW : Mat 64 16) (fcb : Mat 1 16) : Mat A 16 :=
  addRow (matProd (bnResRelu y g bt mu var h) fcW) fcb

/-! ## Entry forms -/

theorem joinCols_left (h nb : Mat A 64) (p : Fin A) (k : Fin 128) (hk : k.val < 64) :
    joinCols h nb (ix2 p k) = h (ix2 p ⟨k.val, hk⟩) := by
  unfold joinCols; exact dif_pos hk

theorem joinCols_right (h nb : Mat A 64) (p : Fin A) (k : Fin 128) (hk : ¬ k.val < 64) :
    joinCols h nb (ix2 p k) = nb (ix2 p ⟨k.val - 64, by have := k.isLt; omega⟩) := by
  unfold joinCols; exact dif_neg hk

theorem bnAffine_apply (y : Mat A 64) (g bt mu var : Mat 1 64) (p : Fin A) (q : Fin 64) :
    bnAffine y g bt mu var (ix2 p q)
      = (y (ix2 p q) - mu (ix2 (0 : Fin 1) q)) * Ideal.rsqrt (var (ix2 (0 : Fin 1) q) + eps) * g (ix2 (0 : Fin 1) q) + bt (ix2 (0 : Fin 1) q) := rfl

theorem bnRelu_apply (y : Mat A 64) (g bt mu var : Mat 1 64) (p : Fin A) (q : Fin 64) :
    bnRelu y g bt mu var (ix2 p q) = max (bnAffine y g bt mu var (ix2 p q)) zero := rfl

theorem bnResRelu_apply (y : Mat A 64) (g bt mu var : Mat 1 64) (h : Mat A 64) (p : Fin A) (q : Fin 64) :
    bnResRelu y g bt mu var h (ix2 p q) = max (bnAffine y g bt mu var (ix2 p q) + h (ix2 p q)) zero := rfl

theorem gate_apply (h nb : Mat A 64) (W1 : Mat 128 64) (b1 : Mat 1 64) (W2 : Mat 64 1) (b2 : Mat 1 1) (p : Fin A) :
    gate h nb W1 b1 W2 b2 (ix2 p (0 : Fin 1))
      = Ideal.logistic (addRow (matProd (addRowClamp (matProd (joinCols h nb) W1) b1) W2) b2 (ix2 p (0 : Fin 1))) := rfl

theorem attn_apply (h nb : Mat A 64) (W1 : Mat 128 64) (b1 : Mat 1 64) (W2 : Mat 64 1) (b2 : Mat 1 1) (p : Fin A) (q : Fin 64) :
    attn h nb W1 b1 W2 b2 (ix2 p q) = h (ix2 p q) + gate h nb W1 b1 W2 b2 (ix2 p (0 : Fin 1)) * nb (ix2 p q) := rfl

/-! ## Row-locality: a stage's entry in row p' of a block is its entry in row p of the whole array when the block's
    row p' is the array's row p -/

theorem matProd_rows {B : ℕ} (x : Mat A K) (x' : Mat A' K) (w : Mat K B) (p : Fin A) (p' : Fin A')
    (hx : ∀ k, x' (ix2 p' k) = x (ix2 p k)) (c : Fin B) : matProd x' w (ix2 p' c) = matProd x w (ix2 p c) := by
  rw [matProd_apply, matProd_apply]; exact Finset.sum_congr rfl fun k _ => by rw [hx k]

theorem addRowClamp_rows {B : ℕ} (x : Mat A B) (x' : Mat A' B) (b : Mat 1 B) (p : Fin A) (p' : Fin A')
    (hx : ∀ k, x' (ix2 p' k) = x (ix2 p k)) (c : Fin B) : addRowClamp x' b (ix2 p' c) = addRowClamp x b (ix2 p c) := by
  rw [addRowClamp_apply, addRowClamp_apply, hx c]

theorem addRow_rows {B : ℕ} (x : Mat A B) (x' : Mat A' B) (b : Mat 1 B) (p : Fin A) (p' : Fin A')
    (hx : ∀ k, x' (ix2 p' k) = x (ix2 p k)) (c : Fin B) : addRow x' b (ix2 p' c) = addRow x b (ix2 p c) := by
  rw [addRow_apply, addRow_apply, hx c]

theorem encoder_rows (x : Mat A 128) (x' : Mat A' 128) (W1 : Mat 128 64) (b1 : Mat 1 64) (W2 : Mat 64 32) (b2 : Mat 1 32)
    (W3 : Mat 32 128) (b3 : Mat 1 128) (p : Fin A) (p' : Fin A') (hx : ∀ k, x' (ix2 p' k) = x (ix2 p k)) (q : Fin 128) :
    encoder x' W1 b1 W2 b2 W3 b3 (ix2 p' q) = encoder x W1 b1 W2 b2 W3 b3 (ix2 p q) := by
  unfold encoder
  exact addRow_rows _ _ _ p p' (matProd_rows _ _ _ p p' (addRowClamp_rows _ _ _ p p'
    (matProd_rows _ _ _ p p' (addRowClamp_rows _ _ _ p p' (matProd_rows _ _ _ p p' hx))))) q

theorem linear_rows (a : Mat A K) (a' : Mat A' K) (W : Mat K 64) (b : Mat 1 64) (p : Fin A) (p' : Fin A')
    (ha : ∀ k, a' (ix2 p' k) = a (ix2 p k)) (q : Fin 64) : linear a' W b (ix2 p' q) = linear a W b (ix2 p q) := by
  unfold linear; exact addRow_rows _ _ _ p p' (matProd_rows _ _ _ p p' ha) q

theorem bnAffine_rows (y : Mat A 64) (y' : Mat A' 64) (g bt mu var : Mat 1 64) (p : Fin A) (p' : Fin A')
    (hy : ∀ k, y' (ix2 p' k) = y (ix2 p k)) (q : Fin 64) : bnAffine y' g bt mu var (ix2 p' q) = bnAffine y g bt mu var (ix2 p q) := by
  rw [bnAffine_apply, bnAffine_apply, hy q]

theorem bnRelu_rows (y : Mat A 64) (y' : Mat A' 64) (g bt mu var : Mat 1 64) (p : Fin A) (p' : Fin A')
    (hy : ∀ k, y' (ix2 p' k) = y (ix2 p k)) (q : Fin 64) : bnRelu y' g bt mu var (ix2 p' q) = bnRelu y g bt mu var (ix2 p q) := by
  rw [bnRelu_apply, bnRelu_apply, bnAffine_rows y y' g bt mu var p p' hy q]

theorem bnResRelu_rows (y : Mat A 64) (y' : Mat A' 64) (g bt mu var : Mat 1 64) (h : Mat A 64) (h' : Mat A' 64) (p : Fin A) (p' : Fin A')
    (hy : ∀ k, y' (ix2 p' k) = y (ix2 p k)) (hh : ∀ k, h' (ix2 p' k) = h (ix2 p k)) (q : Fin 64) :
    bnResRelu y' g bt mu var h' (ix2 p' q) = bnResRelu y g bt mu var h (ix2 p q) := by
  rw [bnResRelu_apply, bnResRelu_apply, bnAffine_rows y y' g bt mu var p p' hy q, hh q]

theorem joinCols_rows (h nb : Mat A 64) (h' nb' : Mat A' 64) (p : Fin A) (p' : Fin A')
    (hh : ∀ k, h' (ix2 p' k) = h (ix2 p k)) (hn : ∀ k, nb' (ix2 p' k) = nb (ix2 p k)) (k : Fin 128) :
    joinCols h' nb' (ix2 p' k) = joinCols h nb (ix2 p k) := by
  by_cases hk : k.val < 64
  · rw [joinCols_left _ _ _ _ hk, joinCols_left _ _ _ _ hk, hh]
  · rw [joinCols_right _ _ _ _ hk, joinCols_right _ _ _ _ hk, hn]

theorem gate_rows (h nb : Mat A 64) (h' nb' : Mat A' 64) (W1 : Mat 128 64) (b1 : Mat 1 64) (W2 : Mat 64 1) (b2 : Mat 1 1)
    (p : Fin A) (p' : Fin A') (hh : ∀ k, h' (ix2 p' k) = h (ix2 p k)) (hn : ∀ k, nb' (ix2 p' k) = nb (ix2 p k)) :
    gate h' nb' W1 b1 W2 b2 (ix2 p' (0 : Fin 1)) = gate h nb W1 b1 W2 b2 (ix2 p (0 : Fin 1)) := by
  rw [gate_apply, gate_apply]
  exact congrArg Ideal.logistic (addRow_rows _ _ _ p p' (matProd_rows _ _ _ p p' (addRowClamp_rows _ _ _ p p'
    (matProd_rows _ _ _ p p' (joinCols_rows h nb h' nb' p p' hh hn)))) 0)

theorem attn_rows (h nb : Mat A 64) (h' nb' : Mat A' 64) (W1 : Mat 128 64) (b1 : Mat 1 64) (W2 : Mat 64 1) (b2 : Mat 1 1)
    (p : Fin A) (p' : Fin A') (hh : ∀ k, h' (ix2 p' k) = h (ix2 p k)) (hn : ∀ k, nb' (ix2 p' k) = nb (ix2 p k)) (q : Fin 64) :
    attn h' nb' W1 b1 W2 b2 (ix2 p' q) = attn h nb W1 b1 W2 b2 (ix2 p q) := by
  rw [attn_apply, attn_apply, hh q, hn q, gate_rows h nb h' nb' W1 b1 W2 b2 p p' hh hn]

theorem classifier_rows (y : Mat A 64) (y' : Mat A' 64) (g bt mu var : Mat 1 64) (h : Mat A 64) (h' : Mat A' 64)
    (fcW : Mat 64 16) (fcb : Mat 1 16) (p : Fin A) (p' : Fin A')
    (hy : ∀ k, y' (ix2 p' k) = y (ix2 p k)) (hh : ∀ k, h' (ix2 p' k) = h (ix2 p k)) (q : Fin 16) :
    classifier y' g bt mu var h' fcW fcb (ix2 p' q) = classifier y g bt mu var h fcW fcb (ix2 p q) := by
  unfold classifier
  exact addRow_rows _ _ _ p p' (matProd_rows _ _ _ p p' (bnResRelu_rows y y' g bt mu var h h' p p' hy hh)) q

end Cert.Net

end
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.Spec.lean ====
/-
  The whole network as one function of the 21 argument arrays, over the extended reals.

  Nodes are rows (100000 of them), edges are pairs (src e, dst e) of row numbers (1600000 of them).  The edge-indexed
  work — counting degrees, and summing over the edges into each destination row the source rows — is the same chain of
  host operations in both programs (a gather of rows by the wrapped source numbers, a scatter with addition by the
  destination numbers), and is carried here as those operations, unopened.  Everything else is entry-by-entry:

  * deg idx: the number of edges whose index is a row, clamped below by one; nrm d = d ^ (-1/2).
  * segSum: for every row r, the sum over the edges e with dst e = r of row (src e) of h.
  * aggregate h: segSum of (h with row p scaled by nrm (deg src) p), with row r then scaled by nrm (deg dst) r.
  * neighbour mean: segSum h with row r divided by deg dst r.
  * meanRow y: the column means; the column variance in its two spellings — varTwoPass: the mean of the squared
    deviations from the mean; varOnePass: the mean of the squares minus the squared mean.
  * the layers: layer 0 is linear ∘ aggregate followed by the normalisation and the clamp at zero; layers 1–3 first
    gate the neighbour mean into h, then linear ∘ aggregate, the normalisation plus the gated h, the clamp; the last
    layer's clamp feeds the classifier product.

  The network is parametrised by the variance spelling `varf`: the tiled program is `out varOnePass`, the plain one
  `out varTwoPass`.
-/
import proofs.«130402_j14499809591446_2_alg».proof.ReferenceIdeal
import proofs.«130402_j14499809591446_2_alg».proof.Proof.Net
import proofs.«130402_j14499809591446_2_alg».proof.Proof.LibRealEntries

noncomputable section

namespace Cert.Spec

open Idealize.ShloMosaic Idealize.ShloMosaic.ValueIdx Cert.LibTileOps Cert.Net Cert.ReferenceIdeal
open scoped BigOperators

-- the printed program's shape facts (broadcast / reduce / gather / scatter well-formedness), which its records cite
variable [Facts₀]
open Facts₀

/-- An f32 vector at the ideal values. -/
abbrev V (n : ℕ) := FVec Ideal ⟨1, ![n]⟩ .f32
/-- The edge list's halves: 1600000 row numbers. -/
abbrev EdgeIdx := IVec S1600000 32

/-- The 21 argument arrays. -/
structure Args where
  a0 : Mat 100000 128
  a1 : EdgeIdx
  a2 : EdgeIdx
  a3 : Mat 128 64
  a4 : V 64
  a5 : Mat 64 32
  a6 : V 32
  a7 : Mat 32 128
  a8 : V 128
  a9 : Mat 128 64
  a10 : V 64
  a11 : Mat 64 1
  a12 : V 1
  a13 : Mat 128 64
  a14 : V 64
  a15 : FVec Ideal ⟨3, ![3, 64, 64]⟩ .f32
  a16 : Mat 3 64
  a17 : Mat 4 64
  a18 : Mat 4 64
  a19 : Mat 64 16
  a20 : V 16

/-- Every entry of every float argument is a real number (the edge lists are integers and unconstrained). -/
structure Args.Finite (x : Args) : Prop where
  r0 : ∀ i, Cert.LibRealEntries.IsReal (x.a0 i)
  r3 : ∀ i, Cert.LibRealEntries.IsReal (x.a3 i)
  r4 : ∀ i, Cert.LibRealEntries.IsReal (x.a4 i)
  r5 : ∀ i, Cert.LibRealEntries.IsReal (x.a5 i)
  r6 : ∀ i, Cert.LibRealEntries.IsReal (x.a6 i)
  r7 : ∀ i, Cert.LibRealEntries.IsReal (x.a7 i)
  r8 : ∀ i, Cert.LibRealEntries.IsReal (x.a8 i)
  r9 : ∀ i, Cert.LibRealEntries.IsReal (x.a9 i)
  r10 : ∀ i, Cert.LibRealEntries.IsReal (x.a10 i)
  r11 : ∀ i, Cert.LibRealEntries.IsReal (x.a11 i)
  r12 : ∀ i, Cert.LibRealEntries.IsReal (x.a12 i)
  r13 : ∀ i, Cert.LibRealEntries.IsReal (x.a13 i)
  r14 : ∀ i, Cert.LibRealEntries.IsReal (x.a14 i)
  r15 : ∀ i, Cert.LibRealEntries.IsReal (x.a15 i)
  r16 : ∀ i, Cert.LibRealEntries.IsReal (x.a16 i)
  r17 : ∀ i, Cert.LibRealEntries.IsReal (x.a17 i)
  r18 : ∀ i, Cert.LibRealEntries.IsReal (x.a18 i)
  r19 : ∀ i, Cert.LibRealEntries.IsReal (x.a19 i)
  r20 : ∀ i, Cert.LibRealEntries.IsReal (x.a20 i)

/-! ## The edge-indexed chains, as the host operations both programs apply -/

/-- A list of row numbers as a one-column array. -/
def idxCol (a : EdgeIdx) : IVec S1600000x1 32 := broadcastInDim S1600000x1 ![0] bcast_S1600000_S1600000x1_0 a

/-- A negative row number wrapped by the row count (what indexing by an array does before a gather). -/
def wrapIdx (a : EdgeIdx) : EdgeIdx :=
  select (cmpi .slt a (broadcastInDim S1600000 ![] bcast_S_S1600000 (constantI S_ 32 0#32)))
    (addi a (broadcastInDim S1600000 ![] bcast_S_S1600000 (constantI S_ 32 100000#32))) a

/-- The number of edges at each row, clamped below by one. -/
def deg (a : EdgeIdx) : V 100000 :=
  maximumf (broadcastInDim S100000 ![] bcast_S_S100000 (constant (F := Ideal) S_ .f32 0x3F800000#32))
    (Host.scatterAdd scatter_S100000_S1600000x1_S1600000_n_0_0_1
      (broadcastInDim S100000 ![] bcast_S_S100000 (constant (F := Ideal) S_ .f32 0x00000000#32)) (idxCol a)
      (broadcastInDim S1600000 ![] bcast_S_S1600000 (constant (F := Ideal) S_ .f32 0x3F800000#32)))

/-- d ^ (-1/2), entry by entry. -/
def nrm (d : V 100000) : V 100000 :=
  Host.powf d (broadcastInDim S100000 ![] bcast_S_S100000 (constant (F := Ideal) S_ .f32 0xBF000000#32))

/-- For every row r, the sum over the edges into r of the source rows of a 64-column array. -/
def segSum64 (src dst : EdgeIdx) (h : Mat 100000 64) : Mat 100000 64 :=
  Host.scatterAdd scatter_S100000x64_S1600000x1_S1600000x64_1_0_0_1
    (broadcastInDim S100000x64 ![] bcast_S_S100000x64 (constant (F := Ideal) S_ .f32 0x00000000#32)) (idxCol dst)
    (Host.gather gather_S100000x64_S1600000x1_S1600000x64_1_0_n_n_0_1_164 h (idxCol (wrapIdx src)))

/-- The same for a 128-column array. -/
def segSum128 (src dst : EdgeIdx) (h : Mat 100000 128) : Mat 100000 128 :=
  Host.scatterAdd scatter_S100000x128_S1600000x1_S1600000x128_1_0_0_1
    (broadcastInDim S100000x128 ![] bcast_S_S100000x128 (constant (F := Ideal) S_ .f32 0x00000000#32)) (idxCol dst)
    (Host.gather gather_S100000x128_S1600000x1_S1600000x128_1_0_n_n_0_1_1128 h (idxCol (wrapIdx src)))

/-! ## Entry-by-entry stages -/

variable {B : ℕ}

/-- Row p multiplied by entry p of a vector. -/
def scaleVec (x : Mat 100000 B) (n : V 100000) : Mat 100000 B := fun i => x i * n (ix1 (i 0))

/-- Row p divided by entry p of a vector. -/
def divVec (x : Mat 100000 B) (n : V 100000) : Mat 100000 B := fun i => Ideal.div (x i) (n (ix1 (i 0)))

/-- A vector as a one-row array. -/
def rowOf (v : V B) : Mat 1 B := fun j => v (ix1 (j 1))

/-- Row i of a small parameter table as a one-row array. -/
def tableRow {R : ℕ} (t : Mat R 64) (i : Fin R) : Mat 1 64 := fun j => t (ix2 i (j 1))

/-- Matrix i of the stacked layer weights. -/
def tableMat (t : FVec Ideal ⟨3, ![3, 64, 64]⟩ .f32) (i : Fin 3) : Mat 64 64 := fun j => t (ix3 i (j 0) (j 1))

/-- The symmetric-normalised aggregation: scale the rows by nrm (deg src), sum over the edges, scale by nrm (deg dst). -/
def aggregate64 (src dst : EdgeIdx) (h : Mat 100000 64) : Mat 100000 64 :=
  scaleVec (segSum64 src dst (scaleVec h (nrm (deg src)))) (nrm (deg dst))

def aggregate128 (src dst : EdgeIdx) (h : Mat 100000 128) : Mat 100000 128 :=
  scaleVec (segSum128 src dst (scaleVec h (nrm (deg src)))) (nrm (deg dst))

/-- The mean of the incoming neighbours' rows (the sum divided by the clamped in-degree). -/
def nbMean (src dst : EdgeIdx) (h : Mat 100000 64) : Mat 100000 64 := divVec (segSum64 src dst h) (deg dst)

/-- The value of the row-count literal 100000.0. -/
def nf : EReal := Ideal.ofBits .f32 0x47C35000#32

/-- The column means, as a one-row array. -/
def meanRow (y : Mat 100000 64) : Mat 1 64 := fun j => Ideal.div (∑ r : Fin 100000, y (ix2 r (j 1))) nf

/-- The column variances as the mean of the squared deviations from the column mean. -/
def varTwoPass (y : Mat 100000 64) : Mat 1 64 := fun j =>
  Ideal.div (∑ r : Fin 100000, (y (ix2 r (j 1)) - meanRow y (ix2 (0 : Fin 1) (j 1))) * (y (ix2 r (j 1)) - meanRow y (ix2 (0 : Fin 1) (j 1)))) nf

/-- The column variances as the mean of the squares minus the squared mean. -/
def varOnePass (y : Mat 100000 64) : Mat 1 64 := fun j =>
  Ideal.div (∑ r : Fin 100000, y (ix2 r (j 1)) * y (ix2 r (j 1))) nf
    - meanRow y (ix2 (0 : Fin 1) (j 1)) * meanRow y (ix2 (0 : Fin 1) (j 1))

/-! ## The network -/

variable (varf : Mat 100000 64 → Mat 1 64) (x : Args)

/-- The relation-pattern encoder's output. -/
def h0 : Mat 100000 128 := encoder x.a0 x.a3 (rowOf x.a4) x.a5 (rowOf x.a6) x.a7 (rowOf x.a8)

/-- Layer 0 before its normalisation. -/
def y0 : Mat 100000 64 := linear (aggregate128 x.a1 x.a2 (h0 x)) x.a13 (rowOf x.a14)

/-- Layer 0's output. -/
def h1 : Mat 100000 64 := bnRelu (y0 x) (tableRow x.a17 0) (tableRow x.a18 0) (meanRow (y0 x)) (varf (y0 x))

/-- The attention gate: h + gate (h | mean of the neighbours) · mean of the neighbours. -/
def gated (h : Mat 100000 64) : Mat 100000 64 :=
  attn h (nbMean x.a1 x.a2 h) x.a9 (rowOf x.a10) x.a11 (rowOf x.a12)

/-- Layer i + 1 before its normalisation, from the gated h. -/
def yL (i : Fin 3) (hg : Mat 100000 64) : Mat 100000 64 :=
  linear (aggregate64 x.a1 x.a2 hg) (tableMat x.a15 i) (tableRow x.a16 i)

/-- Layer i + 1's output from layer i's. -/
def stepL (i : Fin 3) (h : Mat 100000 64) : Mat 100000 64 :=
  bnResRelu (yL x i (gated x h)) (tableRow x.a17 i.succ) (tableRow x.a18 i.succ) (meanRow (yL x i (gated x h)))
    (varf (yL x i (gated x h))) (gated x h)

/-- Layer 2's output. -/
def h3 : Mat 100000 64 := stepL varf x 1 (stepL varf x 0 (h1 varf x))

/-- The network's result: the last layer fused with the classifier. -/
def out : Mat 100000 16 :=
  classifier (yL x 2 (gated x (h3 varf x))) (tableRow x.a17 3) (tableRow x.a18 3) (meanRow (yL x 2 (gated x (h3 varf x))))
    (varf (yL x 2 (gated x (h3 varf x)))) (gated x (h3 varf x)) x.a19 (rowOf x.a20)

end Cert.Spec

end
-- ==== Proof.KArgs.lean ====
/-
  The tiled program's side of the bridge: its argument arrays as the network's argument record, what each pallas
  region is asked to compute (as statements, proved region by region elsewhere), and what is live half-way through the
  program (after the region that ends layer 1).
-/
import proofs.«130402_j14499809591446_2_alg».proof.Proof.Gen.KernelIdeal.Frame
import proofs.«130402_j14499809591446_2_alg».proof.Proof.Spec

noncomputable section

namespace Cert.KernelIdeal.KChain

open Cert.KernelIdeal Cert.KernelIdeal.Gen Idealize.ShloMosaic Idealize.ShloMosaic.TcCoe Idealize.SL.Sem

/-- The launch contents of the 21 argument arrays on core c, as the network's argument record. -/
def kargs (m : (ℓ : Loc nD τ sig) → Buf (Elt Ideal) ℓ) (c : Dev nD) : Cert.Spec.Args :=
  ⟨m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13),
    m ((c.tc : Thread nD τ).loc main_arg14),
    m ((c.tc : Thread nD τ).loc main_arg15),
    m ((c.tc : Thread nD τ).loc main_arg16),
    m ((c.tc : Thread nD τ).loc main_arg17),
    m ((c.tc : Thread nD τ).loc main_arg18),
    m ((c.tc : Thread nD τ).loc main_arg19),
    m ((c.tc : Thread nD τ).loc main_arg20)⟩

/-- Region 0's output array is its stage of the region-entry contents. -/
def Fact0 : Prop := ∀ (V : (c : Dev nD) → (b : Ref sig .tc) → Buf (Elt Ideal) ((c : Thread nD τ).loc b)) (c : Dev nD),
    (Gen.dat0 (F := Ideal) V c).arrAt 7 cfg0.N = Cert.Net.encoder (A := 100000) (V c main_arg0) (V c main_arg3) (V c main_v13) (V c main_arg5) (V c main_v14) (V c main_arg7) (V c main_v15)

/-- Region 1's output array is its stage of the region-entry contents. -/
def Fact1 : Prop := ∀ (V : (c : Dev nD) → (b : Ref sig .tc) → Buf (Elt Ideal) ((c : Thread nD τ).loc b)) (c : Dev nD),
    (Gen.dat1 (F := Ideal) V c).arrAt 3 cfg1.N = Cert.Net.linear (A := 100000) (K := 128) (V c main_v34) (V c main_arg13) (V c main_v35)

/-- Region 2's output array is its stage of the region-entry contents. -/
def Fact2 : Prop := ∀ (V : (c : Dev nD) → (b : Ref sig .tc) → Buf (Elt Ideal) ((c : Thread nD τ).loc b)) (c : Dev nD),
    (Gen.dat2 (F := Ideal) V c).arrAt 5 cfg2.N = Cert.Net.bnRelu (A := 100000) (V c main_v36) (V c main_v50) (V c main_v51) (V c main_v52) (V c main_v53)

/-- Region 3's output array is its stage of the region-entry contents. -/
def Fact3 : Prop := ∀ (V : (c : Dev nD) → (b : Ref sig .tc) → Buf (Elt Ideal) ((c : Thread nD τ).loc b)) (c : Dev nD),
    (Gen.dat3 (F := Ideal) V c).arrAt 6 cfg3.N = Cert.Net.attn (A := 100000) (V c main_v54) (V c main_v69) (V c main_arg9) (V c main_v70) (V c main_arg11) (V c main_v71)

/-- Region 4's output array is its stage of the region-entry contents. -/
def Fact4 : Prop := ∀ (V : (c : Dev nD) → (b : Ref sig .tc) → Buf (Elt Ideal) ((c : Thread nD τ).loc b)) (c : Dev nD),
    (Gen.dat4 (F := Ideal) V c).arrAt 3 cfg4.N = Cert.Net.linear (A := 100000) (K := 64) (V c main_v94) (V c main_v74) (V c main_v95)

/-- Region 5's output array is its stage of the region-entry contents. -/
def Fact5 : Prop := ∀ (V : (c : Dev nD) → (b : Ref sig .tc) → Buf (Elt Ideal) ((c : Thread nD τ).loc b)) (c : Dev nD),
    (Gen.dat5 (F := Ideal) V c).arrAt 6 cfg5.N = Cert.Net.bnResRelu (A := 100000) (V c main_v96) (V c main_v110) (V c main_v111) (V c main_v112) (V c main_v113) (V c main_v72)

/-- Region 6's output array is its stage of the region-entry contents. -/
def Fact6 : Prop := ∀ (V : (c : Dev nD) → (b : Ref sig .tc) → Buf (Elt Ideal) ((c : Thread nD τ).loc b)) (c : Dev nD),
    (Gen.dat6 (F := Ideal) V c).arrAt 6 cfg6.N = Cert.Net.attn (A := 100000) (V c main_v114) (V c main_v129) (V c main_arg9) (V c main_v130) (V c main_arg11) (V c main_v131)

/-- Region 7's output array is its stage of the region-entry contents. -/
def Fact7 : Prop := ∀ (V : (c : Dev nD) → (b : Ref sig .tc) → Buf (Elt Ideal) ((c : Thread nD τ).loc b)) (c : Dev nD),
    (Gen.dat7 (F := Ideal) V c).arrAt 3 cfg7.N = Cert.Net.linear (A := 100000) (K := 64) (V c main_v154) (V c main_v134) (V c main_v155)

/-- Region 8's output array is its stage of the region-entry contents. -/
def Fact8 : Prop := ∀ (V : (c : Dev nD) → (b : Ref sig .tc) → Buf (Elt Ideal) ((c : Thread nD τ).loc b)) (c : Dev nD),
    (Gen.dat8 (F := Ideal) V c).arrAt 6 cfg8.N = Cert.Net.bnResRelu (A := 100000) (V c main_v156) (V c main_v170) (V c main_v171) (V c main_v172) (V c main_v173) (V c main_v132)

/-- Region 9's output array is its stage of the region-entry contents. -/
def Fact9 : Prop := ∀ (V : (c : Dev nD) → (b : Ref sig .tc) → Buf (Elt Ideal) ((c : Thread nD τ).loc b)) (c : Dev nD),
    (Gen.dat9 (F := Ideal) V c).arrAt 6 cfg9.N = Cert.Net.attn (A := 100000) (V c main_v174) (V c main_v189) (V c main_arg9) (V c main_v190) (V c main_arg11) (V c main_v191)

/-- Region 10's output array is its stage of the region-entry contents. -/
def Fact10 : Prop := ∀ (V : (c : Dev nD) → (b : Ref sig .tc) → Buf (Elt Ideal) ((c : Thread nD τ).loc b)) (c : Dev nD),
    (Gen.dat10 (F := Ideal) V c).arrAt 3 cfg10.N = Cert.Net.linear (A := 100000) (K := 64) (V c main_v214) (V c main_v194) (V c main_v215)

/-- Region 11's output array is its stage of the region-entry contents. -/
def Fact11 : Prop := ∀ (V : (c : Dev nD) → (b : Ref sig .tc) → Buf (Elt Ideal) ((c : Thread nD τ).loc b)) (c : Dev nD),
    (Gen.dat11 (F := Ideal) V c).arrAt 8 cfg11.N = Cert.Net.classifier (A := 100000) (V c main_v216) (V c main_v230) (V c main_v231) (V c main_v232) (V c main_v233) (V c main_v192) (V c main_arg19) (V c main_v234)

variable [Cert.ReferenceIdeal.Facts₀]
variable (m : (ℓ : Loc nD τ sig) → Buf (Elt Ideal) ℓ) (ρ : Dev nD → PrngReg) (c : Dev nD)

/-- What later segments read, at the boundary after region 5 (the end of layer 1): layer 1's output, the clamped
    in-degrees, the two normalisers, and the argument arrays still to be used. -/
structure Live16 : Prop where
  h : W16 m ρ c (Proc.devRef .tc main_v114)
      = Cert.Spec.stepL Cert.Spec.varOnePass (kargs m c) 0 (Cert.Spec.h1 Cert.Spec.varOnePass (kargs m c))
  degIn : W16 m ρ c (Proc.devRef .tc main_v8) = Cert.Spec.deg (kargs m c).a2
  nrmOut : W16 m ρ c (Proc.devRef .tc main_v10) = Cert.Spec.nrm (Cert.Spec.deg (kargs m c).a1)
  nrmIn : W16 m ρ c (Proc.devRef .tc main_v12) = Cert.Spec.nrm (Cert.Spec.deg (kargs m c).a2)
  arg1 : W16 m ρ c (Proc.devRef .tc main_arg1) = (kargs m c).a1
  arg2 : W16 m ρ c (Proc.devRef .tc main_arg2) = (kargs m c).a2
  arg9 : W16 m ρ c (Proc.devRef .tc main_arg9) = (kargs m c).a9
  arg10 : W16 m ρ c (Proc.devRef .tc main_arg10) = (kargs m c).a10
  arg11 : W16 m ρ c (Proc.devRef .tc main_arg11) = (kargs m c).a11
  arg12 : W16 m ρ c (Proc.devRef .tc main_arg12) = (kargs m c).a12
  arg15 : W16 m ρ c (Proc.devRef .tc main_arg15) = (kargs m c).a15
  arg16 : W16 m ρ c (Proc.devRef .tc main_arg16) = (kargs m c).a16
  arg17 : W16 m ρ c (Proc.devRef .tc main_arg17) = (kargs m c).a17
  arg18 : W16 m ρ c (Proc.devRef .tc main_arg18) = (kargs m c).a18
  arg19 : W16 m ρ c (Proc.devRef .tc main_arg19) = (kargs m c).a19
  arg20 : W16 m ρ c (Proc.devRef .tc main_arg20) = (kargs m c).a20

end Cert.KernelIdeal.KChain

end
-- ==== Proof.KArgs10.lean ====
/-
  What is live after the region that ends layer 0 (boundary 10 of the tiled program's fold).
-/
import proofs.«130402_j14499809591446_2_alg».proof.Proof.KArgs

noncomputable section

namespace Cert.KernelIdeal.KChain

open Cert.KernelIdeal Cert.KernelIdeal.Gen Idealize.ShloMosaic Idealize.ShloMosaic.TcCoe Idealize.SL.Sem

variable [Cert.ReferenceIdeal.Facts₀]
variable (m : (ℓ : Loc nD τ sig) → Buf (Elt Ideal) ℓ) (ρ : Dev nD → PrngReg) (c : Dev nD)

/-- What later segments read, at the boundary after region 2 (the end of layer 0): layer 0's output, the clamped
    in-degrees, the two normalisers, and the argument arrays still to be used. -/
structure Live10 : Prop where
  h : W10 m ρ c (Proc.devRef .tc main_v54) = Cert.Spec.h1 Cert.Spec.varOnePass (kargs m c)
  degIn : W10 m ρ c (Proc.devRef .tc main_v8) = Cert.Spec.deg (kargs m c).a2
  nrmOut : W10 m ρ c (Proc.devRef .tc main_v10) = Cert.Spec.nrm (Cert.Spec.deg (kargs m c).a1)
  nrmIn : W10 m ρ c (Proc.devRef .tc main_v12) = Cert.Spec.nrm (Cert.Spec.deg (kargs m c).a2)
  arg1 : W10 m ρ c (Proc.devRef .tc main_arg1) = (kargs m c).a1
  arg2 : W10 m ρ c (Proc.devRef .tc main_arg2) = (kargs m c).a2
  arg9 : W10 m ρ c (Proc.devRef .tc main_arg9) = (kargs m c).a9
  arg10 : W10 m ρ c (Proc.devRef .tc main_arg10) = (kargs m c).a10
  arg11 : W10 m ρ c (Proc.devRef .tc main_arg11) = (kargs m c).a11
  arg12 : W10 m ρ c (Proc.devRef .tc main_arg12) = (kargs m c).a12
  arg15 : W10 m ρ c (Proc.devRef .tc main_arg15) = (kargs m c).a15
  arg16 : W10 m ρ c (Proc.devRef .tc main_arg16) = (kargs m c).a16
  arg17 : W10 m ρ c (Proc.devRef .tc main_arg17) = (kargs m c).a17
  arg18 : W10 m ρ c (Proc.devRef .tc main_arg18) = (kargs m c).a18
  arg19 : W10 m ρ c (Proc.devRef .tc main_arg19) = (kargs m c).a19
  arg20 : W10 m ρ c (Proc.devRef .tc main_arg20) = (kargs m c).a20

end Cert.KernelIdeal.KChain

end
-- ==== Proof.KChainLemmas.lean ====
/-
  Whole-array host spellings of the network's entry-by-entry stages.

  Between its tiled regions the program prepares each region's operands with whole-array host operations.  Each
  preparation is one of the network's stages in another spelling, and this module says so once, for arbitrary arrays:

  * a change of float format around a gather does nothing at the exact values;
  * the product with (the quotient by) a vector spread to a column and then along the rows scales (divides) row p by
    the vector's entry p;
  * a vector viewed as a one-row array, a table's row cut out and viewed as a one-row array, a stack's matrix cut out
    and viewed as a matrix: each keeps the row-major order, so each is read at an entry by its coordinates;
  * the host sum over the rows, started from zero and divided by the row count, is the column mean; the same for the
    squares, minus the squared mean, is the one-pass column variance.

  Every statement takes the shape facts of the operations it mentions as hypotheses, so it applies to either program's
  printed operations.
-/
import proofs.«130402_j14499809591446_2_alg».proof.Proof.Spec
import proofs.«130402_j14499809591446_2_alg».proof.Proof.LibJoinedRows
import Idealize.ShloMosaic.Lib.IdealHost
import Idealize.ShloMosaic.Lib.ValueLayout

noncomputable section

namespace Cert.KernelIdeal.KChain

open Idealize.ShloMosaic Idealize.ShloMosaic.ValueIdx Cert.Net Cert.Spec
open scoped BigOperators

variable {B : ℕ}

/-! ## A change of float format around a gather

At the exact values a change of float format is the identity, and a gather only moves entries: narrowing an array
before a gather and widening the result after it gathers the array itself. -/

theorem gather_narrow_widen {s si t : Shape} {w : ℕ} (d : GatherDims s si t) (x : FVec Ideal s .f32) (idx : IVec si w)
    (h1 : FTy.bf16.bits < FTy.f32.bits) (h2 : FTy.bf16.bits < FTy.f32.bits) :
    extf .f32 (Host.gather d (truncf .bf16 x h1) idx) h2 = Host.gather d x idx := rfl

/-! ## Rows scaled or divided by a vector

A vector [a] spread to one column [a, 1] and then along the rows [a, b] holds, at (p, q), the vector's entry p.  So
the entrywise product with it multiplies row p by entry p, and the host quotient by it divides row p by entry p. -/

theorem mulf_bcast_eq_scaleVec
    (h1 : (⟨1, ![100000]⟩ : Shape).BroadcastsInDim ⟨2, ![100000, 1]⟩ (![0] : Fin 1 → Fin 2))
    (h2 : (⟨2, ![100000, 1]⟩ : Shape).BroadcastsInDim ⟨2, ![100000, B]⟩ (![0, 1] : Fin 2 → Fin 2))
    (y : Mat 100000 B) (n : V 100000) :
    mulf y (broadcastInDim ⟨2, ![100000, B]⟩ ![0, 1] h2 (broadcastInDim ⟨2, ![100000, 1]⟩ ![0] h1 n)) = scaleVec y n := by
  funext i
  obtain ⟨p, q, rfl⟩ : ∃ (p : Fin 100000) (q : Fin B), i = ix2 p q := ⟨i 0, i 1, eq_ix2 i⟩
  rw [mulf_apply, Cert.LibJoinedRows.bcast_col_rows_apply, Cert.LibJoinedRows.bcast_vec_col_apply]
  rfl

theorem hostDivf_bcast_eq_divVec
    (h1 : (⟨1, ![100000]⟩ : Shape).BroadcastsInDim ⟨2, ![100000, 1]⟩ (![0] : Fin 1 → Fin 2))
    (h2 : (⟨2, ![100000, 1]⟩ : Shape).BroadcastsInDim ⟨2, ![100000, B]⟩ (![0, 1] : Fin 2 → Fin 2))
    (y : Mat 100000 B) (n : V 100000) :
    Host.divf y (broadcastInDim ⟨2, ![100000, B]⟩ ![0, 1] h2 (broadcastInDim ⟨2, ![100000, 1]⟩ ![0] h1 n)) = divVec y n := by
  funext i
  obtain ⟨p, q, rfl⟩ : ∃ (p : Fin 100000) (q : Fin B), i = ix2 p q := ⟨i 0, i 1, eq_ix2 i⟩
  rw [hostDivf_apply, Cert.LibJoinedRows.bcast_col_rows_apply, Cert.LibJoinedRows.bcast_vec_col_apply]
  rfl

/-! ## Vectors and table rows as one-row arrays

A vector [b] viewed as [1, b] keeps entry q at (0, q).  Row i of a table [R, 64], cut out as [1, 64], flattened to
[64] and viewed again as [1, 64], is at (0, q) the table's entry (i, q); matrix i of a stack [3, 64, 64], cut out as
[1, 64, 64] and viewed as [64, 64], is at (p, q) the stack's entry (i, p, q).  Each view keeps the row-major order. -/

theorem shapeCast_eq_rowOf (h : (⟨1, ![B]⟩ : Shape).ShapeCasts ⟨2, ![1, B]⟩) (v : V B) :
    shapeCast ⟨2, ![1, B]⟩ v h = rowOf v := by
  funext j
  obtain ⟨u, q, rfl⟩ : ∃ (u : Fin 1) (q : Fin B), j = ix2 u q := ⟨j 0, j 1, eq_ix2 j⟩
  rw [shapeCast_a_1a_apply]
  rfl

theorem slice_casts_eq_tableRow {R : ℕ} (o : ℕ) (i : Fin R) (ho : i.val = o)
    (hs : (⟨2, ![R, 64]⟩ : Shape).Slices ![o, 0] ⟨2, ![1, 64]⟩)
    (h1 : (⟨2, ![1, 64]⟩ : Shape).ShapeCasts ⟨1, ![64]⟩) (h2 : (⟨1, ![64]⟩ : Shape).ShapeCasts ⟨2, ![1, 64]⟩) (t : Mat R 64) :
    shapeCast ⟨2, ![1, 64]⟩ (shapeCast ⟨1, ![64]⟩ (extractStridedSlice ⟨2, ![1, 64]⟩ ![o, 0] t hs) h1) h2 = tableRow t i := by
  funext j
  obtain ⟨u, q, rfl⟩ : ∃ (u : Fin 1) (q : Fin 64), j = ix2 u q := ⟨j 0, j 1, eq_ix2 j⟩
  rw [shapeCast_a_1a_apply, shapeCast_1a_a_apply]
  refine (extractStridedSlice_apply _ t hs _ (ix2 i q) fun a => ?_).trans rfl
  match a with
  | ⟨0, _⟩ => show i.val = o + 0; omega
  | ⟨1, _⟩ => show q.val = 0 + q.val; omega

theorem slice_cast_eq_tableMat (o : ℕ) (i : Fin 3) (ho : i.val = o)
    (hs : (⟨3, ![3, 64, 64]⟩ : Shape).Slices ![o, 0, 0] ⟨3, ![1, 64, 64]⟩)
    (h1 : (⟨3, ![1, 64, 64]⟩ : Shape).ShapeCasts ⟨2, ![64, 64]⟩) (t : FVec Ideal ⟨3, ![3, 64, 64]⟩ .f32) :
    shapeCast ⟨2, ![64, 64]⟩ (extractStridedSlice ⟨3, ![1, 64, 64]⟩ ![o, 0, 0] t hs) h1 = tableMat t i := by
  funext j
  obtain ⟨p, q, rfl⟩ : ∃ (p : Fin 64) (q : Fin 64), j = ix2 p q := ⟨j 0, j 1, eq_ix2 j⟩
  rw [shapeCast_1ab_ab_apply]
  refine (extractStridedSlice_apply _ t hs _ (ix3 i p q) fun a => ?_).trans rfl
  match a with
  | ⟨0, _⟩ => show i.val = o + 0; omega
  | ⟨1, _⟩ => show p.val = 0 + p.val; omega
  | ⟨2, _⟩ => show q.val = 0 + q.val; omega

/-! ## The column statistics

The host sum of a [100000, 64] array over its rows, started from the zero literal, is at column q zero plus the sum
of the entries (r, q) over the rows r.  Divided by the row-count literal it is the column mean; the same for the
squares, minus the squared mean, is the one-pass column variance. -/

theorem hostReduceAdd_cols (hr : (⟨2, ![100000, 64]⟩ : Shape).ReducesTo [0] ⟨1, ![64]⟩) (hu : 0 < (⟨0, ![]⟩ : Shape).numel)
    (y : Mat 100000 64) (q : Fin 64) :
    Host.reduceAdd y (constant (F := Ideal) ⟨0, ![]⟩ .f32 0x00000000#32) hr hu (ix1 q) = ∑ r : Fin 100000, y (ix2 r q) := by
  have hR : (⟨2, ![100000, 64]⟩ : Shape).Reduces [0] ⟨1, ![64]⟩ := by decide
  rw [hostReduceAdd_apply, Ideal.hostReduceAdd_single hr hR, constant_apply, Ideal.ofBits_zero_f32, zero_add]
  refine Finset.sum_congr rfl fun k _ => congrArg y ?_
  funext ax
  apply Fin.ext
  match ax with
  | ⟨0, _⟩ => rfl
  | ⟨1, _⟩ => rfl

theorem colMean_eq_meanRow (hr : (⟨2, ![100000, 64]⟩ : Shape).ReducesTo [0] ⟨1, ![64]⟩) (hu : 0 < (⟨0, ![]⟩ : Shape).numel)
    (hb : (⟨0, ![]⟩ : Shape).BroadcastsInDim ⟨1, ![64]⟩ (![] : Fin 0 → Fin 1))
    (hc : (⟨1, ![64]⟩ : Shape).ShapeCasts ⟨2, ![1, 64]⟩) (y : Mat 100000 64) :
    shapeCast ⟨2, ![1, 64]⟩
        (Host.divf (Host.reduceAdd y (constant (F := Ideal) ⟨0, ![]⟩ .f32 0x00000000#32) hr hu)
          (broadcastInDim ⟨1, ![64]⟩ ![] hb (constant (F := Ideal) ⟨0, ![]⟩ .f32 0x47C35000#32))) hc
      = meanRow y := by
  funext j
  obtain ⟨u, q, rfl⟩ : ∃ (u : Fin 1) (q : Fin 64), j = ix2 u q := ⟨j 0, j 1, eq_ix2 j⟩
  rw [shapeCast_a_1a_apply, hostDivf_apply, hostReduceAdd_cols, Cert.LibJoinedRows.bcast_scalar_apply, constant_apply]
  rfl

theorem colVar_eq_varOnePass (hr : (⟨2, ![100000, 64]⟩ : Shape).ReducesTo [0] ⟨1, ![64]⟩) (hu : 0 < (⟨0, ![]⟩ : Shape).numel)
    (hb : (⟨0, ![]⟩ : Shape).BroadcastsInDim ⟨1, ![64]⟩ (![] : Fin 0 → Fin 1))
    (hc : (⟨1, ![64]⟩ : Shape).ShapeCasts ⟨2, ![1, 64]⟩) (y : Mat 100000 64)
    (hr' hr'' : (⟨2, ![100000, 64]⟩ : Shape).ReducesTo [0] ⟨1, ![64]⟩) (hu' hu'' : 0 < (⟨0, ![]⟩ : Shape).numel)
    (hb' hb'' : (⟨0, ![]⟩ : Shape).BroadcastsInDim ⟨1, ![64]⟩ (![] : Fin 0 → Fin 1)) :
    shapeCast ⟨2, ![1, 64]⟩
        (subf
          (Host.divf (Host.reduceAdd (mulf y y) (constant (F := Ideal) ⟨0, ![]⟩ .f32 0x00000000#32) hr hu)
            (broadcastInDim ⟨1, ![64]⟩ ![] hb (constant (F := Ideal) ⟨0, ![]⟩ .f32 0x47C35000#32)))
          (mulf
            (Host.divf (Host.reduceAdd y (constant (F := Ideal) ⟨0, ![]⟩ .f32 0x00000000#32) hr' hu')
              (broadcastInDim ⟨1, ![64]⟩ ![] hb' (constant (F := Ideal) ⟨0, ![]⟩ .f32 0x47C35000#32)))
            (Host.divf (Host.reduceAdd y (constant (F := Ideal) ⟨0, ![]⟩ .f32 0x00000000#32) hr'' hu'')
              (broadcastInDim ⟨1, ![64]⟩ ![] hb'' (constant (F := Ideal) ⟨0, ![]⟩ .f32 0x47C35000#32))))) hc
      = varOnePass y := by
  funext j
  obtain ⟨u, q, rfl⟩ : ∃ (u : Fin 1) (q : Fin 64), j = ix2 u q := ⟨j 0, j 1, eq_ix2 j⟩
  simp only [shapeCast_a_1a_apply, subf_apply, mulf_apply, hostDivf_apply, hostReduceAdd_cols,
    Cert.LibJoinedRows.bcast_scalar_apply, constant_apply]
  rfl

end Cert.KernelIdeal.KChain

end
-- ==== Proof.KChainA0.lean ====
/-
  What each host line of the program's opening and of layer 0 computes, for ANY buffer contents W it is entered with.

  Before its first tiled region the program counts the degrees: for each half of the edge list, ones are summed into
  the rows the edges name, the count is clamped below at one (a small called function: the maximum with a constant
  spread over the rows), and the clamped count is raised to the power -1/2.  Then three bias vectors are viewed as
  one-row arrays.  Before layer 0's linear region the encoder's output is aggregated — rows scaled by the
  out-degree normaliser, gathered by the wrapped source numbers and summed into the destination rows, scaled by the
  in-degree normaliser — and before its normalisation region the scale and shift rows are cut out of their tables
  and the column means and one-pass column variances are taken.

  Each line writes a fixed list of buffers, so every other buffer leaves it as it entered it.  The edge-indexed chains
  are the very host operations the network's definition carries, so they are recognised by unfolding names only.
  The called function moves contents between a buffer's own type and the type its text states; the two are the same
  type, and the moves are undone without computing either.
-/
import proofs.«130402_j14499809591446_2_alg».proof.Proof.Gen.KernelIdeal.Launch
import proofs.«130402_j14499809591446_2_alg».proof.Proof.KChainLemmas
import Idealize.ShloMosaic.Lib.StableHlo.Run

noncomputable section

namespace Cert.KernelIdeal.KChain

open Cert.KernelIdeal Cert.KernelIdeal.Gen Idealize.ShloMosaic Idealize.ShloMosaic.TcCoe Idealize.SL.Sem
open Cert.Spec Cert.Net

variable [Cert.ReferenceIdeal.Facts₀]

/-! ## Contents at a buffer's own type and at its stated type -/

section Casts
variable {sg : RefSig} {Val : EltTy → Type} {T : BufTy}

/-- Contents moved to a buffer's own type and back are the contents. -/
theorem ofBuf_toBuf (x : StableHlo.TRef sg T) (v : T.Contents Val) : x.ofBuf (x.toBuf v) = v := by
  obtain ⟨r, h, _, _⟩ := x
  subst h
  rfl

/-- Contents moved to a buffer's own type are the same contents. -/
theorem toBuf_eq_of_heq (x : StableHlo.TRef sg T) (v : T.Contents Val) (w : x.ref.ty.Contents Val) (h : HEq v w) :
    x.toBuf v = w := by
  obtain ⟨r, hT, _, _⟩ := x
  subst hT
  exact eq_of_heq h

/-- Contents read at a buffer's stated type are the same contents. -/
theorem ofBuf_eq_of_heq (x : StableHlo.TRef sg T) (w : x.ref.ty.Contents Val) (v : T.Contents Val) (h : HEq w v) :
    x.ofBuf w = v := by
  obtain ⟨r, hT, _, _⟩ := x
  subst hT
  exact eq_of_heq h

end Casts

/-! ## What a line leaves alone -/

/-- The buffers the line 0 writes. -/
def writes0 : List (Ref sig .tc) :=
  [main_cst, main_v0, main_cst_0, main_v1, main_v2, main_v3, main_cst_1]

/-- A buffer outside that list comes out of the line as it went in. -/
theorem skip0 (W : Valuation τ sig (Elt Ideal)) {r : Ref sig .tc} (hr : r ∉ writes0) :
    StableHlo.after (hostOps0 (F := Ideal)) W (Proc.devRef .tc r) = W (Proc.devRef .tc r) :=
  StableHlo.after_of_writes_sub (W := writes0) _ _ (by
    simp only [hostOps0, writes0, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers the line 0_1 writes. -/
def writes0_1 : List (Ref sig .tc) :=
  [main_call0_v0, main_call0_v1, main_v4]

/-- A buffer outside that list comes out of the line as it went in. -/
theorem skip0_1 (W : Valuation τ sig (Elt Ideal)) {r : Ref sig .tc} (hr : r ∉ writes0_1) :
    StableHlo.after (hostOps0_1 (F := Ideal)) W (Proc.devRef .tc r) = W (Proc.devRef .tc r) :=
  StableHlo.after_of_writes_sub (W := writes0_1) _ _ (by
    simp only [hostOps0_1, writes0_1, List.Forall, StableHlo.TRef.unary, StableHlo.TRef.binary, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers the line 0_2 writes. -/
def writes0_2 : List (Ref sig .tc) :=
  [main_cst_2, main_v5, main_v6, main_v7, main_cst_3]

/-- A buffer outside that list comes out of the line as it went in. -/
theorem skip0_2 (W : Valuation τ sig (Elt Ideal)) {r : Ref sig .tc} (hr : r ∉ writes0_2) :
    StableHlo.after (hostOps0_2 (F := Ideal)) W (Proc.devRef .tc r) = W (Proc.devRef .tc r) :=
  StableHlo.after_of_writes_sub (W := writes0_2) _ _ (by
    simp only [hostOps0_2, writes0_2, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers the line 0_3 writes. -/
def writes0_3 : List (Ref sig .tc) :=
  [main_call1_v0, main_call1_v1, main_v8]

/-- A buffer outside that list comes out of the line as it went in. -/
theorem skip0_3 (W : Valuation τ sig (Elt Ideal)) {r : Ref sig .tc} (hr : r ∉ writes0_3) :
    StableHlo.after (hostOps0_3 (F := Ideal)) W (Proc.devRef .tc r) = W (Proc.devRef .tc r) :=
  StableHlo.after_of_writes_sub (W := writes0_3) _ _ (by
    simp only [hostOps0_3, writes0_3, List.Forall, StableHlo.TRef.unary, StableHlo.TRef.binary, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers the line 0_4 writes. -/
def writes0_4 : List (Ref sig .tc) :=
  [main_cst_4, main_v9, main_v10, main_cst_5, main_v11, main_v12, main_v13, main_v14, main_v15]

/-- A buffer outside that list comes out of the line as it went in. -/
theorem skip0_4 (W : Valuation τ sig (Elt Ideal)) {r : Ref sig .tc} (hr : r ∉ writes0_4) :
    StableHlo.after (hostOps0_4 (F := Ideal)) W (Proc.devRef .tc r) = W (Proc.devRef .tc r) :=
  StableHlo.after_of_writes_sub (W := writes0_4) _ _ (by
    simp only [hostOps0_4, writes0_4, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers the line 1 writes. -/
def writes1 : List (Ref sig .tc) :=
  [main_v17, main_v18, main_v19, main_v20, main_c, main_v21, main_v22, main_c_6, main_v23, main_v24, main_v25, main_v26, main_v27, main_v28, main_cst_7, main_v29, main_v30, main_v31, main_v32, main_v33, main_v34, main_v35]

/-- A buffer outside that list comes out of the line as it went in. -/
theorem skip1 (W : Valuation τ sig (Elt Ideal)) {r : Ref sig .tc} (hr : r ∉ writes1) :
    StableHlo.after (hostOps1 (F := Ideal)) W (Proc.devRef .tc r) = W (Proc.devRef .tc r) :=
  StableHlo.after_of_writes_sub (W := writes1) _ _ (by
    simp only [hostOps1, writes1, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers the line 2 writes. -/
def writes2 : List (Ref sig .tc) :=
  [main_cst_8, main_v37, main_v38, main_cst_9, main_v39, main_cst_10, main_v40, main_v41, main_cst_11, main_v42, main_v43, main_v44, main_v45, main_v46, main_v47, main_v48, main_v49, main_v50, main_v51, main_v52, main_v53]

/-- A buffer outside that list comes out of the line as it went in. -/
theorem skip2 (W : Valuation τ sig (Elt Ideal)) {r : Ref sig .tc} (hr : r ∉ writes2) :
    StableHlo.after (hostOps2 (F := Ideal)) W (Proc.devRef .tc r) = W (Proc.devRef .tc r) :=
  StableHlo.after_of_writes_sub (W := writes2) _ _ (by
    simp only [hostOps2, writes2, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-! ## What a line computes -/

/-- The clamped out-degrees: ones summed into the rows the first half of the edge list names, then the called
    function's maximum with one.  The called function's moves between a buffer's own type and its stated type are
    undone first; what is left is the network's degree chain, operation for operation. -/
theorem st0_v4 (W : Valuation τ sig (Elt Ideal)) :
    StableHlo.after (hostOps0_1 (F := Ideal)) (StableHlo.after (hostOps0 (F := Ideal)) W) (Proc.devRef .tc main_v4)
      = deg (W (Proc.devRef .tc main_arg1)) := by
  after_results
  rw [ofBuf_toBuf, ofBuf_toBuf]
  refine toBuf_eq_of_heq _ _ _ (heq_of_eq ?_)
  rw [ofBuf_eq_of_heq _ _ (constant (F := Ideal) S_ .f32 0x3F800000#32) HEq.rfl]
  generalize hS : Host.scatterAdd (F := Ideal) _ _ _ _ = S
  rw [ofBuf_eq_of_heq _ _ S HEq.rfl]
  subst hS
  rfl

/-- The clamped in-degrees, the same chain on the second half of the edge list (its ones are the array the first
    count spread, still in place). -/
theorem st0_v8 (W : Valuation τ sig (Elt Ideal)) :
    StableHlo.after (hostOps0_3 (F := Ideal)) (StableHlo.after (hostOps0_2 (F := Ideal))
        (StableHlo.after (hostOps0_1 (F := Ideal)) (StableHlo.after (hostOps0 (F := Ideal)) W))) (Proc.devRef .tc main_v8)
      = deg (W (Proc.devRef .tc main_arg2)) := by
  after_results
  rw [ofBuf_toBuf, ofBuf_toBuf]
  refine toBuf_eq_of_heq _ _ _ (heq_of_eq ?_)
  rw [ofBuf_eq_of_heq _ _ (constant (F := Ideal) S_ .f32 0x3F800000#32) HEq.rfl]
  generalize hS : Host.scatterAdd (F := Ideal) _ _ _ _ = S
  rw [ofBuf_eq_of_heq _ _ S HEq.rfl]
  subst hS
  rfl

set_option maxHeartbeats 1000000 in
/-- The out-degree normaliser: the clamped count to the power -1/2. -/
theorem st0_4_v10 (W : Valuation τ sig (Elt Ideal)) :
    StableHlo.after (hostOps0_4 (F := Ideal)) W (Proc.devRef .tc main_v10) = nrm (W (Proc.devRef .tc main_v4)) := by
  after_results_simp
  rfl

set_option maxHeartbeats 1000000 in
/-- The in-degree normaliser. -/
theorem st0_4_v12 (W : Valuation τ sig (Elt Ideal)) :
    StableHlo.after (hostOps0_4 (F := Ideal)) W (Proc.devRef .tc main_v12) = nrm (W (Proc.devRef .tc main_v8)) := by
  after_results_simp
  rfl

set_option maxHeartbeats 1000000 in
/-- The encoder's three bias vectors as one-row arrays. -/
theorem st0_4_v13 (W : Valuation τ sig (Elt Ideal)) :
    StableHlo.after (hostOps0_4 (F := Ideal)) W (Proc.devRef .tc main_v13) = rowOf (W (Proc.devRef .tc main_arg4)) := by
  after_results_simp
  exact shapeCast_eq_rowOf _ _

set_option maxHeartbeats 1000000 in
theorem st0_4_v14 (W : Valuation τ sig (Elt Ideal)) :
    StableHlo.after (hostOps0_4 (F := Ideal)) W (Proc.devRef .tc main_v14) = rowOf (W (Proc.devRef .tc main_arg6)) := by
  after_results_simp
  exact shapeCast_eq_rowOf _ _

set_option maxHeartbeats 1000000 in
theorem st0_4_v15 (W : Valuation τ sig (Elt Ideal)) :
    StableHlo.after (hostOps0_4 (F := Ideal)) W (Proc.devRef .tc main_v15) = rowOf (W (Proc.devRef .tc main_arg8)) := by
  after_results_simp
  exact shapeCast_eq_rowOf _ _

set_option maxHeartbeats 1000000 in
/-- The aggregation of the encoder's output: rows scaled by the out-degree normaliser, gathered by the wrapped source
    numbers and summed into the destination rows (the narrowing before the gather and the widening after it change
    nothing over the extended reals), rows scaled by the in-degree normaliser. -/
theorem st1_v34 (W : Valuation τ sig (Elt Ideal)) :
    StableHlo.after (hostOps1 (F := Ideal)) W (Proc.devRef .tc main_v34)
      = scaleVec (segSum128 (W (Proc.devRef .tc main_arg1)) (W (Proc.devRef .tc main_arg2))
          (scaleVec (W (Proc.devRef .tc main_v16)) (W (Proc.devRef .tc main_v10)))) (W (Proc.devRef .tc main_v12)) := by
  after_results_simp
  rw [mulf_bcast_eq_scaleVec, mulf_bcast_eq_scaleVec]
  rfl

set_option maxHeartbeats 1000000 in
/-- Layer 0's bias vector as a one-row array. -/
theorem st1_v35 (W : Valuation τ sig (Elt Ideal)) :
    StableHlo.after (hostOps1 (F := Ideal)) W (Proc.devRef .tc main_v35) = rowOf (W (Proc.devRef .tc main_arg14)) := by
  after_results_simp
  exact shapeCast_eq_rowOf _ _

set_option maxHeartbeats 1000000 in
/-- Layer 0's scale row, cut out of its table. -/
theorem st2_v50 (W : Valuation τ sig (Elt Ideal)) :
    StableHlo.after (hostOps2 (F := Ideal)) W (Proc.devRef .tc main_v50) = tableRow (W (Proc.devRef .tc main_arg17)) 0 := by
  after_results_simp
  exact slice_casts_eq_tableRow 0 0 rfl _ _ _ _

set_option maxHeartbeats 1000000 in
/-- Layer 0's shift row. -/
theorem st2_v51 (W : Valuation τ sig (Elt Ideal)) :
    StableHlo.after (hostOps2 (F := Ideal)) W (Proc.devRef .tc main_v51) = tableRow (W (Proc.devRef .tc main_arg18)) 0 := by
  after_results_simp
  exact slice_casts_eq_tableRow 0 0 rfl _ _ _ _

set_option maxHeartbeats 1000000 in
/-- The column means of layer 0's linear output. -/
theorem st2_v52 (W : Valuation τ sig (Elt Ideal)) :
    StableHlo.after (hostOps2 (F := Ideal)) W (Proc.devRef .tc main_v52) = meanRow (W (Proc.devRef .tc main_v36)) := by
  after_results_simp
  exact colMean_eq_meanRow _ _ _ _ _

set_option maxHeartbeats 1000000 in
/-- Its column variances, as the mean of the squares minus the squared mean. -/
theorem st2_v53 (W : Valuation τ sig (Elt Ideal)) :
    StableHlo.after (hostOps2 (F := Ideal)) W (Proc.devRef .tc main_v53) = varOnePass (W (Proc.devRef .tc main_v36)) := by
  after_results_simp
  exact colVar_eq_varOnePass _ _ _ _ _ _ _ _ _ _ _

end Cert.KernelIdeal.KChain

end
-- ==== Proof.KChainA.lean ====
/-
  The tiled program's buffers, read along its fold from the launch to the end of layer 0.

  The program is a fold: host lines and tiled regions alternate, and the contents at each boundary are the previous
  boundary's contents with a line's results, or a region's output array, replaced.  Reading the fold at the buffers
  that matter gives, boundary by boundary, stages of the network applied to the launch contents of the arguments:

  * after the opening lines the two clamped degree vectors and their normalisers, and the encoder's bias rows;
  * after the first region the encoder's output (the region computes its stage of what it finds in its input arrays,
    which are arguments and those bias rows);
  * after the next line the aggregation of that output and layer 0's bias row; after the second region layer 0's
    linear output;
  * after the next line layer 0's scale and shift rows and the column statistics of the linear output; after the
    third region layer 0's output.

  A buffer that a line does not write and that is not among a region's arrays keeps its contents across it; this
  carries the arguments, the in-degrees and the two normalisers to the boundary where layer 1 starts.
-/
import proofs.«130402_j14499809591446_2_alg».proof.Proof.KArgs10
import proofs.«130402_j14499809591446_2_alg».proof.Proof.KChainA0

set_option maxRecDepth 16384

noncomputable section

namespace Cert.KernelIdeal.KChain

open Cert.KernelIdeal Cert.KernelIdeal.Gen Idealize.ShloMosaic Idealize.ShloMosaic.TcCoe Idealize.SL.Sem
open Cert.Spec Cert.Net

variable [Cert.ReferenceIdeal.Facts₀]

section Fold

variable (m : (ℓ : Loc nD τ sig) → Buf (Elt Ideal) ℓ) (ρ : Dev nD → PrngReg) (c : Dev nD)

/-! ## Buffers nothing touches -/

/-- Everything the five opening lines write. -/
def pre5 : List (Ref sig .tc) := writes0 ++ (writes0_1 ++ (writes0_2 ++ (writes0_3 ++ writes0_4)))

variable {r : Ref sig .tc}

theorem to4 (h : r ∉ pre5) : W4 m ρ c (Proc.devRef .tc r) = W0 m ρ c (Proc.devRef .tc r) :=
  (skip0_3 (W3 m ρ c) fun hm => h (List.mem_append_right _ (List.mem_append_right _ (List.mem_append_right _ (List.mem_append_left _ hm))))).trans
    ((skip0_2 (W2 m ρ c) fun hm => h (List.mem_append_right _ (List.mem_append_right _ (List.mem_append_left _ hm)))).trans
      ((skip0_1 (W1 m ρ c) fun hm => h (List.mem_append_right _ (List.mem_append_left _ hm))).trans
        (skip0 (W0 m ρ c) fun hm => h (List.mem_append_left _ hm))))

theorem to5 (h : r ∉ pre5) : W5 m ρ c (Proc.devRef .tc r) = W0 m ρ c (Proc.devRef .tc r) :=
  (skip0_4 (W4 m ρ c) fun hm => h (List.mem_append_right _ (List.mem_append_right _ (List.mem_append_right _ (List.mem_append_right _ hm))))).trans
    (to4 m ρ c h)

/-- From the first region's entry to layer 0's end: the two lines' writes and the three regions' arrays avoided. -/
theorem from5 (h1 : r ∉ writes1) (h2 : r ∉ writes2) (hR0 : ∀ w, Pipeline.arrRef spec0 w ≠ r)
    (hR1 : ∀ w, Pipeline.arrRef spec1 w ≠ r) (hR2 : ∀ w, Pipeline.arrRef spec2 w ≠ r) :
    W10 m ρ c (Proc.devRef .tc r) = W5 m ρ c (Proc.devRef .tc r) :=
  (W10_of_ne m ρ c r hR2).trans ((skip2 (W8 m ρ c) h2).trans ((W8_of_ne m ρ c r hR1).trans
    ((skip1 (W6 m ρ c) h1).trans (W6_of_ne m ρ c r hR0))))

theorem to10 (h : r ∉ pre5) (h1 : r ∉ writes1) (h2 : r ∉ writes2) (hR0 : ∀ w, Pipeline.arrRef spec0 w ≠ r)
    (hR1 : ∀ w, Pipeline.arrRef spec1 w ≠ r) (hR2 : ∀ w, Pipeline.arrRef spec2 w ≠ r) :
    W10 m ρ c (Proc.devRef .tc r) = W0 m ρ c (Proc.devRef .tc r) :=
  (from5 m ρ c h1 h2 hR0 hR1 hR2).trans (to5 m ρ c h)

/-! ## The opening: degrees, normalisers, bias rows -/

theorem e2_v4 : W2 m ρ c (Proc.devRef .tc main_v4) = deg (kargs m c).a1 := st0_v4 (W0 m ρ c)

theorem e4_v8 : W4 m ρ c (Proc.devRef .tc main_v8) = deg (kargs m c).a2 := st0_v8 (W0 m ρ c)

theorem e4_v4 : W4 m ρ c (Proc.devRef .tc main_v4) = deg (kargs m c).a1 :=
  (skip0_3 (W3 m ρ c) (by decide)).trans ((skip0_2 (W2 m ρ c) (by decide)).trans (e2_v4 m ρ c))

theorem e5_v8 : W5 m ρ c (Proc.devRef .tc main_v8) = deg (kargs m c).a2 :=
  (skip0_4 (W4 m ρ c) (by decide)).trans (e4_v8 m ρ c)

theorem e5_v10 : W5 m ρ c (Proc.devRef .tc main_v10) = nrm (deg (kargs m c).a1) :=
  (st0_4_v10 (W4 m ρ c)).trans (congrArg nrm (e4_v4 m ρ c))

theorem e5_v12 : W5 m ρ c (Proc.devRef .tc main_v12) = nrm (deg (kargs m c).a2) :=
  (st0_4_v12 (W4 m ρ c)).trans (congrArg nrm (e4_v8 m ρ c))

theorem e5_v13 : W5 m ρ c (Proc.devRef .tc main_v13) = rowOf (kargs m c).a4 :=
  (st0_4_v13 (W4 m ρ c)).trans (congrArg rowOf ((to4 m ρ c (by decide)).trans rfl))

theorem e5_v14 : W5 m ρ c (Proc.devRef .tc main_v14) = rowOf (kargs m c).a6 :=
  (st0_4_v14 (W4 m ρ c)).trans (congrArg rowOf ((to4 m ρ c (by decide)).trans rfl))

theorem e5_v15 : W5 m ρ c (Proc.devRef .tc main_v15) = rowOf (kargs m c).a8 :=
  (st0_4_v15 (W4 m ρ c)).trans (congrArg rowOf ((to4 m ρ c (by decide)).trans rfl))

/-! ## The first region: the encoder -/

theorem e6_v16 (f0 : Fact0) : W6 m ρ c (Proc.devRef .tc main_v16) = h0 (kargs m c) := by
  have a0 : V5 m ρ c main_arg0 = (kargs m c).a0 := (to5 m ρ c (by decide)).trans rfl
  have a3 : V5 m ρ c main_arg3 = (kargs m c).a3 := (to5 m ρ c (by decide)).trans rfl
  have a5 : V5 m ρ c main_arg5 = (kargs m c).a5 := (to5 m ρ c (by decide)).trans rfl
  have a7 : V5 m ρ c main_arg7 = (kargs m c).a7 := (to5 m ρ c (by decide)).trans rfl
  have b1 : V5 m ρ c main_v13 = rowOf (kargs m c).a4 := e5_v13 m ρ c
  have b2 : V5 m ρ c main_v14 = rowOf (kargs m c).a6 := e5_v14 m ρ c
  have b3 : V5 m ρ c main_v15 = rowOf (kargs m c).a8 := e5_v15 m ρ c
  refine (W6_arr m ρ c 7).trans ((f0 (V5 m ρ) c).trans ?_)
  rw [a0, a3, a5, a7, b1, b2, b3]
  rfl

/-! ## Layer 0's linear stage -/

theorem e7_v34 (f0 : Fact0) : W7 m ρ c (Proc.devRef .tc main_v34) = aggregate128 (kargs m c).a1 (kargs m c).a2 (h0 (kargs m c)) := by
  have a1 : W6 m ρ c (Proc.devRef .tc main_arg1) = (kargs m c).a1 := (W6_of_ne m ρ c _ (by decide)).trans ((to5 m ρ c (by decide)).trans rfl)
  have a2 : W6 m ρ c (Proc.devRef .tc main_arg2) = (kargs m c).a2 := (W6_of_ne m ρ c _ (by decide)).trans ((to5 m ρ c (by decide)).trans rfl)
  have n1 : W6 m ρ c (Proc.devRef .tc main_v10) = nrm (deg (kargs m c).a1) := (W6_of_ne m ρ c _ (by decide)).trans (e5_v10 m ρ c)
  have n2 : W6 m ρ c (Proc.devRef .tc main_v12) = nrm (deg (kargs m c).a2) := (W6_of_ne m ρ c _ (by decide)).trans (e5_v12 m ρ c)
  refine (st1_v34 (W6 m ρ c)).trans ?_
  rw [a1, a2, n1, n2, e6_v16 m ρ c f0]
  rfl

theorem e7_v35 : W7 m ρ c (Proc.devRef .tc main_v35) = rowOf (kargs m c).a14 :=
  (st1_v35 (W6 m ρ c)).trans (congrArg rowOf ((W6_of_ne m ρ c _ (by decide)).trans ((to5 m ρ c (by decide)).trans rfl)))

theorem e7_arg13 : W7 m ρ c (Proc.devRef .tc main_arg13) = (kargs m c).a13 :=
  (skip1 (W6 m ρ c) (by decide)).trans ((W6_of_ne m ρ c _ (by decide)).trans ((to5 m ρ c (by decide)).trans rfl))

theorem e8_v36 (f0 : Fact0) (f1 : Fact1) : W8 m ρ c (Proc.devRef .tc main_v36) = y0 (kargs m c) := by
  have a : V7 m ρ c main_v34 = aggregate128 (kargs m c).a1 (kargs m c).a2 (h0 (kargs m c)) := e7_v34 m ρ c f0
  have w : V7 m ρ c main_arg13 = (kargs m c).a13 := e7_arg13 m ρ c
  have b : V7 m ρ c main_v35 = rowOf (kargs m c).a14 := e7_v35 m ρ c
  refine (W8_arr m ρ c 3).trans ((f1 (V7 m ρ) c).trans ?_)
  rw [a, w, b]
  rfl

/-! ## Layer 0's normalisation -/

/-- An argument the first two regions do not hold, at the third line's entry. -/
theorem to8 (h : r ∉ pre5) (h1 : r ∉ writes1) (hR0 : ∀ w, Pipeline.arrRef spec0 w ≠ r)
    (hR1 : ∀ w, Pipeline.arrRef spec1 w ≠ r) : W8 m ρ c (Proc.devRef .tc r) = W0 m ρ c (Proc.devRef .tc r) :=
  (W8_of_ne m ρ c r hR1).trans ((skip1 (W6 m ρ c) h1).trans ((W6_of_ne m ρ c r hR0).trans (to5 m ρ c h)))

theorem e9_v36 (f0 : Fact0) (f1 : Fact1) : W9 m ρ c (Proc.devRef .tc main_v36) = y0 (kargs m c) :=
  (skip2 (W8 m ρ c) (by decide)).trans (e8_v36 m ρ c f0 f1)

theorem e9_v50 : W9 m ρ c (Proc.devRef .tc main_v50) = tableRow (kargs m c).a17 0 :=
  (st2_v50 (W8 m ρ c)).trans (congrArg (tableRow · 0) ((to8 m ρ c (by decide) (by decide) (by decide) (by decide)).trans rfl))

theorem e9_v51 : W9 m ρ c (Proc.devRef .tc main_v51) = tableRow (kargs m c).a18 0 :=
  (st2_v51 (W8 m ρ c)).trans (congrArg (tableRow · 0) ((to8 m ρ c (by decide) (by decide) (by decide) (by decide)).trans rfl))

theorem e9_v52 (f0 : Fact0) (f1 : Fact1) : W9 m ρ c (Proc.devRef .tc main_v52) = meanRow (y0 (kargs m c)) :=
  (st2_v52 (W8 m ρ c)).trans (congrArg meanRow (e8_v36 m ρ c f0 f1))

theorem e9_v53 (f0 : Fact0) (f1 : Fact1) : W9 m ρ c (Proc.devRef .tc main_v53) = varOnePass (y0 (kargs m c)) :=
  (st2_v53 (W8 m ρ c)).trans (congrArg varOnePass (e8_v36 m ρ c f0 f1))

theorem e10_v54 (f0 : Fact0) (f1 : Fact1) (f2 : Fact2) : W10 m ρ c (Proc.devRef .tc main_v54) = h1 varOnePass (kargs m c) := by
  have y : V9 m ρ c main_v36 = y0 (kargs m c) := e9_v36 m ρ c f0 f1
  have g : V9 m ρ c main_v50 = tableRow (kargs m c).a17 0 := e9_v50 m ρ c
  have b : V9 m ρ c main_v51 = tableRow (kargs m c).a18 0 := e9_v51 m ρ c
  have mu : V9 m ρ c main_v52 = meanRow (y0 (kargs m c)) := e9_v52 m ρ c f0 f1
  have vr : V9 m ρ c main_v53 = varOnePass (y0 (kargs m c)) := e9_v53 m ρ c f0 f1
  refine (W10_arr m ρ c 5).trans ((f2 (V9 m ρ) c).trans ?_)
  rw [y, g, b, mu, vr]
  rfl

end Fold

/-! ## What is live when layer 1 starts -/

theorem live10 (f0 : Fact0) (f1 : Fact1) (f2 : Fact2) (m : (ℓ : Loc nD τ sig) → Buf (Elt Ideal) ℓ) (ρ : Dev nD → PrngReg)
    (c : Dev nD) : Live10 m ρ c where
  h := e10_v54 m ρ c f0 f1 f2
  degIn := (from5 m ρ c (by decide) (by decide) (by decide) (by decide) (by decide)).trans (e5_v8 m ρ c)
  nrmOut := (from5 m ρ c (by decide) (by decide) (by decide) (by decide) (by decide)).trans (e5_v10 m ρ c)
  nrmIn := (from5 m ρ c (by decide) (by decide) (by decide) (by decide) (by decide)).trans (e5_v12 m ρ c)
  arg1 := (to10 m ρ c (r := main_arg1) (by decide) (by decide) (by decide) (by decide) (by decide) (by decide)).trans rfl
  arg2 := (to10 m ρ c (r := main_arg2) (by decide) (by decide) (by decide) (by decide) (by decide) (by decide)).trans rfl
  arg9 := (to10 m ρ c (r := main_arg9) (by decide) (by decide) (by decide) (by decide) (by decide) (by decide)).trans rfl
  arg10 := (to10 m ρ c (r := main_arg10) (by decide) (by decide) (by decide) (by decide) (by decide) (by decide)).trans rfl
  arg11 := (to10 m ρ c (r := main_arg11) (by decide) (by decide) (by decide) (by decide) (by decide) (by decide)).trans rfl
  arg12 := (to10 m ρ c (r := main_arg12) (by decide) (by decide) (by decide) (by decide) (by decide) (by decide)).trans rfl
  arg15 := (to10 m ρ c (r := main_arg15) (by decide) (by decide) (by decide) (by decide) (by decide) (by decide)).trans rfl
  arg16 := (to10 m ρ c (r := main_arg16) (by decide) (by decide) (by decide) (by decide) (by decide) (by decide)).trans rfl
  arg17 := (to10 m ρ c (r := main_arg17) (by decide) (by decide) (by decide) (by decide) (by decide) (by decide)).trans rfl
  arg18 := (to10 m ρ c (r := main_arg18) (by decide) (by decide) (by decide) (by decide) (by decide) (by decide)).trans rfl
  arg19 := (to10 m ρ c (r := main_arg19) (by decide) (by decide) (by decide) (by decide) (by decide) (by decide)).trans rfl
  arg20 := (to10 m ρ c (r := main_arg20) (by decide) (by decide) (by decide) (by decide) (by decide) (by decide)).trans rfl

end Cert.KernelIdeal.KChain

end
-- ==== Proof.KChainA2Ops.lean ====
/-
  What each host stretch of layer 1 computes, for any buffer contents W it is entered with.

  Between two tiled regions the program runs a straight line of whole-array host operations.  Each line writes a fixed
  list of buffers, so a buffer outside that list leaves the line as it entered it.  The buffers the next region reads
  are stages of the network applied to what the line read:

  * before the gate region: the sum over the edges into each row of the source rows (gathered by the wrapped source
    numbers; narrowing the array before the gather and widening the result after it changes nothing over the extended
    reals) divided row by row by the clamped in-degree — the neighbour mean — and the two gate biases as one-row arrays;
  * before the linear region: the layer's weight matrix and bias row cut out of the stacked tables, and the aggregation:
    rows scaled by the out-degree normaliser, summed over the edges, scaled by the in-degree normaliser;
  * before the normalisation region: the layer's scale and shift rows, the column means, and the column variances spelt
    as the mean of the squares minus the squared mean.

  The edge-indexed chain (gather, scatter with addition) is the very chain of host operations the network's definition
  carries, so it is recognised by unfolding names, never opened.
-/
import proofs.«130402_j14499809591446_2_alg».proof.Proof.Gen.KernelIdeal.Launch
import proofs.«130402_j14499809591446_2_alg».proof.Proof.KChainLemmas
import Idealize.ShloMosaic.Lib.StableHlo.Run

noncomputable section

namespace Cert.KernelIdeal.KChain

open Cert.KernelIdeal Cert.KernelIdeal.Gen Idealize.ShloMosaic Idealize.ShloMosaic.TcCoe Idealize.SL.Sem
open Cert.Spec Cert.Net

variable [Cert.ReferenceIdeal.Facts₀]

/-! ## What a stretch leaves alone -/

/-- The buffers host stretch 3 writes, in the order of its operations. -/
def writes3 : List (Ref sig .tc) :=
  [main_v55, main_c_12, main_v56, main_v57, main_c_13, main_v58, main_v59, main_v60, main_v61, main_v62, main_v63, main_cst_14, main_v64, main_v65, main_v66, main_v67, main_v68, main_v69, main_v70, main_v71]

/-- A buffer outside that list comes out of stretch 3 as it went in. -/
theorem skip3 (W : Valuation τ sig (Elt Ideal)) {r : Ref sig .tc} (hr : r ∉ writes3) :
    StableHlo.after (hostOps3 (F := Ideal)) W (Proc.devRef .tc r) = W (Proc.devRef .tc r) :=
  StableHlo.after_of_writes_sub (W := writes3) _ _ (by
    simp only [hostOps3, writes3, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers host stretch 4 writes, in the order of its operations. -/
def writes4 : List (Ref sig .tc) :=
  [main_v73, main_v74, main_v75, main_v76, main_v77, main_v78, main_v79, main_v80, main_c_15, main_v81, main_v82, main_c_16, main_v83, main_v84, main_v85, main_v86, main_v87, main_v88, main_cst_17, main_v89, main_v90, main_v91, main_v92, main_v93, main_v94, main_v95]

/-- A buffer outside that list comes out of stretch 4 as it went in. -/
theorem skip4 (W : Valuation τ sig (Elt Ideal)) {r : Ref sig .tc} (hr : r ∉ writes4) :
    StableHlo.after (hostOps4 (F := Ideal)) W (Proc.devRef .tc r) = W (Proc.devRef .tc r) :=
  StableHlo.after_of_writes_sub (W := writes4) _ _ (by
    simp only [hostOps4, writes4, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers host stretch 5 writes, in the order of its operations. -/
def writes5 : List (Ref sig .tc) :=
  [main_cst_18, main_v97, main_v98, main_cst_19, main_v99, main_cst_20, main_v100, main_v101, main_cst_21, main_v102, main_v103, main_v104, main_v105, main_v106, main_v107, main_v108, main_v109, main_v110, main_v111, main_v112, main_v113]

/-- A buffer outside that list comes out of stretch 5 as it went in. -/
theorem skip5 (W : Valuation τ sig (Elt Ideal)) {r : Ref sig .tc} (hr : r ∉ writes5) :
    StableHlo.after (hostOps5 (F := Ideal)) W (Proc.devRef .tc r) = W (Proc.devRef .tc r) :=
  StableHlo.after_of_writes_sub (W := writes5) _ _ (by
    simp only [hostOps5, writes5, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-! ## What a stretch computes -/

set_option maxHeartbeats 1000000 in
theorem st3_v69 (W : Valuation τ sig (Elt Ideal)) :
    StableHlo.after (hostOps3 (F := Ideal)) W (Proc.devRef .tc main_v69) = divVec (segSum64 (W (Proc.devRef .tc main_arg1)) (W (Proc.devRef .tc main_arg2)) (W (Proc.devRef .tc main_v54))) (W (Proc.devRef .tc main_v8)) := by
  after_results_simp
  exact (hostDivf_bcast_eq_divVec _ _ _ _).trans rfl

set_option maxHeartbeats 1000000 in
theorem st3_v70 (W : Valuation τ sig (Elt Ideal)) :
    StableHlo.after (hostOps3 (F := Ideal)) W (Proc.devRef .tc main_v70) = rowOf (W (Proc.devRef .tc main_arg10)) := by
  after_results_simp
  exact shapeCast_eq_rowOf _ _

set_option maxHeartbeats 1000000 in
theorem st3_v71 (W : Valuation τ sig (Elt Ideal)) :
    StableHlo.after (hostOps3 (F := Ideal)) W (Proc.devRef .tc main_v71) = rowOf (W (Proc.devRef .tc main_arg12)) := by
  after_results_simp
  exact shapeCast_eq_rowOf _ _

set_option maxHeartbeats 1000000 in
theorem st4_v74 (W : Valuation τ sig (Elt Ideal)) :
    StableHlo.after (hostOps4 (F := Ideal)) W (Proc.devRef .tc main_v74) = tableMat (W (Proc.devRef .tc main_arg15)) 0 := by
  after_results_simp
  exact slice_cast_eq_tableMat 0 0 rfl _ _ _

set_option maxHeartbeats 1000000 in
theorem st4_v94 (W : Valuation τ sig (Elt Ideal)) :
    StableHlo.after (hostOps4 (F := Ideal)) W (Proc.devRef .tc main_v94) = scaleVec (segSum64 (W (Proc.devRef .tc main_arg1)) (W (Proc.devRef .tc main_arg2)) (scaleVec (W (Proc.devRef .tc main_v72)) (W (Proc.devRef .tc main_v10)))) (W (Proc.devRef .tc main_v12)) := by
  after_results_simp
  rw [mulf_bcast_eq_scaleVec, mulf_bcast_eq_scaleVec]
  rfl

set_option maxHeartbeats 1000000 in
theorem st4_v95 (W : Valuation τ sig (Elt Ideal)) :
    StableHlo.after (hostOps4 (F := Ideal)) W (Proc.devRef .tc main_v95) = tableRow (W (Proc.devRef .tc main_arg16)) 0 := by
  after_results_simp
  exact slice_casts_eq_tableRow 0 0 rfl _ _ _ _

set_option maxHeartbeats 1000000 in
theorem st5_v110 (W : Valuation τ sig (Elt Ideal)) :
    StableHlo.after (hostOps5 (F := Ideal)) W (Proc.devRef .tc main_v110) = tableRow (W (Proc.devRef .tc main_arg17)) 1 := by
  after_results_simp
  exact slice_casts_eq_tableRow 1 1 rfl _ _ _ _

set_option maxHeartbeats 1000000 in
theorem st5_v111 (W : Valuation τ sig (Elt Ideal)) :
    StableHlo.after (hostOps5 (F := Ideal)) W (Proc.devRef .tc main_v111) = tableRow (W (Proc.devRef .tc main_arg18)) 1 := by
  after_results_simp
  exact slice_casts_eq_tableRow 1 1 rfl _ _ _ _

set_option maxHeartbeats 1000000 in
theorem st5_v112 (W : Valuation τ sig (Elt Ideal)) :
    StableHlo.after (hostOps5 (F := Ideal)) W (Proc.devRef .tc main_v112) = meanRow (W (Proc.devRef .tc main_v96)) := by
  after_results_simp
  exact colMean_eq_meanRow _ _ _ _ _

set_option maxHeartbeats 1000000 in
theorem st5_v113 (W : Valuation τ sig (Elt Ideal)) :
    StableHlo.after (hostOps5 (F := Ideal)) W (Proc.devRef .tc main_v113) = varOnePass (W (Proc.devRef .tc main_v96)) := by
  after_results_simp
  exact colVar_eq_varOnePass _ _ _ _ _ _ _ _ _ _ _

end Cert.KernelIdeal.KChain

end
-- ==== Proof.KChainA2.lean ====
/-
  Layer 1 of the tiled program, read along its fold: from what is live after the region that ends layer 0 to what is
  live after the region that ends layer 1.

  The layer is three host stretches, each followed by a tiled region:

  * stretch 3 prepares the neighbour mean of layer 0's output h and the two gate biases; region 3 gates the neighbour
    mean into h: g = h + gate(h | mean) · mean;
  * stretch 4 cuts out the layer's weight matrix and bias row and aggregates g over the edges with the two degree
    normalisers; region 4 is the matrix product with the bias row: y;
  * stretch 5 cuts out the layer's scale and shift rows and takes the column means and the one-pass column variances
    of y; region 5 normalises y, adds g and clamps at zero: layer 1's output.

  A stretch rewrites only the buffers of its own results, and a region only its output array, so every buffer a later
  segment reads (the clamped in-degrees, the two normalisers, the argument arrays) is carried across unchanged: across a
  stretch because it is not among the stretch's results, across a region because it is not one of the region's arrays,
  or is one of its inputs, which a region hands back as it found them.
-/
import proofs.«130402_j14499809591446_2_alg».proof.Proof.KArgs10
import proofs.«130402_j14499809591446_2_alg».proof.Proof.KChainA2Ops

noncomputable section

namespace Cert.KernelIdeal.KChain

open Cert.KernelIdeal Cert.KernelIdeal.Gen Idealize.ShloMosaic Idealize.ShloMosaic.TcCoe Idealize.SL.Sem
open Cert.Spec Cert.Net

variable [Cert.ReferenceIdeal.Facts₀]
variable (m : (ℓ : Loc nD τ sig) → Buf (Elt Ideal) ℓ) (ρ : Dev nD → PrngReg) (c : Dev nD)

/-! ## Buffers carried unchanged -/

/-- A buffer that stretch 3 does not write and that is not an array of region 3 is at boundary 12 what it was at 10. -/
theorem carry12 (r : Ref sig .tc) (h3 : r ∉ writes3) (a3 : ∀ w, Pipeline.arrRef spec3 w ≠ r) :
    W12 m ρ c (Proc.devRef .tc r) = W10 m ρ c (Proc.devRef .tc r) :=
  (W12_of_ne m ρ c r a3).trans (skip3 _ h3)

/-- The same up to boundary 14: neither stretch 3 or 4 writes it, nor is it an array of region 3 or 4. -/
theorem carry14 (r : Ref sig .tc) (h3 : r ∉ writes3) (a3 : ∀ w, Pipeline.arrRef spec3 w ≠ r)
    (h4 : r ∉ writes4) (a4 : ∀ w, Pipeline.arrRef spec4 w ≠ r) :
    W14 m ρ c (Proc.devRef .tc r) = W10 m ρ c (Proc.devRef .tc r) :=
  (W14_of_ne m ρ c r a4).trans ((skip4 _ h4).trans (carry12 m ρ c r h3 a3))

/-- The same up to boundary 16. -/
theorem carry16 (r : Ref sig .tc) (h3 : r ∉ writes3) (a3 : ∀ w, Pipeline.arrRef spec3 w ≠ r)
    (h4 : r ∉ writes4) (a4 : ∀ w, Pipeline.arrRef spec4 w ≠ r) (h5 : r ∉ writes5) (a5 : ∀ w, Pipeline.arrRef spec5 w ≠ r) :
    W16 m ρ c (Proc.devRef .tc r) = W10 m ρ c (Proc.devRef .tc r) :=
  (W16_of_ne m ρ c r a5).trans ((skip5 _ h5).trans (carry14 m ρ c r h3 a3 h4 a4))

/-- From boundary 12 to boundary 16, for a buffer stretches 4 and 5 do not write and regions 4 and 5 do not hold. -/
theorem carry12_16 (r : Ref sig .tc) (h4 : r ∉ writes4) (a4 : ∀ w, Pipeline.arrRef spec4 w ≠ r) (h5 : r ∉ writes5)
    (a5 : ∀ w, Pipeline.arrRef spec5 w ≠ r) : W16 m ρ c (Proc.devRef .tc r) = W12 m ρ c (Proc.devRef .tc r) :=
  (W16_of_ne m ρ c r a5).trans ((skip5 _ h5).trans ((W14_of_ne m ρ c r a4).trans (skip4 _ h4)))

/-- The gate's first weight matrix is an input array of region 3: the region hands it back as it found it. -/
theorem arg9_at12 : W12 m ρ c (Proc.devRef .tc main_arg9) = W10 m ρ c (Proc.devRef .tc main_arg9) :=
  ((W12_arr m ρ c 2).trans (((dat3 (V11 m ρ) c).arrAt_in 2 rfl _).trans (A_eq3 (V11 m ρ) c 2))).trans (skip3 _ (by decide))

/-- The gate's second weight matrix likewise. -/
theorem arg11_at12 : W12 m ρ c (Proc.devRef .tc main_arg11) = W10 m ρ c (Proc.devRef .tc main_arg11) :=
  ((W12_arr m ρ c 4).trans (((dat3 (V11 m ρ) c).arrAt_in 4 rfl _).trans (A_eq3 (V11 m ρ) c 4))).trans (skip3 _ (by decide))

/-! ## The gated array (boundary 12) -/

/-- Region 3's output is the gated sum of layer 0's output with the mean of its neighbours. -/
theorem v72_at12 (f3 : Fact3) (L : Live10 m ρ c) :
    W12 m ρ c (Proc.devRef .tc main_v72) = gated (kargs m c) (h1 varOnePass (kargs m c)) := by
  have e54 : V11 m ρ c main_v54 = h1 varOnePass (kargs m c) := (skip3 _ (by decide)).trans L.h
  have e69 : V11 m ρ c main_v69 = nbMean (kargs m c).a1 (kargs m c).a2 (h1 varOnePass (kargs m c)) := by
    refine (st3_v69 (W10 m ρ c)).trans ?_
    rw [L.arg1, L.arg2, L.h, L.degIn]
    rfl
  have e9 : V11 m ρ c main_arg9 = (kargs m c).a9 := (skip3 _ (by decide)).trans L.arg9
  have e70 : V11 m ρ c main_v70 = rowOf (kargs m c).a10 := (st3_v70 (W10 m ρ c)).trans (by rw [L.arg10])
  have e11 : V11 m ρ c main_arg11 = (kargs m c).a11 := (skip3 _ (by decide)).trans L.arg11
  have e71 : V11 m ρ c main_v71 = rowOf (kargs m c).a12 := (st3_v71 (W10 m ρ c)).trans (by rw [L.arg12])
  refine (W12_arr m ρ c 6).trans ((f3 (V11 m ρ) c).trans ?_)
  rw [e54, e69, e9, e70, e11, e71]
  rfl

/-! ## The layer before its normalisation (boundary 14) -/

/-- Region 4's output is the matrix product of the aggregated gated array with the layer's weights, plus its bias row. -/
theorem v96_at14 (f3 : Fact3) (f4 : Fact4) (L : Live10 m ρ c) :
    W14 m ρ c (Proc.devRef .tc main_v96)
      = yL (kargs m c) 0 (gated (kargs m c) (h1 varOnePass (kargs m c))) := by
  have e94 : V13 m ρ c main_v94
      = aggregate64 (kargs m c).a1 (kargs m c).a2 (gated (kargs m c) (h1 varOnePass (kargs m c))) := by
    refine (st4_v94 (W12 m ρ c)).trans ?_
    rw [carry12 m ρ c main_arg1 (by decide) (by decide), carry12 m ρ c main_arg2 (by decide) (by decide),
      carry12 m ρ c main_v10 (by decide) (by decide), carry12 m ρ c main_v12 (by decide) (by decide),
      v72_at12 m ρ c f3 L, L.arg1, L.arg2, L.nrmOut, L.nrmIn]
    rfl
  have e74 : V13 m ρ c main_v74 = tableMat (kargs m c).a15 0 :=
    (st4_v74 (W12 m ρ c)).trans (by rw [carry12 m ρ c main_arg15 (by decide) (by decide), L.arg15])
  have e95 : V13 m ρ c main_v95 = tableRow (kargs m c).a16 0 :=
    (st4_v95 (W12 m ρ c)).trans (by rw [carry12 m ρ c main_arg16 (by decide) (by decide), L.arg16])
  refine (W14_arr m ρ c 3).trans ((f4 (V13 m ρ) c).trans ?_)
  rw [e94, e74, e95]
  rfl

/-- The gated array is still there at boundary 14: stretch 4 does not write it and region 4 does not hold it. -/
theorem v72_at14 (f3 : Fact3) (L : Live10 m ρ c) :
    W14 m ρ c (Proc.devRef .tc main_v72) = gated (kargs m c) (h1 varOnePass (kargs m c)) :=
  (W14_of_ne m ρ c main_v72 (by decide)).trans ((skip4 _ (by decide)).trans (v72_at12 m ρ c f3 L))

/-! ## Layer 1's output (boundary 16) -/

/-- Region 5's output is the normalisation of the layer by its own column means and one-pass column variances, plus the
    gated array, clamped at zero: layer 1's output. -/
theorem v114_at16 (f3 : Fact3) (f4 : Fact4) (f5 : Fact5) (L : Live10 m ρ c) :
    W16 m ρ c (Proc.devRef .tc main_v114) = stepL varOnePass (kargs m c) 0 (h1 varOnePass (kargs m c)) := by
  have e96 : V15 m ρ c main_v96 = yL (kargs m c) 0 (gated (kargs m c) (h1 varOnePass (kargs m c))) :=
    (skip5 _ (by decide)).trans (v96_at14 m ρ c f3 f4 L)
  have e110 : V15 m ρ c main_v110 = tableRow (kargs m c).a17 1 :=
    (st5_v110 (W14 m ρ c)).trans (by rw [carry14 m ρ c main_arg17 (by decide) (by decide) (by decide) (by decide), L.arg17])
  have e111 : V15 m ρ c main_v111 = tableRow (kargs m c).a18 1 :=
    (st5_v111 (W14 m ρ c)).trans (by rw [carry14 m ρ c main_arg18 (by decide) (by decide) (by decide) (by decide), L.arg18])
  have e112 : V15 m ρ c main_v112 = meanRow (yL (kargs m c) 0 (gated (kargs m c) (h1 varOnePass (kargs m c)))) :=
    (st5_v112 (W14 m ρ c)).trans (by rw [v96_at14 m ρ c f3 f4 L])
  have e113 : V15 m ρ c main_v113 = varOnePass (yL (kargs m c) 0 (gated (kargs m c) (h1 varOnePass (kargs m c)))) :=
    (st5_v113 (W14 m ρ c)).trans (by rw [v96_at14 m ρ c f3 f4 L])
  have e72 : V15 m ρ c main_v72 = gated (kargs m c) (h1 varOnePass (kargs m c)) :=
    (skip5 _ (by decide)).trans (v72_at14 m ρ c f3 L)
  refine (W16_arr m ρ c 6).trans ((f5 (V15 m ρ) c).trans ?_)
  rw [e96, e110, e111, e112, e113, e72]
  rfl

/-! ## What is live after layer 1 -/

/-- From what is live after layer 0 to what is live after layer 1, given that regions 3, 4 and 5 compute their stages. -/
theorem live16_of_live10 (f3 : Fact3) (f4 : Fact4) (f5 : Fact5) (m : (ℓ : Loc nD τ sig) → Buf (Elt Ideal) ℓ)
    (ρ : Dev nD → PrngReg) (c : Dev nD) (L : Live10 m ρ c) : Live16 m ρ c where
  h := v114_at16 m ρ c f3 f4 f5 L
  degIn := (carry16 m ρ c main_v8 (by decide) (by decide) (by decide) (by decide) (by decide) (by decide)).trans L.degIn
  nrmOut := (carry16 m ρ c main_v10 (by decide) (by decide) (by decide) (by decide) (by decide) (by decide)).trans L.nrmOut
  nrmIn := (carry16 m ρ c main_v12 (by decide) (by decide) (by decide) (by decide) (by decide) (by decide)).trans L.nrmIn
  arg1 := (carry16 m ρ c main_arg1 (by decide) (by decide) (by decide) (by decide) (by decide) (by decide)).trans L.arg1
  arg2 := (carry16 m ρ c main_arg2 (by decide) (by decide) (by decide) (by decide) (by decide) (by decide)).trans L.arg2
  arg9 := (carry12_16 m ρ c main_arg9 (by decide) (by decide) (by decide) (by decide)).trans ((arg9_at12 m ρ c).trans L.arg9)
  arg10 := (carry16 m ρ c main_arg10 (by decide) (by decide) (by decide) (by decide) (by decide) (by decide)).trans L.arg10
  arg11 := (carry12_16 m ρ c main_arg11 (by decide) (by decide) (by decide) (by decide)).trans ((arg11_at12 m ρ c).trans L.arg11)
  arg12 := (carry16 m ρ c main_arg12 (by decide) (by decide) (by decide) (by decide) (by decide) (by decide)).trans L.arg12
  arg15 := (carry16 m ρ c main_arg15 (by decide) (by decide) (by decide) (by decide) (by decide) (by decide)).trans L.arg15
  arg16 := (carry16 m ρ c main_arg16 (by decide) (by decide) (by decide) (by decide) (by decide) (by decide)).trans L.arg16
  arg17 := (carry16 m ρ c main_arg17 (by decide) (by decide) (by decide) (by decide) (by decide) (by decide)).trans L.arg17
  arg18 := (carry16 m ρ c main_arg18 (by decide) (by decide) (by decide) (by decide) (by decide) (by decide)).trans L.arg18
  arg19 := (carry16 m ρ c main_arg19 (by decide) (by decide) (by decide) (by decide) (by decide) (by decide)).trans L.arg19
  arg20 := (carry16 m ρ c main_arg20 (by decide) (by decide) (by decide) (by decide) (by decide) (by decide)).trans L.arg20

end Cert.KernelIdeal.KChain

end
-- ==== Proof.KChainB0.lean ====
/-
  What each host stretch of layers 2 and 3 computes, for ANY buffer contents W it is entered with.

  Between two pallas regions the tiled program runs a straight line of host operations.  Each line writes a fixed
  list of buffers (`writesK`), so every buffer outside that list leaves the line as it entered it (`skipK`).  The
  buffers a later region reads are, entry for entry, stages of the network applied to what the line read:

  * before a gate region: the neighbour mean's numerator (the source rows gathered by the wrapped source numbers and
    summed into the destination rows; the narrowing before the gather and the widening after it change nothing over
    the extended reals) divided row by row by the clamped in-degree, and the two gate biases as one-row arrays;
  * before a linear region: the layer's weight matrix and bias row cut out of the stacked tables, and the aggregation
    — rows scaled by the out-degree normaliser, summed over the edges, scaled by the in-degree normaliser;
  * before a normalisation region: the layer's scale and shift rows, the column means and the column variances in
    the spelling "mean of the squares minus the squared mean".

  The edge-indexed chain (gather, scatter with addition) is the same chain of host operations the network's
  definition carries, so it is recognised by unfolding names only, never opened.
-/
import proofs.«130402_j14499809591446_2_alg».proof.Proof.Gen.KernelIdeal.Launch
import proofs.«130402_j14499809591446_2_alg».proof.Proof.KChainLemmas
import Idealize.ShloMosaic.Lib.StableHlo.Run

noncomputable section

namespace Cert.KernelIdeal.KChain

open Cert.KernelIdeal Cert.KernelIdeal.Gen Idealize.ShloMosaic Idealize.ShloMosaic.TcCoe Idealize.SL.Sem
open Cert.Spec Cert.Net

variable [Cert.ReferenceIdeal.Facts₀]

/-! ## What a stretch leaves alone -/

/-- The buffers host stretch 6 writes. -/
def writes6 : List (Ref sig .tc) :=
  [main_v115, main_c_22, main_v116, main_v117, main_c_23, main_v118, main_v119, main_v120, main_v121, main_v122, main_v123, main_cst_24, main_v124, main_v125, main_v126, main_v127, main_v128, main_v129, main_v130, main_v131]

/-- A buffer outside that list comes out of stretch 6 as it went in. -/
theorem skip6 (W : Valuation τ sig (Elt Ideal)) {r : Ref sig .tc} (hr : r ∉ writes6) :
    StableHlo.after (hostOps6 (F := Ideal)) W (Proc.devRef .tc r) = W (Proc.devRef .tc r) :=
  StableHlo.after_of_writes_sub (W := writes6) _ _ (by
    simp only [hostOps6, writes6, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers host stretch 7 writes. -/
def writes7 : List (Ref sig .tc) :=
  [main_v133, main_v134, main_v135, main_v136, main_v137, main_v138, main_v139, main_v140, main_c_25, main_v141, main_v142, main_c_26, main_v143, main_v144, main_v145, main_v146, main_v147, main_v148, main_cst_27, main_v149, main_v150, main_v151, main_v152, main_v153, main_v154, main_v155]

/-- A buffer outside that list comes out of stretch 7 as it went in. -/
theorem skip7 (W : Valuation τ sig (Elt Ideal)) {r : Ref sig .tc} (hr : r ∉ writes7) :
    StableHlo.after (hostOps7 (F := Ideal)) W (Proc.devRef .tc r) = W (Proc.devRef .tc r) :=
  StableHlo.after_of_writes_sub (W := writes7) _ _ (by
    simp only [hostOps7, writes7, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers host stretch 8 writes. -/
def writes8 : List (Ref sig .tc) :=
  [main_cst_28, main_v157, main_v158, main_cst_29, main_v159, main_cst_30, main_v160, main_v161, main_cst_31, main_v162, main_v163, main_v164, main_v165, main_v166, main_v167, main_v168, main_v169, main_v170, main_v171, main_v172, main_v173]

/-- A buffer outside that list comes out of stretch 8 as it went in. -/
theorem skip8 (W : Valuation τ sig (Elt Ideal)) {r : Ref sig .tc} (hr : r ∉ writes8) :
    StableHlo.after (hostOps8 (F := Ideal)) W (Proc.devRef .tc r) = W (Proc.devRef .tc r) :=
  StableHlo.after_of_writes_sub (W := writes8) _ _ (by
    simp only [hostOps8, writes8, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers host stretch 9 writes. -/
def writes9 : List (Ref sig .tc) :=
  [main_v175, main_c_32, main_v176, main_v177, main_c_33, main_v178, main_v179, main_v180, main_v181, main_v182, main_v183, main_cst_34, main_v184, main_v185, main_v186, main_v187, main_v188, main_v189, main_v190, main_v191]

/-- A buffer outside that list comes out of stretch 9 as it went in. -/
theorem skip9 (W : Valuation τ sig (Elt Ideal)) {r : Ref sig .tc} (hr : r ∉ writes9) :
    StableHlo.after (hostOps9 (F := Ideal)) W (Proc.devRef .tc r) = W (Proc.devRef .tc r) :=
  StableHlo.after_of_writes_sub (W := writes9) _ _ (by
    simp only [hostOps9, writes9, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers host stretch 10 writes. -/
def writes10 : List (Ref sig .tc) :=
  [main_v193, main_v194, main_v195, main_v196, main_v197, main_v198, main_v199, main_v200, main_c_35, main_v201, main_v202, main_c_36, main_v203, main_v204, main_v205, main_v206, main_v207, main_v208, main_cst_37, main_v209, main_v210, main_v211, main_v212, main_v213, main_v214, main_v215]

/-- A buffer outside that list comes out of stretch 10 as it went in. -/
theorem skip10 (W : Valuation τ sig (Elt Ideal)) {r : Ref sig .tc} (hr : r ∉ writes10) :
    StableHlo.after (hostOps10 (F := Ideal)) W (Proc.devRef .tc r) = W (Proc.devRef .tc r) :=
  StableHlo.after_of_writes_sub (W := writes10) _ _ (by
    simp only [hostOps10, writes10, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-- The buffers host stretch 11 writes. -/
def writes11 : List (Ref sig .tc) :=
  [main_cst_38, main_v217, main_v218, main_cst_39, main_v219, main_cst_40, main_v220, main_v221, main_cst_41, main_v222, main_v223, main_v224, main_v225, main_v226, main_v227, main_v228, main_v229, main_v230, main_v231, main_v232, main_v233, main_v234]

/-- A buffer outside that list comes out of stretch 11 as it went in. -/
theorem skip11 (W : Valuation τ sig (Elt Ideal)) {r : Ref sig .tc} (hr : r ∉ writes11) :
    StableHlo.after (hostOps11 (F := Ideal)) W (Proc.devRef .tc r) = W (Proc.devRef .tc r) :=
  StableHlo.after_of_writes_sub (W := writes11) _ _ (by
    simp only [hostOps11, writes11, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]) hr

/-! ## What a stretch computes -/

set_option maxHeartbeats 1000000 in
theorem st6_v129 (W : Valuation τ sig (Elt Ideal)) :
    StableHlo.after (hostOps6 (F := Ideal)) W (Proc.devRef .tc main_v129) = divVec (segSum64 (W (Proc.devRef .tc main_arg1)) (W (Proc.devRef .tc main_arg2)) (W (Proc.devRef .tc main_v114))) (W (Proc.devRef .tc main_v8)) := by
  after_results_simp
  exact (hostDivf_bcast_eq_divVec _ _ _ _).trans rfl

set_option maxHeartbeats 1000000 in
theorem st6_v130 (W : Valuation τ sig (Elt Ideal)) :
    StableHlo.after (hostOps6 (F := Ideal)) W (Proc.devRef .tc main_v130) = rowOf (W (Proc.devRef .tc main_arg10)) := by
  after_results_simp
  exact shapeCast_eq_rowOf _ _

set_option maxHeartbeats 1000000 in
theorem st6_v131 (W : Valuation τ sig (Elt Ideal)) :
    StableHlo.after (hostOps6 (F := Ideal)) W (Proc.devRef .tc main_v131) = rowOf (W (Proc.devRef .tc main_arg12)) := by
  after_results_simp
  exact shapeCast_eq_rowOf _ _

set_option maxHeartbeats 1000000 in
theorem st7_v134 (W : Valuation τ sig (Elt Ideal)) :
    StableHlo.after (hostOps7 (F := Ideal)) W (Proc.devRef .tc main_v134) = tableMat (W (Proc.devRef .tc main_arg15)) 1 := by
  after_results_simp
  exact slice_cast_eq_tableMat 1 1 rfl _ _ _

set_option maxHeartbeats 1000000 in
theorem st7_v154 (W : Valuation τ sig (Elt Ideal)) :
    StableHlo.after (hostOps7 (F := Ideal)) W (Proc.devRef .tc main_v154) = scaleVec (segSum64 (W (Proc.devRef .tc main_arg1)) (W (Proc.devRef .tc main_arg2)) (scaleVec (W (Proc.devRef .tc main_v132)) (W (Proc.devRef .tc main_v10)))) (W (Proc.devRef .tc main_v12)) := by
  after_results_simp
  rw [mulf_bcast_eq_scaleVec, mulf_bcast_eq_scaleVec]
  rfl

set_option maxHeartbeats 1000000 in
theorem st7_v155 (W : Valuation τ sig (Elt Ideal)) :
    StableHlo.after (hostOps7 (F := Ideal)) W (Proc.devRef .tc main_v155) = tableRow (W (Proc.devRef .tc main_arg16)) 1 := by
  after_results_simp
  exact slice_casts_eq_tableRow 1 1 rfl _ _ _ _

set_option maxHeartbeats 1000000 in
theorem st8_v170 (W : Valuation τ sig (Elt Ideal)) :
    StableHlo.after (hostOps8 (F := Ideal)) W (Proc.devRef .tc main_v170) = tableRow (W (Proc.devRef .tc main_arg17)) 2 := by
  after_results_simp
  exact slice_casts_eq_tableRow 2 2 rfl _ _ _ _

set_option maxHeartbeats 1000000 in
theorem st8_v171 (W : Valuation τ sig (Elt Ideal)) :
    StableHlo.after (hostOps8 (F := Ideal)) W (Proc.devRef .tc main_v171) = tableRow (W (Proc.devRef .tc main_arg18)) 2 := by
  after_results_simp
  exact slice_casts_eq_tableRow 2 2 rfl _ _ _ _

set_option maxHeartbeats 1000000 in
theorem st8_v172 (W : Valuation τ sig (Elt Ideal)) :
    StableHlo.after (hostOps8 (F := Ideal)) W (Proc.devRef .tc main_v172) = meanRow (W (Proc.devRef .tc main_v156)) := by
  after_results_simp
  exact colMean_eq_meanRow _ _ _ _ _

set_option maxHeartbeats 1000000 in
theorem st8_v173 (W : Valuation τ sig (Elt Ideal)) :
    StableHlo.after (hostOps8 (F := Ideal)) W (Proc.devRef .tc main_v173) = varOnePass (W (Proc.devRef .tc main_v156)) := by
  after_results_simp
  exact colVar_eq_varOnePass _ _ _ _ _ _ _ _ _ _ _

set_option maxHeartbeats 1000000 in
theorem st9_v189 (W : Valuation τ sig (Elt Ideal)) :
    StableHlo.after (hostOps9 (F := Ideal)) W (Proc.devRef .tc main_v189) = divVec (segSum64 (W (Proc.devRef .tc main_arg1)) (W (Proc.devRef .tc main_arg2)) (W (Proc.devRef .tc main_v174))) (W (Proc.devRef .tc main_v8)) := by
  after_results_simp
  exact (hostDivf_bcast_eq_divVec _ _ _ _).trans rfl

set_option maxHeartbeats 1000000 in
theorem st9_v190 (W : Valuation τ sig (Elt Ideal)) :
    StableHlo.after (hostOps9 (F := Ideal)) W (Proc.devRef .tc main_v190) = rowOf (W (Proc.devRef .tc main_arg10)) := by
  after_results_simp
  exact shapeCast_eq_rowOf _ _

set_option maxHeartbeats 1000000 in
theorem st9_v191 (W : Valuation τ sig (Elt Ideal)) :
    StableHlo.after (hostOps9 (F := Ideal)) W (Proc.devRef .tc main_v191) = rowOf (W (Proc.devRef .tc main_arg12)) := by
  after_results_simp
  exact shapeCast_eq_rowOf _ _

set_option maxHeartbeats 1000000 in
theorem st10_v194 (W : Valuation τ sig (Elt Ideal)) :
    StableHlo.after (hostOps10 (F := Ideal)) W (Proc.devRef .tc main_v194) = tableMat (W (Proc.devRef .tc main_arg15)) 2 := by
  after_results_simp
  exact slice_cast_eq_tableMat 2 2 rfl _ _ _

set_option maxHeartbeats 1000000 in
theorem st10_v214 (W : Valuation τ sig (Elt Ideal)) :
    StableHlo.after (hostOps10 (F := Ideal)) W (Proc.devRef .tc main_v214) = scaleVec (segSum64 (W (Proc.devRef .tc main_arg1)) (W (Proc.devRef .tc main_arg2)) (scaleVec (W (Proc.devRef .tc main_v192)) (W (Proc.devRef .tc main_v10)))) (W (Proc.devRef .tc main_v12)) := by
  after_results_simp
  rw [mulf_bcast_eq_scaleVec, mulf_bcast_eq_scaleVec]
  rfl

set_option maxHeartbeats 1000000 in
theorem st10_v215 (W : Valuation τ sig (Elt Ideal)) :
    StableHlo.after (hostOps10 (F := Ideal)) W (Proc.devRef .tc main_v215) = tableRow (W (Proc.devRef .tc main_arg16)) 2 := by
  after_results_simp
  exact slice_casts_eq_tableRow 2 2 rfl _ _ _ _

set_option maxHeartbeats 1000000 in
theorem st11_v230 (W : Valuation τ sig (Elt Ideal)) :
    StableHlo.after (hostOps11 (F := Ideal)) W (Proc.devRef .tc main_v230) = tableRow (W (Proc.devRef .tc main_arg17)) 3 := by
  after_results_simp
  exact slice_casts_eq_tableRow 3 3 rfl _ _ _ _

set_option maxHeartbeats 1000000 in
theorem st11_v231 (W : Valuation τ sig (Elt Ideal)) :
    StableHlo.after (hostOps11 (F := Ideal)) W (Proc.devRef .tc main_v231) = tableRow (W (Proc.devRef .tc main_arg18)) 3 := by
  after_results_simp
  exact slice_casts_eq_tableRow 3 3 rfl _ _ _ _

set_option maxHeartbeats 1000000 in
theorem st11_v232 (W : Valuation τ sig (Elt Ideal)) :
    StableHlo.after (hostOps11 (F := Ideal)) W (Proc.devRef .tc main_v232) = meanRow (W (Proc.devRef .tc main_v216)) := by
  after_results_simp
  exact colMean_eq_meanRow _ _ _ _ _

set_option maxHeartbeats 1000000 in
theorem st11_v233 (W : Valuation τ sig (Elt Ideal)) :
    StableHlo.after (hostOps11 (F := Ideal)) W (Proc.devRef .tc main_v233) = varOnePass (W (Proc.devRef .tc main_v216)) := by
  after_results_simp
  exact colVar_eq_varOnePass _ _ _ _ _ _ _ _ _ _ _

set_option maxHeartbeats 1000000 in
theorem st11_v234 (W : Valuation τ sig (Elt Ideal)) :
    StableHlo.after (hostOps11 (F := Ideal)) W (Proc.devRef .tc main_v234) = rowOf (W (Proc.devRef .tc main_arg20)) := by
  after_results_simp
  exact shapeCast_eq_rowOf _ _

end Cert.KernelIdeal.KChain

end
-- ==== Proof.KChainB.lean ====
/-
  The tiled program's value from the end of layer 1 to its result, read along the fold of buffer contents.

  The program's buffer contents at each segment boundary are a fold from the launch memory: a host stretch rewrites
  the buffers it writes and keeps the rest, a pallas region rewrites its output array and keeps the rest.  From the
  boundary after layer 1 (boundary 16) to the result (boundary 28) two layers follow, each three regions among three
  host stretches:

  * a stretch prepares the neighbour mean and the gate's bias rows, a region gates the layer's input h:
      g = h + gate (h | mean of the neighbours of h) · mean of the neighbours of h;
  * a stretch cuts the layer's weight matrix and bias row out of the stacked tables and aggregates g over the edges,
    a region applies the linear map:  y = aggregate g · W + b;
  * a stretch takes the column means and the column variances (mean of the squares minus the squared mean) of y and
    cuts out the layer's scale and shift rows, a region normalises y, adds g and clamps at zero — in the last layer
    this region also multiplies by the classifier's matrix and adds its bias row.

  Three kinds of facts are carried along the fold.  (1) The clamped in-degrees, the two degree normalisers and the
  argument arrays still to be read are written by no later stretch and are no later region's output, so at every
  later boundary they hold what they held at boundary 16.  (2) What a stretch writes is the network's stage of what
  it read, for any contents it is entered with (the stretch lemmas), so with the facts held at its entry it is the
  stage of the network's own values.  (3) What a region writes is its stage of the region-entry contents of its input
  arrays (the hypotheses Fact6 … Fact11), so with the facts held at its entry it is the stage of the network's own
  values.  Chaining these gives layer 2's output in terms of layer 1's, the result in terms of layer 2's output, and
  so the result as the whole network applied to the launch arrays.
-/
import proofs.«130402_j14499809591446_2_alg».proof.Proof.KArgs
import proofs.«130402_j14499809591446_2_alg».proof.Proof.KChainB0

noncomputable section

namespace Cert.KernelIdeal.KChain

open Cert.KernelIdeal Cert.KernelIdeal.Gen Idealize.ShloMosaic Idealize.ShloMosaic.TcCoe Idealize.SL.Sem
open Cert.Spec Cert.Net

variable [Cert.ReferenceIdeal.Facts₀]
variable (m : (ℓ : Loc nD τ sig) → Buf (Elt Ideal) ℓ) (ρ : Dev nD → PrngReg) (c : Dev nD)

/-! ## A region changes only its output array

A buffer that is none of the region's arrays is kept by the fold's definition; an input array is read, never written,
so the pipeline leaves it as it found it.  Only the output array differs from its contents at the region's entry. -/

theorem keep18 (r : Ref sig .tc) (hr : r ≠ main_v132) :
    W18 m ρ c (Proc.devRef .tc r) = W17 m ρ c (Proc.devRef .tc r) := by
  by_cases h : ∃ w, Pipeline.arrRef spec6 w = r
  · obtain ⟨w, rfl⟩ := h
    have hw : (cfg6.win w).isOut = false := by revert w; decide
    exact (W18_arr m ρ c w).trans (((dat6 (V17 m ρ) c).arrAt_in w hw _).trans (A_eq6 (V17 m ρ) c w))
  · exact W18_of_ne m ρ c r fun w e => h ⟨w, e⟩

theorem keep20 (r : Ref sig .tc) (hr : r ≠ main_v156) :
    W20 m ρ c (Proc.devRef .tc r) = W19 m ρ c (Proc.devRef .tc r) := by
  by_cases h : ∃ w, Pipeline.arrRef spec7 w = r
  · obtain ⟨w, rfl⟩ := h
    have hw : (cfg7.win w).isOut = false := by revert w; decide
    exact (W20_arr m ρ c w).trans (((dat7 (V19 m ρ) c).arrAt_in w hw _).trans (A_eq7 (V19 m ρ) c w))
  · exact W20_of_ne m ρ c r fun w e => h ⟨w, e⟩

theorem keep22 (r : Ref sig .tc) (hr : r ≠ main_v174) :
    W22 m ρ c (Proc.devRef .tc r) = W21 m ρ c (Proc.devRef .tc r) := by
  by_cases h : ∃ w, Pipeline.arrRef spec8 w = r
  · obtain ⟨w, rfl⟩ := h
    have hw : (cfg8.win w).isOut = false := by revert w; decide
    exact (W22_arr m ρ c w).trans (((dat8 (V21 m ρ) c).arrAt_in w hw _).trans (A_eq8 (V21 m ρ) c w))
  · exact W22_of_ne m ρ c r fun w e => h ⟨w, e⟩

theorem keep24 (r : Ref sig .tc) (hr : r ≠ main_v192) :
    W24 m ρ c (Proc.devRef .tc r) = W23 m ρ c (Proc.devRef .tc r) := by
  by_cases h : ∃ w, Pipeline.arrRef spec9 w = r
  · obtain ⟨w, rfl⟩ := h
    have hw : (cfg9.win w).isOut = false := by revert w; decide
    exact (W24_arr m ρ c w).trans (((dat9 (V23 m ρ) c).arrAt_in w hw _).trans (A_eq9 (V23 m ρ) c w))
  · exact W24_of_ne m ρ c r fun w e => h ⟨w, e⟩

theorem keep26 (r : Ref sig .tc) (hr : r ≠ main_v216) :
    W26 m ρ c (Proc.devRef .tc r) = W25 m ρ c (Proc.devRef .tc r) := by
  by_cases h : ∃ w, Pipeline.arrRef spec10 w = r
  · obtain ⟨w, rfl⟩ := h
    have hw : (cfg10.win w).isOut = false := by revert w; decide
    exact (W26_arr m ρ c w).trans (((dat10 (V25 m ρ) c).arrAt_in w hw _).trans (A_eq10 (V25 m ρ) c w))
  · exact W26_of_ne m ρ c r fun w e => h ⟨w, e⟩

/-! ## What is carried from boundary 16 to every later boundary -/

/-- The buffers nothing writes after layer 1 and later segments still read: the clamped in-degrees, the two
    normalisers, and the argument arrays not yet used up. -/
def carried : List (Ref sig .tc) :=
  [main_v8, main_v10, main_v12, main_arg1, main_arg2, main_arg9, main_arg10, main_arg11, main_arg12, main_arg15, main_arg16, main_arg17, main_arg18, main_arg19, main_arg20]

theorem carried_not_written : ∀ r ∈ carried, r ∉ writes6 ∧ r ∉ writes7 ∧ r ∉ writes8 ∧ r ∉ writes9 ∧ r ∉ writes10 ∧ r ∉ writes11 := by
  decide

theorem carried_not_output : ∀ r ∈ carried, r ≠ main_v132 ∧ r ≠ main_v156 ∧ r ≠ main_v174 ∧ r ≠ main_v192 ∧ r ≠ main_v216 := by
  decide

variable {r : Ref sig .tc} (hr : r ∈ carried)
include hr

theorem at17 : W17 m ρ c (Proc.devRef .tc r) = W16 m ρ c (Proc.devRef .tc r) :=
  (skip6 _ (carried_not_written r hr).1)
theorem at18 : W18 m ρ c (Proc.devRef .tc r) = W16 m ρ c (Proc.devRef .tc r) :=
  (keep18 m ρ c r (carried_not_output r hr).1).trans (at17 m ρ c hr)
theorem at19 : W19 m ρ c (Proc.devRef .tc r) = W16 m ρ c (Proc.devRef .tc r) :=
  (skip7 _ (carried_not_written r hr).2.1).trans (at18 m ρ c hr)
theorem at20 : W20 m ρ c (Proc.devRef .tc r) = W16 m ρ c (Proc.devRef .tc r) :=
  (keep20 m ρ c r (carried_not_output r hr).2.1).trans (at19 m ρ c hr)
theorem at21 : W21 m ρ c (Proc.devRef .tc r) = W16 m ρ c (Proc.devRef .tc r) :=
  (skip8 _ (carried_not_written r hr).2.2.1).trans (at20 m ρ c hr)
theorem at22 : W22 m ρ c (Proc.devRef .tc r) = W16 m ρ c (Proc.devRef .tc r) :=
  (keep22 m ρ c r (carried_not_output r hr).2.2.1).trans (at21 m ρ c hr)
theorem at23 : W23 m ρ c (Proc.devRef .tc r) = W16 m ρ c (Proc.devRef .tc r) :=
  (skip9 _ (carried_not_written r hr).2.2.2.1).trans (at22 m ρ c hr)
theorem at24 : W24 m ρ c (Proc.devRef .tc r) = W16 m ρ c (Proc.devRef .tc r) :=
  (keep24 m ρ c r (carried_not_output r hr).2.2.2.1).trans (at23 m ρ c hr)
theorem at25 : W25 m ρ c (Proc.devRef .tc r) = W16 m ρ c (Proc.devRef .tc r) :=
  (skip10 _ (carried_not_written r hr).2.2.2.2.1).trans (at24 m ρ c hr)
theorem at26 : W26 m ρ c (Proc.devRef .tc r) = W16 m ρ c (Proc.devRef .tc r) :=
  (keep26 m ρ c r (carried_not_output r hr).2.2.2.2).trans (at25 m ρ c hr)
theorem at27 : W27 m ρ c (Proc.devRef .tc r) = W16 m ρ c (Proc.devRef .tc r) :=
  (skip11 _ (carried_not_written r hr).2.2.2.2.2).trans (at26 m ρ c hr)
omit hr

/-! ## Equal inputs, equal stage outputs -/

theorem attn_congr {h h' nb nb' : Mat 100000 64} {W1 W1' : Mat 128 64} {b1 b1' : Mat 1 64} {W2 W2' : Mat 64 1}
    {b2 b2' : Mat 1 1} (e1 : h = h') (e2 : nb = nb') (e3 : W1 = W1') (e4 : b1 = b1') (e5 : W2 = W2') (e6 : b2 = b2') :
    attn h nb W1 b1 W2 b2 = attn h' nb' W1' b1' W2' b2' := by
  subst e1 e2 e3 e4 e5 e6; rfl

theorem linear_congr {a a' : Mat 100000 64} {W W' : Mat 64 64} {b b' : Mat 1 64} (e1 : a = a') (e2 : W = W') (e3 : b = b') :
    linear a W b = linear a' W' b' := by
  subst e1 e2 e3; rfl

theorem bnResRelu_congr {y y' : Mat 100000 64} {g g' bt bt' mu mu' var var' : Mat 1 64} {h h' : Mat 100000 64}
    (e1 : y = y') (e2 : g = g') (e3 : bt = bt') (e4 : mu = mu') (e5 : var = var') (e6 : h = h') :
    bnResRelu y g bt mu var h = bnResRelu y' g' bt' mu' var' h' := by
  subst e1 e2 e3 e4 e5 e6; rfl

theorem classifier_congr {y y' : Mat 100000 64} {g g' bt bt' mu mu' var var' : Mat 1 64} {h h' : Mat 100000 64}
    {fcW fcW' : Mat 64 16} {fcb fcb' : Mat 1 16}
    (e1 : y = y') (e2 : g = g') (e3 : bt = bt') (e4 : mu = mu') (e5 : var = var') (e6 : h = h') (e7 : fcW = fcW')
    (e8 : fcb = fcb') :
    classifier y g bt mu var h fcW fcb = classifier y' g' bt' mu' var' h' fcW' fcb' := by
  subst e1 e2 e3 e4 e5 e6 e7 e8; rfl

/-! ## Layer 2 (boundaries 16 to 22)

The layer's input hv sits in `main_v114` at boundary 16 (hypothesis H). -/

section
variable {hv : Mat 100000 64}

/-! ### Before and through the gate region (boundaries 16 → 17 → 18) -/

theorem b17_v129 (L : Live16 m ρ c) (H : W16 m ρ c (Proc.devRef .tc main_v114) = hv) :
    W17 m ρ c (Proc.devRef .tc main_v129) = nbMean (kargs m c).a1 (kargs m c).a2 hv :=
  (st6_v129 (W16 m ρ c)).trans (by
    rw [L.arg1, L.arg2, H, L.degIn]; rfl)

theorem b17_v130 (L : Live16 m ρ c) : W17 m ρ c (Proc.devRef .tc main_v130) = rowOf (kargs m c).a10 :=
  (st6_v130 (W16 m ρ c)).trans (by rw [L.arg10])

theorem b17_v131 (L : Live16 m ρ c) : W17 m ρ c (Proc.devRef .tc main_v131) = rowOf (kargs m c).a12 :=
  (st6_v131 (W16 m ρ c)).trans (by rw [L.arg12])

theorem b17_v114 (H : W16 m ρ c (Proc.devRef .tc main_v114) = hv) : W17 m ρ c (Proc.devRef .tc main_v114) = hv :=
  (skip6 _ (by decide)).trans H

theorem b18_v132 (f6 : Fact6) (L : Live16 m ρ c) (H : W16 m ρ c (Proc.devRef .tc main_v114) = hv) : W18 m ρ c (Proc.devRef .tc main_v132) = gated (kargs m c) hv :=
  (W18_arr m ρ c 6).trans ((f6 (V17 m ρ) c).trans (attn_congr (b17_v114 m ρ c H) (b17_v129 m ρ c L H)
    ((at17 m ρ c (r := main_arg9) (by decide)).trans L.arg9) (b17_v130 m ρ c L)
    ((at17 m ρ c (r := main_arg11) (by decide)).trans L.arg11) (b17_v131 m ρ c L)))

/-! ### Before and through the linear region (boundaries 18 → 19 → 20) -/

theorem b19_v134 (L : Live16 m ρ c) : W19 m ρ c (Proc.devRef .tc main_v134) = tableMat (kargs m c).a15 1 :=
  (st7_v134 (W18 m ρ c)).trans (by rw [(at18 m ρ c (r := main_arg15) (by decide)).trans L.arg15])

theorem b19_v155 (L : Live16 m ρ c) : W19 m ρ c (Proc.devRef .tc main_v155) = tableRow (kargs m c).a16 1 :=
  (st7_v155 (W18 m ρ c)).trans (by rw [(at18 m ρ c (r := main_arg16) (by decide)).trans L.arg16])

theorem b19_v154 (f6 : Fact6) (L : Live16 m ρ c) (H : W16 m ρ c (Proc.devRef .tc main_v114) = hv) :
    W19 m ρ c (Proc.devRef .tc main_v154) = aggregate64 (kargs m c).a1 (kargs m c).a2 (gated (kargs m c) hv) :=
  (st7_v154 (W18 m ρ c)).trans (by
    rw [(at18 m ρ c (r := main_arg1) (by decide)).trans L.arg1, (at18 m ρ c (r := main_arg2) (by decide)).trans L.arg2,
      b18_v132 m ρ c f6 L H, (at18 m ρ c (r := main_v10) (by decide)).trans L.nrmOut,
      (at18 m ρ c (r := main_v12) (by decide)).trans L.nrmIn]; rfl)

theorem b20_v156 (f6 : Fact6) (f7 : Fact7) (L : Live16 m ρ c) (H : W16 m ρ c (Proc.devRef .tc main_v114) = hv) : W20 m ρ c (Proc.devRef .tc main_v156) = yL (kargs m c) 1 (gated (kargs m c) hv) :=
  (W20_arr m ρ c 3).trans ((f7 (V19 m ρ) c).trans
    (linear_congr (b19_v154 m ρ c f6 L H) (b19_v134 m ρ c L) (b19_v155 m ρ c L)))

/-! ### Before the normalisation region (boundaries 20 → 21) -/

theorem b21_v170 (L : Live16 m ρ c) : W21 m ρ c (Proc.devRef .tc main_v170) = tableRow (kargs m c).a17 2 :=
  (st8_v170 (W20 m ρ c)).trans (by rw [(at20 m ρ c (r := main_arg17) (by decide)).trans L.arg17])

theorem b21_v171 (L : Live16 m ρ c) : W21 m ρ c (Proc.devRef .tc main_v171) = tableRow (kargs m c).a18 2 :=
  (st8_v171 (W20 m ρ c)).trans (by rw [(at20 m ρ c (r := main_arg18) (by decide)).trans L.arg18])

theorem b21_v172 (f6 : Fact6) (f7 : Fact7) (L : Live16 m ρ c) (H : W16 m ρ c (Proc.devRef .tc main_v114) = hv) : W21 m ρ c (Proc.devRef .tc main_v172) = meanRow (yL (kargs m c) 1 (gated (kargs m c) hv)) :=
  (st8_v172 (W20 m ρ c)).trans (by rw [b20_v156 m ρ c f6 f7 L H])

theorem b21_v173 (f6 : Fact6) (f7 : Fact7) (L : Live16 m ρ c) (H : W16 m ρ c (Proc.devRef .tc main_v114) = hv) : W21 m ρ c (Proc.devRef .tc main_v173) = varOnePass (yL (kargs m c) 1 (gated (kargs m c) hv)) :=
  (st8_v173 (W20 m ρ c)).trans (by rw [b20_v156 m ρ c f6 f7 L H])

theorem b21_v156 (f6 : Fact6) (f7 : Fact7) (L : Live16 m ρ c) (H : W16 m ρ c (Proc.devRef .tc main_v114) = hv) : W21 m ρ c (Proc.devRef .tc main_v156) = yL (kargs m c) 1 (gated (kargs m c) hv) :=
  (skip8 _ (by decide)).trans (b20_v156 m ρ c f6 f7 L H)

theorem b21_v132 (f6 : Fact6) (L : Live16 m ρ c) (H : W16 m ρ c (Proc.devRef .tc main_v114) = hv) : W21 m ρ c (Proc.devRef .tc main_v132) = gated (kargs m c) hv :=
  (skip8 _ (by decide)).trans ((keep20 m ρ c _ (by decide)).trans ((skip7 _ (by decide)).trans
    (b18_v132 m ρ c f6 L H)))

/-! ### Through the normalisation region (boundaries 21 → 22): the layer's output -/

theorem b22_v174 (f6 : Fact6) (f7 : Fact7) (f8 : Fact8) (L : Live16 m ρ c) (H : W16 m ρ c (Proc.devRef .tc main_v114) = hv) :
    W22 m ρ c (Proc.devRef .tc main_v174) = stepL varOnePass (kargs m c) 1 hv :=
  (W22_arr m ρ c 6).trans ((f8 (V21 m ρ) c).trans (bnResRelu_congr (b21_v156 m ρ c f6 f7 L H) (b21_v170 m ρ c L)
    (b21_v171 m ρ c L) (b21_v172 m ρ c f6 f7 L H) (b21_v173 m ρ c f6 f7 L H)
    (b21_v132 m ρ c f6 L H)))

end

/-! ## Layer 3 and the classifier (boundaries 22 to 28)

The layer's input hv sits in `main_v174` at boundary 22 (hypothesis H). -/

section
variable {hv : Mat 100000 64}

/-! ### Before and through the gate region (boundaries 22 → 23 → 24) -/

theorem b23_v189 (L : Live16 m ρ c) (H : W22 m ρ c (Proc.devRef .tc main_v174) = hv) :
    W23 m ρ c (Proc.devRef .tc main_v189) = nbMean (kargs m c).a1 (kargs m c).a2 hv :=
  (st9_v189 (W22 m ρ c)).trans (by
    rw [(at22 m ρ c (r := main_arg1) (by decide)).trans L.arg1, (at22 m ρ c (r := main_arg2) (by decide)).trans L.arg2, H, (at22 m ρ c (r := main_v8) (by decide)).trans L.degIn]; rfl)

theorem b23_v190 (L : Live16 m ρ c) : W23 m ρ c (Proc.devRef .tc main_v190) = rowOf (kargs m c).a10 :=
  (st9_v190 (W22 m ρ c)).trans (by rw [(at22 m ρ c (r := main_arg10) (by decide)).trans L.arg10])

theorem b23_v191 (L : Live16 m ρ c) : W23 m ρ c (Proc.devRef .tc main_v191) = rowOf (kargs m c).a12 :=
  (st9_v191 (W22 m ρ c)).trans (by rw [(at22 m ρ c (r := main_arg12) (by decide)).trans L.arg12])

theorem b23_v174 (H : W22 m ρ c (Proc.devRef .tc main_v174) = hv) : W23 m ρ c (Proc.devRef .tc main_v174) = hv :=
  (skip9 _ (by decide)).trans H

theorem b24_v192 (f9 : Fact9) (L : Live16 m ρ c) (H : W22 m ρ c (Proc.devRef .tc main_v174) = hv) : W24 m ρ c (Proc.devRef .tc main_v192) = gated (kargs m c) hv :=
  (W24_arr m ρ c 6).trans ((f9 (V23 m ρ) c).trans (attn_congr (b23_v174 m ρ c H) (b23_v189 m ρ c L H)
    ((at23 m ρ c (r := main_arg9) (by decide)).trans L.arg9) (b23_v190 m ρ c L)
    ((at23 m ρ c (r := main_arg11) (by decide)).trans L.arg11) (b23_v191 m ρ c L)))

/-! ### Before and through the linear region (boundaries 24 → 25 → 26) -/

theorem b25_v194 (L : Live16 m ρ c) : W25 m ρ c (Proc.devRef .tc main_v194) = tableMat (kargs m c).a15 2 :=
  (st10_v194 (W24 m ρ c)).trans (by rw [(at24 m ρ c (r := main_arg15) (by decide)).trans L.arg15])

theorem b25_v215 (L : Live16 m ρ c) : W25 m ρ c (Proc.devRef .tc main_v215) = tableRow (kargs m c).a16 2 :=
  (st10_v215 (W24 m ρ c)).trans (by rw [(at24 m ρ c (r := main_arg16) (by decide)).trans L.arg16])

theorem b25_v214 (f9 : Fact9) (L : Live16 m ρ c) (H : W22 m ρ c (Proc.devRef .tc main_v174) = hv) :
    W25 m ρ c (Proc.devRef .tc main_v214) = aggregate64 (kargs m c).a1 (kargs m c).a2 (gated (kargs m c) hv) :=
  (st10_v214 (W24 m ρ c)).trans (by
    rw [(at24 m ρ c (r := main_arg1) (by decide)).trans L.arg1, (at24 m ρ c (r := main_arg2) (by decide)).trans L.arg2,
      b24_v192 m ρ c f9 L H, (at24 m ρ c (r := main_v10) (by decide)).trans L.nrmOut,
      (at24 m ρ c (r := main_v12) (by decide)).trans L.nrmIn]; rfl)

theorem b26_v216 (f9 : Fact9) (f10 : Fact10) (L : Live16 m ρ c) (H : W22 m ρ c (Proc.devRef .tc main_v174) = hv) : W26 m ρ c (Proc.devRef .tc main_v216) = yL (kargs m c) 2 (gated (kargs m c) hv) :=
  (W26_arr m ρ c 3).trans ((f10 (V25 m ρ) c).trans
    (linear_congr (b25_v214 m ρ c f9 L H) (b25_v194 m ρ c L) (b25_v215 m ρ c L)))

/-! ### Before the normalisation region (boundaries 26 → 27) -/

theorem b27_v230 (L : Live16 m ρ c) : W27 m ρ c (Proc.devRef .tc main_v230) = tableRow (kargs m c).a17 3 :=
  (st11_v230 (W26 m ρ c)).trans (by rw [(at26 m ρ c (r := main_arg17) (by decide)).trans L.arg17])

theorem b27_v231 (L : Live16 m ρ c) : W27 m ρ c (Proc.devRef .tc main_v231) = tableRow (kargs m c).a18 3 :=
  (st11_v231 (W26 m ρ c)).trans (by rw [(at26 m ρ c (r := main_arg18) (by decide)).trans L.arg18])

theorem b27_v232 (f9 : Fact9) (f10 : Fact10) (L : Live16 m ρ c) (H : W22 m ρ c (Proc.devRef .tc main_v174) = hv) : W27 m ρ c (Proc.devRef .tc main_v232) = meanRow (yL (kargs m c) 2 (gated (kargs m c) hv)) :=
  (st11_v232 (W26 m ρ c)).trans (by rw [b26_v216 m ρ c f9 f10 L H])

theorem b27_v233 (f9 : Fact9) (f10 : Fact10) (L : Live16 m ρ c) (H : W22 m ρ c (Proc.devRef .tc main_v174) = hv) : W27 m ρ c (Proc.devRef .tc main_v233) = varOnePass (yL (kargs m c) 2 (gated (kargs m c) hv)) :=
  (st11_v233 (W26 m ρ c)).trans (by rw [b26_v216 m ρ c f9 f10 L H])

theorem b27_v216 (f9 : Fact9) (f10 : Fact10) (L : Live16 m ρ c) (H : W22 m ρ c (Proc.devRef .tc main_v174) = hv) : W27 m ρ c (Proc.devRef .tc main_v216) = yL (kargs m c) 2 (gated (kargs m c) hv) :=
  (skip11 _ (by decide)).trans (b26_v216 m ρ c f9 f10 L H)

theorem b27_v192 (f9 : Fact9) (L : Live16 m ρ c) (H : W22 m ρ c (Proc.devRef .tc main_v174) = hv) : W27 m ρ c (Proc.devRef .tc main_v192) = gated (kargs m c) hv :=
  (skip11 _ (by decide)).trans ((keep26 m ρ c _ (by decide)).trans ((skip10 _ (by decide)).trans
    (b24_v192 m ρ c f9 L H)))

theorem b27_v234 (L : Live16 m ρ c) : W27 m ρ c (Proc.devRef .tc main_v234) = rowOf (kargs m c).a20 :=
  (st11_v234 (W26 m ρ c)).trans (by rw [(at26 m ρ c (r := main_arg20) (by decide)).trans L.arg20])

/-! ### Through the last region (boundaries 27 → 28): the normalisation fused with the classifier product -/

theorem b28_v235 (f9 : Fact9) (f10 : Fact10) (f11 : Fact11) (L : Live16 m ρ c) (H : W22 m ρ c (Proc.devRef .tc main_v174) = hv) :
    W28 m ρ c (Proc.devRef .tc main_v235)
      = classifier (yL (kargs m c) 2 (gated (kargs m c) hv)) (tableRow (kargs m c).a17 3) (tableRow (kargs m c).a18 3)
          (meanRow (yL (kargs m c) 2 (gated (kargs m c) hv))) (varOnePass (yL (kargs m c) 2 (gated (kargs m c) hv)))
          (gated (kargs m c) hv) (kargs m c).a19 (rowOf (kargs m c).a20) :=
  (W28_arr m ρ c 8).trans ((f11 (V27 m ρ) c).trans (classifier_congr (b27_v216 m ρ c f9 f10 L H) (b27_v230 m ρ c L)
    (b27_v231 m ρ c L) (b27_v232 m ρ c f9 f10 L H) (b27_v233 m ρ c f9 f10 L H)
    (b27_v192 m ρ c f9 L H) ((at27 m ρ c (r := main_arg19) (by decide)).trans L.arg19) (b27_v234 m ρ c L)))

end

/-! ## From the end of layer 1 to the result -/

/-- The tiled program's result array is the network's result with the one-pass variance. -/
theorem value_of_live16 (f6 : Fact6) (f7 : Fact7) (f8 : Fact8) (f9 : Fact9) (f10 : Fact10) (f11 : Fact11)
    (m : (ℓ : Loc nD τ sig) → Buf (Elt Ideal) ℓ) (ρ : Dev nD → PrngReg) (c : Dev nD) (L : Live16 m ρ c) :
    W28 m ρ c (Proc.devRef .tc main_v235) = Cert.Spec.out Cert.Spec.varOnePass (kargs m c) :=
  b28_v235 m ρ c f9 f10 f11 L (b22_v174 m ρ c f6 f7 f8 L L.h)

end Cert.KernelIdeal.KChain

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.RegEncoder.lean ====
/-
  The value of the encoder region of the kernel program.

  The region is tiled over the rows: it runs at 20 points, and the point t works on rows 5000·t … 5000·t + 4999 of
  the [100000, 128] operand and of the [100000, 128] result; the three weights and the three bias rows are taken whole
  at every point.  On its block the body runs three dense stages one after the other, each a matrix product into a
  zero accumulator plus a bias row, the first two followed by the maximum with zero; at the ideal values a change of
  format is the identity, so this is the block's rows of `encoder`.  Every stage computes row p of its result from
  row p of its operand, so the block of the result that point t writes back is the block of `encoder` of the WHOLE
  operand; the 20 blocks tile the result, hence the result array ends as `encoder` of the arrays the region found.
-/
import proofs.«130402_j14499809591446_2_alg».proof.Proof.Gen.KernelIdeal.Frame
import proofs.«130402_j14499809591446_2_alg».proof.Proof.Net
import proofs.«130402_j14499809591446_2_alg».proof.Proof.LibRowLayout

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)
open Cert.LibTileOps
open scoped BigOperators

/-- The two zero offsets of a whole-block access. -/
theorem zero_offsets0 : (![0, 0] : Fin 2 → Nat) = fun _ => 0 := funext fun a => by fin_cases a <;> rfl

/-- One dense stage of the body read at an entry: a matrix product into a zero accumulator plus a bias row spread
    over the rows is the sum over the shared axis plus the bias entry of the column.  The operands may be given in
    any formats (at the ideal values a format only names where the entries came from), and may be given as terms
    that agree entry by entry with the matrices named on the right. -/
theorem enc_dense_entry {A K B : ℕ} {D : DotDims ⟨2, ![A, K]⟩ ⟨2, ![K, B]⟩ ⟨2, ![A, B]⟩} (hD : Cert.LibPlainDot.Plain D)
    {φ₁ φ₂ : FTy} (l : FVec Ideal ⟨2, ![A, K]⟩ φ₁) (r : FVec Ideal ⟨2, ![K, B]⟩ φ₂) (b : FVec Ideal ⟨2, ![1, B]⟩ .f32)
    (hc : (⟨2, ![1, B]⟩ : Shape).ShapeCasts ⟨2, ![1, B]⟩) (hb : (⟨2, ![1, B]⟩ : Shape).Broadcasts ⟨2, ![A, B]⟩)
    (l' : Cert.Net.Mat A K) (r' : Cert.Net.Mat K B)
    (hl : ∀ (p : Fin A) (k : Fin K), l (ix2 p k) = l' (ix2 p k)) (hr : ∀ (k : Fin K) (c : Fin B), r (ix2 k c) = r' (ix2 k c))
    (p : Fin A) (c : Fin B) :
    addf (matmul D none l r (constant ⟨2, ![A, B]⟩ .f32 0x00000000#32))
        (broadcastTo ⟨2, ![A, B]⟩ (shapeCast ⟨2, ![1, B]⟩ b hc) hb) (ix2 p c)
      = addRow (matProd l' r') b (ix2 p c) := by
  rw [addRow_apply, matProd_apply]
  refine (addf_apply _ _ _).trans ?_
  refine congrArg₂ (· + ·) ?_ ?_
  · refine (hD.matmul_zero_apply_formats none l r p c).trans ?_
    exact Finset.sum_congr rfl fun k _ => by rw [hl p k, hr k c]
  · refine (Cert.LibRowLayout.broadcastTo_1b_ab_apply _ _ p c).trans ?_
    rw [shapeCast_self]

/-- The same stage followed by the maximum with a broadcast zero. -/
theorem enc_dense_clamp_entry {A K B : ℕ} {D : DotDims ⟨2, ![A, K]⟩ ⟨2, ![K, B]⟩ ⟨2, ![A, B]⟩} (hD : Cert.LibPlainDot.Plain D)
    {φ₁ φ₂ : FTy} (l : FVec Ideal ⟨2, ![A, K]⟩ φ₁) (r : FVec Ideal ⟨2, ![K, B]⟩ φ₂) (b : FVec Ideal ⟨2, ![1, B]⟩ .f32)
    (hc : (⟨2, ![1, B]⟩ : Shape).ShapeCasts ⟨2, ![1, B]⟩) (hb : (⟨2, ![1, B]⟩ : Shape).Broadcasts ⟨2, ![A, B]⟩)
    (l' : Cert.Net.Mat A K) (r' : Cert.Net.Mat K B)
    (hl : ∀ (p : Fin A) (k : Fin K), l (ix2 p k) = l' (ix2 p k)) (hr : ∀ (k : Fin K) (c : Fin B), r (ix2 k c) = r' (ix2 k c))
    (p : Fin A) (c : Fin B) :
    maximumf (addf (matmul D none l r (constant ⟨2, ![A, B]⟩ .f32 0x00000000#32))
        (broadcastTo ⟨2, ![A, B]⟩ (shapeCast ⟨2, ![1, B]⟩ b hc) hb))
        (broadcast ⟨2, ![A, B]⟩ (Scalar.ofBits (F := Ideal) .f32 0x00000000#32)) (ix2 p c)
      = addRowClamp (matProd l' r') b (ix2 p c) := by
  rw [addRowClamp_apply, ← addRow_apply]
  refine (maximumf_apply _ _ _).trans ?_
  rw [enc_dense_entry hD l r b hc hb l' r' hl hr p c]
  rfl

/-- The body's arithmetic on a block is `encoder` of the block: the three stages from the last to the first, each
    operand of a product being the result of the stage before (narrowed, which changes no ideal value). -/
theorem payload0_eq (x0 : Vec Ideal S5000x128 .f32) (W1 : Vec Ideal S128x64 .f32) (b1 : Vec Ideal S1x64 .f32)
    (W2 : Vec Ideal S64x32 .f32) (b2 : Vec Ideal S1x32 .f32) (W3 : Vec Ideal S32x128 .f32) (b3 : Vec Ideal S1x128 .f32) :
    k0_pay1 x0 W1 b1 W2 b2 W3 b3 = Cert.Net.encoder (A := 5000) x0 W1 b1 W2 b2 W3 b3 := by
  funext i
  obtain ⟨p, q, rfl⟩ : ∃ (p : Fin 5000) (q : Fin 128), i = ix2 p q := ⟨i 0, i 1, eq_ix2 i⟩
  have hD1 : Cert.LibPlainDot.Plain dot_S5000x128_S128x64_S5000x64_1_0_0_1_n_n := ⟨rfl, rfl, rfl, rfl, rfl, rfl⟩
  have hD2 : Cert.LibPlainDot.Plain dot_S5000x64_S64x32_S5000x32_1_0_0_1_n_n := ⟨rfl, rfl, rfl, rfl, rfl, rfl⟩
  have hD3 : Cert.LibPlainDot.Plain dot_S5000x32_S32x128_S5000x128_1_0_0_1_n_n := ⟨rfl, rfl, rfl, rfl, rfl, rfl⟩
  unfold k0_pay1 Cert.Net.encoder
  refine enc_dense_entry hD3 _ _ _ _ _ _ _ (fun p k => ?_) (fun k c => rfl) p q
  refine enc_dense_clamp_entry hD2 _ _ _ _ _ _ _ (fun p k => ?_) (fun k c => rfl) p k
  exact enc_dense_clamp_entry hD1 _ _ _ _ _ x0 W1 (fun p k => rfl) (fun k c => rfl) p k

variable (V : (c : Dev nD) → (b : Ref sig .tc) → Buf (Elt Ideal) ((c : Thread nD τ).loc b))

/-- The printed index maps, decided over the 20 points: the row-indexed windows (operand and result) are at block
    (t, 0) at point t, every weight and bias row at block (0, 0). -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of the operand's block at point t is row 5000·t + p of the operand. -/
theorem operand_block0 (c : Dev nD) (t : Fin cfg0.N) (p : Fin 5000) (k : Fin 128) (r : Fin 100000)
    (hr : r.val = 5000 * t.val + p.val) :
    (iblk0 V c 0 t : S5000x128.Idx → EReal) (ix2 p k) = (V c main_arg0 : S100000x128.Idx → EReal) (ix2 r k) := by
  obtain ⟨e0, e1, -⟩ := index_facts0 t
  show (V c main_arg0 : S100000x128.Idx → EReal) (((cfg0.win 0).blk t).view.emb (ix2 p k)) = _
  refine congrArg (V c main_arg0 : S100000x128.Idx → EReal) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The first weight's block at any point is the first weight. -/
theorem small_block0_1 (c : Dev nD) (t : Fin cfg0.N) :
    (iblk0 V c 1 t : S128x64.Idx → EReal) = (V c main_arg3 : S128x64.Idx → EReal) := by
  obtain ⟨-, -, e0, e1, -⟩ := index_facts0 t
  funext j
  show (V c main_arg3 : S128x64.Idx → EReal) (((cfg0.win 1).blk t).view.emb j) = _
  refine congrArg (V c main_arg3 : S128x64.Idx → EReal) (funext fun a => Fin.ext ?_)
  match a with
  | ⟨0, _⟩ => show win0_1.index t (0 : Fin 2) * 128 + 1 * (j 0).val = (j 0).val; omega
  | ⟨1, _⟩ => show win0_1.index t (1 : Fin 2) * 64 + 1 * (j 1).val = (j 1).val; omega

/-- The first bias row's block at any point is the first bias row. -/
theorem small_block0_2 (c : Dev nD) (t : Fin cfg0.N) :
    (iblk0 V c 2 t : S1x64.Idx → EReal) = (V c main_v13 : S1x64.Idx → EReal) := by
  obtain ⟨-, -, -, -, e0, e1, -⟩ := index_facts0 t
  funext j
  show (V c main_v13 : S1x64.Idx → EReal) (((cfg0.win 2).blk t).view.emb j) = _
  refine congrArg (V c main_v13 : S1x64.Idx → EReal) (funext fun a => Fin.ext ?_)
  match a with
  | ⟨0, _⟩ => show win0_2.index t (0 : Fin 2) * 1 + 1 * (j 0).val = (j 0).val; omega
  | ⟨1, _⟩ => show win0_2.index t (1 : Fin 2) * 64 + 1 * (j 1).val = (j 1).val; omega

/-- The second weight's block at any point is the second weight. -/
theorem small_block0_3 (c : Dev nD) (t : Fin cfg0.N) :
    (iblk0 V c 3 t : S64x32.Idx → EReal) = (V c main_arg5 : S64x32.Idx → EReal) := by
  obtain ⟨-, -, -, -, -, -, e0, e1, -⟩ := index_facts0 t
  funext j
  show (V c main_arg5 : S64x32.Idx → EReal) (((cfg0.win 3).blk t).view.emb j) = _
  refine congrArg (V c main_arg5 : S64x32.Idx → EReal) (funext fun a => Fin.ext ?_)
  match a with
  | ⟨0, _⟩ => show win0_3.index t (0 : Fin 2) * 64 + 1 * (j 0).val = (j 0).val; omega
  | ⟨1, _⟩ => show win0_3.index t (1 : Fin 2) * 32 + 1 * (j 1).val = (j 1).val; omega

/-- The second bias row's block at any point is the second bias row. -/
theorem small_block0_4 (c : Dev nD) (t : Fin cfg0.N) :
    (iblk0 V c 4 t : S1x32.Idx → EReal) = (V c main_v14 : S1x32.Idx → EReal) := by
  obtain ⟨-, -, -, -, -, -, -, -, e0, e1, -⟩ := index_facts0 t
  funext j
  show (V c main_v14 : S1x32.Idx → EReal) (((cfg0.win 4).blk t).view.emb j) = _
  refine congrArg (V c main_v14 : S1x32.Idx → EReal) (funext fun a => Fin.ext ?_)
  match a with
  | ⟨0, _⟩ => show win0_4.index t (0 : Fin 2) * 1 + 1 * (j 0).val = (j 0).val; omega
  | ⟨1, _⟩ => show win0_4.index t (1 : Fin 2) * 32 + 1 * (j 1).val = (j 1).val; omega

/-- The third weight's block at any point is the third weight. -/
theorem small_block0_5 (c : Dev nD) (t : Fin cfg0.N) :
    (iblk0 V c 5 t : S32x128.Idx → EReal) = (V c main_arg7 : S32x128.Idx → EReal) := by
  obtain ⟨-, -, -, -, -, -, -, -, -, -, e0, e1, -⟩ := index_facts0 t
  funext j
  show (V c main_arg7 : S32x128.Idx → EReal) (((cfg0.win 5).blk t).view.emb j) = _
  refine congrArg (V c main_arg7 : S32x128.Idx → EReal) (funext fun a => Fin.ext ?_)
  match a with
  | ⟨0, _⟩ => show win0_5.index t (0 : Fin 2) * 32 + 1 * (j 0).val = (j 0).val; omega
  | ⟨1, _⟩ => show win0_5.index t (1 : Fin 2) * 128 + 1 * (j 1).val = (j 1).val; omega

/-- The third bias row's block at any point is the third bias row. -/
theorem small_block0_6 (c : Dev nD) (t : Fin cfg0.N) :
    (iblk0 V c 6 t : S1x128.Idx → EReal) = (V c main_v15 : S1x128.Idx → EReal) := by
  obtain ⟨-, -, -, -, -, -, -, -, -, -, -, -, e0, e1, -⟩ := index_facts0 t
  funext j
  show (V c main_v15 : S1x128.Idx → EReal) (((cfg0.win 6).blk t).view.emb j) = _
  refine congrArg (V c main_v15 : S1x128.Idx → EReal) (funext fun a => Fin.ext ?_)
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- Entry (p, q) of the result's block at point t sits at (5000·t + p, q) of the result. -/
theorem result_block0 (t : Fin cfg0.N) (p : Fin 5000) (q : Fin 128) (r : Fin 100000)
    (hr : r.val = 5000 * t.val + p.val) :
    (((cfg0.win 7).blk t).view.emb (ix2 p q) : S100000x128.Idx) = ix2 r q := by
  obtain ⟨-, -, -, -, -, -, -, -, -, -, -, -, -, -, e0, e1⟩ := index_facts0 t
  refine funext fun a => Fin.ext ?_
  match a with
  | ⟨0, _⟩ => show win0_7.index t (0 : Fin 2) * 5000 + 1 * p.val = r.val; omega
  | ⟨1, _⟩ => show win0_7.index t (1 : Fin 2) * 128 + 1 * q.val = q.val; omega

/-- What point t writes back is block t of `encoder` of the whole arrays: the body computes `encoder` of the
    blocks, and an entry of `encoder` in row p of the block reads row 5000·t + p of the operand only. -/
theorem flushed0_eq (c : Dev nD) (t : Fin cfg0.N) :
    (dat0 (F := Ideal) V c).flushed 7 t
      = ((cfg0.win 7).blk t).view.read (Elt Ideal)
          (Cert.Net.encoder (A := 100000) (V c main_arg0) (V c main_arg3) (V c main_v13) (V c main_arg5) (V c main_v14) (V c main_arg7) (V c main_v15)) := by
  show (cfg0.win 7).cut (grid0.coords t) ((dat0 V c).after 7 t) = _
  rw [after0_7]
  unfold out0_7
  rw [View.canon_unit_zero zero_offsets0]
  simp only [View.ld_unit_zero (S := S5000x128) zero_offsets0, View.ld_unit_zero (S := S128x64) zero_offsets0,
    View.ld_unit_zero (S := S1x64) zero_offsets0, View.ld_unit_zero (S := S64x32) zero_offsets0,
    View.ld_unit_zero (S := S1x32) zero_offsets0, View.ld_unit_zero (S := S32x128) zero_offsets0,
    View.ld_unit_zero (S := S1x128) zero_offsets0]
  rw [payload0_eq]
  refine funext fun (j : S5000x128.Idx) => ?_
  obtain ⟨p, q, rfl⟩ : ∃ (p : Fin 5000) (q : Fin 128), j = ix2 p q := ⟨j 0, j 1, eq_ix2 j⟩
  have hN : cfg0.N = 20 := N_0
  have ht : t.val < 20 := by have := t.isLt; omega
  have hp : p.val < 5000 := p.isLt
  show Cert.Net.encoder (A := 5000) (iblk0 V c 0 t) (iblk0 V c 1 t) (iblk0 V c 2 t) (iblk0 V c 3 t) (iblk0 V c 4 t)
      (iblk0 V c 5 t) (iblk0 V c 6 t) (ix2 p q)
    = Cert.Net.encoder (A := 100000) (V c main_arg0) (V c main_arg3) (V c main_v13) (V c main_arg5) (V c main_v14) (V c main_arg7) (V c main_v15)
        (((cfg0.win 7).blk t).view.emb (ix2 p q))
  rw [result_block0 t p q ⟨5000 * t.val + p.val, by omega⟩ rfl, small_block0_1 V c t, small_block0_2 V c t,
    small_block0_3 V c t, small_block0_4 V c t, small_block0_5 V c t, small_block0_6 V c t]
  exact Cert.Net.encoder_rows _ _ _ _ _ _ _ _ _ p (fun k => operand_block0 V c t p k _ rfl) q

/-- Every row of the result is in the block of the point its number divided by 5000 names. -/
theorem cover0 (i : S100000x128.Idx) :
    ∃ t : Fin cfg0.N, (cfg0.win 7).flush t = true ∧ i ∈ ((cfg0.win 7).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, -, -, -, -, e0, e1⟩ := index_facts0 t
  refine ⟨t, flush0_7 t, ?_⟩
  show i ∈ ((View.whole main_v16).slice (win0_7.rect t)).set
  rw [View.set_slice_whole, Rect.mem_set_unit]
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 128 ≤ (i 1).val ∧ (i 1).val < win0_7.index t (1 : Fin 2) * 128 + 128
    omega

/-- The result array after the region is `encoder` of the arrays the region found. -/
theorem final0 (c : Dev nD) :
    (dat0 (F := Ideal) V c).arrAt 7 cfg0.N
      = Cert.Net.encoder (A := 100000) (V c main_arg0) (V c main_arg3) (V c main_v13) (V c main_arg5) (V c main_v14) (V c main_arg7) (V c main_v15) :=
  (dat0 (F := Ideal) V c).arrAt_eq_of_cover 7 _ (fun t _ => flushed0_eq V c t) (cover0)

end Cert.KernelIdeal.Regions

end
-- ==== Proof.RegLinear1.lean ====
/-
  The value of the linear region number 1 of the kernel program.

  The region is tiled over the rows: it runs at 20 points, and the point t works on rows 5000·t … 5000·t + 4999 of
  the [100000, 128] operand and of the [100000, 64] result, with the [128, 64] weight and the [1, 64] bias taken
  whole at every point.  On its block the body computes one matrix product into a zero accumulator and adds the bias
  row; at the ideal values a change of format is the identity, so this is the block's rows of `linear`.  An entry of
  `linear` depends on one row of the operand only, so the block of the result that point t writes back is the block
  of `linear` of the WHOLE operand; the 20 blocks tile the result, hence the result array ends as `linear` of the
  arrays the region found.
-/
import proofs.«130402_j14499809591446_2_alg».proof.Proof.Gen.KernelIdeal.Frame
import proofs.«130402_j14499809591446_2_alg».proof.Proof.Net
import proofs.«130402_j14499809591446_2_alg».proof.Proof.LibRowLayout

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)
open Cert.LibTileOps
open scoped BigOperators

/-- The two zero offsets of a whole-block access. -/
theorem zero_offsets1 : (![0, 0] : Fin 2 → Nat) = fun _ => 0 := funext fun a => by fin_cases a <;> rfl

/-- The body's arithmetic on a block: the product of the block with the weight, summed over the 128 columns,
    plus the bias row.  The narrowing of the operands changes no ideal value, the casts are between equal shapes,
    and the bias row is spread over the 5000 rows. -/
theorem payload1_eq (x0 : Vec Ideal S5000x128 .f32) (x1 : Vec Ideal S128x64 .f32) (x2 : Vec Ideal S1x64 .f32) :
    k1_pay1 x0 x1 x2 = Cert.Net.linear (A := 5000) (K := 128) x0 x1 x2 := by
  funext i
  obtain ⟨p, q, rfl⟩ : ∃ (p : Fin 5000) (q : Fin 64), i = ix2 p q := ⟨i 0, i 1, eq_ix2 i⟩
  have hD : Cert.LibPlainDot.Plain dot_S5000x128_S128x64_S5000x64_1_0_0_1_n_n := ⟨rfl, rfl, rfl, rfl, rfl, rfl⟩
  unfold k1_pay1 Cert.Net.linear
  rw [addRow_apply, matProd_apply]
  refine (addf_apply _ _ _).trans ?_
  refine congrArg₂ (· + ·) ?_ ?_
  · refine (hD.matmul_zero_apply_formats none _ _ p q).trans ?_
    refine Finset.sum_congr rfl fun k _ => ?_
    simp only [truncf_apply, shapeCast_self]
  · refine (Cert.LibRowLayout.broadcastTo_1b_ab_apply _ _ p q).trans ?_
    rw [shapeCast_self]

variable (V : (c : Dev nD) → (b : Ref sig .tc) → Buf (Elt Ideal) ((c : Thread nD τ).loc b))

/-- The printed index maps, decided over the 20 points: the row-indexed windows (operand and result) are at block
    (t, 0) at point t, the weight and the bias at block (0, 0). -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the operand's block at point t is row 5000·t + p of the operand. -/
theorem operand_block1 (c : Dev nD) (t : Fin cfg1.N) (p : Fin 5000) (k : Fin 128) (r : Fin 100000)
    (hr : r.val = 5000 * t.val + p.val) :
    (iblk1 V c 0 t : S5000x128.Idx → EReal) (ix2 p k) = (V c main_v34 : S100000x128.Idx → EReal) (ix2 r k) := by
  obtain ⟨e0, e1, -⟩ := index_facts1 t
  show (V c main_v34 : S100000x128.Idx → EReal) (((cfg1.win 0).blk t).view.emb (ix2 p k)) = _
  refine congrArg (V c main_v34 : S100000x128.Idx → EReal) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The weight's block at any point is the weight. -/
theorem weight_block1 (c : Dev nD) (t : Fin cfg1.N) :
    (iblk1 V c 1 t : S128x64.Idx → EReal) = (V c main_arg13 : S128x64.Idx → EReal) := by
  obtain ⟨-, -, e0, e1, -⟩ := index_facts1 t
  funext j
  show (V c main_arg13 : S128x64.Idx → EReal) (((cfg1.win 1).blk t).view.emb j) = _
  refine congrArg (V c main_arg13 : S128x64.Idx → EReal) (funext fun a => Fin.ext ?_)
  match a with
  | ⟨0, _⟩ => show win1_1.index t (0 : Fin 2) * 128 + 1 * (j 0).val = (j 0).val; omega
  | ⟨1, _⟩ => show win1_1.index t (1 : Fin 2) * 64 + 1 * (j 1).val = (j 1).val; omega

/-- The bias row's block at any point is the bias row. -/
theorem bias_block1 (c : Dev nD) (t : Fin cfg1.N) :
    (iblk1 V c 2 t : S1x64.Idx → EReal) = (V c main_v35 : S1x64.Idx → EReal) := by
  obtain ⟨-, -, -, -, e0, e1, -⟩ := index_facts1 t
  funext j
  show (V c main_v35 : S1x64.Idx → EReal) (((cfg1.win 2).blk t).view.emb j) = _
  refine congrArg (V c main_v35 : S1x64.Idx → EReal) (funext fun a => Fin.ext ?_)
  match a with
  | ⟨0, _⟩ => show win1_2.index t (0 : Fin 2) * 1 + 1 * (j 0).val = (j 0).val; omega
  | ⟨1, _⟩ => show win1_2.index t (1 : Fin 2) * 64 + 1 * (j 1).val = (j 1).val; omega

/-- Entry (p, q) of the result's block at point t sits at (5000·t + p, q) of the result. -/
theorem result_block1 (t : Fin cfg1.N) (p : Fin 5000) (q : Fin 64) (r : Fin 100000)
    (hr : r.val = 5000 * t.val + p.val) :
    (((cfg1.win 3).blk t).view.emb (ix2 p q) : S100000x64.Idx) = ix2 r q := by
  obtain ⟨-, -, -, -, -, -, e0, e1⟩ := index_facts1 t
  refine funext fun a => Fin.ext ?_
  match a with
  | ⟨0, _⟩ => show win1_3.index t (0 : Fin 2) * 5000 + 1 * p.val = r.val; omega
  | ⟨1, _⟩ => show win1_3.index t (1 : Fin 2) * 64 + 1 * q.val = q.val; omega

/-- What point t writes back is block t of `linear` of the whole arrays: the body computes `linear` of the
    blocks, and an entry of `linear` in row p of the block reads row 5000·t + p of the operand only. -/
theorem flushed1_eq (c : Dev nD) (t : Fin cfg1.N) :
    (dat1 (F := Ideal) V c).flushed 3 t
      = ((cfg1.win 3).blk t).view.read (Elt Ideal)
          (Cert.Net.linear (A := 100000) (K := 128) (V c main_v34) (V c main_arg13) (V c main_v35)) := by
  show (cfg1.win 3).cut (grid1.coords t) ((dat1 V c).after 3 t) = _
  rw [after1_3]
  unfold out1_3
  rw [View.canon_unit_zero zero_offsets1]
  simp only [View.ld_unit_zero (S := S5000x128) zero_offsets1, View.ld_unit_zero (S := S128x64) zero_offsets1,
    View.ld_unit_zero (S := S1x64) zero_offsets1]
  rw [payload1_eq]
  refine funext fun (j : S5000x64.Idx) => ?_
  obtain ⟨p, q, rfl⟩ : ∃ (p : Fin 5000) (q : Fin 64), j = ix2 p q := ⟨j 0, j 1, eq_ix2 j⟩
  have hN : cfg1.N = 20 := N_1
  have ht : t.val < 20 := by have := t.isLt; omega
  have hp : p.val < 5000 := p.isLt
  show Cert.Net.linear (A := 5000) (K := 128) (iblk1 V c 0 t) (iblk1 V c 1 t) (iblk1 V c 2 t) (ix2 p q)
    = Cert.Net.linear (A := 100000) (K := 128) (V c main_v34) (V c main_arg13) (V c main_v35)
        (((cfg1.win 3).blk t).view.emb (ix2 p q))
  rw [result_block1 t p q ⟨5000 * t.val + p.val, by omega⟩ rfl, weight_block1 V c t, bias_block1 V c t]
  exact Cert.Net.linear_rows _ _ _ _ _ p (fun k => operand_block1 V c t p k _ rfl) q

/-- Every row of the result is in the block of the point its number divided by 5000 names. -/
theorem cover1 (i : S100000x64.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [hN]; omega⟩, rfl⟩
  obtain ⟨-, -, -, -, -, -, e0, e1⟩ := index_facts1 t
  refine ⟨t, flush1_3 t, ?_⟩
  show i ∈ ((View.whole main_v36).slice (win1_3.rect t)).set
  rw [View.set_slice_whole, Rect.mem_set_unit]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- The result array after the region is `linear` of the arrays the region found. -/
theorem final1 (c : Dev nD) :
    (dat1 (F := Ideal) V c).arrAt 3 cfg1.N
      = Cert.Net.linear (A := 100000) (K := 128) (V c main_v34) (V c main_arg13) (V c main_v35) :=
  (dat1 (F := Ideal) V c).arrAt_eq_of_cover 3 _ (fun t _ => flushed1_eq V c t) (cover1)

end Cert.KernelIdeal.Regions

end
-- ==== Proof.RegLinear4.lean ====
/-
  The value of the linear region number 4 of the kernel program.

  The region is tiled over the rows: it runs at 20 points, and the point t works on rows 5000·t … 5000·t + 4999 of
  the [100000, 64] operand and of the [100000, 64] result, with the [64, 64] weight and the [1, 64] bias taken
  whole at every point.  On its block the body computes one matrix product into a zero accumulator and adds the bias
  row; at the ideal values a change of format is the identity, so this is the block's rows of `linear`.  An entry of
  `linear` depends on one row of the operand only, so the block of the result that point t writes back is the block
  of `linear` of the WHOLE operand; the 20 blocks tile the result, hence the result array ends as `linear` of the
  arrays the region found.
-/
import proofs.«130402_j14499809591446_2_alg».proof.Proof.Gen.KernelIdeal.Frame
import proofs.«130402_j14499809591446_2_alg».proof.Proof.Net
import proofs.«130402_j14499809591446_2_alg».proof.Proof.LibRowLayout

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)
open Cert.LibTileOps
open scoped BigOperators

/-- The two zero offsets of a whole-block access. -/
theorem zero_offsets4 : (![0, 0] : Fin 2 → Nat) = fun _ => 0 := funext fun a => by fin_cases a <;> rfl

/-- The body's arithmetic on a block: the product of the block with the weight, summed over the 64 columns,
    plus the bias row.  The narrowing of the operands changes no ideal value, the casts are between equal shapes,
    and the bias row is spread over the 5000 rows. -/
theorem payload4_eq (x0 : Vec Ideal S5000x64 .f32) (x1 : Vec Ideal S64x64 .f32) (x2 : Vec Ideal S1x64 .f32) :
    k4_pay1 x0 x1 x2 = Cert.Net.linear (A := 5000) (K := 64) x0 x1 x2 := by
  funext i
  obtain ⟨p, q, rfl⟩ : ∃ (p : Fin 5000) (q : Fin 64), i = ix2 p q := ⟨i 0, i 1, eq_ix2 i⟩
  have hD : Cert.LibPlainDot.Plain dot_S5000x64_S64x64_S5000x64_1_0_0_1_n_n := ⟨rfl, rfl, rfl, rfl, rfl, rfl⟩
  unfold k4_pay1 Cert.Net.linear
  rw [addRow_apply, matProd_apply]
  refine (addf_apply _ _ _).trans ?_
  refine congrArg₂ (· + ·) ?_ ?_
  · refine (hD.matmul_zero_apply_formats none _ _ p q).trans ?_
    refine Finset.sum_congr rfl fun k _ => ?_
    rw [truncf_apply, truncf_apply, shapeCast_self, shapeCast_self]
  · refine (Cert.LibRowLayout.broadcastTo_1b_ab_apply _ _ p q).trans ?_
    rw [shapeCast_self]

variable (V : (c : Dev nD) → (b : Ref sig .tc) → Buf (Elt Ideal) ((c : Thread nD τ).loc b))

/-- The printed index maps, decided over the 20 points: the row-indexed windows (operand and result) are at block
    (t, 0) at point t, the weight and the bias at block (0, 0). -/
theorem index_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of the operand's block at point t is row 5000·t + p of the operand. -/
theorem operand_block4 (c : Dev nD) (t : Fin cfg4.N) (p : Fin 5000) (k : Fin 64) (r : Fin 100000)
    (hr : r.val = 5000 * t.val + p.val) :
    (iblk4 V c 0 t : S5000x64.Idx → EReal) (ix2 p k) = (V c main_v94 : S100000x64.Idx → EReal) (ix2 r k) := by
  obtain ⟨e0, e1, -⟩ := index_facts4 t
  show (V c main_v94 : S100000x64.Idx → EReal) (((cfg4.win 0).blk t).view.emb (ix2 p k)) = _
  refine congrArg (V c main_v94 : S100000x64.Idx → EReal) (funext fun a => Fin.ext ?_)
  match a with
  | ⟨0, _⟩ => show win4_0.index t (0 : Fin 2) * 5000 + 1 * p.val = r.val; omega
  | ⟨1, _⟩ => show win4_0.index t (1 : Fin 2) * 64 + 1 * k.val = k.val; omega

/-- The weight's block at any point is the weight. -/
theorem weight_block4 (c : Dev nD) (t : Fin cfg4.N) :
    (iblk4 V c 1 t : S64x64.Idx → EReal) = (V c main_v74 : S64x64.Idx → EReal) := by
  obtain ⟨-, -, e0, e1, -⟩ := index_facts4 t
  funext j
  show (V c main_v74 : S64x64.Idx → EReal) (((cfg4.win 1).blk t).view.emb j) = _
  refine congrArg (V c main_v74 : S64x64.Idx → EReal) (funext fun a => Fin.ext ?_)
  match a with
  | ⟨0, _⟩ => show win4_1.index t (0 : Fin 2) * 64 + 1 * (j 0).val = (j 0).val; omega
  | ⟨1, _⟩ => show win4_1.index t (1 : Fin 2) * 64 + 1 * (j 1).val = (j 1).val; omega

/-- The bias row's block at any point is the bias row. -/
theorem bias_block4 (c : Dev nD) (t : Fin cfg4.N) :
    (iblk4 V c 2 t : S1x64.Idx → EReal) = (V c main_v95 : S1x64.Idx → EReal) := by
  obtain ⟨-, -, -, -, e0, e1, -⟩ := index_facts4 t
  funext j
  show (V c main_v95 : S1x64.Idx → EReal) (((cfg4.win 2).blk t).view.emb j) = _
  refine congrArg (V c main_v95 : S1x64.Idx → EReal) (funext fun a => Fin.ext ?_)
  match a with
  | ⟨0, _⟩ => show win4_2.index t (0 : Fin 2) * 1 + 1 * (j 0).val = (j 0).val; omega
  | ⟨1, _⟩ => show win4_2.index t (1 : Fin 2) * 64 + 1 * (j 1).val = (j 1).val; omega

/-- Entry (p, q) of the result's block at point t sits at (5000·t + p, q) of the result. -/
theorem result_block4 (t : Fin cfg4.N) (p : Fin 5000) (q : Fin 64) (r : Fin 100000)
    (hr : r.val = 5000 * t.val + p.val) :
    (((cfg4.win 3).blk t).view.emb (ix2 p q) : S100000x64.Idx) = ix2 r q := by
  obtain ⟨-, -, -, -, -, -, e0, e1⟩ := index_facts4 t
  refine funext fun a => Fin.ext ?_
  match a with
  | ⟨0, _⟩ => show win4_3.index t (0 : Fin 2) * 5000 + 1 * p.val = r.val; omega
  | ⟨1, _⟩ => show win4_3.index t (1 : Fin 2) * 64 + 1 * q.val = q.val; omega

/-- What point t writes back is block t of `linear` of the whole arrays: the body computes `linear` of the
    blocks, and an entry of `linear` in row p of the block reads row 5000·t + p of the operand only. -/
theorem flushed4_eq (c : Dev nD) (t : Fin cfg4.N) :
    (dat4 (F := Ideal) V c).flushed 3 t
      = ((cfg4.win 3).blk t).view.read (Elt Ideal)
          (Cert.Net.linear (A := 100000) (K := 64) (V c main_v94) (V c main_v74) (V c main_v95)) := by
  show (cfg4.win 3).cut (grid4.coords t) ((dat4 V c).after 3 t) = _
  rw [after4_3]
  unfold out4_3
  rw [View.canon_unit_zero zero_offsets4]
  simp only [View.ld_unit_zero (S := S5000x64) zero_offsets4, View.ld_unit_zero (S := S64x64) zero_offsets4,
    View.ld_unit_zero (S := S1x64) zero_offsets4]
  rw [payload4_eq]
  refine funext fun (j : S5000x64.Idx) => ?_
  obtain ⟨p, q, rfl⟩ : ∃ (p : Fin 5000) (q : Fin 64), j = ix2 p q := ⟨j 0, j 1, eq_ix2 j⟩
  have hN : cfg4.N = 20 := N_4
  have ht : t.val < 20 := by have := t.isLt; omega
  have hp : p.val < 5000 := p.isLt
  show Cert.Net.linear (A := 5000) (K := 64) (iblk4 V c 0 t) (iblk4 V c 1 t) (iblk4 V c 2 t) (ix2 p q)
    = Cert.Net.linear (A := 100000) (K := 64) (V c main_v94) (V c main_v74) (V c main_v95)
        (((cfg4.win 3).blk t).view.emb (ix2 p q))
  rw [result_block4 t p q ⟨5000 * t.val + p.val, by omega⟩ rfl, weight_block4 V c t, bias_block4 V c t]
  exact Cert.Net.linear_rows _ _ _ _ _ p (fun k => operand_block4 V c t p k _ rfl) q

/-- Every row of the result is in the block of the point its number divided by 5000 names. -/
theorem cover4 (i : S100000x64.Idx) :
    ∃ t : Fin cfg4.N, (cfg4.win 3).flush t = true ∧ i ∈ ((cfg4.win 3).blk t).view.set := by
  have hN : cfg4.N = 20 := N_4
  have hi0 : (i 0).val < 100000 := (i 0).isLt
  have hi1 : (i 1).val < 64 := (i 1).isLt
  obtain ⟨t, ht⟩ : ∃ t : Fin cfg4.N, t.val = (i 0).val / 5000 := ⟨⟨(i 0).val / 5000, by rw [hN]; omega⟩, rfl⟩
  obtain ⟨-, -, -, -, -, -, e0, e1⟩ := index_facts4 t
  refine ⟨t, flush4_3 t, ?_⟩
  show i ∈ ((View.whole main_v96).slice (win4_3.rect t)).set
  rw [View.set_slice_whole, Rect.mem_set_unit]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 64 ≤ (i 1).val ∧ (i 1).val < win4_3.index t (1 : Fin 2) * 64 + 64
    omega

/-- The result array after the region is `linear` of the arrays the region found. -/
theorem final4 (c : Dev nD) :
    (dat4 (F := Ideal) V c).arrAt 3 cfg4.N
      = Cert.Net.linear (A := 100000) (K := 64) (V c main_v94) (V c main_v74) (V c main_v95) :=
  (dat4 (F := Ideal) V c).arrAt_eq_of_cover 3 _ (fun t _ => flushed4_eq V c t) (cover4)

end Cert.KernelIdeal.Regions

end
-- ==== Proof.RegLinear7.lean ====
/-
  The value of the linear region number 7 of the kernel program.

  The region is tiled over the rows: it runs at 20 points, and the point t works on rows 5000·t … 5000·t + 4999 of
  the [100000, 64] operand and of the [100000, 64] result, with the [64, 64] weight and the [1, 64] bias taken
  whole at every point.  On its block the body computes one matrix product into a zero accumulator and adds the bias
  row; at the ideal values a change of format is the identity, so this is the block's rows of `linear`.  An entry of
  `linear` depends on one row of the operand only, so the block of the result that point t writes back is the block
  of `linear` of the WHOLE operand; the 20 blocks tile the result, hence the result array ends as `linear` of the
  arrays the region found.
-/
import proofs.«130402_j14499809591446_2_alg».proof.Proof.Gen.KernelIdeal.Frame
import proofs.«130402_j14499809591446_2_alg».proof.Proof.Net
import proofs.«130402_j14499809591446_2_alg».proof.Proof.LibRowLayout

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)
open Cert.LibTileOps
open scoped BigOperators

/-- The two zero offsets of a whole-block access. -/
theorem zero_offsets7 : (![0, 0] : Fin 2 → Nat) = fun _ => 0 := funext fun a => by fin_cases a <;> rfl

/-- The body's arithmetic on a block: the product of the block with the weight, summed over the 64 columns,
    plus the bias row.  The narrowing of the operands changes no ideal value, the casts are between equal shapes,
    and the bias row is spread over the 5000 rows. -/
theorem payload7_eq (x0 : Vec Ideal S5000x64 .f32) (x1 : Vec Ideal S64x64 .f32) (x2 : Vec Ideal S1x64 .f32) :
    k7_pay1 x0 x1 x2 = Cert.Net.linear (A := 5000) (K := 64) x0 x1 x2 := by
  funext i
  obtain ⟨p, q, rfl⟩ : ∃ (p : Fin 5000) (q : Fin 64), i = ix2 p q := ⟨i 0, i 1, eq_ix2 i⟩
  have hD : Cert.LibPlainDot.Plain dot_S5000x64_S64x64_S5000x64_1_0_0_1_n_n := ⟨rfl, rfl, rfl, rfl, rfl, rfl⟩
  unfold k7_pay1 Cert.Net.linear
  rw [addRow_apply, matProd_apply]
  refine (addf_apply _ _ _).trans ?_
  refine congrArg₂ (· + ·) ?_ ?_
  · refine (hD.matmul_zero_apply_formats none _ _ p q).trans ?_
    refine Finset.sum_congr rfl fun k _ => ?_
    rw [truncf_apply, truncf_apply, shapeCast_self, shapeCast_self]
  · refine (Cert.LibRowLayout.broadcastTo_1b_ab_apply _ _ p q).trans ?_
    rw [shapeCast_self]

variable (V : (c : Dev nD) → (b : Ref sig .tc) → Buf (Elt Ideal) ((c : Thread nD τ).loc b))

/-- The printed index maps, decided over the 20 points: the row-indexed windows (operand and result) are at block
    (t, 0) at point t, the weight and the bias at block (0, 0). -/
theorem index_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Row p of the operand's block at point t is row 5000·t + p of the operand. -/
theorem operand_block7 (c : Dev nD) (t : Fin cfg7.N) (p : Fin 5000) (k : Fin 64) (r : Fin 100000)
    (hr : r.val = 5000 * t.val + p.val) :
    (iblk7 V c 0 t : S5000x64.Idx → EReal) (ix2 p k) = (V c main_v154 : S100000x64.Idx → EReal) (ix2 r k) := by
  obtain ⟨e0, e1, -⟩ := index_facts7 t
  show (V c main_v154 : S100000x64.Idx → EReal) (((cfg7.win 0).blk t).view.emb (ix2 p k)) = _
  refine congrArg (V c main_v154 : S100000x64.Idx → EReal) (funext fun a => Fin.ext ?_)
  match a with
  | ⟨0, _⟩ => show win7_0.index t (0 : Fin 2) * 5000 + 1 * p.val = r.val; omega
  | ⟨1, _⟩ => show win7_0.index t (1 : Fin 2) * 64 + 1 * k.val = k.val; omega

/-- The weight's block at any point is the weight. -/
theorem weight_block7 (c : Dev nD) (t : Fin cfg7.N) :
    (iblk7 V c 1 t : S64x64.Idx → EReal) = (V c main_v134 : S64x64.Idx → EReal) := by
  obtain ⟨-, -, e0, e1, -⟩ := index_facts7 t
  funext j
  show (V c main_v134 : S64x64.Idx → EReal) (((cfg7.win 1).blk t).view.emb j) = _
  refine congrArg (V c main_v134 : S64x64.Idx → EReal) (funext fun a => Fin.ext ?_)
  match a with
  | ⟨0, _⟩ => show win7_1.index t (0 : Fin 2) * 64 + 1 * (j 0).val = (j 0).val; omega
  | ⟨1, _⟩ => show win7_1.index t (1 : Fin 2) * 64 + 1 * (j 1).val = (j 1).val; omega

/-- The bias row's block at any point is the bias row. -/
theorem bias_block7 (c : Dev nD) (t : Fin cfg7.N) :
    (iblk7 V c 2 t : S1x64.Idx → EReal) = (V c main_v155 : S1x64.Idx → EReal) := by
  obtain ⟨-, -, -, -, e0, e1, -⟩ := index_facts7 t
  funext j
  show (V c main_v155 : S1x64.Idx → EReal) (((cfg7.win 2).blk t).view.emb j) = _
  refine congrArg (V c main_v155 : S1x64.Idx → EReal) (funext fun a => Fin.ext ?_)
  match a with
  | ⟨0, _⟩ => show win7_2.index t (0 : Fin 2) * 1 + 1 * (j 0).val = (j 0).val; omega
  | ⟨1, _⟩ => show win7_2.index t (1 : Fin 2) * 64 + 1 * (j 1).val = (j 1).val; omega

/-- Entry (p, q) of the result's block at point t sits at (5000·t + p, q) of the result. -/
theorem result_block7 (t : Fin cfg7.N) (p : Fin 5000) (q : Fin 64) (r : Fin 100000)
    (hr : r.val = 5000 * t.val + p.val) :
    (((cfg7.win 3).blk t).view.emb (ix2 p q) : S100000x64.Idx) = ix2 r q := by
  obtain ⟨-, -, -, -, -, -, e0, e1⟩ := index_facts7 t
  refine funext fun a => Fin.ext ?_
  match a with
  | ⟨0, _⟩ => show win7_3.index t (0 : Fin 2) * 5000 + 1 * p.val = r.val; omega
  | ⟨1, _⟩ => show win7_3.index t (1 : Fin 2) * 64 + 1 * q.val = q.val; omega

/-- What point t writes back is block t of `linear` of the whole arrays: the body computes `linear` of the
    blocks, and an entry of `linear` in row p of the block reads row 5000·t + p of the operand only. -/
theorem flushed7_eq (c : Dev nD) (t : Fin cfg7.N) :
    (dat7 (F := Ideal) V c).flushed 3 t
      = ((cfg7.win 3).blk t).view.read (Elt Ideal)
          (Cert.Net.linear (A := 100000) (K := 64) (V c main_v154) (V c main_v134) (V c main_v155)) := by
  show (cfg7.win 3).cut (grid7.coords t) ((dat7 V c).after 3 t) = _
  rw [after7_3]
  unfold out7_3
  rw [View.canon_unit_zero zero_offsets7]
  simp only [View.ld_unit_zero (S := S5000x64) zero_offsets7, View.ld_unit_zero (S := S64x64) zero_offsets7,
    View.ld_unit_zero (S := S1x64) zero_offsets7]
  rw [payload7_eq]
  refine funext fun (j : S5000x64.Idx) => ?_
  obtain ⟨p, q, rfl⟩ : ∃ (p : Fin 5000) (q : Fin 64), j = ix2 p q := ⟨j 0, j 1, eq_ix2 j⟩
  have hN : cfg7.N = 20 := N_7
  have ht : t.val < 20 := by have := t.isLt; omega
  have hp : p.val < 5000 := p.isLt
  show Cert.Net.linear (A := 5000) (K := 64) (iblk7 V c 0 t) (iblk7 V c 1 t) (iblk7 V c 2 t) (ix2 p q)
    = Cert.Net.linear (A := 100000) (K := 64) (V c main_v154) (V c main_v134) (V c main_v155)
        (((cfg7.win 3).blk t).view.emb (ix2 p q))
  rw [result_block7 t p q ⟨5000 * t.val + p.val, by omega⟩ rfl, weight_block7 V c t, bias_block7 V c t]
  exact Cert.Net.linear_rows _ _ _ _ _ p (fun k => operand_block7 V c t p k _ rfl) q

/-- Every row of the result is in the block of the point its number divided by 5000 names. -/
theorem cover7 (i : S100000x64.Idx) :
    ∃ t : Fin cfg7.N, (cfg7.win 3).flush t = true ∧ i ∈ ((cfg7.win 3).blk t).view.set := by
  have hN : cfg7.N = 20 := N_7
  have hi0 : (i 0).val < 100000 := (i 0).isLt
  have hi1 : (i 1).val < 64 := (i 1).isLt
  obtain ⟨t, ht⟩ : ∃ t : Fin cfg7.N, t.val = (i 0).val / 5000 := ⟨⟨(i 0).val / 5000, by rw [hN]; omega⟩, rfl⟩
  obtain ⟨-, -, -, -, -, -, e0, e1⟩ := index_facts7 t
  refine ⟨t, flush7_3 t, ?_⟩
  show i ∈ ((View.whole main_v156).slice (win7_3.rect t)).set
  rw [View.set_slice_whole, Rect.mem_set_unit]
  intro a
  match a with
  | ⟨0, _⟩ =>
    show win7_3.index t (0 : Fin 2) * 5000 ≤ (i 0).val ∧ (i 0).val < win7_3.index t (0 : Fin 2) * 5000 + 5000
    omega
  | ⟨1, _⟩ =>
    show win7_3.index t (1 : Fin 2) * 64 ≤ (i 1).val ∧ (i 1).val < win7_3.index t (1 : Fin 2) * 64 + 64
    omega

/-- The result array after the region is `linear` of the arrays the region found. -/
theorem final7 (c : Dev nD) :
    (dat7 (F := Ideal) V c).arrAt 3 cfg7.N
      = Cert.Net.linear (A := 100000) (K := 64) (V c main_v154) (V c main_v134) (V c main_v155) :=
  (dat7 (F := Ideal) V c).arrAt_eq_of_cover 3 _ (fun t _ => flushed7_eq V c t) (cover7)

end Cert.KernelIdeal.Regions

end
-- ==== Proof.RegLinear10.lean ====
/-
  The value of the linear region number 10 of the kernel program.

  The region is tiled over the rows: it runs at 20 points, and the point t works on rows 5000·t … 5000·t + 4999 of
  the [100000, 64] operand and of the [100000, 64] result, with the [64, 64] weight and the [1, 64] bias taken
  whole at every point.  On its block the body computes one matrix product into a zero accumulator and adds the bias
  row; at the ideal values a change of format is the identity, so this is the block's rows of `linear`.  An entry of
  `linear` depends on one row of the operand only, so the block of the result that point t writes back is the block
  of `linear` of the WHOLE operand; the 20 blocks tile the result, hence the result array ends as `linear` of the
  arrays the region found.
-/
import proofs.«130402_j14499809591446_2_alg».proof.Proof.Gen.KernelIdeal.Frame
import proofs.«130402_j14499809591446_2_alg».proof.Proof.Net
import proofs.«130402_j14499809591446_2_alg».proof.Proof.LibRowLayout

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)
open Cert.LibTileOps
open scoped BigOperators

/-- The two zero offsets of a whole-block access. -/
theorem zero_offsets10 : (![0, 0] : Fin 2 → Nat) = fun _ => 0 := funext fun a => by fin_cases a <;> rfl

/-- The body's arithmetic on a block: the product of the block with the weight, summed over the 64 columns,
    plus the bias row.  The narrowing of the operands changes no ideal value, the casts are between equal shapes,
    and the bias row is spread over the 5000 rows. -/
theorem payload10_eq (x0 : Vec Ideal S5000x64 .f32) (x1 : Vec Ideal S64x64 .f32) (x2 : Vec Ideal S1x64 .f32) :
    k10_pay1 x0 x1 x2 = Cert.Net.linear (A := 5000) (K := 64) x0 x1 x2 := by
  funext i
  obtain ⟨p, q, rfl⟩ : ∃ (p : Fin 5000) (q : Fin 64), i = ix2 p q := ⟨i 0, i 1, eq_ix2 i⟩
  have hD : Cert.LibPlainDot.Plain dot_S5000x64_S64x64_S5000x64_1_0_0_1_n_n := ⟨rfl, rfl, rfl, rfl, rfl, rfl⟩
  unfold k10_pay1 Cert.Net.linear
  rw [addRow_apply, matProd_apply]
  refine (addf_apply _ _ _).trans ?_
  refine congrArg₂ (· + ·) ?_ ?_
  · refine (hD.matmul_zero_apply_formats none _ _ p q).trans ?_
    refine Finset.sum_congr rfl fun k _ => ?_
    rw [truncf_apply, truncf_apply, shapeCast_self, shapeCast_self]
  · refine (Cert.LibRowLayout.broadcastTo_1b_ab_apply _ _ p q).trans ?_
    rw [shapeCast_self]

variable (V : (c : Dev nD) → (b : Ref sig .tc) → Buf (Elt Ideal) ((c : Thread nD τ).loc b))

/-- The printed index maps, decided over the 20 points: the row-indexed windows (operand and result) are at block
    (t, 0) at point t, the weight and the bias at block (0, 0). -/
theorem index_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- Row p of the operand's block at point t is row 5000·t + p of the operand. -/
theorem operand_block10 (c : Dev nD) (t : Fin cfg10.N) (p : Fin 5000) (k : Fin 64) (r : Fin 100000)
    (hr : r.val = 5000 * t.val + p.val) :
    (iblk10 V c 0 t : S5000x64.Idx → EReal) (ix2 p k) = (V c main_v214 : S100000x64.Idx → EReal) (ix2 r k) := by
  obtain ⟨e0, e1, -⟩ := index_facts10 t
  show (V c main_v214 : S100000x64.Idx → EReal) (((cfg10.win 0).blk t).view.emb (ix2 p k)) = _
  refine congrArg (V c main_v214 : S100000x64.Idx → EReal) (funext fun a => Fin.ext ?_)
  match a with
  | ⟨0, _⟩ => show win10_0.index t (0 : Fin 2) * 5000 + 1 * p.val = r.val; omega
  | ⟨1, _⟩ => show win10_0.index t (1 : Fin 2) * 64 + 1 * k.val = k.val; omega

/-- The weight's block at any point is the weight. -/
theorem weight_block10 (c : Dev nD) (t : Fin cfg10.N) :
    (iblk10 V c 1 t : S64x64.Idx → EReal) = (V c main_v194 : S64x64.Idx → EReal) := by
  obtain ⟨-, -, e0, e1, -⟩ := index_facts10 t
  funext j
  show (V c main_v194 : S64x64.Idx → EReal) (((cfg10.win 1).blk t).view.emb j) = _
  refine congrArg (V c main_v194 : S64x64.Idx → EReal) (funext fun a => Fin.ext ?_)
  match a with
  | ⟨0, _⟩ => show win10_1.index t (0 : Fin 2) * 64 + 1 * (j 0).val = (j 0).val; omega
  | ⟨1, _⟩ => show win10_1.index t (1 : Fin 2) * 64 + 1 * (j 1).val = (j 1).val; omega

/-- The bias row's block at any point is the bias row. -/
theorem bias_block10 (c : Dev nD) (t : Fin cfg10.N) :
    (iblk10 V c 2 t : S1x64.Idx → EReal) = (V c main_v215 : S1x64.Idx → EReal) := by
  obtain ⟨-, -, -, -, e0, e1, -⟩ := index_facts10 t
  funext j
  show (V c main_v215 : S1x64.Idx → EReal) (((cfg10.win 2).blk t).view.emb j) = _
  refine congrArg (V c main_v215 : S1x64.Idx → EReal) (funext fun a => Fin.ext ?_)
  match a with
  | ⟨0, _⟩ => show win10_2.index t (0 : Fin 2) * 1 + 1 * (j 0).val = (j 0).val; omega
  | ⟨1, _⟩ => show win10_2.index t (1 : Fin 2) * 64 + 1 * (j 1).val = (j 1).val; omega

/-- Entry (p, q) of the result's block at point t sits at (5000·t + p, q) of the result. -/
theorem result_block10 (t : Fin cfg10.N) (p : Fin 5000) (q : Fin 64) (r : Fin 100000)
    (hr : r.val = 5000 * t.val + p.val) :
    (((cfg10.win 3).blk t).view.emb (ix2 p q) : S100000x64.Idx) = ix2 r q := by
  obtain ⟨-, -, -, -, -, -, e0, e1⟩ := index_facts10 t
  refine funext fun a => Fin.ext ?_
  match a with
  | ⟨0, _⟩ => show win10_3.index t (0 : Fin 2) * 5000 + 1 * p.val = r.val; omega
  | ⟨1, _⟩ => show win10_3.index t (1 : Fin 2) * 64 + 1 * q.val = q.val; omega

/-- What point t writes back is block t of `linear` of the whole arrays: the body computes `linear` of the
    blocks, and an entry of `linear` in row p of the block reads row 5000·t + p of the operand only. -/
theorem flushed10_eq (c : Dev nD) (t : Fin cfg10.N) :
    (dat10 (F := Ideal) V c).flushed 3 t
      = ((cfg10.win 3).blk t).view.read (Elt Ideal)
          (Cert.Net.linear (A := 100000) (K := 64) (V c main_v214) (V c main_v194) (V c main_v215)) := by
  show (cfg10.win 3).cut (grid10.coords t) ((dat10 V c).after 3 t) = _
  rw [after10_3]
  unfold out10_3
  rw [View.canon_unit_zero zero_offsets10]
  simp only [View.ld_unit_zero (S := S5000x64) zero_offsets10, View.ld_unit_zero (S := S64x64) zero_offsets10,
    View.ld_unit_zero (S := S1x64) zero_offsets10]
  rw [payload10_eq]
  refine funext fun (j : S5000x64.Idx) => ?_
  obtain ⟨p, q, rfl⟩ : ∃ (p : Fin 5000) (q : Fin 64), j = ix2 p q := ⟨j 0, j 1, eq_ix2 j⟩
  have hN : cfg10.N = 20 := N_10
  have ht : t.val < 20 := by have := t.isLt; omega
  have hp : p.val < 5000 := p.isLt
  show Cert.Net.linear (A := 5000) (K := 64) (iblk10 V c 0 t) (iblk10 V c 1 t) (iblk10 V c 2 t) (ix2 p q)
    = Cert.Net.linear (A := 100000) (K := 64) (V c main_v214) (V c main_v194) (V c main_v215)
        (((cfg10.win 3).blk t).view.emb (ix2 p q))
  rw [result_block10 t p q ⟨5000 * t.val + p.val, by omega⟩ rfl, weight_block10 V c t, bias_block10 V c t]
  exact Cert.Net.linear_rows _ _ _ _ _ p (fun k => operand_block10 V c t p k _ rfl) q

/-- Every row of the result is in the block of the point its number divided by 5000 names. -/
theorem cover10 (i : S100000x64.Idx) :
    ∃ t : Fin cfg10.N, (cfg10.win 3).flush t = true ∧ i ∈ ((cfg10.win 3).blk t).view.set := by
  have hN : cfg10.N = 20 := N_10
  have hi0 : (i 0).val < 100000 := (i 0).isLt
  have hi1 : (i 1).val < 64 := (i 1).isLt
  obtain ⟨t, ht⟩ : ∃ t : Fin cfg10.N, t.val = (i 0).val / 5000 := ⟨⟨(i 0).val / 5000, by rw [hN]; omega⟩, rfl⟩
  obtain ⟨-, -, -, -, -, -, e0, e1⟩ := index_facts10 t
  refine ⟨t, flush10_3 t, ?_⟩
  show i ∈ ((View.whole main_v216).slice (win10_3.rect t)).set
  rw [View.set_slice_whole, Rect.mem_set_unit]
  intro a
  match a with
  | ⟨0, _⟩ =>
    show win10_3.index t (0 : Fin 2) * 5000 ≤ (i 0).val ∧ (i 0).val < win10_3.index t (0 : Fin 2) * 5000 + 5000
    omega
  | ⟨1, _⟩ =>
    show win10_3.index t (1 : Fin 2) * 64 ≤ (i 1).val ∧ (i 1).val < win10_3.index t (1 : Fin 2) * 64 + 64
    omega

/-- The result array after the region is `linear` of the arrays the region found. -/
theorem final10 (c : Dev nD) :
    (dat10 (F := Ideal) V c).arrAt 3 cfg10.N
      = Cert.Net.linear (A := 100000) (K := 64) (V c main_v214) (V c main_v194) (V c main_v215) :=
  (dat10 (F := Ideal) V c).arrAt_eq_of_cover 3 _ (fun t _ => flushed10_eq V c t) (cover10)

end Cert.KernelIdeal.Regions

end
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.RegAttnCommon.lean ====
/-
  The attention kernel's arithmetic on one block of rows, entry by entry.

  The body joins its block of h and its block of nb side by side, multiplies the joined rows by the 128×64 weights,
  adds a bias row and takes the maximum with zero; multiplies that by the 64×1 weights and adds the 1×1 bias; applies
  the logistic function; and returns h + gate · nb, the gate's one column spread along each row.  Over the extended reals
  a change of format is the identity and a product into the zero accumulator is the plain sum over the contracted axis,
  so the body's result on a block of 5000 rows is the whole-array attention stage at 5000 rows.  The three kernels of
  this shape have the same body; the statement is made once per kernel.
-/
import proofs.«130402_j14499809591446_2_alg».proof.Proof.Gen.KernelIdeal.Skeleton
import proofs.«130402_j14499809591446_2_alg».proof.Proof.Net
import proofs.«130402_j14499809591446_2_alg».proof.Proof.LibConcatCols
import proofs.«130402_j14499809591446_2_alg».proof.Proof.LibRowLayout
import proofs.«130402_j14499809591446_2_alg».proof.Proof.LibKeepdims

noncomputable section

namespace Cert.KernelIdeal.Regions

open Cert.KernelIdeal Cert.KernelIdeal.Gen
open Idealize.ShloMosaic Idealize.ShloMosaic.ValueIdx Cert.LibTileOps

/-- The zero offsets of a whole-buffer load or store, as a constant function. -/
theorem attn_hz : (![0, 0] : Fin 2 → Nat) = fun _ => 0 := funext fun a => by fin_cases a <;> rfl

theorem plain_dot_attn1 : Cert.LibPlainDot.Plain dot_S5000x128_S128x64_S5000x64_1_0_0_1_n_n := ⟨rfl, rfl, rfl, rfl, rfl, rfl⟩
theorem plain_dot_attn2 : Cert.LibPlainDot.Plain dot_S5000x64_S64x1_S5000x1_1_0_0_1_n_n := ⟨rfl, rfl, rfl, rfl, rfl, rfl⟩

/-- Two blocks joined along the second axis, entry by entry: column k of the result is column k of the first block
    when k < 64 and column k - 64 of the second otherwise. -/
theorem attn_concat_eq (a b : Vec Ideal S5000x64 .f32) :
    (concatenate S5000x128 1 [⟨S5000x64, a⟩, ⟨S5000x64, b⟩] concatenates_S5000x64_S5000x64_S5000x128_d1 : FVec Ideal S5000x128 .f32)
      = Cert.Net.joinCols (A := 5000) a b := by
  funext i
  obtain ⟨p, k, rfl⟩ : ∃ (p : Fin 5000) (k : Fin 128), i = ix2 p k := ⟨i 0, i 1, eq_ix2 i⟩
  by_cases hk : k.val < 64
  · rw [Cert.Net.joinCols_left _ _ _ _ hk]
    exact Cert.LibConcatCols.concat_cols_left a b _ p ⟨k.val, hk⟩ k rfl
  · rw [Cert.Net.joinCols_right _ _ _ _ hk]
    exact Cert.LibConcatCols.concat_cols_right a b _ p ⟨k.val - 64, by have := k.isLt; omega⟩ k (by show k.val = 64 + (k.val - 64); omega)

/-- The first layer on a block of joined rows: the product with the 128×64 weights (a format change is the identity on
    the extended reals), plus the bias row, then the maximum with zero. -/
theorem attn_hidden_eq (J : FVec Ideal S5000x128 .f32) (W1 : Vec Ideal S128x64 .f32) (b1 : Vec Ideal S1x64 .f32) :
    (maximumf (addf (matmul dot_S5000x128_S128x64_S5000x64_1_0_0_1_n_n none (truncf .bf16 J bitsLt_bf16_f32) (truncf .bf16 W1 bitsLt_bf16_f32) (constant S5000x64 .f32 0x00000000#32))
        (broadcastTo S5000x64 (shapeCast S1x64 b1 shapeCasts_S1x64_S1x64) broadcasts_S1x64_S5000x64))
      (broadcast S5000x64 (Scalar.ofBits .f32 0x00000000#32)) : FVec Ideal S5000x64 .f32)
    = addRowClamp (A := 5000) (matProd J W1) b1 := by
  funext i
  obtain ⟨p, q, rfl⟩ : ∃ (p : Fin 5000) (q : Fin 64), i = ix2 p q := ⟨i 0, i 1, eq_ix2 i⟩
  rw [addRowClamp_apply, matProd_apply, maximumf_apply, addf_apply, broadcast_apply, shapeCast_self,
    Cert.LibRowLayout.broadcastTo_1b_ab_apply]
  refine congrArg₂ max (congrArg₂ (· + ·) ?_ rfl) rfl
  exact plain_dot_attn1.matmul_zero_apply_formats none (truncf .bf16 J bitsLt_bf16_f32) (truncf .bf16 W1 bitsLt_bf16_f32) p q

/-- The second layer on a block: the product with the 64×1 weights plus the 1×1 bias. -/
theorem attn_score_eq (H : FVec Ideal S5000x64 .f32) (W2 : Vec Ideal S64x1 .f32) (b2 : Vec Ideal S1x1 .f32) :
    (addf (matmul dot_S5000x64_S64x1_S5000x1_1_0_0_1_n_n none (truncf .bf16 H bitsLt_bf16_f32) (truncf .bf16 W2 bitsLt_bf16_f32) (constant S5000x1 .f32 0x00000000#32))
        (broadcastTo S5000x1 (shapeCast S1x1 b2 shapeCasts_S1x1_S1x1) broadcasts_S1x1_S5000x1) : FVec Ideal S5000x1 .f32)
    = addRow (A := 5000) (matProd H W2) b2 := by
  funext i
  obtain ⟨p, q, rfl⟩ : ∃ (p : Fin 5000) (q : Fin 1), i = ix2 p q := ⟨i 0, i 1, eq_ix2 i⟩
  rw [addRow_apply, matProd_apply, addf_apply, shapeCast_self, Cert.LibRowLayout.broadcastTo_1b_ab_apply]
  refine congrArg₂ (· + ·) ?_ rfl
  exact plain_dot_attn2.matmul_zero_apply_formats none (truncf .bf16 H bitsLt_bf16_f32) (truncf .bf16 W2 bitsLt_bf16_f32) p q

/-- The body's result from its layers: the block of h plus the gate column, spread along the rows, times the block of nb. -/
theorem attn_combine_eq (h nb : Vec Ideal S5000x64 .f32) (s : FVec Ideal S5000x1 .f32) (p : Fin 5000) (q : Fin 64) :
    (addf h (mulf (broadcastTo S5000x64 (logistic s) broadcasts_S5000x1_S5000x64) nb) : FVec Ideal S5000x64 .f32) (ix2 p q)
      = h (ix2 p q) + Ideal.logistic (s (ix2 p (0 : Fin 1))) * nb (ix2 p q) := by
  rw [addf_apply, mulf_apply, Cert.LibKeepdims.broadcastTo_a1_ab_apply]
  rfl

/-- The body's arithmetic, as one term of its loaded blocks, is the attention stage on a block of 5000 rows: the joined
    rows through the two layers give the gate's argument, the logistic function of it the gate, and the result is the
    block of h plus the gate times the block of nb. -/
theorem pay3_eq (x0 x1 : Vec Ideal S5000x64 .f32) (W1 : Vec Ideal S128x64 .f32) (b1 : Vec Ideal S1x64 .f32)
    (W2 : Vec Ideal S64x1 .f32) (b2 : Vec Ideal S1x1 .f32) :
    k3_pay1 (F := Ideal) x0 x1 W1 b1 W2 b2 = Cert.Net.attn (A := 5000) x0 x1 W1 b1 W2 b2 := by
  funext i
  obtain ⟨p, q, rfl⟩ : ∃ (p : Fin 5000) (q : Fin 64), i = ix2 p q := ⟨i 0, i 1, eq_ix2 i⟩
  rw [Cert.Net.attn_apply, Cert.Net.gate_apply]
  unfold k3_pay1
  have e0 : shapeCast S5000x64 x0 shapeCasts_S5000x64_S5000x64 = x0 := shapeCast_self _ _
  have e1 : shapeCast S5000x64 x1 shapeCasts_S5000x64_S5000x64 = x1 := shapeCast_self _ _
  rw [e0, e1, attn_concat_eq x0 x1, attn_hidden_eq (Cert.Net.joinCols x0 x1) W1 b1, attn_score_eq _ W2 b2]
  exact attn_combine_eq x0 x1 _ p q

/-- The body's arithmetic, as one term of its loaded blocks, is the attention stage on a block of 5000 rows: the joined
    rows through the two layers give the gate's argument, the logistic function of it the gate, and the result is the
    block of h plus the gate times the block of nb. -/
theorem pay6_eq (x0 x1 : Vec Ideal S5000x64 .f32) (W1 : Vec Ideal S128x64 .f32) (b1 : Vec Ideal S1x64 .f32)
    (W2 : Vec Ideal S64x1 .f32) (b2 : Vec Ideal S1x1 .f32) :
    k6_pay1 (F := Ideal) x0 x1 W1 b1 W2 b2 = Cert.Net.attn (A := 5000) x0 x1 W1 b1 W2 b2 := by
  funext i
  obtain ⟨p, q, rfl⟩ : ∃ (p : Fin 5000) (q : Fin 64), i = ix2 p q := ⟨i 0, i 1, eq_ix2 i⟩
  rw [Cert.Net.attn_apply, Cert.Net.gate_apply]
  unfold k6_pay1
  have e0 : shapeCast S5000x64 x0 shapeCasts_S5000x64_S5000x64 = x0 := shapeCast_self _ _
  have e1 : shapeCast S5000x64 x1 shapeCasts_S5000x64_S5000x64 = x1 := shapeCast_self _ _
  rw [e0, e1, attn_concat_eq x0 x1, attn_hidden_eq (Cert.Net.joinCols x0 x1) W1 b1, attn_score_eq _ W2 b2]
  exact attn_combine_eq x0 x1 _ p q

/-- The body's arithmetic, as one term of its loaded blocks, is the attention stage on a block of 5000 rows: the joined
    rows through the two layers give the gate's argument, the logistic function of it the gate, and the result is the
    block of h plus the gate times the block of nb. -/
theorem pay9_eq (x0 x1 : Vec Ideal S5000x64 .f32) (W1 : Vec Ideal S128x64 .f32) (b1 : Vec Ideal S1x64 .f32)
    (W2 : Vec Ideal S64x1 .f32) (b2 : Vec Ideal S1x1 .f32) :
    k9_pay1 (F := Ideal) x0 x1 W1 b1 W2 b2 = Cert.Net.attn (A := 5000) x0 x1 W1 b1 W2 b2 := by
  funext i
  obtain ⟨p, q, rfl⟩ : ∃ (p : Fin 5000) (q : Fin 64), i = ix2 p q := ⟨i 0, i 1, eq_ix2 i⟩
  rw [Cert.Net.attn_apply, Cert.Net.gate_apply]
  unfold k9_pay1
  have e0 : shapeCast S5000x64 x0 shapeCasts_S5000x64_S5000x64 = x0 := shapeCast_self _ _
  have e1 : shapeCast S5000x64 x1 shapeCasts_S5000x64_S5000x64 = x1 := shapeCast_self _ _
  rw [e0, e1, attn_concat_eq x0 x1, attn_hidden_eq (Cert.Net.joinCols x0 x1) W1 b1, attn_score_eq _ W2 b2]
  exact attn_combine_eq x0 x1 _ p q

end Cert.KernelIdeal.Regions

end
-- ==== Proof.RegAttn3.lean ====
/-
  The value of pallas region 3 (an attention kernel), read off the generated frame.

  The region is tiled over the node axis: grid point t handles rows 5000·t … 5000·t + 4999 of the two row-indexed
  inputs h (main_v54) and nb (main_v69) and of the result (main_v72); the weights and biases (main_arg9, main_v70,
  main_arg11, main_v71) are taken whole at every point.  What point t writes back is the body's arithmetic of its blocks,
  which is the attention stage on 5000 rows; that stage is row-local (an entry of row p depends on row p of h and of nb
  and on the small arrays only), so it is block t of the attention stage of the whole arrays.  The twenty blocks tile the
  100000 rows (row r lies in block r / 5000), so after the region the result array is the whole-array stage.
-/
import proofs.«130402_j14499809591446_2_alg».proof.Proof.RegAttnCommon
import proofs.«130402_j14499809591446_2_alg».proof.Proof.Gen.KernelIdeal.Frame
import proofs.«130402_j14499809591446_2_alg».proof.Proof.Net
import proofs.«130402_j14499809591446_2_alg».proof.Proof.KArgs
import Idealize.ShloMosaic.Lib.Pipeline.Value

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where each window's block sits at grid point t: the three row-indexed windows (h, nb and the result) are at block
    row t, column block 0; the four small arrays are taken whole (block 0 on both axes). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 1000000 in
/-- WHAT POINT t WRITES BACK is block t of the attention stage of the whole arrays: the stage is row-local, row p of
    block t of h and of nb is row 5000·t + p of the array, and the weights and biases are taken whole. -/
theorem flushed_eq3 (c : Dev nD) (t : Fin cfg3.N) :
    (dat3 (F := Ideal) V c).flushed 6 t
      = ((cfg3.win 6).blk t).view.read (Elt Ideal)
          (Cert.Net.attn (A := 100000) (V c main_v54) (V c main_v69) (V c main_arg9) (V c main_v70) (V c main_arg11) (V c main_v71)) := by
  show (cfg3.win 6).cut (grid3.coords t) ((dat3 V c).after 6 t) = _
  rw [after3_6]
  unfold out3_6
  rw [View.canon_unit_zero attn_hz]
  simp only [View.ld_unit_zero (S := S5000x64) attn_hz, View.ld_unit_zero (S := S128x64) attn_hz, View.ld_unit_zero (S := S1x64) attn_hz,
    View.ld_unit_zero (S := S64x1) attn_hz, View.ld_unit_zero (S := S1x1) attn_hz]
  rw [pay3_eq]
  obtain ⟨f00, f01, f10, f11, f20, f21, f30, f31, f40, f41, f50, f51, f60, f61⟩ := idx_facts3 t
  have hN : t.val < 20 := t.isLt
  -- the small arrays' blocks are the arrays
  have e2 : (iblk3 V c 2 t : Cert.Net.Mat 128 64) = V c main_arg9 := by
    funext y
    show V c main_arg9 (((cfg3.win 2).blk t).view.emb y) = V c main_arg9 y
    refine congrArg _ (funext fun a => Fin.ext ?_)
    match a with
    | ⟨0, _⟩ => show win3_2.index t (0 : Fin 2) * 128 + 1 * (y 0).val = (y 0).val; rw [f20]; omega
    | ⟨1, _⟩ => show win3_2.index t (1 : Fin 2) * 64 + 1 * (y 1).val = (y 1).val; rw [f21]; omega
  have e3 : (iblk3 V c 3 t : Cert.Net.Mat 1 64) = V c main_v70 := by
    funext y
    show V c main_v70 (((cfg3.win 3).blk t).view.emb y) = V c main_v70 y
    refine congrArg _ (funext fun a => Fin.ext ?_)
    match a with
    | ⟨0, _⟩ => show win3_3.index t (0 : Fin 2) * 1 + 1 * (y 0).val = (y 0).val; rw [f30]; omega
    | ⟨1, _⟩ => show win3_3.index t (1 : Fin 2) * 64 + 1 * (y 1).val = (y 1).val; rw [f31]; omega
  have e4 : (iblk3 V c 4 t : Cert.Net.Mat 64 1) = V c main_arg11 := by
    funext y
    show V c main_arg11 (((cfg3.win 4).blk t).view.emb y) = V c main_arg11 y
    refine congrArg _ (funext fun a => Fin.ext ?_)
    match a with
    | ⟨0, _⟩ => show win3_4.index t (0 : Fin 2) * 64 + 1 * (y 0).val = (y 0).val; rw [f40]; omega
    | ⟨1, _⟩ => show win3_4.index t (1 : Fin 2) * 1 + 1 * (y 1).val = (y 1).val; rw [f41]; omega
  have e5 : (iblk3 V c 5 t : Cert.Net.Mat 1 1) = V c main_v71 := by
    funext y
    show V c main_v71 (((cfg3.win 5).blk t).view.emb y) = V c main_v71 y
    refine congrArg _ (funext fun a => Fin.ext ?_)
    match a with
    | ⟨0, _⟩ => show win3_5.index t (0 : Fin 2) * 1 + 1 * (y 0).val = (y 0).val; rw [f50]; omega
    | ⟨1, _⟩ => show win3_5.index t (1 : Fin 2) * 1 + 1 * (y 1).val = (y 1).val; rw [f51]; omega
  funext j
  have hj0 : (j 0).val < 5000 := (j 0).isLt
  have hj1 : (j 1).val < 64 := (j 1).isLt
  have hr : t.val * 5000 + (j 0).val < 100000 := by omega
  -- the entry's coordinates in the block and in the array
  have eL : (cfg3.win 6).xinj (grid3.coords t) j = ix2 (⟨(j 0).val, hj0⟩ : Fin 5000) (⟨(j 1).val, hj1⟩ : Fin 64) := by
    funext a
    match a with
    | ⟨0, _⟩ => rfl
    | ⟨1, _⟩ => rfl
  have eR : ((cfg3.win 6).blk t).view.emb j = ix2 (⟨t.val * 5000 + (j 0).val, hr⟩ : Fin 100000) (⟨(j 1).val, hj1⟩ : Fin 64) := by
    funext a
    apply Fin.ext
    match a with
    | ⟨0, _⟩ => show win3_6.index t (0 : Fin 2) * 5000 + 1 * (j 0).val = t.val * 5000 + (j 0).val; rw [f60]; omega
    | ⟨1, _⟩ => show win3_6.index t (1 : Fin 2) * 64 + 1 * (j 1).val = (j 1).val; rw [f61]; omega
  -- rows of the two row-indexed input blocks
  have hh : ∀ k : Fin 64, (iblk3 V c 0 t : Cert.Net.Mat 5000 64) (ix2 (⟨(j 0).val, hj0⟩ : Fin 5000) k)
      = V c main_v54 (ix2 (⟨t.val * 5000 + (j 0).val, hr⟩ : Fin 100000) k) := by
    intro k
    show V c main_v54 (((cfg3.win 0).blk t).view.emb (ix2 (⟨(j 0).val, hj0⟩ : Fin 5000) k)) = _
    refine congrArg _ (funext fun a => Fin.ext ?_)
    match a with
    | ⟨0, _⟩ => show win3_0.index t (0 : Fin 2) * 5000 + 1 * (j 0).val = t.val * 5000 + (j 0).val; rw [f00]; omega
    | ⟨1, _⟩ => show win3_0.index t (1 : Fin 2) * 64 + 1 * k.val = k.val; rw [f01]; omega
  have hn : ∀ k : Fin 64, (iblk3 V c 1 t : Cert.Net.Mat 5000 64) (ix2 (⟨(j 0).val, hj0⟩ : Fin 5000) k)
      = V c main_v69 (ix2 (⟨t.val * 5000 + (j 0).val, hr⟩ : Fin 100000) k) := by
    intro k
    show V c main_v69 (((cfg3.win 1).blk t).view.emb (ix2 (⟨(j 0).val, hj0⟩ : Fin 5000) k)) = _
    refine congrArg _ (funext fun a => Fin.ext ?_)
    match a with
    | ⟨0, _⟩ => show win3_1.index t (0 : Fin 2) * 5000 + 1 * (j 0).val = t.val * 5000 + (j 0).val; rw [f10]; omega
    | ⟨1, _⟩ => show win3_1.index t (1 : Fin 2) * 64 + 1 * k.val = k.val; rw [f11]; omega
  show Cert.Net.attn (A := 5000) (iblk3 V c 0 t) (iblk3 V c 1 t) (iblk3 V c 2 t) (iblk3 V c 3 t) (iblk3 V c 4 t) (iblk3 V c 5 t)
        ((cfg3.win 6).xinj (grid3.coords t) j)
      = Cert.Net.attn (A := 100000) (V c main_v54) (V c main_v69) (V c main_arg9) (V c main_v70) (V c main_arg11) (V c main_v71)
        (((cfg3.win 6).blk t).view.emb j)
  rw [eL, eR, e2, e3, e4, e5]
  exact Cert.Net.attn_rows (V c main_v54) (V c main_v69) (iblk3 V c 0 t) (iblk3 V c 1 t) (V c main_arg9) (V c main_v70) (V c main_arg11) (V c main_v71)
    ⟨t.val * 5000 + (j 0).val, hr⟩ ⟨(j 0).val, hj0⟩ hh hn ⟨(j 1).val, hj1⟩

/-- An index of the result array is in point t's block iff each coordinate is in the block's range on its axis. -/
theorem mem_blk3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v72).slice (win3_6.rect t)).set ↔ _
  rw [View.set_slice_whole, Rect.mem_set_unit]
  exact Iff.rfl

/-- Every entry of the result array is in some point's block: row r is in block r / 5000. -/
theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨-, -, -, -, -, -, -, -, -, -, -, -, f60, f61⟩ := idx_facts3 ⟨(i 0).val / 5000, ht⟩
  refine ⟨⟨(i 0).val / 5000, ht⟩, flush3_6 _, ?_⟩
  rw [mem_blk3]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [f60]; show (i 0).val / 5000 * 5000 ≤ (i 0).val ∧ (i 0).val < (i 0).val / 5000 * 5000 + 5000; omega
  | ⟨1, _⟩ =>
    show win3_6.index ⟨(i 0).val / 5000, ht⟩ (1 : Fin 2) * 64 ≤ (i 1).val ∧ (i 1).val < win3_6.index ⟨(i 0).val / 5000, ht⟩ (1 : Fin 2) * 64 + 64
    rw [f61]; omega

/-- THE ARRAY after the region: the attention stage of the arrays the region found, entry by entry. -/
theorem arr_eq3 (c : Dev nD) :
    (dat3 (F := Ideal) V c).arrAt 6 cfg3.N
      = Cert.Net.attn (A := 100000) (V c main_v54) (V c main_v69) (V c main_arg9) (V c main_v70) (V c main_arg11) (V c main_v71) :=
  (dat3 (F := Ideal) V c).arrAt_eq_of_cover 6 _ (fun t _ => flushed_eq3 V c t) (cover3)

/-- The same, as the statement the chain of regions cites. -/
theorem final3 : Cert.KernelIdeal.KChain.Fact3 := fun V c => arr_eq3 V c

end Cert.KernelIdeal.Regions

end
-- ==== Proof.RegAttn6.lean ====
/-
  The value of pallas region 6 (an attention kernel), read off the generated frame.

  The region is tiled over the node axis: grid point t handles rows 5000·t … 5000·t + 4999 of the two row-indexed
  inputs h (main_v114) and nb (main_v129) and of the result (main_v132); the weights and biases (main_arg9, main_v130,
  main_arg11, main_v131) are taken whole at every point.  What point t writes back is the body's arithmetic of its blocks,
  which is the attention stage on 5000 rows; that stage is row-local (an entry of row p depends on row p of h and of nb
  and on the small arrays only), so it is block t of the attention stage of the whole arrays.  The twenty blocks tile the
  100000 rows (row r lies in block r / 5000), so after the region the result array is the whole-array stage.
-/
import proofs.«130402_j14499809591446_2_alg».proof.Proof.RegAttnCommon
import proofs.«130402_j14499809591446_2_alg».proof.Proof.Gen.KernelIdeal.Frame
import proofs.«130402_j14499809591446_2_alg».proof.Proof.Net
import proofs.«130402_j14499809591446_2_alg».proof.Proof.KArgs
import Idealize.ShloMosaic.Lib.Pipeline.Value

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where each window's block sits at grid point t: the three row-indexed windows (h, nb and the result) are at block
    row t, column block 0; the four small arrays are taken whole (block 0 on both axes). -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

set_option maxHeartbeats 1000000 in
/-- WHAT POINT t WRITES BACK is block t of the attention stage of the whole arrays: the stage is row-local, row p of
    block t of h and of nb is row 5000·t + p of the array, and the weights and biases are taken whole. -/
theorem flushed_eq6 (c : Dev nD) (t : Fin cfg6.N) :
    (dat6 (F := Ideal) V c).flushed 6 t
      = ((cfg6.win 6).blk t).view.read (Elt Ideal)
          (Cert.Net.attn (A := 100000) (V c main_v114) (V c main_v129) (V c main_arg9) (V c main_v130) (V c main_arg11) (V c main_v131)) := by
  show (cfg6.win 6).cut (grid6.coords t) ((dat6 V c).after 6 t) = _
  rw [after6_6]
  unfold out6_6
  rw [View.canon_unit_zero attn_hz]
  simp only [View.ld_unit_zero (S := S5000x64) attn_hz, View.ld_unit_zero (S := S128x64) attn_hz, View.ld_unit_zero (S := S1x64) attn_hz,
    View.ld_unit_zero (S := S64x1) attn_hz, View.ld_unit_zero (S := S1x1) attn_hz]
  rw [pay6_eq]
  obtain ⟨f00, f01, f10, f11, f20, f21, f30, f31, f40, f41, f50, f51, f60, f61⟩ := idx_facts6 t
  have hN : t.val < 20 := t.isLt
  -- the small arrays' blocks are the arrays
  have e2 : (iblk6 V c 2 t : Cert.Net.Mat 128 64) = V c main_arg9 := by
    funext y
    show V c main_arg9 (((cfg6.win 2).blk t).view.emb y) = V c main_arg9 y
    refine congrArg _ (funext fun a => Fin.ext ?_)
    match a with
    | ⟨0, _⟩ => show win6_2.index t (0 : Fin 2) * 128 + 1 * (y 0).val = (y 0).val; rw [f20]; omega
    | ⟨1, _⟩ => show win6_2.index t (1 : Fin 2) * 64 + 1 * (y 1).val = (y 1).val; rw [f21]; omega
  have e3 : (iblk6 V c 3 t : Cert.Net.Mat 1 64) = V c main_v130 := by
    funext y
    show V c main_v130 (((cfg6.win 3).blk t).view.emb y) = V c main_v130 y
    refine congrArg _ (funext fun a => Fin.ext ?_)
    match a with
    | ⟨0, _⟩ => show win6_3.index t (0 : Fin 2) * 1 + 1 * (y 0).val = (y 0).val; rw [f30]; omega
    | ⟨1, _⟩ => show win6_3.index t (1 : Fin 2) * 64 + 1 * (y 1).val = (y 1).val; rw [f31]; omega
  have e4 : (iblk6 V c 4 t : Cert.Net.Mat 64 1) = V c main_arg11 := by
    funext y
    show V c main_arg11 (((cfg6.win 4).blk t).view.emb y) = V c main_arg11 y
    refine congrArg _ (funext fun a => Fin.ext ?_)
    match a with
    | ⟨0, _⟩ => show win6_4.index t (0 : Fin 2) * 64 + 1 * (y 0).val = (y 0).val; rw [f40]; omega
    | ⟨1, _⟩ => show win6_4.index t (1 : Fin 2) * 1 + 1 * (y 1).val = (y 1).val; rw [f41]; omega
  have e5 : (iblk6 V c 5 t : Cert.Net.Mat 1 1) = V c main_v131 := by
    funext y
    show V c main_v131 (((cfg6.win 5).blk t).view.emb y) = V c main_v131 y
    refine congrArg _ (funext fun a => Fin.ext ?_)
    match a with
    | ⟨0, _⟩ => show win6_5.index t (0 : Fin 2) * 1 + 1 * (y 0).val = (y 0).val; rw [f50]; omega
    | ⟨1, _⟩ => show win6_5.index t (1 : Fin 2) * 1 + 1 * (y 1).val = (y 1).val; rw [f51]; omega
  funext j
  have hj0 : (j 0).val < 5000 := (j 0).isLt
  have hj1 : (j 1).val < 64 := (j 1).isLt
  have hr : t.val * 5000 + (j 0).val < 100000 := by omega
  -- the entry's coordinates in the block and in the array
  have eL : (cfg6.win 6).xinj (grid6.coords t) j = ix2 (⟨(j 0).val, hj0⟩ : Fin 5000) (⟨(j 1).val, hj1⟩ : Fin 64) := by
    funext a
    match a with
    | ⟨0, _⟩ => rfl
    | ⟨1, _⟩ => rfl
  have eR : ((cfg6.win 6).blk t).view.emb j = ix2 (⟨t.val * 5000 + (j 0).val, hr⟩ : Fin 100000) (⟨(j 1).val, hj1⟩ : Fin 64) := by
    funext a
    apply Fin.ext
    match a with
    | ⟨0, _⟩ => show win6_6.index t (0 : Fin 2) * 5000 + 1 * (j 0).val = t.val * 5000 + (j 0).val; rw [f60]; omega
    | ⟨1, _⟩ => show win6_6.index t (1 : Fin 2) * 64 + 1 * (j 1).val = (j 1).val; rw [f61]; omega
  -- rows of the two row-indexed input blocks
  have hh : ∀ k : Fin 64, (iblk6 V c 0 t : Cert.Net.Mat 5000 64) (ix2 (⟨(j 0).val, hj0⟩ : Fin 5000) k)
      = V c main_v114 (ix2 (⟨t.val * 5000 + (j 0).val, hr⟩ : Fin 100000) k) := by
    intro k
    show V c main_v114 (((cfg6.win 0).blk t).view.emb (ix2 (⟨(j 0).val, hj0⟩ : Fin 5000) k)) = _
    refine congrArg _ (funext fun a => Fin.ext ?_)
    match a with
    | ⟨0, _⟩ => show win6_0.index t (0 : Fin 2) * 5000 + 1 * (j 0).val = t.val * 5000 + (j 0).val; rw [f00]; omega
    | ⟨1, _⟩ => show win6_0.index t (1 : Fin 2) * 64 + 1 * k.val = k.val; rw [f01]; omega
  have hn : ∀ k : Fin 64, (iblk6 V c 1 t : Cert.Net.Mat 5000 64) (ix2 (⟨(j 0).val, hj0⟩ : Fin 5000) k)
      = V c main_v129 (ix2 (⟨t.val * 5000 + (j 0).val, hr⟩ : Fin 100000) k) := by
    intro k
    show V c main_v129 (((cfg6.win 1).blk t).view.emb (ix2 (⟨(j 0).val, hj0⟩ : Fin 5000) k)) = _
    refine congrArg _ (funext fun a => Fin.ext ?_)
    match a with
    | ⟨0, _⟩ => show win6_1.index t (0 : Fin 2) * 5000 + 1 * (j 0).val = t.val * 5000 + (j 0).val; rw [f10]; omega
    | ⟨1, _⟩ => show win6_1.index t (1 : Fin 2) * 64 + 1 * k.val = k.val; rw [f11]; omega
  show Cert.Net.attn (A := 5000) (iblk6 V c 0 t) (iblk6 V c 1 t) (iblk6 V c 2 t) (iblk6 V c 3 t) (iblk6 V c 4 t) (iblk6 V c 5 t)
        ((cfg6.win 6).xinj (grid6.coords t) j)
      = Cert.Net.attn (A := 100000) (V c main_v114) (V c main_v129) (V c main_arg9) (V c main_v130) (V c main_arg11) (V c main_v131)
        (((cfg6.win 6).blk t).view.emb j)
  rw [eL, eR, e2, e3, e4, e5]
  exact Cert.Net.attn_rows (V c main_v114) (V c main_v129) (iblk6 V c 0 t) (iblk6 V c 1 t) (V c main_arg9) (V c main_v130) (V c main_arg11) (V c main_v131)
    ⟨t.val * 5000 + (j 0).val, hr⟩ ⟨(j 0).val, hj0⟩ hh hn ⟨(j 1).val, hj1⟩

/-- An index of the result array is in point t's block iff each coordinate is in the block's range on its axis. -/
theorem mem_blk6 (t : Fin cfg6.N) (i : S100000x64.Idx) :
    i ∈ ((cfg6.win 6).blk t).view.set ↔ ∀ a : Fin 2, win6_6.index t a * S5000x64.size a ≤ (i a).val ∧ (i a).val < win6_6.index t a * S5000x64.size a + S5000x64.size a := by
  show i ∈ ((View.whole main_v132).slice (win6_6.rect t)).set ↔ _
  rw [View.set_slice_whole, Rect.mem_set_unit]
  exact Iff.rfl

/-- Every entry of the result array is in some point's block: row r is in block r / 5000. -/
theorem cover6 (i : S100000x64.Idx) :
    ∃ t : Fin cfg6.N, (cfg6.win 6).flush t = true ∧ i ∈ ((cfg6.win 6).blk t).view.set := by
  have hi0 : (i 0).val < 100000 := (i 0).isLt
  have hi1 : (i 1).val < 64 := (i 1).isLt
  have hN : cfg6.N = 20 := N_6
  have ht : (i 0).val / 5000 < cfg6.N := by rw [hN]; omega
  obtain ⟨-, -, -, -, -, -, -, -, -, -, -, -, f60, f61⟩ := idx_facts6 ⟨(i 0).val / 5000, ht⟩
  refine ⟨⟨(i 0).val / 5000, ht⟩, flush6_6 _, ?_⟩
  rw [mem_blk6]
  intro a
  match a with
  | ⟨0, _⟩ =>
    show win6_6.index ⟨(i 0).val / 5000, ht⟩ (0 : Fin 2) * 5000 ≤ (i 0).val ∧ (i 0).val < win6_6.index ⟨(i 0).val / 5000, ht⟩ (0 : Fin 2) * 5000 + 5000
    rw [f60]; show (i 0).val / 5000 * 5000 ≤ (i 0).val ∧ (i 0).val < (i 0).val / 5000 * 5000 + 5000; omega
  | ⟨1, _⟩ =>
    show win6_6.index ⟨(i 0).val / 5000, ht⟩ (1 : Fin 2) * 64 ≤ (i 1).val ∧ (i 1).val < win6_6.index ⟨(i 0).val / 5000, ht⟩ (1 : Fin 2) * 64 + 64
    rw [f61]; omega

/-- THE ARRAY after the region: the attention stage of the arrays the region found, entry by entry. -/
theorem arr_eq6 (c : Dev nD) :
    (dat6 (F := Ideal) V c).arrAt 6 cfg6.N
      = Cert.Net.attn (A := 100000) (V c main_v114) (V c main_v129) (V c main_arg9) (V c main_v130) (V c main_arg11) (V c main_v131) :=
  (dat6 (F := Ideal) V c).arrAt_eq_of_cover 6 _ (fun t _ => flushed_eq6 V c t) (cover6)

/-- The same, as the statement the chain of regions cites. -/
theorem final6 : Cert.KernelIdeal.KChain.Fact6 := fun V c => arr_eq6 V c

end Cert.KernelIdeal.Regions

end
-- ==== Proof.RegAttn9.lean ====
/-
  The value of pallas region 9 (an attention kernel), read off the generated frame.

  The region is tiled over the node axis: grid point t handles rows 5000·t … 5000·t + 4999 of the two row-indexed
  inputs h (main_v174) and nb (main_v189) and of the result (main_v192); the weights and biases (main_arg9, main_v190,
  main_arg11, main_v191) are taken whole at every point.  What point t writes back is the body's arithmetic of its blocks,
  which is the attention stage on 5000 rows; that stage is row-local (an entry of row p depends on row p of h and of nb
  and on the small arrays only), so it is block t of the attention stage of the whole arrays.  The twenty blocks tile the
  100000 rows (row r lies in block r / 5000), so after the region the result array is the whole-array stage.
-/
import proofs.«130402_j14499809591446_2_alg».proof.Proof.RegAttnCommon
import proofs.«130402_j14499809591446_2_alg».proof.Proof.Gen.KernelIdeal.Frame
import proofs.«130402_j14499809591446_2_alg».proof.Proof.Net
import proofs.«130402_j14499809591446_2_alg».proof.Proof.KArgs
import Idealize.ShloMosaic.Lib.Pipeline.Value

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Where each window's block sits at grid point t: the three row-indexed windows (h, nb and the result) are at block
    row t, column block 0; the four small arrays are taken whole (block 0 on both axes). -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

set_option maxHeartbeats 1000000 in
/-- WHAT POINT t WRITES BACK is block t of the attention stage of the whole arrays: the stage is row-local, row p of
    block t of h and of nb is row 5000·t + p of the array, and the weights and biases are taken whole. -/
theorem flushed_eq9 (c : Dev nD) (t : Fin cfg9.N) :
    (dat9 (F := Ideal) V c).flushed 6 t
      = ((cfg9.win 6).blk t).view.read (Elt Ideal)
          (Cert.Net.attn (A := 100000) (V c main_v174) (V c main_v189) (V c main_arg9) (V c main_v190) (V c main_arg11) (V c main_v191)) := by
  show (cfg9.win 6).cut (grid9.coords t) ((dat9 V c).after 6 t) = _
  rw [after9_6]
  unfold out9_6
  rw [View.canon_unit_zero attn_hz]
  simp only [View.ld_unit_zero (S := S5000x64) attn_hz, View.ld_unit_zero (S := S128x64) attn_hz, View.ld_unit_zero (S := S1x64) attn_hz,
    View.ld_unit_zero (S := S64x1) attn_hz, View.ld_unit_zero (S := S1x1) attn_hz]
  rw [pay9_eq]
  obtain ⟨f00, f01, f10, f11, f20, f21, f30, f31, f40, f41, f50, f51, f60, f61⟩ := idx_facts9 t
  have hN : t.val < 20 := t.isLt
  -- the small arrays' blocks are the arrays
  have e2 : (iblk9 V c 2 t : Cert.Net.Mat 128 64) = V c main_arg9 := by
    funext y
    show V c main_arg9 (((cfg9.win 2).blk t).view.emb y) = V c main_arg9 y
    refine congrArg _ (funext fun a => Fin.ext ?_)
    match a with
    | ⟨0, _⟩ => show win9_2.index t (0 : Fin 2) * 128 + 1 * (y 0).val = (y 0).val; rw [f20]; omega
    | ⟨1, _⟩ => show win9_2.index t (1 : Fin 2) * 64 + 1 * (y 1).val = (y 1).val; rw [f21]; omega
  have e3 : (iblk9 V c 3 t : Cert.Net.Mat 1 64) = V c main_v190 := by
    funext y
    show V c main_v190 (((cfg9.win 3).blk t).view.emb y) = V c main_v190 y
    refine congrArg _ (funext fun a => Fin.ext ?_)
    match a with
    | ⟨0, _⟩ => show win9_3.index t (0 : Fin 2) * 1 + 1 * (y 0).val = (y 0).val; rw [f30]; omega
    | ⟨1, _⟩ => show win9_3.index t (1 : Fin 2) * 64 + 1 * (y 1).val = (y 1).val; rw [f31]; omega
  have e4 : (iblk9 V c 4 t : Cert.Net.Mat 64 1) = V c main_arg11 := by
    funext y
    show V c main_arg11 (((cfg9.win 4).blk t).view.emb y) = V c main_arg11 y
    refine congrArg _ (funext fun a => Fin.ext ?_)
    match a with
    | ⟨0, _⟩ => show win9_4.index t (0 : Fin 2) * 64 + 1 * (y 0).val = (y 0).val; rw [f40]; omega
    | ⟨1, _⟩ => show win9_4.index t (1 : Fin 2) * 1 + 1 * (y 1).val = (y 1).val; rw [f41]; omega
  have e5 : (iblk9 V c 5 t : Cert.Net.Mat 1 1) = V c main_v191 := by
    funext y
    show V c main_v191 (((cfg9.win 5).blk t).view.emb y) = V c main_v191 y
    refine congrArg _ (funext fun a => Fin.ext ?_)
    match a with
    | ⟨0, _⟩ => show win9_5.index t (0 : Fin 2) * 1 + 1 * (y 0).val = (y 0).val; rw [f50]; omega
    | ⟨1, _⟩ => show win9_5.index t (1 : Fin 2) * 1 + 1 * (y 1).val = (y 1).val; rw [f51]; omega
  funext j
  have hj0 : (j 0).val < 5000 := (j 0).isLt
  have hj1 : (j 1).val < 64 := (j 1).isLt
  have hr : t.val * 5000 + (j 0).val < 100000 := by omega
  -- the entry's coordinates in the block and in the array
  have eL : (cfg9.win 6).xinj (grid9.coords t) j = ix2 (⟨(j 0).val, hj0⟩ : Fin 5000) (⟨(j 1).val, hj1⟩ : Fin 64) := by
    funext a
    match a with
    | ⟨0, _⟩ => rfl
    | ⟨1, _⟩ => rfl
  have eR : ((cfg9.win 6).blk t).view.emb j = ix2 (⟨t.val * 5000 + (j 0).val, hr⟩ : Fin 100000) (⟨(j 1).val, hj1⟩ : Fin 64) := by
    funext a
    apply Fin.ext
    match a with
    | ⟨0, _⟩ => show win9_6.index t (0 : Fin 2) * 5000 + 1 * (j 0).val = t.val * 5000 + (j 0).val; rw [f60]; omega
    | ⟨1, _⟩ => show win9_6.index t (1 : Fin 2) * 64 + 1 * (j 1).val = (j 1).val; rw [f61]; omega
  -- rows of the two row-indexed input blocks
  have hh : ∀ k : Fin 64, (iblk9 V c 0 t : Cert.Net.Mat 5000 64) (ix2 (⟨(j 0).val, hj0⟩ : Fin 5000) k)
      = V c main_v174 (ix2 (⟨t.val * 5000 + (j 0).val, hr⟩ : Fin 100000) k) := by
    intro k
    show V c main_v174 (((cfg9.win 0).blk t).view.emb (ix2 (⟨(j 0).val, hj0⟩ : Fin 5000) k)) = _
    refine congrArg _ (funext fun a => Fin.ext ?_)
    match a with
    | ⟨0, _⟩ => show win9_0.index t (0 : Fin 2) * 5000 + 1 * (j 0).val = t.val * 5000 + (j 0).val; rw [f00]; omega
    | ⟨1, _⟩ => show win9_0.index t (1 : Fin 2) * 64 + 1 * k.val = k.val; rw [f01]; omega
  have hn : ∀ k : Fin 64, (iblk9 V c 1 t : Cert.Net.Mat 5000 64) (ix2 (⟨(j 0).val, hj0⟩ : Fin 5000) k)
      = V c main_v189 (ix2 (⟨t.val * 5000 + (j 0).val, hr⟩ : Fin 100000) k) := by
    intro k
    show V c main_v189 (((cfg9.win 1).blk t).view.emb (ix2 (⟨(j 0).val, hj0⟩ : Fin 5000) k)) = _
    refine congrArg _ (funext fun a => Fin.ext ?_)
    match a with
    | ⟨0, _⟩ => show win9_1.index t (0 : Fin 2) * 5000 + 1 * (j 0).val = t.val * 5000 + (j 0).val; rw [f10]; omega
    | ⟨1, _⟩ => show win9_1.index t (1 : Fin 2) * 64 + 1 * k.val = k.val; rw [f11]; omega
  show Cert.Net.attn (A := 5000) (iblk9 V c 0 t) (iblk9 V c 1 t) (iblk9 V c 2 t) (iblk9 V c 3 t) (iblk9 V c 4 t) (iblk9 V c 5 t)
        ((cfg9.win 6).xinj (grid9.coords t) j)
      = Cert.Net.attn (A := 100000) (V c main_v174) (V c main_v189) (V c main_arg9) (V c main_v190) (V c main_arg11) (V c main_v191)
        (((cfg9.win 6).blk t).view.emb j)
  rw [eL, eR, e2, e3, e4, e5]
  exact Cert.Net.attn_rows (V c main_v174) (V c main_v189) (iblk9 V c 0 t) (iblk9 V c 1 t) (V c main_arg9) (V c main_v190) (V c main_arg11) (V c main_v191)
    ⟨t.val * 5000 + (j 0).val, hr⟩ ⟨(j 0).val, hj0⟩ hh hn ⟨(j 1).val, hj1⟩

/-- An index of the result array is in point t's block iff each coordinate is in the block's range on its axis. -/
theorem mem_blk9 (t : Fin cfg9.N) (i : S100000x64.Idx) :
    i ∈ ((cfg9.win 6).blk t).view.set ↔ ∀ a : Fin 2, win9_6.index t a * S5000x64.size a ≤ (i a).val ∧ (i a).val < win9_6.index t a * S5000x64.size a + S5000x64.size a := by
  show i ∈ ((View.whole main_v192).slice (win9_6.rect t)).set ↔ _
  rw [View.set_slice_whole, Rect.mem_set_unit]
  exact Iff.rfl

/-- Every entry of the result array is in some point's block: row r is in block r / 5000. -/
theorem cover9 (i : S100000x64.Idx) :
    ∃ t : Fin cfg9.N, (cfg9.win 6).flush t = true ∧ i ∈ ((cfg9.win 6).blk t).view.set := by
  have hi0 : (i 0).val < 100000 := (i 0).isLt
  have hi1 : (i 1).val < 64 := (i 1).isLt
  have hN : cfg9.N = 20 := N_9
  have ht : (i 0).val / 5000 < cfg9.N := by rw [hN]; omega
  obtain ⟨-, -, -, -, -, -, -, -, -, -, -, -, f60, f61⟩ := idx_facts9 ⟨(i 0).val / 5000, ht⟩
  refine ⟨⟨(i 0).val / 5000, ht⟩, flush9_6 _, ?_⟩
  rw [mem_blk9]
  intro a
  match a with
  | ⟨0, _⟩ =>
    show win9_6.index ⟨(i 0).val / 5000, ht⟩ (0 : Fin 2) * 5000 ≤ (i 0).val ∧ (i 0).val < win9_6.index ⟨(i 0).val / 5000, ht⟩ (0 : Fin 2) * 5000 + 5000
    rw [f60]; show (i 0).val / 5000 * 5000 ≤ (i 0).val ∧ (i 0).val < (i 0).val / 5000 * 5000 + 5000; omega
  | ⟨1, _⟩ =>
    show win9_6.index ⟨(i 0).val / 5000, ht⟩ (1 : Fin 2) * 64 ≤ (i 1).val ∧ (i 1).val < win9_6.index ⟨(i 0).val / 5000, ht⟩ (1 : Fin 2) * 64 + 64
    rw [f61]; omega

/-- THE ARRAY after the region: the attention stage of the arrays the region found, entry by entry. -/
theorem arr_eq9 (c : Dev nD) :
    (dat9 (F := Ideal) V c).arrAt 6 cfg9.N
      = Cert.Net.attn (A := 100000) (V c main_v174) (V c main_v189) (V c main_arg9) (V c main_v190) (V c main_arg11) (V c main_v191) :=
  (dat9 (F := Ideal) V c).arrAt_eq_of_cover 6 _ (fun t _ => flushed_eq9 V c t) (cover9)

/-- The same, as the statement the chain of regions cites. -/
theorem final9 : Cert.KernelIdeal.KChain.Fact9 := fun V c => arr_eq9 V c

end Cert.KernelIdeal.Regions

end
-- ==== Proof.RegBnCommon.lean ====
/-
  What the four normalisation regions share.

  Each of these regions is tiled over the rows: a grid point works on a block of 5000 consecutive rows of every
  row-indexed array and on the whole of every one-row array of column statistics (and, in the last region, on the
  whole weight array and bias row).  Every stage computed here is row-local: entry (p', q) of the stage on a block
  is computed from row p' of the block's operands and from the small arrays only.  So when row p' of the block is row
  p of the whole array, entry (p', q) on the block is entry (p, q) on the whole array.  The lemmas below say this for
  indices rather than coordinate pairs, in the form a tiled region's write-back needs: the block's index `j` and the
  array's index `i` have the same column, and the block's row `j 0` holds the array's row `i 0`.
-/
import proofs.«130402_j14499809591446_2_alg».proof.Proof.Net
import proofs.«130402_j14499809591446_2_alg».proof.Proof.LibRowLayout
import Idealize.ShloMosaic.Lib.Pipeline.Value

noncomputable section

namespace Cert.KernelIdeal.Regions

open Idealize.ShloMosaic Idealize.ShloMosaic.ValueIdx Cert.Net

/-- The zero offsets of a whole-block rectangle, as a constant function. -/
theorem hz : (![0, 0] : Fin 2 → Nat) = fun _ => 0 := funext fun a => by fin_cases a <;> rfl

variable {A A' : ℕ}

/-- Normalisation followed by the maximum with zero, on a block whose row `j 0` is the array's row `i 0`, at the same
    column: the block's entry is the array's. -/
theorem bnRelu_block (y : Mat A 64) (y' : Mat A' 64) (g bt mu var : Mat 1 64)
    (j : (⟨2, ![A', 64]⟩ : Shape).Idx) (i : (⟨2, ![A, 64]⟩ : Shape).Idx) (hcol : (j 1).val = (i 1).val)
    (hy : ∀ (p' : Fin A') (p : Fin A) (k : Fin 64), p'.val = (j 0).val → p.val = (i 0).val → y' (ix2 p' k) = y (ix2 p k)) :
    bnRelu y' g bt mu var j = bnRelu y g bt mu var i := by
  obtain ⟨p', q', rfl⟩ : ∃ (p' : Fin A') (q' : Fin 64), j = ix2 p' q' := ⟨j 0, j 1, eq_ix2 j⟩
  obtain ⟨p, q, rfl⟩ : ∃ (p : Fin A) (q : Fin 64), i = ix2 p q := ⟨i 0, i 1, eq_ix2 i⟩
  obtain rfl : q' = q := Fin.ext hcol
  exact bnRelu_rows y y' g bt mu var p p' (fun k => hy p' p k rfl rfl) q'

/-- The same with a residual array added before the maximum: the residual is read in the same row. -/
theorem bnResRelu_block (y : Mat A 64) (y' : Mat A' 64) (g bt mu var : Mat 1 64) (h : Mat A 64) (h' : Mat A' 64)
    (j : (⟨2, ![A', 64]⟩ : Shape).Idx) (i : (⟨2, ![A, 64]⟩ : Shape).Idx) (hcol : (j 1).val = (i 1).val)
    (hy : ∀ (p' : Fin A') (p : Fin A) (k : Fin 64), p'.val = (j 0).val → p.val = (i 0).val → y' (ix2 p' k) = y (ix2 p k))
    (hh : ∀ (p' : Fin A') (p : Fin A) (k : Fin 64), p'.val = (j 0).val → p.val = (i 0).val → h' (ix2 p' k) = h (ix2 p k)) :
    bnResRelu y' g bt mu var h' j = bnResRelu y g bt mu var h i := by
  obtain ⟨p', q', rfl⟩ : ∃ (p' : Fin A') (q' : Fin 64), j = ix2 p' q' := ⟨j 0, j 1, eq_ix2 j⟩
  obtain ⟨p, q, rfl⟩ : ∃ (p : Fin A) (q : Fin 64), i = ix2 p q := ⟨i 0, i 1, eq_ix2 i⟩
  obtain rfl : q' = q := Fin.ext hcol
  exact bnResRelu_rows y y' g bt mu var h h' p p' (fun k => hy p' p k rfl rfl) (fun k => hh p' p k rfl rfl) q'

/-- The classifier (the residual normalisation, then a matrix product with a 64 x 16 weight array and a bias row): entry
    (p', q) sums over row p' of the normalised block, which is row p of the normalised array. -/
theorem classifier_block (y : Mat A 64) (y' : Mat A' 64) (g bt mu var : Mat 1 64) (h : Mat A 64) (h' : Mat A' 64)
    (fcW : Mat 64 16) (fcb : Mat 1 16)
    (j : (⟨2, ![A', 16]⟩ : Shape).Idx) (i : (⟨2, ![A, 16]⟩ : Shape).Idx) (hcol : (j 1).val = (i 1).val)
    (hy : ∀ (p' : Fin A') (p : Fin A) (k : Fin 64), p'.val = (j 0).val → p.val = (i 0).val → y' (ix2 p' k) = y (ix2 p k))
    (hh : ∀ (p' : Fin A') (p : Fin A) (k : Fin 64), p'.val = (j 0).val → p.val = (i 0).val → h' (ix2 p' k) = h (ix2 p k)) :
    classifier y' g bt mu var h' fcW fcb j = classifier y g bt mu var h fcW fcb i := by
  obtain ⟨p', q', rfl⟩ : ∃ (p' : Fin A') (q' : Fin 16), j = ix2 p' q' := ⟨j 0, j 1, eq_ix2 j⟩
  obtain ⟨p, q, rfl⟩ : ∃ (p : Fin A) (q : Fin 16), i = ix2 p q := ⟨i 0, i 1, eq_ix2 i⟩
  obtain rfl : q' = q := Fin.ext hcol
  exact classifier_rows y y' g bt mu var h h' fcW fcb p p' (fun k => hy p' p k rfl rfl) (fun k => hh p' p k rfl rfl) q'

end Cert.KernelIdeal.Regions

end
-- ==== Proof.RegBn2.lean ====
/-
  Region 2: normalisation followed by the maximum with zero, tiled over the rows.

  The region's grid has 20 points.  Point t reads rows 5000 t ... 5000 t + 4999 of the 100000 x 64 input array and the
  whole of the four one-row arrays (scale, shift, column mean, column variance), and writes rows 5000 t ... 5000 t + 4999
  of the 100000 x 64 output array.  The body's arithmetic on a block is, entry by entry,
  (y - mean) * rsqrt (variance + epsilon) * scale + shift, then the maximum with zero, the one-row arrays spread down the
  rows: the stage `Cert.Net.bnRelu` on a block of 5000 rows.  The stage is row-local, so the block point t writes is
  rows 5000 t ... of the stage applied to the whole arrays; the 20 blocks tile the output array (row r lies in the
  block of point r / 5000), so the output array after the region is the stage applied to the whole arrays.
-/
import proofs.«130402_j14499809591446_2_alg».proof.Proof.Gen.KernelIdeal.Frame
import proofs.«130402_j14499809591446_2_alg».proof.Proof.Net
import proofs.«130402_j14499809591446_2_alg».proof.Proof.LibRowLayout
import proofs.«130402_j14499809591446_2_alg».proof.Proof.RegBnCommon
import Idealize.ShloMosaic.Lib.Pipeline.Value

set_option maxRecDepth 16384

noncomputable section

namespace Cert.KernelIdeal.Regions

open Cert.KernelIdeal Cert.KernelIdeal.Gen Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

/-- The body's one stored value at an entry of the block: the input entry minus the column's mean, times the reciprocal
    square root of the column's variance plus epsilon, times the column's scale, plus the column's shift, then the
    maximum with zero.  (A cast to the same shape is the identity; a one-row array spread down the rows reads its entry of
    the same column.) -/
theorem pay2_apply (x0 : Vec Ideal S5000x64 .f32) (mu var g bt : Vec Ideal S1x64 .f32) (p : Fin 5000) (q : Fin 64) :
    k2_pay1 x0 mu var g bt (ix2 p q) = Cert.Net.bnRelu (A := 5000) x0 g bt mu var (ix2 p q) := by
  unfold k2_pay1
  simp only [shapeCast_self]
  rw [maximumf_apply, addf_apply, mulf_apply, mulf_apply, subf_apply, Cert.LibRowLayout.broadcastTo_1b_ab_apply, Cert.LibRowLayout.broadcastTo_1b_ab_apply,
    Cert.LibRowLayout.broadcastTo_1b_ab_apply, Cert.LibRowLayout.broadcastTo_1b_ab_apply]
  rfl

/-- So the stored value is the stage on the block. -/
theorem pay2_eq (x0 : Vec Ideal S5000x64 .f32) (mu var g bt : Vec Ideal S1x64 .f32) :
    k2_pay1 x0 mu var g bt = Cert.Net.bnRelu (A := 5000) x0 g bt mu var := by
  funext i
  obtain ⟨p, q, rfl⟩ : ∃ (p : Fin 5000) (q : Fin 64), i = ix2 p q := ⟨i 0, i 1, eq_ix2 i⟩
  exact pay2_apply x0 mu var g bt p q

/-! ## The printed index maps, decided over the 20 grid points -/

/-- Window 0 moves with the point along the rows: at point t its block is block (t, 0). -/
theorem idx2_0 : ∀ t : Fin cfg2.N, win2_0.index t (0 : Fin 2) = t.val ∧ win2_0.index t (1 : Fin 2) = 0 :=
  (by decide +kernel : ∀ t : Fin grid2.N, _)

/-- Window 1 stays: at every point its block is block (0, 0). -/
theorem idx2_1 : ∀ t : Fin cfg2.N, win2_1.index t (0 : Fin 2) = 0 ∧ win2_1.index t (1 : Fin 2) = 0 :=
  (by decide +kernel : ∀ t : Fin grid2.N, _)

/-- Window 2 stays: at every point its block is block (0, 0). -/
theorem idx2_2 : ∀ t : Fin cfg2.N, win2_2.index t (0 : Fin 2) = 0 ∧ win2_2.index t (1 : Fin 2) = 0 :=
  (by decide +kernel : ∀ t : Fin grid2.N, _)

/-- Window 3 stays: at every point its block is block (0, 0). -/
theorem idx2_3 : ∀ t : Fin cfg2.N, win2_3.index t (0 : Fin 2) = 0 ∧ win2_3.index t (1 : Fin 2) = 0 :=
  (by decide +kernel : ∀ t : Fin grid2.N, _)

/-- Window 4 stays: at every point its block is block (0, 0). -/
theorem idx2_4 : ∀ t : Fin cfg2.N, win2_4.index t (0 : Fin 2) = 0 ∧ win2_4.index t (1 : Fin 2) = 0 :=
  (by decide +kernel : ∀ t : Fin grid2.N, _)

/-- Window 5 moves with the point along the rows: at point t its block is block (t, 0). -/
theorem idx2_5 : ∀ t : Fin cfg2.N, win2_5.index t (0 : Fin 2) = t.val ∧ win2_5.index t (1 : Fin 2) = 0 :=
  (by decide +kernel : ∀ t : Fin grid2.N, _)

/-! ## The input windows' blocks, read off the arrays -/

/-- Row p' of window 0's block at point t is row 5000 t + p' of its array. -/
theorem rows2_0 (c : Dev nD) (t : Fin cfg2.N) (p' : Fin 5000) (p : Fin 100000) (k : Fin 64) (hp : p.val = t.val * 5000 + p'.val) :
    (iblk2 V c 0 t : Vec Ideal S5000x64 .f32) (ix2 p' k) = (V c main_v36 : S100000x64.Idx → EReal) (ix2 p k) := by
  obtain ⟨e0, e1⟩ := idx2_0 t
  show V c main_v36 (((cfg2.win 0).blk t).view.emb (ix2 p' k)) = V c main_v36 (ix2 p k)
  congr 1
  funext a; apply Fin.ext
  match a with
  | ⟨0, _⟩ => show win2_0.index t (0 : Fin 2) * 5000 + 1 * p'.val = p.val; omega
  | ⟨1, _⟩ => show win2_0.index t (1 : Fin 2) * 64 + 1 * k.val = k.val; omega

/-- Window 1's block has its array's shape and sits at block (0, 0): it is the whole array. -/
theorem whole2_1 (c : Dev nD) (t : Fin cfg2.N) : (iblk2 V c 1 t : Vec Ideal S1x64 .f32) = V c main_v50 := by
  obtain ⟨e0, e1⟩ := idx2_1 t
  funext y
  show V c main_v50 (((cfg2.win 1).blk t).view.emb y) = V c main_v50 y
  congr 1
  funext a; apply Fin.ext
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- Window 2's block has its array's shape and sits at block (0, 0): it is the whole array. -/
theorem whole2_2 (c : Dev nD) (t : Fin cfg2.N) : (iblk2 V c 2 t : Vec Ideal S1x64 .f32) = V c main_v51 := by
  obtain ⟨e0, e1⟩ := idx2_2 t
  funext y
  show V c main_v51 (((cfg2.win 2).blk t).view.emb y) = V c main_v51 y
  congr 1
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Window 3's block has its array's shape and sits at block (0, 0): it is the whole array. -/
theorem whole2_3 (c : Dev nD) (t : Fin cfg2.N) : (iblk2 V c 3 t : Vec Ideal S1x64 .f32) = V c main_v52 := by
  obtain ⟨e0, e1⟩ := idx2_3 t
  funext y
  show V c main_v52 (((cfg2.win 3).blk t).view.emb y) = V c main_v52 y
  congr 1
  funext a; apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- Window 4's block has its array's shape and sits at block (0, 0): it is the whole array. -/
theorem whole2_4 (c : Dev nD) (t : Fin cfg2.N) : (iblk2 V c 4 t : Vec Ideal S1x64 .f32) = V c main_v53 := by
  obtain ⟨e0, e1⟩ := idx2_4 t
  funext y
  show V c main_v53 (((cfg2.win 4).blk t).view.emb y) = V c main_v53 y
  congr 1
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-! ## What a point writes back, and the array after the region -/

/-- WHAT POINT t WRITES BACK is block t of the stage applied to the whole arrays as the region finds them: the body's stored
    value is the stage on the point's blocks, the small arrays' blocks are the arrays, and row p' of a row-indexed block
    is row 5000 t + p' of its array, which is the row the output block's row p' lands on. -/
theorem flushed2_eq (c : Dev nD) (t : Fin cfg2.N) :
    (dat2 (F := Ideal) V c).flushed 5 t
      = ((cfg2.win 5).blk t).view.read (Elt Ideal)
          (Cert.Net.bnRelu (A := 100000) (V c main_v36) (V c main_v50) (V c main_v51) (V c main_v52) (V c main_v53)) := by
  show (cfg2.win 5).cut (grid2.coords t) ((dat2 V c).after 5 t) = _
  rw [after2_5]
  unfold out2_5
  rw [View.canon_unit_zero hz]
  simp only [View.ld_unit_zero (S := S5000x64) hz, View.ld_unit_zero (S := S1x64) hz]
  rw [pay2_eq, whole2_1, whole2_2, whole2_3, whole2_4]
  obtain ⟨e0, e1⟩ := idx2_5 t
  funext j
  refine bnRelu_block (A := 100000) (A' := 5000) (V c main_v36) (iblk2 V c 0 t) (V c main_v50) (V c main_v51) (V c main_v52) (V c main_v53)
    ((cfg2.win 5).xinj (grid2.coords t) j) (((cfg2.win 5).blk t).view.emb j) ?_ ?_
  · show (j 1).val = win2_5.index t (1 : Fin 2) * 64 + 1 * (j 1).val
    omega
  · intro p' p k hp' hp
    refine rows2_0 V c t p' p k ?_
    have hp2 : p.val = win2_5.index t (0 : Fin 2) * 5000 + 1 * (j 0).val := hp
    have hp3 : p'.val = (j 0).val := hp'
    omega

/-- An index of the output array is in point t's block iff each coordinate is in the block's range on its axis. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v54).slice (win2_5.rect t)).set ↔ _
  rw [View.set_slice_whole, Rect.mem_set_unit]
  exact Iff.rfl

/-- The 20 blocks tile the output array: row r is in the block of point r / 5000. -/
theorem cover2 (i : S100000x64.Idx) : ∃ t : Fin cfg2.N, (cfg2.win 5).flush t = true ∧ i ∈ ((cfg2.win 5).blk t).view.set := by
  have hN : cfg2.N = 20 := N_2
  have hi0 : (i 0).val < 100000 := (i 0).isLt
  have hi1 : (i 1).val < 64 := (i 1).isLt
  let t : Fin cfg2.N := ⟨(i 0).val / 5000, by rw [hN]; omega⟩
  have ht : t.val = (i 0).val / 5000 := rfl
  obtain ⟨e0, e1⟩ := idx2_5 t
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE OUTPUT ARRAY after the region is the stage applied to the input arrays as the region finds them. -/
theorem final2 (c : Dev nD) :
    (dat2 (F := Ideal) V c).arrAt 5 cfg2.N
      = Cert.Net.bnRelu (A := 100000) (V c main_v36) (V c main_v50) (V c main_v51) (V c main_v52) (V c main_v53) :=
  (dat2 (F := Ideal) V c).arrAt_eq_of_cover 5 _ (fun t _ => flushed2_eq V c t) cover2

end Cert.KernelIdeal.Regions

end
-- ==== Proof.RegBn5.lean ====
/-
  Region 5: normalisation with a residual, followed by the maximum with zero, tiled over the rows.

  The region's grid has 20 points.  Point t reads rows 5000 t ... 5000 t + 4999 of the two 100000 x 64 input arrays (the
  layer's output and the residual) and the whole of the four one-row arrays (scale, shift, column mean, column variance),
  and writes rows 5000 t ... 5000 t + 4999 of the 100000 x 64 output array.  The body's arithmetic on a block is, entry by
  entry, (y - mean) * rsqrt (variance + epsilon) * scale + shift + residual, then the maximum with zero, the one-row
  arrays spread down the rows: the stage `Cert.Net.bnResRelu` on a block of 5000 rows.  The stage is row-local, so the
  block point t writes is rows 5000 t ... of the stage applied to the whole arrays; the 20 blocks tile the output array
  (row r lies in the block of point r / 5000), so the output array after the region is the stage applied to the whole
  arrays.
-/
import proofs.«130402_j14499809591446_2_alg».proof.Proof.Gen.KernelIdeal.Frame
import proofs.«130402_j14499809591446_2_alg».proof.Proof.Net
import proofs.«130402_j14499809591446_2_alg».proof.Proof.LibRowLayout
import proofs.«130402_j14499809591446_2_alg».proof.Proof.RegBnCommon
import Idealize.ShloMosaic.Lib.Pipeline.Value

set_option maxRecDepth 16384

noncomputable section

namespace Cert.KernelIdeal.Regions

open Cert.KernelIdeal Cert.KernelIdeal.Gen Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

/-- The body's one stored value at an entry of the block: the input entry minus the column's mean, times the reciprocal
    square root of the column's variance plus epsilon, times the column's scale, plus the column's shift, plus the
    residual's entry, then the maximum with zero.  (A cast to the same shape is the identity; a one-row array spread down
    the rows reads its entry of the same column.) -/
theorem pay5_apply (x0 : Vec Ideal S5000x64 .f32) (mu var g bt : Vec Ideal S1x64 .f32) (h : Vec Ideal S5000x64 .f32) (p : Fin 5000) (q : Fin 64) :
    k5_pay1 x0 mu var g bt h (ix2 p q) = Cert.Net.bnResRelu (A := 5000) x0 g bt mu var h (ix2 p q) := by
  unfold k5_pay1
  simp only [shapeCast_self]
  rw [maximumf_apply, addf_apply, addf_apply, mulf_apply, mulf_apply, subf_apply, Cert.LibRowLayout.broadcastTo_1b_ab_apply,
    Cert.LibRowLayout.broadcastTo_1b_ab_apply, Cert.LibRowLayout.broadcastTo_1b_ab_apply, Cert.LibRowLayout.broadcastTo_1b_ab_apply]
  rfl

/-- So the stored value is the stage on the block. -/
theorem pay5_eq (x0 : Vec Ideal S5000x64 .f32) (mu var g bt : Vec Ideal S1x64 .f32) (h : Vec Ideal S5000x64 .f32) :
    k5_pay1 x0 mu var g bt h = Cert.Net.bnResRelu (A := 5000) x0 g bt mu var h := by
  funext i
  obtain ⟨p, q, rfl⟩ : ∃ (p : Fin 5000) (q : Fin 64), i = ix2 p q := ⟨i 0, i 1, eq_ix2 i⟩
  exact pay5_apply x0 mu var g bt h p q

/-! ## The printed index maps, decided over the 20 grid points -/

/-- Window 0 moves with the point along the rows: at point t its block is block (t, 0). -/
theorem idx5_0 : ∀ t : Fin cfg5.N, win5_0.index t (0 : Fin 2) = t.val ∧ win5_0.index t (1 : Fin 2) = 0 :=
  (by decide +kernel : ∀ t : Fin grid5.N, _)

/-- Window 1 stays: at every point its block is block (0, 0). -/
theorem idx5_1 : ∀ t : Fin cfg5.N, win5_1.index t (0 : Fin 2) = 0 ∧ win5_1.index t (1 : Fin 2) = 0 :=
  (by decide +kernel : ∀ t : Fin grid5.N, _)

/-- Window 2 stays: at every point its block is block (0, 0). -/
theorem idx5_2 : ∀ t : Fin cfg5.N, win5_2.index t (0 : Fin 2) = 0 ∧ win5_2.index t (1 : Fin 2) = 0 :=
  (by decide +kernel : ∀ t : Fin grid5.N, _)

/-- Window 3 stays: at every point its block is block (0, 0). -/
theorem idx5_3 : ∀ t : Fin cfg5.N, win5_3.index t (0 : Fin 2) = 0 ∧ win5_3.index t (1 : Fin 2) = 0 :=
  (by decide +kernel : ∀ t : Fin grid5.N, _)

/-- Window 4 stays: at every point its block is block (0, 0). -/
theorem idx5_4 : ∀ t : Fin cfg5.N, win5_4.index t (0 : Fin 2) = 0 ∧ win5_4.index t (1 : Fin 2) = 0 :=
  (by decide +kernel : ∀ t : Fin grid5.N, _)

/-- Window 5 moves with the point along the rows: at point t its block is block (t, 0). -/
theorem idx5_5 : ∀ t : Fin cfg5.N, win5_5.index t (0 : Fin 2) = t.val ∧ win5_5.index t (1 : Fin 2) = 0 :=
  (by decide +kernel : ∀ t : Fin grid5.N, _)

/-- Window 6 moves with the point along the rows: at point t its block is block (t, 0). -/
theorem idx5_6 : ∀ t : Fin cfg5.N, win5_6.index t (0 : Fin 2) = t.val ∧ win5_6.index t (1 : Fin 2) = 0 :=
  (by decide +kernel : ∀ t : Fin grid5.N, _)

/-! ## The input windows' blocks, read off the arrays -/

/-- Row p' of window 0's block at point t is row 5000 t + p' of its array. -/
theorem rows5_0 (c : Dev nD) (t : Fin cfg5.N) (p' : Fin 5000) (p : Fin 100000) (k : Fin 64) (hp : p.val = t.val * 5000 + p'.val) :
    (iblk5 V c 0 t : Vec Ideal S5000x64 .f32) (ix2 p' k) = (V c main_v96 : S100000x64.Idx → EReal) (ix2 p k) := by
  obtain ⟨e0, e1⟩ := idx5_0 t
  show V c main_v96 (((cfg5.win 0).blk t).view.emb (ix2 p' k)) = V c main_v96 (ix2 p k)
  congr 1
  funext a; apply Fin.ext
  match a with
  | ⟨0, _⟩ => show win5_0.index t (0 : Fin 2) * 5000 + 1 * p'.val = p.val; omega
  | ⟨1, _⟩ => show win5_0.index t (1 : Fin 2) * 64 + 1 * k.val = k.val; omega

/-- Window 1's block has its array's shape and sits at block (0, 0): it is the whole array. -/
theorem whole5_1 (c : Dev nD) (t : Fin cfg5.N) : (iblk5 V c 1 t : Vec Ideal S1x64 .f32) = V c main_v110 := by
  obtain ⟨e0, e1⟩ := idx5_1 t
  funext y
  show V c main_v110 (((cfg5.win 1).blk t).view.emb y) = V c main_v110 y
  congr 1
  funext a; apply Fin.ext
  match a with
  | ⟨0, _⟩ => show win5_1.index t (0 : Fin 2) * 1 + 1 * (y 0).val = (y 0).val; omega
  | ⟨1, _⟩ => show win5_1.index t (1 : Fin 2) * 64 + 1 * (y 1).val = (y 1).val; omega

/-- Window 2's block has its array's shape and sits at block (0, 0): it is the whole array. -/
theorem whole5_2 (c : Dev nD) (t : Fin cfg5.N) : (iblk5 V c 2 t : Vec Ideal S1x64 .f32) = V c main_v111 := by
  obtain ⟨e0, e1⟩ := idx5_2 t
  funext y
  show V c main_v111 (((cfg5.win 2).blk t).view.emb y) = V c main_v111 y
  congr 1
  funext a; apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- Window 3's block has its array's shape and sits at block (0, 0): it is the whole array. -/
theorem whole5_3 (c : Dev nD) (t : Fin cfg5.N) : (iblk5 V c 3 t : Vec Ideal S1x64 .f32) = V c main_v112 := by
  obtain ⟨e0, e1⟩ := idx5_3 t
  funext y
  show V c main_v112 (((cfg5.win 3).blk t).view.emb y) = V c main_v112 y
  congr 1
  funext a; apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- Window 4's block has its array's shape and sits at block (0, 0): it is the whole array. -/
theorem whole5_4 (c : Dev nD) (t : Fin cfg5.N) : (iblk5 V c 4 t : Vec Ideal S1x64 .f32) = V c main_v113 := by
  obtain ⟨e0, e1⟩ := idx5_4 t
  funext y
  show V c main_v113 (((cfg5.win 4).blk t).view.emb y) = V c main_v113 y
  congr 1
  funext a; apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- Row p' of window 5's block at point t is row 5000 t + p' of its array. -/
theorem rows5_5 (c : Dev nD) (t : Fin cfg5.N) (p' : Fin 5000) (p : Fin 100000) (k : Fin 64) (hp : p.val = t.val * 5000 + p'.val) :
    (iblk5 V c 5 t : Vec Ideal S5000x64 .f32) (ix2 p' k) = (V c main_v72 : S100000x64.Idx → EReal) (ix2 p k) := by
  obtain ⟨e0, e1⟩ := idx5_5 t
  show V c main_v72 (((cfg5.win 5).blk t).view.emb (ix2 p' k)) = V c main_v72 (ix2 p k)
  congr 1
  funext a; apply Fin.ext
  match a with
  | ⟨0, _⟩ => show win5_5.index t (0 : Fin 2) * 5000 + 1 * p'.val = p.val; omega
  | ⟨1, _⟩ => show win5_5.index t (1 : Fin 2) * 64 + 1 * k.val = k.val; omega

/-! ## What a point writes back, and the array after the region -/

/-- WHAT POINT t WRITES BACK is block t of the stage applied to the whole arrays as the region finds them: the body's stored
    value is the stage on the point's blocks, the small arrays' blocks are the arrays, and row p' of a row-indexed block
    is row 5000 t + p' of its array, which is the row the output block's row p' lands on. -/
theorem flushed5_eq (c : Dev nD) (t : Fin cfg5.N) :
    (dat5 (F := Ideal) V c).flushed 6 t
      = ((cfg5.win 6).blk t).view.read (Elt Ideal)
          (Cert.Net.bnResRelu (A := 100000) (V c main_v96) (V c main_v110) (V c main_v111) (V c main_v112) (V c main_v113) (V c main_v72)) := by
  show (cfg5.win 6).cut (grid5.coords t) ((dat5 V c).after 6 t) = _
  rw [after5_6]
  unfold out5_6
  rw [View.canon_unit_zero hz]
  simp only [View.ld_unit_zero (S := S5000x64) hz, View.ld_unit_zero (S := S1x64) hz]
  rw [pay5_eq, whole5_1, whole5_2, whole5_3, whole5_4]
  obtain ⟨e0, e1⟩ := idx5_6 t
  funext j
  refine bnResRelu_block (A := 100000) (A' := 5000) (V c main_v96) (iblk5 V c 0 t) (V c main_v110) (V c main_v111) (V c main_v112) (V c main_v113) (V c main_v72) (iblk5 V c 5 t)
    ((cfg5.win 6).xinj (grid5.coords t) j) (((cfg5.win 6).blk t).view.emb j) ?_ ?_ ?_
  · show (j 1).val = win5_6.index t (1 : Fin 2) * 64 + 1 * (j 1).val
    omega
  · intro p' p k hp' hp
    refine rows5_0 V c t p' p k ?_
    have hp2 : p.val = win5_6.index t (0 : Fin 2) * 5000 + 1 * (j 0).val := hp
    have hp3 : p'.val = (j 0).val := hp'
    omega
  · intro p' p k hp' hp
    refine rows5_5 V c t p' p k ?_
    have hp2 : p.val = win5_6.index t (0 : Fin 2) * 5000 + 1 * (j 0).val := hp
    have hp3 : p'.val = (j 0).val := hp'
    omega

/-- An index of the output array is in point t's block iff each coordinate is in the block's range on its axis. -/
theorem mem_blk5 (t : Fin cfg5.N) (i : S100000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v114).slice (win5_6.rect t)).set ↔ _
  rw [View.set_slice_whole, Rect.mem_set_unit]
  exact Iff.rfl

/-- The 20 blocks tile the output array: row r is in the block of point r / 5000. -/
theorem cover5 (i : S100000x64.Idx) : ∃ t : Fin cfg5.N, (cfg5.win 6).flush t = true ∧ i ∈ ((cfg5.win 6).blk t).view.set := by
  have hN : cfg5.N = 20 := N_5
  have hi0 : (i 0).val < 100000 := (i 0).isLt
  have hi1 : (i 1).val < 64 := (i 1).isLt
  let t : Fin cfg5.N := ⟨(i 0).val / 5000, by rw [hN]; omega⟩
  have ht : t.val = (i 0).val / 5000 := rfl
  obtain ⟨e0, e1⟩ := idx5_6 t
  refine ⟨t, flush5_6 t, ?_⟩
  rw [mem_blk5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 64 ≤ (i 1).val ∧ (i 1).val < win5_6.index t (1 : Fin 2) * 64 + 64; omega

/-- THE OUTPUT ARRAY after the region is the stage applied to the input arrays as the region finds them. -/
theorem final5 (c : Dev nD) :
    (dat5 (F := Ideal) V c).arrAt 6 cfg5.N
      = Cert.Net.bnResRelu (A := 100000) (V c main_v96) (V c main_v110) (V c main_v111) (V c main_v112) (V c main_v113) (V c main_v72) :=
  (dat5 (F := Ideal) V c).arrAt_eq_of_cover 6 _ (fun t _ => flushed5_eq V c t) cover5

end Cert.KernelIdeal.Regions

end
-- ==== Proof.RegBn8.lean ====
/-
  Region 8: normalisation with a residual, followed by the maximum with zero, tiled over the rows.

  The region's grid has 20 points.  Point t reads rows 5000 t ... 5000 t + 4999 of the two 100000 x 64 input arrays (the
  layer's output and the residual) and the whole of the four one-row arrays (scale, shift, column mean, column variance),
  and writes rows 5000 t ... 5000 t + 4999 of the 100000 x 64 output array.  The body's arithmetic on a block is, entry by
  entry, (y - mean) * rsqrt (variance + epsilon) * scale + shift + residual, then the maximum with zero, the one-row
  arrays spread down the rows: the stage `Cert.Net.bnResRelu` on a block of 5000 rows.  The stage is row-local, so the
  block point t writes is rows 5000 t ... of the stage applied to the whole arrays; the 20 blocks tile the output array
  (row r lies in the block of point r / 5000), so the output array after the region is the stage applied to the whole
  arrays.
-/
import proofs.«130402_j14499809591446_2_alg».proof.Proof.Gen.KernelIdeal.Frame
import proofs.«130402_j14499809591446_2_alg».proof.Proof.Net
import proofs.«130402_j14499809591446_2_alg».proof.Proof.LibRowLayout
import proofs.«130402_j14499809591446_2_alg».proof.Proof.RegBnCommon
import Idealize.ShloMosaic.Lib.Pipeline.Value

set_option maxRecDepth 16384

noncomputable section

namespace Cert.KernelIdeal.Regions

open Cert.KernelIdeal Cert.KernelIdeal.Gen Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

/-- The body's one stored value at an entry of the block: the input entry minus the column's mean, times the reciprocal
    square root of the column's variance plus epsilon, times the column's scale, plus the column's shift, plus the
    residual's entry, then the maximum with zero.  (A cast to the same shape is the identity; a one-row array spread down
    the rows reads its entry of the same column.) -/
theorem pay8_apply (x0 : Vec Ideal S5000x64 .f32) (mu var g bt : Vec Ideal S1x64 .f32) (h : Vec Ideal S5000x64 .f32) (p : Fin 5000) (q : Fin 64) :
    k8_pay1 x0 mu var g bt h (ix2 p q) = Cert.Net.bnResRelu (A := 5000) x0 g bt mu var h (ix2 p q) := by
  unfold k8_pay1
  simp only [shapeCast_self]
  rw [maximumf_apply, addf_apply, addf_apply, mulf_apply, mulf_apply, subf_apply, Cert.LibRowLayout.broadcastTo_1b_ab_apply,
    Cert.LibRowLayout.broadcastTo_1b_ab_apply, Cert.LibRowLayout.broadcastTo_1b_ab_apply, Cert.LibRowLayout.broadcastTo_1b_ab_apply]
  rfl

/-- So the stored value is the stage on the block. -/
theorem pay8_eq (x0 : Vec Ideal S5000x64 .f32) (mu var g bt : Vec Ideal S1x64 .f32) (h : Vec Ideal S5000x64 .f32) :
    k8_pay1 x0 mu var g bt h = Cert.Net.bnResRelu (A := 5000) x0 g bt mu var h := by
  funext i
  obtain ⟨p, q, rfl⟩ : ∃ (p : Fin 5000) (q : Fin 64), i = ix2 p q := ⟨i 0, i 1, eq_ix2 i⟩
  exact pay8_apply x0 mu var g bt h p q

/-! ## The printed index maps, decided over the 20 grid points -/

/-- Window 0 moves with the point along the rows: at point t its block is block (t, 0). -/
theorem idx8_0 : ∀ t : Fin cfg8.N, win8_0.index t (0 : Fin 2) = t.val ∧ win8_0.index t (1 : Fin 2) = 0 :=
  (by decide +kernel : ∀ t : Fin grid8.N, _)

/-- Window 1 stays: at every point its block is block (0, 0). -/
theorem idx8_1 : ∀ t : Fin cfg8.N, win8_1.index t (0 : Fin 2) = 0 ∧ win8_1.index t (1 : Fin 2) = 0 :=
  (by decide +kernel : ∀ t : Fin grid8.N, _)

/-- Window 2 stays: at every point its block is block (0, 0). -/
theorem idx8_2 : ∀ t : Fin cfg8.N, win8_2.index t (0 : Fin 2) = 0 ∧ win8_2.index t (1 : Fin 2) = 0 :=
  (by decide +kernel : ∀ t : Fin grid8.N, _)

/-- Window 3 stays: at every point its block is block (0, 0). -/
theorem idx8_3 : ∀ t : Fin cfg8.N, win8_3.index t (0 : Fin 2) = 0 ∧ win8_3.index t (1 : Fin 2) = 0 :=
  (by decide +kernel : ∀ t : Fin grid8.N, _)

/-- Window 4 stays: at every point its block is block (0, 0). -/
theorem idx8_4 : ∀ t : Fin cfg8.N, win8_4.index t (0 : Fin 2) = 0 ∧ win8_4.index t (1 : Fin 2) = 0 :=
  (by decide +kernel : ∀ t : Fin grid8.N, _)

/-- Window 5 moves with the point along the rows: at point t its block is block (t, 0). -/
theorem idx8_5 : ∀ t : Fin cfg8.N, win8_5.index t (0 : Fin 2) = t.val ∧ win8_5.index t (1 : Fin 2) = 0 :=
  (by decide +kernel : ∀ t : Fin grid8.N, _)

/-- Window 6 moves with the point along the rows: at point t its block is block (t, 0). -/
theorem idx8_6 : ∀ t : Fin cfg8.N, win8_6.index t (0 : Fin 2) = t.val ∧ win8_6.index t (1 : Fin 2) = 0 :=
  (by decide +kernel : ∀ t : Fin grid8.N, _)

/-! ## The input windows' blocks, read off the arrays -/

/-- Row p' of window 0's block at point t is row 5000 t + p' of its array. -/
theorem rows8_0 (c : Dev nD) (t : Fin cfg8.N) (p' : Fin 5000) (p : Fin 100000) (k : Fin 64) (hp : p.val = t.val * 5000 + p'.val) :
    (iblk8 V c 0 t : Vec Ideal S5000x64 .f32) (ix2 p' k) = (V c main_v156 : S100000x64.Idx → EReal) (ix2 p k) := by
  obtain ⟨e0, e1⟩ := idx8_0 t
  show V c main_v156 (((cfg8.win 0).blk t).view.emb (ix2 p' k)) = V c main_v156 (ix2 p k)
  congr 1
  funext a; apply Fin.ext
  match a with
  | ⟨0, _⟩ => show win8_0.index t (0 : Fin 2) * 5000 + 1 * p'.val = p.val; omega
  | ⟨1, _⟩ => show win8_0.index t (1 : Fin 2) * 64 + 1 * k.val = k.val; omega

/-- Window 1's block has its array's shape and sits at block (0, 0): it is the whole array. -/
theorem whole8_1 (c : Dev nD) (t : Fin cfg8.N) : (iblk8 V c 1 t : Vec Ideal S1x64 .f32) = V c main_v170 := by
  obtain ⟨e0, e1⟩ := idx8_1 t
  funext y
  show V c main_v170 (((cfg8.win 1).blk t).view.emb y) = V c main_v170 y
  congr 1
  funext a; apply Fin.ext
  match a with
  | ⟨0, _⟩ => show win8_1.index t (0 : Fin 2) * 1 + 1 * (y 0).val = (y 0).val; omega
  | ⟨1, _⟩ => show win8_1.index t (1 : Fin 2) * 64 + 1 * (y 1).val = (y 1).val; omega

/-- Window 2's block has its array's shape and sits at block (0, 0): it is the whole array. -/
theorem whole8_2 (c : Dev nD) (t : Fin cfg8.N) : (iblk8 V c 2 t : Vec Ideal S1x64 .f32) = V c main_v171 := by
  obtain ⟨e0, e1⟩ := idx8_2 t
  funext y
  show V c main_v171 (((cfg8.win 2).blk t).view.emb y) = V c main_v171 y
  congr 1
  funext a; apply Fin.ext
  match a with
  | ⟨0, _⟩ => show win8_2.index t (0 : Fin 2) * 1 + 1 * (y 0).val = (y 0).val; omega
  | ⟨1, _⟩ => show win8_2.index t (1 : Fin 2) * 64 + 1 * (y 1).val = (y 1).val; omega

/-- Window 3's block has its array's shape and sits at block (0, 0): it is the whole array. -/
theorem whole8_3 (c : Dev nD) (t : Fin cfg8.N) : (iblk8 V c 3 t : Vec Ideal S1x64 .f32) = V c main_v172 := by
  obtain ⟨e0, e1⟩ := idx8_3 t
  funext y
  show V c main_v172 (((cfg8.win 3).blk t).view.emb y) = V c main_v172 y
  congr 1
  funext a; apply Fin.ext
  match a with
  | ⟨0, _⟩ => show win8_3.index t (0 : Fin 2) * 1 + 1 * (y 0).val = (y 0).val; omega
  | ⟨1, _⟩ => show win8_3.index t (1 : Fin 2) * 64 + 1 * (y 1).val = (y 1).val; omega

/-- Window 4's block has its array's shape and sits at block (0, 0): it is the whole array. -/
theorem whole8_4 (c : Dev nD) (t : Fin cfg8.N) : (iblk8 V c 4 t : Vec Ideal S1x64 .f32) = V c main_v173 := by
  obtain ⟨e0, e1⟩ := idx8_4 t
  funext y
  show V c main_v173 (((cfg8.win 4).blk t).view.emb y) = V c main_v173 y
  congr 1
  funext a; apply Fin.ext
  match a with
  | ⟨0, _⟩ => show win8_4.index t (0 : Fin 2) * 1 + 1 * (y 0).val = (y 0).val; omega
  | ⟨1, _⟩ => show win8_4.index t (1 : Fin 2) * 64 + 1 * (y 1).val = (y 1).val; omega

/-- Row p' of window 5's block at point t is row 5000 t + p' of its array. -/
theorem rows8_5 (c : Dev nD) (t : Fin cfg8.N) (p' : Fin 5000) (p : Fin 100000) (k : Fin 64) (hp : p.val = t.val * 5000 + p'.val) :
    (iblk8 V c 5 t : Vec Ideal S5000x64 .f32) (ix2 p' k) = (V c main_v132 : S100000x64.Idx → EReal) (ix2 p k) := by
  obtain ⟨e0, e1⟩ := idx8_5 t
  show V c main_v132 (((cfg8.win 5).blk t).view.emb (ix2 p' k)) = V c main_v132 (ix2 p k)
  congr 1
  funext a; apply Fin.ext
  match a with
  | ⟨0, _⟩ => show win8_5.index t (0 : Fin 2) * 5000 + 1 * p'.val = p.val; omega
  | ⟨1, _⟩ => show win8_5.index t (1 : Fin 2) * 64 + 1 * k.val = k.val; omega

/-! ## What a point writes back, and the array after the region -/

/-- WHAT POINT t WRITES BACK is block t of the stage applied to the whole arrays as the region finds them: the body's stored
    value is the stage on the point's blocks, the small arrays' blocks are the arrays, and row p' of a row-indexed block
    is row 5000 t + p' of its array, which is the row the output block's row p' lands on. -/
theorem flushed8_eq (c : Dev nD) (t : Fin cfg8.N) :
    (dat8 (F := Ideal) V c).flushed 6 t
      = ((cfg8.win 6).blk t).view.read (Elt Ideal)
          (Cert.Net.bnResRelu (A := 100000) (V c main_v156) (V c main_v170) (V c main_v171) (V c main_v172) (V c main_v173) (V c main_v132)) := by
  show (cfg8.win 6).cut (grid8.coords t) ((dat8 V c).after 6 t) = _
  rw [after8_6]
  unfold out8_6
  rw [View.canon_unit_zero hz]
  simp only [View.ld_unit_zero (S := S5000x64) hz, View.ld_unit_zero (S := S1x64) hz]
  rw [pay8_eq, whole8_1, whole8_2, whole8_3, whole8_4]
  obtain ⟨e0, e1⟩ := idx8_6 t
  funext j
  refine bnResRelu_block (A := 100000) (A' := 5000) (V c main_v156) (iblk8 V c 0 t) (V c main_v170) (V c main_v171) (V c main_v172) (V c main_v173) (V c main_v132) (iblk8 V c 5 t)
    ((cfg8.win 6).xinj (grid8.coords t) j) (((cfg8.win 6).blk t).view.emb j) ?_ ?_ ?_
  · show (j 1).val = win8_6.index t (1 : Fin 2) * 64 + 1 * (j 1).val
    omega
  · intro p' p k hp' hp
    refine rows8_0 V c t p' p k ?_
    have hp2 : p.val = win8_6.index t (0 : Fin 2) * 5000 + 1 * (j 0).val := hp
    have hp3 : p'.val = (j 0).val := hp'
    omega
  · intro p' p k hp' hp
    refine rows8_5 V c t p' p k ?_
    have hp2 : p.val = win8_6.index t (0 : Fin 2) * 5000 + 1 * (j 0).val := hp
    have hp3 : p'.val = (j 0).val := hp'
    omega

/-- An index of the output array is in point t's block iff each coordinate is in the block's range on its axis. -/
theorem mem_blk8 (t : Fin cfg8.N) (i : S100000x64.Idx) :
    i ∈ ((cfg8.win 6).blk t).view.set ↔ ∀ a : Fin 2, win8_6.index t a * S5000x64.size a ≤ (i a).val ∧ (i a).val < win8_6.index t a * S5000x64.size a + S5000x64.size a := by
  show i ∈ ((View.whole main_v174).slice (win8_6.rect t)).set ↔ _
  rw [View.set_slice_whole, Rect.mem_set_unit]
  exact Iff.rfl

/-- The 20 blocks tile the output array: row r is in the block of point r / 5000. -/
theorem cover8 (i : S100000x64.Idx) : ∃ t : Fin cfg8.N, (cfg8.win 6).flush t = true ∧ i ∈ ((cfg8.win 6).blk t).view.set := by
  have hN : cfg8.N = 20 := N_8
  have hi0 : (i 0).val < 100000 := (i 0).isLt
  have hi1 : (i 1).val < 64 := (i 1).isLt
  let t : Fin cfg8.N := ⟨(i 0).val / 5000, by rw [hN]; omega⟩
  have ht : t.val = (i 0).val / 5000 := rfl
  obtain ⟨e0, e1⟩ := idx8_6 t
  refine ⟨t, flush8_6 t, ?_⟩
  rw [mem_blk8]
  intro a
  match a with
  | ⟨0, _⟩ => show win8_6.index t (0 : Fin 2) * 5000 ≤ (i 0).val ∧ (i 0).val < win8_6.index t (0 : Fin 2) * 5000 + 5000; omega
  | ⟨1, _⟩ => show win8_6.index t (1 : Fin 2) * 64 ≤ (i 1).val ∧ (i 1).val < win8_6.index t (1 : Fin 2) * 64 + 64; omega

/-- THE OUTPUT ARRAY after the region is the stage applied to the input arrays as the region finds them. -/
theorem final8 (c : Dev nD) :
    (dat8 (F := Ideal) V c).arrAt 6 cfg8.N
      = Cert.Net.bnResRelu (A := 100000) (V c main_v156) (V c main_v170) (V c main_v171) (V c main_v172) (V c main_v173) (V c main_v132) :=
  (dat8 (F := Ideal) V c).arrAt_eq_of_cover 6 _ (fun t _ => flushed8_eq V c t) cover8

end Cert.KernelIdeal.Regions

end
-- ==== Proof.RegBnCls11.lean ====
/-
  Region 11: the last normalisation with its residual, the maximum with zero, and the classifier's matrix product, tiled
  over the rows.

  The region's grid has 20 points.  Point t reads rows 5000 t ... 5000 t + 4999 of the two 100000 x 64 input arrays (the
  layer's output and the residual), the whole of the four one-row arrays (scale, shift, column mean, column variance), the
  whole 64 x 16 weight array and the whole one-row bias, and writes rows 5000 t ... 5000 t + 4999 of the 100000 x 16
  output array.  On a block the body first forms, entry by entry, the maximum with zero of
  (y - mean) * rsqrt (variance + epsilon) * scale + shift + residual; then entry (p, c) of its result is the sum over k of
  that block's entry (p, k) times the weight's entry (k, c) (a matrix product into a zero accumulator; the change of float
  format before it is the identity on extended reals), plus the bias's entry c: the stage `Cert.Net.classifier` on a block
  of 5000 rows.  Entry (p, c) uses row p of the two row-indexed operands only, so the block point t writes is rows
  5000 t ... of the stage applied to the whole arrays; the 20 blocks tile the output array (row r lies in the block of
  point r / 5000), so the output array after the region is the stage applied to the whole arrays.
-/
import proofs.«130402_j14499809591446_2_alg».proof.Proof.Gen.KernelIdeal.Frame
import proofs.«130402_j14499809591446_2_alg».proof.Proof.Net
import proofs.«130402_j14499809591446_2_alg».proof.Proof.LibRowLayout
import proofs.«130402_j14499809591446_2_alg».proof.Proof.LibPlainDotFormats
import proofs.«130402_j14499809591446_2_alg».proof.Proof.RegBnCommon
import Idealize.ShloMosaic.Lib.Pipeline.Value

set_option maxRecDepth 16384

noncomputable section

namespace Cert.KernelIdeal.Regions

open Cert.KernelIdeal Cert.KernelIdeal.Gen Idealize.ShloMosaic Idealize.ShloMosaic.ValueIdx Idealize.ShloMosaic.TcCoe
open Idealize.ShloMosaic.Pipeline (Dat)
open scoped BigOperators

variable (V : (c : Dev nD) → (b : Ref sig .tc) → Buf (Elt Ideal) ((c : Thread nD τ).loc b))

/-- The body's matrix product has plain dimension numbers: the second axis of the 5000 x 64 operand against the first
    axis of the 64 x 16 operand, no batch axis. -/
theorem plain11 : Cert.LibPlainDot.Plain dot_S5000x64_S64x16_S5000x16_1_0_0_1_n_n := ⟨rfl, rfl, rfl, rfl, rfl, rfl⟩

/-- The body's one stored value at an entry (p, q) of the block: the sum over k of the normalised block's entry (p, k)
    times the weight's entry (k, q), plus the bias's entry q.  (A cast to the same shape and a change of float format are
    the identity; a one-row array spread down the rows reads its entry of the same column.) -/
theorem pay11_apply (x0 : Vec Ideal S5000x64 .f32) (mu var g bt : Vec Ideal S1x64 .f32) (h : Vec Ideal S5000x64 .f32)
    (fcW : Vec Ideal S64x16 .f32) (fcb : Vec Ideal S1x16 .f32) (p : Fin 5000) (q : Fin 16) :
    k11_pay1 x0 mu var g bt h fcW fcb (ix2 p q) = Cert.Net.classifier (A := 5000) x0 g bt mu var h fcW fcb (ix2 p q) := by
  unfold k11_pay1
  simp only [shapeCast_self]
  rw [addf_apply, Cert.LibRowLayout.broadcastTo_1b_ab_apply]
  refine congrArg (· + fcb (ix2 (0 : Fin 1) q)) ?_
  refine (Cert.LibPlainDot.Plain.matmul_zero_apply_formats plain11 none _ _ p q).trans ?_
  refine Finset.sum_congr rfl fun k _ => ?_
  rw [truncf_apply, truncf_apply, maximumf_apply, addf_apply, addf_apply, mulf_apply, mulf_apply, subf_apply,
    Cert.LibRowLayout.broadcastTo_1b_ab_apply, Cert.LibRowLayout.broadcastTo_1b_ab_apply, Cert.LibRowLayout.broadcastTo_1b_ab_apply,
    Cert.LibRowLayout.broadcastTo_1b_ab_apply]
  rfl

/-- So the stored value is the stage on the block. -/
theorem pay11_eq (x0 : Vec Ideal S5000x64 .f32) (mu var g bt : Vec Ideal S1x64 .f32) (h : Vec Ideal S5000x64 .f32)
    (fcW : Vec Ideal S64x16 .f32) (fcb : Vec Ideal S1x16 .f32) :
    k11_pay1 x0 mu var g bt h fcW fcb = Cert.Net.classifier (A := 5000) x0 g bt mu var h fcW fcb := by
  funext i
  obtain ⟨p, q, rfl⟩ : ∃ (p : Fin 5000) (q : Fin 16), i = ix2 p q := ⟨i 0, i 1, eq_ix2 i⟩
  exact pay11_apply x0 mu var g bt h fcW fcb p q

/-! ## The printed index maps, decided over the 20 grid points -/

/-- Window 0 moves with the point along the rows: at point t its block is block (t, 0). -/
theorem idx11_0 : ∀ t : Fin cfg11.N, win11_0.index t (0 : Fin 2) = t.val ∧ win11_0.index t (1 : Fin 2) = 0 :=
  (by decide +kernel : ∀ t : Fin grid11.N, _)

/-- Window 1 stays: at every point its block is block (0, 0). -/
theorem idx11_1 : ∀ t : Fin cfg11.N, win11_1.index t (0 : Fin 2) = 0 ∧ win11_1.index t (1 : Fin 2) = 0 :=
  (by decide +kernel : ∀ t : Fin grid11.N, _)

/-- Window 2 stays: at every point its block is block (0, 0). -/
theorem idx11_2 : ∀ t : Fin cfg11.N, win11_2.index t (0 : Fin 2) = 0 ∧ win11_2.index t (1 : Fin 2) = 0 :=
  (by decide +kernel : ∀ t : Fin grid11.N, _)

/-- Window 3 stays: at every point its block is block (0, 0). -/
theorem idx11_3 : ∀ t : Fin cfg11.N, win11_3.index t (0 : Fin 2) = 0 ∧ win11_3.index t (1 : Fin 2) = 0 :=
  (by decide +kernel : ∀ t : Fin grid11.N, _)

/-- Window 4 stays: at every point its block is block (0, 0). -/
theorem idx11_4 : ∀ t : Fin cfg11.N, win11_4.index t (0 : Fin 2) = 0 ∧ win11_4.index t (1 : Fin 2) = 0 :=
  (by decide +kernel : ∀ t : Fin grid11.N, _)

/-- Window 5 moves with the point along the rows: at point t its block is block (t, 0). -/
theorem idx11_5 : ∀ t : Fin cfg11.N, win11_5.index t (0 : Fin 2) = t.val ∧ win11_5.index t (1 : Fin 2) = 0 :=
  (by decide +kernel : ∀ t : Fin grid11.N, _)

/-- Window 6 stays: at every point its block is block (0, 0). -/
theorem idx11_6 : ∀ t : Fin cfg11.N, win11_6.index t (0 : Fin 2) = 0 ∧ win11_6.index t (1 : Fin 2) = 0 :=
  (by decide +kernel : ∀ t : Fin grid11.N, _)

/-- Window 7 stays: at every point its block is block (0, 0). -/
theorem idx11_7 : ∀ t : Fin cfg11.N, win11_7.index t (0 : Fin 2) = 0 ∧ win11_7.index t (1 : Fin 2) = 0 :=
  (by decide +kernel : ∀ t : Fin grid11.N, _)

/-- Window 8 moves with the point along the rows: at point t its block is block (t, 0). -/
theorem idx11_8 : ∀ t : Fin cfg11.N, win11_8.index t (0 : Fin 2) = t.val ∧ win11_8.index t (1 : Fin 2) = 0 :=
  (by decide +kernel : ∀ t : Fin grid11.N, _)

/-! ## The input windows' blocks, read off the arrays -/

/-- Row p' of window 0's block at point t is row 5000 t + p' of its array. -/
theorem rows11_0 (c : Dev nD) (t : Fin cfg11.N) (p' : Fin 5000) (p : Fin 100000) (k : Fin 64) (hp : p.val = t.val * 5000 + p'.val) :
    (iblk11 V c 0 t : Vec Ideal S5000x64 .f32) (ix2 p' k) = (V c main_v216 : S100000x64.Idx → EReal) (ix2 p k) := by
  obtain ⟨e0, e1⟩ := idx11_0 t
  show V c main_v216 (((cfg11.win 0).blk t).view.emb (ix2 p' k)) = V c main_v216 (ix2 p k)
  congr 1
  funext a; apply Fin.ext
  match a with
  | ⟨0, _⟩ => show win11_0.index t (0 : Fin 2) * 5000 + 1 * p'.val = p.val; omega
  | ⟨1, _⟩ => show win11_0.index t (1 : Fin 2) * 64 + 1 * k.val = k.val; omega

/-- Window 1's block has its array's shape and sits at block (0, 0): it is the whole array. -/
theorem whole11_1 (c : Dev nD) (t : Fin cfg11.N) : (iblk11 V c 1 t : Vec Ideal S1x64 .f32) = V c main_v230 := by
  obtain ⟨e0, e1⟩ := idx11_1 t
  funext y
  show V c main_v230 (((cfg11.win 1).blk t).view.emb y) = V c main_v230 y
  congr 1
  funext a; apply Fin.ext
  match a with
  | ⟨0, _⟩ => show win11_1.index t (0 : Fin 2) * 1 + 1 * (y 0).val = (y 0).val; omega
  | ⟨1, _⟩ => show win11_1.index t (1 : Fin 2) * 64 + 1 * (y 1).val = (y 1).val; omega

/-- Window 2's block has its array's shape and sits at block (0, 0): it is the whole array. -/
theorem whole11_2 (c : Dev nD) (t : Fin cfg11.N) : (iblk11 V c 2 t : Vec Ideal S1x64 .f32) = V c main_v231 := by
  obtain ⟨e0, e1⟩ := idx11_2 t
  funext y
  show V c main_v231 (((cfg11.win 2).blk t).view.emb y) = V c main_v231 y
  congr 1
  funext a; apply Fin.ext
  match a with
  | ⟨0, _⟩ => show win11_2.index t (0 : Fin 2) * 1 + 1 * (y 0).val = (y 0).val; omega
  | ⟨1, _⟩ => show win11_2.index t (1 : Fin 2) * 64 + 1 * (y 1).val = (y 1).val; omega

/-- Window 3's block has its array's shape and sits at block (0, 0): it is the whole array. -/
theorem whole11_3 (c : Dev nD) (t : Fin cfg11.N) : (iblk11 V c 3 t : Vec Ideal S1x64 .f32) = V c main_v232 := by
  obtain ⟨e0, e1⟩ := idx11_3 t
  funext y
  show V c main_v232 (((cfg11.win 3).blk t).view.emb y) = V c main_v232 y
  congr 1
  funext a; apply Fin.ext
  match a with
  | ⟨0, _⟩ => show win11_3.index t (0 : Fin 2) * 1 + 1 * (y 0).val = (y 0).val; omega
  | ⟨1, _⟩ => show win11_3.index t (1 : Fin 2) * 64 + 1 * (y 1).val = (y 1).val; omega

/-- Window 4's block has its array's shape and sits at block (0, 0): it is the whole array. -/
theorem whole11_4 (c : Dev nD) (t : Fin cfg11.N) : (iblk11 V c 4 t : Vec Ideal S1x64 .f32) = V c main_v233 := by
  obtain ⟨e0, e1⟩ := idx11_4 t
  funext y
  show V c main_v233 (((cfg11.win 4).blk t).view.emb y) = V c main_v233 y
  congr 1
  funext a; apply Fin.ext
  match a with
  | ⟨0, _⟩ => show win11_4.index t (0 : Fin 2) * 1 + 1 * (y 0).val = (y 0).val; omega
  | ⟨1, _⟩ => show win11_4.index t (1 : Fin 2) * 64 + 1 * (y 1).val = (y 1).val; omega

/-- Row p' of window 5's block at point t is row 5000 t + p' of its array. -/
theorem rows11_5 (c : Dev nD) (t : Fin cfg11.N) (p' : Fin 5000) (p : Fin 100000) (k : Fin 64) (hp : p.val = t.val * 5000 + p'.val) :
    (iblk11 V c 5 t : Vec Ideal S5000x64 .f32) (ix2 p' k) = (V c main_v192 : S100000x64.Idx → EReal) (ix2 p k) := by
  obtain ⟨e0, e1⟩ := idx11_5 t
  show V c main_v192 (((cfg11.win 5).blk t).view.emb (ix2 p' k)) = V c main_v192 (ix2 p k)
  congr 1
  funext a; apply Fin.ext
  match a with
  | ⟨0, _⟩ => show win11_5.index t (0 : Fin 2) * 5000 + 1 * p'.val = p.val; omega
  | ⟨1, _⟩ => show win11_5.index t (1 : Fin 2) * 64 + 1 * k.val = k.val; omega

/-- Window 6's block has its array's shape and sits at block (0, 0): it is the whole array. -/
theorem whole11_6 (c : Dev nD) (t : Fin cfg11.N) : (iblk11 V c 6 t : Vec Ideal S64x16 .f32) = V c main_arg19 := by
  obtain ⟨e0, e1⟩ := idx11_6 t
  funext y
  show V c main_arg19 (((cfg11.win 6).blk t).view.emb y) = V c main_arg19 y
  congr 1
  funext a; apply Fin.ext
  match a with
  | ⟨0, _⟩ => show win11_6.index t (0 : Fin 2) * 64 + 1 * (y 0).val = (y 0).val; omega
  | ⟨1, _⟩ => show win11_6.index t (1 : Fin 2) * 16 + 1 * (y 1).val = (y 1).val; omega

/-- Window 7's block has its array's shape and sits at block (0, 0): it is the whole array. -/
theorem whole11_7 (c : Dev nD) (t : Fin cfg11.N) : (iblk11 V c 7 t : Vec Ideal S1x16 .f32) = V c main_v234 := by
  obtain ⟨e0, e1⟩ := idx11_7 t
  funext y
  show V c main_v234 (((cfg11.win 7).blk t).view.emb y) = V c main_v234 y
  congr 1
  funext a; apply Fin.ext
  match a with
  | ⟨0, _⟩ => show win11_7.index t (0 : Fin 2) * 1 + 1 * (y 0).val = (y 0).val; omega
  | ⟨1, _⟩ => show win11_7.index t (1 : Fin 2) * 16 + 1 * (y 1).val = (y 1).val; omega

/-! ## What a point writes back, and the array after the region -/

/-- WHAT POINT t WRITES BACK is block t of the stage applied to the whole arrays as the region finds them: the body's stored
    value is the stage on the point's blocks, the small arrays' blocks are the arrays, and row p' of a row-indexed block
    is row 5000 t + p' of its array, which is the row the output block's row p' lands on. -/
theorem flushed11_eq (c : Dev nD) (t : Fin cfg11.N) :
    (dat11 (F := Ideal) V c).flushed 8 t
      = ((cfg11.win 8).blk t).view.read (Elt Ideal)
          (Cert.Net.classifier (A := 100000) (V c main_v216) (V c main_v230) (V c main_v231) (V c main_v232) (V c main_v233) (V c main_v192) (V c main_arg19) (V c main_v234)) := by
  show (cfg11.win 8).cut (grid11.coords t) ((dat11 V c).after 8 t) = _
  rw [after11_8]
  unfold out11_8
  rw [View.canon_unit_zero hz]
  simp only [View.ld_unit_zero (S := S5000x64) hz, View.ld_unit_zero (S := S1x64) hz, View.ld_unit_zero (S := S64x16) hz, View.ld_unit_zero (S := S1x16) hz, View.ld_unit_zero (S := S5000x16) hz]
  rw [pay11_eq, whole11_1, whole11_2, whole11_3, whole11_4, whole11_6, whole11_7]
  obtain ⟨e0, e1⟩ := idx11_8 t
  funext j
  refine classifier_block (A := 100000) (A' := 5000) (V c main_v216) (iblk11 V c 0 t) (V c main_v230) (V c main_v231) (V c main_v232) (V c main_v233) (V c main_v192) (iblk11 V c 5 t) (V c main_arg19) (V c main_v234)
    ((cfg11.win 8).xinj (grid11.coords t) j) (((cfg11.win 8).blk t).view.emb j) ?_ ?_ ?_
  · show (j 1).val = win11_8.index t (1 : Fin 2) * 16 + 1 * (j 1).val
    omega
  · intro p' p k hp' hp
    refine rows11_0 V c t p' p k ?_
    have hp2 : p.val = win11_8.index t (0 : Fin 2) * 5000 + 1 * (j 0).val := hp
    have hp3 : p'.val = (j 0).val := hp'
    omega
  · intro p' p k hp' hp
    refine rows11_5 V c t p' p k ?_
    have hp2 : p.val = win11_8.index t (0 : Fin 2) * 5000 + 1 * (j 0).val := hp
    have hp3 : p'.val = (j 0).val := hp'
    omega

/-- An index of the output array is in point t's block iff each coordinate is in the block's range on its axis. -/
theorem mem_blk11 (t : Fin cfg11.N) (i : S100000x16.Idx) :
    i ∈ ((cfg11.win 8).blk t).view.set ↔ ∀ a : Fin 2, win11_8.index t a * S5000x16.size a ≤ (i a).val ∧ (i a).val < win11_8.index t a * S5000x16.size a + S5000x16.size a := by
  show i ∈ ((View.whole main_v235).slice (win11_8.rect t)).set ↔ _
  rw [View.set_slice_whole, Rect.mem_set_unit]
  exact Iff.rfl

/-- The 20 blocks tile the output array: row r is in the block of point r / 5000. -/
theorem cover11 (i : S100000x16.Idx) : ∃ t : Fin cfg11.N, (cfg11.win 8).flush t = true ∧ i ∈ ((cfg11.win 8).blk t).view.set := by
  have hN : cfg11.N = 20 := N_11
  have hi0 : (i 0).val < 100000 := (i 0).isLt
  have hi1 : (i 1).val < 16 := (i 1).isLt
  let t : Fin cfg11.N := ⟨(i 0).val / 5000, by rw [hN]; omega⟩
  have ht : t.val = (i 0).val / 5000 := rfl
  obtain ⟨e0, e1⟩ := idx11_8 t
  refine ⟨t, flush11_8 t, ?_⟩
  rw [mem_blk11]
  intro a
  match a with
  | ⟨0, _⟩ => show win11_8.index t (0 : Fin 2) * 5000 ≤ (i 0).val ∧ (i 0).val < win11_8.index t (0 : Fin 2) * 5000 + 5000; omega
  | ⟨1, _⟩ => show win11_8.index t (1 : Fin 2) * 16 ≤ (i 1).val ∧ (i 1).val < win11_8.index t (1 : Fin 2) * 16 + 16; omega

/-- THE OUTPUT ARRAY after the region is the stage applied to the input arrays as the region finds them. -/
theorem final11 (c : Dev nD) :
    (dat11 (F := Ideal) V c).arrAt 8 cfg11.N
      = Cert.Net.classifier (A := 100000) (V c main_v216) (V c main_v230) (V c main_v231) (V c main_v232) (V c main_v233) (V c main_v192) (V c main_arg19) (V c main_v234) :=
  (dat11 (F := Ideal) V c).arrAt_eq_of_cover 8 _ (fun t _ => flushed11_eq V c t) cover11

end Cert.KernelIdeal.Regions

end
-- ==== Proof.RefRunBase.lean ====
/-
  Two small facts about a straight line of host operations, used by each window of the reference's run.

  An operation built by the library's builders writes exactly one buffer, its result.  If that buffer is one of a given
  list of references, then what the operation writes lies in the list (as device buffers); a reference outside a list
  holding every written buffer of a line keeps its contents through the line.
-/
import proofs.«130402_j14499809591446_2_alg».proof.ReferenceIdeal
import Idealize.ShloMosaic.Lib.StableHlo.Run

noncomputable section

namespace Cert.ReferenceIdeal.RefRun

open Idealize.ShloMosaic Idealize.ShloMosaic.StableHlo

variable {τ : Topo} {sig : RefSig} {Val : EltTy → Type}

/-- An operation whose only written buffer is the reference `y`, a member of the list `W`, writes inside `W`. -/
theorem writes_sub_of {op : HloOp τ sig Val} (y : Ref sig .tc) {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

end Cert.ReferenceIdeal.RefRun

end
-- ==== Proof.RefRunOps0.lean ====
/-
  The reference program's @main, statements 1 … 60 of 369 (its window `main_part0`), as a list of host operations.

  The window is a straight line: each statement is one host operation on whole buffers, or a call of one of the module's
  small functions (a clip from below, a maximum with zero, a column variance that in turn calls a select).  A call runs the
  callee's operations on the call's own buffers, so here the callee's operations are listed in place of the call, reading
  the call's operands and writing the buffers of that call's record; the buffer a call returns is the @main result it
  becomes.

  * `part0_eq`: the window IS that line (the functions unfolded at their calls, the sequencing re-associated).
  * `ops0_sub`: every operation touches TensorCore buffers only.
  * `ops0_fresh`: every operation determines its results.
  * `ops0_W`, `ops0_writes`, `ops0_keep`: the buffers the line writes, one per operation, and that any other
    buffer holds after the line what it held before.
-/
import proofs.«130402_j14499809591446_2_alg».proof.Proof.RefRunBase

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- The 68 operations of statements 1 … 60, in program order, callee bodies in place of their calls. -/
abbrev ops0 : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.TRef.unary (.of main_cst_1) main_call0.v0 id,
    StableHlo.TRef.unary main_call0.v0 main_call0.v1 (broadcastInDim S100000 ![] bcast_S_S100000),
    StableHlo.TRef.binary main_call0.v1 (.of main_v3) main_call0.v2 maximumf,
    StableHlo.nullary main_cst_2 (constant S_ .f32 0x00000000#32),
    StableHlo.unary main_cst_2 main_v5 (broadcastInDim S100000 ![] bcast_S_S100000 : (⟨S_, .f32⟩ : BufTy).Contents (Elt F) → (⟨S100000, .f32⟩ : BufTy).Contents (Elt F)),
    StableHlo.unary main_arg2 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v0 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.TRef.unary (.of main_cst_3) main_call1.v0 id,
    StableHlo.TRef.unary main_call1.v0 main_call1.v1 (broadcastInDim S100000 ![] bcast_S_S100000),
    StableHlo.TRef.binary main_call1.v1 (.of main_v7) main_call1.v2 maximumf,
    StableHlo.nullary main_cst_4 (constant S_ .f32 0xBF000000#32),
    StableHlo.unary main_cst_4 main_v9 (broadcastInDim S100000 ![] bcast_S_S100000 : (⟨S_, .f32⟩ : BufTy).Contents (Elt F) → (⟨S100000, .f32⟩ : BufTy).Contents (Elt F)),
    StableHlo.binary main_v4 main_v9 main_v10 (Host.powf : (⟨S100000, .f32⟩ : BufTy).Contents (Elt F) → (⟨S100000, .f32⟩ : BufTy).Contents (Elt F) → (⟨S100000, .f32⟩ : BufTy).Contents (Elt F)),
    StableHlo.nullary main_cst_5 (constant S_ .f32 0xBF000000#32),
    StableHlo.unary main_cst_5 main_v11 (broadcastInDim S100000 ![] bcast_S_S100000 : (⟨S_, .f32⟩ : BufTy).Contents (Elt F) → (⟨S100000, .f32⟩ : BufTy).Contents (Elt F)),
    StableHlo.binary main_v8 main_v11 main_v12 (Host.powf : (⟨S100000, .f32⟩ : BufTy).Contents (Elt F) → (⟨S100000, .f32⟩ : BufTy).Contents (Elt F) → (⟨S100000, .f32⟩ : BufTy).Contents (Elt F)),
    StableHlo.binary main_arg0 main_arg3 main_v13 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg4 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S100000x64 ![0, 1] bcast_S1x64_S100000x64_0_1 : (⟨S1x64, .f32⟩ : BufTy).Contents (Elt F) → (⟨S100000x64, .f32⟩ : BufTy).Contents (Elt F)),
    StableHlo.binary main_v13 main_v15 main_v16 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v16) main_call2.v0 main_call2.v1 maximumf,
    StableHlo.binary main_v17 main_arg5 main_v18 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg6 main_v19 (broadcastInDim S1x32 ![1] bcast_S32_S1x32_1 : (⟨S32, .f32⟩ : BufTy).Contents (Elt F) → (⟨S1x32, .f32⟩ : BufTy).Contents (Elt F)),
    StableHlo.unary main_v19 main_v20 (broadcastInDim S100000x32 ![0, 1] bcast_S1x32_S100000x32_0_1 : (⟨S1x32, .f32⟩ : BufTy).Contents (Elt F) → (⟨S100000x32, .f32⟩ : BufTy).Contents (Elt F)),
    StableHlo.binary main_v18 main_v20 main_v21 (addf : (⟨S100000x32, .f32⟩ : BufTy).Contents (Elt F) → (⟨S100000x32, .f32⟩ : BufTy).Contents (Elt F) → (⟨S100000x32, .f32⟩ : BufTy).Contents (Elt F)),
    StableHlo.TRef.nullary main_call3.cst (constant S_ .f32 0x00000000#32),
    StableHlo.TRef.unary main_call3.cst main_call3.v0 (broadcastInDim S100000x32 ![] bcast_S_S100000x32),
    StableHlo.TRef.binary (.of main_v21) main_call3.v0 main_call3.v1 maximumf,
    StableHlo.binary main_v22 main_arg7 main_v23 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg8 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (addf : (⟨S100000x128, .f32⟩ : BufTy).Contents (Elt F) → (⟨S100000x128, .f32⟩ : BufTy).Contents (Elt F) → (⟨S100000x128, .f32⟩ : BufTy).Contents (Elt F)),
    StableHlo.unary main_v10 main_v27 (broadcastInDim S100000x1 ![0] bcast_S100000_S100000x1_0 : (⟨S100000, .f32⟩ : BufTy).Contents (Elt F) → (⟨S100000x1, .f32⟩ : BufTy).Contents (Elt F)),
    StableHlo.unary main_v27 main_v28 (broadcastInDim S100000x128 ![0, 1] bcast_S100000x1_S100000x128_0_1 : (⟨S100000x1, .f32⟩ : BufTy).Contents (Elt F) → (⟨S100000x128, .f32⟩ : BufTy).Contents (Elt F)),
    StableHlo.binary main_v26 main_v28 main_v29 (mulf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v30 (broadcastInDim S1600000 ![] bcast_S_S1600000 : (⟨S_, .i32⟩ : BufTy).Contents (Elt F) → (⟨S1600000, .i32⟩ : BufTy).Contents (Elt F)),
    StableHlo.binary main_arg1 main_v30 main_v31 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v32 (broadcastInDim S1600000 ![] bcast_S_S1600000 : (⟨S_, .i32⟩ : BufTy).Contents (Elt F) → (⟨S1600000, .i32⟩ : BufTy).Contents (Elt F)),
    StableHlo.binary main_arg1 main_v32 main_v33 (addi : (⟨S1600000, .i32⟩ : BufTy).Contents (Elt F) → (⟨S1600000, .i32⟩ : BufTy).Contents (Elt F) → (⟨S1600000, .i32⟩ : BufTy).Contents (Elt F)),
    StableHlo.ternary main_v31 main_v33 main_arg1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v34 main_v35 (broadcastInDim S1600000x1 ![0] bcast_S1600000_S1600000x1_0 : (⟨S1600000, .i32⟩ : BufTy).Contents (Elt F) → (⟨S1600000x1, .i32⟩ : BufTy).Contents (Elt F)),
    StableHlo.binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v37 (broadcastInDim S100000x128 ![] bcast_S_S100000x128 : (⟨S_, .f32⟩ : BufTy).Contents (Elt F) → (⟨S100000x128, .f32⟩ : BufTy).Contents (Elt F)),
    StableHlo.unary main_arg2 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v40 (broadcastInDim S100000x1 ![0] bcast_S100000_S100000x1_0 : (⟨S100000, .f32⟩ : BufTy).Contents (Elt F) → (⟨S100000x1, .f32⟩ : BufTy).Contents (Elt F)),
    StableHlo.unary main_v40 main_v41 (broadcastInDim S100000x128 ![0, 1] bcast_S100000x1_S100000x128_0_1 : (⟨S100000x1, .f32⟩ : BufTy).Contents (Elt F) → (⟨S100000x128, .f32⟩ : BufTy).Contents (Elt F)),
    StableHlo.binary main_v39 main_v41 main_v42 (mulf : (⟨S100000x128, .f32⟩ : BufTy).Contents (Elt F) → (⟨S100000x128, .f32⟩ : BufTy).Contents (Elt F) → (⟨S100000x128, .f32⟩ : BufTy).Contents (Elt F)),
    StableHlo.binary main_v42 main_arg13 main_v43 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg14 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.unary main_arg17 main_v47 ((extractStridedSlice S1x64 ![0, 0] · slices_S4x64_S1x64_0_0) : (⟨S4x64, .f32⟩ : BufTy).Contents (Elt F) → (⟨S1x64, .f32⟩ : BufTy).Contents (Elt F)),
    StableHlo.reshape main_v47 main_v48 rfl shapeCasts_S1x64_S64,
    StableHlo.unary main_arg18 main_v49 ((extractStridedSlice S1x64 ![0, 0] · slices_S4x64_S1x64_0_0) : (⟨S4x64, .f32⟩ : BufTy).Contents (Elt F) → (⟨S1x64, .f32⟩ : BufTy).Contents (Elt F)) ]

set_option maxRecDepth 4096 in
set_option maxHeartbeats 4000000 in
/-- The window is that straight line. -/
theorem part0_eq (c : Dev nD) : main_part0 (F := F) c = seq ops0 := by
  simp only [main_part0, fn_clip.body, fn_relu.body, fn_relu_0.body, fn_var.body, fn_where.body, seq, bind_assoc, pure_bind] <;> rfl

/-- Every operation of the window touches TensorCore buffers only. -/
theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., binary_bufs_sub .., nullary_bufs_sub .., unary_bufs_sub ..,
    unary_bufs_sub .., ternary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., unary_bufs_sub .., unary_bufs_sub .., binary_bufs_sub .., unary_bufs_sub ..,
    reshape_bufs_sub .., unary_bufs_sub ..⟩

/-- Every operation of the window determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

/-- The buffers the window's operations write, in program order (each operation writes one, its result). -/
abbrev ops0_W : List (Ref sig .tc) :=
  [main_cst, main_v0, main_cst_0, main_v1, main_v2, main_v3, main_cst_1, main_call0.v0.ref,
    main_call0.v1.ref, main_call0.v2.ref, main_cst_2, main_v5, main_v6, main_v7, main_cst_3, main_call1.v0.ref,
    main_call1.v1.ref, main_call1.v2.ref, main_cst_4, main_v9, main_v10, main_cst_5, main_v11, main_v12,
    main_v13, main_v14, main_v15, main_v16, main_call2.cst.ref, main_call2.v0.ref, main_call2.v1.ref, main_v18,
    main_v19, main_v20, main_v21, main_call3.cst.ref, main_call3.v0.ref, main_call3.v1.ref, main_v23, main_v24,
    main_v25, main_v26, main_v27, main_v28, main_v29, main_c, main_v30, main_v31,
    main_c_6, main_v32, main_v33, main_v34, main_v35, main_v36, main_cst_7, main_v37,
    main_v38, main_v39, main_v40, main_v41, main_v42, main_v43, main_v44, main_v45,
    main_v46, main_v47, main_v48, main_v49]

/-- Each operation writes inside that list. -/
theorem ops0_writes : (ops0 : List (HloOp τ sig (Elt F))).Forall fun op =>
    op.writes ⊆ (ops0_W.map (Proc.devRef (τ := τ) .tc)).toFinset :=
  ⟨writes_sub_of main_cst rfl (by decide), writes_sub_of main_v0 rfl (by decide), writes_sub_of main_cst_0 rfl (by decide),
    writes_sub_of main_v1 rfl (by decide), writes_sub_of main_v2 rfl (by decide), writes_sub_of main_v3 rfl (by decide),
    writes_sub_of main_cst_1 rfl (by decide), writes_sub_of (main_call0.v0.ref) rfl (by decide), writes_sub_of (main_call0.v1.ref) rfl (by decide),
    writes_sub_of (main_call0.v2.ref) rfl (by decide), writes_sub_of main_cst_2 rfl (by decide), writes_sub_of main_v5 rfl (by decide),
    writes_sub_of main_v6 rfl (by decide), writes_sub_of main_v7 rfl (by decide), writes_sub_of main_cst_3 rfl (by decide),
    writes_sub_of (main_call1.v0.ref) rfl (by decide), writes_sub_of (main_call1.v1.ref) rfl (by decide), writes_sub_of (main_call1.v2.ref) rfl (by decide),
    writes_sub_of main_cst_4 rfl (by decide), writes_sub_of main_v9 rfl (by decide), writes_sub_of main_v10 rfl (by decide),
    writes_sub_of main_cst_5 rfl (by decide), writes_sub_of main_v11 rfl (by decide), writes_sub_of main_v12 rfl (by decide),
    writes_sub_of main_v13 rfl (by decide), writes_sub_of main_v14 rfl (by decide), writes_sub_of main_v15 rfl (by decide),
    writes_sub_of main_v16 rfl (by decide), writes_sub_of (main_call2.cst.ref) rfl (by decide), writes_sub_of (main_call2.v0.ref) rfl (by decide),
    writes_sub_of (main_call2.v1.ref) rfl (by decide), writes_sub_of main_v18 rfl (by decide), writes_sub_of main_v19 rfl (by decide),
    writes_sub_of main_v20 rfl (by decide), writes_sub_of main_v21 rfl (by decide), writes_sub_of (main_call3.cst.ref) rfl (by decide),
    writes_sub_of (main_call3.v0.ref) rfl (by decide), writes_sub_of (main_call3.v1.ref) rfl (by decide), writes_sub_of main_v23 rfl (by decide),
    writes_sub_of main_v24 rfl (by decide), writes_sub_of main_v25 rfl (by decide), writes_sub_of main_v26 rfl (by decide),
    writes_sub_of main_v27 rfl (by decide), writes_sub_of main_v28 rfl (by decide), writes_sub_of main_v29 rfl (by decide),
    writes_sub_of main_c rfl (by decide), writes_sub_of main_v30 rfl (by decide), writes_sub_of main_v31 rfl (by decide),
    writes_sub_of main_c_6 rfl (by decide), writes_sub_of main_v32 rfl (by decide), writes_sub_of main_v33 rfl (by decide),
    writes_sub_of main_v34 rfl (by decide), writes_sub_of main_v35 rfl (by decide), writes_sub_of main_v36 rfl (by decide),
    writes_sub_of main_cst_7 rfl (by decide), writes_sub_of main_v37 rfl (by decide), writes_sub_of main_v38 rfl (by decide),
    writes_sub_of main_v39 rfl (by decide), writes_sub_of main_v40 rfl (by decide), writes_sub_of main_v41 rfl (by decide),
    writes_sub_of main_v42 rfl (by decide), writes_sub_of main_v43 rfl (by decide), writes_sub_of main_v44 rfl (by decide),
    writes_sub_of main_v45 rfl (by decide), writes_sub_of main_v46 rfl (by decide), writes_sub_of main_v47 rfl (by decide),
    writes_sub_of main_v48 rfl (by decide), writes_sub_of main_v49 rfl (by decide)⟩

/-- A buffer the window does not write holds after it what it held before. -/
theorem ops0_keep (V : Valuation τ sig (Elt F)) (r : Ref sig .tc) (h : r ∉ ops0_W) :
    after ops0 V (Proc.devRef .tc r) = V (Proc.devRef .tc r) :=
  after_of_writes_sub ops0 V ops0_writes h

end Cert.ReferenceIdeal.RefRun

end
-- ==== Proof.RefRunOps1.lean ====
/-
  The reference program's @main, statements 61 … 120 of 369 (its window `main_part1`), as a list of host operations.

  The window is a straight line: each statement is one host operation on whole buffers, or a call of one of the module's
  small functions (a clip from below, a maximum with zero, a column variance that in turn calls a select).  A call runs the
  callee's operations on the call's own buffers, so here the callee's operations are listed in place of the call, reading
  the call's operands and writing the buffers of that call's record; the buffer a call returns is the @main result it
  becomes.

  * `part1_eq`: the window IS that line (the functions unfolded at their calls, the sequencing re-associated).
  * `ops1_sub`: every operation touches TensorCore buffers only.
  * `ops1_fresh`: every operation determines its results.
  * `ops1_W`, `ops1_writes`, `ops1_keep`: the buffers the line writes, one per operation, and that any other
    buffer holds after the line what it held before.
-/
import proofs.«130402_j14499809591446_2_alg».proof.Proof.RefRunBase

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- The 85 operations of statements 61 … 120, in program order, callee bodies in place of their calls. -/
abbrev ops1 : List (HloOp τ sig (Elt F)) :=
  [ StableHlo.reshape main_v49 main_v50 rfl shapeCasts_S1x64_S64,
    StableHlo.nullary main_cst_8 (constant S_ .f32 0x00000000#32),
    StableHlo.binary main_v46 main_cst_8 main_v51 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v52 (broadcastInDim S64 ![] bcast_S_S64 : (⟨S_, .f32⟩ : BufTy).Contents (Elt F) → (⟨S64, .f32⟩ : BufTy).Contents (Elt F)),
    StableHlo.binary main_v51 main_v52 main_v53 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call4.cst (constant S_ .f32 0x00000000#32),
    StableHlo.TRef.binary (.of main_v46) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v46) main_call4.v4 main_call4.v5 subf,
    StableHlo.TRef.binary main_call4.v5 main_call4.v5 main_call4.v6 mulf,
    StableHlo.TRef.unary (.of main_c_10) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v53 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v46 main_v56 main_v57 (subf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v58 (broadcastInDim S64 ![] bcast_S_S64 : (⟨S_, .f32⟩ : BufTy).Contents (Elt F) → (⟨S64, .f32⟩ : BufTy).Contents (Elt F)),
    StableHlo.binary main_v54 main_v58 main_v59 (addf : (⟨S64, .f32⟩ : BufTy).Contents (Elt F) → (⟨S64, .f32⟩ : BufTy).Contents (Elt F) → (⟨S64, .f32⟩ : BufTy).Contents (Elt F)),
    StableHlo.unary main_v59 main_v60 (Host.rsqrt : (⟨S64, .f32⟩ : BufTy).Contents (Elt F) → (⟨S64, .f32⟩ : BufTy).Contents (Elt F)),
    StableHlo.unary main_v60 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v62 main_v63 (mulf : (⟨S100000x64, .f32⟩ : BufTy).Contents (Elt F) → (⟨S100000x64, .f32⟩ : BufTy).Contents (Elt F) → (⟨S100000x64, .f32⟩ : BufTy).Contents (Elt F)),
    StableHlo.unary main_v48 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (mulf : (⟨S100000x64, .f32⟩ : BufTy).Contents (Elt F) → (⟨S100000x64, .f32⟩ : BufTy).Contents (Elt F) → (⟨S100000x64, .f32⟩ : BufTy).Contents (Elt F)),
    StableHlo.unary main_v50 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v68 main_v69 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v69) main_call5.v0 main_call5.v1 maximumf,
    StableHlo.nullary main_c_12 (constantI S_ 32 0#32),
    StableHlo.unary main_c_12 main_v71 (broadcastInDim S1600000 ![] bcast_S_S1600000 : (⟨S_, .i32⟩ : BufTy).Contents (Elt F) → (⟨S1600000, .i32⟩ : BufTy).Contents (Elt F)),
    StableHlo.binary main_arg1 main_v71 main_v72 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v73 (broadcastInDim S1600000 ![] bcast_S_S1600000 : (⟨S_, .i32⟩ : BufTy).Contents (Elt F) → (⟨S1600000, .i32⟩ : BufTy).Contents (Elt F)),
    StableHlo.binary main_arg1 main_v73 main_v74 (addi : (⟨S1600000, .i32⟩ : BufTy).Contents (Elt F) → (⟨S1600000, .i32⟩ : BufTy).Contents (Elt F) → (⟨S1600000, .i32⟩ : BufTy).Contents (Elt F)),
    StableHlo.ternary main_v72 main_v74 main_arg1 main_v75 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v75 main_v76 (broadcastInDim S1600000x1 ![0] bcast_S1600000_S1600000x1_0 : (⟨S1600000, .i32⟩ : BufTy).Contents (Elt F) → (⟨S1600000x1, .i32⟩ : BufTy).Contents (Elt F)),
    StableHlo.binary main_v70 main_v76 main_v77 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_14 (constant S_ .f32 0x00000000#32),
    StableHlo.unary main_cst_14 main_v78 (broadcastInDim S100000x64 ![] bcast_S_S100000x64 : (⟨S_, .f32⟩ : BufTy).Contents (Elt F) → (⟨S100000x64, .f32⟩ : BufTy).Contents (Elt F)),
    StableHlo.unary main_arg2 main_v79 (broadcastInDim S1600000x1 ![0] bcast_S1600000_S1600000x1_0 : (⟨S1600000, .i32⟩ : BufTy).Contents (Elt F) → (⟨S1600000x1, .i32⟩ : BufTy).Contents (Elt F)),
    StableHlo.ternary main_v78 main_v79 main_v77 main_v80 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v8 main_v81 (broadcastInDim S100000x1 ![0] bcast_S100000_S100000x1_0 : (⟨S100000, .f32⟩ : BufTy).Contents (Elt F) → (⟨S100000x1, .f32⟩ : BufTy).Contents (Elt F)),
    StableHlo.unary main_v81 main_v82 (broadcastInDim S100000x64 ![0, 1] bcast_S100000x1_S100000x64_0_1 : (⟨S100000x1, .f32⟩ : BufTy).Contents (Elt F) → (⟨S100000x64, .f32⟩ : BufTy).Contents (Elt F)),
    StableHlo.binary main_v80 main_v82 main_v83 (Host.divf : (⟨S100000x64, .f32⟩ : BufTy).Contents (Elt F) → (⟨S100000x64, .f32⟩ : BufTy).Contents (Elt F) → (⟨S100000x64, .f32⟩ : BufTy).Contents (Elt F)),
    StableHlo.binary main_v70 main_v83 main_v84 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v84 main_arg9 main_v85 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v87 main_v88 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v88) main_call6.v0 main_call6.v1 maximumf,
    StableHlo.binary main_v89 main_arg11 main_v90 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg12 main_v91 (broadcastInDim S1x1 ![1] bcast_S1_S1x1_1 : (⟨S1, .f32⟩ : BufTy).Contents (Elt F) → (⟨S1x1, .f32⟩ : BufTy).Contents (Elt F)),
    StableHlo.unary main_v91 main_v92 (broadcastInDim S100000x1 ![0, 1] bcast_S1x1_S100000x1_0_1 : (⟨S1x1, .f32⟩ : BufTy).Contents (Elt F) → (⟨S100000x1, .f32⟩ : BufTy).Contents (Elt F)),
    StableHlo.binary main_v90 main_v92 main_v93 (addf : (⟨S100000x1, .f32⟩ : BufTy).Contents (Elt F) → (⟨S100000x1, .f32⟩ : BufTy).Contents (Elt F) → (⟨S100000x1, .f32⟩ : BufTy).Contents (Elt F)),
    StableHlo.unary main_v93 main_v94 (Host.negf : (⟨S100000x1, .f32⟩ : BufTy).Contents (Elt F) → (⟨S100000x1, .f32⟩ : BufTy).Contents (Elt F)),
    StableHlo.unary main_v94 main_v95 (Host.exp : (⟨S100000x1, .f32⟩ : BufTy).Contents (Elt F) → (⟨S100000x1, .f32⟩ : BufTy).Contents (Elt F)),
    StableHlo.nullary main_cst_15 (constant S_ .f32 0x3F800000#32),
    StableHlo.unary main_cst_15 main_v96 (broadcastInDim S100000x1 ![] bcast_S_S100000x1 : (⟨S_, .f32⟩ : BufTy).Contents (Elt F) → (⟨S100000x1, .f32⟩ : BufTy).Contents (Elt F)),
    StableHlo.binary main_v96 main_v95 main_v97 (addf : (⟨S100000x1, .f32⟩ : BufTy).Contents (Elt F) → (⟨S100000x1, .f32⟩ : BufTy).Contents (Elt F) → (⟨S100000x1, .f32⟩ : BufTy).Contents (Elt F)),
    StableHlo.nullary main_cst_16 (constant S_ .f32 0x3F800000#32),
    StableHlo.unary main_cst_16 main_v98 (broadcastInDim S100000x1 ![] bcast_S_S100000x1 : (⟨S_, .f32⟩ : BufTy).Contents (Elt F) → (⟨S100000x1, .f32⟩ : BufTy).Contents (Elt F)),
    StableHlo.binary main_v98 main_v97 main_v99 (Host.divf : (⟨S100000x1, .f32⟩ : BufTy).Contents (Elt F) → (⟨S100000x1, .f32⟩ : BufTy).Contents (Elt F) → (⟨S100000x1, .f32⟩ : BufTy).Contents (Elt F)),
    StableHlo.unary main_v99 main_v100 (broadcastInDim S100000x64 ![0, 1] bcast_S100000x1_S100000x64_0_1 : (⟨S100000x1, .f32⟩ : BufTy).Contents (Elt F) → (⟨S100000x64, .f32⟩ : BufTy).Contents (Elt F)) ]

set_option maxRecDepth 4096 in
set_option maxHeartbeats 4000000 in
/-- The window is that straight line. -/
theorem part1_eq (c : Dev nD) : main_part1 (F := F) c = seq ops1 := by
  simp only [main_part1, fn_clip.body, fn_relu.body, fn_relu_0.body, fn_var.body, fn_where.body, seq, bind_assoc, pure_bind] <;> rfl

/-- Every operation of the window touches TensorCore buffers only. -/
theorem ops1_sub : (ops1 : List (HloOp τ sig (Elt F))).Forall fun op => op.bufs ⊆ tcRefs τ sig :=
  ⟨reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub ..⟩

/-- Every operation of the window determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

/-- The buffers the window's operations write, in program order (each operation writes one, its result). -/
abbrev ops1_W : List (Ref sig .tc) :=
  [main_v50, main_cst_8, main_v51, main_cst_9, main_v52, main_v53, main_c_10, main_call4.cst.ref,
    main_call4.v0.ref, main_call4.v1.ref, main_call4.cst_0.ref, main_call4.v2.ref, main_call4.v3.ref, main_call4.v4.ref, main_call4.v5.ref, main_call4.v6.ref,
    main_call4.v7.ref, main_call4.cst_1.ref, main_call4.v8.ref, main_call4.cst_2.ref, main_call4.v9.ref, main_call4.v10.ref, main_call4.v11.ref, main_call4.cst_3.ref,
    main_call4.v12.ref, main_call4.cst_4.ref, main_call4.call0.v0.ref, main_call4.call0.v1.ref, main_call4.call0.v2.ref, main_v55, main_v56, main_v57,
    main_cst_11, main_v58, main_v59, main_v60, main_v61, main_v62, main_v63, main_v64,
    main_v65, main_v66, main_v67, main_v68, main_v69, main_call5.cst.ref, main_call5.v0.ref, main_call5.v1.ref,
    main_c_12, main_v71, main_v72, main_c_13, main_v73, main_v74, main_v75, main_v76,
    main_v77, main_cst_14, main_v78, main_v79, main_v80, main_v81, main_v82, main_v83,
    main_v84, main_v85, main_v86, main_v87, main_v88, main_call6.cst.ref, main_call6.v0.ref, main_call6.v1.ref,
    main_v90, main_v91, main_v92, main_v93, main_v94, main_v95, main_cst_15, main_v96,
    main_v97, main_cst_16, main_v98, main_v99, main_v100]

/-- Each operation writes inside that list. -/
theorem ops1_writes : (ops1 : List (HloOp τ sig (Elt F))).Forall fun op =>
    op.writes ⊆ (ops1_W.map (Proc.devRef (τ := τ) .tc)).toFinset :=
  ⟨writes_sub_of main_v50 rfl (by decide), writes_sub_of main_cst_8 rfl (by decide), writes_sub_of main_v51 rfl (by decide),
    writes_sub_of main_cst_9 rfl (by decide), writes_sub_of main_v52 rfl (by decide), writes_sub_of main_v53 rfl (by decide),
    writes_sub_of main_c_10 rfl (by decide), writes_sub_of (main_call4.cst.ref) rfl (by decide), writes_sub_of (main_call4.v0.ref) rfl (by decide),
    writes_sub_of (main_call4.v1.ref) rfl (by decide), writes_sub_of (main_call4.cst_0.ref) rfl (by decide), writes_sub_of (main_call4.v2.ref) rfl (by decide),
    writes_sub_of (main_call4.v3.ref) rfl (by decide), writes_sub_of (main_call4.v4.ref) rfl (by decide), writes_sub_of (main_call4.v5.ref) rfl (by decide),
    writes_sub_of (main_call4.v6.ref) rfl (by decide), writes_sub_of (main_call4.v7.ref) rfl (by decide), writes_sub_of (main_call4.cst_1.ref) rfl (by decide),
    writes_sub_of (main_call4.v8.ref) rfl (by decide), writes_sub_of (main_call4.cst_2.ref) rfl (by decide), writes_sub_of (main_call4.v9.ref) rfl (by decide),
    writes_sub_of (main_call4.v10.ref) rfl (by decide), writes_sub_of (main_call4.v11.ref) rfl (by decide), writes_sub_of (main_call4.cst_3.ref) rfl (by decide),
    writes_sub_of (main_call4.v12.ref) rfl (by decide), writes_sub_of (main_call4.cst_4.ref) rfl (by decide), writes_sub_of (main_call4.call0.v0.ref) rfl (by decide),
    writes_sub_of (main_call4.call0.v1.ref) rfl (by decide), writes_sub_of (main_call4.call0.v2.ref) rfl (by decide), writes_sub_of main_v55 rfl (by decide),
    writes_sub_of main_v56 rfl (by decide), writes_sub_of main_v57 rfl (by decide), writes_sub_of main_cst_11 rfl (by decide),
    writes_sub_of main_v58 rfl (by decide), writes_sub_of main_v59 rfl (by decide), writes_sub_of main_v60 rfl (by decide),
    writes_sub_of main_v61 rfl (by decide), writes_sub_of main_v62 rfl (by decide), writes_sub_of main_v63 rfl (by decide),
    writes_sub_of main_v64 rfl (by decide), writes_sub_of main_v65 rfl (by decide), writes_sub_of main_v66 rfl (by decide),
    writes_sub_of main_v67 rfl (by decide), writes_sub_of main_v68 rfl (by decide), writes_sub_of main_v69 rfl (by decide),
    writes_sub_of (main_call5.cst.ref) rfl (by decide), writes_sub_of (main_call5.v0.ref) rfl (by decide), writes_sub_of (main_call5.v1.ref) rfl (by decide),
    writes_sub_of main_c_12 rfl (by decide), writes_sub_of main_v71 rfl (by decide), writes_sub_of main_v72 rfl (by decide),
    writes_sub_of main_c_13 rfl (by decide), writes_sub_of main_v73 rfl (by decide), writes_sub_of main_v74 rfl (by decide),
    writes_sub_of main_v75 rfl (by decide), writes_sub_of main_v76 rfl (by decide), writes_sub_of main_v77 rfl (by decide),
    writes_sub_of main_cst_14 rfl (by decide), writes_sub_of main_v78 rfl (by decide), writes_sub_of main_v79 rfl (by decide),
    writes_sub_of main_v80 rfl (by decide), writes_sub_of main_v81 rfl (by decide), writes_sub_of main_v82 rfl (by decide),
    writes_sub_of main_v83 rfl (by decide), writes_sub_of main_v84 rfl (by decide), writes_sub_of main_v85 rfl (by decide),
    writes_sub_of main_v86 rfl (by decide), writes_sub_of main_v87 rfl (by decide), writes_sub_of main_v88 rfl (by decide),
    writes_sub_of (main_call6.cst.ref) rfl (by decide), writes_sub_of (main_call6.v0.ref) rfl (by decide), writes_sub_of (main_call6.v1.ref) rfl (by decide),
    writes_sub_of main_v90 rfl (by decide), writes_sub_of main_v91 rfl (by decide), writes_sub_of main_v92 rfl (by decide),
    writes_sub_of main_v93 rfl (by decide), writes_sub_of main_v94 rfl (by decide), writes_sub_of main_v95 rfl (by decide),
    writes_sub_of main_cst_15 rfl (by decide), writes_sub_of main_v96 rfl (by decide), writes_sub_of main_v97 rfl (by decide),
    writes_sub_of main_cst_16 rfl (by decide), writes_sub_of main_v98 rfl (by decide), writes_sub_of main_v99 rfl (by decide),
    writes_sub_of main_v100 rfl (by decide)⟩

/-- A buffer the window does not write holds after it what it held before. -/
theorem ops1_keep (V : Valuation τ sig (Elt F)) (r : Ref sig .tc) (h : r ∉ ops1_W) :
    after ops1 V (Proc.devRef .tc r) = V (Proc.devRef .tc r) :=
  after_of_writes_sub ops1 V ops1_writes h

end Cert.ReferenceIdeal.RefRun

end
-- ==== Proof.RefRunOps2.lean ====
/-
  The reference program's @main, statements 121 … 180 of 369 (its window `main_part2`), as a list of host operations.

  The window is a straight line: each statement is one host operation on whole buffers, or a call of one of the module's
  small functions (a clip from below, a maximum with zero, a column variance that in turn calls a select).  A call runs the
  callee's operations on the call's own buffers, so here the callee's operations are listed in place of the call, reading
  the call's operands and writing the buffers of that call's record; the buffer a call returns is the @main result it
  becomes.

  * `part2_eq`: the window IS that line (the functions unfolded at their calls, the sequencing re-associated).
  * `ops2_sub`: every operation touches TensorCore buffers only.
  * `ops2_fresh`: every operation determines its results.
  * `ops2_W`, `ops2_writes`, `ops2_keep`: the buffers the line writes, one per operation, and that any other
    buffer holds after the line what it held before.
-/
import proofs.«130402_j14499809591446_2_alg».proof.Proof.RefRunBase

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- The 83 operations of statements 121 … 180, in program order, callee bodies in place of their calls. -/
abbrev ops2 : List (HloOp τ sig (Elt F)) :=
  [ StableHlo.binary main_v100 main_v83 main_v101 (mulf : (⟨S100000x64, .f32⟩ : BufTy).Contents (Elt F) → (⟨S100000x64, .f32⟩ : BufTy).Contents (Elt F) → (⟨S100000x64, .f32⟩ : BufTy).Contents (Elt F)),
    StableHlo.binary main_v70 main_v101 main_v102 (addf : (⟨S100000x64, .f32⟩ : BufTy).Contents (Elt F) → (⟨S100000x64, .f32⟩ : BufTy).Contents (Elt F) → (⟨S100000x64, .f32⟩ : BufTy).Contents (Elt F)),
    StableHlo.unary main_arg15 main_v103 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v103 main_v104 rfl shapeCasts_S1x64x64_S64x64,
    StableHlo.unary main_arg16 main_v105 ((extractStridedSlice S1x64 ![0, 0] · slices_S3x64_S1x64_0_0) : (⟨S3x64, .f32⟩ : BufTy).Contents (Elt F) → (⟨S1x64, .f32⟩ : BufTy).Contents (Elt F)),
    StableHlo.reshape main_v105 main_v106 rfl shapeCasts_S1x64_S64,
    StableHlo.unary main_v10 main_v107 (broadcastInDim S100000x1 ![0] bcast_S100000_S100000x1_0 : (⟨S100000, .f32⟩ : BufTy).Contents (Elt F) → (⟨S100000x1, .f32⟩ : BufTy).Contents (Elt F)),
    StableHlo.unary main_v107 main_v108 (broadcastInDim S100000x64 ![0, 1] bcast_S100000x1_S100000x64_0_1 : (⟨S100000x1, .f32⟩ : BufTy).Contents (Elt F) → (⟨S100000x64, .f32⟩ : BufTy).Contents (Elt F)),
    StableHlo.binary main_v102 main_v108 main_v109 (mulf : (⟨S100000x64, .f32⟩ : BufTy).Contents (Elt F) → (⟨S100000x64, .f32⟩ : BufTy).Contents (Elt F) → (⟨S100000x64, .f32⟩ : BufTy).Contents (Elt F)),
    StableHlo.nullary main_c_17 (constantI S_ 32 0#32),
    StableHlo.unary main_c_17 main_v110 (broadcastInDim S1600000 ![] bcast_S_S1600000 : (⟨S_, .i32⟩ : BufTy).Contents (Elt F) → (⟨S1600000, .i32⟩ : BufTy).Contents (Elt F)),
    StableHlo.binary main_arg1 main_v110 main_v111 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v112 (broadcastInDim S1600000 ![] bcast_S_S1600000 : (⟨S_, .i32⟩ : BufTy).Contents (Elt F) → (⟨S1600000, .i32⟩ : BufTy).Contents (Elt F)),
    StableHlo.binary main_arg1 main_v112 main_v113 (addi : (⟨S1600000, .i32⟩ : BufTy).Contents (Elt F) → (⟨S1600000, .i32⟩ : BufTy).Contents (Elt F) → (⟨S1600000, .i32⟩ : BufTy).Contents (Elt F)),
    StableHlo.ternary main_v111 main_v113 main_arg1 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v114 main_v115 (broadcastInDim S1600000x1 ![0] bcast_S1600000_S1600000x1_0 : (⟨S1600000, .i32⟩ : BufTy).Contents (Elt F) → (⟨S1600000x1, .i32⟩ : BufTy).Contents (Elt F)),
    StableHlo.binary main_v109 main_v115 main_v116 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_19 (constant S_ .f32 0x00000000#32),
    StableHlo.unary main_cst_19 main_v117 (broadcastInDim S100000x64 ![] bcast_S_S100000x64 : (⟨S_, .f32⟩ : BufTy).Contents (Elt F) → (⟨S100000x64, .f32⟩ : BufTy).Contents (Elt F)),
    StableHlo.unary main_arg2 main_v118 (broadcastInDim S1600000x1 ![0] bcast_S1600000_S1600000x1_0 : (⟨S1600000, .i32⟩ : BufTy).Contents (Elt F) → (⟨S1600000x1, .i32⟩ : BufTy).Contents (Elt F)),
    StableHlo.ternary main_v117 main_v118 main_v116 main_v119 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v12 main_v120 (broadcastInDim S100000x1 ![0] bcast_S100000_S100000x1_0 : (⟨S100000, .f32⟩ : BufTy).Contents (Elt F) → (⟨S100000x1, .f32⟩ : BufTy).Contents (Elt F)),
    StableHlo.unary main_v120 main_v121 (broadcastInDim S100000x64 ![0, 1] bcast_S100000x1_S100000x64_0_1 : (⟨S100000x1, .f32⟩ : BufTy).Contents (Elt F) → (⟨S100000x64, .f32⟩ : BufTy).Contents (Elt F)),
    StableHlo.binary main_v119 main_v121 main_v122 (mulf : (⟨S100000x64, .f32⟩ : BufTy).Contents (Elt F) → (⟨S100000x64, .f32⟩ : BufTy).Contents (Elt F) → (⟨S100000x64, .f32⟩ : BufTy).Contents (Elt F)),
    StableHlo.binary main_v122 main_v104 main_v123 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v106 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S100000x64 ![0, 1] bcast_S1x64_S100000x64_0_1 : (⟨S1x64, .f32⟩ : BufTy).Contents (Elt F) → (⟨S100000x64, .f32⟩ : BufTy).Contents (Elt F)),
    StableHlo.binary main_v123 main_v125 main_v126 (addf : (⟨S100000x64, .f32⟩ : BufTy).Contents (Elt F) → (⟨S100000x64, .f32⟩ : BufTy).Contents (Elt F) → (⟨S100000x64, .f32⟩ : BufTy).Contents (Elt F)),
    StableHlo.unary main_arg17 main_v127 ((extractStridedSlice S1x64 ![1, 0] · slices_S4x64_S1x64_1_0) : (⟨S4x64, .f32⟩ : BufTy).Contents (Elt F) → (⟨S1x64, .f32⟩ : BufTy).Contents (Elt F)),
    StableHlo.reshape main_v127 main_v128 rfl shapeCasts_S1x64_S64,
    StableHlo.unary main_arg18 main_v129 ((extractStridedSlice S1x64 ![1, 0] · slices_S4x64_S1x64_1_0) : (⟨S4x64, .f32⟩ : BufTy).Contents (Elt F) → (⟨S1x64, .f32⟩ : BufTy).Contents (Elt F)),
    StableHlo.reshape main_v129 main_v130 rfl shapeCasts_S1x64_S64,
    StableHlo.nullary main_cst_20 (constant S_ .f32 0x00000000#32),
    StableHlo.binary main_v126 main_cst_20 main_v131 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_21 (constant S_ .f32 0x47C35000#32),
    StableHlo.unary main_cst_21 main_v132 (broadcastInDim S64 ![] bcast_S_S64 : (⟨S_, .f32⟩ : BufTy).Contents (Elt F) → (⟨S64, .f32⟩ : BufTy).Contents (Elt F)),
    StableHlo.binary main_v131 main_v132 main_v133 (Host.divf : (⟨S64, .f32⟩ : BufTy).Contents (Elt F) → (⟨S64, .f32⟩ : BufTy).Contents (Elt F) → (⟨S64, .f32⟩ : BufTy).Contents (Elt F)),
    StableHlo.nullary main_c_22 (constantI S_ 32 0#32),
    StableHlo.TRef.nullary main_call7.cst (constant S_ .f32 0x00000000#32),
    StableHlo.TRef.binary (.of main_v126) main_call7.cst main_call7.v0 (fun x v => Host.reduceAdd x v reducesTo_S100000x64_S64_d0 h_S_),
    StableHlo.TRef.unary main_call7.v0 main_call7.v1 (broadcastInDim S1x64 ![1] bcast_S64_S1x64_1),
    StableHlo.TRef.nullary main_call7.cst_0 (constant S_ .f32 0x47C35000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S100000x64 ![0, 1] bcast_S1x64_S100000x64_0_1),
    StableHlo.TRef.binary (.of main_v126) main_call7.v4 main_call7.v5 subf,
    StableHlo.TRef.binary main_call7.v5 main_call7.v5 main_call7.v6 mulf,
    StableHlo.TRef.unary (.of main_c_22) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b),
    StableHlo.unary main_v133 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S100000x64 ![0, 1] bcast_S1x64_S100000x64_0_1 : (⟨S1x64, .f32⟩ : BufTy).Contents (Elt F) → (⟨S100000x64, .f32⟩ : BufTy).Contents (Elt F)),
    StableHlo.binary main_v126 main_v136 main_v137 (subf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3727C5AC#32),
    StableHlo.unary main_cst_23 main_v138 (broadcastInDim S64 ![] bcast_S_S64 : (⟨S_, .f32⟩ : BufTy).Contents (Elt F) → (⟨S64, .f32⟩ : BufTy).Contents (Elt F)),
    StableHlo.binary main_v134 main_v138 main_v139 (addf : (⟨S64, .f32⟩ : BufTy).Contents (Elt F) → (⟨S64, .f32⟩ : BufTy).Contents (Elt F) → (⟨S64, .f32⟩ : BufTy).Contents (Elt F)),
    StableHlo.unary main_v139 main_v140 (Host.rsqrt : (⟨S64, .f32⟩ : BufTy).Contents (Elt F) → (⟨S64, .f32⟩ : BufTy).Contents (Elt F)),
    StableHlo.unary main_v140 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S100000x64 ![0, 1] bcast_S1x64_S100000x64_0_1 : (⟨S1x64, .f32⟩ : BufTy).Contents (Elt F) → (⟨S100000x64, .f32⟩ : BufTy).Contents (Elt F)),
    StableHlo.binary main_v137 main_v142 main_v143 (mulf : (⟨S100000x64, .f32⟩ : BufTy).Contents (Elt F) → (⟨S100000x64, .f32⟩ : BufTy).Contents (Elt F) → (⟨S100000x64, .f32⟩ : BufTy).Contents (Elt F)),
    StableHlo.unary main_v128 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v143 main_v145 main_v146 (mulf : (⟨S100000x64, .f32⟩ : BufTy).Contents (Elt F) → (⟨S100000x64, .f32⟩ : BufTy).Contents (Elt F) → (⟨S100000x64, .f32⟩ : BufTy).Contents (Elt F)),
    StableHlo.unary main_v130 main_v147 (broadcastInDim S1x64 ![1] bcast_S64_S1x64_1 : (⟨S64, .f32⟩ : BufTy).Contents (Elt F) → (⟨S1x64, .f32⟩ : BufTy).Contents (Elt F)),
    StableHlo.unary main_v147 main_v148 (broadcastInDim S100000x64 ![0, 1] bcast_S1x64_S100000x64_0_1 : (⟨S1x64, .f32⟩ : BufTy).Contents (Elt F) → (⟨S100000x64, .f32⟩ : BufTy).Contents (Elt F)),
    StableHlo.binary main_v146 main_v148 main_v149 (addf : (⟨S100000x64, .f32⟩ : BufTy).Contents (Elt F) → (⟨S100000x64, .f32⟩ : BufTy).Contents (Elt F) → (⟨S100000x64, .f32⟩ : BufTy).Contents (Elt F)),
    StableHlo.binary main_v149 main_v102 main_v150 (addf : (⟨S100000x64, .f32⟩ : BufTy).Contents (Elt F) → (⟨S100000x64, .f32⟩ : BufTy).Contents (Elt F) → (⟨S100000x64, .f32⟩ : BufTy).Contents (Elt F)),
    StableHlo.TRef.nullary main_call8.cst (constant S_ .f32 0x00000000#32),
    StableHlo.TRef.unary main_call8.cst main_call8.v0 (broadcastInDim S100000x64 ![] bcast_S_S100000x64),
    StableHlo.TRef.binary (.of main_v150) main_call8.v0 main_call8.v1 maximumf,
    StableHlo.nullary main_c_24 (constantI S_ 32 0#32),
    StableHlo.unary main_c_24 main_v152 (broadcastInDim S1600000 ![] bcast_S_S1600000 : (⟨S_, .i32⟩ : BufTy).Contents (Elt F) → (⟨S1600000, .i32⟩ : BufTy).Contents (Elt F)) ]

set_option maxRecDepth 4096 in
set_option maxHeartbeats 4000000 in
/-- The window is that straight line. -/
theorem part2_eq (c : Dev nD) : main_part2 (F := F) c = seq ops2 := by
  simp only [main_part2, fn_clip.body, fn_relu.body, fn_relu_0.body, fn_var.body, fn_where.body, seq, bind_assoc, pure_bind] <;> rfl

/-- Every operation of the window touches TensorCore buffers only. -/
theorem ops2_sub : (ops2 : List (HloOp τ sig (Elt F))).Forall fun op => op.bufs ⊆ tcRefs τ sig :=
  ⟨binary_bufs_sub .., binary_bufs_sub .., unary_bufs_sub .., reshape_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., unary_bufs_sub .., unary_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub .., nullary_bufs_sub .., unary_bufs_sub ..⟩

/-- Every operation of the window determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

/-- The buffers the window's operations write, in program order (each operation writes one, its result). -/
abbrev ops2_W : List (Ref sig .tc) :=
  [main_v101, main_v102, main_v103, main_v104, main_v105, main_v106, main_v107, main_v108,
    main_v109, main_c_17, main_v110, main_v111, main_c_18, main_v112, main_v113, main_v114,
    main_v115, main_v116, main_cst_19, main_v117, main_v118, main_v119, main_v120, main_v121,
    main_v122, main_v123, main_v124, main_v125, main_v126, main_v127, main_v128, main_v129,
    main_v130, main_cst_20, main_v131, main_cst_21, main_v132, main_v133, main_c_22, main_call7.cst.ref,
    main_call7.v0.ref, main_call7.v1.ref, main_call7.cst_0.ref, main_call7.v2.ref, main_call7.v3.ref, main_call7.v4.ref, main_call7.v5.ref, main_call7.v6.ref,
    main_call7.v7.ref, main_call7.cst_1.ref, main_call7.v8.ref, main_call7.cst_2.ref, main_call7.v9.ref, main_call7.v10.ref, main_call7.v11.ref, main_call7.cst_3.ref,
    main_call7.v12.ref, main_call7.cst_4.ref, main_call7.call0.v0.ref, main_call7.call0.v1.ref, main_call7.call0.v2.ref, main_v135, main_v136, main_v137,
    main_cst_23, main_v138, main_v139, main_v140, main_v141, main_v142, main_v143, main_v144,
    main_v145, main_v146, main_v147, main_v148, main_v149, main_v150, main_call8.cst.ref, main_call8.v0.ref,
    main_call8.v1.ref, main_c_24, main_v152]

/-- Each operation writes inside that list. -/
theorem ops2_writes : (ops2 : List (HloOp τ sig (Elt F))).Forall fun op =>
    op.writes ⊆ (ops2_W.map (Proc.devRef (τ := τ) .tc)).toFinset :=
  ⟨writes_sub_of main_v101 rfl (by decide), writes_sub_of main_v102 rfl (by decide), writes_sub_of main_v103 rfl (by decide),
    writes_sub_of main_v104 rfl (by decide), writes_sub_of main_v105 rfl (by decide), writes_sub_of main_v106 rfl (by decide),
    writes_sub_of main_v107 rfl (by decide), writes_sub_of main_v108 rfl (by decide), writes_sub_of main_v109 rfl (by decide),
    writes_sub_of main_c_17 rfl (by decide), writes_sub_of main_v110 rfl (by decide), writes_sub_of main_v111 rfl (by decide),
    writes_sub_of main_c_18 rfl (by decide), writes_sub_of main_v112 rfl (by decide), writes_sub_of main_v113 rfl (by decide),
    writes_sub_of main_v114 rfl (by decide), writes_sub_of main_v115 rfl (by decide), writes_sub_of main_v116 rfl (by decide),
    writes_sub_of main_cst_19 rfl (by decide), writes_sub_of main_v117 rfl (by decide), writes_sub_of main_v118 rfl (by decide),
    writes_sub_of main_v119 rfl (by decide), writes_sub_of main_v120 rfl (by decide), writes_sub_of main_v121 rfl (by decide),
    writes_sub_of main_v122 rfl (by decide), writes_sub_of main_v123 rfl (by decide), writes_sub_of main_v124 rfl (by decide),
    writes_sub_of main_v125 rfl (by decide), writes_sub_of main_v126 rfl (by decide), writes_sub_of main_v127 rfl (by decide),
    writes_sub_of main_v128 rfl (by decide), writes_sub_of main_v129 rfl (by decide), writes_sub_of main_v130 rfl (by decide),
    writes_sub_of main_cst_20 rfl (by decide), writes_sub_of main_v131 rfl (by decide), writes_sub_of main_cst_21 rfl (by decide),
    writes_sub_of main_v132 rfl (by decide), writes_sub_of main_v133 rfl (by decide), writes_sub_of main_c_22 rfl (by decide),
    writes_sub_of (main_call7.cst.ref) rfl (by decide), writes_sub_of (main_call7.v0.ref) rfl (by decide), writes_sub_of (main_call7.v1.ref) rfl (by decide),
    writes_sub_of (main_call7.cst_0.ref) rfl (by decide), writes_sub_of (main_call7.v2.ref) rfl (by decide), writes_sub_of (main_call7.v3.ref) rfl (by decide),
    writes_sub_of (main_call7.v4.ref) rfl (by decide), writes_sub_of (main_call7.v5.ref) rfl (by decide), writes_sub_of (main_call7.v6.ref) rfl (by decide),
    writes_sub_of (main_call7.v7.ref) rfl (by decide), writes_sub_of (main_call7.cst_1.ref) rfl (by decide), writes_sub_of (main_call7.v8.ref) rfl (by decide),
    writes_sub_of (main_call7.cst_2.ref) rfl (by decide), writes_sub_of (main_call7.v9.ref) rfl (by decide), writes_sub_of (main_call7.v10.ref) rfl (by decide),
    writes_sub_of (main_call7.v11.ref) rfl (by decide), writes_sub_of (main_call7.cst_3.ref) rfl (by decide), writes_sub_of (main_call7.v12.ref) rfl (by decide),
    writes_sub_of (main_call7.cst_4.ref) rfl (by decide), writes_sub_of (main_call7.call0.v0.ref) rfl (by decide), writes_sub_of (main_call7.call0.v1.ref) rfl (by decide),
    writes_sub_of (main_call7.call0.v2.ref) rfl (by decide), writes_sub_of main_v135 rfl (by decide), writes_sub_of main_v136 rfl (by decide),
    writes_sub_of main_v137 rfl (by decide), writes_sub_of main_cst_23 rfl (by decide), writes_sub_of main_v138 rfl (by decide),
    writes_sub_of main_v139 rfl (by decide), writes_sub_of main_v140 rfl (by decide), writes_sub_of main_v141 rfl (by decide),
    writes_sub_of main_v142 rfl (by decide), writes_sub_of main_v143 rfl (by decide), writes_sub_of main_v144 rfl (by decide),
    writes_sub_of main_v145 rfl (by decide), writes_sub_of main_v146 rfl (by decide), writes_sub_of main_v147 rfl (by decide),
    writes_sub_of main_v148 rfl (by decide), writes_sub_of main_v149 rfl (by decide), writes_sub_of main_v150 rfl (by decide),
    writes_sub_of (main_call8.cst.ref) rfl (by decide), writes_sub_of (main_call8.v0.ref) rfl (by decide), writes_sub_of (main_call8.v1.ref) rfl (by decide),
    writes_sub_of main_c_24 rfl (by decide), writes_sub_of main_v152 rfl (by decide)⟩

/-- A buffer the window does not write holds after it what it held before. -/
theorem ops2_keep (V : Valuation τ sig (Elt F)) (r : Ref sig .tc) (h : r ∉ ops2_W) :
    after ops2 V (Proc.devRef .tc r) = V (Proc.devRef .tc r) :=
  after_of_writes_sub ops2 V ops2_writes h

end Cert.ReferenceIdeal.RefRun

end
-- ==== Proof.RefRunOps3.lean ====
/-
  The reference program's @main, statements 181 … 240 of 369 (its window `main_part3`), as a list of host operations.

  The window is a straight line: each statement is one host operation on whole buffers, or a call of one of the module's
  small functions (a clip from below, a maximum with zero, a column variance that in turn calls a select).  A call runs the
  callee's operations on the call's own buffers, so here the callee's operations are listed in place of the call, reading
  the call's operands and writing the buffers of that call's record; the buffer a call returns is the @main result it
  becomes.

  * `part3_eq`: the window IS that line (the functions unfolded at their calls, the sequencing re-associated).
  * `ops3_sub`: every operation touches TensorCore buffers only.
  * `ops3_fresh`: every operation determines its results.
  * `ops3_W`, `ops3_writes`, `ops3_keep`: the buffers the line writes, one per operation, and that any other
    buffer holds after the line what it held before.
-/
import proofs.«130402_j14499809591446_2_alg».proof.Proof.RefRunBase

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- The 62 operations of statements 181 … 240, in program order, callee bodies in place of their calls. -/
abbrev ops3 : List (HloOp τ sig (Elt F)) :=
  [ StableHlo.binary main_arg1 main_v152 main_v153 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 100000#32),
    StableHlo.unary main_c_25 main_v154 (broadcastInDim S1600000 ![] bcast_S_S1600000 : (⟨S_, .i32⟩ : BufTy).Contents (Elt F) → (⟨S1600000, .i32⟩ : BufTy).Contents (Elt F)),
    StableHlo.binary main_arg1 main_v154 main_v155 (addi : (⟨S1600000, .i32⟩ : BufTy).Contents (Elt F) → (⟨S1600000, .i32⟩ : BufTy).Contents (Elt F) → (⟨S1600000, .i32⟩ : BufTy).Contents (Elt F)),
    StableHlo.ternary main_v153 main_v155 main_arg1 main_v156 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v156 main_v157 (broadcastInDim S1600000x1 ![0] bcast_S1600000_S1600000x1_0 : (⟨S1600000, .i32⟩ : BufTy).Contents (Elt F) → (⟨S1600000x1, .i32⟩ : BufTy).Contents (Elt F)),
    StableHlo.binary main_v151 main_v157 main_v158 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_26 (constant S_ .f32 0x00000000#32),
    StableHlo.unary main_cst_26 main_v159 (broadcastInDim S100000x64 ![] bcast_S_S100000x64 : (⟨S_, .f32⟩ : BufTy).Contents (Elt F) → (⟨S100000x64, .f32⟩ : BufTy).Contents (Elt F)),
    StableHlo.unary main_arg2 main_v160 (broadcastInDim S1600000x1 ![0] bcast_S1600000_S1600000x1_0 : (⟨S1600000, .i32⟩ : BufTy).Contents (Elt F) → (⟨S1600000x1, .i32⟩ : BufTy).Contents (Elt F)),
    StableHlo.ternary main_v159 main_v160 main_v158 main_v161 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v8 main_v162 (broadcastInDim S100000x1 ![0] bcast_S100000_S100000x1_0 : (⟨S100000, .f32⟩ : BufTy).Contents (Elt F) → (⟨S100000x1, .f32⟩ : BufTy).Contents (Elt F)),
    StableHlo.unary main_v162 main_v163 (broadcastInDim S100000x64 ![0, 1] bcast_S100000x1_S100000x64_0_1 : (⟨S100000x1, .f32⟩ : BufTy).Contents (Elt F) → (⟨S100000x64, .f32⟩ : BufTy).Contents (Elt F)),
    StableHlo.binary main_v161 main_v163 main_v164 (Host.divf : (⟨S100000x64, .f32⟩ : BufTy).Contents (Elt F) → (⟨S100000x64, .f32⟩ : BufTy).Contents (Elt F) → (⟨S100000x64, .f32⟩ : BufTy).Contents (Elt F)),
    StableHlo.binary main_v151 main_v164 main_v165 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v165 main_arg9 main_v166 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v167 (broadcastInDim S1x64 ![1] bcast_S64_S1x64_1 : (⟨S64, .f32⟩ : BufTy).Contents (Elt F) → (⟨S1x64, .f32⟩ : BufTy).Contents (Elt F)),
    StableHlo.unary main_v167 main_v168 (broadcastInDim S100000x64 ![0, 1] bcast_S1x64_S100000x64_0_1 : (⟨S1x64, .f32⟩ : BufTy).Contents (Elt F) → (⟨S100000x64, .f32⟩ : BufTy).Contents (Elt F)),
    StableHlo.binary main_v166 main_v168 main_v169 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v169) main_call9.v0 main_call9.v1 maximumf,
    StableHlo.binary main_v170 main_arg11 main_v171 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg12 main_v172 (broadcastInDim S1x1 ![1] bcast_S1_S1x1_1 : (⟨S1, .f32⟩ : BufTy).Contents (Elt F) → (⟨S1x1, .f32⟩ : BufTy).Contents (Elt F)),
    StableHlo.unary main_v172 main_v173 (broadcastInDim S100000x1 ![0, 1] bcast_S1x1_S100000x1_0_1 : (⟨S1x1, .f32⟩ : BufTy).Contents (Elt F) → (⟨S100000x1, .f32⟩ : BufTy).Contents (Elt F)),
    StableHlo.binary main_v171 main_v173 main_v174 (addf : (⟨S100000x1, .f32⟩ : BufTy).Contents (Elt F) → (⟨S100000x1, .f32⟩ : BufTy).Contents (Elt F) → (⟨S100000x1, .f32⟩ : BufTy).Contents (Elt F)),
    StableHlo.unary main_v174 main_v175 (Host.negf : (⟨S100000x1, .f32⟩ : BufTy).Contents (Elt F) → (⟨S100000x1, .f32⟩ : BufTy).Contents (Elt F)),
    StableHlo.unary main_v175 main_v176 (Host.exp : (⟨S100000x1, .f32⟩ : BufTy).Contents (Elt F) → (⟨S100000x1, .f32⟩ : BufTy).Contents (Elt F)),
    StableHlo.nullary main_cst_27 (constant S_ .f32 0x3F800000#32),
    StableHlo.unary main_cst_27 main_v177 (broadcastInDim S100000x1 ![] bcast_S_S100000x1 : (⟨S_, .f32⟩ : BufTy).Contents (Elt F) → (⟨S100000x1, .f32⟩ : BufTy).Contents (Elt F)),
    StableHlo.binary main_v177 main_v176 main_v178 (addf : (⟨S100000x1, .f32⟩ : BufTy).Contents (Elt F) → (⟨S100000x1, .f32⟩ : BufTy).Contents (Elt F) → (⟨S100000x1, .f32⟩ : BufTy).Contents (Elt F)),
    StableHlo.nullary main_cst_28 (constant S_ .f32 0x3F800000#32),
    StableHlo.unary main_cst_28 main_v179 (broadcastInDim S100000x1 ![] bcast_S_S100000x1 : (⟨S_, .f32⟩ : BufTy).Contents (Elt F) → (⟨S100000x1, .f32⟩ : BufTy).Contents (Elt F)),
    StableHlo.binary main_v179 main_v178 main_v180 (Host.divf : (⟨S100000x1, .f32⟩ : BufTy).Contents (Elt F) → (⟨S100000x1, .f32⟩ : BufTy).Contents (Elt F) → (⟨S100000x1, .f32⟩ : BufTy).Contents (Elt F)),
    StableHlo.unary main_v180 main_v181 (broadcastInDim S100000x64 ![0, 1] bcast_S100000x1_S100000x64_0_1 : (⟨S100000x1, .f32⟩ : BufTy).Contents (Elt F) → (⟨S100000x64, .f32⟩ : BufTy).Contents (Elt F)),
    StableHlo.binary main_v181 main_v164 main_v182 (mulf : (⟨S100000x64, .f32⟩ : BufTy).Contents (Elt F) → (⟨S100000x64, .f32⟩ : BufTy).Contents (Elt F) → (⟨S100000x64, .f32⟩ : BufTy).Contents (Elt F)),
    StableHlo.binary main_v151 main_v182 main_v183 (addf : (⟨S100000x64, .f32⟩ : BufTy).Contents (Elt F) → (⟨S100000x64, .f32⟩ : BufTy).Contents (Elt F) → (⟨S100000x64, .f32⟩ : BufTy).Contents (Elt F)),
    StableHlo.unary main_arg15 main_v184 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v184 main_v185 rfl shapeCasts_S1x64x64_S64x64,
    StableHlo.unary main_arg16 main_v186 ((extractStridedSlice S1x64 ![1, 0] · slices_S3x64_S1x64_1_0) : (⟨S3x64, .f32⟩ : BufTy).Contents (Elt F) → (⟨S1x64, .f32⟩ : BufTy).Contents (Elt F)),
    StableHlo.reshape main_v186 main_v187 rfl shapeCasts_S1x64_S64,
    StableHlo.unary main_v10 main_v188 (broadcastInDim S100000x1 ![0] bcast_S100000_S100000x1_0 : (⟨S100000, .f32⟩ : BufTy).Contents (Elt F) → (⟨S100000x1, .f32⟩ : BufTy).Contents (Elt F)),
    StableHlo.unary main_v188 main_v189 (broadcastInDim S100000x64 ![0, 1] bcast_S100000x1_S100000x64_0_1 : (⟨S100000x1, .f32⟩ : BufTy).Contents (Elt F) → (⟨S100000x64, .f32⟩ : BufTy).Contents (Elt F)),
    StableHlo.binary main_v183 main_v189 main_v190 (mulf : (⟨S100000x64, .f32⟩ : BufTy).Contents (Elt F) → (⟨S100000x64, .f32⟩ : BufTy).Contents (Elt F) → (⟨S100000x64, .f32⟩ : BufTy).Contents (Elt F)),
    StableHlo.nullary main_c_29 (constantI S_ 32 0#32),
    StableHlo.unary main_c_29 main_v191 (broadcastInDim S1600000 ![] bcast_S_S1600000 : (⟨S_, .i32⟩ : BufTy).Contents (Elt F) → (⟨S1600000, .i32⟩ : BufTy).Contents (Elt F)),
    StableHlo.binary main_arg1 main_v191 main_v192 (cmpi .slt : (⟨S1600000, .i32⟩ : BufTy).Contents (Elt F) → (⟨S1600000, .i32⟩ : BufTy).Contents (Elt F) → (⟨S1600000, .i1⟩ : BufTy).Contents (Elt F)),
    StableHlo.nullary main_c_30 (constantI S_ 32 100000#32),
    StableHlo.unary main_c_30 main_v193 (broadcastInDim S1600000 ![] bcast_S_S1600000 : (⟨S_, .i32⟩ : BufTy).Contents (Elt F) → (⟨S1600000, .i32⟩ : BufTy).Contents (Elt F)),
    StableHlo.binary main_arg1 main_v193 main_v194 (addi : (⟨S1600000, .i32⟩ : BufTy).Contents (Elt F) → (⟨S1600000, .i32⟩ : BufTy).Contents (Elt F) → (⟨S1600000, .i32⟩ : BufTy).Contents (Elt F)),
    StableHlo.ternary main_v192 main_v194 main_arg1 main_v195 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v195 main_v196 (broadcastInDim S1600000x1 ![0] bcast_S1600000_S1600000x1_0 : (⟨S1600000, .i32⟩ : BufTy).Contents (Elt F) → (⟨S1600000x1, .i32⟩ : BufTy).Contents (Elt F)),
    StableHlo.binary main_v190 main_v196 main_v197 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_31 (constant S_ .f32 0x00000000#32),
    StableHlo.unary main_cst_31 main_v198 (broadcastInDim S100000x64 ![] bcast_S_S100000x64 : (⟨S_, .f32⟩ : BufTy).Contents (Elt F) → (⟨S100000x64, .f32⟩ : BufTy).Contents (Elt F)),
    StableHlo.unary main_arg2 main_v199 (broadcastInDim S1600000x1 ![0] bcast_S1600000_S1600000x1_0 : (⟨S1600000, .i32⟩ : BufTy).Contents (Elt F) → (⟨S1600000x1, .i32⟩ : BufTy).Contents (Elt F)),
    StableHlo.ternary main_v198 main_v199 main_v197 main_v200 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v12 main_v201 (broadcastInDim S100000x1 ![0] bcast_S100000_S100000x1_0 : (⟨S100000, .f32⟩ : BufTy).Contents (Elt F) → (⟨S100000x1, .f32⟩ : BufTy).Contents (Elt F)),
    StableHlo.unary main_v201 main_v202 (broadcastInDim S100000x64 ![0, 1] bcast_S100000x1_S100000x64_0_1 : (⟨S100000x1, .f32⟩ : BufTy).Contents (Elt F) → (⟨S100000x64, .f32⟩ : BufTy).Contents (Elt F)),
    StableHlo.binary main_v200 main_v202 main_v203 (mulf : (⟨S100000x64, .f32⟩ : BufTy).Contents (Elt F) → (⟨S100000x64, .f32⟩ : BufTy).Contents (Elt F) → (⟨S100000x64, .f32⟩ : BufTy).Contents (Elt F)),
    StableHlo.binary main_v203 main_v185 main_v204 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v187 main_v205 (broadcastInDim S1x64 ![1] bcast_S64_S1x64_1 : (⟨S64, .f32⟩ : BufTy).Contents (Elt F) → (⟨S1x64, .f32⟩ : BufTy).Contents (Elt F)) ]

set_option maxRecDepth 4096 in
set_option maxHeartbeats 4000000 in
/-- The window is that straight line. -/
theorem part3_eq (c : Dev nD) : main_part3 (F := F) c = seq ops3 := by
  simp only [main_part3, fn_clip.body, fn_relu.body, fn_relu_0.body, fn_var.body, fn_where.body, seq, bind_assoc, pure_bind] <;> rfl

/-- Every operation of the window touches TensorCore buffers only. -/
theorem ops3_sub : (ops3 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., unary_bufs_sub .., binary_bufs_sub ..,
    binary_bufs_sub .., unary_bufs_sub .., reshape_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., unary_bufs_sub ..⟩

/-- Every operation of the window determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-- The buffers the window's operations write, in program order (each operation writes one, its result). -/
abbrev ops3_W : List (Ref sig .tc) :=
  [main_v153, main_c_25, main_v154, main_v155, main_v156, main_v157, main_v158, main_cst_26,
    main_v159, main_v160, main_v161, main_v162, main_v163, main_v164, main_v165, main_v166,
    main_v167, main_v168, main_v169, main_call9.cst.ref, main_call9.v0.ref, main_call9.v1.ref, main_v171, main_v172,
    main_v173, main_v174, main_v175, main_v176, main_cst_27, main_v177, main_v178, main_cst_28,
    main_v179, main_v180, main_v181, main_v182, main_v183, main_v184, main_v185, main_v186,
    main_v187, main_v188, main_v189, main_v190, main_c_29, main_v191, main_v192, main_c_30,
    main_v193, main_v194, main_v195, main_v196, main_v197, main_cst_31, main_v198, main_v199,
    main_v200, main_v201, main_v202, main_v203, main_v204, main_v205]

/-- Each operation writes inside that list. -/
theorem ops3_writes : (ops3 : List (HloOp τ sig (Elt F))).Forall fun op =>
    op.writes ⊆ (ops3_W.map (Proc.devRef (τ := τ) .tc)).toFinset :=
  ⟨writes_sub_of main_v153 rfl (by decide), writes_sub_of main_c_25 rfl (by decide), writes_sub_of main_v154 rfl (by decide),
    writes_sub_of main_v155 rfl (by decide), writes_sub_of main_v156 rfl (by decide), writes_sub_of main_v157 rfl (by decide),
    writes_sub_of main_v158 rfl (by decide), writes_sub_of main_cst_26 rfl (by decide), writes_sub_of main_v159 rfl (by decide),
    writes_sub_of main_v160 rfl (by decide), writes_sub_of main_v161 rfl (by decide), writes_sub_of main_v162 rfl (by decide),
    writes_sub_of main_v163 rfl (by decide), writes_sub_of main_v164 rfl (by decide), writes_sub_of main_v165 rfl (by decide),
    writes_sub_of main_v166 rfl (by decide), writes_sub_of main_v167 rfl (by decide), writes_sub_of main_v168 rfl (by decide),
    writes_sub_of main_v169 rfl (by decide), writes_sub_of (main_call9.cst.ref) rfl (by decide), writes_sub_of (main_call9.v0.ref) rfl (by decide),
    writes_sub_of (main_call9.v1.ref) rfl (by decide), writes_sub_of main_v171 rfl (by decide), writes_sub_of main_v172 rfl (by decide),
    writes_sub_of main_v173 rfl (by decide), writes_sub_of main_v174 rfl (by decide), writes_sub_of main_v175 rfl (by decide),
    writes_sub_of main_v176 rfl (by decide), writes_sub_of main_cst_27 rfl (by decide), writes_sub_of main_v177 rfl (by decide),
    writes_sub_of main_v178 rfl (by decide), writes_sub_of main_cst_28 rfl (by decide), writes_sub_of main_v179 rfl (by decide),
    writes_sub_of main_v180 rfl (by decide), writes_sub_of main_v181 rfl (by decide), writes_sub_of main_v182 rfl (by decide),
    writes_sub_of main_v183 rfl (by decide), writes_sub_of main_v184 rfl (by decide), writes_sub_of main_v185 rfl (by decide),
    writes_sub_of main_v186 rfl (by decide), writes_sub_of main_v187 rfl (by decide), writes_sub_of main_v188 rfl (by decide),
    writes_sub_of main_v189 rfl (by decide), writes_sub_of main_v190 rfl (by decide), writes_sub_of main_c_29 rfl (by decide),
    writes_sub_of main_v191 rfl (by decide), writes_sub_of main_v192 rfl (by decide), writes_sub_of main_c_30 rfl (by decide),
    writes_sub_of main_v193 rfl (by decide), writes_sub_of main_v194 rfl (by decide), writes_sub_of main_v195 rfl (by decide),
    writes_sub_of main_v196 rfl (by decide), writes_sub_of main_v197 rfl (by decide), writes_sub_of main_cst_31 rfl (by decide),
    writes_sub_of main_v198 rfl (by decide), writes_sub_of main_v199 rfl (by decide), writes_sub_of main_v200 rfl (by decide),
    writes_sub_of main_v201 rfl (by decide), writes_sub_of main_v202 rfl (by decide), writes_sub_of main_v203 rfl (by decide),
    writes_sub_of main_v204 rfl (by decide), writes_sub_of main_v205 rfl (by decide)⟩

/-- A buffer the window does not write holds after it what it held before. -/
theorem ops3_keep (V : Valuation τ sig (Elt F)) (r : Ref sig .tc) (h : r ∉ ops3_W) :
    after ops3 V (Proc.devRef .tc r) = V (Proc.devRef .tc r) :=
  after_of_writes_sub ops3 V ops3_writes h

end Cert.ReferenceIdeal.RefRun

end
-- ==== Proof.RefRunOps4.lean ====
/-
  The reference program's @main, statements 241 … 300 of 369 (its window `main_part4`), as a list of host operations.

  The window is a straight line: each statement is one host operation on whole buffers, or a call of one of the module's
  small functions (a clip from below, a maximum with zero, a column variance that in turn calls a select).  A call runs the
  callee's operations on the call's own buffers, so here the callee's operations are listed in place of the call, reading
  the call's operands and writing the buffers of that call's record; the buffer a call returns is the @main result it
  becomes.

  * `part4_eq`: the window IS that line (the functions unfolded at their calls, the sequencing re-associated).
  * `ops4_sub`: every operation touches TensorCore buffers only.
  * `ops4_fresh`: every operation determines its results.
  * `ops4_W`, `ops4_writes`, `ops4_keep`: the buffers the line writes, one per operation, and that any other
    buffer holds after the line what it held before.
-/
import proofs.«130402_j14499809591446_2_alg».proof.Proof.RefRunBase

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- The 85 operations of statements 241 … 300, in program order, callee bodies in place of their calls. -/
abbrev ops4 : List (HloOp τ sig (Elt F)) :=
  [ StableHlo.unary main_v205 main_v206 (broadcastInDim S100000x64 ![0, 1] bcast_S1x64_S100000x64_0_1 : (⟨S1x64, .f32⟩ : BufTy).Contents (Elt F) → (⟨S100000x64, .f32⟩ : BufTy).Contents (Elt F)),
    StableHlo.binary main_v204 main_v206 main_v207 (addf : (⟨S100000x64, .f32⟩ : BufTy).Contents (Elt F) → (⟨S100000x64, .f32⟩ : BufTy).Contents (Elt F) → (⟨S100000x64, .f32⟩ : BufTy).Contents (Elt F)),
    StableHlo.unary main_arg17 main_v208 ((extractStridedSlice S1x64 ![2, 0] · slices_S4x64_S1x64_2_0) : (⟨S4x64, .f32⟩ : BufTy).Contents (Elt F) → (⟨S1x64, .f32⟩ : BufTy).Contents (Elt F)),
    StableHlo.reshape main_v208 main_v209 rfl shapeCasts_S1x64_S64,
    StableHlo.unary main_arg18 main_v210 ((extractStridedSlice S1x64 ![2, 0] · slices_S4x64_S1x64_2_0) : (⟨S4x64, .f32⟩ : BufTy).Contents (Elt F) → (⟨S1x64, .f32⟩ : BufTy).Contents (Elt F)),
    StableHlo.reshape main_v210 main_v211 rfl shapeCasts_S1x64_S64,
    StableHlo.nullary main_cst_32 (constant S_ .f32 0x00000000#32),
    StableHlo.binary main_v207 main_cst_32 main_v212 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_33 (constant S_ .f32 0x47C35000#32),
    StableHlo.unary main_cst_33 main_v213 (broadcastInDim S64 ![] bcast_S_S64 : (⟨S_, .f32⟩ : BufTy).Contents (Elt F) → (⟨S64, .f32⟩ : BufTy).Contents (Elt F)),
    StableHlo.binary main_v212 main_v213 main_v214 (Host.divf : (⟨S64, .f32⟩ : BufTy).Contents (Elt F) → (⟨S64, .f32⟩ : BufTy).Contents (Elt F) → (⟨S64, .f32⟩ : BufTy).Contents (Elt F)),
    StableHlo.nullary main_c_34 (constantI S_ 32 0#32),
    StableHlo.TRef.nullary main_call10.cst (constant S_ .f32 0x00000000#32),
    StableHlo.TRef.binary (.of main_v207) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v207) main_call10.v4 main_call10.v5 subf,
    StableHlo.TRef.binary main_call10.v5 main_call10.v5 main_call10.v6 mulf,
    StableHlo.TRef.unary (.of main_c_34) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v214 main_v216 (broadcastInDim S1x64 ![1] bcast_S64_S1x64_1 : (⟨S64, .f32⟩ : BufTy).Contents (Elt F) → (⟨S1x64, .f32⟩ : BufTy).Contents (Elt F)),
    StableHlo.unary main_v216 main_v217 (broadcastInDim S100000x64 ![0, 1] bcast_S1x64_S100000x64_0_1 : (⟨S1x64, .f32⟩ : BufTy).Contents (Elt F) → (⟨S100000x64, .f32⟩ : BufTy).Contents (Elt F)),
    StableHlo.binary main_v207 main_v217 main_v218 (subf : (⟨S100000x64, .f32⟩ : BufTy).Contents (Elt F) → (⟨S100000x64, .f32⟩ : BufTy).Contents (Elt F) → (⟨S100000x64, .f32⟩ : BufTy).Contents (Elt F)),
    StableHlo.nullary main_cst_35 (constant S_ .f32 0x3727C5AC#32),
    StableHlo.unary main_cst_35 main_v219 (broadcastInDim S64 ![] bcast_S_S64 : (⟨S_, .f32⟩ : BufTy).Contents (Elt F) → (⟨S64, .f32⟩ : BufTy).Contents (Elt F)),
    StableHlo.binary main_v215 main_v219 main_v220 (addf : (⟨S64, .f32⟩ : BufTy).Contents (Elt F) → (⟨S64, .f32⟩ : BufTy).Contents (Elt F) → (⟨S64, .f32⟩ : BufTy).Contents (Elt F)),
    StableHlo.unary main_v220 main_v221 (Host.rsqrt : (⟨S64, .f32⟩ : BufTy).Contents (Elt F) → (⟨S64, .f32⟩ : BufTy).Contents (Elt F)),
    StableHlo.unary main_v221 main_v222 (broadcastInDim S1x64 ![1] bcast_S64_S1x64_1 : (⟨S64, .f32⟩ : BufTy).Contents (Elt F) → (⟨S1x64, .f32⟩ : BufTy).Contents (Elt F)),
    StableHlo.unary main_v222 main_v223 (broadcastInDim S100000x64 ![0, 1] bcast_S1x64_S100000x64_0_1 : (⟨S1x64, .f32⟩ : BufTy).Contents (Elt F) → (⟨S100000x64, .f32⟩ : BufTy).Contents (Elt F)),
    StableHlo.binary main_v218 main_v223 main_v224 (mulf : (⟨S100000x64, .f32⟩ : BufTy).Contents (Elt F) → (⟨S100000x64, .f32⟩ : BufTy).Contents (Elt F) → (⟨S100000x64, .f32⟩ : BufTy).Contents (Elt F)),
    StableHlo.unary main_v209 main_v225 (broadcastInDim S1x64 ![1] bcast_S64_S1x64_1 : (⟨S64, .f32⟩ : BufTy).Contents (Elt F) → (⟨S1x64, .f32⟩ : BufTy).Contents (Elt F)),
    StableHlo.unary main_v225 main_v226 (broadcastInDim S100000x64 ![0, 1] bcast_S1x64_S100000x64_0_1 : (⟨S1x64, .f32⟩ : BufTy).Contents (Elt F) → (⟨S100000x64, .f32⟩ : BufTy).Contents (Elt F)),
    StableHlo.binary main_v224 main_v226 main_v227 (mulf : (⟨S100000x64, .f32⟩ : BufTy).Contents (Elt F) → (⟨S100000x64, .f32⟩ : BufTy).Contents (Elt F) → (⟨S100000x64, .f32⟩ : BufTy).Contents (Elt F)),
    StableHlo.unary main_v211 main_v228 (broadcastInDim S1x64 ![1] bcast_S64_S1x64_1 : (⟨S64, .f32⟩ : BufTy).Contents (Elt F) → (⟨S1x64, .f32⟩ : BufTy).Contents (Elt F)),
    StableHlo.unary main_v228 main_v229 (broadcastInDim S100000x64 ![0, 1] bcast_S1x64_S100000x64_0_1 : (⟨S1x64, .f32⟩ : BufTy).Contents (Elt F) → (⟨S100000x64, .f32⟩ : BufTy).Contents (Elt F)),
    StableHlo.binary main_v227 main_v229 main_v230 (addf : (⟨S100000x64, .f32⟩ : BufTy).Contents (Elt F) → (⟨S100000x64, .f32⟩ : BufTy).Contents (Elt F) → (⟨S100000x64, .f32⟩ : BufTy).Contents (Elt F)),
    StableHlo.binary main_v230 main_v183 main_v231 (addf : (⟨S100000x64, .f32⟩ : BufTy).Contents (Elt F) → (⟨S100000x64, .f32⟩ : BufTy).Contents (Elt F) → (⟨S100000x64, .f32⟩ : BufTy).Contents (Elt F)),
    StableHlo.TRef.nullary main_call11.cst (constant S_ .f32 0x00000000#32),
    StableHlo.TRef.unary main_call11.cst main_call11.v0 (broadcastInDim S100000x64 ![] bcast_S_S100000x64),
    StableHlo.TRef.binary (.of main_v231) main_call11.v0 main_call11.v1 maximumf,
    StableHlo.nullary main_c_36 (constantI S_ 32 0#32),
    StableHlo.unary main_c_36 main_v233 (broadcastInDim S1600000 ![] bcast_S_S1600000 : (⟨S_, .i32⟩ : BufTy).Contents (Elt F) → (⟨S1600000, .i32⟩ : BufTy).Contents (Elt F)),
    StableHlo.binary main_arg1 main_v233 main_v234 (cmpi .slt : (⟨S1600000, .i32⟩ : BufTy).Contents (Elt F) → (⟨S1600000, .i32⟩ : BufTy).Contents (Elt F) → (⟨S1600000, .i1⟩ : BufTy).Contents (Elt F)),
    StableHlo.nullary main_c_37 (constantI S_ 32 100000#32),
    StableHlo.unary main_c_37 main_v235 (broadcastInDim S1600000 ![] bcast_S_S1600000 : (⟨S_, .i32⟩ : BufTy).Contents (Elt F) → (⟨S1600000, .i32⟩ : BufTy).Contents (Elt F)),
    StableHlo.binary main_arg1 main_v235 main_v236 (addi : (⟨S1600000, .i32⟩ : BufTy).Contents (Elt F) → (⟨S1600000, .i32⟩ : BufTy).Contents (Elt F) → (⟨S1600000, .i32⟩ : BufTy).Contents (Elt F)),
    StableHlo.ternary main_v234 main_v236 main_arg1 main_v237 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v237 main_v238 (broadcastInDim S1600000x1 ![0] bcast_S1600000_S1600000x1_0 : (⟨S1600000, .i32⟩ : BufTy).Contents (Elt F) → (⟨S1600000x1, .i32⟩ : BufTy).Contents (Elt F)),
    StableHlo.binary main_v232 main_v238 main_v239 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_38 (constant S_ .f32 0x00000000#32),
    StableHlo.unary main_cst_38 main_v240 (broadcastInDim S100000x64 ![] bcast_S_S100000x64 : (⟨S_, .f32⟩ : BufTy).Contents (Elt F) → (⟨S100000x64, .f32⟩ : BufTy).Contents (Elt F)),
    StableHlo.unary main_arg2 main_v241 (broadcastInDim S1600000x1 ![0] bcast_S1600000_S1600000x1_0 : (⟨S1600000, .i32⟩ : BufTy).Contents (Elt F) → (⟨S1600000x1, .i32⟩ : BufTy).Contents (Elt F)),
    StableHlo.ternary main_v240 main_v241 main_v239 main_v242 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v8 main_v243 (broadcastInDim S100000x1 ![0] bcast_S100000_S100000x1_0 : (⟨S100000, .f32⟩ : BufTy).Contents (Elt F) → (⟨S100000x1, .f32⟩ : BufTy).Contents (Elt F)),
    StableHlo.unary main_v243 main_v244 (broadcastInDim S100000x64 ![0, 1] bcast_S100000x1_S100000x64_0_1 : (⟨S100000x1, .f32⟩ : BufTy).Contents (Elt F) → (⟨S100000x64, .f32⟩ : BufTy).Contents (Elt F)),
    StableHlo.binary main_v242 main_v244 main_v245 (Host.divf : (⟨S100000x64, .f32⟩ : BufTy).Contents (Elt F) → (⟨S100000x64, .f32⟩ : BufTy).Contents (Elt F) → (⟨S100000x64, .f32⟩ : BufTy).Contents (Elt F)),
    StableHlo.binary main_v232 main_v245 main_v246 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v246 main_arg9 main_v247 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v248 (broadcastInDim S1x64 ![1] bcast_S64_S1x64_1 : (⟨S64, .f32⟩ : BufTy).Contents (Elt F) → (⟨S1x64, .f32⟩ : BufTy).Contents (Elt F)),
    StableHlo.unary main_v248 main_v249 (broadcastInDim S100000x64 ![0, 1] bcast_S1x64_S100000x64_0_1 : (⟨S1x64, .f32⟩ : BufTy).Contents (Elt F) → (⟨S100000x64, .f32⟩ : BufTy).Contents (Elt F)),
    StableHlo.binary main_v247 main_v249 main_v250 (addf : (⟨S100000x64, .f32⟩ : BufTy).Contents (Elt F) → (⟨S100000x64, .f32⟩ : BufTy).Contents (Elt F) → (⟨S100000x64, .f32⟩ : BufTy).Contents (Elt F)),
    StableHlo.TRef.nullary main_call12.cst (constant S_ .f32 0x00000000#32),
    StableHlo.TRef.unary main_call12.cst main_call12.v0 (broadcastInDim S100000x64 ![] bcast_S_S100000x64),
    StableHlo.TRef.binary (.of main_v250) main_call12.v0 main_call12.v1 maximumf,
    StableHlo.binary main_v251 main_arg11 main_v252 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg12 main_v253 (broadcastInDim S1x1 ![1] bcast_S1_S1x1_1 : (⟨S1, .f32⟩ : BufTy).Contents (Elt F) → (⟨S1x1, .f32⟩ : BufTy).Contents (Elt F)),
    StableHlo.unary main_v253 main_v254 (broadcastInDim S100000x1 ![0, 1] bcast_S1x1_S100000x1_0_1 : (⟨S1x1, .f32⟩ : BufTy).Contents (Elt F) → (⟨S100000x1, .f32⟩ : BufTy).Contents (Elt F)),
    StableHlo.binary main_v252 main_v254 main_v255 (addf : (⟨S100000x1, .f32⟩ : BufTy).Contents (Elt F) → (⟨S100000x1, .f32⟩ : BufTy).Contents (Elt F) → (⟨S100000x1, .f32⟩ : BufTy).Contents (Elt F)),
    StableHlo.unary main_v255 main_v256 (Host.negf : (⟨S100000x1, .f32⟩ : BufTy).Contents (Elt F) → (⟨S100000x1, .f32⟩ : BufTy).Contents (Elt F)),
    StableHlo.unary main_v256 main_v257 (Host.exp : (⟨S100000x1, .f32⟩ : BufTy).Contents (Elt F) → (⟨S100000x1, .f32⟩ : BufTy).Contents (Elt F)),
    StableHlo.nullary main_cst_39 (constant S_ .f32 0x3F800000#32) ]

set_option maxRecDepth 4096 in
set_option maxHeartbeats 4000000 in
/-- The window is that straight line. -/
theorem part4_eq (c : Dev nD) : main_part4 (F := F) c = seq ops4 := by
  simp only [main_part4, fn_clip.body, fn_relu.body, fn_relu_0.body, fn_var.body, fn_where.body, seq, bind_assoc, pure_bind] <;> rfl

/-- Every operation of the window touches TensorCore buffers only. -/
theorem ops4_sub : (ops4 : List (HloOp τ sig (Elt F))).Forall fun op => op.bufs ⊆ tcRefs τ sig :=
  ⟨unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., unary_bufs_sub .., unary_bufs_sub ..,
    nullary_bufs_sub ..⟩

/-- Every operation of the window determines its results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

/-- The buffers the window's operations write, in program order (each operation writes one, its result). -/
abbrev ops4_W : List (Ref sig .tc) :=
  [main_v206, main_v207, main_v208, main_v209, main_v210, main_v211, main_cst_32, main_v212,
    main_cst_33, main_v213, main_v214, main_c_34, main_call10.cst.ref, main_call10.v0.ref, main_call10.v1.ref, main_call10.cst_0.ref,
    main_call10.v2.ref, main_call10.v3.ref, main_call10.v4.ref, main_call10.v5.ref, main_call10.v6.ref, main_call10.v7.ref, main_call10.cst_1.ref, main_call10.v8.ref,
    main_call10.cst_2.ref, main_call10.v9.ref, main_call10.v10.ref, main_call10.v11.ref, main_call10.cst_3.ref, main_call10.v12.ref, main_call10.cst_4.ref, main_call10.call0.v0.ref,
    main_call10.call0.v1.ref, main_call10.call0.v2.ref, main_v216, main_v217, main_v218, main_cst_35, main_v219, main_v220,
    main_v221, main_v222, main_v223, main_v224, main_v225, main_v226, main_v227, main_v228,
    main_v229, main_v230, main_v231, main_call11.cst.ref, main_call11.v0.ref, main_call11.v1.ref, main_c_36, main_v233,
    main_v234, main_c_37, main_v235, main_v236, main_v237, main_v238, main_v239, main_cst_38,
    main_v240, main_v241, main_v242, main_v243, main_v244, main_v245, main_v246, main_v247,
    main_v248, main_v249, main_v250, main_call12.cst.ref, main_call12.v0.ref, main_call12.v1.ref, main_v252, main_v253,
    main_v254, main_v255, main_v256, main_v257, main_cst_39]

/-- Each operation writes inside that list. -/
theorem ops4_writes : (ops4 : List (HloOp τ sig (Elt F))).Forall fun op =>
    op.writes ⊆ (ops4_W.map (Proc.devRef (τ := τ) .tc)).toFinset :=
  ⟨writes_sub_of main_v206 rfl (by decide), writes_sub_of main_v207 rfl (by decide), writes_sub_of main_v208 rfl (by decide),
    writes_sub_of main_v209 rfl (by decide), writes_sub_of main_v210 rfl (by decide), writes_sub_of main_v211 rfl (by decide),
    writes_sub_of main_cst_32 rfl (by decide), writes_sub_of main_v212 rfl (by decide), writes_sub_of main_cst_33 rfl (by decide),
    writes_sub_of main_v213 rfl (by decide), writes_sub_of main_v214 rfl (by decide), writes_sub_of main_c_34 rfl (by decide),
    writes_sub_of (main_call10.cst.ref) rfl (by decide), writes_sub_of (main_call10.v0.ref) rfl (by decide), writes_sub_of (main_call10.v1.ref) rfl (by decide),
    writes_sub_of (main_call10.cst_0.ref) rfl (by decide), writes_sub_of (main_call10.v2.ref) rfl (by decide), writes_sub_of (main_call10.v3.ref) rfl (by decide),
    writes_sub_of (main_call10.v4.ref) rfl (by decide), writes_sub_of (main_call10.v5.ref) rfl (by decide), writes_sub_of (main_call10.v6.ref) rfl (by decide),
    writes_sub_of (main_call10.v7.ref) rfl (by decide), writes_sub_of (main_call10.cst_1.ref) rfl (by decide), writes_sub_of (main_call10.v8.ref) rfl (by decide),
    writes_sub_of (main_call10.cst_2.ref) rfl (by decide), writes_sub_of (main_call10.v9.ref) rfl (by decide), writes_sub_of (main_call10.v10.ref) rfl (by decide),
    writes_sub_of (main_call10.v11.ref) rfl (by decide), writes_sub_of (main_call10.cst_3.ref) rfl (by decide), writes_sub_of (main_call10.v12.ref) rfl (by decide),
    writes_sub_of (main_call10.cst_4.ref) rfl (by decide), writes_sub_of (main_call10.call0.v0.ref) rfl (by decide), writes_sub_of (main_call10.call0.v1.ref) rfl (by decide),
    writes_sub_of (main_call10.call0.v2.ref) rfl (by decide), writes_sub_of main_v216 rfl (by decide), writes_sub_of main_v217 rfl (by decide),
    writes_sub_of main_v218 rfl (by decide), writes_sub_of main_cst_35 rfl (by decide), writes_sub_of main_v219 rfl (by decide),
    writes_sub_of main_v220 rfl (by decide), writes_sub_of main_v221 rfl (by decide), writes_sub_of main_v222 rfl (by decide),
    writes_sub_of main_v223 rfl (by decide), writes_sub_of main_v224 rfl (by decide), writes_sub_of main_v225 rfl (by decide),
    writes_sub_of main_v226 rfl (by decide), writes_sub_of main_v227 rfl (by decide), writes_sub_of main_v228 rfl (by decide),
    writes_sub_of main_v229 rfl (by decide), writes_sub_of main_v230 rfl (by decide), writes_sub_of main_v231 rfl (by decide),
    writes_sub_of (main_call11.cst.ref) rfl (by decide), writes_sub_of (main_call11.v0.ref) rfl (by decide), writes_sub_of (main_call11.v1.ref) rfl (by decide),
    writes_sub_of main_c_36 rfl (by decide), writes_sub_of main_v233 rfl (by decide), writes_sub_of main_v234 rfl (by decide),
    writes_sub_of main_c_37 rfl (by decide), writes_sub_of main_v235 rfl (by decide), writes_sub_of main_v236 rfl (by decide),
    writes_sub_of main_v237 rfl (by decide), writes_sub_of main_v238 rfl (by decide), writes_sub_of main_v239 rfl (by decide),
    writes_sub_of main_cst_38 rfl (by decide), writes_sub_of main_v240 rfl (by decide), writes_sub_of main_v241 rfl (by decide),
    writes_sub_of main_v242 rfl (by decide), writes_sub_of main_v243 rfl (by decide), writes_sub_of main_v244 rfl (by decide),
    writes_sub_of main_v245 rfl (by decide), writes_sub_of main_v246 rfl (by decide), writes_sub_of main_v247 rfl (by decide),
    writes_sub_of main_v248 rfl (by decide), writes_sub_of main_v249 rfl (by decide), writes_sub_of main_v250 rfl (by decide),
    writes_sub_of (main_call12.cst.ref) rfl (by decide), writes_sub_of (main_call12.v0.ref) rfl (by decide), writes_sub_of (main_call12.v1.ref) rfl (by decide),
    writes_sub_of main_v252 rfl (by decide), writes_sub_of main_v253 rfl (by decide), writes_sub_of main_v254 rfl (by decide),
    writes_sub_of main_v255 rfl (by decide), writes_sub_of main_v256 rfl (by decide), writes_sub_of main_v257 rfl (by decide),
    writes_sub_of main_cst_39 rfl (by decide)⟩

/-- A buffer the window does not write holds after it what it held before. -/
theorem ops4_keep (V : Valuation τ sig (Elt F)) (r : Ref sig .tc) (h : r ∉ ops4_W) :
    after ops4 V (Proc.devRef .tc r) = V (Proc.devRef .tc r) :=
  after_of_writes_sub ops4 V ops4_writes h

end Cert.ReferenceIdeal.RefRun

end
-- ==== Proof.RefRunOps5.lean ====
/-
  The reference program's @main, statements 301 … 360 of 369 (its window `main_part5`), as a list of host operations.

  The window is a straight line: each statement is one host operation on whole buffers, or a call of one of the module's
  small functions (a clip from below, a maximum with zero, a column variance that in turn calls a select).  A call runs the
  callee's operations on the call's own buffers, so here the callee's operations are listed in place of the call, reading
  the call's operands and writing the buffers of that call's record; the buffer a call returns is the @main result it
  becomes.

  * `part5_eq`: the window IS that line (the functions unfolded at their calls, the sequencing re-associated).
  * `ops5_sub`: every operation touches TensorCore buffers only.
  * `ops5_fresh`: every operation determines its results.
  * `ops5_W`, `ops5_writes`, `ops5_keep`: the buffers the line writes, one per operation, and that any other
    buffer holds after the line what it held before.
-/
import proofs.«130402_j14499809591446_2_alg».proof.Proof.RefRunBase

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- The 81 operations of statements 301 … 360, in program order, callee bodies in place of their calls. -/
abbrev ops5 : List (HloOp τ sig (Elt F)) :=
  [ StableHlo.unary main_cst_39 main_v258 (broadcastInDim S100000x1 ![] bcast_S_S100000x1 : (⟨S_, .f32⟩ : BufTy).Contents (Elt F) → (⟨S100000x1, .f32⟩ : BufTy).Contents (Elt F)),
    StableHlo.binary main_v258 main_v257 main_v259 (addf : (⟨S100000x1, .f32⟩ : BufTy).Contents (Elt F) → (⟨S100000x1, .f32⟩ : BufTy).Contents (Elt F) → (⟨S100000x1, .f32⟩ : BufTy).Contents (Elt F)),
    StableHlo.nullary main_cst_40 (constant S_ .f32 0x3F800000#32),
    StableHlo.unary main_cst_40 main_v260 (broadcastInDim S100000x1 ![] bcast_S_S100000x1 : (⟨S_, .f32⟩ : BufTy).Contents (Elt F) → (⟨S100000x1, .f32⟩ : BufTy).Contents (Elt F)),
    StableHlo.binary main_v260 main_v259 main_v261 (Host.divf : (⟨S100000x1, .f32⟩ : BufTy).Contents (Elt F) → (⟨S100000x1, .f32⟩ : BufTy).Contents (Elt F) → (⟨S100000x1, .f32⟩ : BufTy).Contents (Elt F)),
    StableHlo.unary main_v261 main_v262 (broadcastInDim S100000x64 ![0, 1] bcast_S100000x1_S100000x64_0_1 : (⟨S100000x1, .f32⟩ : BufTy).Contents (Elt F) → (⟨S100000x64, .f32⟩ : BufTy).Contents (Elt F)),
    StableHlo.binary main_v262 main_v245 main_v263 (mulf : (⟨S100000x64, .f32⟩ : BufTy).Contents (Elt F) → (⟨S100000x64, .f32⟩ : BufTy).Contents (Elt F) → (⟨S100000x64, .f32⟩ : BufTy).Contents (Elt F)),
    StableHlo.binary main_v232 main_v263 main_v264 (addf : (⟨S100000x64, .f32⟩ : BufTy).Contents (Elt F) → (⟨S100000x64, .f32⟩ : BufTy).Contents (Elt F) → (⟨S100000x64, .f32⟩ : BufTy).Contents (Elt F)),
    StableHlo.unary main_arg15 main_v265 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v265 main_v266 rfl shapeCasts_S1x64x64_S64x64,
    StableHlo.unary main_arg16 main_v267 ((extractStridedSlice S1x64 ![2, 0] · slices_S3x64_S1x64_2_0) : (⟨S3x64, .f32⟩ : BufTy).Contents (Elt F) → (⟨S1x64, .f32⟩ : BufTy).Contents (Elt F)),
    StableHlo.reshape main_v267 main_v268 rfl shapeCasts_S1x64_S64,
    StableHlo.unary main_v10 main_v269 (broadcastInDim S100000x1 ![0] bcast_S100000_S100000x1_0 : (⟨S100000, .f32⟩ : BufTy).Contents (Elt F) → (⟨S100000x1, .f32⟩ : BufTy).Contents (Elt F)),
    StableHlo.unary main_v269 main_v270 (broadcastInDim S100000x64 ![0, 1] bcast_S100000x1_S100000x64_0_1 : (⟨S100000x1, .f32⟩ : BufTy).Contents (Elt F) → (⟨S100000x64, .f32⟩ : BufTy).Contents (Elt F)),
    StableHlo.binary main_v264 main_v270 main_v271 (mulf : (⟨S100000x64, .f32⟩ : BufTy).Contents (Elt F) → (⟨S100000x64, .f32⟩ : BufTy).Contents (Elt F) → (⟨S100000x64, .f32⟩ : BufTy).Contents (Elt F)),
    StableHlo.nullary main_c_41 (constantI S_ 32 0#32),
    StableHlo.unary main_c_41 main_v272 (broadcastInDim S1600000 ![] bcast_S_S1600000 : (⟨S_, .i32⟩ : BufTy).Contents (Elt F) → (⟨S1600000, .i32⟩ : BufTy).Contents (Elt F)),
    StableHlo.binary main_arg1 main_v272 main_v273 (cmpi .slt : (⟨S1600000, .i32⟩ : BufTy).Contents (Elt F) → (⟨S1600000, .i32⟩ : BufTy).Contents (Elt F) → (⟨S1600000, .i1⟩ : BufTy).Contents (Elt F)),
    StableHlo.nullary main_c_42 (constantI S_ 32 100000#32),
    StableHlo.unary main_c_42 main_v274 (broadcastInDim S1600000 ![] bcast_S_S1600000 : (⟨S_, .i32⟩ : BufTy).Contents (Elt F) → (⟨S1600000, .i32⟩ : BufTy).Contents (Elt F)),
    StableHlo.binary main_arg1 main_v274 main_v275 (addi : (⟨S1600000, .i32⟩ : BufTy).Contents (Elt F) → (⟨S1600000, .i32⟩ : BufTy).Contents (Elt F) → (⟨S1600000, .i32⟩ : BufTy).Contents (Elt F)),
    StableHlo.ternary main_v273 main_v275 main_arg1 main_v276 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v276 main_v277 (broadcastInDim S1600000x1 ![0] bcast_S1600000_S1600000x1_0 : (⟨S1600000, .i32⟩ : BufTy).Contents (Elt F) → (⟨S1600000x1, .i32⟩ : BufTy).Contents (Elt F)),
    StableHlo.binary main_v271 main_v277 main_v278 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_43 (constant S_ .f32 0x00000000#32),
    StableHlo.unary main_cst_43 main_v279 (broadcastInDim S100000x64 ![] bcast_S_S100000x64 : (⟨S_, .f32⟩ : BufTy).Contents (Elt F) → (⟨S100000x64, .f32⟩ : BufTy).Contents (Elt F)),
    StableHlo.unary main_arg2 main_v280 (broadcastInDim S1600000x1 ![0] bcast_S1600000_S1600000x1_0 : (⟨S1600000, .i32⟩ : BufTy).Contents (Elt F) → (⟨S1600000x1, .i32⟩ : BufTy).Contents (Elt F)),
    StableHlo.ternary main_v279 main_v280 main_v278 main_v281 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v12 main_v282 (broadcastInDim S100000x1 ![0] bcast_S100000_S100000x1_0 : (⟨S100000, .f32⟩ : BufTy).Contents (Elt F) → (⟨S100000x1, .f32⟩ : BufTy).Contents (Elt F)),
    StableHlo.unary main_v282 main_v283 (broadcastInDim S100000x64 ![0, 1] bcast_S100000x1_S100000x64_0_1 : (⟨S100000x1, .f32⟩ : BufTy).Contents (Elt F) → (⟨S100000x64, .f32⟩ : BufTy).Contents (Elt F)),
    StableHlo.binary main_v281 main_v283 main_v284 (mulf : (⟨S100000x64, .f32⟩ : BufTy).Contents (Elt F) → (⟨S100000x64, .f32⟩ : BufTy).Contents (Elt F) → (⟨S100000x64, .f32⟩ : BufTy).Contents (Elt F)),
    StableHlo.binary main_v284 main_v266 main_v285 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v268 main_v286 (broadcastInDim S1x64 ![1] bcast_S64_S1x64_1 : (⟨S64, .f32⟩ : BufTy).Contents (Elt F) → (⟨S1x64, .f32⟩ : BufTy).Contents (Elt F)),
    StableHlo.unary main_v286 main_v287 (broadcastInDim S100000x64 ![0, 1] bcast_S1x64_S100000x64_0_1 : (⟨S1x64, .f32⟩ : BufTy).Contents (Elt F) → (⟨S100000x64, .f32⟩ : BufTy).Contents (Elt F)),
    StableHlo.binary main_v285 main_v287 main_v288 (addf : (⟨S100000x64, .f32⟩ : BufTy).Contents (Elt F) → (⟨S100000x64, .f32⟩ : BufTy).Contents (Elt F) → (⟨S100000x64, .f32⟩ : BufTy).Contents (Elt F)),
    StableHlo.unary main_arg17 main_v289 ((extractStridedSlice S1x64 ![3, 0] · slices_S4x64_S1x64_3_0) : (⟨S4x64, .f32⟩ : BufTy).Contents (Elt F) → (⟨S1x64, .f32⟩ : BufTy).Contents (Elt F)),
    StableHlo.reshape main_v289 main_v290 rfl shapeCasts_S1x64_S64,
    StableHlo.unary main_arg18 main_v291 ((extractStridedSlice S1x64 ![3, 0] · slices_S4x64_S1x64_3_0) : (⟨S4x64, .f32⟩ : BufTy).Contents (Elt F) → (⟨S1x64, .f32⟩ : BufTy).Contents (Elt F)),
    StableHlo.reshape main_v291 main_v292 rfl shapeCasts_S1x64_S64,
    StableHlo.nullary main_cst_44 (constant S_ .f32 0x00000000#32),
    StableHlo.binary main_v288 main_cst_44 main_v293 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_45 (constant S_ .f32 0x47C35000#32),
    StableHlo.unary main_cst_45 main_v294 (broadcastInDim S64 ![] bcast_S_S64 : (⟨S_, .f32⟩ : BufTy).Contents (Elt F) → (⟨S64, .f32⟩ : BufTy).Contents (Elt F)),
    StableHlo.binary main_v293 main_v294 main_v295 (Host.divf : (⟨S64, .f32⟩ : BufTy).Contents (Elt F) → (⟨S64, .f32⟩ : BufTy).Contents (Elt F) → (⟨S64, .f32⟩ : BufTy).Contents (Elt F)),
    StableHlo.nullary main_c_46 (constantI S_ 32 0#32),
    StableHlo.TRef.nullary main_call13.cst (constant S_ .f32 0x00000000#32),
    StableHlo.TRef.binary (.of main_v288) main_call13.cst main_call13.v0 (fun x v => Host.reduceAdd x v reducesTo_S100000x64_S64_d0 h_S_),
    StableHlo.TRef.unary main_call13.v0 main_call13.v1 (broadcastInDim S1x64 ![1] bcast_S64_S1x64_1),
    StableHlo.TRef.nullary main_call13.cst_0 (constant S_ .f32 0x47C35000#32),
    StableHlo.TRef.unary main_call13.cst_0 main_call13.v2 (broadcastInDim S1x64 ![] bcast_S_S1x64),
    StableHlo.TRef.binary main_call13.v1 main_call13.v2 main_call13.v3 Host.divf,
    StableHlo.TRef.unary main_call13.v3 main_call13.v4 (broadcastInDim S100000x64 ![0, 1] bcast_S1x64_S100000x64_0_1),
    StableHlo.TRef.binary (.of main_v288) main_call13.v4 main_call13.v5 subf,
    StableHlo.TRef.binary main_call13.v5 main_call13.v5 main_call13.v6 mulf,
    StableHlo.TRef.unary (.of main_c_46) main_call13.v7 (sitofp .f32),
    StableHlo.TRef.nullary main_call13.cst_1 (constant S_ .f32 0x47C35000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S100000x64_S64_d0 h_S_),
    StableHlo.TRef.unary main_call13.v8 main_call13.v10 (broadcastInDim S64 ![] bcast_S_S64),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S64 ![] bcast_S_S64),
    StableHlo.TRef.ternary main_call13.v12 main_call13.v11 main_call13.call0.v1 main_call13.call0.v2 (fun p a b => select (broadcastInDim S64 ![] bcast_S_S64 p) a b),
    StableHlo.unary main_v295 main_v297 (broadcastInDim S1x64 ![1] bcast_S64_S1x64_1 : (⟨S64, .f32⟩ : BufTy).Contents (Elt F) → (⟨S1x64, .f32⟩ : BufTy).Contents (Elt F)),
    StableHlo.unary main_v297 main_v298 (broadcastInDim S100000x64 ![0, 1] bcast_S1x64_S100000x64_0_1 : (⟨S1x64, .f32⟩ : BufTy).Contents (Elt F) → (⟨S100000x64, .f32⟩ : BufTy).Contents (Elt F)),
    StableHlo.binary main_v288 main_v298 main_v299 (subf : (⟨S100000x64, .f32⟩ : BufTy).Contents (Elt F) → (⟨S100000x64, .f32⟩ : BufTy).Contents (Elt F) → (⟨S100000x64, .f32⟩ : BufTy).Contents (Elt F)),
    StableHlo.nullary main_cst_47 (constant S_ .f32 0x3727C5AC#32),
    StableHlo.unary main_cst_47 main_v300 (broadcastInDim S64 ![] bcast_S_S64 : (⟨S_, .f32⟩ : BufTy).Contents (Elt F) → (⟨S64, .f32⟩ : BufTy).Contents (Elt F)),
    StableHlo.binary main_v296 main_v300 main_v301 (addf : (⟨S64, .f32⟩ : BufTy).Contents (Elt F) → (⟨S64, .f32⟩ : BufTy).Contents (Elt F) → (⟨S64, .f32⟩ : BufTy).Contents (Elt F)),
    StableHlo.unary main_v301 main_v302 (Host.rsqrt : (⟨S64, .f32⟩ : BufTy).Contents (Elt F) → (⟨S64, .f32⟩ : BufTy).Contents (Elt F)),
    StableHlo.unary main_v302 main_v303 (broadcastInDim S1x64 ![1] bcast_S64_S1x64_1 : (⟨S64, .f32⟩ : BufTy).Contents (Elt F) → (⟨S1x64, .f32⟩ : BufTy).Contents (Elt F)),
    StableHlo.unary main_v303 main_v304 (broadcastInDim S100000x64 ![0, 1] bcast_S1x64_S100000x64_0_1 : (⟨S1x64, .f32⟩ : BufTy).Contents (Elt F) → (⟨S100000x64, .f32⟩ : BufTy).Contents (Elt F)),
    StableHlo.binary main_v299 main_v304 main_v305 (mulf : (⟨S100000x64, .f32⟩ : BufTy).Contents (Elt F) → (⟨S100000x64, .f32⟩ : BufTy).Contents (Elt F) → (⟨S100000x64, .f32⟩ : BufTy).Contents (Elt F)),
    StableHlo.unary main_v290 main_v306 (broadcastInDim S1x64 ![1] bcast_S64_S1x64_1 : (⟨S64, .f32⟩ : BufTy).Contents (Elt F) → (⟨S1x64, .f32⟩ : BufTy).Contents (Elt F)),
    StableHlo.unary main_v306 main_v307 (broadcastInDim S100000x64 ![0, 1] bcast_S1x64_S100000x64_0_1 : (⟨S1x64, .f32⟩ : BufTy).Contents (Elt F) → (⟨S100000x64, .f32⟩ : BufTy).Contents (Elt F)),
    StableHlo.binary main_v305 main_v307 main_v308 (mulf : (⟨S100000x64, .f32⟩ : BufTy).Contents (Elt F) → (⟨S100000x64, .f32⟩ : BufTy).Contents (Elt F) → (⟨S100000x64, .f32⟩ : BufTy).Contents (Elt F)),
    StableHlo.unary main_v292 main_v309 (broadcastInDim S1x64 ![1] bcast_S64_S1x64_1 : (⟨S64, .f32⟩ : BufTy).Contents (Elt F) → (⟨S1x64, .f32⟩ : BufTy).Contents (Elt F)) ]

set_option maxRecDepth 4096 in
set_option maxHeartbeats 4000000 in
/-- The window is that straight line. -/
theorem part5_eq (c : Dev nD) : main_part5 (F := F) c = seq ops5 := by
  simp only [main_part5, fn_clip.body, fn_relu.body, fn_relu_0.body, fn_var.body, fn_where.body, seq, bind_assoc, pure_bind] <;> rfl

/-- Every operation of the window touches TensorCore buffers only. -/
theorem ops5_sub : (ops5 : List (HloOp τ sig (Elt F))).Forall fun op => op.bufs ⊆ tcRefs τ sig :=
  ⟨unary_bufs_sub .., binary_bufs_sub .., nullary_bufs_sub .., unary_bufs_sub .., binary_bufs_sub .., unary_bufs_sub ..,
    binary_bufs_sub .., binary_bufs_sub .., unary_bufs_sub .., reshape_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., unary_bufs_sub .., unary_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub ..⟩

/-- Every operation of the window determines its results. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩

/-- The buffers the window's operations write, in program order (each operation writes one, its result). -/
abbrev ops5_W : List (Ref sig .tc) :=
  [main_v258, main_v259, main_cst_40, main_v260, main_v261, main_v262, main_v263, main_v264,
    main_v265, main_v266, main_v267, main_v268, main_v269, main_v270, main_v271, main_c_41,
    main_v272, main_v273, main_c_42, main_v274, main_v275, main_v276, main_v277, main_v278,
    main_cst_43, main_v279, main_v280, main_v281, main_v282, main_v283, main_v284, main_v285,
    main_v286, main_v287, main_v288, main_v289, main_v290, main_v291, main_v292, main_cst_44,
    main_v293, main_cst_45, main_v294, main_v295, main_c_46, main_call13.cst.ref, main_call13.v0.ref, main_call13.v1.ref,
    main_call13.cst_0.ref, main_call13.v2.ref, main_call13.v3.ref, main_call13.v4.ref, main_call13.v5.ref, main_call13.v6.ref, main_call13.v7.ref, main_call13.cst_1.ref,
    main_call13.v8.ref, main_call13.cst_2.ref, main_call13.v9.ref, main_call13.v10.ref, main_call13.v11.ref, main_call13.cst_3.ref, main_call13.v12.ref, main_call13.cst_4.ref,
    main_call13.call0.v0.ref, main_call13.call0.v1.ref, main_call13.call0.v2.ref, main_v297, main_v298, main_v299, main_cst_47, main_v300,
    main_v301, main_v302, main_v303, main_v304, main_v305, main_v306, main_v307, main_v308,
    main_v309]

/-- Each operation writes inside that list. -/
theorem ops5_writes : (ops5 : List (HloOp τ sig (Elt F))).Forall fun op =>
    op.writes ⊆ (ops5_W.map (Proc.devRef (τ := τ) .tc)).toFinset :=
  ⟨writes_sub_of main_v258 rfl (by decide), writes_sub_of main_v259 rfl (by decide), writes_sub_of main_cst_40 rfl (by decide),
    writes_sub_of main_v260 rfl (by decide), writes_sub_of main_v261 rfl (by decide), writes_sub_of main_v262 rfl (by decide),
    writes_sub_of main_v263 rfl (by decide), writes_sub_of main_v264 rfl (by decide), writes_sub_of main_v265 rfl (by decide),
    writes_sub_of main_v266 rfl (by decide), writes_sub_of main_v267 rfl (by decide), writes_sub_of main_v268 rfl (by decide),
    writes_sub_of main_v269 rfl (by decide), writes_sub_of main_v270 rfl (by decide), writes_sub_of main_v271 rfl (by decide),
    writes_sub_of main_c_41 rfl (by decide), writes_sub_of main_v272 rfl (by decide), writes_sub_of main_v273 rfl (by decide),
    writes_sub_of main_c_42 rfl (by decide), writes_sub_of main_v274 rfl (by decide), writes_sub_of main_v275 rfl (by decide),
    writes_sub_of main_v276 rfl (by decide), writes_sub_of main_v277 rfl (by decide), writes_sub_of main_v278 rfl (by decide),
    writes_sub_of main_cst_43 rfl (by decide), writes_sub_of main_v279 rfl (by decide), writes_sub_of main_v280 rfl (by decide),
    writes_sub_of main_v281 rfl (by decide), writes_sub_of main_v282 rfl (by decide), writes_sub_of main_v283 rfl (by decide),
    writes_sub_of main_v284 rfl (by decide), writes_sub_of main_v285 rfl (by decide), writes_sub_of main_v286 rfl (by decide),
    writes_sub_of main_v287 rfl (by decide), writes_sub_of main_v288 rfl (by decide), writes_sub_of main_v289 rfl (by decide),
    writes_sub_of main_v290 rfl (by decide), writes_sub_of main_v291 rfl (by decide), writes_sub_of main_v292 rfl (by decide),
    writes_sub_of main_cst_44 rfl (by decide), writes_sub_of main_v293 rfl (by decide), writes_sub_of main_cst_45 rfl (by decide),
    writes_sub_of main_v294 rfl (by decide), writes_sub_of main_v295 rfl (by decide), writes_sub_of main_c_46 rfl (by decide),
    writes_sub_of (main_call13.cst.ref) rfl (by decide), writes_sub_of (main_call13.v0.ref) rfl (by decide), writes_sub_of (main_call13.v1.ref) rfl (by decide),
    writes_sub_of (main_call13.cst_0.ref) rfl (by decide), writes_sub_of (main_call13.v2.ref) rfl (by decide), writes_sub_of (main_call13.v3.ref) rfl (by decide),
    writes_sub_of (main_call13.v4.ref) rfl (by decide), writes_sub_of (main_call13.v5.ref) rfl (by decide), writes_sub_of (main_call13.v6.ref) rfl (by decide),
    writes_sub_of (main_call13.v7.ref) rfl (by decide), writes_sub_of (main_call13.cst_1.ref) rfl (by decide), writes_sub_of (main_call13.v8.ref) rfl (by decide),
    writes_sub_of (main_call13.cst_2.ref) rfl (by decide), writes_sub_of (main_call13.v9.ref) rfl (by decide), writes_sub_of (main_call13.v10.ref) rfl (by decide),
    writes_sub_of (main_call13.v11.ref) rfl (by decide), writes_sub_of (main_call13.cst_3.ref) rfl (by decide), writes_sub_of (main_call13.v12.ref) rfl (by decide),
    writes_sub_of (main_call13.cst_4.ref) rfl (by decide), writes_sub_of (main_call13.call0.v0.ref) rfl (by decide), writes_sub_of (main_call13.call0.v1.ref) rfl (by decide),
    writes_sub_of (main_call13.call0.v2.ref) rfl (by decide), writes_sub_of main_v297 rfl (by decide), writes_sub_of main_v298 rfl (by decide),
    writes_sub_of main_v299 rfl (by decide), writes_sub_of main_cst_47 rfl (by decide), writes_sub_of main_v300 rfl (by decide),
    writes_sub_of main_v301 rfl (by decide), writes_sub_of main_v302 rfl (by decide), writes_sub_of main_v303 rfl (by decide),
    writes_sub_of main_v304 rfl (by decide), writes_sub_of main_v305 rfl (by decide), writes_sub_of main_v306 rfl (by decide),
    writes_sub_of main_v307 rfl (by decide), writes_sub_of main_v308 rfl (by decide), writes_sub_of main_v309 rfl (by decide)⟩

/-- A buffer the window does not write holds after it what it held before. -/
theorem ops5_keep (V : Valuation τ sig (Elt F)) (r : Ref sig .tc) (h : r ∉ ops5_W) :
    after ops5 V (Proc.devRef .tc r) = V (Proc.devRef .tc r) :=
  after_of_writes_sub ops5 V ops5_writes h

end Cert.ReferenceIdeal.RefRun

end
-- ==== Proof.RefRunOps6.lean ====
/-
  The reference program's @main, statements 361 … 369 of 369 (its window `main_part6`), as a list of host operations.

  The window is a straight line: each statement is one host operation on whole buffers, or a call of one of the module's
  small functions (a clip from below, a maximum with zero, a column variance that in turn calls a select).  A call runs the
  callee's operations on the call's own buffers, so here the callee's operations are listed in place of the call, reading
  the call's operands and writing the buffers of that call's record; the buffer a call returns is the @main result it
  becomes.

  * `part6_eq`: the window IS that line (the functions unfolded at their calls, the sequencing re-associated).
  * `ops6_sub`: every operation touches TensorCore buffers only.
  * `ops6_fresh`: every operation determines its results.
  * `ops6_W`, `ops6_writes`, `ops6_keep`: the buffers the line writes, one per operation, and that any other
    buffer holds after the line what it held before.
-/
import proofs.«130402_j14499809591446_2_alg».proof.Proof.RefRunBase

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- The 10 operations of statements 361 … 369, in program order, callee bodies in place of their calls. -/
abbrev ops6 : List (HloOp τ sig (Elt F)) :=
  [ StableHlo.unary main_v309 main_v310 (broadcastInDim S100000x64 ![0, 1] bcast_S1x64_S100000x64_0_1 : (⟨S1x64, .f32⟩ : BufTy).Contents (Elt F) → (⟨S100000x64, .f32⟩ : BufTy).Contents (Elt F)),
    StableHlo.binary main_v308 main_v310 main_v311 (addf : (⟨S100000x64, .f32⟩ : BufTy).Contents (Elt F) → (⟨S100000x64, .f32⟩ : BufTy).Contents (Elt F) → (⟨S100000x64, .f32⟩ : BufTy).Contents (Elt F)),
    StableHlo.binary main_v311 main_v264 main_v312 (addf : (⟨S100000x64, .f32⟩ : BufTy).Contents (Elt F) → (⟨S100000x64, .f32⟩ : BufTy).Contents (Elt F) → (⟨S100000x64, .f32⟩ : BufTy).Contents (Elt F)),
    StableHlo.TRef.nullary main_call14.cst (constant S_ .f32 0x00000000#32),
    StableHlo.TRef.unary main_call14.cst main_call14.v0 (broadcastInDim S100000x64 ![] bcast_S_S100000x64),
    StableHlo.TRef.binary (.of main_v312) main_call14.v0 main_call14.v1 maximumf,
    StableHlo.binary main_v313 main_arg19 main_v314 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    StableHlo.unary main_arg20 main_v315 (broadcastInDim S1x16 ![1] bcast_S16_S1x16_1 : (⟨S16, .f32⟩ : BufTy).Contents (Elt F) → (⟨S1x16, .f32⟩ : BufTy).Contents (Elt F)),
    StableHlo.unary main_v315 main_v316 (broadcastInDim S100000x16 ![0, 1] bcast_S1x16_S100000x16_0_1 : (⟨S1x16, .f32⟩ : BufTy).Contents (Elt F) → (⟨S100000x16, .f32⟩ : BufTy).Contents (Elt F)),
    StableHlo.binary main_v314 main_v316 main_v317 (addf : (⟨S100000x16, .f32⟩ : BufTy).Contents (Elt F) → (⟨S100000x16, .f32⟩ : BufTy).Contents (Elt F) → (⟨S100000x16, .f32⟩ : BufTy).Contents (Elt F)) ]

set_option maxRecDepth 4096 in
set_option maxHeartbeats 4000000 in
/-- The window is that straight line. -/
theorem part6_eq (c : Dev nD) : main_part6 (F := F) c = seq ops6 := by
  simp only [main_part6, fn_clip.body, fn_relu.body, fn_relu_0.body, fn_var.body, fn_where.body, seq, bind_assoc, pure_bind] <;> rfl

/-- Every operation of the window touches TensorCore buffers only. -/
theorem ops6_sub : (ops6 : List (HloOp τ sig (Elt F))).Forall fun op => op.bufs ⊆ tcRefs τ sig :=
  ⟨unary_bufs_sub .., binary_bufs_sub .., binary_bufs_sub .., nullary_bufs_sub .., unary_bufs_sub .., binary_bufs_sub ..,
    binary_bufs_sub .., unary_bufs_sub .., unary_bufs_sub .., binary_bufs_sub ..⟩

/-- Every operation of the window determines its results. -/
theorem ops6_fresh : (ops6 : List (HloOp τ sig (Elt F))).Forall fun op => op.fresh = ∅ :=
  ⟨rfl, rfl, rfl, rfl, rfl, rfl, rfl, rfl, rfl, rfl⟩

/-- The buffers the window's operations write, in program order (each operation writes one, its result). -/
abbrev ops6_W : List (Ref sig .tc) :=
  [main_v310, main_v311, main_v312, main_call14.cst.ref, main_call14.v0.ref, main_call14.v1.ref, main_v314, main_v315,
    main_v316, main_v317]

/-- Each operation writes inside that list. -/
theorem ops6_writes : (ops6 : List (HloOp τ sig (Elt F))).Forall fun op =>
    op.writes ⊆ (ops6_W.map (Proc.devRef (τ := τ) .tc)).toFinset :=
  ⟨writes_sub_of main_v310 rfl (by decide), writes_sub_of main_v311 rfl (by decide), writes_sub_of main_v312 rfl (by decide),
    writes_sub_of (main_call14.cst.ref) rfl (by decide), writes_sub_of (main_call14.v0.ref) rfl (by decide), writes_sub_of (main_call14.v1.ref) rfl (by decide),
    writes_sub_of main_v314 rfl (by decide), writes_sub_of main_v315 rfl (by decide), writes_sub_of main_v316 rfl (by decide),
    writes_sub_of main_v317 rfl (by decide)⟩

/-- A buffer the window does not write holds after it what it held before. -/
theorem ops6_keep (V : Valuation τ sig (Elt F)) (r : Ref sig .tc) (h : r ∉ ops6_W) :
    after ops6 V (Proc.devRef .tc r) = V (Proc.devRef .tc r) :=
  after_of_writes_sub ops6 V ops6_writes h

end Cert.ReferenceIdeal.RefRun

end
-- ==== Proof.RefRun.lean ====
/-
  The reference program's run.

  @main is printed in seven windows, run one after the other; each window is a straight line of host operations (its
  module `RefRunOpsK`), so @main is the line `ops` of all of them joined.  A straight line of host operations on a
  signature that scopes nothing always runs to its end, and every buffer then holds the fold `after ops` of the
  operations' results over what the buffer held at launch (`run_raw`).  No operation writes an argument buffer (each
  writes its own result buffer, and those are listed window by window), so the arguments end as launched (`args_kept`,
  `frame`).
-/
import proofs.«130402_j14499809591446_2_alg».proof.Defs
import proofs.«130402_j14499809591446_2_alg».proof.Proof.Gen.ReferenceIdeal
import proofs.«130402_j14499809591446_2_alg».proof.Proof.RefRunOps0
import proofs.«130402_j14499809591446_2_alg».proof.Proof.RefRunOps1
import proofs.«130402_j14499809591446_2_alg».proof.Proof.RefRunOps2
import proofs.«130402_j14499809591446_2_alg».proof.Proof.RefRunOps3
import proofs.«130402_j14499809591446_2_alg».proof.Proof.RefRunOps4
import proofs.«130402_j14499809591446_2_alg».proof.Proof.RefRunOps5
import proofs.«130402_j14499809591446_2_alg».proof.Proof.RefRunOps6
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- @main's 474 operations in program order: the seven windows' lines joined. -/
abbrev ops : List (HloOp τ sig (Elt F)) :=
  ops0 ++ (ops1 ++ (ops2 ++ (ops3 ++ (ops4 ++ (ops5 ++ ops6)))))

/-- @main is that straight line: it runs its windows in order, each window is its line, and lines run one after the
    other are their concatenation run as one. -/
theorem main_eq (c : Dev nD) : main (F := F) c = seq ops := by
  simp only [ops, seq_append, ← part0_eq c, ← part1_eq c, ← part2_eq c, ← part3_eq c, ← part4_eq c, ← part5_eq c, ← part6_eq c]
  rfl

/-- Every operation touches TensorCore buffers only. -/
theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub,
    List.forall_append.2 ⟨ops4_sub, List.forall_append.2 ⟨ops5_sub, ops6_sub⟩⟩⟩⟩⟩⟩

/-- Every operation determines its results. -/
theorem ops_fresh : ∀ op ∈ (ops : List (HloOp τ sig (Elt F))), op.fresh = ∅ :=
  List.forall_iff_forall_mem.1 (List.forall_append.2 ⟨ops0_fresh, List.forall_append.2 ⟨ops1_fresh, List.forall_append.2 ⟨ops2_fresh,
    List.forall_append.2 ⟨ops3_fresh, List.forall_append.2 ⟨ops4_fresh, List.forall_append.2 ⟨ops5_fresh, ops6_fresh⟩⟩⟩⟩⟩⟩)

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- The fold over the whole line is the windows' folds one after the other. -/
theorem after_ops (V : Valuation τ sig (Elt F)) :
    after ops V = after ops6 (after ops5 (after ops4 (after ops3 (after ops2 (after ops1 (after ops0 V)))))) := by
  simp only [ops, StableHlo.after_append]

/-- A buffer no window writes holds after the whole line what it held before. -/
theorem ops_keep (V : Valuation τ sig (Elt F)) (r : Ref sig .tc) (h0 : r ∉ ops0_W) (h1 : r ∉ ops1_W) (h2 : r ∉ ops2_W)
    (h3 : r ∉ ops3_W) (h4 : r ∉ ops4_W) (h5 : r ∉ ops5_W) (h6 : r ∉ ops6_W) :
    after ops V (Proc.devRef .tc r) = V (Proc.devRef .tc r) := by
  rw [after_ops, ops6_keep _ r h6, ops5_keep _ r h5, ops4_keep _ r h4, ops3_keep _ r h3, ops2_keep _ r h2, ops1_keep _ r h1,
    ops0_keep _ r h0]

theorem after_main_arg0 (V : Valuation τ sig (Elt F)) : after ops V (Proc.devRef .tc main_arg0) = V (Proc.devRef .tc main_arg0) :=
  ops_keep V main_arg0 (by decide) (by decide) (by decide) (by decide) (by decide) (by decide) (by decide)
theorem after_main_arg1 (V : Valuation τ sig (Elt F)) : after ops V (Proc.devRef .tc main_arg1) = V (Proc.devRef .tc main_arg1) :=
  ops_keep V main_arg1 (by decide) (by decide) (by decide) (by decide) (by decide) (by decide) (by decide)
theorem after_main_arg2 (V : Valuation τ sig (Elt F)) : after ops V (Proc.devRef .tc main_arg2) = V (Proc.devRef .tc main_arg2) :=
  ops_keep V main_arg2 (by decide) (by decide) (by decide) (by decide) (by decide) (by decide) (by decide)
theorem after_main_arg3 (V : Valuation τ sig (Elt F)) : after ops V (Proc.devRef .tc main_arg3) = V (Proc.devRef .tc main_arg3) :=
  ops_keep V main_arg3 (by decide) (by decide) (by decide) (by decide) (by decide) (by decide) (by decide)
theorem after_main_arg4 (V : Valuation τ sig (Elt F)) : after ops V (Proc.devRef .tc main_arg4) = V (Proc.devRef .tc main_arg4) :=
  ops_keep V main_arg4 (by decide) (by decide) (by decide) (by decide) (by decide) (by decide) (by decide)
theorem after_main_arg5 (V : Valuation τ sig (Elt F)) : after ops V (Proc.devRef .tc main_arg5) = V (Proc.devRef .tc main_arg5) :=
  ops_keep V main_arg5 (by decide) (by decide) (by decide) (by decide) (by decide) (by decide) (by decide)
theorem after_main_arg6 (V : Valuation τ sig (Elt F)) : after ops V (Proc.devRef .tc main_arg6) = V (Proc.devRef .tc main_arg6) :=
  ops_keep V main_arg6 (by decide) (by decide) (by decide) (by decide) (by decide) (by decide) (by decide)
theorem after_main_arg7 (V : Valuation τ sig (Elt F)) : after ops V (Proc.devRef .tc main_arg7) = V (Proc.devRef .tc main_arg7) :=
  ops_keep V main_arg7 (by decide) (by decide) (by decide) (by decide) (by decide) (by decide) (by decide)
theorem after_main_arg8 (V : Valuation τ sig (Elt F)) : after ops V (Proc.devRef .tc main_arg8) = V (Proc.devRef .tc main_arg8) :=
  ops_keep V main_arg8 (by decide) (by decide) (by decide) (by decide) (by decide) (by decide) (by decide)
theorem after_main_arg9 (V : Valuation τ sig (Elt F)) : after ops V (Proc.devRef .tc main_arg9) = V (Proc.devRef .tc main_arg9) :=
  ops_keep V main_arg9 (by decide) (by decide) (by decide) (by decide) (by decide) (by decide) (by decide)
theorem after_main_arg10 (V : Valuation τ sig (Elt F)) : after ops V (Proc.devRef .tc main_arg10) = V (Proc.devRef .tc main_arg10) :=
  ops_keep V main_arg10 (by decide) (by decide) (by decide) (by decide) (by decide) (by decide) (by decide)
theorem after_main_arg11 (V : Valuation τ sig (Elt F)) : after ops V (Proc.devRef .tc main_arg11) = V (Proc.devRef .tc main_arg11) :=
  ops_keep V main_arg11 (by decide) (by decide) (by decide) (by decide) (by decide) (by decide) (by decide)
theorem after_main_arg12 (V : Valuation τ sig (Elt F)) : after ops V (Proc.devRef .tc main_arg12) = V (Proc.devRef .tc main_arg12) :=
  ops_keep V main_arg12 (by decide) (by decide) (by decide) (by decide) (by decide) (by decide) (by decide)
theorem after_main_arg13 (V : Valuation τ sig (Elt F)) : after ops V (Proc.devRef .tc main_arg13) = V (Proc.devRef .tc main_arg13) :=
  ops_keep V main_arg13 (by decide) (by decide) (by decide) (by decide) (by decide) (by decide) (by decide)
theorem after_main_arg14 (V : Valuation τ sig (Elt F)) : after ops V (Proc.devRef .tc main_arg14) = V (Proc.devRef .tc main_arg14) :=
  ops_keep V main_arg14 (by decide) (by decide) (by decide) (by decide) (by decide) (by decide) (by decide)
theorem after_main_arg15 (V : Valuation τ sig (Elt F)) : after ops V (Proc.devRef .tc main_arg15) = V (Proc.devRef .tc main_arg15) :=
  ops_keep V main_arg15 (by decide) (by decide) (by decide) (by decide) (by decide) (by decide) (by decide)
theorem after_main_arg16 (V : Valuation τ sig (Elt F)) : after ops V (Proc.devRef .tc main_arg16) = V (Proc.devRef .tc main_arg16) :=
  ops_keep V main_arg16 (by decide) (by decide) (by decide) (by decide) (by decide) (by decide) (by decide)
theorem after_main_arg17 (V : Valuation τ sig (Elt F)) : after ops V (Proc.devRef .tc main_arg17) = V (Proc.devRef .tc main_arg17) :=
  ops_keep V main_arg17 (by decide) (by decide) (by decide) (by decide) (by decide) (by decide) (by decide)
theorem after_main_arg18 (V : Valuation τ sig (Elt F)) : after ops V (Proc.devRef .tc main_arg18) = V (Proc.devRef .tc main_arg18) :=
  ops_keep V main_arg18 (by decide) (by decide) (by decide) (by decide) (by decide) (by decide) (by decide)
theorem after_main_arg19 (V : Valuation τ sig (Elt F)) : after ops V (Proc.devRef .tc main_arg19) = V (Proc.devRef .tc main_arg19) :=
  ops_keep V main_arg19 (by decide) (by decide) (by decide) (by decide) (by decide) (by decide) (by decide)
theorem after_main_arg20 (V : Valuation τ sig (Elt F)) : after ops V (Proc.devRef .tc main_arg20) = V (Proc.devRef .tc main_arg20) :=
  ops_keep V main_arg20 (by decide) (by decide) (by decide) (by decide) (by decide) (by decide) (by decide)

/-- On every device, from any memory with zero counters: every weakly fair execution of @main terminates, and every
    TensorCore buffer ends at the fold of the operations' results over the device's launch contents. -/
theorem run_raw (m : (ℓ : Loc nD τ sig) → Buf (Elt Ideal) ℓ) (ρ : Dev nD → PrngReg) :
    θ_run defs (onTc (τ := τ) (main (F := Ideal))) ⟨m, fun _ => 0, ρ⟩ fun r => ∀ (c : Dev nD) (b : Ref sig .tc),
      r.2.mem ((c.tc : Thread nD τ).loc b) = after ops (fun b => m (c, b)) (Proc.devRef .tc b) :=
  run_seq scopedRefs_eq scopedSems_eq defs main (fun _ => ops) main_eq (fun _ => ops_sub) m ρ (fun _ => ops_fresh)

/-- The same run, read at the argument buffers: each ends as launched. -/
theorem args_kept (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_arg0).trans (after_main_arg0 _),
      (h c main_arg1).trans (after_main_arg1 _),
      (h c main_arg2).trans (after_main_arg2 _),
      (h c main_arg3).trans (after_main_arg3 _),
      (h c main_arg4).trans (after_main_arg4 _),
      (h c main_arg5).trans (after_main_arg5 _),
      (h c main_arg6).trans (after_main_arg6 _),
      (h c main_arg7).trans (after_main_arg7 _),
      (h c main_arg8).trans (after_main_arg8 _),
      (h c main_arg9).trans (after_main_arg9 _),
      (h c main_arg10).trans (after_main_arg10 _),
      (h c main_arg11).trans (after_main_arg11 _),
      (h c main_arg12).trans (after_main_arg12 _),
      (h c main_arg13).trans (after_main_arg13 _),
      (h c main_arg14).trans (after_main_arg14 _),
      (h c main_arg15).trans (after_main_arg15 _),
      (h c main_arg16).trans (after_main_arg16 _),
      (h c main_arg17).trans (after_main_arg17 _),
      (h c main_arg18).trans (after_main_arg18 _),
      (h c main_arg19).trans (after_main_arg19 _),
      (h c main_arg20).trans (after_main_arg20 _)⟩)
    (run_raw m ρ)

end Cert.ReferenceIdeal.RefRun

namespace Cert.ReferenceIdeal.RefRun

/-- The reference runs and its argument arrays end unchanged. -/
theorem frame [Cert.ReferenceIdeal.Facts] [Cert.Pre_finite_inputs.Facts] : Cert.frame_ReferenceIdeal :=
  fun m ρ _ => args_kept m ρ

end Cert.ReferenceIdeal.RefRun

end
-- ==== Proof.RefStagesSeg0.lean ====
/-
  Window 0 of the reference's line cut into pieces, one ending at each named stage buffer.

  The pieces in order are the window's line (`ops0_split`); each piece has its list of written buffers and keeps every
  other buffer, as the whole window does.  Cutting at the stage buffers lets the fold be read one stage at a time: a
  stage's operations lie in the pieces just before its buffer, and the stages it reads were written in earlier pieces.
-/
import proofs.«130402_j14499809591446_2_alg».proof.Proof.RefRunOps0

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- Operations 1 … 10 of window 0. -/
abbrev seg0 : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.TRef.unary (.of main_cst_1) main_call0.v0 id,
    StableHlo.TRef.unary main_call0.v0 main_call0.v1 (broadcastInDim S100000 ![] bcast_S_S100000),
    StableHlo.TRef.binary main_call0.v1 (.of main_v3) main_call0.v2 maximumf ]

/-- The buffers those operations write. -/
abbrev seg0_W : List (Ref sig .tc) :=
  [main_cst, main_v0, main_cst_0, main_v1, main_v2, main_v3, main_cst_1, main_call0.v0.ref,
    main_call0.v1.ref, main_call0.v2.ref]

theorem seg0_writes : (seg0 : List (HloOp τ sig (Elt F))).Forall fun op =>
    op.writes ⊆ (seg0_W.map (Proc.devRef (τ := τ) .tc)).toFinset :=
  ⟨writes_sub_of main_cst rfl (by decide), writes_sub_of main_v0 rfl (by decide), writes_sub_of main_cst_0 rfl (by decide),
    writes_sub_of main_v1 rfl (by decide), writes_sub_of main_v2 rfl (by decide), writes_sub_of main_v3 rfl (by decide),
    writes_sub_of main_cst_1 rfl (by decide), writes_sub_of (main_call0.v0.ref) rfl (by decide), writes_sub_of (main_call0.v1.ref) rfl (by decide),
    writes_sub_of (main_call0.v2.ref) rfl (by decide)⟩

/-- A buffer the piece does not write holds after it what it held before. -/
theorem seg0_keep (V : Valuation τ sig (Elt F)) (r : Ref sig .tc) (h : r ∉ seg0_W) :
    after seg0 V (Proc.devRef .tc r) = V (Proc.devRef .tc r) :=
  after_of_writes_sub seg0 V seg0_writes h

/-- Operations 11 … 18 of window 0. -/
abbrev seg1 : List (HloOp τ sig (Elt F)) :=
  [ StableHlo.nullary main_cst_2 (constant S_ .f32 0x00000000#32),
    StableHlo.unary main_cst_2 main_v5 (broadcastInDim S100000 ![] bcast_S_S100000 : (⟨S_, .f32⟩ : BufTy).Contents (Elt F) → (⟨S100000, .f32⟩ : BufTy).Contents (Elt F)),
    StableHlo.unary main_arg2 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v0 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.TRef.unary (.of main_cst_3) main_call1.v0 id,
    StableHlo.TRef.unary main_call1.v0 main_call1.v1 (broadcastInDim S100000 ![] bcast_S_S100000),
    StableHlo.TRef.binary main_call1.v1 (.of main_v7) main_call1.v2 maximumf ]

/-- The buffers those operations write. -/
abbrev seg1_W : List (Ref sig .tc) :=
  [main_cst_2, main_v5, main_v6, main_v7, main_cst_3, main_call1.v0.ref, main_call1.v1.ref, main_call1.v2.ref]

theorem seg1_writes : (seg1 : List (HloOp τ sig (Elt F))).Forall fun op =>
    op.writes ⊆ (seg1_W.map (Proc.devRef (τ := τ) .tc)).toFinset :=
  ⟨writes_sub_of main_cst_2 rfl (by decide), writes_sub_of main_v5 rfl (by decide), writes_sub_of main_v6 rfl (by decide),
    writes_sub_of main_v7 rfl (by decide), writes_sub_of main_cst_3 rfl (by decide), writes_sub_of (main_call1.v0.ref) rfl (by decide),
    writes_sub_of (main_call1.v1.ref) rfl (by decide), writes_sub_of (main_call1.v2.ref) rfl (by decide)⟩

/-- A buffer the piece does not write holds after it what it held before. -/
theorem seg1_keep (V : Valuation τ sig (Elt F)) (r : Ref sig .tc) (h : r ∉ seg1_W) :
    after seg1 V (Proc.devRef .tc r) = V (Proc.devRef .tc r) :=
  after_of_writes_sub seg1 V seg1_writes h

/-- Operations 19 … 21 of window 0. -/
abbrev seg2 : List (HloOp τ sig (Elt F)) :=
  [ StableHlo.nullary main_cst_4 (constant S_ .f32 0xBF000000#32),
    StableHlo.unary main_cst_4 main_v9 (broadcastInDim S100000 ![] bcast_S_S100000 : (⟨S_, .f32⟩ : BufTy).Contents (Elt F) → (⟨S100000, .f32⟩ : BufTy).Contents (Elt F)),
    StableHlo.binary main_v4 main_v9 main_v10 (Host.powf : (⟨S100000, .f32⟩ : BufTy).Contents (Elt F) → (⟨S100000, .f32⟩ : BufTy).Contents (Elt F) → (⟨S100000, .f32⟩ : BufTy).Contents (Elt F)) ]

/-- The buffers those operations write. -/
abbrev seg2_W : List (Ref sig .tc) :=
  [main_cst_4, main_v9, main_v10]

theorem seg2_writes : (seg2 : List (HloOp τ sig (Elt F))).Forall fun op =>
    op.writes ⊆ (seg2_W.map (Proc.devRef (τ := τ) .tc)).toFinset :=
  ⟨writes_sub_of main_cst_4 rfl (by decide), writes_sub_of main_v9 rfl (by decide), writes_sub_of main_v10 rfl (by decide)⟩

/-- A buffer the piece does not write holds after it what it held before. -/
theorem seg2_keep (V : Valuation τ sig (Elt F)) (r : Ref sig .tc) (h : r ∉ seg2_W) :
    after seg2 V (Proc.devRef .tc r) = V (Proc.devRef .tc r) :=
  after_of_writes_sub seg2 V seg2_writes h

/-- Operations 22 … 24 of window 0. -/
abbrev seg3 : List (HloOp τ sig (Elt F)) :=
  [ StableHlo.nullary main_cst_5 (constant S_ .f32 0xBF000000#32),
    StableHlo.unary main_cst_5 main_v11 (broadcastInDim S100000 ![] bcast_S_S100000 : (⟨S_, .f32⟩ : BufTy).Contents (Elt F) → (⟨S100000, .f32⟩ : BufTy).Contents (Elt F)),
    StableHlo.binary main_v8 main_v11 main_v12 (Host.powf : (⟨S100000, .f32⟩ : BufTy).Contents (Elt F) → (⟨S100000, .f32⟩ : BufTy).Contents (Elt F) → (⟨S100000, .f32⟩ : BufTy).Contents (Elt F)) ]

/-- The buffers those operations write. -/
abbrev seg3_W : List (Ref sig .tc) :=
  [main_cst_5, main_v11, main_v12]

theorem seg3_writes : (seg3 : List (HloOp τ sig (Elt F))).Forall fun op =>
    op.writes ⊆ (seg3_W.map (Proc.devRef (τ := τ) .tc)).toFinset :=
  ⟨writes_sub_of main_cst_5 rfl (by decide), writes_sub_of main_v11 rfl (by decide), writes_sub_of main_v12 rfl (by decide)⟩

/-- A buffer the piece does not write holds after it what it held before. -/
theorem seg3_keep (V : Valuation τ sig (Elt F)) (r : Ref sig .tc) (h : r ∉ seg3_W) :
    after seg3 V (Proc.devRef .tc r) = V (Proc.devRef .tc r) :=
  after_of_writes_sub seg3 V seg3_writes h

/-- Operations 25 … 42 of window 0. -/
abbrev seg4 : List (HloOp τ sig (Elt F)) :=
  [ StableHlo.binary main_arg0 main_arg3 main_v13 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg4 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S100000x64 ![0, 1] bcast_S1x64_S100000x64_0_1 : (⟨S1x64, .f32⟩ : BufTy).Contents (Elt F) → (⟨S100000x64, .f32⟩ : BufTy).Contents (Elt F)),
    StableHlo.binary main_v13 main_v15 main_v16 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v16) main_call2.v0 main_call2.v1 maximumf,
    StableHlo.binary main_v17 main_arg5 main_v18 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg6 main_v19 (broadcastInDim S1x32 ![1] bcast_S32_S1x32_1 : (⟨S32, .f32⟩ : BufTy).Contents (Elt F) → (⟨S1x32, .f32⟩ : BufTy).Contents (Elt F)),
    StableHlo.unary main_v19 main_v20 (broadcastInDim S100000x32 ![0, 1] bcast_S1x32_S100000x32_0_1 : (⟨S1x32, .f32⟩ : BufTy).Contents (Elt F) → (⟨S100000x32, .f32⟩ : BufTy).Contents (Elt F)),
    StableHlo.binary main_v18 main_v20 main_v21 (addf : (⟨S100000x32, .f32⟩ : BufTy).Contents (Elt F) → (⟨S100000x32, .f32⟩ : BufTy).Contents (Elt F) → (⟨S100000x32, .f32⟩ : BufTy).Contents (Elt F)),
    StableHlo.TRef.nullary main_call3.cst (constant S_ .f32 0x00000000#32),
    StableHlo.TRef.unary main_call3.cst main_call3.v0 (broadcastInDim S100000x32 ![] bcast_S_S100000x32),
    StableHlo.TRef.binary (.of main_v21) main_call3.v0 main_call3.v1 maximumf,
    StableHlo.binary main_v22 main_arg7 main_v23 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg8 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (addf : (⟨S100000x128, .f32⟩ : BufTy).Contents (Elt F) → (⟨S100000x128, .f32⟩ : BufTy).Contents (Elt F) → (⟨S100000x128, .f32⟩ : BufTy).Contents (Elt F)) ]

/-- The buffers those operations write. -/
abbrev seg4_W : List (Ref sig .tc) :=
  [main_v13, main_v14, main_v15, main_v16, main_call2.cst.ref, main_call2.v0.ref, main_call2.v1.ref, main_v18,
    main_v19, main_v20, main_v21, main_call3.cst.ref, main_call3.v0.ref, main_call3.v1.ref, main_v23, main_v24,
    main_v25, main_v26]

theorem seg4_writes : (seg4 : List (HloOp τ sig (Elt F))).Forall fun op =>
    op.writes ⊆ (seg4_W.map (Proc.devRef (τ := τ) .tc)).toFinset :=
  ⟨writes_sub_of main_v13 rfl (by decide), writes_sub_of main_v14 rfl (by decide), writes_sub_of main_v15 rfl (by decide),
    writes_sub_of main_v16 rfl (by decide), writes_sub_of (main_call2.cst.ref) rfl (by decide), writes_sub_of (main_call2.v0.ref) rfl (by decide),
    writes_sub_of (main_call2.v1.ref) rfl (by decide), writes_sub_of main_v18 rfl (by decide), writes_sub_of main_v19 rfl (by decide),
    writes_sub_of main_v20 rfl (by decide), writes_sub_of main_v21 rfl (by decide), writes_sub_of (main_call3.cst.ref) rfl (by decide),
    writes_sub_of (main_call3.v0.ref) rfl (by decide), writes_sub_of (main_call3.v1.ref) rfl (by decide), writes_sub_of main_v23 rfl (by decide),
    writes_sub_of main_v24 rfl (by decide), writes_sub_of main_v25 rfl (by decide), writes_sub_of main_v26 rfl (by decide)⟩

/-- A buffer the piece does not write holds after it what it held before. -/
theorem seg4_keep (V : Valuation τ sig (Elt F)) (r : Ref sig .tc) (h : r ∉ seg4_W) :
    after seg4 V (Proc.devRef .tc r) = V (Proc.devRef .tc r) :=
  after_of_writes_sub seg4 V seg4_writes h

/-- Operations 43 … 65 of window 0. -/
abbrev seg5 : List (HloOp τ sig (Elt F)) :=
  [ StableHlo.unary main_v10 main_v27 (broadcastInDim S100000x1 ![0] bcast_S100000_S100000x1_0 : (⟨S100000, .f32⟩ : BufTy).Contents (Elt F) → (⟨S100000x1, .f32⟩ : BufTy).Contents (Elt F)),
    StableHlo.unary main_v27 main_v28 (broadcastInDim S100000x128 ![0, 1] bcast_S100000x1_S100000x128_0_1 : (⟨S100000x1, .f32⟩ : BufTy).Contents (Elt F) → (⟨S100000x128, .f32⟩ : BufTy).Contents (Elt F)),
    StableHlo.binary main_v26 main_v28 main_v29 (mulf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v30 (broadcastInDim S1600000 ![] bcast_S_S1600000 : (⟨S_, .i32⟩ : BufTy).Contents (Elt F) → (⟨S1600000, .i32⟩ : BufTy).Contents (Elt F)),
    StableHlo.binary main_arg1 main_v30 main_v31 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v32 (broadcastInDim S1600000 ![] bcast_S_S1600000 : (⟨S_, .i32⟩ : BufTy).Contents (Elt F) → (⟨S1600000, .i32⟩ : BufTy).Contents (Elt F)),
    StableHlo.binary main_arg1 main_v32 main_v33 (addi : (⟨S1600000, .i32⟩ : BufTy).Contents (Elt F) → (⟨S1600000, .i32⟩ : BufTy).Contents (Elt F) → (⟨S1600000, .i32⟩ : BufTy).Contents (Elt F)),
    StableHlo.ternary main_v31 main_v33 main_arg1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v34 main_v35 (broadcastInDim S1600000x1 ![0] bcast_S1600000_S1600000x1_0 : (⟨S1600000, .i32⟩ : BufTy).Contents (Elt F) → (⟨S1600000x1, .i32⟩ : BufTy).Contents (Elt F)),
    StableHlo.binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v37 (broadcastInDim S100000x128 ![] bcast_S_S100000x128 : (⟨S_, .f32⟩ : BufTy).Contents (Elt F) → (⟨S100000x128, .f32⟩ : BufTy).Contents (Elt F)),
    StableHlo.unary main_arg2 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v12 main_v40 (broadcastInDim S100000x1 ![0] bcast_S100000_S100000x1_0 : (⟨S100000, .f32⟩ : BufTy).Contents (Elt F) → (⟨S100000x1, .f32⟩ : BufTy).Contents (Elt F)),
    StableHlo.unary main_v40 main_v41 (broadcastInDim S100000x128 ![0, 1] bcast_S100000x1_S100000x128_0_1 : (⟨S100000x1, .f32⟩ : BufTy).Contents (Elt F) → (⟨S100000x128, .f32⟩ : BufTy).Contents (Elt F)),
    StableHlo.binary main_v39 main_v41 main_v42 (mulf : (⟨S100000x128, .f32⟩ : BufTy).Contents (Elt F) → (⟨S100000x128, .f32⟩ : BufTy).Contents (Elt F) → (⟨S100000x128, .f32⟩ : BufTy).Contents (Elt F)),
    StableHlo.binary main_v42 main_arg13 main_v43 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg14 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- The buffers those operations write. -/
abbrev seg5_W : List (Ref sig .tc) :=
  [main_v27, main_v28, main_v29, main_c, main_v30, main_v31, main_c_6, main_v32,
    main_v33, main_v34, main_v35, main_v36, main_cst_7, main_v37, main_v38, main_v39,
    main_v40, main_v41, main_v42, main_v43, main_v44, main_v45, main_v46]

theorem seg5_writes : (seg5 : List (HloOp τ sig (Elt F))).Forall fun op =>
    op.writes ⊆ (seg5_W.map (Proc.devRef (τ := τ) .tc)).toFinset :=
  ⟨writes_sub_of main_v27 rfl (by decide), writes_sub_of main_v28 rfl (by decide), writes_sub_of main_v29 rfl (by decide),
    writes_sub_of main_c rfl (by decide), writes_sub_of main_v30 rfl (by decide), writes_sub_of main_v31 rfl (by decide),
    writes_sub_of main_c_6 rfl (by decide), writes_sub_of main_v32 rfl (by decide), writes_sub_of main_v33 rfl (by decide),
    writes_sub_of main_v34 rfl (by decide), writes_sub_of main_v35 rfl (by decide), writes_sub_of main_v36 rfl (by decide),
    writes_sub_of main_cst_7 rfl (by decide), writes_sub_of main_v37 rfl (by decide), writes_sub_of main_v38 rfl (by decide),
    writes_sub_of main_v39 rfl (by decide), writes_sub_of main_v40 rfl (by decide), writes_sub_of main_v41 rfl (by decide),
    writes_sub_of main_v42 rfl (by decide), writes_sub_of main_v43 rfl (by decide), writes_sub_of main_v44 rfl (by decide),
    writes_sub_of main_v45 rfl (by decide), writes_sub_of main_v46 rfl (by decide)⟩

/-- A buffer the piece does not write holds after it what it held before. -/
theorem seg5_keep (V : Valuation τ sig (Elt F)) (r : Ref sig .tc) (h : r ∉ seg5_W) :
    after seg5 V (Proc.devRef .tc r) = V (Proc.devRef .tc r) :=
  after_of_writes_sub seg5 V seg5_writes h

/-- Operations 66 … 68 of window 0. -/
abbrev seg6 : List (HloOp τ sig (Elt F)) :=
  [ StableHlo.unary main_arg17 main_v47 ((extractStridedSlice S1x64 ![0, 0] · slices_S4x64_S1x64_0_0) : (⟨S4x64, .f32⟩ : BufTy).Contents (Elt F) → (⟨S1x64, .f32⟩ : BufTy).Contents (Elt F)),
    StableHlo.reshape main_v47 main_v48 rfl shapeCasts_S1x64_S64,
    StableHlo.unary main_arg18 main_v49 ((extractStridedSlice S1x64 ![0, 0] · slices_S4x64_S1x64_0_0) : (⟨S4x64, .f32⟩ : BufTy).Contents (Elt F) → (⟨S1x64, .f32⟩ : BufTy).Contents (Elt F)) ]

/-- The buffers those operations write. -/
abbrev seg6_W : List (Ref sig .tc) :=
  [main_v47, main_v48, main_v49]

theorem seg6_writes : (seg6 : List (HloOp τ sig (Elt F))).Forall fun op =>
    op.writes ⊆ (seg6_W.map (Proc.devRef (τ := τ) .tc)).toFinset :=
  ⟨writes_sub_of main_v47 rfl (by decide), writes_sub_of main_v48 rfl (by decide), writes_sub_of main_v49 rfl (by decide)⟩

/-- A buffer the piece does not write holds after it what it held before. -/
theorem seg6_keep (V : Valuation τ sig (Elt F)) (r : Ref sig .tc) (h : r ∉ seg6_W) :
    after seg6 V (Proc.devRef .tc r) = V (Proc.devRef .tc r) :=
  after_of_writes_sub seg6 V seg6_writes h

/-- The window's line is its pieces in order. -/
theorem ops0_split : (ops0 : List (HloOp τ sig (Elt F))) = seg0 ++ (seg1 ++ (seg2 ++ (seg3 ++ (seg4 ++ (seg5 ++ (seg6)))))) := rfl

end Cert.ReferenceIdeal.RefRun

end
-- ==== Proof.RefStagesSeg1.lean ====
/-
  Window 1 of the reference's line cut into pieces, one ending at each named stage buffer.

  The pieces in order are the window's line (`ops1_split`); each piece has its list of written buffers and keeps every
  other buffer, as the whole window does.  Cutting at the stage buffers lets the fold be read one stage at a time: a
  stage's operations lie in the pieces just before its buffer, and the stages it reads were written in earlier pieces.
-/
import proofs.«130402_j14499809591446_2_alg».proof.Proof.RefRunOps1

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- Operations 1 … 6 of window 1. -/
abbrev seg7 : List (HloOp τ sig (Elt F)) :=
  [ StableHlo.reshape main_v49 main_v50 rfl shapeCasts_S1x64_S64,
    StableHlo.nullary main_cst_8 (constant S_ .f32 0x00000000#32),
    StableHlo.binary main_v46 main_cst_8 main_v51 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v52 (broadcastInDim S64 ![] bcast_S_S64 : (⟨S_, .f32⟩ : BufTy).Contents (Elt F) → (⟨S64, .f32⟩ : BufTy).Contents (Elt F)),
    StableHlo.binary main_v51 main_v52 main_v53 (Host.divf : (⟨S64, .f32⟩ : BufTy).Contents (Elt F) → (⟨S64, .f32⟩ : BufTy).Contents (Elt F) → (⟨S64, .f32⟩ : BufTy).Contents (Elt F)) ]

/-- The buffers those operations write. -/
abbrev seg7_W : List (Ref sig .tc) :=
  [main_v50, main_cst_8, main_v51, main_cst_9, main_v52, main_v53]

theorem seg7_writes : (seg7 : List (HloOp τ sig (Elt F))).Forall fun op =>
    op.writes ⊆ (seg7_W.map (Proc.devRef (τ := τ) .tc)).toFinset :=
  ⟨writes_sub_of main_v50 rfl (by decide), writes_sub_of main_cst_8 rfl (by decide), writes_sub_of main_v51 rfl (by decide),
    writes_sub_of main_cst_9 rfl (by decide), writes_sub_of main_v52 rfl (by decide), writes_sub_of main_v53 rfl (by decide)⟩

/-- A buffer the piece does not write holds after it what it held before. -/
theorem seg7_keep (V : Valuation τ sig (Elt F)) (r : Ref sig .tc) (h : r ∉ seg7_W) :
    after seg7 V (Proc.devRef .tc r) = V (Proc.devRef .tc r) :=
  after_of_writes_sub seg7 V seg7_writes h

/-- Operations 7 … 29 of window 1. -/
abbrev seg8 : List (HloOp τ sig (Elt F)) :=
  [ StableHlo.nullary main_c_10 (constantI S_ 32 0#32),
    StableHlo.TRef.nullary main_call4.cst (constant S_ .f32 0x00000000#32),
    StableHlo.TRef.binary (.of main_v46) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v46) main_call4.v4 main_call4.v5 subf,
    StableHlo.TRef.binary main_call4.v5 main_call4.v5 main_call4.v6 mulf,
    StableHlo.TRef.unary (.of main_c_10) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]

/-- The buffers those operations write. -/
abbrev seg8_W : List (Ref sig .tc) :=
  [main_c_10, main_call4.cst.ref, main_call4.v0.ref, main_call4.v1.ref, main_call4.cst_0.ref, main_call4.v2.ref, main_call4.v3.ref, main_call4.v4.ref,
    main_call4.v5.ref, main_call4.v6.ref, main_call4.v7.ref, main_call4.cst_1.ref, main_call4.v8.ref, main_call4.cst_2.ref, main_call4.v9.ref, main_call4.v10.ref,
    main_call4.v11.ref, main_call4.cst_3.ref, main_call4.v12.ref, main_call4.cst_4.ref, main_call4.call0.v0.ref, main_call4.call0.v1.ref, main_call4.call0.v2.ref]

theorem seg8_writes : (seg8 : List (HloOp τ sig (Elt F))).Forall fun op =>
    op.writes ⊆ (seg8_W.map (Proc.devRef (τ := τ) .tc)).toFinset :=
  ⟨writes_sub_of main_c_10 rfl (by decide), writes_sub_of (main_call4.cst.ref) rfl (by decide), writes_sub_of (main_call4.v0.ref) rfl (by decide),
    writes_sub_of (main_call4.v1.ref) rfl (by decide), writes_sub_of (main_call4.cst_0.ref) rfl (by decide), writes_sub_of (main_call4.v2.ref) rfl (by decide),
    writes_sub_of (main_call4.v3.ref) rfl (by decide), writes_sub_of (main_call4.v4.ref) rfl (by decide), writes_sub_of (main_call4.v5.ref) rfl (by decide),
    writes_sub_of (main_call4.v6.ref) rfl (by decide), writes_sub_of (main_call4.v7.ref) rfl (by decide), writes_sub_of (main_call4.cst_1.ref) rfl (by decide),
    writes_sub_of (main_call4.v8.ref) rfl (by decide), writes_sub_of (main_call4.cst_2.ref) rfl (by decide), writes_sub_of (main_call4.v9.ref) rfl (by decide),
    writes_sub_of (main_call4.v10.ref) rfl (by decide), writes_sub_of (main_call4.v11.ref) rfl (by decide), writes_sub_of (main_call4.cst_3.ref) rfl (by decide),
    writes_sub_of (main_call4.v12.ref) rfl (by decide), writes_sub_of (main_call4.cst_4.ref) rfl (by decide), writes_sub_of (main_call4.call0.v0.ref) rfl (by decide),
    writes_sub_of (main_call4.call0.v1.ref) rfl (by decide), writes_sub_of (main_call4.call0.v2.ref) rfl (by decide)⟩

/-- A buffer the piece does not write holds after it what it held before. -/
theorem seg8_keep (V : Valuation τ sig (Elt F)) (r : Ref sig .tc) (h : r ∉ seg8_W) :
    after seg8 V (Proc.devRef .tc r) = V (Proc.devRef .tc r) :=
  after_of_writes_sub seg8 V seg8_writes h

/-- Operations 30 … 48 of window 1. -/
abbrev seg9 : List (HloOp τ sig (Elt F)) :=
  [ StableHlo.unary main_v53 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v46 main_v56 main_v57 (subf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v58 (broadcastInDim S64 ![] bcast_S_S64 : (⟨S_, .f32⟩ : BufTy).Contents (Elt F) → (⟨S64, .f32⟩ : BufTy).Contents (Elt F)),
    StableHlo.binary main_v54 main_v58 main_v59 (addf : (⟨S64, .f32⟩ : BufTy).Contents (Elt F) → (⟨S64, .f32⟩ : BufTy).Contents (Elt F) → (⟨S64, .f32⟩ : BufTy).Contents (Elt F)),
    StableHlo.unary main_v59 main_v60 (Host.rsqrt : (⟨S64, .f32⟩ : BufTy).Contents (Elt F) → (⟨S64, .f32⟩ : BufTy).Contents (Elt F)),
    StableHlo.unary main_v60 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v62 main_v63 (mulf : (⟨S100000x64, .f32⟩ : BufTy).Contents (Elt F) → (⟨S100000x64, .f32⟩ : BufTy).Contents (Elt F) → (⟨S100000x64, .f32⟩ : BufTy).Contents (Elt F)),
    StableHlo.unary main_v48 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (mulf : (⟨S100000x64, .f32⟩ : BufTy).Contents (Elt F) → (⟨S100000x64, .f32⟩ : BufTy).Contents (Elt F) → (⟨S100000x64, .f32⟩ : BufTy).Contents (Elt F)),
    StableHlo.unary main_v50 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v68 main_v69 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v69) main_call5.v0 main_call5.v1 maximumf ]

/-- The buffers those operations write. -/
abbrev seg9_W : List (Ref sig .tc) :=
  [main_v55, main_v56, main_v57, main_cst_11, main_v58, main_v59, main_v60, main_v61,
    main_v62, main_v63, main_v64, main_v65, main_v66, main_v67, main_v68, main_v69,
    main_call5.cst.ref, main_call5.v0.ref, main_call5.v1.ref]

theorem seg9_writes : (seg9 : List (HloOp τ sig (Elt F))).Forall fun op =>
    op.writes ⊆ (seg9_W.map (Proc.devRef (τ := τ) .tc)).toFinset :=
  ⟨writes_sub_of main_v55 rfl (by decide), writes_sub_of main_v56 rfl (by decide), writes_sub_of main_v57 rfl (by decide),
    writes_sub_of main_cst_11 rfl (by decide), writes_sub_of main_v58 rfl (by decide), writes_sub_of main_v59 rfl (by decide),
    writes_sub_of main_v60 rfl (by decide), writes_sub_of main_v61 rfl (by decide), writes_sub_of main_v62 rfl (by decide),
    writes_sub_of main_v63 rfl (by decide), writes_sub_of main_v64 rfl (by decide), writes_sub_of main_v65 rfl (by decide),
    writes_sub_of main_v66 rfl (by decide), writes_sub_of main_v67 rfl (by decide), writes_sub_of main_v68 rfl (by decide),
    writes_sub_of main_v69 rfl (by decide), writes_sub_of (main_call5.cst.ref) rfl (by decide), writes_sub_of (main_call5.v0.ref) rfl (by decide),
    writes_sub_of (main_call5.v1.ref) rfl (by decide)⟩

/-- A buffer the piece does not write holds after it what it held before. -/
theorem seg9_keep (V : Valuation τ sig (Elt F)) (r : Ref sig .tc) (h : r ∉ seg9_W) :
    after seg9 V (Proc.devRef .tc r) = V (Proc.devRef .tc r) :=
  after_of_writes_sub seg9 V seg9_writes h

/-- Operations 49 … 64 of window 1. -/
abbrev seg10 : List (HloOp τ sig (Elt F)) :=
  [ StableHlo.nullary main_c_12 (constantI S_ 32 0#32),
    StableHlo.unary main_c_12 main_v71 (broadcastInDim S1600000 ![] bcast_S_S1600000 : (⟨S_, .i32⟩ : BufTy).Contents (Elt F) → (⟨S1600000, .i32⟩ : BufTy).Contents (Elt F)),
    StableHlo.binary main_arg1 main_v71 main_v72 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v73 (broadcastInDim S1600000 ![] bcast_S_S1600000 : (⟨S_, .i32⟩ : BufTy).Contents (Elt F) → (⟨S1600000, .i32⟩ : BufTy).Contents (Elt F)),
    StableHlo.binary main_arg1 main_v73 main_v74 (addi : (⟨S1600000, .i32⟩ : BufTy).Contents (Elt F) → (⟨S1600000, .i32⟩ : BufTy).Contents (Elt F) → (⟨S1600000, .i32⟩ : BufTy).Contents (Elt F)),
    StableHlo.ternary main_v72 main_v74 main_arg1 main_v75 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v75 main_v76 (broadcastInDim S1600000x1 ![0] bcast_S1600000_S1600000x1_0 : (⟨S1600000, .i32⟩ : BufTy).Contents (Elt F) → (⟨S1600000x1, .i32⟩ : BufTy).Contents (Elt F)),
    StableHlo.binary main_v70 main_v76 main_v77 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_14 (constant S_ .f32 0x00000000#32),
    StableHlo.unary main_cst_14 main_v78 (broadcastInDim S100000x64 ![] bcast_S_S100000x64 : (⟨S_, .f32⟩ : BufTy).Contents (Elt F) → (⟨S100000x64, .f32⟩ : BufTy).Contents (Elt F)),
    StableHlo.unary main_arg2 main_v79 (broadcastInDim S1600000x1 ![0] bcast_S1600000_S1600000x1_0 : (⟨S1600000, .i32⟩ : BufTy).Contents (Elt F) → (⟨S1600000x1, .i32⟩ : BufTy).Contents (Elt F)),
    StableHlo.ternary main_v78 main_v79 main_v77 main_v80 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v8 main_v81 (broadcastInDim S100000x1 ![0] bcast_S100000_S100000x1_0 : (⟨S100000, .f32⟩ : BufTy).Contents (Elt F) → (⟨S100000x1, .f32⟩ : BufTy).Contents (Elt F)),
    StableHlo.unary main_v81 main_v82 (broadcastInDim S100000x64 ![0, 1] bcast_S100000x1_S100000x64_0_1 : (⟨S100000x1, .f32⟩ : BufTy).Contents (Elt F) → (⟨S100000x64, .f32⟩ : BufTy).Contents (Elt F)),
    StableHlo.binary main_v80 main_v82 main_v83 (Host.divf : (⟨S100000x64, .f32⟩ : BufTy).Contents (Elt F) → (⟨S100000x64, .f32⟩ : BufTy).Contents (Elt F) → (⟨S100000x64, .f32⟩ : BufTy).Contents (Elt F)) ]

/-- The buffers those operations write. -/
abbrev seg10_W : List (Ref sig .tc) :=
  [main_c_12, main_v71, main_v72, main_c_13, main_v73, main_v74, main_v75, main_v76,
    main_v77, main_cst_14, main_v78, main_v79, main_v80, main_v81, main_v82, main_v83]

theorem seg10_writes : (seg10 : List (HloOp τ sig (Elt F))).Forall fun op =>
    op.writes ⊆ (seg10_W.map (Proc.devRef (τ := τ) .tc)).toFinset :=
  ⟨writes_sub_of main_c_12 rfl (by decide), writes_sub_of main_v71 rfl (by decide), writes_sub_of main_v72 rfl (by decide),
    writes_sub_of main_c_13 rfl (by decide), writes_sub_of main_v73 rfl (by decide), writes_sub_of main_v74 rfl (by decide),
    writes_sub_of main_v75 rfl (by decide), writes_sub_of main_v76 rfl (by decide), writes_sub_of main_v77 rfl (by decide),
    writes_sub_of main_cst_14 rfl (by decide), writes_sub_of main_v78 rfl (by decide), writes_sub_of main_v79 rfl (by decide),
    writes_sub_of main_v80 rfl (by decide), writes_sub_of main_v81 rfl (by decide), writes_sub_of main_v82 rfl (by decide),
    writes_sub_of main_v83 rfl (by decide)⟩

/-- A buffer the piece does not write holds after it what it held before. -/
theorem seg10_keep (V : Valuation τ sig (Elt F)) (r : Ref sig .tc) (h : r ∉ seg10_W) :
    after seg10 V (Proc.devRef .tc r) = V (Proc.devRef .tc r) :=
  after_of_writes_sub seg10 V seg10_writes h

/-- Operations 65 … 85 of window 1. -/
abbrev seg11 : List (HloOp τ sig (Elt F)) :=
  [ StableHlo.binary main_v70 main_v83 main_v84 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v84 main_arg9 main_v85 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v87 main_v88 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v88) main_call6.v0 main_call6.v1 maximumf,
    StableHlo.binary main_v89 main_arg11 main_v90 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg12 main_v91 (broadcastInDim S1x1 ![1] bcast_S1_S1x1_1 : (⟨S1, .f32⟩ : BufTy).Contents (Elt F) → (⟨S1x1, .f32⟩ : BufTy).Contents (Elt F)),
    StableHlo.unary main_v91 main_v92 (broadcastInDim S100000x1 ![0, 1] bcast_S1x1_S100000x1_0_1 : (⟨S1x1, .f32⟩ : BufTy).Contents (Elt F) → (⟨S100000x1, .f32⟩ : BufTy).Contents (Elt F)),
    StableHlo.binary main_v90 main_v92 main_v93 (addf : (⟨S100000x1, .f32⟩ : BufTy).Contents (Elt F) → (⟨S100000x1, .f32⟩ : BufTy).Contents (Elt F) → (⟨S100000x1, .f32⟩ : BufTy).Contents (Elt F)),
    StableHlo.unary main_v93 main_v94 (Host.negf : (⟨S100000x1, .f32⟩ : BufTy).Contents (Elt F) → (⟨S100000x1, .f32⟩ : BufTy).Contents (Elt F)),
    StableHlo.unary main_v94 main_v95 (Host.exp : (⟨S100000x1, .f32⟩ : BufTy).Contents (Elt F) → (⟨S100000x1, .f32⟩ : BufTy).Contents (Elt F)),
    StableHlo.nullary main_cst_15 (constant S_ .f32 0x3F800000#32),
    StableHlo.unary main_cst_15 main_v96 (broadcastInDim S100000x1 ![] bcast_S_S100000x1 : (⟨S_, .f32⟩ : BufTy).Contents (Elt F) → (⟨S100000x1, .f32⟩ : BufTy).Contents (Elt F)),
    StableHlo.binary main_v96 main_v95 main_v97 (addf : (⟨S100000x1, .f32⟩ : BufTy).Contents (Elt F) → (⟨S100000x1, .f32⟩ : BufTy).Contents (Elt F) → (⟨S100000x1, .f32⟩ : BufTy).Contents (Elt F)),
    StableHlo.nullary main_cst_16 (constant S_ .f32 0x3F800000#32),
    StableHlo.unary main_cst_16 main_v98 (broadcastInDim S100000x1 ![] bcast_S_S100000x1 : (⟨S_, .f32⟩ : BufTy).Contents (Elt F) → (⟨S100000x1, .f32⟩ : BufTy).Contents (Elt F)),
    StableHlo.binary main_v98 main_v97 main_v99 (Host.divf : (⟨S100000x1, .f32⟩ : BufTy).Contents (Elt F) → (⟨S100000x1, .f32⟩ : BufTy).Contents (Elt F) → (⟨S100000x1, .f32⟩ : BufTy).Contents (Elt F)),
    StableHlo.unary main_v99 main_v100 (broadcastInDim S100000x64 ![0, 1] bcast_S100000x1_S100000x64_0_1 : (⟨S100000x1, .f32⟩ : BufTy).Contents (Elt F) → (⟨S100000x64, .f32⟩ : BufTy).Contents (Elt F)) ]

/-- The buffers those operations write. -/
abbrev seg11_W : List (Ref sig .tc) :=
  [main_v84, main_v85, main_v86, main_v87, main_v88, main_call6.cst.ref, main_call6.v0.ref, main_call6.v1.ref,
    main_v90, main_v91, main_v92, main_v93, main_v94, main_v95, main_cst_15, main_v96,
    main_v97, main_cst_16, main_v98, main_v99, main_v100]

theorem seg11_writes : (seg11 : List (HloOp τ sig (Elt F))).Forall fun op =>
    op.writes ⊆ (seg11_W.map (Proc.devRef (τ := τ) .tc)).toFinset :=
  ⟨writes_sub_of main_v84 rfl (by decide), writes_sub_of main_v85 rfl (by decide), writes_sub_of main_v86 rfl (by decide),
    writes_sub_of main_v87 rfl (by decide), writes_sub_of main_v88 rfl (by decide), writes_sub_of (main_call6.cst.ref) rfl (by decide),
    writes_sub_of (main_call6.v0.ref) rfl (by decide), writes_sub_of (main_call6.v1.ref) rfl (by decide), writes_sub_of main_v90 rfl (by decide),
    writes_sub_of main_v91 rfl (by decide), writes_sub_of main_v92 rfl (by decide), writes_sub_of main_v93 rfl (by decide),
    writes_sub_of main_v94 rfl (by decide), writes_sub_of main_v95 rfl (by decide), writes_sub_of main_cst_15 rfl (by decide),
    writes_sub_of main_v96 rfl (by decide), writes_sub_of main_v97 rfl (by decide), writes_sub_of main_cst_16 rfl (by decide),
    writes_sub_of main_v98 rfl (by decide), writes_sub_of main_v99 rfl (by decide), writes_sub_of main_v100 rfl (by decide)⟩

/-- A buffer the piece does not write holds after it what it held before. -/
theorem seg11_keep (V : Valuation τ sig (Elt F)) (r : Ref sig .tc) (h : r ∉ seg11_W) :
    after seg11 V (Proc.devRef .tc r) = V (Proc.devRef .tc r) :=
  after_of_writes_sub seg11 V seg11_writes h

/-- The window's line is its pieces in order. -/
theorem ops1_split : (ops1 : List (HloOp τ sig (Elt F))) = seg7 ++ (seg8 ++ (seg9 ++ (seg10 ++ (seg11)))) := rfl

end Cert.ReferenceIdeal.RefRun

end
-- ==== Proof.RefStagesSeg2.lean ====
/-
  Window 2 of the reference's line cut into pieces, one ending at each named stage buffer.

  The pieces in order are the window's line (`ops2_split`); each piece has its list of written buffers and keeps every
  other buffer, as the whole window does.  Cutting at the stage buffers lets the fold be read one stage at a time: a
  stage's operations lie in the pieces just before its buffer, and the stages it reads were written in earlier pieces.
-/
import proofs.«130402_j14499809591446_2_alg».proof.Proof.RefRunOps2

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- Operations 1 … 2 of window 2. -/
abbrev seg12 : List (HloOp τ sig (Elt F)) :=
  [ StableHlo.binary main_v100 main_v83 main_v101 (mulf : (⟨S100000x64, .f32⟩ : BufTy).Contents (Elt F) → (⟨S100000x64, .f32⟩ : BufTy).Contents (Elt F) → (⟨S100000x64, .f32⟩ : BufTy).Contents (Elt F)),
    StableHlo.binary main_v70 main_v101 main_v102 (addf : (⟨S100000x64, .f32⟩ : BufTy).Contents (Elt F) → (⟨S100000x64, .f32⟩ : BufTy).Contents (Elt F) → (⟨S100000x64, .f32⟩ : BufTy).Contents (Elt F)) ]

/-- The buffers those operations write. -/
abbrev seg12_W : List (Ref sig .tc) :=
  [main_v101, main_v102]

theorem seg12_writes : (seg12 : List (HloOp τ sig (Elt F))).Forall fun op =>
    op.writes ⊆ (seg12_W.map (Proc.devRef (τ := τ) .tc)).toFinset :=
  ⟨writes_sub_of main_v101 rfl (by decide), writes_sub_of main_v102 rfl (by decide)⟩

/-- A buffer the piece does not write holds after it what it held before. -/
theorem seg12_keep (V : Valuation τ sig (Elt F)) (r : Ref sig .tc) (h : r ∉ seg12_W) :
    after seg12 V (Proc.devRef .tc r) = V (Proc.devRef .tc r) :=
  after_of_writes_sub seg12 V seg12_writes h

/-- Operations 3 … 29 of window 2. -/
abbrev seg13 : List (HloOp τ sig (Elt F)) :=
  [ StableHlo.unary main_arg15 main_v103 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v103 main_v104 rfl shapeCasts_S1x64x64_S64x64,
    StableHlo.unary main_arg16 main_v105 ((extractStridedSlice S1x64 ![0, 0] · slices_S3x64_S1x64_0_0) : (⟨S3x64, .f32⟩ : BufTy).Contents (Elt F) → (⟨S1x64, .f32⟩ : BufTy).Contents (Elt F)),
    StableHlo.reshape main_v105 main_v106 rfl shapeCasts_S1x64_S64,
    StableHlo.unary main_v10 main_v107 (broadcastInDim S100000x1 ![0] bcast_S100000_S100000x1_0 : (⟨S100000, .f32⟩ : BufTy).Contents (Elt F) → (⟨S100000x1, .f32⟩ : BufTy).Contents (Elt F)),
    StableHlo.unary main_v107 main_v108 (broadcastInDim S100000x64 ![0, 1] bcast_S100000x1_S100000x64_0_1 : (⟨S100000x1, .f32⟩ : BufTy).Contents (Elt F) → (⟨S100000x64, .f32⟩ : BufTy).Contents (Elt F)),
    StableHlo.binary main_v102 main_v108 main_v109 (mulf : (⟨S100000x64, .f32⟩ : BufTy).Contents (Elt F) → (⟨S100000x64, .f32⟩ : BufTy).Contents (Elt F) → (⟨S100000x64, .f32⟩ : BufTy).Contents (Elt F)),
    StableHlo.nullary main_c_17 (constantI S_ 32 0#32),
    StableHlo.unary main_c_17 main_v110 (broadcastInDim S1600000 ![] bcast_S_S1600000 : (⟨S_, .i32⟩ : BufTy).Contents (Elt F) → (⟨S1600000, .i32⟩ : BufTy).Contents (Elt F)),
    StableHlo.binary main_arg1 main_v110 main_v111 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v112 (broadcastInDim S1600000 ![] bcast_S_S1600000 : (⟨S_, .i32⟩ : BufTy).Contents (Elt F) → (⟨S1600000, .i32⟩ : BufTy).Contents (Elt F)),
    StableHlo.binary main_arg1 main_v112 main_v113 (addi : (⟨S1600000, .i32⟩ : BufTy).Contents (Elt F) → (⟨S1600000, .i32⟩ : BufTy).Contents (Elt F) → (⟨S1600000, .i32⟩ : BufTy).Contents (Elt F)),
    StableHlo.ternary main_v111 main_v113 main_arg1 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v114 main_v115 (broadcastInDim S1600000x1 ![0] bcast_S1600000_S1600000x1_0 : (⟨S1600000, .i32⟩ : BufTy).Contents (Elt F) → (⟨S1600000x1, .i32⟩ : BufTy).Contents (Elt F)),
    StableHlo.binary main_v109 main_v115 main_v116 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_19 (constant S_ .f32 0x00000000#32),
    StableHlo.unary main_cst_19 main_v117 (broadcastInDim S100000x64 ![] bcast_S_S100000x64 : (⟨S_, .f32⟩ : BufTy).Contents (Elt F) → (⟨S100000x64, .f32⟩ : BufTy).Contents (Elt F)),
    StableHlo.unary main_arg2 main_v118 (broadcastInDim S1600000x1 ![0] bcast_S1600000_S1600000x1_0 : (⟨S1600000, .i32⟩ : BufTy).Contents (Elt F) → (⟨S1600000x1, .i32⟩ : BufTy).Contents (Elt F)),
    StableHlo.ternary main_v117 main_v118 main_v116 main_v119 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v12 main_v120 (broadcastInDim S100000x1 ![0] bcast_S100000_S100000x1_0 : (⟨S100000, .f32⟩ : BufTy).Contents (Elt F) → (⟨S100000x1, .f32⟩ : BufTy).Contents (Elt F)),
    StableHlo.unary main_v120 main_v121 (broadcastInDim S100000x64 ![0, 1] bcast_S100000x1_S100000x64_0_1 : (⟨S100000x1, .f32⟩ : BufTy).Contents (Elt F) → (⟨S100000x64, .f32⟩ : BufTy).Contents (Elt F)),
    StableHlo.binary main_v119 main_v121 main_v122 (mulf : (⟨S100000x64, .f32⟩ : BufTy).Contents (Elt F) → (⟨S100000x64, .f32⟩ : BufTy).Contents (Elt F) → (⟨S100000x64, .f32⟩ : BufTy).Contents (Elt F)),
    StableHlo.binary main_v122 main_v104 main_v123 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v106 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S100000x64 ![0, 1] bcast_S1x64_S100000x64_0_1 : (⟨S1x64, .f32⟩ : BufTy).Contents (Elt F) → (⟨S100000x64, .f32⟩ : BufTy).Contents (Elt F)),
    StableHlo.binary main_v123 main_v125 main_v126 (addf : (⟨S100000x64, .f32⟩ : BufTy).Contents (Elt F) → (⟨S100000x64, .f32⟩ : BufTy).Contents (Elt F) → (⟨S100000x64, .f32⟩ : BufTy).Contents (Elt F)) ]

/-- The buffers those operations write. -/
abbrev seg13_W : List (Ref sig .tc) :=
  [main_v103, main_v104, main_v105, main_v106, main_v107, main_v108, main_v109, main_c_17,
    main_v110, main_v111, main_c_18, main_v112, main_v113, main_v114, main_v115, main_v116,
    main_cst_19, main_v117, main_v118, main_v119, main_v120, main_v121, main_v122, main_v123,
    main_v124, main_v125, main_v126]

theorem seg13_writes : (seg13 : List (HloOp τ sig (Elt F))).Forall fun op =>
    op.writes ⊆ (seg13_W.map (Proc.devRef (τ := τ) .tc)).toFinset :=
  ⟨writes_sub_of main_v103 rfl (by decide), writes_sub_of main_v104 rfl (by decide), writes_sub_of main_v105 rfl (by decide),
    writes_sub_of main_v106 rfl (by decide), writes_sub_of main_v107 rfl (by decide), writes_sub_of main_v108 rfl (by decide),
    writes_sub_of main_v109 rfl (by decide), writes_sub_of main_c_17 rfl (by decide), writes_sub_of main_v110 rfl (by decide),
    writes_sub_of main_v111 rfl (by decide), writes_sub_of main_c_18 rfl (by decide), writes_sub_of main_v112 rfl (by decide),
    writes_sub_of main_v113 rfl (by decide), writes_sub_of main_v114 rfl (by decide), writes_sub_of main_v115 rfl (by decide),
    writes_sub_of main_v116 rfl (by decide), writes_sub_of main_cst_19 rfl (by decide), writes_sub_of main_v117 rfl (by decide),
    writes_sub_of main_v118 rfl (by decide), writes_sub_of main_v119 rfl (by decide), writes_sub_of main_v120 rfl (by decide),
    writes_sub_of main_v121 rfl (by decide), writes_sub_of main_v122 rfl (by decide), writes_sub_of main_v123 rfl (by decide),
    writes_sub_of main_v124 rfl (by decide), writes_sub_of main_v125 rfl (by decide), writes_sub_of main_v126 rfl (by decide)⟩

/-- A buffer the piece does not write holds after it what it held before. -/
theorem seg13_keep (V : Valuation τ sig (Elt F)) (r : Ref sig .tc) (h : r ∉ seg13_W) :
    after seg13 V (Proc.devRef .tc r) = V (Proc.devRef .tc r) :=
  after_of_writes_sub seg13 V seg13_writes h

/-- Operations 30 … 38 of window 2. -/
abbrev seg14 : List (HloOp τ sig (Elt F)) :=
  [ StableHlo.unary main_arg17 main_v127 ((extractStridedSlice S1x64 ![1, 0] · slices_S4x64_S1x64_1_0) : (⟨S4x64, .f32⟩ : BufTy).Contents (Elt F) → (⟨S1x64, .f32⟩ : BufTy).Contents (Elt F)),
    StableHlo.reshape main_v127 main_v128 rfl shapeCasts_S1x64_S64,
    StableHlo.unary main_arg18 main_v129 ((extractStridedSlice S1x64 ![1, 0] · slices_S4x64_S1x64_1_0) : (⟨S4x64, .f32⟩ : BufTy).Contents (Elt F) → (⟨S1x64, .f32⟩ : BufTy).Contents (Elt F)),
    StableHlo.reshape main_v129 main_v130 rfl shapeCasts_S1x64_S64,
    StableHlo.nullary main_cst_20 (constant S_ .f32 0x00000000#32),
    StableHlo.binary main_v126 main_cst_20 main_v131 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_21 (constant S_ .f32 0x47C35000#32),
    StableHlo.unary main_cst_21 main_v132 (broadcastInDim S64 ![] bcast_S_S64 : (⟨S_, .f32⟩ : BufTy).Contents (Elt F) → (⟨S64, .f32⟩ : BufTy).Contents (Elt F)),
    StableHlo.binary main_v131 main_v132 main_v133 (Host.divf : (⟨S64, .f32⟩ : BufTy).Contents (Elt F) → (⟨S64, .f32⟩ : BufTy).Contents (Elt F) → (⟨S64, .f32⟩ : BufTy).Contents (Elt F)) ]

/-- The buffers those operations write. -/
abbrev seg14_W : List (Ref sig .tc) :=
  [main_v127, main_v128, main_v129, main_v130, main_cst_20, main_v131, main_cst_21, main_v132,
    main_v133]

theorem seg14_writes : (seg14 : List (HloOp τ sig (Elt F))).Forall fun op =>
    op.writes ⊆ (seg14_W.map (Proc.devRef (τ := τ) .tc)).toFinset :=
  ⟨writes_sub_of main_v127 rfl (by decide), writes_sub_of main_v128 rfl (by decide), writes_sub_of main_v129 rfl (by decide),
    writes_sub_of main_v130 rfl (by decide), writes_sub_of main_cst_20 rfl (by decide), writes_sub_of main_v131 rfl (by decide),
    writes_sub_of main_cst_21 rfl (by decide), writes_sub_of main_v132 rfl (by decide), writes_sub_of main_v133 rfl (by decide)⟩

/-- A buffer the piece does not write holds after it what it held before. -/
theorem seg14_keep (V : Valuation τ sig (Elt F)) (r : Ref sig .tc) (h : r ∉ seg14_W) :
    after seg14 V (Proc.devRef .tc r) = V (Proc.devRef .tc r) :=
  after_of_writes_sub seg14 V seg14_writes h

/-- Operations 39 … 61 of window 2. -/
abbrev seg15 : List (HloOp τ sig (Elt F)) :=
  [ StableHlo.nullary main_c_22 (constantI S_ 32 0#32),
    StableHlo.TRef.nullary main_call7.cst (constant S_ .f32 0x00000000#32),
    StableHlo.TRef.binary (.of main_v126) main_call7.cst main_call7.v0 (fun x v => Host.reduceAdd x v reducesTo_S100000x64_S64_d0 h_S_),
    StableHlo.TRef.unary main_call7.v0 main_call7.v1 (broadcastInDim S1x64 ![1] bcast_S64_S1x64_1),
    StableHlo.TRef.nullary main_call7.cst_0 (constant S_ .f32 0x47C35000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S100000x64 ![0, 1] bcast_S1x64_S100000x64_0_1),
    StableHlo.TRef.binary (.of main_v126) main_call7.v4 main_call7.v5 subf,
    StableHlo.TRef.binary main_call7.v5 main_call7.v5 main_call7.v6 mulf,
    StableHlo.TRef.unary (.of main_c_22) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b) ]

/-- The buffers those operations write. -/
abbrev seg15_W : List (Ref sig .tc) :=
  [main_c_22, main_call7.cst.ref, main_call7.v0.ref, main_call7.v1.ref, main_call7.cst_0.ref, main_call7.v2.ref, main_call7.v3.ref, main_call7.v4.ref,
    main_call7.v5.ref, main_call7.v6.ref, main_call7.v7.ref, main_call7.cst_1.ref, main_call7.v8.ref, main_call7.cst_2.ref, main_call7.v9.ref, main_call7.v10.ref,
    main_call7.v11.ref, main_call7.cst_3.ref, main_call7.v12.ref, main_call7.cst_4.ref, main_call7.call0.v0.ref, main_call7.call0.v1.ref, main_call7.call0.v2.ref]

theorem seg15_writes : (seg15 : List (HloOp τ sig (Elt F))).Forall fun op =>
    op.writes ⊆ (seg15_W.map (Proc.devRef (τ := τ) .tc)).toFinset :=
  ⟨writes_sub_of main_c_22 rfl (by decide), writes_sub_of (main_call7.cst.ref) rfl (by decide), writes_sub_of (main_call7.v0.ref) rfl (by decide),
    writes_sub_of (main_call7.v1.ref) rfl (by decide), writes_sub_of (main_call7.cst_0.ref) rfl (by decide), writes_sub_of (main_call7.v2.ref) rfl (by decide),
    writes_sub_of (main_call7.v3.ref) rfl (by decide), writes_sub_of (main_call7.v4.ref) rfl (by decide), writes_sub_of (main_call7.v5.ref) rfl (by decide),
    writes_sub_of (main_call7.v6.ref) rfl (by decide), writes_sub_of (main_call7.v7.ref) rfl (by decide), writes_sub_of (main_call7.cst_1.ref) rfl (by decide),
    writes_sub_of (main_call7.v8.ref) rfl (by decide), writes_sub_of (main_call7.cst_2.ref) rfl (by decide), writes_sub_of (main_call7.v9.ref) rfl (by decide),
    writes_sub_of (main_call7.v10.ref) rfl (by decide), writes_sub_of (main_call7.v11.ref) rfl (by decide), writes_sub_of (main_call7.cst_3.ref) rfl (by decide),
    writes_sub_of (main_call7.v12.ref) rfl (by decide), writes_sub_of (main_call7.cst_4.ref) rfl (by decide), writes_sub_of (main_call7.call0.v0.ref) rfl (by decide),
    writes_sub_of (main_call7.call0.v1.ref) rfl (by decide), writes_sub_of (main_call7.call0.v2.ref) rfl (by decide)⟩

/-- A buffer the piece does not write holds after it what it held before. -/
theorem seg15_keep (V : Valuation τ sig (Elt F)) (r : Ref sig .tc) (h : r ∉ seg15_W) :
    after seg15 V (Proc.devRef .tc r) = V (Proc.devRef .tc r) :=
  after_of_writes_sub seg15 V seg15_writes h

/-- Operations 62 … 81 of window 2. -/
abbrev seg16 : List (HloOp τ sig (Elt F)) :=
  [ StableHlo.unary main_v133 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S100000x64 ![0, 1] bcast_S1x64_S100000x64_0_1 : (⟨S1x64, .f32⟩ : BufTy).Contents (Elt F) → (⟨S100000x64, .f32⟩ : BufTy).Contents (Elt F)),
    StableHlo.binary main_v126 main_v136 main_v137 (subf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3727C5AC#32),
    StableHlo.unary main_cst_23 main_v138 (broadcastInDim S64 ![] bcast_S_S64 : (⟨S_, .f32⟩ : BufTy).Contents (Elt F) → (⟨S64, .f32⟩ : BufTy).Contents (Elt F)),
    StableHlo.binary main_v134 main_v138 main_v139 (addf : (⟨S64, .f32⟩ : BufTy).Contents (Elt F) → (⟨S64, .f32⟩ : BufTy).Contents (Elt F) → (⟨S64, .f32⟩ : BufTy).Contents (Elt F)),
    StableHlo.unary main_v139 main_v140 (Host.rsqrt : (⟨S64, .f32⟩ : BufTy).Contents (Elt F) → (⟨S64, .f32⟩ : BufTy).Contents (Elt F)),
    StableHlo.unary main_v140 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S100000x64 ![0, 1] bcast_S1x64_S100000x64_0_1 : (⟨S1x64, .f32⟩ : BufTy).Contents (Elt F) → (⟨S100000x64, .f32⟩ : BufTy).Contents (Elt F)),
    StableHlo.binary main_v137 main_v142 main_v143 (mulf : (⟨S100000x64, .f32⟩ : BufTy).Contents (Elt F) → (⟨S100000x64, .f32⟩ : BufTy).Contents (Elt F) → (⟨S100000x64, .f32⟩ : BufTy).Contents (Elt F)),
    StableHlo.unary main_v128 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v143 main_v145 main_v146 (mulf : (⟨S100000x64, .f32⟩ : BufTy).Contents (Elt F) → (⟨S100000x64, .f32⟩ : BufTy).Contents (Elt F) → (⟨S100000x64, .f32⟩ : BufTy).Contents (Elt F)),
    StableHlo.unary main_v130 main_v147 (broadcastInDim S1x64 ![1] bcast_S64_S1x64_1 : (⟨S64, .f32⟩ : BufTy).Contents (Elt F) → (⟨S1x64, .f32⟩ : BufTy).Contents (Elt F)),
    StableHlo.unary main_v147 main_v148 (broadcastInDim S100000x64 ![0, 1] bcast_S1x64_S100000x64_0_1 : (⟨S1x64, .f32⟩ : BufTy).Contents (Elt F) → (⟨S100000x64, .f32⟩ : BufTy).Contents (Elt F)),
    StableHlo.binary main_v146 main_v148 main_v149 (addf : (⟨S100000x64, .f32⟩ : BufTy).Contents (Elt F) → (⟨S100000x64, .f32⟩ : BufTy).Contents (Elt F) → (⟨S100000x64, .f32⟩ : BufTy).Contents (Elt F)),
    StableHlo.binary main_v149 main_v102 main_v150 (addf : (⟨S100000x64, .f32⟩ : BufTy).Contents (Elt F) → (⟨S100000x64, .f32⟩ : BufTy).Contents (Elt F) → (⟨S100000x64, .f32⟩ : BufTy).Contents (Elt F)),
    StableHlo.TRef.nullary main_call8.cst (constant S_ .f32 0x00000000#32),
    StableHlo.TRef.unary main_call8.cst main_call8.v0 (broadcastInDim S100000x64 ![] bcast_S_S100000x64),
    StableHlo.TRef.binary (.of main_v150) main_call8.v0 main_call8.v1 maximumf ]

/-- The buffers those operations write. -/
abbrev seg16_W : List (Ref sig .tc) :=
  [main_v135, main_v136, main_v137, main_cst_23, main_v138, main_v139, main_v140, main_v141,
    main_v142, main_v143, main_v144, main_v145, main_v146, main_v147, main_v148, main_v149,
    main_v150, main_call8.cst.ref, main_call8.v0.ref, main_call8.v1.ref]

theorem seg16_writes : (seg16 : List (HloOp τ sig (Elt F))).Forall fun op =>
    op.writes ⊆ (seg16_W.map (Proc.devRef (τ := τ) .tc)).toFinset :=
  ⟨writes_sub_of main_v135 rfl (by decide), writes_sub_of main_v136 rfl (by decide), writes_sub_of main_v137 rfl (by decide),
    writes_sub_of main_cst_23 rfl (by decide), writes_sub_of main_v138 rfl (by decide), writes_sub_of main_v139 rfl (by decide),
    writes_sub_of main_v140 rfl (by decide), writes_sub_of main_v141 rfl (by decide), writes_sub_of main_v142 rfl (by decide),
    writes_sub_of main_v143 rfl (by decide), writes_sub_of main_v144 rfl (by decide), writes_sub_of main_v145 rfl (by decide),
    writes_sub_of main_v146 rfl (by decide), writes_sub_of main_v147 rfl (by decide), writes_sub_of main_v148 rfl (by decide),
    writes_sub_of main_v149 rfl (by decide), writes_sub_of main_v150 rfl (by decide), writes_sub_of (main_call8.cst.ref) rfl (by decide),
    writes_sub_of (main_call8.v0.ref) rfl (by decide), writes_sub_of (main_call8.v1.ref) rfl (by decide)⟩

/-- A buffer the piece does not write holds after it what it held before. -/
theorem seg16_keep (V : Valuation τ sig (Elt F)) (r : Ref sig .tc) (h : r ∉ seg16_W) :
    after seg16 V (Proc.devRef .tc r) = V (Proc.devRef .tc r) :=
  after_of_writes_sub seg16 V seg16_writes h

/-- Operations 82 … 83 of window 2. -/
abbrev seg17 : List (HloOp τ sig (Elt F)) :=
  [ StableHlo.nullary main_c_24 (constantI S_ 32 0#32),
    StableHlo.unary main_c_24 main_v152 (broadcastInDim S1600000 ![] bcast_S_S1600000 : (⟨S_, .i32⟩ : BufTy).Contents (Elt F) → (⟨S1600000, .i32⟩ : BufTy).Contents (Elt F)) ]

/-- The buffers those operations write. -/
abbrev seg17_W : List (Ref sig .tc) :=
  [main_c_24, main_v152]

theorem seg17_writes : (seg17 : List (HloOp τ sig (Elt F))).Forall fun op =>
    op.writes ⊆ (seg17_W.map (Proc.devRef (τ := τ) .tc)).toFinset :=
  ⟨writes_sub_of main_c_24 rfl (by decide), writes_sub_of main_v152 rfl (by decide)⟩

/-- A buffer the piece does not write holds after it what it held before. -/
theorem seg17_keep (V : Valuation τ sig (Elt F)) (r : Ref sig .tc) (h : r ∉ seg17_W) :
    after seg17 V (Proc.devRef .tc r) = V (Proc.devRef .tc r) :=
  after_of_writes_sub seg17 V seg17_writes h

/-- The window's line is its pieces in order. -/
theorem ops2_split : (ops2 : List (HloOp τ sig (Elt F))) = seg12 ++ (seg13 ++ (seg14 ++ (seg15 ++ (seg16 ++ (seg17))))) := rfl

end Cert.ReferenceIdeal.RefRun

end
-- ==== Proof.RefStagesSeg3.lean ====
/-
  Window 3 of the reference's line cut into pieces, one ending at each named stage buffer.

  The pieces in order are the window's line (`ops3_split`); each piece has its list of written buffers and keeps every
  other buffer, as the whole window does.  Cutting at the stage buffers lets the fold be read one stage at a time: a
  stage's operations lie in the pieces just before its buffer, and the stages it reads were written in earlier pieces.
-/
import proofs.«130402_j14499809591446_2_alg».proof.Proof.RefRunOps3

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- Operations 1 … 14 of window 3. -/
abbrev seg18 : List (HloOp τ sig (Elt F)) :=
  [ StableHlo.binary main_arg1 main_v152 main_v153 (cmpi .slt : (⟨S1600000, .i32⟩ : BufTy).Contents (Elt F) → (⟨S1600000, .i32⟩ : BufTy).Contents (Elt F) → (⟨S1600000, .i1⟩ : BufTy).Contents (Elt F)),
    StableHlo.nullary main_c_25 (constantI S_ 32 100000#32),
    StableHlo.unary main_c_25 main_v154 (broadcastInDim S1600000 ![] bcast_S_S1600000 : (⟨S_, .i32⟩ : BufTy).Contents (Elt F) → (⟨S1600000, .i32⟩ : BufTy).Contents (Elt F)),
    StableHlo.binary main_arg1 main_v154 main_v155 (addi : (⟨S1600000, .i32⟩ : BufTy).Contents (Elt F) → (⟨S1600000, .i32⟩ : BufTy).Contents (Elt F) → (⟨S1600000, .i32⟩ : BufTy).Contents (Elt F)),
    StableHlo.ternary main_v153 main_v155 main_arg1 main_v156 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v156 main_v157 (broadcastInDim S1600000x1 ![0] bcast_S1600000_S1600000x1_0 : (⟨S1600000, .i32⟩ : BufTy).Contents (Elt F) → (⟨S1600000x1, .i32⟩ : BufTy).Contents (Elt F)),
    StableHlo.binary main_v151 main_v157 main_v158 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_26 (constant S_ .f32 0x00000000#32),
    StableHlo.unary main_cst_26 main_v159 (broadcastInDim S100000x64 ![] bcast_S_S100000x64 : (⟨S_, .f32⟩ : BufTy).Contents (Elt F) → (⟨S100000x64, .f32⟩ : BufTy).Contents (Elt F)),
    StableHlo.unary main_arg2 main_v160 (broadcastInDim S1600000x1 ![0] bcast_S1600000_S1600000x1_0 : (⟨S1600000, .i32⟩ : BufTy).Contents (Elt F) → (⟨S1600000x1, .i32⟩ : BufTy).Contents (Elt F)),
    StableHlo.ternary main_v159 main_v160 main_v158 main_v161 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v8 main_v162 (broadcastInDim S100000x1 ![0] bcast_S100000_S100000x1_0 : (⟨S100000, .f32⟩ : BufTy).Contents (Elt F) → (⟨S100000x1, .f32⟩ : BufTy).Contents (Elt F)),
    StableHlo.unary main_v162 main_v163 (broadcastInDim S100000x64 ![0, 1] bcast_S100000x1_S100000x64_0_1 : (⟨S100000x1, .f32⟩ : BufTy).Contents (Elt F) → (⟨S100000x64, .f32⟩ : BufTy).Contents (Elt F)),
    StableHlo.binary main_v161 main_v163 main_v164 (Host.divf : (⟨S100000x64, .f32⟩ : BufTy).Contents (Elt F) → (⟨S100000x64, .f32⟩ : BufTy).Contents (Elt F) → (⟨S100000x64, .f32⟩ : BufTy).Contents (Elt F)) ]

/-- The buffers those operations write. -/
abbrev seg18_W : List (Ref sig .tc) :=
  [main_v153, main_c_25, main_v154, main_v155, main_v156, main_v157, main_v158, main_cst_26,
    main_v159, main_v160, main_v161, main_v162, main_v163, main_v164]

theorem seg18_writes : (seg18 : List (HloOp τ sig (Elt F))).Forall fun op =>
    op.writes ⊆ (seg18_W.map (Proc.devRef (τ := τ) .tc)).toFinset :=
  ⟨writes_sub_of main_v153 rfl (by decide), writes_sub_of main_c_25 rfl (by decide), writes_sub_of main_v154 rfl (by decide),
    writes_sub_of main_v155 rfl (by decide), writes_sub_of main_v156 rfl (by decide), writes_sub_of main_v157 rfl (by decide),
    writes_sub_of main_v158 rfl (by decide), writes_sub_of main_cst_26 rfl (by decide), writes_sub_of main_v159 rfl (by decide),
    writes_sub_of main_v160 rfl (by decide), writes_sub_of main_v161 rfl (by decide), writes_sub_of main_v162 rfl (by decide),
    writes_sub_of main_v163 rfl (by decide), writes_sub_of main_v164 rfl (by decide)⟩

/-- A buffer the piece does not write holds after it what it held before. -/
theorem seg18_keep (V : Valuation τ sig (Elt F)) (r : Ref sig .tc) (h : r ∉ seg18_W) :
    after seg18 V (Proc.devRef .tc r) = V (Proc.devRef .tc r) :=
  after_of_writes_sub seg18 V seg18_writes h

/-- Operations 15 … 37 of window 3. -/
abbrev seg19 : List (HloOp τ sig (Elt F)) :=
  [ StableHlo.binary main_v151 main_v164 main_v165 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v165 main_arg9 main_v166 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v167 (broadcastInDim S1x64 ![1] bcast_S64_S1x64_1 : (⟨S64, .f32⟩ : BufTy).Contents (Elt F) → (⟨S1x64, .f32⟩ : BufTy).Contents (Elt F)),
    StableHlo.unary main_v167 main_v168 (broadcastInDim S100000x64 ![0, 1] bcast_S1x64_S100000x64_0_1 : (⟨S1x64, .f32⟩ : BufTy).Contents (Elt F) → (⟨S100000x64, .f32⟩ : BufTy).Contents (Elt F)),
    StableHlo.binary main_v166 main_v168 main_v169 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v169) main_call9.v0 main_call9.v1 maximumf,
    StableHlo.binary main_v170 main_arg11 main_v171 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg12 main_v172 (broadcastInDim S1x1 ![1] bcast_S1_S1x1_1 : (⟨S1, .f32⟩ : BufTy).Contents (Elt F) → (⟨S1x1, .f32⟩ : BufTy).Contents (Elt F)),
    StableHlo.unary main_v172 main_v173 (broadcastInDim S100000x1 ![0, 1] bcast_S1x1_S100000x1_0_1 : (⟨S1x1, .f32⟩ : BufTy).Contents (Elt F) → (⟨S100000x1, .f32⟩ : BufTy).Contents (Elt F)),
    StableHlo.binary main_v171 main_v173 main_v174 (addf : (⟨S100000x1, .f32⟩ : BufTy).Contents (Elt F) → (⟨S100000x1, .f32⟩ : BufTy).Contents (Elt F) → (⟨S100000x1, .f32⟩ : BufTy).Contents (Elt F)),
    StableHlo.unary main_v174 main_v175 (Host.negf : (⟨S100000x1, .f32⟩ : BufTy).Contents (Elt F) → (⟨S100000x1, .f32⟩ : BufTy).Contents (Elt F)),
    StableHlo.unary main_v175 main_v176 (Host.exp : (⟨S100000x1, .f32⟩ : BufTy).Contents (Elt F) → (⟨S100000x1, .f32⟩ : BufTy).Contents (Elt F)),
    StableHlo.nullary main_cst_27 (constant S_ .f32 0x3F800000#32),
    StableHlo.unary main_cst_27 main_v177 (broadcastInDim S100000x1 ![] bcast_S_S100000x1 : (⟨S_, .f32⟩ : BufTy).Contents (Elt F) → (⟨S100000x1, .f32⟩ : BufTy).Contents (Elt F)),
    StableHlo.binary main_v177 main_v176 main_v178 (addf : (⟨S100000x1, .f32⟩ : BufTy).Contents (Elt F) → (⟨S100000x1, .f32⟩ : BufTy).Contents (Elt F) → (⟨S100000x1, .f32⟩ : BufTy).Contents (Elt F)),
    StableHlo.nullary main_cst_28 (constant S_ .f32 0x3F800000#32),
    StableHlo.unary main_cst_28 main_v179 (broadcastInDim S100000x1 ![] bcast_S_S100000x1 : (⟨S_, .f32⟩ : BufTy).Contents (Elt F) → (⟨S100000x1, .f32⟩ : BufTy).Contents (Elt F)),
    StableHlo.binary main_v179 main_v178 main_v180 (Host.divf : (⟨S100000x1, .f32⟩ : BufTy).Contents (Elt F) → (⟨S100000x1, .f32⟩ : BufTy).Contents (Elt F) → (⟨S100000x1, .f32⟩ : BufTy).Contents (Elt F)),
    StableHlo.unary main_v180 main_v181 (broadcastInDim S100000x64 ![0, 1] bcast_S100000x1_S100000x64_0_1 : (⟨S100000x1, .f32⟩ : BufTy).Contents (Elt F) → (⟨S100000x64, .f32⟩ : BufTy).Contents (Elt F)),
    StableHlo.binary main_v181 main_v164 main_v182 (mulf : (⟨S100000x64, .f32⟩ : BufTy).Contents (Elt F) → (⟨S100000x64, .f32⟩ : BufTy).Contents (Elt F) → (⟨S100000x64, .f32⟩ : BufTy).Contents (Elt F)),
    StableHlo.binary main_v151 main_v182 main_v183 (addf : (⟨S100000x64, .f32⟩ : BufTy).Contents (Elt F) → (⟨S100000x64, .f32⟩ : BufTy).Contents (Elt F) → (⟨S100000x64, .f32⟩ : BufTy).Contents (Elt F)) ]

/-- The buffers those operations write. -/
abbrev seg19_W : List (Ref sig .tc) :=
  [main_v165, main_v166, main_v167, main_v168, main_v169, main_call9.cst.ref, main_call9.v0.ref, main_call9.v1.ref,
    main_v171, main_v172, main_v173, main_v174, main_v175, main_v176, main_cst_27, main_v177,
    main_v178, main_cst_28, main_v179, main_v180, main_v181, main_v182, main_v183]

theorem seg19_writes : (seg19 : List (HloOp τ sig (Elt F))).Forall fun op =>
    op.writes ⊆ (seg19_W.map (Proc.devRef (τ := τ) .tc)).toFinset :=
  ⟨writes_sub_of main_v165 rfl (by decide), writes_sub_of main_v166 rfl (by decide), writes_sub_of main_v167 rfl (by decide),
    writes_sub_of main_v168 rfl (by decide), writes_sub_of main_v169 rfl (by decide), writes_sub_of (main_call9.cst.ref) rfl (by decide),
    writes_sub_of (main_call9.v0.ref) rfl (by decide), writes_sub_of (main_call9.v1.ref) rfl (by decide), writes_sub_of main_v171 rfl (by decide),
    writes_sub_of main_v172 rfl (by decide), writes_sub_of main_v173 rfl (by decide), writes_sub_of main_v174 rfl (by decide),
    writes_sub_of main_v175 rfl (by decide), writes_sub_of main_v176 rfl (by decide), writes_sub_of main_cst_27 rfl (by decide),
    writes_sub_of main_v177 rfl (by decide), writes_sub_of main_v178 rfl (by decide), writes_sub_of main_cst_28 rfl (by decide),
    writes_sub_of main_v179 rfl (by decide), writes_sub_of main_v180 rfl (by decide), writes_sub_of main_v181 rfl (by decide),
    writes_sub_of main_v182 rfl (by decide), writes_sub_of main_v183 rfl (by decide)⟩

/-- A buffer the piece does not write holds after it what it held before. -/
theorem seg19_keep (V : Valuation τ sig (Elt F)) (r : Ref sig .tc) (h : r ∉ seg19_W) :
    after seg19 V (Proc.devRef .tc r) = V (Proc.devRef .tc r) :=
  after_of_writes_sub seg19 V seg19_writes h

/-- Operations 38 … 62 of window 3. -/
abbrev seg20 : List (HloOp τ sig (Elt F)) :=
  [ StableHlo.unary main_arg15 main_v184 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v184 main_v185 rfl shapeCasts_S1x64x64_S64x64,
    StableHlo.unary main_arg16 main_v186 ((extractStridedSlice S1x64 ![1, 0] · slices_S3x64_S1x64_1_0) : (⟨S3x64, .f32⟩ : BufTy).Contents (Elt F) → (⟨S1x64, .f32⟩ : BufTy).Contents (Elt F)),
    StableHlo.reshape main_v186 main_v187 rfl shapeCasts_S1x64_S64,
    StableHlo.unary main_v10 main_v188 (broadcastInDim S100000x1 ![0] bcast_S100000_S100000x1_0 : (⟨S100000, .f32⟩ : BufTy).Contents (Elt F) → (⟨S100000x1, .f32⟩ : BufTy).Contents (Elt F)),
    StableHlo.unary main_v188 main_v189 (broadcastInDim S100000x64 ![0, 1] bcast_S100000x1_S100000x64_0_1 : (⟨S100000x1, .f32⟩ : BufTy).Contents (Elt F) → (⟨S100000x64, .f32⟩ : BufTy).Contents (Elt F)),
    StableHlo.binary main_v183 main_v189 main_v190 (mulf : (⟨S100000x64, .f32⟩ : BufTy).Contents (Elt F) → (⟨S100000x64, .f32⟩ : BufTy).Contents (Elt F) → (⟨S100000x64, .f32⟩ : BufTy).Contents (Elt F)),
    StableHlo.nullary main_c_29 (constantI S_ 32 0#32),
    StableHlo.unary main_c_29 main_v191 (broadcastInDim S1600000 ![] bcast_S_S1600000 : (⟨S_, .i32⟩ : BufTy).Contents (Elt F) → (⟨S1600000, .i32⟩ : BufTy).Contents (Elt F)),
    StableHlo.binary main_arg1 main_v191 main_v192 (cmpi .slt : (⟨S1600000, .i32⟩ : BufTy).Contents (Elt F) → (⟨S1600000, .i32⟩ : BufTy).Contents (Elt F) → (⟨S1600000, .i1⟩ : BufTy).Contents (Elt F)),
    StableHlo.nullary main_c_30 (constantI S_ 32 100000#32),
    StableHlo.unary main_c_30 main_v193 (broadcastInDim S1600000 ![] bcast_S_S1600000 : (⟨S_, .i32⟩ : BufTy).Contents (Elt F) → (⟨S1600000, .i32⟩ : BufTy).Contents (Elt F)),
    StableHlo.binary main_arg1 main_v193 main_v194 (addi : (⟨S1600000, .i32⟩ : BufTy).Contents (Elt F) → (⟨S1600000, .i32⟩ : BufTy).Contents (Elt F) → (⟨S1600000, .i32⟩ : BufTy).Contents (Elt F)),
    StableHlo.ternary main_v192 main_v194 main_arg1 main_v195 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v195 main_v196 (broadcastInDim S1600000x1 ![0] bcast_S1600000_S1600000x1_0 : (⟨S1600000, .i32⟩ : BufTy).Contents (Elt F) → (⟨S1600000x1, .i32⟩ : BufTy).Contents (Elt F)),
    StableHlo.binary main_v190 main_v196 main_v197 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_31 (constant S_ .f32 0x00000000#32),
    StableHlo.unary main_cst_31 main_v198 (broadcastInDim S100000x64 ![] bcast_S_S100000x64 : (⟨S_, .f32⟩ : BufTy).Contents (Elt F) → (⟨S100000x64, .f32⟩ : BufTy).Contents (Elt F)),
    StableHlo.unary main_arg2 main_v199 (broadcastInDim S1600000x1 ![0] bcast_S1600000_S1600000x1_0 : (⟨S1600000, .i32⟩ : BufTy).Contents (Elt F) → (⟨S1600000x1, .i32⟩ : BufTy).Contents (Elt F)),
    StableHlo.ternary main_v198 main_v199 main_v197 main_v200 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v12 main_v201 (broadcastInDim S100000x1 ![0] bcast_S100000_S100000x1_0 : (⟨S100000, .f32⟩ : BufTy).Contents (Elt F) → (⟨S100000x1, .f32⟩ : BufTy).Contents (Elt F)),
    StableHlo.unary main_v201 main_v202 (broadcastInDim S100000x64 ![0, 1] bcast_S100000x1_S100000x64_0_1 : (⟨S100000x1, .f32⟩ : BufTy).Contents (Elt F) → (⟨S100000x64, .f32⟩ : BufTy).Contents (Elt F)),
    StableHlo.binary main_v200 main_v202 main_v203 (mulf : (⟨S100000x64, .f32⟩ : BufTy).Contents (Elt F) → (⟨S100000x64, .f32⟩ : BufTy).Contents (Elt F) → (⟨S100000x64, .f32⟩ : BufTy).Contents (Elt F)),
    StableHlo.binary main_v203 main_v185 main_v204 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v187 main_v205 (broadcastInDim S1x64 ![1] bcast_S64_S1x64_1 : (⟨S64, .f32⟩ : BufTy).Contents (Elt F) → (⟨S1x64, .f32⟩ : BufTy).Contents (Elt F)) ]

/-- The buffers those operations write. -/
abbrev seg20_W : List (Ref sig .tc) :=
  [main_v184, main_v185, main_v186, main_v187, main_v188, main_v189, main_v190, main_c_29,
    main_v191, main_v192, main_c_30, main_v193, main_v194, main_v195, main_v196, main_v197,
    main_cst_31, main_v198, main_v199, main_v200, main_v201, main_v202, main_v203, main_v204,
    main_v205]

theorem seg20_writes : (seg20 : List (HloOp τ sig (Elt F))).Forall fun op =>
    op.writes ⊆ (seg20_W.map (Proc.devRef (τ := τ) .tc)).toFinset :=
  ⟨writes_sub_of main_v184 rfl (by decide), writes_sub_of main_v185 rfl (by decide), writes_sub_of main_v186 rfl (by decide),
    writes_sub_of main_v187 rfl (by decide), writes_sub_of main_v188 rfl (by decide), writes_sub_of main_v189 rfl (by decide),
    writes_sub_of main_v190 rfl (by decide), writes_sub_of main_c_29 rfl (by decide), writes_sub_of main_v191 rfl (by decide),
    writes_sub_of main_v192 rfl (by decide), writes_sub_of main_c_30 rfl (by decide), writes_sub_of main_v193 rfl (by decide),
    writes_sub_of main_v194 rfl (by decide), writes_sub_of main_v195 rfl (by decide), writes_sub_of main_v196 rfl (by decide),
    writes_sub_of main_v197 rfl (by decide), writes_sub_of main_cst_31 rfl (by decide), writes_sub_of main_v198 rfl (by decide),
    writes_sub_of main_v199 rfl (by decide), writes_sub_of main_v200 rfl (by decide), writes_sub_of main_v201 rfl (by decide),
    writes_sub_of main_v202 rfl (by decide), writes_sub_of main_v203 rfl (by decide), writes_sub_of main_v204 rfl (by decide),
    writes_sub_of main_v205 rfl (by decide)⟩

/-- A buffer the piece does not write holds after it what it held before. -/
theorem seg20_keep (V : Valuation τ sig (Elt F)) (r : Ref sig .tc) (h : r ∉ seg20_W) :
    after seg20 V (Proc.devRef .tc r) = V (Proc.devRef .tc r) :=
  after_of_writes_sub seg20 V seg20_writes h

/-- The window's line is its pieces in order. -/
theorem ops3_split : (ops3 : List (HloOp τ sig (Elt F))) = seg18 ++ (seg19 ++ (seg20)) := rfl

end Cert.ReferenceIdeal.RefRun

end
-- ==== Proof.RefStagesSeg4.lean ====
/-
  Window 4 of the reference's line cut into pieces, one ending at each named stage buffer.

  The pieces in order are the window's line (`ops4_split`); each piece has its list of written buffers and keeps every
  other buffer, as the whole window does.  Cutting at the stage buffers lets the fold be read one stage at a time: a
  stage's operations lie in the pieces just before its buffer, and the stages it reads were written in earlier pieces.
-/
import proofs.«130402_j14499809591446_2_alg».proof.Proof.RefRunOps4

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- Operations 1 … 2 of window 4. -/
abbrev seg21 : List (HloOp τ sig (Elt F)) :=
  [ StableHlo.unary main_v205 main_v206 (broadcastInDim S100000x64 ![0, 1] bcast_S1x64_S100000x64_0_1 : (⟨S1x64, .f32⟩ : BufTy).Contents (Elt F) → (⟨S100000x64, .f32⟩ : BufTy).Contents (Elt F)),
    StableHlo.binary main_v204 main_v206 main_v207 (addf : (⟨S100000x64, .f32⟩ : BufTy).Contents (Elt F) → (⟨S100000x64, .f32⟩ : BufTy).Contents (Elt F) → (⟨S100000x64, .f32⟩ : BufTy).Contents (Elt F)) ]

/-- The buffers those operations write. -/
abbrev seg21_W : List (Ref sig .tc) :=
  [main_v206, main_v207]

theorem seg21_writes : (seg21 : List (HloOp τ sig (Elt F))).Forall fun op =>
    op.writes ⊆ (seg21_W.map (Proc.devRef (τ := τ) .tc)).toFinset :=
  ⟨writes_sub_of main_v206 rfl (by decide), writes_sub_of main_v207 rfl (by decide)⟩

/-- A buffer the piece does not write holds after it what it held before. -/
theorem seg21_keep (V : Valuation τ sig (Elt F)) (r : Ref sig .tc) (h : r ∉ seg21_W) :
    after seg21 V (Proc.devRef .tc r) = V (Proc.devRef .tc r) :=
  after_of_writes_sub seg21 V seg21_writes h

/-- Operations 3 … 11 of window 4. -/
abbrev seg22 : List (HloOp τ sig (Elt F)) :=
  [ StableHlo.unary main_arg17 main_v208 ((extractStridedSlice S1x64 ![2, 0] · slices_S4x64_S1x64_2_0) : (⟨S4x64, .f32⟩ : BufTy).Contents (Elt F) → (⟨S1x64, .f32⟩ : BufTy).Contents (Elt F)),
    StableHlo.reshape main_v208 main_v209 rfl shapeCasts_S1x64_S64,
    StableHlo.unary main_arg18 main_v210 ((extractStridedSlice S1x64 ![2, 0] · slices_S4x64_S1x64_2_0) : (⟨S4x64, .f32⟩ : BufTy).Contents (Elt F) → (⟨S1x64, .f32⟩ : BufTy).Contents (Elt F)),
    StableHlo.reshape main_v210 main_v211 rfl shapeCasts_S1x64_S64,
    StableHlo.nullary main_cst_32 (constant S_ .f32 0x00000000#32),
    StableHlo.binary main_v207 main_cst_32 main_v212 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_33 (constant S_ .f32 0x47C35000#32),
    StableHlo.unary main_cst_33 main_v213 (broadcastInDim S64 ![] bcast_S_S64 : (⟨S_, .f32⟩ : BufTy).Contents (Elt F) → (⟨S64, .f32⟩ : BufTy).Contents (Elt F)),
    StableHlo.binary main_v212 main_v213 main_v214 (Host.divf : (⟨S64, .f32⟩ : BufTy).Contents (Elt F) → (⟨S64, .f32⟩ : BufTy).Contents (Elt F) → (⟨S64, .f32⟩ : BufTy).Contents (Elt F)) ]

/-- The buffers those operations write. -/
abbrev seg22_W : List (Ref sig .tc) :=
  [main_v208, main_v209, main_v210, main_v211, main_cst_32, main_v212, main_cst_33, main_v213,
    main_v214]

theorem seg22_writes : (seg22 : List (HloOp τ sig (Elt F))).Forall fun op =>
    op.writes ⊆ (seg22_W.map (Proc.devRef (τ := τ) .tc)).toFinset :=
  ⟨writes_sub_of main_v208 rfl (by decide), writes_sub_of main_v209 rfl (by decide), writes_sub_of main_v210 rfl (by decide),
    writes_sub_of main_v211 rfl (by decide), writes_sub_of main_cst_32 rfl (by decide), writes_sub_of main_v212 rfl (by decide),
    writes_sub_of main_cst_33 rfl (by decide), writes_sub_of main_v213 rfl (by decide), writes_sub_of main_v214 rfl (by decide)⟩

/-- A buffer the piece does not write holds after it what it held before. -/
theorem seg22_keep (V : Valuation τ sig (Elt F)) (r : Ref sig .tc) (h : r ∉ seg22_W) :
    after seg22 V (Proc.devRef .tc r) = V (Proc.devRef .tc r) :=
  after_of_writes_sub seg22 V seg22_writes h

/-- Operations 12 … 34 of window 4. -/
abbrev seg23 : List (HloOp τ sig (Elt F)) :=
  [ StableHlo.nullary main_c_34 (constantI S_ 32 0#32),
    StableHlo.TRef.nullary main_call10.cst (constant S_ .f32 0x00000000#32),
    StableHlo.TRef.binary (.of main_v207) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v207) main_call10.v4 main_call10.v5 subf,
    StableHlo.TRef.binary main_call10.v5 main_call10.v5 main_call10.v6 mulf,
    StableHlo.TRef.unary (.of main_c_34) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b) ]

/-- The buffers those operations write. -/
abbrev seg23_W : List (Ref sig .tc) :=
  [main_c_34, main_call10.cst.ref, main_call10.v0.ref, main_call10.v1.ref, main_call10.cst_0.ref, main_call10.v2.ref, main_call10.v3.ref, main_call10.v4.ref,
    main_call10.v5.ref, main_call10.v6.ref, main_call10.v7.ref, main_call10.cst_1.ref, main_call10.v8.ref, main_call10.cst_2.ref, main_call10.v9.ref, main_call10.v10.ref,
    main_call10.v11.ref, main_call10.cst_3.ref, main_call10.v12.ref, main_call10.cst_4.ref, main_call10.call0.v0.ref, main_call10.call0.v1.ref, main_call10.call0.v2.ref]

theorem seg23_writes : (seg23 : List (HloOp τ sig (Elt F))).Forall fun op =>
    op.writes ⊆ (seg23_W.map (Proc.devRef (τ := τ) .tc)).toFinset :=
  ⟨writes_sub_of main_c_34 rfl (by decide), writes_sub_of (main_call10.cst.ref) rfl (by decide), writes_sub_of (main_call10.v0.ref) rfl (by decide),
    writes_sub_of (main_call10.v1.ref) rfl (by decide), writes_sub_of (main_call10.cst_0.ref) rfl (by decide), writes_sub_of (main_call10.v2.ref) rfl (by decide),
    writes_sub_of (main_call10.v3.ref) rfl (by decide), writes_sub_of (main_call10.v4.ref) rfl (by decide), writes_sub_of (main_call10.v5.ref) rfl (by decide),
    writes_sub_of (main_call10.v6.ref) rfl (by decide), writes_sub_of (main_call10.v7.ref) rfl (by decide), writes_sub_of (main_call10.cst_1.ref) rfl (by decide),
    writes_sub_of (main_call10.v8.ref) rfl (by decide), writes_sub_of (main_call10.cst_2.ref) rfl (by decide), writes_sub_of (main_call10.v9.ref) rfl (by decide),
    writes_sub_of (main_call10.v10.ref) rfl (by decide), writes_sub_of (main_call10.v11.ref) rfl (by decide), writes_sub_of (main_call10.cst_3.ref) rfl (by decide),
    writes_sub_of (main_call10.v12.ref) rfl (by decide), writes_sub_of (main_call10.cst_4.ref) rfl (by decide), writes_sub_of (main_call10.call0.v0.ref) rfl (by decide),
    writes_sub_of (main_call10.call0.v1.ref) rfl (by decide), writes_sub_of (main_call10.call0.v2.ref) rfl (by decide)⟩

/-- A buffer the piece does not write holds after it what it held before. -/
theorem seg23_keep (V : Valuation τ sig (Elt F)) (r : Ref sig .tc) (h : r ∉ seg23_W) :
    after seg23 V (Proc.devRef .tc r) = V (Proc.devRef .tc r) :=
  after_of_writes_sub seg23 V seg23_writes h

/-- Operations 35 … 54 of window 4. -/
abbrev seg24 : List (HloOp τ sig (Elt F)) :=
  [ StableHlo.unary main_v214 main_v216 (broadcastInDim S1x64 ![1] bcast_S64_S1x64_1 : (⟨S64, .f32⟩ : BufTy).Contents (Elt F) → (⟨S1x64, .f32⟩ : BufTy).Contents (Elt F)),
    StableHlo.unary main_v216 main_v217 (broadcastInDim S100000x64 ![0, 1] bcast_S1x64_S100000x64_0_1 : (⟨S1x64, .f32⟩ : BufTy).Contents (Elt F) → (⟨S100000x64, .f32⟩ : BufTy).Contents (Elt F)),
    StableHlo.binary main_v207 main_v217 main_v218 (subf : (⟨S100000x64, .f32⟩ : BufTy).Contents (Elt F) → (⟨S100000x64, .f32⟩ : BufTy).Contents (Elt F) → (⟨S100000x64, .f32⟩ : BufTy).Contents (Elt F)),
    StableHlo.nullary main_cst_35 (constant S_ .f32 0x3727C5AC#32),
    StableHlo.unary main_cst_35 main_v219 (broadcastInDim S64 ![] bcast_S_S64 : (⟨S_, .f32⟩ : BufTy).Contents (Elt F) → (⟨S64, .f32⟩ : BufTy).Contents (Elt F)),
    StableHlo.binary main_v215 main_v219 main_v220 (addf : (⟨S64, .f32⟩ : BufTy).Contents (Elt F) → (⟨S64, .f32⟩ : BufTy).Contents (Elt F) → (⟨S64, .f32⟩ : BufTy).Contents (Elt F)),
    StableHlo.unary main_v220 main_v221 (Host.rsqrt : (⟨S64, .f32⟩ : BufTy).Contents (Elt F) → (⟨S64, .f32⟩ : BufTy).Contents (Elt F)),
    StableHlo.unary main_v221 main_v222 (broadcastInDim S1x64 ![1] bcast_S64_S1x64_1 : (⟨S64, .f32⟩ : BufTy).Contents (Elt F) → (⟨S1x64, .f32⟩ : BufTy).Contents (Elt F)),
    StableHlo.unary main_v222 main_v223 (broadcastInDim S100000x64 ![0, 1] bcast_S1x64_S100000x64_0_1 : (⟨S1x64, .f32⟩ : BufTy).Contents (Elt F) → (⟨S100000x64, .f32⟩ : BufTy).Contents (Elt F)),
    StableHlo.binary main_v218 main_v223 main_v224 (mulf : (⟨S100000x64, .f32⟩ : BufTy).Contents (Elt F) → (⟨S100000x64, .f32⟩ : BufTy).Contents (Elt F) → (⟨S100000x64, .f32⟩ : BufTy).Contents (Elt F)),
    StableHlo.unary main_v209 main_v225 (broadcastInDim S1x64 ![1] bcast_S64_S1x64_1 : (⟨S64, .f32⟩ : BufTy).Contents (Elt F) → (⟨S1x64, .f32⟩ : BufTy).Contents (Elt F)),
    StableHlo.unary main_v225 main_v226 (broadcastInDim S100000x64 ![0, 1] bcast_S1x64_S100000x64_0_1 : (⟨S1x64, .f32⟩ : BufTy).Contents (Elt F) → (⟨S100000x64, .f32⟩ : BufTy).Contents (Elt F)),
    StableHlo.binary main_v224 main_v226 main_v227 (mulf : (⟨S100000x64, .f32⟩ : BufTy).Contents (Elt F) → (⟨S100000x64, .f32⟩ : BufTy).Contents (Elt F) → (⟨S100000x64, .f32⟩ : BufTy).Contents (Elt F)),
    StableHlo.unary main_v211 main_v228 (broadcastInDim S1x64 ![1] bcast_S64_S1x64_1 : (⟨S64, .f32⟩ : BufTy).Contents (Elt F) → (⟨S1x64, .f32⟩ : BufTy).Contents (Elt F)),
    StableHlo.unary main_v228 main_v229 (broadcastInDim S100000x64 ![0, 1] bcast_S1x64_S100000x64_0_1 : (⟨S1x64, .f32⟩ : BufTy).Contents (Elt F) → (⟨S100000x64, .f32⟩ : BufTy).Contents (Elt F)),
    StableHlo.binary main_v227 main_v229 main_v230 (addf : (⟨S100000x64, .f32⟩ : BufTy).Contents (Elt F) → (⟨S100000x64, .f32⟩ : BufTy).Contents (Elt F) → (⟨S100000x64, .f32⟩ : BufTy).Contents (Elt F)),
    StableHlo.binary main_v230 main_v183 main_v231 (addf : (⟨S100000x64, .f32⟩ : BufTy).Contents (Elt F) → (⟨S100000x64, .f32⟩ : BufTy).Contents (Elt F) → (⟨S100000x64, .f32⟩ : BufTy).Contents (Elt F)),
    StableHlo.TRef.nullary main_call11.cst (constant S_ .f32 0x00000000#32),
    StableHlo.TRef.unary main_call11.cst main_call11.v0 (broadcastInDim S100000x64 ![] bcast_S_S100000x64),
    StableHlo.TRef.binary (.of main_v231) main_call11.v0 main_call11.v1 maximumf ]

/-- The buffers those operations write. -/
abbrev seg24_W : List (Ref sig .tc) :=
  [main_v216, main_v217, main_v218, main_cst_35, main_v219, main_v220, main_v221, main_v222,
    main_v223, main_v224, main_v225, main_v226, main_v227, main_v228, main_v229, main_v230,
    main_v231, main_call11.cst.ref, main_call11.v0.ref, main_call11.v1.ref]

theorem seg24_writes : (seg24 : List (HloOp τ sig (Elt F))).Forall fun op =>
    op.writes ⊆ (seg24_W.map (Proc.devRef (τ := τ) .tc)).toFinset :=
  ⟨writes_sub_of main_v216 rfl (by decide), writes_sub_of main_v217 rfl (by decide), writes_sub_of main_v218 rfl (by decide),
    writes_sub_of main_cst_35 rfl (by decide), writes_sub_of main_v219 rfl (by decide), writes_sub_of main_v220 rfl (by decide),
    writes_sub_of main_v221 rfl (by decide), writes_sub_of main_v222 rfl (by decide), writes_sub_of main_v223 rfl (by decide),
    writes_sub_of main_v224 rfl (by decide), writes_sub_of main_v225 rfl (by decide), writes_sub_of main_v226 rfl (by decide),
    writes_sub_of main_v227 rfl (by decide), writes_sub_of main_v228 rfl (by decide), writes_sub_of main_v229 rfl (by decide),
    writes_sub_of main_v230 rfl (by decide), writes_sub_of main_v231 rfl (by decide), writes_sub_of (main_call11.cst.ref) rfl (by decide),
    writes_sub_of (main_call11.v0.ref) rfl (by decide), writes_sub_of (main_call11.v1.ref) rfl (by decide)⟩

/-- A buffer the piece does not write holds after it what it held before. -/
theorem seg24_keep (V : Valuation τ sig (Elt F)) (r : Ref sig .tc) (h : r ∉ seg24_W) :
    after seg24 V (Proc.devRef .tc r) = V (Proc.devRef .tc r) :=
  after_of_writes_sub seg24 V seg24_writes h

/-- Operations 55 … 70 of window 4. -/
abbrev seg25 : List (HloOp τ sig (Elt F)) :=
  [ StableHlo.nullary main_c_36 (constantI S_ 32 0#32),
    StableHlo.unary main_c_36 main_v233 (broadcastInDim S1600000 ![] bcast_S_S1600000 : (⟨S_, .i32⟩ : BufTy).Contents (Elt F) → (⟨S1600000, .i32⟩ : BufTy).Contents (Elt F)),
    StableHlo.binary main_arg1 main_v233 main_v234 (cmpi .slt : (⟨S1600000, .i32⟩ : BufTy).Contents (Elt F) → (⟨S1600000, .i32⟩ : BufTy).Contents (Elt F) → (⟨S1600000, .i1⟩ : BufTy).Contents (Elt F)),
    StableHlo.nullary main_c_37 (constantI S_ 32 100000#32),
    StableHlo.unary main_c_37 main_v235 (broadcastInDim S1600000 ![] bcast_S_S1600000 : (⟨S_, .i32⟩ : BufTy).Contents (Elt F) → (⟨S1600000, .i32⟩ : BufTy).Contents (Elt F)),
    StableHlo.binary main_arg1 main_v235 main_v236 (addi : (⟨S1600000, .i32⟩ : BufTy).Contents (Elt F) → (⟨S1600000, .i32⟩ : BufTy).Contents (Elt F) → (⟨S1600000, .i32⟩ : BufTy).Contents (Elt F)),
    StableHlo.ternary main_v234 main_v236 main_arg1 main_v237 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v237 main_v238 (broadcastInDim S1600000x1 ![0] bcast_S1600000_S1600000x1_0 : (⟨S1600000, .i32⟩ : BufTy).Contents (Elt F) → (⟨S1600000x1, .i32⟩ : BufTy).Contents (Elt F)),
    StableHlo.binary main_v232 main_v238 main_v239 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_38 (constant S_ .f32 0x00000000#32),
    StableHlo.unary main_cst_38 main_v240 (broadcastInDim S100000x64 ![] bcast_S_S100000x64 : (⟨S_, .f32⟩ : BufTy).Contents (Elt F) → (⟨S100000x64, .f32⟩ : BufTy).Contents (Elt F)),
    StableHlo.unary main_arg2 main_v241 (broadcastInDim S1600000x1 ![0] bcast_S1600000_S1600000x1_0 : (⟨S1600000, .i32⟩ : BufTy).Contents (Elt F) → (⟨S1600000x1, .i32⟩ : BufTy).Contents (Elt F)),
    StableHlo.ternary main_v240 main_v241 main_v239 main_v242 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v8 main_v243 (broadcastInDim S100000x1 ![0] bcast_S100000_S100000x1_0 : (⟨S100000, .f32⟩ : BufTy).Contents (Elt F) → (⟨S100000x1, .f32⟩ : BufTy).Contents (Elt F)),
    StableHlo.unary main_v243 main_v244 (broadcastInDim S100000x64 ![0, 1] bcast_S100000x1_S100000x64_0_1 : (⟨S100000x1, .f32⟩ : BufTy).Contents (Elt F) → (⟨S100000x64, .f32⟩ : BufTy).Contents (Elt F)),
    StableHlo.binary main_v242 main_v244 main_v245 (Host.divf : (⟨S100000x64, .f32⟩ : BufTy).Contents (Elt F) → (⟨S100000x64, .f32⟩ : BufTy).Contents (Elt F) → (⟨S100000x64, .f32⟩ : BufTy).Contents (Elt F)) ]

/-- The buffers those operations write. -/
abbrev seg25_W : List (Ref sig .tc) :=
  [main_c_36, main_v233, main_v234, main_c_37, main_v235, main_v236, main_v237, main_v238,
    main_v239, main_cst_38, main_v240, main_v241, main_v242, main_v243, main_v244, main_v245]

theorem seg25_writes : (seg25 : List (HloOp τ sig (Elt F))).Forall fun op =>
    op.writes ⊆ (seg25_W.map (Proc.devRef (τ := τ) .tc)).toFinset :=
  ⟨writes_sub_of main_c_36 rfl (by decide), writes_sub_of main_v233 rfl (by decide), writes_sub_of main_v234 rfl (by decide),
    writes_sub_of main_c_37 rfl (by decide), writes_sub_of main_v235 rfl (by decide), writes_sub_of main_v236 rfl (by decide),
    writes_sub_of main_v237 rfl (by decide), writes_sub_of main_v238 rfl (by decide), writes_sub_of main_v239 rfl (by decide),
    writes_sub_of main_cst_38 rfl (by decide), writes_sub_of main_v240 rfl (by decide), writes_sub_of main_v241 rfl (by decide),
    writes_sub_of main_v242 rfl (by decide), writes_sub_of main_v243 rfl (by decide), writes_sub_of main_v244 rfl (by decide),
    writes_sub_of main_v245 rfl (by decide)⟩

/-- A buffer the piece does not write holds after it what it held before. -/
theorem seg25_keep (V : Valuation τ sig (Elt F)) (r : Ref sig .tc) (h : r ∉ seg25_W) :
    after seg25 V (Proc.devRef .tc r) = V (Proc.devRef .tc r) :=
  after_of_writes_sub seg25 V seg25_writes h

/-- Operations 71 … 85 of window 4. -/
abbrev seg26 : List (HloOp τ sig (Elt F)) :=
  [ StableHlo.binary main_v232 main_v245 main_v246 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v246 main_arg9 main_v247 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v248 (broadcastInDim S1x64 ![1] bcast_S64_S1x64_1 : (⟨S64, .f32⟩ : BufTy).Contents (Elt F) → (⟨S1x64, .f32⟩ : BufTy).Contents (Elt F)),
    StableHlo.unary main_v248 main_v249 (broadcastInDim S100000x64 ![0, 1] bcast_S1x64_S100000x64_0_1 : (⟨S1x64, .f32⟩ : BufTy).Contents (Elt F) → (⟨S100000x64, .f32⟩ : BufTy).Contents (Elt F)),
    StableHlo.binary main_v247 main_v249 main_v250 (addf : (⟨S100000x64, .f32⟩ : BufTy).Contents (Elt F) → (⟨S100000x64, .f32⟩ : BufTy).Contents (Elt F) → (⟨S100000x64, .f32⟩ : BufTy).Contents (Elt F)),
    StableHlo.TRef.nullary main_call12.cst (constant S_ .f32 0x00000000#32),
    StableHlo.TRef.unary main_call12.cst main_call12.v0 (broadcastInDim S100000x64 ![] bcast_S_S100000x64),
    StableHlo.TRef.binary (.of main_v250) main_call12.v0 main_call12.v1 maximumf,
    StableHlo.binary main_v251 main_arg11 main_v252 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg12 main_v253 (broadcastInDim S1x1 ![1] bcast_S1_S1x1_1 : (⟨S1, .f32⟩ : BufTy).Contents (Elt F) → (⟨S1x1, .f32⟩ : BufTy).Contents (Elt F)),
    StableHlo.unary main_v253 main_v254 (broadcastInDim S100000x1 ![0, 1] bcast_S1x1_S100000x1_0_1 : (⟨S1x1, .f32⟩ : BufTy).Contents (Elt F) → (⟨S100000x1, .f32⟩ : BufTy).Contents (Elt F)),
    StableHlo.binary main_v252 main_v254 main_v255 (addf : (⟨S100000x1, .f32⟩ : BufTy).Contents (Elt F) → (⟨S100000x1, .f32⟩ : BufTy).Contents (Elt F) → (⟨S100000x1, .f32⟩ : BufTy).Contents (Elt F)),
    StableHlo.unary main_v255 main_v256 (Host.negf : (⟨S100000x1, .f32⟩ : BufTy).Contents (Elt F) → (⟨S100000x1, .f32⟩ : BufTy).Contents (Elt F)),
    StableHlo.unary main_v256 main_v257 (Host.exp : (⟨S100000x1, .f32⟩ : BufTy).Contents (Elt F) → (⟨S100000x1, .f32⟩ : BufTy).Contents (Elt F)),
    StableHlo.nullary main_cst_39 (constant S_ .f32 0x3F800000#32) ]

/-- The buffers those operations write. -/
abbrev seg26_W : List (Ref sig .tc) :=
  [main_v246, main_v247, main_v248, main_v249, main_v250, main_call12.cst.ref, main_call12.v0.ref, main_call12.v1.ref,
    main_v252, main_v253, main_v254, main_v255, main_v256, main_v257, main_cst_39]

theorem seg26_writes : (seg26 : List (HloOp τ sig (Elt F))).Forall fun op =>
    op.writes ⊆ (seg26_W.map (Proc.devRef (τ := τ) .tc)).toFinset :=
  ⟨writes_sub_of main_v246 rfl (by decide), writes_sub_of main_v247 rfl (by decide), writes_sub_of main_v248 rfl (by decide),
    writes_sub_of main_v249 rfl (by decide), writes_sub_of main_v250 rfl (by decide), writes_sub_of (main_call12.cst.ref) rfl (by decide),
    writes_sub_of (main_call12.v0.ref) rfl (by decide), writes_sub_of (main_call12.v1.ref) rfl (by decide), writes_sub_of main_v252 rfl (by decide),
    writes_sub_of main_v253 rfl (by decide), writes_sub_of main_v254 rfl (by decide), writes_sub_of main_v255 rfl (by decide),
    writes_sub_of main_v256 rfl (by decide), writes_sub_of main_v257 rfl (by decide), writes_sub_of main_cst_39 rfl (by decide)⟩

/-- A buffer the piece does not write holds after it what it held before. -/
theorem seg26_keep (V : Valuation τ sig (Elt F)) (r : Ref sig .tc) (h : r ∉ seg26_W) :
    after seg26 V (Proc.devRef .tc r) = V (Proc.devRef .tc r) :=
  after_of_writes_sub seg26 V seg26_writes h

/-- The window's line is its pieces in order. -/
theorem ops4_split : (ops4 : List (HloOp τ sig (Elt F))) = seg21 ++ (seg22 ++ (seg23 ++ (seg24 ++ (seg25 ++ (seg26))))) := rfl

end Cert.ReferenceIdeal.RefRun

end
-- ==== Proof.RefStagesSeg5.lean ====
/-
  Window 5 of the reference's line cut into pieces, one ending at each named stage buffer.

  The pieces in order are the window's line (`ops5_split`); each piece has its list of written buffers and keeps every
  other buffer, as the whole window does.  Cutting at the stage buffers lets the fold be read one stage at a time: a
  stage's operations lie in the pieces just before its buffer, and the stages it reads were written in earlier pieces.
-/
import proofs.«130402_j14499809591446_2_alg».proof.Proof.RefRunOps5

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- Operations 1 … 8 of window 5. -/
abbrev seg27 : List (HloOp τ sig (Elt F)) :=
  [ StableHlo.unary main_cst_39 main_v258 (broadcastInDim S100000x1 ![] bcast_S_S100000x1 : (⟨S_, .f32⟩ : BufTy).Contents (Elt F) → (⟨S100000x1, .f32⟩ : BufTy).Contents (Elt F)),
    StableHlo.binary main_v258 main_v257 main_v259 (addf : (⟨S100000x1, .f32⟩ : BufTy).Contents (Elt F) → (⟨S100000x1, .f32⟩ : BufTy).Contents (Elt F) → (⟨S100000x1, .f32⟩ : BufTy).Contents (Elt F)),
    StableHlo.nullary main_cst_40 (constant S_ .f32 0x3F800000#32),
    StableHlo.unary main_cst_40 main_v260 (broadcastInDim S100000x1 ![] bcast_S_S100000x1 : (⟨S_, .f32⟩ : BufTy).Contents (Elt F) → (⟨S100000x1, .f32⟩ : BufTy).Contents (Elt F)),
    StableHlo.binary main_v260 main_v259 main_v261 (Host.divf : (⟨S100000x1, .f32⟩ : BufTy).Contents (Elt F) → (⟨S100000x1, .f32⟩ : BufTy).Contents (Elt F) → (⟨S100000x1, .f32⟩ : BufTy).Contents (Elt F)),
    StableHlo.unary main_v261 main_v262 (broadcastInDim S100000x64 ![0, 1] bcast_S100000x1_S100000x64_0_1 : (⟨S100000x1, .f32⟩ : BufTy).Contents (Elt F) → (⟨S100000x64, .f32⟩ : BufTy).Contents (Elt F)),
    StableHlo.binary main_v262 main_v245 main_v263 (mulf : (⟨S100000x64, .f32⟩ : BufTy).Contents (Elt F) → (⟨S100000x64, .f32⟩ : BufTy).Contents (Elt F) → (⟨S100000x64, .f32⟩ : BufTy).Contents (Elt F)),
    StableHlo.binary main_v232 main_v263 main_v264 (addf : (⟨S100000x64, .f32⟩ : BufTy).Contents (Elt F) → (⟨S100000x64, .f32⟩ : BufTy).Contents (Elt F) → (⟨S100000x64, .f32⟩ : BufTy).Contents (Elt F)) ]

/-- The buffers those operations write. -/
abbrev seg27_W : List (Ref sig .tc) :=
  [main_v258, main_v259, main_cst_40, main_v260, main_v261, main_v262, main_v263, main_v264]

theorem seg27_writes : (seg27 : List (HloOp τ sig (Elt F))).Forall fun op =>
    op.writes ⊆ (seg27_W.map (Proc.devRef (τ := τ) .tc)).toFinset :=
  ⟨writes_sub_of main_v258 rfl (by decide), writes_sub_of main_v259 rfl (by decide), writes_sub_of main_cst_40 rfl (by decide),
    writes_sub_of main_v260 rfl (by decide), writes_sub_of main_v261 rfl (by decide), writes_sub_of main_v262 rfl (by decide),
    writes_sub_of main_v263 rfl (by decide), writes_sub_of main_v264 rfl (by decide)⟩

/-- A buffer the piece does not write holds after it what it held before. -/
theorem seg27_keep (V : Valuation τ sig (Elt F)) (r : Ref sig .tc) (h : r ∉ seg27_W) :
    after seg27 V (Proc.devRef .tc r) = V (Proc.devRef .tc r) :=
  after_of_writes_sub seg27 V seg27_writes h

/-- Operations 9 … 35 of window 5. -/
abbrev seg28 : List (HloOp τ sig (Elt F)) :=
  [ StableHlo.unary main_arg15 main_v265 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v265 main_v266 rfl shapeCasts_S1x64x64_S64x64,
    StableHlo.unary main_arg16 main_v267 ((extractStridedSlice S1x64 ![2, 0] · slices_S3x64_S1x64_2_0) : (⟨S3x64, .f32⟩ : BufTy).Contents (Elt F) → (⟨S1x64, .f32⟩ : BufTy).Contents (Elt F)),
    StableHlo.reshape main_v267 main_v268 rfl shapeCasts_S1x64_S64,
    StableHlo.unary main_v10 main_v269 (broadcastInDim S100000x1 ![0] bcast_S100000_S100000x1_0 : (⟨S100000, .f32⟩ : BufTy).Contents (Elt F) → (⟨S100000x1, .f32⟩ : BufTy).Contents (Elt F)),
    StableHlo.unary main_v269 main_v270 (broadcastInDim S100000x64 ![0, 1] bcast_S100000x1_S100000x64_0_1 : (⟨S100000x1, .f32⟩ : BufTy).Contents (Elt F) → (⟨S100000x64, .f32⟩ : BufTy).Contents (Elt F)),
    StableHlo.binary main_v264 main_v270 main_v271 (mulf : (⟨S100000x64, .f32⟩ : BufTy).Contents (Elt F) → (⟨S100000x64, .f32⟩ : BufTy).Contents (Elt F) → (⟨S100000x64, .f32⟩ : BufTy).Contents (Elt F)),
    StableHlo.nullary main_c_41 (constantI S_ 32 0#32),
    StableHlo.unary main_c_41 main_v272 (broadcastInDim S1600000 ![] bcast_S_S1600000 : (⟨S_, .i32⟩ : BufTy).Contents (Elt F) → (⟨S1600000, .i32⟩ : BufTy).Contents (Elt F)),
    StableHlo.binary main_arg1 main_v272 main_v273 (cmpi .slt : (⟨S1600000, .i32⟩ : BufTy).Contents (Elt F) → (⟨S1600000, .i32⟩ : BufTy).Contents (Elt F) → (⟨S1600000, .i1⟩ : BufTy).Contents (Elt F)),
    StableHlo.nullary main_c_42 (constantI S_ 32 100000#32),
    StableHlo.unary main_c_42 main_v274 (broadcastInDim S1600000 ![] bcast_S_S1600000 : (⟨S_, .i32⟩ : BufTy).Contents (Elt F) → (⟨S1600000, .i32⟩ : BufTy).Contents (Elt F)),
    StableHlo.binary main_arg1 main_v274 main_v275 (addi : (⟨S1600000, .i32⟩ : BufTy).Contents (Elt F) → (⟨S1600000, .i32⟩ : BufTy).Contents (Elt F) → (⟨S1600000, .i32⟩ : BufTy).Contents (Elt F)),
    StableHlo.ternary main_v273 main_v275 main_arg1 main_v276 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v276 main_v277 (broadcastInDim S1600000x1 ![0] bcast_S1600000_S1600000x1_0 : (⟨S1600000, .i32⟩ : BufTy).Contents (Elt F) → (⟨S1600000x1, .i32⟩ : BufTy).Contents (Elt F)),
    StableHlo.binary main_v271 main_v277 main_v278 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_43 (constant S_ .f32 0x00000000#32),
    StableHlo.unary main_cst_43 main_v279 (broadcastInDim S100000x64 ![] bcast_S_S100000x64 : (⟨S_, .f32⟩ : BufTy).Contents (Elt F) → (⟨S100000x64, .f32⟩ : BufTy).Contents (Elt F)),
    StableHlo.unary main_arg2 main_v280 (broadcastInDim S1600000x1 ![0] bcast_S1600000_S1600000x1_0 : (⟨S1600000, .i32⟩ : BufTy).Contents (Elt F) → (⟨S1600000x1, .i32⟩ : BufTy).Contents (Elt F)),
    StableHlo.ternary main_v279 main_v280 main_v278 main_v281 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v12 main_v282 (broadcastInDim S100000x1 ![0] bcast_S100000_S100000x1_0 : (⟨S100000, .f32⟩ : BufTy).Contents (Elt F) → (⟨S100000x1, .f32⟩ : BufTy).Contents (Elt F)),
    StableHlo.unary main_v282 main_v283 (broadcastInDim S100000x64 ![0, 1] bcast_S100000x1_S100000x64_0_1 : (⟨S100000x1, .f32⟩ : BufTy).Contents (Elt F) → (⟨S100000x64, .f32⟩ : BufTy).Contents (Elt F)),
    StableHlo.binary main_v281 main_v283 main_v284 (mulf : (⟨S100000x64, .f32⟩ : BufTy).Contents (Elt F) → (⟨S100000x64, .f32⟩ : BufTy).Contents (Elt F) → (⟨S100000x64, .f32⟩ : BufTy).Contents (Elt F)),
    StableHlo.binary main_v284 main_v266 main_v285 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v268 main_v286 (broadcastInDim S1x64 ![1] bcast_S64_S1x64_1 : (⟨S64, .f32⟩ : BufTy).Contents (Elt F) → (⟨S1x64, .f32⟩ : BufTy).Contents (Elt F)),
    StableHlo.unary main_v286 main_v287 (broadcastInDim S100000x64 ![0, 1] bcast_S1x64_S100000x64_0_1 : (⟨S1x64, .f32⟩ : BufTy).Contents (Elt F) → (⟨S100000x64, .f32⟩ : BufTy).Contents (Elt F)),
    StableHlo.binary main_v285 main_v287 main_v288 (addf : (⟨S100000x64, .f32⟩ : BufTy).Contents (Elt F) → (⟨S100000x64, .f32⟩ : BufTy).Contents (Elt F) → (⟨S100000x64, .f32⟩ : BufTy).Contents (Elt F)) ]

/-- The buffers those operations write. -/
abbrev seg28_W : List (Ref sig .tc) :=
  [main_v265, main_v266, main_v267, main_v268, main_v269, main_v270, main_v271, main_c_41,
    main_v272, main_v273, main_c_42, main_v274, main_v275, main_v276, main_v277, main_v278,
    main_cst_43, main_v279, main_v280, main_v281, main_v282, main_v283, main_v284, main_v285,
    main_v286, main_v287, main_v288]

theorem seg28_writes : (seg28 : List (HloOp τ sig (Elt F))).Forall fun op =>
    op.writes ⊆ (seg28_W.map (Proc.devRef (τ := τ) .tc)).toFinset :=
  ⟨writes_sub_of main_v265 rfl (by decide), writes_sub_of main_v266 rfl (by decide), writes_sub_of main_v267 rfl (by decide),
    writes_sub_of main_v268 rfl (by decide), writes_sub_of main_v269 rfl (by decide), writes_sub_of main_v270 rfl (by decide),
    writes_sub_of main_v271 rfl (by decide), writes_sub_of main_c_41 rfl (by decide), writes_sub_of main_v272 rfl (by decide),
    writes_sub_of main_v273 rfl (by decide), writes_sub_of main_c_42 rfl (by decide), writes_sub_of main_v274 rfl (by decide),
    writes_sub_of main_v275 rfl (by decide), writes_sub_of main_v276 rfl (by decide), writes_sub_of main_v277 rfl (by decide),
    writes_sub_of main_v278 rfl (by decide), writes_sub_of main_cst_43 rfl (by decide), writes_sub_of main_v279 rfl (by decide),
    writes_sub_of main_v280 rfl (by decide), writes_sub_of main_v281 rfl (by decide), writes_sub_of main_v282 rfl (by decide),
    writes_sub_of main_v283 rfl (by decide), writes_sub_of main_v284 rfl (by decide), writes_sub_of main_v285 rfl (by decide),
    writes_sub_of main_v286 rfl (by decide), writes_sub_of main_v287 rfl (by decide), writes_sub_of main_v288 rfl (by decide)⟩

/-- A buffer the piece does not write holds after it what it held before. -/
theorem seg28_keep (V : Valuation τ sig (Elt F)) (r : Ref sig .tc) (h : r ∉ seg28_W) :
    after seg28 V (Proc.devRef .tc r) = V (Proc.devRef .tc r) :=
  after_of_writes_sub seg28 V seg28_writes h

/-- Operations 36 … 44 of window 5. -/
abbrev seg29 : List (HloOp τ sig (Elt F)) :=
  [ StableHlo.unary main_arg17 main_v289 ((extractStridedSlice S1x64 ![3, 0] · slices_S4x64_S1x64_3_0) : (⟨S4x64, .f32⟩ : BufTy).Contents (Elt F) → (⟨S1x64, .f32⟩ : BufTy).Contents (Elt F)),
    StableHlo.reshape main_v289 main_v290 rfl shapeCasts_S1x64_S64,
    StableHlo.unary main_arg18 main_v291 ((extractStridedSlice S1x64 ![3, 0] · slices_S4x64_S1x64_3_0) : (⟨S4x64, .f32⟩ : BufTy).Contents (Elt F) → (⟨S1x64, .f32⟩ : BufTy).Contents (Elt F)),
    StableHlo.reshape main_v291 main_v292 rfl shapeCasts_S1x64_S64,
    StableHlo.nullary main_cst_44 (constant S_ .f32 0x00000000#32),
    StableHlo.binary main_v288 main_cst_44 main_v293 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_45 (constant S_ .f32 0x47C35000#32),
    StableHlo.unary main_cst_45 main_v294 (broadcastInDim S64 ![] bcast_S_S64 : (⟨S_, .f32⟩ : BufTy).Contents (Elt F) → (⟨S64, .f32⟩ : BufTy).Contents (Elt F)),
    StableHlo.binary main_v293 main_v294 main_v295 (Host.divf : (⟨S64, .f32⟩ : BufTy).Contents (Elt F) → (⟨S64, .f32⟩ : BufTy).Contents (Elt F) → (⟨S64, .f32⟩ : BufTy).Contents (Elt F)) ]

/-- The buffers those operations write. -/
abbrev seg29_W : List (Ref sig .tc) :=
  [main_v289, main_v290, main_v291, main_v292, main_cst_44, main_v293, main_cst_45, main_v294,
    main_v295]

theorem seg29_writes : (seg29 : List (HloOp τ sig (Elt F))).Forall fun op =>
    op.writes ⊆ (seg29_W.map (Proc.devRef (τ := τ) .tc)).toFinset :=
  ⟨writes_sub_of main_v289 rfl (by decide), writes_sub_of main_v290 rfl (by decide), writes_sub_of main_v291 rfl (by decide),
    writes_sub_of main_v292 rfl (by decide), writes_sub_of main_cst_44 rfl (by decide), writes_sub_of main_v293 rfl (by decide),
    writes_sub_of main_cst_45 rfl (by decide), writes_sub_of main_v294 rfl (by decide), writes_sub_of main_v295 rfl (by decide)⟩

/-- A buffer the piece does not write holds after it what it held before. -/
theorem seg29_keep (V : Valuation τ sig (Elt F)) (r : Ref sig .tc) (h : r ∉ seg29_W) :
    after seg29 V (Proc.devRef .tc r) = V (Proc.devRef .tc r) :=
  after_of_writes_sub seg29 V seg29_writes h

/-- Operations 45 … 67 of window 5. -/
abbrev seg30 : List (HloOp τ sig (Elt F)) :=
  [ StableHlo.nullary main_c_46 (constantI S_ 32 0#32),
    StableHlo.TRef.nullary main_call13.cst (constant S_ .f32 0x00000000#32),
    StableHlo.TRef.binary (.of main_v288) main_call13.cst main_call13.v0 (fun x v => Host.reduceAdd x v reducesTo_S100000x64_S64_d0 h_S_),
    StableHlo.TRef.unary main_call13.v0 main_call13.v1 (broadcastInDim S1x64 ![1] bcast_S64_S1x64_1),
    StableHlo.TRef.nullary main_call13.cst_0 (constant S_ .f32 0x47C35000#32),
    StableHlo.TRef.unary main_call13.cst_0 main_call13.v2 (broadcastInDim S1x64 ![] bcast_S_S1x64),
    StableHlo.TRef.binary main_call13.v1 main_call13.v2 main_call13.v3 Host.divf,
    StableHlo.TRef.unary main_call13.v3 main_call13.v4 (broadcastInDim S100000x64 ![0, 1] bcast_S1x64_S100000x64_0_1),
    StableHlo.TRef.binary (.of main_v288) main_call13.v4 main_call13.v5 subf,
    StableHlo.TRef.binary main_call13.v5 main_call13.v5 main_call13.v6 mulf,
    StableHlo.TRef.unary (.of main_c_46) main_call13.v7 (sitofp .f32),
    StableHlo.TRef.nullary main_call13.cst_1 (constant S_ .f32 0x47C35000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S100000x64_S64_d0 h_S_),
    StableHlo.TRef.unary main_call13.v8 main_call13.v10 (broadcastInDim S64 ![] bcast_S_S64),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S64 ![] bcast_S_S64),
    StableHlo.TRef.ternary main_call13.v12 main_call13.v11 main_call13.call0.v1 main_call13.call0.v2 (fun p a b => select (broadcastInDim S64 ![] bcast_S_S64 p) a b) ]

/-- The buffers those operations write. -/
abbrev seg30_W : List (Ref sig .tc) :=
  [main_c_46, main_call13.cst.ref, main_call13.v0.ref, main_call13.v1.ref, main_call13.cst_0.ref, main_call13.v2.ref, main_call13.v3.ref, main_call13.v4.ref,
    main_call13.v5.ref, main_call13.v6.ref, main_call13.v7.ref, main_call13.cst_1.ref, main_call13.v8.ref, main_call13.cst_2.ref, main_call13.v9.ref, main_call13.v10.ref,
    main_call13.v11.ref, main_call13.cst_3.ref, main_call13.v12.ref, main_call13.cst_4.ref, main_call13.call0.v0.ref, main_call13.call0.v1.ref, main_call13.call0.v2.ref]

theorem seg30_writes : (seg30 : List (HloOp τ sig (Elt F))).Forall fun op =>
    op.writes ⊆ (seg30_W.map (Proc.devRef (τ := τ) .tc)).toFinset :=
  ⟨writes_sub_of main_c_46 rfl (by decide), writes_sub_of (main_call13.cst.ref) rfl (by decide), writes_sub_of (main_call13.v0.ref) rfl (by decide),
    writes_sub_of (main_call13.v1.ref) rfl (by decide), writes_sub_of (main_call13.cst_0.ref) rfl (by decide), writes_sub_of (main_call13.v2.ref) rfl (by decide),
    writes_sub_of (main_call13.v3.ref) rfl (by decide), writes_sub_of (main_call13.v4.ref) rfl (by decide), writes_sub_of (main_call13.v5.ref) rfl (by decide),
    writes_sub_of (main_call13.v6.ref) rfl (by decide), writes_sub_of (main_call13.v7.ref) rfl (by decide), writes_sub_of (main_call13.cst_1.ref) rfl (by decide),
    writes_sub_of (main_call13.v8.ref) rfl (by decide), writes_sub_of (main_call13.cst_2.ref) rfl (by decide), writes_sub_of (main_call13.v9.ref) rfl (by decide),
    writes_sub_of (main_call13.v10.ref) rfl (by decide), writes_sub_of (main_call13.v11.ref) rfl (by decide), writes_sub_of (main_call13.cst_3.ref) rfl (by decide),
    writes_sub_of (main_call13.v12.ref) rfl (by decide), writes_sub_of (main_call13.cst_4.ref) rfl (by decide), writes_sub_of (main_call13.call0.v0.ref) rfl (by decide),
    writes_sub_of (main_call13.call0.v1.ref) rfl (by decide), writes_sub_of (main_call13.call0.v2.ref) rfl (by decide)⟩

/-- A buffer the piece does not write holds after it what it held before. -/
theorem seg30_keep (V : Valuation τ sig (Elt F)) (r : Ref sig .tc) (h : r ∉ seg30_W) :
    after seg30 V (Proc.devRef .tc r) = V (Proc.devRef .tc r) :=
  after_of_writes_sub seg30 V seg30_writes h

/-- Operations 68 … 81 of window 5. -/
abbrev seg31 : List (HloOp τ sig (Elt F)) :=
  [ StableHlo.unary main_v295 main_v297 (broadcastInDim S1x64 ![1] bcast_S64_S1x64_1 : (⟨S64, .f32⟩ : BufTy).Contents (Elt F) → (⟨S1x64, .f32⟩ : BufTy).Contents (Elt F)),
    StableHlo.unary main_v297 main_v298 (broadcastInDim S100000x64 ![0, 1] bcast_S1x64_S100000x64_0_1 : (⟨S1x64, .f32⟩ : BufTy).Contents (Elt F) → (⟨S100000x64, .f32⟩ : BufTy).Contents (Elt F)),
    StableHlo.binary main_v288 main_v298 main_v299 (subf : (⟨S100000x64, .f32⟩ : BufTy).Contents (Elt F) → (⟨S100000x64, .f32⟩ : BufTy).Contents (Elt F) → (⟨S100000x64, .f32⟩ : BufTy).Contents (Elt F)),
    StableHlo.nullary main_cst_47 (constant S_ .f32 0x3727C5AC#32),
    StableHlo.unary main_cst_47 main_v300 (broadcastInDim S64 ![] bcast_S_S64 : (⟨S_, .f32⟩ : BufTy).Contents (Elt F) → (⟨S64, .f32⟩ : BufTy).Contents (Elt F)),
    StableHlo.binary main_v296 main_v300 main_v301 (addf : (⟨S64, .f32⟩ : BufTy).Contents (Elt F) → (⟨S64, .f32⟩ : BufTy).Contents (Elt F) → (⟨S64, .f32⟩ : BufTy).Contents (Elt F)),
    StableHlo.unary main_v301 main_v302 (Host.rsqrt : (⟨S64, .f32⟩ : BufTy).Contents (Elt F) → (⟨S64, .f32⟩ : BufTy).Contents (Elt F)),
    StableHlo.unary main_v302 main_v303 (broadcastInDim S1x64 ![1] bcast_S64_S1x64_1 : (⟨S64, .f32⟩ : BufTy).Contents (Elt F) → (⟨S1x64, .f32⟩ : BufTy).Contents (Elt F)),
    StableHlo.unary main_v303 main_v304 (broadcastInDim S100000x64 ![0, 1] bcast_S1x64_S100000x64_0_1 : (⟨S1x64, .f32⟩ : BufTy).Contents (Elt F) → (⟨S100000x64, .f32⟩ : BufTy).Contents (Elt F)),
    StableHlo.binary main_v299 main_v304 main_v305 (mulf : (⟨S100000x64, .f32⟩ : BufTy).Contents (Elt F) → (⟨S100000x64, .f32⟩ : BufTy).Contents (Elt F) → (⟨S100000x64, .f32⟩ : BufTy).Contents (Elt F)),
    StableHlo.unary main_v290 main_v306 (broadcastInDim S1x64 ![1] bcast_S64_S1x64_1 : (⟨S64, .f32⟩ : BufTy).Contents (Elt F) → (⟨S1x64, .f32⟩ : BufTy).Contents (Elt F)),
    StableHlo.unary main_v306 main_v307 (broadcastInDim S100000x64 ![0, 1] bcast_S1x64_S100000x64_0_1 : (⟨S1x64, .f32⟩ : BufTy).Contents (Elt F) → (⟨S100000x64, .f32⟩ : BufTy).Contents (Elt F)),
    StableHlo.binary main_v305 main_v307 main_v308 (mulf : (⟨S100000x64, .f32⟩ : BufTy).Contents (Elt F) → (⟨S100000x64, .f32⟩ : BufTy).Contents (Elt F) → (⟨S100000x64, .f32⟩ : BufTy).Contents (Elt F)),
    StableHlo.unary main_v292 main_v309 (broadcastInDim S1x64 ![1] bcast_S64_S1x64_1 : (⟨S64, .f32⟩ : BufTy).Contents (Elt F) → (⟨S1x64, .f32⟩ : BufTy).Contents (Elt F)) ]

/-- The buffers those operations write. -/
abbrev seg31_W : List (Ref sig .tc) :=
  [main_v297, main_v298, main_v299, main_cst_47, main_v300, main_v301, main_v302, main_v303,
    main_v304, main_v305, main_v306, main_v307, main_v308, main_v309]

theorem seg31_writes : (seg31 : List (HloOp τ sig (Elt F))).Forall fun op =>
    op.writes ⊆ (seg31_W.map (Proc.devRef (τ := τ) .tc)).toFinset :=
  ⟨writes_sub_of main_v297 rfl (by decide), writes_sub_of main_v298 rfl (by decide), writes_sub_of main_v299 rfl (by decide),
    writes_sub_of main_cst_47 rfl (by decide), writes_sub_of main_v300 rfl (by decide), writes_sub_of main_v301 rfl (by decide),
    writes_sub_of main_v302 rfl (by decide), writes_sub_of main_v303 rfl (by decide), writes_sub_of main_v304 rfl (by decide),
    writes_sub_of main_v305 rfl (by decide), writes_sub_of main_v306 rfl (by decide), writes_sub_of main_v307 rfl (by decide),
    writes_sub_of main_v308 rfl (by decide), writes_sub_of main_v309 rfl (by decide)⟩

/-- A buffer the piece does not write holds after it what it held before. -/
theorem seg31_keep (V : Valuation τ sig (Elt F)) (r : Ref sig .tc) (h : r ∉ seg31_W) :
    after seg31 V (Proc.devRef .tc r) = V (Proc.devRef .tc r) :=
  after_of_writes_sub seg31 V seg31_writes h

/-- The window's line is its pieces in order. -/
theorem ops5_split : (ops5 : List (HloOp τ sig (Elt F))) = seg27 ++ (seg28 ++ (seg29 ++ (seg30 ++ (seg31)))) := rfl

end Cert.ReferenceIdeal.RefRun

end
-- ==== Proof.RefStagesSeg6.lean ====
/-
  Window 6 of the reference's line cut into pieces, one ending at each named stage buffer.

  The pieces in order are the window's line (`ops6_split`); each piece has its list of written buffers and keeps every
  other buffer, as the whole window does.  Cutting at the stage buffers lets the fold be read one stage at a time: a
  stage's operations lie in the pieces just before its buffer, and the stages it reads were written in earlier pieces.
-/
import proofs.«130402_j14499809591446_2_alg».proof.Proof.RefRunOps6

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- Operations 1 … 10 of window 6. -/
abbrev seg32 : List (HloOp τ sig (Elt F)) :=
  [ StableHlo.unary main_v309 main_v310 (broadcastInDim S100000x64 ![0, 1] bcast_S1x64_S100000x64_0_1 : (⟨S1x64, .f32⟩ : BufTy).Contents (Elt F) → (⟨S100000x64, .f32⟩ : BufTy).Contents (Elt F)),
    StableHlo.binary main_v308 main_v310 main_v311 (addf : (⟨S100000x64, .f32⟩ : BufTy).Contents (Elt F) → (⟨S100000x64, .f32⟩ : BufTy).Contents (Elt F) → (⟨S100000x64, .f32⟩ : BufTy).Contents (Elt F)),
    StableHlo.binary main_v311 main_v264 main_v312 (addf : (⟨S100000x64, .f32⟩ : BufTy).Contents (Elt F) → (⟨S100000x64, .f32⟩ : BufTy).Contents (Elt F) → (⟨S100000x64, .f32⟩ : BufTy).Contents (Elt F)),
    StableHlo.TRef.nullary main_call14.cst (constant S_ .f32 0x00000000#32),
    StableHlo.TRef.unary main_call14.cst main_call14.v0 (broadcastInDim S100000x64 ![] bcast_S_S100000x64),
    StableHlo.TRef.binary (.of main_v312) main_call14.v0 main_call14.v1 maximumf,
    StableHlo.binary main_v313 main_arg19 main_v314 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    StableHlo.unary main_arg20 main_v315 (broadcastInDim S1x16 ![1] bcast_S16_S1x16_1 : (⟨S16, .f32⟩ : BufTy).Contents (Elt F) → (⟨S1x16, .f32⟩ : BufTy).Contents (Elt F)),
    StableHlo.unary main_v315 main_v316 (broadcastInDim S100000x16 ![0, 1] bcast_S1x16_S100000x16_0_1 : (⟨S1x16, .f32⟩ : BufTy).Contents (Elt F) → (⟨S100000x16, .f32⟩ : BufTy).Contents (Elt F)),
    StableHlo.binary main_v314 main_v316 main_v317 (addf : (⟨S100000x16, .f32⟩ : BufTy).Contents (Elt F) → (⟨S100000x16, .f32⟩ : BufTy).Contents (Elt F) → (⟨S100000x16, .f32⟩ : BufTy).Contents (Elt F)) ]

/-- The buffers those operations write. -/
abbrev seg32_W : List (Ref sig .tc) :=
  [main_v310, main_v311, main_v312, main_call14.cst.ref, main_call14.v0.ref, main_call14.v1.ref, main_v314, main_v315,
    main_v316, main_v317]

theorem seg32_writes : (seg32 : List (HloOp τ sig (Elt F))).Forall fun op =>
    op.writes ⊆ (seg32_W.map (Proc.devRef (τ := τ) .tc)).toFinset :=
  ⟨writes_sub_of main_v310 rfl (by decide), writes_sub_of main_v311 rfl (by decide), writes_sub_of main_v312 rfl (by decide),
    writes_sub_of (main_call14.cst.ref) rfl (by decide), writes_sub_of (main_call14.v0.ref) rfl (by decide), writes_sub_of (main_call14.v1.ref) rfl (by decide),
    writes_sub_of main_v314 rfl (by decide), writes_sub_of main_v315 rfl (by decide), writes_sub_of main_v316 rfl (by decide),
    writes_sub_of main_v317 rfl (by decide)⟩

/-- A buffer the piece does not write holds after it what it held before. -/
theorem seg32_keep (V : Valuation τ sig (Elt F)) (r : Ref sig .tc) (h : r ∉ seg32_W) :
    after seg32 V (Proc.devRef .tc r) = V (Proc.devRef .tc r) :=
  after_of_writes_sub seg32 V seg32_writes h

/-- The window's line is its pieces in order. -/
theorem ops6_split : (ops6 : List (HloOp τ sig (Elt F))) = seg32 := rfl

end Cert.ReferenceIdeal.RefRun

end
-- ==== Proof.RefStagesSVals.lean ====
/-
  The fold of the reference's operations, piece by piece.

  `svJ V` is what the buffers hold after the first J pieces, from contents `V`; the fold over the whole line is the
  last of them.  A buffer that the pieces J, …, 32 do not write holds at the end what it held after piece J - 1
  (`sat_J`); an argument buffer, written by no operation, holds its launch contents throughout (`svJ_main_argK`).
-/
import proofs.«130402_j14499809591446_2_alg».proof.Proof.RefRun
import proofs.«130402_j14499809591446_2_alg».proof.Proof.RefStagesSeg0
import proofs.«130402_j14499809591446_2_alg».proof.Proof.RefStagesSeg1
import proofs.«130402_j14499809591446_2_alg».proof.Proof.RefStagesSeg2
import proofs.«130402_j14499809591446_2_alg».proof.Proof.RefStagesSeg3
import proofs.«130402_j14499809591446_2_alg».proof.Proof.RefStagesSeg4
import proofs.«130402_j14499809591446_2_alg».proof.Proof.RefStagesSeg5
import proofs.«130402_j14499809591446_2_alg».proof.Proof.RefStagesSeg6

noncomputable section

namespace Cert.ReferenceIdeal.RefRun

open Cert.ReferenceIdeal Idealize.ShloMosaic Idealize.ShloMosaic.TcCoe Idealize.SL.Sem Idealize.ShloMosaic.StableHlo
open Facts₀ Facts

variable [Facts]

/-- The buffers' contents after the first piece. -/
def sv1 (V : Valuation τ sig (Elt Ideal)) : Valuation τ sig (Elt Ideal) := after seg0 V
def sv2 (V : Valuation τ sig (Elt Ideal)) : Valuation τ sig (Elt Ideal) := after seg1 (sv1 V)
def sv3 (V : Valuation τ sig (Elt Ideal)) : Valuation τ sig (Elt Ideal) := after seg2 (sv2 V)
def sv4 (V : Valuation τ sig (Elt Ideal)) : Valuation τ sig (Elt Ideal) := after seg3 (sv3 V)
def sv5 (V : Valuation τ sig (Elt Ideal)) : Valuation τ sig (Elt Ideal) := after seg4 (sv4 V)
def sv6 (V : Valuation τ sig (Elt Ideal)) : Valuation τ sig (Elt Ideal) := after seg5 (sv5 V)
def sv7 (V : Valuation τ sig (Elt Ideal)) : Valuation τ sig (Elt Ideal) := after seg6 (sv6 V)
def sv8 (V : Valuation τ sig (Elt Ideal)) : Valuation τ sig (Elt Ideal) := after seg7 (sv7 V)
def sv9 (V : Valuation τ sig (Elt Ideal)) : Valuation τ sig (Elt Ideal) := after seg8 (sv8 V)
def sv10 (V : Valuation τ sig (Elt Ideal)) : Valuation τ sig (Elt Ideal) := after seg9 (sv9 V)
def sv11 (V : Valuation τ sig (Elt Ideal)) : Valuation τ sig (Elt Ideal) := after seg10 (sv10 V)
def sv12 (V : Valuation τ sig (Elt Ideal)) : Valuation τ sig (Elt Ideal) := after seg11 (sv11 V)
def sv13 (V : Valuation τ sig (Elt Ideal)) : Valuation τ sig (Elt Ideal) := after seg12 (sv12 V)
def sv14 (V : Valuation τ sig (Elt Ideal)) : Valuation τ sig (Elt Ideal) := after seg13 (sv13 V)
def sv15 (V : Valuation τ sig (Elt Ideal)) : Valuation τ sig (Elt Ideal) := after seg14 (sv14 V)
def sv16 (V : Valuation τ sig (Elt Ideal)) : Valuation τ sig (Elt Ideal) := after seg15 (sv15 V)
def sv17 (V : Valuation τ sig (Elt Ideal)) : Valuation τ sig (Elt Ideal) := after seg16 (sv16 V)
def sv18 (V : Valuation τ sig (Elt Ideal)) : Valuation τ sig (Elt Ideal) := after seg17 (sv17 V)
def sv19 (V : Valuation τ sig (Elt Ideal)) : Valuation τ sig (Elt Ideal) := after seg18 (sv18 V)
def sv20 (V : Valuation τ sig (Elt Ideal)) : Valuation τ sig (Elt Ideal) := after seg19 (sv19 V)
def sv21 (V : Valuation τ sig (Elt Ideal)) : Valuation τ sig (Elt Ideal) := after seg20 (sv20 V)
def sv22 (V : Valuation τ sig (Elt Ideal)) : Valuation τ sig (Elt Ideal) := after seg21 (sv21 V)
def sv23 (V : Valuation τ sig (Elt Ideal)) : Valuation τ sig (Elt Ideal) := after seg22 (sv22 V)
def sv24 (V : Valuation τ sig (Elt Ideal)) : Valuation τ sig (Elt Ideal) := after seg23 (sv23 V)
def sv25 (V : Valuation τ sig (Elt Ideal)) : Valuation τ sig (Elt Ideal) := after seg24 (sv24 V)
def sv26 (V : Valuation τ sig (Elt Ideal)) : Valuation τ sig (Elt Ideal) := after seg25 (sv25 V)
def sv27 (V : Valuation τ sig (Elt Ideal)) : Valuation τ sig (Elt Ideal) := after seg26 (sv26 V)
def sv28 (V : Valuation τ sig (Elt Ideal)) : Valuation τ sig (Elt Ideal) := after seg27 (sv27 V)
def sv29 (V : Valuation τ sig (Elt Ideal)) : Valuation τ sig (Elt Ideal) := after seg28 (sv28 V)
def sv30 (V : Valuation τ sig (Elt Ideal)) : Valuation τ sig (Elt Ideal) := after seg29 (sv29 V)
def sv31 (V : Valuation τ sig (Elt Ideal)) : Valuation τ sig (Elt Ideal) := after seg30 (sv30 V)
def sv32 (V : Valuation τ sig (Elt Ideal)) : Valuation τ sig (Elt Ideal) := after seg31 (sv31 V)
def sv33 (V : Valuation τ sig (Elt Ideal)) : Valuation τ sig (Elt Ideal) := after seg32 (sv32 V)

/-- The whole line's fold is the last of them. -/
theorem after_ops_sv (V : Valuation τ sig (Elt Ideal)) : after ops V = sv33 V := by
  rw [after_ops, ops0_split, ops1_split, ops2_split, ops3_split, ops4_split, ops5_split, ops6_split]
  simp only [StableHlo.after_append]
  rfl

theorem sat_33 (V : Valuation τ sig (Elt Ideal)) (r : Ref sig .tc) :
    after ops V (Proc.devRef .tc r) = sv33 V (Proc.devRef .tc r) := by
  rw [after_ops_sv]
theorem sat_32 (V : Valuation τ sig (Elt Ideal)) (r : Ref sig .tc) (h32 : r ∉ seg32_W) :
    after ops V (Proc.devRef .tc r) = sv32 V (Proc.devRef .tc r) :=
  (sat_33 V r ).trans (seg32_keep _ r h32)
theorem sat_31 (V : Valuation τ sig (Elt Ideal)) (r : Ref sig .tc) (h31 : r ∉ seg31_W) (h32 : r ∉ seg32_W) :
    after ops V (Proc.devRef .tc r) = sv31 V (Proc.devRef .tc r) :=
  (sat_32 V r h32).trans (seg31_keep _ r h31)
theorem sat_30 (V : Valuation τ sig (Elt Ideal)) (r : Ref sig .tc) (h30 : r ∉ seg30_W) (h31 : r ∉ seg31_W) (h32 : r ∉ seg32_W) :
    after ops V (Proc.devRef .tc r) = sv30 V (Proc.devRef .tc r) :=
  (sat_31 V r h31 h32).trans (seg30_keep _ r h30)
theorem sat_29 (V : Valuation τ sig (Elt Ideal)) (r : Ref sig .tc) (h29 : r ∉ seg29_W) (h30 : r ∉ seg30_W) (h31 : r ∉ seg31_W) (h32 : r ∉ seg32_W) :
    after ops V (Proc.devRef .tc r) = sv29 V (Proc.devRef .tc r) :=
  (sat_30 V r h30 h31 h32).trans (seg29_keep _ r h29)
theorem sat_28 (V : Valuation τ sig (Elt Ideal)) (r : Ref sig .tc) (h28 : r ∉ seg28_W) (h29 : r ∉ seg29_W) (h30 : r ∉ seg30_W) (h31 : r ∉ seg31_W) (h32 : r ∉ seg32_W) :
    after ops V (Proc.devRef .tc r) = sv28 V (Proc.devRef .tc r) :=
  (sat_29 V r h29 h30 h31 h32).trans (seg28_keep _ r h28)
theorem sat_27 (V : Valuation τ sig (Elt Ideal)) (r : Ref sig .tc) (h27 : r ∉ seg27_W) (h28 : r ∉ seg28_W) (h29 : r ∉ seg29_W) (h30 : r ∉ seg30_W) (h31 : r ∉ seg31_W) (h32 : r ∉ seg32_W) :
    after ops V (Proc.devRef .tc r) = sv27 V (Proc.devRef .tc r) :=
  (sat_28 V r h28 h29 h30 h31 h32).trans (seg27_keep _ r h27)
theorem sat_26 (V : Valuation τ sig (Elt Ideal)) (r : Ref sig .tc) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv26 V (Proc.devRef .tc r) :=
  (sat_27 V r h27 h28 h29 h30 h31 h32).trans (seg26_keep _ r h26)
theorem sat_25 (V : Valuation τ sig (Elt Ideal)) (r : Ref sig .tc) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv25 V (Proc.devRef .tc r) :=
  (sat_26 V r h26 h27 h28 h29 h30 h31 h32).trans (seg25_keep _ r h25)
theorem sat_24 (V : Valuation τ sig (Elt Ideal)) (r : Ref sig .tc) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv24 V (Proc.devRef .tc r) :=
  (sat_25 V r h25 h26 h27 h28 h29 h30 h31 h32).trans (seg24_keep _ r h24)
theorem sat_23 (V : Valuation τ sig (Elt Ideal)) (r : Ref sig .tc) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv23 V (Proc.devRef .tc r) :=
  (sat_24 V r h24 h25 h26 h27 h28 h29 h30 h31 h32).trans (seg23_keep _ r h23)
theorem sat_22 (V : Valuation τ sig (Elt Ideal)) (r : Ref sig .tc) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv22 V (Proc.devRef .tc r) :=
  (sat_23 V r h23 h24 h25 h26 h27 h28 h29 h30 h31 h32).trans (seg22_keep _ r h22)
theorem sat_21 (V : Valuation τ sig (Elt Ideal)) (r : Ref sig .tc) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv21 V (Proc.devRef .tc r) :=
  (sat_22 V r h22 h23 h24 h25 h26 h27 h28 h29 h30 h31 h32).trans (seg21_keep _ r h21)
theorem sat_20 (V : Valuation τ sig (Elt Ideal)) (r : Ref sig .tc) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv20 V (Proc.devRef .tc r) :=
  (sat_21 V r h21 h22 h23 h24 h25 h26 h27 h28 h29 h30 h31 h32).trans (seg20_keep _ r h20)
theorem sat_19 (V : Valuation τ sig (Elt Ideal)) (r : Ref sig .tc) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv19 V (Proc.devRef .tc r) :=
  (sat_20 V r h20 h21 h22 h23 h24 h25 h26 h27 h28 h29 h30 h31 h32).trans (seg19_keep _ r h19)
theorem sat_18 (V : Valuation τ sig (Elt Ideal)) (r : Ref sig .tc) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv18 V (Proc.devRef .tc r) :=
  (sat_19 V r h19 h20 h21 h22 h23 h24 h25 h26 h27 h28 h29 h30 h31 h32).trans (seg18_keep _ r h18)
theorem sat_17 (V : Valuation τ sig (Elt Ideal)) (r : Ref sig .tc) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv17 V (Proc.devRef .tc r) :=
  (sat_18 V r h18 h19 h20 h21 h22 h23 h24 h25 h26 h27 h28 h29 h30 h31 h32).trans (seg17_keep _ r h17)
theorem sat_16 (V : Valuation τ sig (Elt Ideal)) (r : Ref sig .tc) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv16 V (Proc.devRef .tc r) :=
  (sat_17 V r h17 h18 h19 h20 h21 h22 h23 h24 h25 h26 h27 h28 h29 h30 h31 h32).trans (seg16_keep _ r h16)
theorem sat_15 (V : Valuation τ sig (Elt Ideal)) (r : Ref sig .tc) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv15 V (Proc.devRef .tc r) :=
  (sat_16 V r h16 h17 h18 h19 h20 h21 h22 h23 h24 h25 h26 h27 h28 h29 h30 h31 h32).trans (seg15_keep _ r h15)
theorem sat_14 (V : Valuation τ sig (Elt Ideal)) (r : Ref sig .tc) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv14 V (Proc.devRef .tc r) :=
  (sat_15 V r h15 h16 h17 h18 h19 h20 h21 h22 h23 h24 h25 h26 h27 h28 h29 h30 h31 h32).trans (seg14_keep _ r h14)
theorem sat_13 (V : Valuation τ sig (Elt Ideal)) (r : Ref sig .tc) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv13 V (Proc.devRef .tc r) :=
  (sat_14 V r h14 h15 h16 h17 h18 h19 h20 h21 h22 h23 h24 h25 h26 h27 h28 h29 h30 h31 h32).trans (seg13_keep _ r h13)
theorem sat_12 (V : Valuation τ sig (Elt Ideal)) (r : Ref sig .tc) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv12 V (Proc.devRef .tc r) :=
  (sat_13 V r h13 h14 h15 h16 h17 h18 h19 h20 h21 h22 h23 h24 h25 h26 h27 h28 h29 h30 h31 h32).trans (seg12_keep _ r h12)
theorem sat_11 (V : Valuation τ sig (Elt Ideal)) (r : Ref sig .tc) (h11 : r ∉ seg11_W) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv11 V (Proc.devRef .tc r) :=
  (sat_12 V r h12 h13 h14 h15 h16 h17 h18 h19 h20 h21 h22 h23 h24 h25 h26 h27 h28 h29 h30 h31 h32).trans (seg11_keep _ r h11)
theorem sat_10 (V : Valuation τ sig (Elt Ideal)) (r : Ref sig .tc) (h10 : r ∉ seg10_W) (h11 : r ∉ seg11_W) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv10 V (Proc.devRef .tc r) :=
  (sat_11 V r h11 h12 h13 h14 h15 h16 h17 h18 h19 h20 h21 h22 h23 h24 h25 h26 h27 h28 h29 h30 h31 h32).trans (seg10_keep _ r h10)
theorem sat_9 (V : Valuation τ sig (Elt Ideal)) (r : Ref sig .tc) (h9 : r ∉ seg9_W) (h10 : r ∉ seg10_W) (h11 : r ∉ seg11_W) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv9 V (Proc.devRef .tc r) :=
  (sat_10 V r h10 h11 h12 h13 h14 h15 h16 h17 h18 h19 h20 h21 h22 h23 h24 h25 h26 h27 h28 h29 h30 h31 h32).trans (seg9_keep _ r h9)
theorem sat_8 (V : Valuation τ sig (Elt Ideal)) (r : Ref sig .tc) (h8 : r ∉ seg8_W) (h9 : r ∉ seg9_W) (h10 : r ∉ seg10_W) (h11 : r ∉ seg11_W) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv8 V (Proc.devRef .tc r) :=
  (sat_9 V r h9 h10 h11 h12 h13 h14 h15 h16 h17 h18 h19 h20 h21 h22 h23 h24 h25 h26 h27 h28 h29 h30 h31 h32).trans (seg8_keep _ r h8)
theorem sat_7 (V : Valuation τ sig (Elt Ideal)) (r : Ref sig .tc) (h7 : r ∉ seg7_W) (h8 : r ∉ seg8_W) (h9 : r ∉ seg9_W) (h10 : r ∉ seg10_W) (h11 : r ∉ seg11_W) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv7 V (Proc.devRef .tc r) :=
  (sat_8 V r h8 h9 h10 h11 h12 h13 h14 h15 h16 h17 h18 h19 h20 h21 h22 h23 h24 h25 h26 h27 h28 h29 h30 h31 h32).trans (seg7_keep _ r h7)
theorem sat_6 (V : Valuation τ sig (Elt Ideal)) (r : Ref sig .tc) (h6 : r ∉ seg6_W) (h7 : r ∉ seg7_W) (h8 : r ∉ seg8_W) (h9 : r ∉ seg9_W) (h10 : r ∉ seg10_W) (h11 : r ∉ seg11_W) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv6 V (Proc.devRef .tc r) :=
  (sat_7 V r h7 h8 h9 h10 h11 h12 h13 h14 h15 h16 h17 h18 h19 h20 h21 h22 h23 h24 h25 h26 h27 h28 h29 h30 h31 h32).trans (seg6_keep _ r h6)
theorem sat_5 (V : Valuation τ sig (Elt Ideal)) (r : Ref sig .tc) (h5 : r ∉ seg5_W) (h6 : r ∉ seg6_W) (h7 : r ∉ seg7_W) (h8 : r ∉ seg8_W) (h9 : r ∉ seg9_W) (h10 : r ∉ seg10_W) (h11 : r ∉ seg11_W) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv5 V (Proc.devRef .tc r) :=
  (sat_6 V r h6 h7 h8 h9 h10 h11 h12 h13 h14 h15 h16 h17 h18 h19 h20 h21 h22 h23 h24 h25 h26 h27 h28 h29 h30 h31 h32).trans (seg5_keep _ r h5)
theorem sat_4 (V : Valuation τ sig (Elt Ideal)) (r : Ref sig .tc) (h4 : r ∉ seg4_W) (h5 : r ∉ seg5_W) (h6 : r ∉ seg6_W) (h7 : r ∉ seg7_W) (h8 : r ∉ seg8_W) (h9 : r ∉ seg9_W) (h10 : r ∉ seg10_W) (h11 : r ∉ seg11_W) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv4 V (Proc.devRef .tc r) :=
  (sat_5 V r h5 h6 h7 h8 h9 h10 h11 h12 h13 h14 h15 h16 h17 h18 h19 h20 h21 h22 h23 h24 h25 h26 h27 h28 h29 h30 h31 h32).trans (seg4_keep _ r h4)
theorem sat_3 (V : Valuation τ sig (Elt Ideal)) (r : Ref sig .tc) (h3 : r ∉ seg3_W) (h4 : r ∉ seg4_W) (h5 : r ∉ seg5_W) (h6 : r ∉ seg6_W) (h7 : r ∉ seg7_W) (h8 : r ∉ seg8_W) (h9 : r ∉ seg9_W) (h10 : r ∉ seg10_W) (h11 : r ∉ seg11_W) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv3 V (Proc.devRef .tc r) :=
  (sat_4 V r h4 h5 h6 h7 h8 h9 h10 h11 h12 h13 h14 h15 h16 h17 h18 h19 h20 h21 h22 h23 h24 h25 h26 h27 h28 h29 h30 h31 h32).trans (seg3_keep _ r h3)
theorem sat_2 (V : Valuation τ sig (Elt Ideal)) (r : Ref sig .tc) (h2 : r ∉ seg2_W) (h3 : r ∉ seg3_W) (h4 : r ∉ seg4_W) (h5 : r ∉ seg5_W) (h6 : r ∉ seg6_W) (h7 : r ∉ seg7_W) (h8 : r ∉ seg8_W) (h9 : r ∉ seg9_W) (h10 : r ∉ seg10_W) (h11 : r ∉ seg11_W) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv2 V (Proc.devRef .tc r) :=
  (sat_3 V r h3 h4 h5 h6 h7 h8 h9 h10 h11 h12 h13 h14 h15 h16 h17 h18 h19 h20 h21 h22 h23 h24 h25 h26 h27 h28 h29 h30 h31 h32).trans (seg2_keep _ r h2)
theorem sat_1 (V : Valuation τ sig (Elt Ideal)) (r : Ref sig .tc) (h1 : r ∉ seg1_W) (h2 : r ∉ seg2_W) (h3 : r ∉ seg3_W) (h4 : r ∉ seg4_W) (h5 : r ∉ seg5_W) (h6 : r ∉ seg6_W) (h7 : r ∉ seg7_W) (h8 : r ∉ seg8_W) (h9 : r ∉ seg9_W) (h10 : r ∉ seg10_W) (h11 : r ∉ seg11_W) (h12 : r ∉ seg12_W) (h13 : r ∉ seg13_W) (h14 : r ∉ seg14_W) (h15 : r ∉ seg15_W) (h16 : r ∉ seg16_W) (h17 : r ∉ seg17_W) (h18 : r ∉ seg18_W) (h19 : r ∉ seg19_W) (h20 : r ∉ seg20_W) (h21 : r ∉ seg21_W) (h22 : r ∉ seg22_W) (h23 : r ∉ seg23_W) (h24 : r ∉ seg24_W) (h25 : r ∉ seg25_W) (h26 : r ∉ seg26_W) (h27 : r ∉ seg27_W) (h28 : r ∉ seg28_W) (h29 : r ∉ seg29_W) (h30 : r ∉ seg30_W) (h31 : r ∉ seg31_W) (h32 : r ∉ seg32_W) :
    after ops V (Proc.devRef .tc r) = sv1 V (Proc.devRef .tc r) :=
  (sat_2 V r h2 h3 h4 h5 h6 h7 h8 h9 h10 h11 h12 h13 h14 h15 h16 h17 h18 h19 h20 h21 h22 h23 h24 h25 h26 h27 h28 h29 h30 h31 h32).trans (seg1_keep _ r h1)

theorem sv1_main_arg0 (V : Valuation τ sig (Elt Ideal)) : sv1 V (Proc.devRef .tc main_arg0) = V (Proc.devRef .tc main_arg0) :=
  seg0_keep V main_arg0 (by decide)
theorem sv1_main_arg1 (V : Valuation τ sig (Elt Ideal)) : sv1 V (Proc.devRef .tc main_arg1) = V (Proc.devRef .tc main_arg1) :=
  seg0_keep V main_arg1 (by decide)
theorem sv1_main_arg2 (V : Valuation τ sig (Elt Ideal)) : sv1 V (Proc.devRef .tc main_arg2) = V (Proc.devRef .tc main_arg2) :=
  seg0_keep V main_arg2 (by decide)
theorem sv1_main_arg3 (V : Valuation τ sig (Elt Ideal)) : sv1 V (Proc.devRef .tc main_arg3) = V (Proc.devRef .tc main_arg3) :=
  seg0_keep V main_arg3 (by decide)
theorem sv1_main_arg4 (V : Valuation τ sig (Elt Ideal)) : sv1 V (Proc.devRef .tc main_arg4) = V (Proc.devRef .tc main_arg4) :=
  seg0_keep V main_arg4 (by decide)
theorem sv1_main_arg5 (V : Valuation τ sig (Elt Ideal)) : sv1 V (Proc.devRef .tc main_arg5) = V (Proc.devRef .tc main_arg5) :=
  seg0_keep V main_arg5 (by decide)
theorem sv1_main_arg6 (V : Valuation τ sig (Elt Ideal)) : sv1 V (Proc.devRef .tc main_arg6) = V (Proc.devRef .tc main_arg6) :=
  seg0_keep V main_arg6 (by decide)
theorem sv1_main_arg7 (V : Valuation τ sig (Elt Ideal)) : sv1 V (Proc.devRef .tc main_arg7) = V (Proc.devRef .tc main_arg7) :=
  seg0_keep V main_arg7 (by decide)
theorem sv1_main_arg8 (V : Valuation τ sig (Elt Ideal)) : sv1 V (Proc.devRef .tc main_arg8) = V (Proc.devRef .tc main_arg8) :=
  seg0_keep V main_arg8 (by decide)
theorem sv1_main_arg9 (V : Valuation τ sig (Elt Ideal)) : sv1 V (Proc.devRef .tc main_arg9) = V (Proc.devRef .tc main_arg9) :=
  seg0_keep V main_arg9 (by decide)
theorem sv1_main_arg10 (V : Valuation τ sig (Elt Ideal)) : sv1 V (Proc.devRef .tc main_arg10) = V (Proc.devRef .tc main_arg10) :=
  seg0_keep V main_arg10 (by decide)
theorem sv1_main_arg11 (V : Valuation τ sig (Elt Ideal)) : sv1 V (Proc.devRef .tc main_arg11) = V (Proc.devRef .tc main_arg11) :=
  seg0_keep V main_arg11 (by decide)
theorem sv1_main_arg12 (V : Valuation τ sig (Elt Ideal)) : sv1 V (Proc.devRef .tc main_arg12) = V (Proc.devRef .tc main_arg12) :=
  seg0_keep V main_arg12 (by decide)
theorem sv1_main_arg13 (V : Valuation τ sig (Elt Ideal)) : sv1 V (Proc.devRef .tc main_arg13) = V (Proc.devRef .tc main_arg13) :=
  seg0_keep V main_arg13 (by decide)
theorem sv1_main_arg14 (V : Valuation τ sig (Elt Ideal)) : sv1 V (Proc.devRef .tc main_arg14) = V (Proc.devRef .tc main_arg14) :=
  seg0_keep V main_arg14 (by decide)
theorem sv1_main_arg15 (V : Valuation τ sig (Elt Ideal)) : sv1 V (Proc.devRef .tc main_arg15) = V (Proc.devRef .tc main_arg15) :=
  seg0_keep V main_arg15 (by decide)
theorem sv1_main_arg16 (V : Valuation τ sig (Elt Ideal)) : sv1 V (Proc.devRef .tc main_arg16) = V (Proc.devRef .tc main_arg16) :=
  seg0_keep V main_arg16 (by decide)
theorem sv1_main_arg17 (V : Valuation τ sig (Elt Ideal)) : sv1 V (Proc.devRef .tc main_arg17) = V (Proc.devRef .tc main_arg17) :=
  seg0_keep V main_arg17 (by decide)
theorem sv1_main_arg18 (V : Valuation τ sig (Elt Ideal)) : sv1 V (Proc.devRef .tc main_arg18) = V (Proc.devRef .tc main_arg18) :=
  seg0_keep V main_arg18 (by decide)
theorem sv1_main_arg19 (V : Valuation τ sig (Elt Ideal)) : sv1 V (Proc.devRef .tc main_arg19) = V (Proc.devRef .tc main_arg19) :=
  seg0_keep V main_arg19 (by decide)
theorem sv1_main_arg20 (V : Valuation τ sig (Elt Ideal)) : sv1 V (Proc.devRef .tc main_arg20) = V (Proc.devRef .tc main_arg20) :=
  seg0_keep V main_arg20 (by decide)
theorem sv2_main_arg0 (V : Valuation τ sig (Elt Ideal)) : sv2 V (Proc.devRef .tc main_arg0) = V (Proc.devRef .tc main_arg0) :=
  (seg1_keep _ main_arg0 (by decide)).trans (sv1_main_arg0 V)
theorem sv2_main_arg1 (V : Valuation τ sig (Elt Ideal)) : sv2 V (Proc.devRef .tc main_arg1) = V (Proc.devRef .tc main_arg1) :=
  (seg1_keep _ main_arg1 (by decide)).trans (sv1_main_arg1 V)
theorem sv2_main_arg2 (V : Valuation τ sig (Elt Ideal)) : sv2 V (Proc.devRef .tc main_arg2) = V (Proc.devRef .tc main_arg2) :=
  (seg1_keep _ main_arg2 (by decide)).trans (sv1_main_arg2 V)
theorem sv2_main_arg3 (V : Valuation τ sig (Elt Ideal)) : sv2 V (Proc.devRef .tc main_arg3) = V (Proc.devRef .tc main_arg3) :=
  (seg1_keep _ main_arg3 (by decide)).trans (sv1_main_arg3 V)
theorem sv2_main_arg4 (V : Valuation τ sig (Elt Ideal)) : sv2 V (Proc.devRef .tc main_arg4) = V (Proc.devRef .tc main_arg4) :=
  (seg1_keep _ main_arg4 (by decide)).trans (sv1_main_arg4 V)
theorem sv2_main_arg5 (V : Valuation τ sig (Elt Ideal)) : sv2 V (Proc.devRef .tc main_arg5) = V (Proc.devRef .tc main_arg5) :=
  (seg1_keep _ main_arg5 (by decide)).trans (sv1_main_arg5 V)
theorem sv2_main_arg6 (V : Valuation τ sig (Elt Ideal)) : sv2 V (Proc.devRef .tc main_arg6) = V (Proc.devRef .tc main_arg6) :=
  (seg1_keep _ main_arg6 (by decide)).trans (sv1_main_arg6 V)
theorem sv2_main_arg7 (V : Valuation τ sig (Elt Ideal)) : sv2 V (Proc.devRef .tc main_arg7) = V (Proc.devRef .tc main_arg7) :=
  (seg1_keep _ main_arg7 (by decide)).trans (sv1_main_arg7 V)
theorem sv2_main_arg8 (V : Valuation τ sig (Elt Ideal)) : sv2 V (Proc.devRef .tc main_arg8) = V (Proc.devRef .tc main_arg8) :=
  (seg1_keep _ main_arg8 (by decide)).trans (sv1_main_arg8 V)
theorem sv2_main_arg9 (V : Valuation τ sig (Elt Ideal)) : sv2 V (Proc.devRef .tc main_arg9) = V (Proc.devRef .tc main_arg9) :=
  (seg1_keep _ main_arg9 (by decide)).trans (sv1_main_arg9 V)
theorem sv2_main_arg10 (V : Valuation τ sig (Elt Ideal)) : sv2 V (Proc.devRef .tc main_arg10) = V (Proc.devRef .tc main_arg10) :=
  (seg1_keep _ main_arg10 (by decide)).trans (sv1_main_arg10 V)
theorem sv2_main_arg11 (V : Valuation τ sig (Elt Ideal)) : sv2 V (Proc.devRef .tc main_arg11) = V (Proc.devRef .tc main_arg11) :=
  (seg1_keep _ main_arg11 (by decide)).trans (sv1_main_arg11 V)
theorem sv2_main_arg12 (V : Valuation τ sig (Elt Ideal)) : sv2 V (Proc.devRef .tc main_arg12) = V (Proc.devRef .tc main_arg12) :=
  (seg1_keep _ main_arg12 (by decide)).trans (sv1_main_arg12 V)
theorem sv2_main_arg13 (V : Valuation τ sig (Elt Ideal)) : sv2 V (Proc.devRef .tc main_arg13) = V (Proc.devRef .tc main_arg13) :=
  (seg1_keep _ main_arg13 (by decide)).trans (sv1_main_arg13 V)
theorem sv2_main_arg14 (V : Valuation τ sig (Elt Ideal)) : sv2 V (Proc.devRef .tc main_arg14) = V (Proc.devRef .tc main_arg14) :=
  (seg1_keep _ main_arg14 (by decide)).trans (sv1_main_arg14 V)
theorem sv2_main_arg15 (V : Valuation τ sig (Elt Ideal)) : sv2 V (Proc.devRef .tc main_arg15) = V (Proc.devRef .tc main_arg15) :=
  (seg1_keep _ main_arg15 (by decide)).trans (sv1_main_arg15 V)
theorem sv2_main_arg16 (V : Valuation τ sig (Elt Ideal)) : sv2 V (Proc.devRef .tc main_arg16) = V (Proc.devRef .tc main_arg16) :=
  (seg1_keep _ main_arg16 (by decide)).trans (sv1_main_arg16 V)
theorem sv2_main_arg17 (V : Valuation τ sig (Elt Ideal)) : sv2 V (Proc.devRef .tc main_arg17) = V (Proc.devRef .tc main_arg17) :=
  (seg1_keep _ main_arg17 (by decide)).trans (sv1_main_arg17 V)
theorem sv2_main_arg18 (V : Valuation τ sig (Elt Ideal)) : sv2 V (Proc.devRef .tc main_arg18) = V (Proc.devRef .tc main_arg18) :=
  (seg1_keep _ main_arg18 (by decide)).trans (sv1_main_arg18 V)
theorem sv2_main_arg19 (V : Valuation τ sig (Elt Ideal)) : sv2 V (Proc.devRef .tc main_arg19) = V (Proc.devRef .tc main_arg19) :=
  (seg1_keep _ main_arg19 (by decide)).trans (sv1_main_arg19 V)
theorem sv2_main_arg20 (V : Valuation τ sig (Elt Ideal)) : sv2 V (Proc.devRef .tc main_arg20) = V (Proc.devRef .tc main_arg20) :=
  (seg1_keep _ main_arg20 (by decide)).trans (sv1_main_arg20 V)
theorem sv3_main_arg0 (V : Valuation τ sig (Elt Ideal)) : sv3 V (Proc.devRef .tc main_arg0) = V (Proc.devRef .tc main_arg0) :=
  (seg2_keep _ main_arg0 (by decide)).trans (sv2_main_arg0 V)
theorem sv3_main_arg1 (V : Valuation τ sig (Elt Ideal)) : sv3 V (Proc.devRef .tc main_arg1) = V (Proc.devRef .tc main_arg1) :=
  (seg2_keep _ main_arg1 (by decide)).trans (sv2_main_arg1 V)
theorem sv3_main_arg2 (V : Valuation τ sig (Elt Ideal)) : sv3 V (Proc.devRef .tc main_arg2) = V (Proc.devRef .tc main_arg2) :=
  (seg2_keep _ main_arg2 (by decide)).trans (sv2_main_arg2 V)
theorem sv3_main_arg3 (V : Valuation τ sig (Elt Ideal)) : sv3 V (Proc.devRef .tc main_arg3) = V (Proc.devRef .tc main_arg3) :=
  (seg2_keep _ main_arg3 (by decide)).trans (sv2_main_arg3 V)
theorem sv3_main_arg4 (V : Valuation τ sig (Elt Ideal)) : sv3 V (Proc.devRef .tc main_arg4) = V (Proc.devRef .tc main_arg4) :=
  (seg2_keep _ main_arg4 (by decide)).trans (sv2_main_arg4 V)
theorem sv3_main_arg5 (V : Valuation τ sig (Elt Ideal)) : sv3 V (Proc.devRef .tc main_arg5) = V (Proc.devRef .tc main_arg5) :=
  (seg2_keep _ main_arg5 (by decide)).trans (sv2_main_arg5 V)
theorem sv3_main_arg6 (V : Valuation τ sig (Elt Ideal)) : sv3 V (Proc.devRef .tc main_arg6) = V (Proc.devRef .tc main_arg6) :=
  (seg2_keep _ main_arg6 (by decide)).trans (sv2_main_arg6 V)
theorem sv3_main_arg7 (V : Valuation τ sig (Elt Ideal)) : sv3 V (Proc.devRef .tc main_arg7) = V (Proc.devRef .tc main_arg7) :=
  (seg2_keep _ main_arg7 (by decide)).trans (sv2_main_arg7 V)
theorem sv3_main_arg8 (V : Valuation τ sig (Elt Ideal)) : sv3 V (Proc.devRef .tc main_arg8) = V (Proc.devRef .tc main_arg8) :=
  (seg2_keep _ main_arg8 (by decide)).trans (sv2_main_arg8 V)
theorem sv3_main_arg9 (V : Valuation τ sig (Elt Ideal)) : sv3 V (Proc.devRef .tc main_arg9) = V (Proc.devRef .tc main_arg9) :=
  (seg2_keep _ main_arg9 (by decide)).trans (sv2_main_arg9 V)
theorem sv3_main_arg10 (V : Valuation τ sig (Elt Ideal)) : sv3 V (Proc.devRef .tc main_arg10) = V (Proc.devRef .tc main_arg10) :=
  (seg2_keep _ main_arg10 (by decide)).trans (sv2_main_arg10 V)
theorem sv3_main_arg11 (V : Valuation τ sig (Elt Ideal)) : sv3 V (Proc.devRef .tc main_arg11) = V (Proc.devRef .tc main_arg11) :=
  (seg2_keep _ main_arg11 (by decide)).trans (sv2_main_arg11 V)
theorem sv3_main_arg12 (V : Valuation τ sig (Elt Ideal)) : sv3 V (Proc.devRef .tc main_arg12) = V (Proc.devRef .tc main_arg12) :=
  (seg2_keep _ main_arg12 (by decide)).trans (sv2_main_arg12 V)
theorem sv3_main_arg13 (V : Valuation τ sig (Elt Ideal)) : sv3 V (Proc.devRef .tc main_arg13) = V (Proc.devRef .tc main_arg13) :=
  (seg2_keep _ main_arg13 (by decide)).trans (sv2_main_arg13 V)
theorem sv3_main_arg14 (V : Valuation τ sig (Elt Ideal)) : sv3 V (Proc.devRef .tc main_arg14) = V (Proc.devRef .tc main_arg14) :=
  (seg2_keep _ main_arg14 (by decide)).trans (sv2_main_arg14 V)
theorem sv3_main_arg15 (V : Valuation τ sig (Elt Ideal)) : sv3 V (Proc.devRef .tc main_arg15) = V (Proc.devRef .tc main_arg15) :=
  (seg2_keep _ main_arg15 (by decide)).trans (sv2_main_arg15 V)
theorem sv3_main_arg16 (V : Valuation τ sig (Elt Ideal)) : sv3 V (Proc.devRef .tc main_arg16) = V (Proc.devRef .tc main_arg16) :=
  (seg2_keep _ main_arg16 (by decide)).trans (sv2_main_arg16 V)
theorem sv3_main_arg17 (V : Valuation τ sig (Elt Ideal)) : sv3 V (Proc.devRef .tc main_arg17) = V (Proc.devRef .tc main_arg17) :=
  (seg2_keep _ main_arg17 (by decide)).trans (sv2_main_arg17 V)
theorem sv3_main_arg18 (V : Valuation τ sig (Elt Ideal)) : sv3 V (Proc.devRef .tc main_arg18) = V (Proc.devRef .tc main_arg18) :=
  (seg2_keep _ main_arg18 (by decide)).trans (sv2_main_arg18 V)
theorem sv3_main_arg19 (V : Valuation τ sig (Elt Ideal)) : sv3 V (Proc.devRef .tc main_arg19) = V (Proc.devRef .tc main_arg19) :=
  (seg2_keep _ main_arg19 (by decide)).trans (sv2_main_arg19 V)
theorem sv3_main_arg20 (V : Valuation τ sig (Elt Ideal)) : sv3 V (Proc.devRef .tc main_arg20) = V (Proc.devRef .tc main_arg20) :=
  (seg2_keep _ main_arg20 (by decide)).trans (sv2_main_arg20 V)
theorem sv4_main_arg0 (V : Valuation τ sig (Elt Ideal)) : sv4 V (Proc.devRef .tc main_arg0) = V (Proc.devRef .tc main_arg0) :=
  (seg3_keep _ main_arg0 (by decide)).trans (sv3_main_arg0 V)
theorem sv4_main_arg1 (V : Valuation τ sig (Elt Ideal)) : sv4 V (Proc.devRef .tc main_arg1) = V (Proc.devRef .tc main_arg1) :=
  (seg3_keep _ main_arg1 (by decide)).trans (sv3_main_arg1 V)
theorem sv4_main_arg2 (V : Valuation τ sig (Elt Ideal)) : sv4 V (Proc.devRef .tc main_arg2) = V (Proc.devRef .tc main_arg2) :=
  (seg3_keep _ main_arg2 (by decide)).trans (sv3_main_arg2 V)
theorem sv4_main_arg3 (V : Valuation τ sig (Elt Ideal)) : sv4 V (Proc.devRef .tc main_arg3) = V (Proc.devRef .tc main_arg3) :=
  (seg3_keep _ main_arg3 (by decide)).trans (sv3_main_arg3 V)
theorem sv4_main_arg4 (V : Valuation τ sig (Elt Ideal)) : sv4 V (Proc.devRef .tc main_arg4) = V (Proc.devRef .tc main_arg4) :=
  (seg3_keep _ main_arg4 (by decide)).trans (sv3_main_arg4 V)
theorem sv4_main_arg5 (V : Valuation τ sig (Elt Ideal)) : sv4 V (Proc.devRef .tc main_arg5) = V (Proc.devRef .tc main_arg5) :=
  (seg3_keep _ main_arg5 (by decide)).trans (sv3_main_arg5 V)
theorem sv4_main_arg6 (V : Valuation τ sig (Elt Ideal)) : sv4 V (Proc.devRef .tc main_arg6) = V (Proc.devRef .tc main_arg6) :=
  (seg3_keep _ main_arg6 (by decide)).trans (sv3_main_arg6 V)
theorem sv4_main_arg7 (V : Valuation τ sig (Elt Ideal)) : sv4 V (Proc.devRef .tc main_arg7) = V (Proc.devRef .tc main_arg7) :=
  (seg3_keep _ main_arg7 (by decide)).trans (sv3_main_arg7 V)
theorem sv4_main_arg8 (V : Valuation τ sig (Elt Ideal)) : sv4 V (Proc.devRef .tc main_arg8) = V (Proc.devRef .tc main_arg8) :=
  (seg3_keep _ main_arg8 (by decide)).trans (sv3_main_arg8 V)
theorem sv4_main_arg9 (V : Valuation τ sig (Elt Ideal)) : sv4 V (Proc.devRef .tc main_arg9) = V (Proc.devRef .tc main_arg9) :=
  (seg3_keep _ main_arg9 (by decide)).trans (sv3_main_arg9 V)
theorem sv4_main_arg10 (V : Valuation τ sig (Elt Ideal)) : sv4 V (Proc.devRef .tc main_arg10) = V (Proc.devRef .tc main_arg10) :=
  (seg3_keep _ main_arg10 (by decide)).trans (sv3_main_arg10 V)
theorem sv4_main_arg11 (V : Valuation τ sig (Elt Ideal)) : sv4 V (Proc.devRef .tc main_arg11) = V (Proc.devRef .tc main_arg11) :=
  (seg3_keep _ main_arg11 (by decide)).trans (sv3_main_arg11 V)
theorem sv4_main_arg12 (V : Valuation τ sig (Elt Ideal)) : sv4 V (Proc.devRef .tc main_arg12) = V (Proc.devRef .tc main_arg12) :=
  (seg3_keep _ main_arg12 (by decide)).trans (sv3_main_arg12 V)
theorem sv4_main_arg13 (V : Valuation τ sig (Elt Ideal)) : sv4 V (Proc.devRef .tc main_arg13) = V (Proc.devRef .tc main_arg13) :=
  (seg3_keep _ main_arg13 (by decide)).trans (sv3_main_arg13 V)
theorem sv4_main_arg14 (V : Valuation τ sig (Elt Ideal)) : sv4 V (Proc.devRef .tc main_arg14) = V (Proc.devRef .tc main_arg14) :=
  (seg3_keep _ main_arg14 (by decide)).trans (sv3_main_arg14 V)
theorem sv4_main_arg15 (V : Valuation τ sig (Elt Ideal)) : sv4 V (Proc.devRef .tc main_arg15) = V (Proc.devRef .tc main_arg15) :=
  (seg3_keep _ main_arg15 (by decide)).trans (sv3_main_arg15 V)
theorem sv4_main_arg16 (V : Valuation τ sig (Elt Ideal)) : sv4 V (Proc.devRef .tc main_arg16) = V (Proc.devRef .tc main_arg16) :=
  (seg3_keep _ main_arg16 (by decide)).trans (sv3_main_arg16 V)
theorem sv4_main_arg17 (V : Valuation τ sig (Elt Ideal)) : sv4 V (Proc.devRef .tc main_arg17) = V (Proc.devRef .tc main_arg17) :=
  (seg3_keep _ main_arg17 (by decide)).trans (sv3_main_arg17 V)
theorem sv4_main_arg18 (V : Valuation τ sig (Elt Ideal)) : sv4 V (Proc.devRef .tc main_arg18) = V (Proc.devRef .tc main_arg18) :=
  (seg3_keep _ main_arg18 (by decide)).trans (sv3_main_arg18 V)
theorem sv4_main_arg19 (V : Valuation τ sig (Elt Ideal)) : sv4 V (Proc.devRef .tc main_arg19) = V (Proc.devRef .tc main_arg19) :=
  (seg3_keep _ main_arg19 (by decide)).trans (sv3_main_arg19 V)
theorem sv4_main_arg20 (V : Valuation τ sig (Elt Ideal)) : sv4 V (Proc.devRef .tc main_arg20) = V (Proc.devRef .tc main_arg20) :=
  (seg3_keep _ main_arg20 (by decide)).trans (sv3_main_arg20 V)
theorem sv5_main_arg0 (V : Valuation τ sig (Elt Ideal)) : sv5 V (Proc.devRef .tc main_arg0) = V (Proc.devRef .tc main_arg0) :=
  (seg4_keep _ main_arg0 (by decide)).trans (sv4_main_arg0 V)
theorem sv5_main_arg1 (V : Valuation τ sig (Elt Ideal)) : sv5 V (Proc.devRef .tc main_arg1) = V (Proc.devRef .tc main_arg1) :=
  (seg4_keep _ main_arg1 (by decide)).trans (sv4_main_arg1 V)
theorem sv5_main_arg2 (V : Valuation τ sig (Elt Ideal)) : sv5 V (Proc.devRef .tc main_arg2) = V (Proc.devRef .tc main_arg2) :=
  (seg4_keep _ main_arg2 (by decide)).trans (sv4_main_arg2 V)
theorem sv5_main_arg3 (V : Valuation τ sig (Elt Ideal)) : sv5 V (Proc.devRef .tc main_arg3) = V (Proc.devRef .tc main_arg3) :=
  (seg4_keep _ main_arg3 (by decide)).trans (sv4_main_arg3 V)
theorem sv5_main_arg4 (V : Valuation τ sig (Elt Ideal)) : sv5 V (Proc.devRef .tc main_arg4) = V (Proc.devRef .tc main_arg4) :=
  (seg4_keep _ main_arg4 (by decide)).trans (sv4_main_arg4 V)
theorem sv5_main_arg5 (V : Valuation τ sig (Elt Ideal)) : sv5 V (Proc.devRef .tc main_arg5) = V (Proc.devRef .tc main_arg5) :=
  (seg4_keep _ main_arg5 (by decide)).trans (sv4_main_arg5 V)
theorem sv5_main_arg6 (V : Valuation τ sig (Elt Ideal)) : sv5 V (Proc.devRef .tc main_arg6) = V (Proc.devRef .tc main_arg6) :=
  (seg4_keep _ main_arg6 (by decide)).trans (sv4_main_arg6 V)
theorem sv5_main_arg7 (V : Valuation τ sig (Elt Ideal)) : sv5 V (Proc.devRef .tc main_arg7) = V (Proc.devRef .tc main_arg7) :=
  (seg4_keep _ main_arg7 (by decide)).trans (sv4_main_arg7 V)
theorem sv5_main_arg8 (V : Valuation τ sig (Elt Ideal)) : sv5 V (Proc.devRef .tc main_arg8) = V (Proc.devRef .tc main_arg8) :=
  (seg4_keep _ main_arg8 (by decide)).trans (sv4_main_arg8 V)
theorem sv5_main_arg9 (V : Valuation τ sig (Elt Ideal)) : sv5 V (Proc.devRef .tc main_arg9) = V (Proc.devRef .tc main_arg9) :=
  (seg4_keep _ main_arg9 (by decide)).trans (sv4_main_arg9 V)
theorem sv5_main_arg10 (V : Valuation τ sig (Elt Ideal)) : sv5 V (Proc.devRef .tc main_arg10) = V (Proc.devRef .tc main_arg10) :=
  (seg4_keep _ main_arg10 (by decide)).trans (sv4_main_arg10 V)
theorem sv5_main_arg11 (V : Valuation τ sig (Elt Ideal)) : sv5 V (Proc.devRef .tc main_arg11) = V (Proc.devRef .tc main_arg11) :=
  (seg4_keep _ main_arg11 (by decide)).trans (sv4_main_arg11 V)
theorem sv5_main_arg12 (V : Valuation τ sig (Elt Ideal)) : sv5 V (Proc.devRef .tc main_arg12) = V (Proc.devRef .tc main_arg12) :=
  (seg4_keep _ main_arg12 (by decide)).trans (sv4_main_arg12 V)
theorem sv5_main_arg13 (V : Valuation τ sig (Elt Ideal)) : sv5 V (Proc.devRef .tc main_arg13) = V (Proc.devRef .tc main_arg13) :=
  (seg4_keep _ main_arg13 (by decide)).trans (sv4_main_arg13 V)
theorem sv5_main_arg14 (V : Valuation τ sig (Elt Ideal)) : sv5 V (Proc.devRef .tc main_arg14) = V (Proc.devRef .tc main_arg14) :=
  (seg4_keep _ main_arg14 (by decide)).trans (sv4_main_arg14 V)
theorem sv5_main_arg15 (V : Valuation τ sig (Elt Ideal)) : sv5 V (Proc.devRef .tc main_arg15) = V (Proc.devRef .tc main_arg15) :=
  (seg4_keep _ main_arg15 (by decide)).trans (sv4_main_arg15 V)
theorem sv5_main_arg16 (V : Valuation τ sig (Elt Ideal)) : sv5 V (Proc.devRef .tc main_arg16) = V (Proc.devRef .tc main_arg16) :=
  (seg4_keep _ main_arg16 (by decide)).trans (sv4_main_arg16 V)
theorem sv5_main_arg17 (V : Valuation τ sig (Elt Ideal)) : sv5 V (Proc.devRef .tc main_arg17) = V (Proc.devRef .tc main_arg17) :=
  (seg4_keep _ main_arg17 (by decide)).trans (sv4_main_arg17 V)
theorem sv5_main_arg18 (V : Valuation τ sig (Elt Ideal)) : sv5 V (Proc.devRef .tc main_arg18) = V (Proc.devRef .tc main_arg18) :=
  (seg4_keep _ main_arg18 (by decide)).trans (sv4_main_arg18 V)
theorem sv5_main_arg19 (V : Valuation τ sig (Elt Ideal)) : sv5 V (Proc.devRef .tc main_arg19) = V (Proc.devRef .tc main_arg19) :=
  (seg4_keep _ main_arg19 (by decide)).trans (sv4_main_arg19 V)
theorem sv5_main_arg20 (V : Valuation τ sig (Elt Ideal)) : sv5 V (Proc.devRef .tc main_arg20) = V (Proc.devRef .tc main_arg20) :=
  (seg4_keep _ main_arg20 (by decide)).trans (sv4_main_arg20 V)
theorem sv6_main_arg0 (V : Valuation τ sig (Elt Ideal)) : sv6 V (Proc.devRef .tc main_arg0) = V (Proc.devRef .tc main_arg0) :=
  (seg5_keep _ main_arg0 (by decide)).trans (sv5_main_arg0 V)
theorem sv6_main_arg1 (V : Valuation τ sig (Elt Ideal)) : sv6 V (Proc.devRef .tc main_arg1) = V (Proc.devRef .tc main_arg1) :=
  (seg5_keep _ main_arg1 (by decide)).trans (sv5_main_arg1 V)
theorem sv6_main_arg2 (V : Valuation τ sig (Elt Ideal)) : sv6 V (Proc.devRef .tc main_arg2) = V (Proc.devRef .tc main_arg2) :=
  (seg5_keep _ main_arg2 (by decide)).trans (sv5_main_arg2 V)
theorem sv6_main_arg3 (V : Valuation τ sig (Elt Ideal)) : sv6 V (Proc.devRef .tc main_arg3) = V (Proc.devRef .tc main_arg3) :=
  (seg5_keep _ main_arg3 (by decide)).trans (sv5_main_arg3 V)
theorem sv6_main_arg4 (V : Valuation τ sig (Elt Ideal)) : sv6 V (Proc.devRef .tc main_arg4) = V (Proc.devRef .tc main_arg4) :=
  (seg5_keep _ main_arg4 (by decide)).trans (sv5_main_arg4 V)
theorem sv6_main_arg5 (V : Valuation τ sig (Elt Ideal)) : sv6 V (Proc.devRef .tc main_arg5) = V (Proc.devRef .tc main_arg5) :=
  (seg5_keep _ main_arg5 (by decide)).trans (sv5_main_arg5 V)
theorem sv6_main_arg6 (V : Valuation τ sig (Elt Ideal)) : sv6 V (Proc.devRef .tc main_arg6) = V (Proc.devRef .tc main_arg6) :=
  (seg5_keep _ main_arg6 (by decide)).trans (sv5_main_arg6 V)
theorem sv6_main_arg7 (V : Valuation τ sig (Elt Ideal)) : sv6 V (Proc.devRef .tc main_arg7) = V (Proc.devRef .tc main_arg7) :=
  (seg5_keep _ main_arg7 (by decide)).trans (sv5_main_arg7 V)
theorem sv6_main_arg8 (V : Valuation τ sig (Elt Ideal)) : sv6 V (Proc.devRef .tc main_arg8) = V (Proc.devRef .tc main_arg8) :=
  (seg5_keep _ main_arg8 (by decide)).trans (sv5_main_arg8 V)
theorem sv6_main_arg9 (V : Valuation τ sig (Elt Ideal)) : sv6 V (Proc.devRef .tc main_arg9) = V (Proc.devRef .tc main_arg9) :=
  (seg5_keep _ main_arg9 (by decide)).trans (sv5_main_arg9 V)
theorem sv6_main_arg10 (V : Valuation τ sig (Elt Ideal)) : sv6 V (Proc.devRef .tc main_arg10) = V (Proc.devRef .tc main_arg10) :=
  (seg5_keep _ main_arg10 (by decide)).trans (sv5_main_arg10 V)
theorem sv6_main_arg11 (V : Valuation τ sig (Elt Ideal)) : sv6 V (Proc.devRef .tc main_arg11) = V (Proc.devRef .tc main_arg11) :=
  (seg5_keep _ main_arg11 (by decide)).trans (sv5_main_arg11 V)
theorem sv6_main_arg12 (V : Valuation τ sig (Elt Ideal)) : sv6 V (Proc.devRef .tc main_arg12) = V (Proc.devRef .tc main_arg12) :=
  (seg5_keep _ main_arg12 (by decide)).trans (sv5_main_arg12 V)
theorem sv6_main_arg13 (V : Valuation τ sig (Elt Ideal)) : sv6 V (Proc.devRef .tc main_arg13) = V (Proc.devRef .tc main_arg13) :=
  (seg5_keep _ main_arg13 (by decide)).trans (sv5_main_arg13 V)
theorem sv6_main_arg14 (V : Valuation τ sig (Elt Ideal)) : sv6 V (Proc.devRef .tc main_arg14) = V (Proc.devRef .tc main_arg14) :=
  (seg5_keep _ main_arg14 (by decide)).trans (sv5_main_arg14 V)
theorem sv6_main_arg15 (V : Valuation τ sig (Elt Ideal)) : sv6 V (Proc.devRef .tc main_arg15) = V (Proc.devRef .tc main_arg15) :=
  (seg5_keep _ main_arg15 (by decide)).trans (sv5_main_arg15 V)
theorem sv6_main_arg16 (V : Valuation τ sig (Elt Ideal)) : sv6 V (Proc.devRef .tc main_arg16) = V (Proc.devRef .tc main_arg16) :=
  (seg5_keep _ main_arg16 (by decide)).trans (sv5_main_arg16 V)
theorem sv6_main_arg17 (V : Valuation τ sig (Elt Ideal)) : sv6 V (Proc.devRef .tc main_arg17) = V (Proc.devRef .tc main_arg17) :=
  (seg5_keep _ main_arg17 (by decide)).trans (sv5_main_arg17 V)
theorem sv6_main_arg18 (V : Valuation τ sig (Elt Ideal)) : sv6 V (Proc.devRef .tc main_arg18) = V (Proc.devRef .tc main_arg18) :=
  (seg5_keep _ main_arg18 (by decide)).trans (sv5_main_arg18 V)
theorem sv6_main_arg19 (V : Valuation τ sig (Elt Ideal)) : sv6 V (Proc.devRef .tc main_arg19) = V (Proc.devRef .tc main_arg19) :=
  (seg5_keep _ main_arg19 (by decide)).trans (sv5_main_arg19 V)
theorem sv6_main_arg20 (V : Valuation τ sig (Elt Ideal)) : sv6 V (Proc.devRef .tc main_arg20) = V (Proc.devRef .tc main_arg20) :=
  (seg5_keep _ main_arg20 (by decide)).trans (sv5_main_arg20 V)
theorem sv7_main_arg0 (V : Valuation τ sig (Elt Ideal)) : sv7 V (Proc.devRef .tc main_arg0) = V (Proc.devRef .tc main_arg0) :=
  (seg6_keep _ main_arg0 (by decide)).trans (sv6_main_arg0 V)
theorem sv7_main_arg1 (V : Valuation τ sig (Elt Ideal)) : sv7 V (Proc.devRef .tc main_arg1) = V (Proc.devRef .tc main_arg1) :=
  (seg6_keep _ main_arg1 (by decide)).trans (sv6_main_arg1 V)
theorem sv7_main_arg2 (V : Valuation τ sig (Elt Ideal)) : sv7 V (Proc.devRef .tc main_arg2) = V (Proc.devRef .tc main_arg2) :=
  (seg6_keep _ main_arg2 (by decide)).trans (sv6_main_arg2 V)
theorem sv7_main_arg3 (V : Valuation τ sig (Elt Ideal)) : sv7 V (Proc.devRef .tc main_arg3) = V (Proc.devRef .tc main_arg3) :=
  (seg6_keep _ main_arg3 (by decide)).trans (sv6_main_arg3 V)
theorem sv7_main_arg4 (V : Valuation τ sig (Elt Ideal)) : sv7 V (Proc.devRef .tc main_arg4) = V (Proc.devRef .tc main_arg4) :=
  (seg6_keep _ main_arg4 (by decide)).trans (sv6_main_arg4 V)
theorem sv7_main_arg5 (V : Valuation τ sig (Elt Ideal)) : sv7 V (Proc.devRef .tc main_arg5) = V (Proc.devRef .tc main_arg5) :=
  (seg6_keep _ main_arg5 (by decide)).trans (sv6_main_arg5 V)
theorem sv7_main_arg6 (V : Valuation τ sig (Elt Ideal)) : sv7 V (Proc.devRef .tc main_arg6) = V (Proc.devRef .tc main_arg6) :=
  (seg6_keep _ main_arg6 (by decide)).trans (sv6_main_arg6 V)
theorem sv7_main_arg7 (V : Valuation τ sig (Elt Ideal)) : sv7 V (Proc.devRef .tc main_arg7) = V (Proc.devRef .tc main_arg7) :=
  (seg6_keep _ main_arg7 (by decide)).trans (sv6_main_arg7 V)
theorem sv7_main_arg8 (V : Valuation τ sig (Elt Ideal)) : sv7 V (Proc.devRef .tc main_arg8) = V (Proc.devRef .tc main_arg8) :=
  (seg6_keep _ main_arg8 (by decide)).trans (sv6_main_arg8 V)
theorem sv7_main_arg9 (V : Valuation τ sig (Elt Ideal)) : sv7 V (Proc.devRef .tc main_arg9) = V (Proc.devRef .tc main_arg9) :=
  (seg6_keep _ main_arg9 (by decide)).trans (sv6_main_arg9 V)
theorem sv7_main_arg10 (V : Valuation τ sig (Elt Ideal)) : sv7 V (Proc.devRef .tc main_arg10) = V (Proc.devRef .tc main_arg10) :=
  (seg6_keep _ main_arg10 (by decide)).trans (sv6_main_arg10 V)
theorem sv7_main_arg11 (V : Valuation τ sig (Elt Ideal)) : sv7 V (Proc.devRef .tc main_arg11) = V (Proc.devRef .tc main_arg11) :=
  (seg6_keep _ main_arg11 (by decide)).trans (sv6_main_arg11 V)
theorem sv7_main_arg12 (V : Valuation τ sig (Elt Ideal)) : sv7 V (Proc.devRef .tc main_arg12) = V (Proc.devRef .tc main_arg12) :=
  (seg6_keep _ main_arg12 (by decide)).trans (sv6_main_arg12 V)
theorem sv7_main_arg13 (V : Valuation τ sig (Elt Ideal)) : sv7 V (Proc.devRef .tc main_arg13) = V (Proc.devRef .tc main_arg13) :=
  (seg6_keep _ main_arg13 (by decide)).trans (sv6_main_arg13 V)
theorem sv7_main_arg14 (V : Valuation τ sig (Elt Ideal)) : sv7 V (Proc.devRef .tc main_arg14) = V (Proc.devRef .tc main_arg14) :=
  (seg6_keep _ main_arg14 (by decide)).trans (sv6_main_arg14 V)
theorem sv7_main_arg15 (V : Valuation τ sig (Elt Ideal)) : sv7 V (Proc.devRef .tc main_arg15) = V (Proc.devRef .tc main_arg15) :=
  (seg6_keep _ main_arg15 (by decide)).trans (sv6_main_arg15 V)
theorem sv7_main_arg16 (V : Valuation τ sig (Elt Ideal)) : sv7 V (Proc.devRef .tc main_arg16) = V (Proc.devRef .tc main_arg16) :=
  (seg6_keep _ main_arg16 (by decide)).trans (sv6_main_arg16 V)
theorem sv7_main_arg17 (V : Valuation τ sig (Elt Ideal)) : sv7 V (Proc.devRef .tc main_arg17) = V (Proc.devRef .tc main_arg17) :=
  (seg6_keep _ main_arg17 (by decide)).trans (sv6_main_arg17 V)
theorem sv7_main_arg18 (V : Valuation τ sig (Elt Ideal)) : sv7 V (Proc.devRef .tc main_arg18) = V (Proc.devRef .tc main_arg18) :=
  (seg6_keep _ main_arg18 (by decide)).trans (sv6_main_arg18 V)
theorem sv7_main_arg19 (V : Valuation τ sig (Elt Ideal)) : sv7 V (Proc.devRef .tc main_arg19) = V (Proc.devRef .tc main_arg19) :=
  (seg6_keep _ main_arg19 (by decide)).trans (sv6_main_arg19 V)
theorem sv7_main_arg20 (V : Valuation τ sig (Elt Ideal)) : sv7 V (Proc.devRef .tc main_arg20) = V (Proc.devRef .tc main_arg20) :=
  (seg6_keep _ main_arg20 (by decide)).trans (sv6_main_arg20 V)
theorem sv8_main_arg0 (V : Valuation τ sig (Elt Ideal)) : sv8 V (Proc.devRef .tc main_arg0) = V (Proc.devRef .tc main_arg0) :=
  (seg7_keep _ main_arg0 (by decide)).trans (sv7_main_arg0 V)
theorem sv8_main_arg1 (V : Valuation τ sig (Elt Ideal)) : sv8 V (Proc.devRef .tc main_arg1) = V (Proc.devRef .tc main_arg1) :=
  (seg7_keep _ main_arg1 (by decide)).trans (sv7_main_arg1 V)
theorem sv8_main_arg2 (V : Valuation τ sig (Elt Ideal)) : sv8 V (Proc.devRef .tc main_arg2) = V (Proc.devRef .tc main_arg2) :=
  (seg7_keep _ main_arg2 (by decide)).trans (sv7_main_arg2 V)
theorem sv8_main_arg3 (V : Valuation τ sig (Elt Ideal)) : sv8 V (Proc.devRef .tc main_arg3) = V (Proc.devRef .tc main_arg3) :=
  (seg7_keep _ main_arg3 (by decide)).trans (sv7_main_arg3 V)
theorem sv8_main_arg4 (V : Valuation τ sig (Elt Ideal)) : sv8 V (Proc.devRef .tc main_arg4) = V (Proc.devRef .tc main_arg4) :=
  (seg7_keep _ main_arg4 (by decide)).trans (sv7_main_arg4 V)
theorem sv8_main_arg5 (V : Valuation τ sig (Elt Ideal)) : sv8 V (Proc.devRef .tc main_arg5) = V (Proc.devRef .tc main_arg5) :=
  (seg7_keep _ main_arg5 (by decide)).trans (sv7_main_arg5 V)
theorem sv8_main_arg6 (V : Valuation τ sig (Elt Ideal)) : sv8 V (Proc.devRef .tc main_arg6) = V (Proc.devRef .tc main_arg6) :=
  (seg7_keep _ main_arg6 (by decide)).trans (sv7_main_arg6 V)
theorem sv8_main_arg7 (V : Valuation τ sig (Elt Ideal)) : sv8 V (Proc.devRef .tc main_arg7) = V (Proc.devRef .tc main_arg7) :=
  (seg7_keep _ main_arg7 (by decide)).trans (sv7_main_arg7 V)
theorem sv8_main_arg8 (V : Valuation τ sig (Elt Ideal)) : sv8 V (Proc.devRef .tc main_arg8) = V (Proc.devRef .tc main_arg8) :=
  (seg7_keep _ main_arg8 (by decide)).trans (sv7_main_arg8 V)
theorem sv8_main_arg9 (V : Valuation τ sig (Elt Ideal)) : sv8 V (Proc.devRef .tc main_arg9) = V (Proc.devRef .tc main_arg9) :=
  (seg7_keep _ main_arg9 (by decide)).trans (sv7_main_arg9 V)
theorem sv8_main_arg10 (V : Valuation τ sig (Elt Ideal)) : sv8 V (Proc.devRef .tc main_arg10) = V (Proc.devRef .tc main_arg10) :=
  (seg7_keep _ main_arg10 (by decide)).trans (sv7_main_arg10 V)
theorem sv8_main_arg11 (V : Valuation τ sig (Elt Ideal)) : sv8 V (Proc.devRef .tc main_arg11) = V (Proc.devRef .tc main_arg11) :=
  (seg7_keep _ main_arg11 (by decide)).trans (sv7_main_arg11 V)
theorem sv8_main_arg12 (V : Valuation τ sig (Elt Ideal)) : sv8 V (Proc.devRef .tc main_arg12) = V (Proc.devRef .tc main_arg12) :=
  (seg7_keep _ main_arg12 (by decide)).trans (sv7_main_arg12 V)
theorem sv8_main_arg13 (V : Valuation τ sig (Elt Ideal)) : sv8 V (Proc.devRef .tc main_arg13) = V (Proc.devRef .tc main_arg13) :=
  (seg7_keep _ main_arg13 (by decide)).trans (sv7_main_arg13 V)
theorem sv8_main_arg14 (V : Valuation τ sig (Elt Ideal)) : sv8 V (Proc.devRef .tc main_arg14) = V (Proc.devRef .tc main_arg14) :=
  (seg7_keep _ main_arg14 (by decide)).trans (sv7_main_arg14 V)
theorem sv8_main_arg15 (V : Valuation τ sig (Elt Ideal)) : sv8 V (Proc.devRef .tc main_arg15) = V (Proc.devRef .tc main_arg15) :=
  (seg7_keep _ main_arg15 (by decide)).trans (sv7_main_arg15 V)
theorem sv8_main_arg16 (V : Valuation τ sig (Elt Ideal)) : sv8 V (Proc.devRef .tc main_arg16) = V (Proc.devRef .tc main_arg16) :=
  (seg7_keep _ main_arg16 (by decide)).trans (sv7_main_arg16 V)
theorem sv8_main_arg17 (V : Valuation τ sig (Elt Ideal)) : sv8 V (Proc.devRef .tc main_arg17) = V (Proc.devRef .tc main_arg17) :=
  (seg7_keep _ main_arg17 (by decide)).trans (sv7_main_arg17 V)
theorem sv8_main_arg18 (V : Valuation τ sig (Elt Ideal)) : sv8 V (Proc.devRef .tc main_arg18) = V (Proc.devRef .tc main_arg18) :=
  (seg7_keep _ main_arg18 (by decide)).trans (sv7_main_arg18 V)
theorem sv8_main_arg19 (V : Valuation τ sig (Elt Ideal)) : sv8 V (Proc.devRef .tc main_arg19) = V (Proc.devRef .tc main_arg19) :=
  (seg7_keep _ main_arg19 (by decide)).trans (sv7_main_arg19 V)
theorem sv8_main_arg20 (V : Valuation τ sig (Elt Ideal)) : sv8 V (Proc.devRef .tc main_arg20) = V (Proc.devRef .tc main_arg20) :=
  (seg7_keep _ main_arg20 (by decide)).trans (sv7_main_arg20 V)
theorem sv9_main_arg0 (V : Valuation τ sig (Elt Ideal)) : sv9 V (Proc.devRef .tc main_arg0) = V (Proc.devRef .tc main_arg0) :=
  (seg8_keep _ main_arg0 (by decide)).trans (sv8_main_arg0 V)
theorem sv9_main_arg1 (V : Valuation τ sig (Elt Ideal)) : sv9 V (Proc.devRef .tc main_arg1) = V (Proc.devRef .tc main_arg1) :=
  (seg8_keep _ main_arg1 (by decide)).trans (sv8_main_arg1 V)
theorem sv9_main_arg2 (V : Valuation τ sig (Elt Ideal)) : sv9 V (Proc.devRef .tc main_arg2) = V (Proc.devRef .tc main_arg2) :=
  (seg8_keep _ main_arg2 (by decide)).trans (sv8_main_arg2 V)
theorem sv9_main_arg3 (V : Valuation τ sig (Elt Ideal)) : sv9 V (Proc.devRef .tc main_arg3) = V (Proc.devRef .tc main_arg3) :=
  (seg8_keep _ main_arg3 (by decide)).trans (sv8_main_arg3 V)
theorem sv9_main_arg4 (V : Valuation τ sig (Elt Ideal)) : sv9 V (Proc.devRef .tc main_arg4) = V (Proc.devRef .tc main_arg4) :=
  (seg8_keep _ main_arg4 (by decide)).trans (sv8_main_arg4 V)
theorem sv9_main_arg5 (V : Valuation τ sig (Elt Ideal)) : sv9 V (Proc.devRef .tc main_arg5) = V (Proc.devRef .tc main_arg5) :=
  (seg8_keep _ main_arg5 (by decide)).trans (sv8_main_arg5 V)
theorem sv9_main_arg6 (V : Valuation τ sig (Elt Ideal)) : sv9 V (Proc.devRef .tc main_arg6) = V (Proc.devRef .tc main_arg6) :=
  (seg8_keep _ main_arg6 (by decide)).trans (sv8_main_arg6 V)
theorem sv9_main_arg7 (V : Valuation τ sig (Elt Ideal)) : sv9 V (Proc.devRef .tc main_arg7) = V (Proc.devRef .tc main_arg7) :=
  (seg8_keep _ main_arg7 (by decide)).trans (sv8_main_arg7 V)
theorem sv9_main_arg8 (V : Valuation τ sig (Elt Ideal)) : sv9 V (Proc.devRef .tc main_arg8) = V (Proc.devRef .tc main_arg8) :=
  (seg8_keep _ main_arg8 (by decide)).trans (sv8_main_arg8 V)
theorem sv9_main_arg9 (V : Valuation τ sig (Elt Ideal)) : sv9 V (Proc.devRef .tc main_arg9) = V (Proc.devRef .tc main_arg9) :=
  (seg8_keep _ main_arg9 (by decide)).trans (sv8_main_arg9 V)
theorem sv9_main_arg10 (V : Valuation τ sig (Elt Ideal)) : sv9 V (Proc.devRef .tc main_arg10) = V (Proc.devRef .tc main_arg10) :=
  (seg8_keep _ main_arg10 (by decide)).trans (sv8_main_arg10 V)
theorem sv9_main_arg11 (V : Valuation τ sig (Elt Ideal)) : sv9 V (Proc.devRef .tc main_arg11) = V (Proc.devRef .tc main_arg11) :=
  (seg8_keep _ main_arg11 (by decide)).trans (sv8_main_arg11 V)
theorem sv9_main_arg12 (V : Valuation τ sig (Elt Ideal)) : sv9 V (Proc.devRef .tc main_arg12) = V (Proc.devRef .tc main_arg12) :=
  (seg8_keep _ main_arg12 (by decide)).trans (sv8_main_arg12 V)
theorem sv9_main_arg13 (V : Valuation τ sig (Elt Ideal)) : sv9 V (Proc.devRef .tc main_arg13) = V (Proc.devRef .tc main_arg13) :=
  (seg8_keep _ main_arg13 (by decide)).trans (sv8_main_arg13 V)
theorem sv9_main_arg14 (V : Valuation τ sig (Elt Ideal)) : sv9 V (Proc.devRef .tc main_arg14) = V (Proc.devRef .tc main_arg14) :=
  (seg8_keep _ main_arg14 (by decide)).trans (sv8_main_arg14 V)
theorem sv9_main_arg15 (V : Valuation τ sig (Elt Ideal)) : sv9 V (Proc.devRef .tc main_arg15) = V (Proc.devRef .tc main_arg15) :=
  (seg8_keep _ main_arg15 (by decide)).trans (sv8_main_arg15 V)
theorem sv9_main_arg16 (V : Valuation τ sig (Elt Ideal)) : sv9 V (Proc.devRef .tc main_arg16) = V (Proc.devRef .tc main_arg16) :=
  (seg8_keep _ main_arg16 (by decide)).trans (sv8_main_arg16 V)
theorem sv9_main_arg17 (V : Valuation τ sig (Elt Ideal)) : sv9 V (Proc.devRef .tc main_arg17) = V (Proc.devRef .tc main_arg17) :=
  (seg8_keep _ main_arg17 (by decide)).trans (sv8_main_arg17 V)
theorem sv9_main_arg18 (V : Valuation τ sig (Elt Ideal)) : sv9 V (Proc.devRef .tc main_arg18) = V (Proc.devRef .tc main_arg18) :=
  (seg8_keep _ main_arg18 (by decide)).trans (sv8_main_arg18 V)
theorem sv9_main_arg19 (V : Valuation τ sig (Elt Ideal)) : sv9 V (Proc.devRef .tc main_arg19) = V (Proc.devRef .tc main_arg19) :=
  (seg8_keep _ main_arg19 (by decide)).trans (sv8_main_arg19 V)
theorem sv9_main_arg20 (V : Valuation τ sig (Elt Ideal)) : sv9 V (Proc.devRef .tc main_arg20) = V (Proc.devRef .tc main_arg20) :=
  (seg8_keep _ main_arg20 (by decide)).trans (sv8_main_arg20 V)
theorem sv10_main_arg0 (V : Valuation τ sig (Elt Ideal)) : sv10 V (Proc.devRef .tc main_arg0) = V (Proc.devRef .tc main_arg0) :=
  (seg9_keep _ main_arg0 (by decide)).trans (sv9_main_arg0 V)
theorem sv10_main_arg1 (V : Valuation τ sig (Elt Ideal)) : sv10 V (Proc.devRef .tc main_arg1) = V (Proc.devRef .tc main_arg1) :=
  (seg9_keep _ main_arg1 (by decide)).trans (sv9_main_arg1 V)
theorem sv10_main_arg2 (V : Valuation τ sig (Elt Ideal)) : sv10 V (Proc.devRef .tc main_arg2) = V (Proc.devRef .tc main_arg2) :=
  (seg9_keep _ main_arg2 (by decide)).trans (sv9_main_arg2 V)
theorem sv10_main_arg3 (V : Valuation τ sig (Elt Ideal)) : sv10 V (Proc.devRef .tc main_arg3) = V (Proc.devRef .tc main_arg3) :=
  (seg9_keep _ main_arg3 (by decide)).trans (sv9_main_arg3 V)
theorem sv10_main_arg4 (V : Valuation τ sig (Elt Ideal)) : sv10 V (Proc.devRef .tc main_arg4) = V (Proc.devRef .tc main_arg4) :=
  (seg9_keep _ main_arg4 (by decide)).trans (sv9_main_arg4 V)
theorem sv10_main_arg5 (V : Valuation τ sig (Elt Ideal)) : sv10 V (Proc.devRef .tc main_arg5) = V (Proc.devRef .tc main_arg5) :=
  (seg9_keep _ main_arg5 (by decide)).trans (sv9_main_arg5 V)
theorem sv10_main_arg6 (V : Valuation τ sig (Elt Ideal)) : sv10 V (Proc.devRef .tc main_arg6) = V (Proc.devRef .tc main_arg6) :=
  (seg9_keep _ main_arg6 (by decide)).trans (sv9_main_arg6 V)
theorem sv10_main_arg7 (V : Valuation τ sig (Elt Ideal)) : sv10 V (Proc.devRef .tc main_arg7) = V (Proc.devRef .tc main_arg7) :=
  (seg9_keep _ main_arg7 (by decide)).trans (sv9_main_arg7 V)
theorem sv10_main_arg8 (V : Valuation τ sig (Elt Ideal)) : sv10 V (Proc.devRef .tc main_arg8) = V (Proc.devRef .tc main_arg8) :=
  (seg9_keep _ main_arg8 (by decide)).trans (sv9_main_arg8 V)
theorem sv10_main_arg9 (V : Valuation τ sig (Elt Ideal)) : sv10 V (Proc.devRef .tc main_arg9) = V (Proc.devRef .tc main_arg9) :=
  (seg9_keep _ main_arg9 (by decide)).trans (sv9_main_arg9 V)
theorem sv10_main_arg10 (V : Valuation τ sig (Elt Ideal)) : sv10 V (Proc.devRef .tc main_arg10) = V (Proc.devRef .tc main_arg10) :=
  (seg9_keep _ main_arg10 (by decide)).trans (sv9_main_arg10 V)
theorem sv10_main_arg11 (V : Valuation τ sig (Elt Ideal)) : sv10 V (Proc.devRef .tc main_arg11) = V (Proc.devRef .tc main_arg11) :=
  (seg9_keep _ main_arg11 (by decide)).trans (sv9_main_arg11 V)
theorem sv10_main_arg12 (V : Valuation τ sig (Elt Ideal)) : sv10 V (Proc.devRef .tc main_arg12) = V (Proc.devRef .tc main_arg12) :=
  (seg9_keep _ main_arg12 (by decide)).trans (sv9_main_arg12 V)
theorem sv10_main_arg13 (V : Valuation τ sig (Elt Ideal)) : sv10 V (Proc.devRef .tc main_arg13) = V (Proc.devRef .tc main_arg13) :=
  (seg9_keep _ main_arg13 (by decide)).trans (sv9_main_arg13 V)
theorem sv10_main_arg14 (V : Valuation τ sig (Elt Ideal)) : sv10 V (Proc.devRef .tc main_arg14) = V (Proc.devRef .tc main_arg14) :=
  (seg9_keep _ main_arg14 (by decide)).trans (sv9_main_arg14 V)
theorem sv10_main_arg15 (V : Valuation τ sig (Elt Ideal)) : sv10 V (Proc.devRef .tc main_arg15) = V (Proc.devRef .tc main_arg15) :=
  (seg9_keep _ main_arg15 (by decide)).trans (sv9_main_arg15 V)
theorem sv10_main_arg16 (V : Valuation τ sig (Elt Ideal)) : sv10 V (Proc.devRef .tc main_arg16) = V (Proc.devRef .tc main_arg16) :=
  (seg9_keep _ main_arg16 (by decide)).trans (sv9_main_arg16 V)
theorem sv10_main_arg17 (V : Valuation τ sig (Elt Ideal)) : sv10 V (Proc.devRef .tc main_arg17) = V (Proc.devRef .tc main_arg17) :=
  (seg9_keep _ main_arg17 (by decide)).trans (sv9_main_arg17 V)
theorem sv10_main_arg18 (V : Valuation τ sig (Elt Ideal)) : sv10 V (Proc.devRef .tc main_arg18) = V (Proc.devRef .tc main_arg18) :=
  (seg9_keep _ main_arg18 (by decide)).trans (sv9_main_arg18 V)
theorem sv10_main_arg19 (V : Valuation τ sig (Elt Ideal)) : sv10 V (Proc.devRef .tc main_arg19) = V (Proc.devRef .tc main_arg19) :=
  (seg9_keep _ main_arg19 (by decide)).trans (sv9_main_arg19 V)
theorem sv10_main_arg20 (V : Valuation τ sig (Elt Ideal)) : sv10 V (Proc.devRef .tc main_arg20) = V (Proc.devRef .tc main_arg20) :=
  (seg9_keep _ main_arg20 (by decide)).trans (sv9_main_arg20 V)
theorem sv11_main_arg0 (V : Valuation τ sig (Elt Ideal)) : sv11 V (Proc.devRef .tc main_arg0) = V (Proc.devRef .tc main_arg0) :=
  (seg10_keep _ main_arg0 (by decide)).trans (sv10_main_arg0 V)
theorem sv11_main_arg1 (V : Valuation τ sig (Elt Ideal)) : sv11 V (Proc.devRef .tc main_arg1) = V (Proc.devRef .tc main_arg1) :=
  (seg10_keep _ main_arg1 (by decide)).trans (sv10_main_arg1 V)
theorem sv11_main_arg2 (V : Valuation τ sig (Elt Ideal)) : sv11 V (Proc.devRef .tc main_arg2) = V (Proc.devRef .tc main_arg2) :=
  (seg10_keep _ main_arg2 (by decide)).trans (sv10_main_arg2 V)
theorem sv11_main_arg3 (V : Valuation τ sig (Elt Ideal)) : sv11 V (Proc.devRef .tc main_arg3) = V (Proc.devRef .tc main_arg3) :=
  (seg10_keep _ main_arg3 (by decide)).trans (sv10_main_arg3 V)
theorem sv11_main_arg4 (V : Valuation τ sig (Elt Ideal)) : sv11 V (Proc.devRef .tc main_arg4) = V (Proc.devRef .tc main_arg4) :=
  (seg10_keep _ main_arg4 (by decide)).trans (sv10_main_arg4 V)
theorem sv11_main_arg5 (V : Valuation τ sig (Elt Ideal)) : sv11 V (Proc.devRef .tc main_arg5) = V (Proc.devRef .tc main_arg5) :=
  (seg10_keep _ main_arg5 (by decide)).trans (sv10_main_arg5 V)
theorem sv11_main_arg6 (V : Valuation τ sig (Elt Ideal)) : sv11 V (Proc.devRef .tc main_arg6) = V (Proc.devRef .tc main_arg6) :=
  (seg10_keep _ main_arg6 (by decide)).trans (sv10_main_arg6 V)
theorem sv11_main_arg7 (V : Valuation τ sig (Elt Ideal)) : sv11 V (Proc.devRef .tc main_arg7) = V (Proc.devRef .tc main_arg7) :=
  (seg10_keep _ main_arg7 (by decide)).trans (sv10_main_arg7 V)
theorem sv11_main_arg8 (V : Valuation τ sig (Elt Ideal)) : sv11 V (Proc.devRef .tc main_arg8) = V (Proc.devRef .tc main_arg8) :=
  (seg10_keep _ main_arg8 (by decide)).trans (sv10_main_arg8 V)
theorem sv11_main_arg9 (V : Valuation τ sig (Elt Ideal)) : sv11 V (Proc.devRef .tc main_arg9) = V (Proc.devRef .tc main_arg9) :=
  (seg10_keep _ main_arg9 (by decide)).trans (sv10_main_arg9 V)
theorem sv11_main_arg10 (V : Valuation τ sig (Elt Ideal)) : sv11 V (Proc.devRef .tc main_arg10) = V (Proc.devRef .tc main_arg10) :=
  (seg10_keep _ main_arg10 (by decide)).trans (sv10_main_arg10 V)
theorem sv11_main_arg11 (V : Valuation τ sig (Elt Ideal)) : sv11 V (Proc.devRef .tc main_arg11) = V (Proc.devRef .tc main_arg11) :=
  (seg10_keep _ main_arg11 (by decide)).trans (sv10_main_arg11 V)
theorem sv11_main_arg12 (V : Valuation τ sig (Elt Ideal)) : sv11 V (Proc.devRef .tc main_arg12) = V (Proc.devRef .tc main_arg12) :=
  (seg10_keep _ main_arg12 (by decide)).trans (sv10_main_arg12 V)
theorem sv11_main_arg13 (V : Valuation τ sig (Elt Ideal)) : sv11 V (Proc.devRef .tc main_arg13) = V (Proc.devRef .tc main_arg13) :=
  (seg10_keep _ main_arg13 (by decide)).trans (sv10_main_arg13 V)
theorem sv11_main_arg14 (V : Valuation τ sig (Elt Ideal)) : sv11 V (Proc.devRef .tc main_arg14) = V (Proc.devRef .tc main_arg14) :=
  (seg10_keep _ main_arg14 (by decide)).trans (sv10_main_arg14 V)
theorem sv11_main_arg15 (V : Valuation τ sig (Elt Ideal)) : sv11 V (Proc.devRef .tc main_arg15) = V (Proc.devRef .tc main_arg15) :=
  (seg10_keep _ main_arg15 (by decide)).trans (sv10_main_arg15 V)
theorem sv11_main_arg16 (V : Valuation τ sig (Elt Ideal)) : sv11 V (Proc.devRef .tc main_arg16) = V (Proc.devRef .tc main_arg16) :=
  (seg10_keep _ main_arg16 (by decide)).trans (sv10_main_arg16 V)
theorem sv11_main_arg17 (V : Valuation τ sig (Elt Ideal)) : sv11 V (Proc.devRef .tc main_arg17) = V (Proc.devRef .tc main_arg17) :=
  (seg10_keep _ main_arg17 (by decide)).trans (sv10_main_arg17 V)
theorem sv11_main_arg18 (V : Valuation τ sig (Elt Ideal)) : sv11 V (Proc.devRef .tc main_arg18) = V (Proc.devRef .tc main_arg18) :=
  (seg10_keep _ main_arg18 (by decide)).trans (sv10_main_arg18 V)
theorem sv11_main_arg19 (V : Valuation τ sig (Elt Ideal)) : sv11 V (Proc.devRef .tc main_arg19) = V (Proc.devRef .tc main_arg19) :=
  (seg10_keep _ main_arg19 (by decide)).trans (sv10_main_arg19 V)
theorem sv11_main_arg20 (V : Valuation τ sig (Elt Ideal)) : sv11 V (Proc.devRef .tc main_arg20) = V (Proc.devRef .tc main_arg20) :=
  (seg10_keep _ main_arg20 (by decide)).trans (sv10_main_arg20 V)
theorem sv12_main_arg0 (V : Valuation τ sig (Elt Ideal)) : sv12 V (Proc.devRef .tc main_arg0) = V (Proc.devRef .tc main_arg0) :=
  (seg11_keep _ main_arg0 (by decide)).trans (sv11_main_arg0 V)
theorem sv12_main_arg1 (V : Valuation τ sig (Elt Ideal)) : sv12 V (Proc.devRef .tc main_arg1) = V (Proc.devRef .tc main_arg1) :=
  (seg11_keep _ main_arg1 (by decide)).trans (sv11_main_arg1 V)
theorem sv12_main_arg2 (V : Valuation τ sig (Elt Ideal)) : sv12 V (Proc.devRef .tc main_arg2) = V (Proc.devRef .tc main_arg2) :=
  (seg11_keep _ main_arg2 (by decide)).trans (sv11_main_arg2 V)
theorem sv12_main_arg3 (V : Valuation τ sig (Elt Ideal)) : sv12 V (Proc.devRef .tc main_arg3) = V (Proc.devRef .tc main_arg3) :=
  (seg11_keep _ main_arg3 (by decide)).trans (sv11_main_arg3 V)
theorem sv12_main_arg4 (V : Valuation τ sig (Elt Ideal)) : sv12 V (Proc.devRef .tc main_arg4) = V (Proc.devRef .tc main_arg4) :=
  (seg11_keep _ main_arg4 (by decide)).trans (sv11_main_arg4 V)
theorem sv12_main_arg5 (V : Valuation τ sig (Elt Ideal)) : sv12 V (Proc.devRef .tc main_arg5) = V (Proc.devRef .tc main_arg5) :=
  (seg11_keep _ main_arg5 (by decide)).trans (sv11_main_arg5 V)
theorem sv12_main_arg6 (V : Valuation τ sig (Elt Ideal)) : sv12 V (Proc.devRef .tc main_arg6) = V (Proc.devRef .tc main_arg6) :=
  (seg11_keep _ main_arg6 (by decide)).trans (sv11_main_arg6 V)
theorem sv12_main_arg7 (V : Valuation τ sig (Elt Ideal)) : sv12 V (Proc.devRef .tc main_arg7) = V (Proc.devRef .tc main_arg7) :=
  (seg11_keep _ main_arg7 (by decide)).trans (sv11_main_arg7 V)
theorem sv12_main_arg8 (V : Valuation τ sig (Elt Ideal)) : sv12 V (Proc.devRef .tc main_arg8) = V (Proc.devRef .tc main_arg8) :=
  (seg11_keep _ main_arg8 (by decide)).trans (sv11_main_arg8 V)
theorem sv12_main_arg9 (V : Valuation τ sig (Elt Ideal)) : sv12 V (Proc.devRef .tc main_arg9) = V (Proc.devRef .tc main_arg9) :=
  (seg11_keep _ main_arg9 (by decide)).trans (sv11_main_arg9 V)
theorem sv12_main_arg10 (V : Valuation τ sig (Elt Ideal)) : sv12 V (Proc.devRef .tc main_arg10) = V (Proc.devRef .tc main_arg10) :=
  (seg11_keep _ main_arg10 (by decide)).trans (sv11_main_arg10 V)
theorem sv12_main_arg11 (V : Valuation τ sig (Elt Ideal)) : sv12 V (Proc.devRef .tc main_arg11) = V (Proc.devRef .tc main_arg11) :=
  (seg11_keep _ main_arg11 (by decide)).trans (sv11_main_arg11 V)
theorem sv12_main_arg12 (V : Valuation τ sig (Elt Ideal)) : sv12 V (Proc.devRef .tc main_arg12) = V (Proc.devRef .tc main_arg12) :=
  (seg11_keep _ main_arg12 (by decide)).trans (sv11_main_arg12 V)
theorem sv12_main_arg13 (V : Valuation τ sig (Elt Ideal)) : sv12 V (Proc.devRef .tc main_arg13) = V (Proc.devRef .tc main_arg13) :=
  (seg11_keep _ main_arg13 (by decide)).trans (sv11_main_arg13 V)
theorem sv12_main_arg14 (V : Valuation τ sig (Elt Ideal)) : sv12 V (Proc.devRef .tc main_arg14) = V (Proc.devRef .tc main_arg14) :=
  (seg11_keep _ main_arg14 (by decide)).trans (sv11_main_arg14 V)
theorem sv12_main_arg15 (V : Valuation τ sig (Elt Ideal)) : sv12 V (Proc.devRef .tc main_arg15) = V (Proc.devRef .tc main_arg15) :=
  (seg11_keep _ main_arg15 (by decide)).trans (sv11_main_arg15 V)
theorem sv12_main_arg16 (V : Valuation τ sig (Elt Ideal)) : sv12 V (Proc.devRef .tc main_arg16) = V (Proc.devRef .tc main_arg16) :=
  (seg11_keep _ main_arg16 (by decide)).trans (sv11_main_arg16 V)
theorem sv12_main_arg17 (V : Valuation τ sig (Elt Ideal)) : sv12 V (Proc.devRef .tc main_arg17) = V (Proc.devRef .tc main_arg17) :=
  (seg11_keep _ main_arg17 (by decide)).trans (sv11_main_arg17 V)
theorem sv12_main_arg18 (V : Valuation τ sig (Elt Ideal)) : sv12 V (Proc.devRef .tc main_arg18) = V (Proc.devRef .tc main_arg18) :=
  (seg11_keep _ main_arg18 (by decide)).trans (sv11_main_arg18 V)
theorem sv12_main_arg19 (V : Valuation τ sig (Elt Ideal)) : sv12 V (Proc.devRef .tc main_arg19) = V (Proc.devRef .tc main_arg19) :=
  (seg11_keep _ main_arg19 (by decide)).trans (sv11_main_arg19 V)
theorem sv12_main_arg20 (V : Valuation τ sig (Elt Ideal)) : sv12 V (Proc.devRef .tc main_arg20) = V (Proc.devRef .tc main_arg20) :=
  (seg11_keep _ main_arg20 (by decide)).trans (sv11_main_arg20 V)
theorem sv13_main_arg0 (V : Valuation τ sig (Elt Ideal)) : sv13 V (Proc.devRef .tc main_arg0) = V (Proc.devRef .tc main_arg0) :=
  (seg12_keep _ main_arg0 (by decide)).trans (sv12_main_arg0 V)
theorem sv13_main_arg1 (V : Valuation τ sig (Elt Ideal)) : sv13 V (Proc.devRef .tc main_arg1) = V (Proc.devRef .tc main_arg1) :=
  (seg12_keep _ main_arg1 (by decide)).trans (sv12_main_arg1 V)
theorem sv13_main_arg2 (V : Valuation τ sig (Elt Ideal)) : sv13 V (Proc.devRef .tc main_arg2) = V (Proc.devRef .tc main_arg2) :=
  (seg12_keep _ main_arg2 (by decide)).trans (sv12_main_arg2 V)
theorem sv13_main_arg3 (V : Valuation τ sig (Elt Ideal)) : sv13 V (Proc.devRef .tc main_arg3) = V (Proc.devRef .tc main_arg3) :=
  (seg12_keep _ main_arg3 (by decide)).trans (sv12_main_arg3 V)
theorem sv13_main_arg4 (V : Valuation τ sig (Elt Ideal)) : sv13 V (Proc.devRef .tc main_arg4) = V (Proc.devRef .tc main_arg4) :=
  (seg12_keep _ main_arg4 (by decide)).trans (sv12_main_arg4 V)
theorem sv13_main_arg5 (V : Valuation τ sig (Elt Ideal)) : sv13 V (Proc.devRef .tc main_arg5) = V (Proc.devRef .tc main_arg5) :=
  (seg12_keep _ main_arg5 (by decide)).trans (sv12_main_arg5 V)
theorem sv13_main_arg6 (V : Valuation τ sig (Elt Ideal)) : sv13 V (Proc.devRef .tc main_arg6) = V (Proc.devRef .tc main_arg6) :=
  (seg12_keep _ main_arg6 (by decide)).trans (sv12_main_arg6 V)
theorem sv13_main_arg7 (V : Valuation τ sig (Elt Ideal)) : sv13 V (Proc.devRef .tc main_arg7) = V (Proc.devRef .tc main_arg7) :=
  (seg12_keep _ main_arg7 (by decide)).trans (sv12_main_arg7 V)
theorem sv13_main_arg8 (V : Valuation τ sig (Elt Ideal)) : sv13 V (Proc.devRef .tc main_arg8) = V (Proc.devRef .tc main_arg8) :=
  (seg12_keep _ main_arg8 (by decide)).trans (sv12_main_arg8 V)
theorem sv13_main_arg9 (V : Valuation τ sig (Elt Ideal)) : sv13 V (Proc.devRef .tc main_arg9) = V (Proc.devRef .tc main_arg9) :=
  (seg12_keep _ main_arg9 (by decide)).trans (sv12_main_arg9 V)
theorem sv13_main_arg10 (V : Valuation τ sig (Elt Ideal)) : sv13 V (Proc.devRef .tc main_arg10) = V (Proc.devRef .tc main_arg10) :=
  (seg12_keep _ main_arg10 (by decide)).trans (sv12_main_arg10 V)
theorem sv13_main_arg11 (V : Valuation τ sig (Elt Ideal)) : sv13 V (Proc.devRef .tc main_arg11) = V (Proc.devRef .tc main_arg11) :=
  (seg12_keep _ main_arg11 (by decide)).trans (sv12_main_arg11 V)
theorem sv13_main_arg12 (V : Valuation τ sig (Elt Ideal)) : sv13 V (Proc.devRef .tc main_arg12) = V (Proc.devRef .tc main_arg12) :=
  (seg12_keep _ main_arg12 (by decide)).trans (sv12_main_arg12 V)
theorem sv13_main_arg13 (V : Valuation τ sig (Elt Ideal)) : sv13 V (Proc.devRef .tc main_arg13) = V (Proc.devRef .tc main_arg13) :=
  (seg12_keep _ main_arg13 (by decide)).trans (sv12_main_arg13 V)
theorem sv13_main_arg14 (V : Valuation τ sig (Elt Ideal)) : sv13 V (Proc.devRef .tc main_arg14) = V (Proc.devRef .tc main_arg14) :=
  (seg12_keep _ main_arg14 (by decide)).trans (sv12_main_arg14 V)
theorem sv13_main_arg15 (V : Valuation τ sig (Elt Ideal)) : sv13 V (Proc.devRef .tc main_arg15) = V (Proc.devRef .tc main_arg15) :=
  (seg12_keep _ main_arg15 (by decide)).trans (sv12_main_arg15 V)
theorem sv13_main_arg16 (V : Valuation τ sig (Elt Ideal)) : sv13 V (Proc.devRef .tc main_arg16) = V (Proc.devRef .tc main_arg16) :=
  (seg12_keep _ main_arg16 (by decide)).trans (sv12_main_arg16 V)
theorem sv13_main_arg17 (V : Valuation τ sig (Elt Ideal)) : sv13 V (Proc.devRef .tc main_arg17) = V (Proc.devRef .tc main_arg17) :=
  (seg12_keep _ main_arg17 (by decide)).trans (sv12_main_arg17 V)
theorem sv13_main_arg18 (V : Valuation τ sig (Elt Ideal)) : sv13 V (Proc.devRef .tc main_arg18) = V (Proc.devRef .tc main_arg18) :=
  (seg12_keep _ main_arg18 (by decide)).trans (sv12_main_arg18 V)
theorem sv13_main_arg19 (V : Valuation τ sig (Elt Ideal)) : sv13 V (Proc.devRef .tc main_arg19) = V (Proc.devRef .tc main_arg19) :=
  (seg12_keep _ main_arg19 (by decide)).trans (sv12_main_arg19 V)
theorem sv13_main_arg20 (V : Valuation τ sig (Elt Ideal)) : sv13 V (Proc.devRef .tc main_arg20) = V (Proc.devRef .tc main_arg20) :=
  (seg12_keep _ main_arg20 (by decide)).trans (sv12_main_arg20 V)
theorem sv14_main_arg0 (V : Valuation τ sig (Elt Ideal)) : sv14 V (Proc.devRef .tc main_arg0) = V (Proc.devRef .tc main_arg0) :=
  (seg13_keep _ main_arg0 (by decide)).trans (sv13_main_arg0 V)
theorem sv14_main_arg1 (V : Valuation τ sig (Elt Ideal)) : sv14 V (Proc.devRef .tc main_arg1) = V (Proc.devRef .tc main_arg1) :=
  (seg13_keep _ main_arg1 (by decide)).trans (sv13_main_arg1 V)
theorem sv14_main_arg2 (V : Valuation τ sig (Elt Ideal)) : sv14 V (Proc.devRef .tc main_arg2) = V (Proc.devRef .tc main_arg2) :=
  (seg13_keep _ main_arg2 (by decide)).trans (sv13_main_arg2 V)
theorem sv14_main_arg3 (V : Valuation τ sig (Elt Ideal)) : sv14 V (Proc.devRef .tc main_arg3) = V (Proc.devRef .tc main_arg3) :=
  (seg13_keep _ main_arg3 (by decide)).trans (sv13_main_arg3 V)
theorem sv14_main_arg4 (V : Valuation τ sig (Elt Ideal)) : sv14 V (Proc.devRef .tc main_arg4) = V (Proc.devRef .tc main_arg4) :=
  (seg13_keep _ main_arg4 (by decide)).trans (sv13_main_arg4 V)
theorem sv14_main_arg5 (V : Valuation τ sig (Elt Ideal)) : sv14 V (Proc.devRef .tc main_arg5) = V (Proc.devRef .tc main_arg5) :=
  (seg13_keep _ main_arg5 (by decide)).trans (sv13_main_arg5 V)
theorem sv14_main_arg6 (V : Valuation τ sig (Elt Ideal)) : sv14 V (Proc.devRef .tc main_arg6) = V (Proc.devRef .tc main_arg6) :=
  (seg13_keep _ main_arg6 (by decide)).trans (sv13_main_arg6 V)
theorem sv14_main_arg7 (V : Valuation τ sig (Elt Ideal)) : sv14 V (Proc.devRef .tc main_arg7) = V (Proc.devRef .tc main_arg7) :=
  (seg13_keep _ main_arg7 (by decide)).trans (sv13_main_arg7 V)
theorem sv14_main_arg8 (V : Valuation τ sig (Elt Ideal)) : sv14 V (Proc.devRef .tc main_arg8) = V (Proc.devRef .tc main_arg8) :=
  (seg13_keep _ main_arg8 (by decide)).trans (sv13_main_arg8 V)
theorem sv14_main_arg9 (V : Valuation τ sig (Elt Ideal)) : sv14 V (Proc.devRef .tc main_arg9) = V (Proc.devRef .tc main_arg9) :=
  (seg13_keep _ main_arg9 (by decide)).trans (sv13_main_arg9 V)
theorem sv14_main_arg10 (V : Valuation τ sig (Elt Ideal)) : sv14 V (Proc.devRef .tc main_arg10) = V (Proc.devRef .tc main_arg10) :=
  (seg13_keep _ main_arg10 (by decide)).trans (sv13_main_arg10 V)
theorem sv14_main_arg11 (V : Valuation τ sig (Elt Ideal)) : sv14 V (Proc.devRef .tc main_arg11) = V (Proc.devRef .tc main_arg11) :=
  (seg13_keep _ main_arg11 (by decide)).trans (sv13_main_arg11 V)
theorem sv14_main_arg12 (V : Valuation τ sig (Elt Ideal)) : sv14 V (Proc.devRef .tc main_arg12) = V (Proc.devRef .tc main_arg12) :=
  (seg13_keep _ main_arg12 (by decide)).trans (sv13_main_arg12 V)
theorem sv14_main_arg13 (V : Valuation τ sig (Elt Ideal)) : sv14 V (Proc.devRef .tc main_arg13) = V (Proc.devRef .tc main_arg13) :=
  (seg13_keep _ main_arg13 (by decide)).trans (sv13_main_arg13 V)
theorem sv14_main_arg14 (V : Valuation τ sig (Elt Ideal)) : sv14 V (Proc.devRef .tc main_arg14) = V (Proc.devRef .tc main_arg14) :=
  (seg13_keep _ main_arg14 (by decide)).trans (sv13_main_arg14 V)
theorem sv14_main_arg15 (V : Valuation τ sig (Elt Ideal)) : sv14 V (Proc.devRef .tc main_arg15) = V (Proc.devRef .tc main_arg15) :=
  (seg13_keep _ main_arg15 (by decide)).trans (sv13_main_arg15 V)
theorem sv14_main_arg16 (V : Valuation τ sig (Elt Ideal)) : sv14 V (Proc.devRef .tc main_arg16) = V (Proc.devRef .tc main_arg16) :=
  (seg13_keep _ main_arg16 (by decide)).trans (sv13_main_arg16 V)
theorem sv14_main_arg17 (V : Valuation τ sig (Elt Ideal)) : sv14 V (Proc.devRef .tc main_arg17) = V (Proc.devRef .tc main_arg17) :=
  (seg13_keep _ main_arg17 (by decide)).trans (sv13_main_arg17 V)
theorem sv14_main_arg18 (V : Valuation τ sig (Elt Ideal)) : sv14 V (Proc.devRef .tc main_arg18) = V (Proc.devRef .tc main_arg18) :=
  (seg13_keep _ main_arg18 (by decide)).trans (sv13_main_arg18 V)
theorem sv14_main_arg19 (V : Valuation τ sig (Elt Ideal)) : sv14 V (Proc.devRef .tc main_arg19) = V (Proc.devRef .tc main_arg19) :=
  (seg13_keep _ main_arg19 (by decide)).trans (sv13_main_arg19 V)
theorem sv14_main_arg20 (V : Valuation τ sig (Elt Ideal)) : sv14 V (Proc.devRef .tc main_arg20) = V (Proc.devRef .tc main_arg20) :=
  (seg13_keep _ main_arg20 (by decide)).trans (sv13_main_arg20 V)
theorem sv15_main_arg0 (V : Valuation τ sig (Elt Ideal)) : sv15 V (Proc.devRef .tc main_arg0) = V (Proc.devRef .tc main_arg0) :=
  (seg14_keep _ main_arg0 (by decide)).trans (sv14_main_arg0 V)
theorem sv15_main_arg1 (V : Valuation τ sig (Elt Ideal)) : sv15 V (Proc.devRef .tc main_arg1) = V (Proc.devRef .tc main_arg1) :=
  (seg14_keep _ main_arg1 (by decide)).trans (sv14_main_arg1 V)
theorem sv15_main_arg2 (V : Valuation τ sig (Elt Ideal)) : sv15 V (Proc.devRef .tc main_arg2) = V (Proc.devRef .tc main_arg2) :=
  (seg14_keep _ main_arg2 (by decide)).trans (sv14_main_arg2 V)
theorem sv15_main_arg3 (V : Valuation τ sig (Elt Ideal)) : sv15 V (Proc.devRef .tc main_arg3) = V (Proc.devRef .tc main_arg3) :=
  (seg14_keep _ main_arg3 (by decide)).trans (sv14_main_arg3 V)
theorem sv15_main_arg4 (V : Valuation τ sig (Elt Ideal)) : sv15 V (Proc.devRef .tc main_arg4) = V (Proc.devRef .tc main_arg4) :=
  (seg14_keep _ main_arg4 (by decide)).trans (sv14_main_arg4 V)
theorem sv15_main_arg5 (V : Valuation τ sig (Elt Ideal)) : sv15 V (Proc.devRef .tc main_arg5) = V (Proc.devRef .tc main_arg5) :=
  (seg14_keep _ main_arg5 (by decide)).trans (sv14_main_arg5 V)
theorem sv15_main_arg6 (V : Valuation τ sig (Elt Ideal)) : sv15 V (Proc.devRef .tc main_arg6) = V (Proc.devRef .tc main_arg6) :=
  (seg14_keep _ main_arg6 (by decide)).trans (sv14_main_arg6 V)
theorem sv15_main_arg7 (V : Valuation τ sig (Elt Ideal)) : sv15 V (Proc.devRef .tc main_arg7) = V (Proc.devRef .tc main_arg7) :=
  (seg14_keep _ main_arg7 (by decide)).trans (sv14_main_arg7 V)
theorem sv15_main_arg8 (V : Valuation τ sig (Elt Ideal)) : sv15 V (Proc.devRef .tc main_arg8) = V (Proc.devRef .tc main_arg8) :=
  (seg14_keep _ main_arg8 (by decide)).trans (sv14_main_arg8 V)
theorem sv15_main_arg9 (V : Valuation τ sig (Elt Ideal)) : sv15 V (Proc.devRef .tc main_arg9) = V (Proc.devRef .tc main_arg9) :=
  (seg14_keep _ main_arg9 (by decide)).trans (sv14_main_arg9 V)
theorem sv15_main_arg10 (V : Valuation τ sig (Elt Ideal)) : sv15 V (Proc.devRef .tc main_arg10) = V (Proc.devRef .tc main_arg10) :=
  (seg14_keep _ main_arg10 (by decide)).trans (sv14_main_arg10 V)
theorem sv15_main_arg11 (V : Valuation τ sig (Elt Ideal)) : sv15 V (Proc.devRef .tc main_arg11) = V (Proc.devRef .tc main_arg11) :=
  (seg14_keep _ main_arg11 (by decide)).trans (sv14_main_arg11 V)
theorem sv15_main_arg12 (V : Valuation τ sig (Elt Ideal)) : sv15 V (Proc.devRef .tc main_arg12) = V (Proc.devRef .tc main_arg12) :=
  (seg14_keep _ main_arg12 (by decide)).trans (sv14_main_arg12 V)
theorem sv15_main_arg13 (V : Valuation τ sig (Elt Ideal)) : sv15 V (Proc.devRef .tc main_arg13) = V (Proc.devRef .tc main_arg13) :=
  (seg14_keep _ main_arg13 (by decide)).trans (sv14_main_arg13 V)
theorem sv15_main_arg14 (V : Valuation τ sig (Elt Ideal)) : sv15 V (Proc.devRef .tc main_arg14) = V (Proc.devRef .tc main_arg14) :=
  (seg14_keep _ main_arg14 (by decide)).trans (sv14_main_arg14 V)
theorem sv15_main_arg15 (V : Valuation τ sig (Elt Ideal)) : sv15 V (Proc.devRef .tc main_arg15) = V (Proc.devRef .tc main_arg15) :=
  (seg14_keep _ main_arg15 (by decide)).trans (sv14_main_arg15 V)
theorem sv15_main_arg16 (V : Valuation τ sig (Elt Ideal)) : sv15 V (Proc.devRef .tc main_arg16) = V (Proc.devRef .tc main_arg16) :=
  (seg14_keep _ main_arg16 (by decide)).trans (sv14_main_arg16 V)
theorem sv15_main_arg17 (V : Valuation τ sig (Elt Ideal)) : sv15 V (Proc.devRef .tc main_arg17) = V (Proc.devRef .tc main_arg17) :=
  (seg14_keep _ main_arg17 (by decide)).trans (sv14_main_arg17 V)
theorem sv15_main_arg18 (V : Valuation τ sig (Elt Ideal)) : sv15 V (Proc.devRef .tc main_arg18) = V (Proc.devRef .tc main_arg18) :=
  (seg14_keep _ main_arg18 (by decide)).trans (sv14_main_arg18 V)
theorem sv15_main_arg19 (V : Valuation τ sig (Elt Ideal)) : sv15 V (Proc.devRef .tc main_arg19) = V (Proc.devRef .tc main_arg19) :=
  (seg14_keep _ main_arg19 (by decide)).trans (sv14_main_arg19 V)
theorem sv15_main_arg20 (V : Valuation τ sig (Elt Ideal)) : sv15 V (Proc.devRef .tc main_arg20) = V (Proc.devRef .tc main_arg20) :=
  (seg14_keep _ main_arg20 (by decide)).trans (sv14_main_arg20 V)
theorem sv16_main_arg0 (V : Valuation τ sig (Elt Ideal)) : sv16 V (Proc.devRef .tc main_arg0) = V (Proc.devRef .tc main_arg0) :=
  (seg15_keep _ main_arg0 (by decide)).trans (sv15_main_arg0 V)
theorem sv16_main_arg1 (V : Valuation τ sig (Elt Ideal)) : sv16 V (Proc.devRef .tc main_arg1) = V (Proc.devRef .tc main_arg1) :=
  (seg15_keep _ main_arg1 (by decide)).trans (sv15_main_arg1 V)
theorem sv16_main_arg2 (V : Valuation τ sig (Elt Ideal)) : sv16 V (Proc.devRef .tc main_arg2) = V (Proc.devRef .tc main_arg2) :=
  (seg15_keep _ main_arg2 (by decide)).trans (sv15_main_arg2 V)
theorem sv16_main_arg3 (V : Valuation τ sig (Elt Ideal)) : sv16 V (Proc.devRef .tc main_arg3) = V (Proc.devRef .tc main_arg3) :=
  (seg15_keep _ main_arg3 (by decide)).trans (sv15_main_arg3 V)
theorem sv16_main_arg4 (V : Valuation τ sig (Elt Ideal)) : sv16 V (Proc.devRef .tc main_arg4) = V (Proc.devRef .tc main_arg4) :=
  (seg15_keep _ main_arg4 (by decide)).trans (sv15_main_arg4 V)
theorem sv16_main_arg5 (V : Valuation τ sig (Elt Ideal)) : sv16 V (Proc.devRef .tc main_arg5) = V (Proc.devRef .tc main_arg5) :=
  (seg15_keep _ main_arg5 (by decide)).trans (sv15_main_arg5 V)
theorem sv16_main_arg6 (V : Valuation τ sig (Elt Ideal)) : sv16 V (Proc.devRef .tc main_arg6) = V (Proc.devRef .tc main_arg6) :=
  (seg15_keep _ main_arg6 (by decide)).trans (sv15_main_arg6 V)
theorem sv16_main_arg7 (V : Valuation τ sig (Elt Ideal)) : sv16 V (Proc.devRef .tc main_arg7) = V (Proc.devRef .tc main_arg7) :=
  (seg15_keep _ main_arg7 (by decide)).trans (sv15_main_arg7 V)
theorem sv16_main_arg8 (V : Valuation τ sig (Elt Ideal)) : sv16 V (Proc.devRef .tc main_arg8) = V (Proc.devRef .tc main_arg8) :=
  (seg15_keep _ main_arg8 (by decide)).trans (sv15_main_arg8 V)
theorem sv16_main_arg9 (V : Valuation τ sig (Elt Ideal)) : sv16 V (Proc.devRef .tc main_arg9) = V (Proc.devRef .tc main_arg9) :=
  (seg15_keep _ main_arg9 (by decide)).trans (sv15_main_arg9 V)
theorem sv16_main_arg10 (V : Valuation τ sig (Elt Ideal)) : sv16 V (Proc.devRef .tc main_arg10) = V (Proc.devRef .tc main_arg10) :=
  (seg15_keep _ main_arg10 (by decide)).trans (sv15_main_arg10 V)
theorem sv16_main_arg11 (V : Valuation τ sig (Elt Ideal)) : sv16 V (Proc.devRef .tc main_arg11) = V (Proc.devRef .tc main_arg11) :=
  (seg15_keep _ main_arg11 (by decide)).trans (sv15_main_arg11 V)
theorem sv16_main_arg12 (V : Valuation τ sig (Elt Ideal)) : sv16 V (Proc.devRef .tc main_arg12) = V (Proc.devRef .tc main_arg12) :=
  (seg15_keep _ main_arg12 (by decide)).trans (sv15_main_arg12 V)
theorem sv16_main_arg13 (V : Valuation τ sig (Elt Ideal)) : sv16 V (Proc.devRef .tc main_arg13) = V (Proc.devRef .tc main_arg13) :=
  (seg15_keep _ main_arg13 (by decide)).trans (sv15_main_arg13 V)
theorem sv16_main_arg14 (V : Valuation τ sig (Elt Ideal)) : sv16 V (Proc.devRef .tc main_arg14) = V (Proc.devRef .tc main_arg14) :=
  (seg15_keep _ main_arg14 (by decide)).trans (sv15_main_arg14 V)
theorem sv16_main_arg15 (V : Valuation τ sig (Elt Ideal)) : sv16 V (Proc.devRef .tc main_arg15) = V (Proc.devRef .tc main_arg15) :=
  (seg15_keep _ main_arg15 (by decide)).trans (sv15_main_arg15 V)
theorem sv16_main_arg16 (V : Valuation τ sig (Elt Ideal)) : sv16 V (Proc.devRef .tc main_arg16) = V (Proc.devRef .tc main_arg16) :=
  (seg15_keep _ main_arg16 (by decide)).trans (sv15_main_arg16 V)
theorem sv16_main_arg17 (V : Valuation τ sig (Elt Ideal)) : sv16 V (Proc.devRef .tc main_arg17) = V (Proc.devRef .tc main_arg17) :=
  (seg15_keep _ main_arg17 (by decide)).trans (sv15_main_arg17 V)
theorem sv16_main_arg18 (V : Valuation τ sig (Elt Ideal)) : sv16 V (Proc.devRef .tc main_arg18) = V (Proc.devRef .tc main_arg18) :=
  (seg15_keep _ main_arg18 (by decide)).trans (sv15_main_arg18 V)
theorem sv16_main_arg19 (V : Valuation τ sig (Elt Ideal)) : sv16 V (Proc.devRef .tc main_arg19) = V (Proc.devRef .tc main_arg19) :=
  (seg15_keep _ main_arg19 (by decide)).trans (sv15_main_arg19 V)
theorem sv16_main_arg20 (V : Valuation τ sig (Elt Ideal)) : sv16 V (Proc.devRef .tc main_arg20) = V (Proc.devRef .tc main_arg20) :=
  (seg15_keep _ main_arg20 (by decide)).trans (sv15_main_arg20 V)
theorem sv17_main_arg0 (V : Valuation τ sig (Elt Ideal)) : sv17 V (Proc.devRef .tc main_arg0) = V (Proc.devRef .tc main_arg0) :=
  (seg16_keep _ main_arg0 (by decide)).trans (sv16_main_arg0 V)
theorem sv17_main_arg1 (V : Valuation τ sig (Elt Ideal)) : sv17 V (Proc.devRef .tc main_arg1) = V (Proc.devRef .tc main_arg1) :=
  (seg16_keep _ main_arg1 (by decide)).trans (sv16_main_arg1 V)
theorem sv17_main_arg2 (V : Valuation τ sig (Elt Ideal)) : sv17 V (Proc.devRef .tc main_arg2) = V (Proc.devRef .tc main_arg2) :=
  (seg16_keep _ main_arg2 (by decide)).trans (sv16_main_arg2 V)
theorem sv17_main_arg3 (V : Valuation τ sig (Elt Ideal)) : sv17 V (Proc.devRef .tc main_arg3) = V (Proc.devRef .tc main_arg3) :=
  (seg16_keep _ main_arg3 (by decide)).trans (sv16_main_arg3 V)
theorem sv17_main_arg4 (V : Valuation τ sig (Elt Ideal)) : sv17 V (Proc.devRef .tc main_arg4) = V (Proc.devRef .tc main_arg4) :=
  (seg16_keep _ main_arg4 (by decide)).trans (sv16_main_arg4 V)
theorem sv17_main_arg5 (V : Valuation τ sig (Elt Ideal)) : sv17 V (Proc.devRef .tc main_arg5) = V (Proc.devRef .tc main_arg5) :=
  (seg16_keep _ main_arg5 (by decide)).trans (sv16_main_arg5 V)
theorem sv17_main_arg6 (V : Valuation τ sig (Elt Ideal)) : sv17 V (Proc.devRef .tc main_arg6) = V (Proc.devRef .tc main_arg6) :=
  (seg16_keep _ main_arg6 (by decide)).trans (sv16_main_arg6 V)
theorem sv17_main_arg7 (V : Valuation τ sig (Elt Ideal)) : sv17 V (Proc.devRef .tc main_arg7) = V (Proc.devRef .tc main_arg7) :=
  (seg16_keep _ main_arg7 (by decide)).trans (sv16_main_arg7 V)
theorem sv17_main_arg8 (V : Valuation τ sig (Elt Ideal)) : sv17 V (Proc.devRef .tc main_arg8) = V (Proc.devRef .tc main_arg8) :=
  (seg16_keep _ main_arg8 (by decide)).trans (sv16_main_arg8 V)
theorem sv17_main_arg9 (V : Valuation τ sig (Elt Ideal)) : sv17 V (Proc.devRef .tc main_arg9) = V (Proc.devRef .tc main_arg9) :=
  (seg16_keep _ main_arg9 (by decide)).trans (sv16_main_arg9 V)
theorem sv17_main_arg10 (V : Valuation τ sig (Elt Ideal)) : sv17 V (Proc.devRef .tc main_arg10) = V (Proc.devRef .tc main_arg10) :=
  (seg16_keep _ main_arg10 (by decide)).trans (sv16_main_arg10 V)
theorem sv17_main_arg11 (V : Valuation τ sig (Elt Ideal)) : sv17 V (Proc.devRef .tc main_arg11) = V (Proc.devRef .tc main_arg11) :=
  (seg16_keep _ main_arg11 (by decide)).trans (sv16_main_arg11 V)
theorem sv17_main_arg12 (V : Valuation τ sig (Elt Ideal)) : sv17 V (Proc.devRef .tc main_arg12) = V (Proc.devRef .tc main_arg12) :=
  (seg16_keep _ main_arg12 (by decide)).trans (sv16_main_arg12 V)
theorem sv17_main_arg13 (V : Valuation τ sig (Elt Ideal)) : sv17 V (Proc.devRef .tc main_arg13) = V (Proc.devRef .tc main_arg13) :=
  (seg16_keep _ main_arg13 (by decide)).trans (sv16_main_arg13 V)
theorem sv17_main_arg14 (V : Valuation τ sig (Elt Ideal)) : sv17 V (Proc.devRef .tc main_arg14) = V (Proc.devRef .tc main_arg14) :=
  (seg16_keep _ main_arg14 (by decide)).trans (sv16_main_arg14 V)
theorem sv17_main_arg15 (V : Valuation τ sig (Elt Ideal)) : sv17 V (Proc.devRef .tc main_arg15) = V (Proc.devRef .tc main_arg15) :=
  (seg16_keep _ main_arg15 (by decide)).trans (sv16_main_arg15 V)
theorem sv17_main_arg16 (V : Valuation τ sig (Elt Ideal)) : sv17 V (Proc.devRef .tc main_arg16) = V (Proc.devRef .tc main_arg16) :=
  (seg16_keep _ main_arg16 (by decide)).trans (sv16_main_arg16 V)
theorem sv17_main_arg17 (V : Valuation τ sig (Elt Ideal)) : sv17 V (Proc.devRef .tc main_arg17) = V (Proc.devRef .tc main_arg17) :=
  (seg16_keep _ main_arg17 (by decide)).trans (sv16_main_arg17 V)
theorem sv17_main_arg18 (V : Valuation τ sig (Elt Ideal)) : sv17 V (Proc.devRef .tc main_arg18) = V (Proc.devRef .tc main_arg18) :=
  (seg16_keep _ main_arg18 (by decide)).trans (sv16_main_arg18 V)
theorem sv17_main_arg19 (V : Valuation τ sig (Elt Ideal)) : sv17 V (Proc.devRef .tc main_arg19) = V (Proc.devRef .tc main_arg19) :=
  (seg16_keep _ main_arg19 (by decide)).trans (sv16_main_arg19 V)
theorem sv17_main_arg20 (V : Valuation τ sig (Elt Ideal)) : sv17 V (Proc.devRef .tc main_arg20) = V (Proc.devRef .tc main_arg20) :=
  (seg16_keep _ main_arg20 (by decide)).trans (sv16_main_arg20 V)
theorem sv18_main_arg0 (V : Valuation τ sig (Elt Ideal)) : sv18 V (Proc.devRef .tc main_arg0) = V (Proc.devRef .tc main_arg0) :=
  (seg17_keep _ main_arg0 (by decide)).trans (sv17_main_arg0 V)
theorem sv18_main_arg1 (V : Valuation τ sig (Elt Ideal)) : sv18 V (Proc.devRef .tc main_arg1) = V (Proc.devRef .tc main_arg1) :=
  (seg17_keep _ main_arg1 (by decide)).trans (sv17_main_arg1 V)
theorem sv18_main_arg2 (V : Valuation τ sig (Elt Ideal)) : sv18 V (Proc.devRef .tc main_arg2) = V (Proc.devRef .tc main_arg2) :=
  (seg17_keep _ main_arg2 (by decide)).trans (sv17_main_arg2 V)
theorem sv18_main_arg3 (V : Valuation τ sig (Elt Ideal)) : sv18 V (Proc.devRef .tc main_arg3) = V (Proc.devRef .tc main_arg3) :=
  (seg17_keep _ main_arg3 (by decide)).trans (sv17_main_arg3 V)
theorem sv18_main_arg4 (V : Valuation τ sig (Elt Ideal)) : sv18 V (Proc.devRef .tc main_arg4) = V (Proc.devRef .tc main_arg4) :=
  (seg17_keep _ main_arg4 (by decide)).trans (sv17_main_arg4 V)
theorem sv18_main_arg5 (V : Valuation τ sig (Elt Ideal)) : sv18 V (Proc.devRef .tc main_arg5) = V (Proc.devRef .tc main_arg5) :=
  (seg17_keep _ main_arg5 (by decide)).trans (sv17_main_arg5 V)
theorem sv18_main_arg6 (V : Valuation τ sig (Elt Ideal)) : sv18 V (Proc.devRef .tc main_arg6) = V (Proc.devRef .tc main_arg6) :=
  (seg17_keep _ main_arg6 (by decide)).trans (sv17_main_arg6 V)
theorem sv18_main_arg7 (V : Valuation τ sig (Elt Ideal)) : sv18 V (Proc.devRef .tc main_arg7) = V (Proc.devRef .tc main_arg7) :=
  (seg17_keep _ main_arg7 (by decide)).trans (sv17_main_arg7 V)
theorem sv18_main_arg8 (V : Valuation τ sig (Elt Ideal)) : sv18 V (Proc.devRef .tc main_arg8) = V (Proc.devRef .tc main_arg8) :=
  (seg17_keep _ main_arg8 (by decide)).trans (sv17_main_arg8 V)
theorem sv18_main_arg9 (V : Valuation τ sig (Elt Ideal)) : sv18 V (Proc.devRef .tc main_arg9) = V (Proc.devRef .tc main_arg9) :=
  (seg17_keep _ main_arg9 (by decide)).trans (sv17_main_arg9 V)
theorem sv18_main_arg10 (V : Valuation τ sig (Elt Ideal)) : sv18 V (Proc.devRef .tc main_arg10) = V (Proc.devRef .tc main_arg10) :=
  (seg17_keep _ main_arg10 (by decide)).trans (sv17_main_arg10 V)
theorem sv18_main_arg11 (V : Valuation τ sig (Elt Ideal)) : sv18 V (Proc.devRef .tc main_arg11) = V (Proc.devRef .tc main_arg11) :=
  (seg17_keep _ main_arg11 (by decide)).trans (sv17_main_arg11 V)
theorem sv18_main_arg12 (V : Valuation τ sig (Elt Ideal)) : sv18 V (Proc.devRef .tc main_arg12) = V (Proc.devRef .tc main_arg12) :=
  (seg17_keep _ main_arg12 (by decide)).trans (sv17_main_arg12 V)
theorem sv18_main_arg13 (V : Valuation τ sig (Elt Ideal)) : sv18 V (Proc.devRef .tc main_arg13) = V (Proc.devRef .tc main_arg13) :=
  (seg17_keep _ main_arg13 (by decide)).trans (sv17_main_arg13 V)
theorem sv18_main_arg14 (V : Valuation τ sig (Elt Ideal)) : sv18 V (Proc.devRef .tc main_arg14) = V (Proc.devRef .tc main_arg14) :=
  (seg17_keep _ main_arg14 (by decide)).trans (sv17_main_arg14 V)
theorem sv18_main_arg15 (V : Valuation τ sig (Elt Ideal)) : sv18 V (Proc.devRef .tc main_arg15) = V (Proc.devRef .tc main_arg15) :=
  (seg17_keep _ main_arg15 (by decide)).trans (sv17_main_arg15 V)
theorem sv18_main_arg16 (V : Valuation τ sig (Elt Ideal)) : sv18 V (Proc.devRef .tc main_arg16) = V (Proc.devRef .tc main_arg16) :=
  (seg17_keep _ main_arg16 (by decide)).trans (sv17_main_arg16 V)
theorem sv18_main_arg17 (V : Valuation τ sig (Elt Ideal)) : sv18 V (Proc.devRef .tc main_arg17) = V (Proc.devRef .tc main_arg17) :=
  (seg17_keep _ main_arg17 (by decide)).trans (sv17_main_arg17 V)
theorem sv18_main_arg18 (V : Valuation τ sig (Elt Ideal)) : sv18 V (Proc.devRef .tc main_arg18) = V (Proc.devRef .tc main_arg18) :=
  (seg17_keep _ main_arg18 (by decide)).trans (sv17_main_arg18 V)
theorem sv18_main_arg19 (V : Valuation τ sig (Elt Ideal)) : sv18 V (Proc.devRef .tc main_arg19) = V (Proc.devRef .tc main_arg19) :=
  (seg17_keep _ main_arg19 (by decide)).trans (sv17_main_arg19 V)
theorem sv18_main_arg20 (V : Valuation τ sig (Elt Ideal)) : sv18 V (Proc.devRef .tc main_arg20) = V (Proc.devRef .tc main_arg20) :=
  (seg17_keep _ main_arg20 (by decide)).trans (sv17_main_arg20 V)
theorem sv19_main_arg0 (V : Valuation τ sig (Elt Ideal)) : sv19 V (Proc.devRef .tc main_arg0) = V (Proc.devRef .tc main_arg0) :=
  (seg18_keep _ main_arg0 (by decide)).trans (sv18_main_arg0 V)
theorem sv19_main_arg1 (V : Valuation τ sig (Elt Ideal)) : sv19 V (Proc.devRef .tc main_arg1) = V (Proc.devRef .tc main_arg1) :=
  (seg18_keep _ main_arg1 (by decide)).trans (sv18_main_arg1 V)
theorem sv19_main_arg2 (V : Valuation τ sig (Elt Ideal)) : sv19 V (Proc.devRef .tc main_arg2) = V (Proc.devRef .tc main_arg2) :=
  (seg18_keep _ main_arg2 (by decide)).trans (sv18_main_arg2 V)
theorem sv19_main_arg3 (V : Valuation τ sig (Elt Ideal)) : sv19 V (Proc.devRef .tc main_arg3) = V (Proc.devRef .tc main_arg3) :=
  (seg18_keep _ main_arg3 (by decide)).trans (sv18_main_arg3 V)
theorem sv19_main_arg4 (V : Valuation τ sig (Elt Ideal)) : sv19 V (Proc.devRef .tc main_arg4) = V (Proc.devRef .tc main_arg4) :=
  (seg18_keep _ main_arg4 (by decide)).trans (sv18_main_arg4 V)
theorem sv19_main_arg5 (V : Valuation τ sig (Elt Ideal)) : sv19 V (Proc.devRef .tc main_arg5) = V (Proc.devRef .tc main_arg5) :=
  (seg18_keep _ main_arg5 (by decide)).trans (sv18_main_arg5 V)
theorem sv19_main_arg6 (V : Valuation τ sig (Elt Ideal)) : sv19 V (Proc.devRef .tc main_arg6) = V (Proc.devRef .tc main_arg6) :=
  (seg18_keep _ main_arg6 (by decide)).trans (sv18_main_arg6 V)
theorem sv19_main_arg7 (V : Valuation τ sig (Elt Ideal)) : sv19 V (Proc.devRef .tc main_arg7) = V (Proc.devRef .tc main_arg7) :=
  (seg18_keep _ main_arg7 (by decide)).trans (sv18_main_arg7 V)
theorem sv19_main_arg8 (V : Valuation τ sig (Elt Ideal)) : sv19 V (Proc.devRef .tc main_arg8) = V (Proc.devRef .tc main_arg8) :=
  (seg18_keep _ main_arg8 (by decide)).trans (sv18_main_arg8 V)
theorem sv19_main_arg9 (V : Valuation τ sig (Elt Ideal)) : sv19 V (Proc.devRef .tc main_arg9) = V (Proc.devRef .tc main_arg9) :=
  (seg18_keep _ main_arg9 (by decide)).trans (sv18_main_arg9 V)
theorem sv19_main_arg10 (V : Valuation τ sig (Elt Ideal)) : sv19 V (Proc.devRef .tc main_arg10) = V (Proc.devRef .tc main_arg10) :=
  (seg18_keep _ main_arg10 (by decide)).trans (sv18_main_arg10 V)
theorem sv19_main_arg11 (V : Valuation τ sig (Elt Ideal)) : sv19 V (Proc.devRef .tc main_arg11) = V (Proc.devRef .tc main_arg11) :=
  (seg18_keep _ main_arg11 (by decide)).trans (sv18_main_arg11 V)
theorem sv19_main_arg12 (V : Valuation τ sig (Elt Ideal)) : sv19 V (Proc.devRef .tc main_arg12) = V (Proc.devRef .tc main_arg12) :=
  (seg18_keep _ main_arg12 (by decide)).trans (sv18_main_arg12 V)
theorem sv19_main_arg13 (V : Valuation τ sig (Elt Ideal)) : sv19 V (Proc.devRef .tc main_arg13) = V (Proc.devRef .tc main_arg13) :=
  (seg18_keep _ main_arg13 (by decide)).trans (sv18_main_arg13 V)
theorem sv19_main_arg14 (V : Valuation τ sig (Elt Ideal)) : sv19 V (Proc.devRef .tc main_arg14) = V (Proc.devRef .tc main_arg14) :=
  (seg18_keep _ main_arg14 (by decide)).trans (sv18_main_arg14 V)
theorem sv19_main_arg15 (V : Valuation τ sig (Elt Ideal)) : sv19 V (Proc.devRef .tc main_arg15) = V (Proc.devRef .tc main_arg15) :=
  (seg18_keep _ main_arg15 (by decide)).trans (sv18_main_arg15 V)
theorem sv19_main_arg16 (V : Valuation τ sig (Elt Ideal)) : sv19 V (Proc.devRef .tc main_arg16) = V (Proc.devRef .tc main_arg16) :=
  (seg18_keep _ main_arg16 (by decide)).trans (sv18_main_arg16 V)
theorem sv19_main_arg17 (V : Valuation τ sig (Elt Ideal)) : sv19 V (Proc.devRef .tc main_arg17) = V (Proc.devRef .tc main_arg17) :=
  (seg18_keep _ main_arg17 (by decide)).trans (sv18_main_arg17 V)
theorem sv19_main_arg18 (V : Valuation τ sig (Elt Ideal)) : sv19 V (Proc.devRef .tc main_arg18) = V (Proc.devRef .tc main_arg18) :=
  (seg18_keep _ main_arg18 (by decide)).trans (sv18_main_arg18 V)
theorem sv19_main_arg19 (V : Valuation τ sig (Elt Ideal)) : sv19 V (Proc.devRef .tc main_arg19) = V (Proc.devRef .tc main_arg19) :=
  (seg18_keep _ main_arg19 (by decide)).trans (sv18_main_arg19 V)
theorem sv19_main_arg20 (V : Valuation τ sig (Elt Ideal)) : sv19 V (Proc.devRef .tc main_arg20) = V (Proc.devRef .tc main_arg20) :=
  (seg18_keep _ main_arg20 (by decide)).trans (sv18_main_arg20 V)
theorem sv20_main_arg0 (V : Valuation τ sig (Elt Ideal)) : sv20 V (Proc.devRef .tc main_arg0) = V (Proc.devRef .tc main_arg0) :=
  (seg19_keep _ main_arg0 (by decide)).trans (sv19_main_arg0 V)
theorem sv20_main_arg1 (V : Valuation τ sig (Elt Ideal)) : sv20 V (Proc.devRef .tc main_arg1) = V (Proc.devRef .tc main_arg1) :=
  (seg19_keep _ main_arg1 (by decide)).trans (sv19_main_arg1 V)
theorem sv20_main_arg2 (V : Valuation τ sig (Elt Ideal)) : sv20 V (Proc.devRef .tc main_arg2) = V (Proc.devRef .tc main_arg2) :=
  (seg19_keep _ main_arg2 (by decide)).trans (sv19_main_arg2 V)
theorem sv20_main_arg3 (V : Valuation τ sig (Elt Ideal)) : sv20 V (Proc.devRef .tc main_arg3) = V (Proc.devRef .tc main_arg3) :=
  (seg19_keep _ main_arg3 (by decide)).trans (sv19_main_arg3 V)
theorem sv20_main_arg4 (V : Valuation τ sig (Elt Ideal)) : sv20 V (Proc.devRef .tc main_arg4) = V (Proc.devRef .tc main_arg4) :=
  (seg19_keep _ main_arg4 (by decide)).trans (sv19_main_arg4 V)
theorem sv20_main_arg5 (V : Valuation τ sig (Elt Ideal)) : sv20 V (Proc.devRef .tc main_arg5) = V (Proc.devRef .tc main_arg5) :=
  (seg19_keep _ main_arg5 (by decide)).trans (sv19_main_arg5 V)
theorem sv20_main_arg6 (V : Valuation τ sig (Elt Ideal)) : sv20 V (Proc.devRef .tc main_arg6) = V (Proc.devRef .tc main_arg6) :=
  (seg19_keep _ main_arg6 (by decide)).trans (sv19_main_arg6 V)
theorem sv20_main_arg7 (V : Valuation τ sig (Elt Ideal)) : sv20 V (Proc.devRef .tc main_arg7) = V (Proc.devRef .tc main_arg7) :=
  (seg19_keep _ main_arg7 (by decide)).trans (sv19_main_arg7 V)
theorem sv20_main_arg8 (V : Valuation τ sig (Elt Ideal)) : sv20 V (Proc.devRef .tc main_arg8) = V (Proc.devRef .tc main_arg8) :=
  (seg19_keep _ main_arg8 (by decide)).trans (sv19_main_arg8 V)
theorem sv20_main_arg9 (V : Valuation τ sig (Elt Ideal)) : sv20 V (Proc.devRef .tc main_arg9) = V (Proc.devRef .tc main_arg9) :=
  (seg19_keep _ main_arg9 (by decide)).trans (sv19_main_arg9 V)
theorem sv20_main_arg10 (V : Valuation τ sig (Elt Ideal)) : sv20 V (Proc.devRef .tc main_arg10) = V (Proc.devRef .tc main_arg10) :=
  (seg19_keep _ main_arg10 (by decide)).trans (sv19_main_arg10 V)
theorem sv20_main_arg11 (V : Valuation τ sig (Elt Ideal)) : sv20 V (Proc.devRef .tc main_arg11) = V (Proc.devRef .tc main_arg11) :=
  (seg19_keep _ main_arg11 (by decide)).trans (sv19_main_arg11 V)
theorem sv20_main_arg12 (V : Valuation τ sig (Elt Ideal)) : sv20 V (Proc.devRef .tc main_arg12) = V (Proc.devRef .tc main_arg12) :=
  (seg19_keep _ main_arg12 (by decide)).trans (sv19_main_arg12 V)
theorem sv20_main_arg13 (V : Valuation τ sig (Elt Ideal)) : sv20 V (Proc.devRef .tc main_arg13) = V (Proc.devRef .tc main_arg13) :=
  (seg19_keep _ main_arg13 (by decide)).trans (sv19_main_arg13 V)
theorem sv20_main_arg14 (V : Valuation τ sig (Elt Ideal)) : sv20 V (Proc.devRef .tc main_arg14) = V (Proc.devRef .tc main_arg14) :=
  (seg19_keep _ main_arg14 (by decide)).trans (sv19_main_arg14 V)
theorem sv20_main_arg15 (V : Valuation τ sig (Elt Ideal)) : sv20 V (Proc.devRef .tc main_arg15) = V (Proc.devRef .tc main_arg15) :=
  (seg19_keep _ main_arg15 (by decide)).trans (sv19_main_arg15 V)
theorem sv20_main_arg16 (V : Valuation τ sig (Elt Ideal)) : sv20 V (Proc.devRef .tc main_arg16) = V (Proc.devRef .tc main_arg16) :=
  (seg19_keep _ main_arg16 (by decide)).trans (sv19_main_arg16 V)
theorem sv20_main_arg17 (V : Valuation τ sig (Elt Ideal)) : sv20 V (Proc.devRef .tc main_arg17) = V (Proc.devRef .tc main_arg17) :=
  (seg19_keep _ main_arg17 (by decide)).trans (sv19_main_arg17 V)
theorem sv20_main_arg18 (V : Valuation τ sig (Elt Ideal)) : sv20 V (Proc.devRef .tc main_arg18) = V (Proc.devRef .tc main_arg18) :=
  (seg19_keep _ main_arg18 (by decide)).trans (sv19_main_arg18 V)
theorem sv20_main_arg19 (V : Valuation τ sig (Elt Ideal)) : sv20 V (Proc.devRef .tc main_arg19) = V (Proc.devRef .tc main_arg19) :=
  (seg19_keep _ main_arg19 (by decide)).trans (sv19_main_arg19 V)
theorem sv20_main_arg20 (V : Valuation τ sig (Elt Ideal)) : sv20 V (Proc.devRef .tc main_arg20) = V (Proc.devRef .tc main_arg20) :=
  (seg19_keep _ main_arg20 (by decide)).trans (sv19_main_arg20 V)
theorem sv21_main_arg0 (V : Valuation τ sig (Elt Ideal)) : sv21 V (Proc.devRef .tc main_arg0) = V (Proc.devRef .tc main_arg0) :=
  (seg20_keep _ main_arg0 (by decide)).trans (sv20_main_arg0 V)
theorem sv21_main_arg1 (V : Valuation τ sig (Elt Ideal)) : sv21 V (Proc.devRef .tc main_arg1) = V (Proc.devRef .tc main_arg1) :=
  (seg20_keep _ main_arg1 (by decide)).trans (sv20_main_arg1 V)
theorem sv21_main_arg2 (V : Valuation τ sig (Elt Ideal)) : sv21 V (Proc.devRef .tc main_arg2) = V (Proc.devRef .tc main_arg2) :=
  (seg20_keep _ main_arg2 (by decide)).trans (sv20_main_arg2 V)
theorem sv21_main_arg3 (V : Valuation τ sig (Elt Ideal)) : sv21 V (Proc.devRef .tc main_arg3) = V (Proc.devRef .tc main_arg3) :=
  (seg20_keep _ main_arg3 (by decide)).trans (sv20_main_arg3 V)
theorem sv21_main_arg4 (V : Valuation τ sig (Elt Ideal)) : sv21 V (Proc.devRef .tc main_arg4) = V (Proc.devRef .tc main_arg4) :=
  (seg20_keep _ main_arg4 (by decide)).trans (sv20_main_arg4 V)
theorem sv21_main_arg5 (V : Valuation τ sig (Elt Ideal)) : sv21 V (Proc.devRef .tc main_arg5) = V (Proc.devRef .tc main_arg5) :=
  (seg20_keep _ main_arg5 (by decide)).trans (sv20_main_arg5 V)
theorem sv21_main_arg6 (V : Valuation τ sig (Elt Ideal)) : sv21 V (Proc.devRef .tc main_arg6) = V (Proc.devRef .tc main_arg6) :=
  (seg20_keep _ main_arg6 (by decide)).trans (sv20_main_arg6 V)
theorem sv21_main_arg7 (V : Valuation τ sig (Elt Ideal)) : sv21 V (Proc.devRef .tc main_arg7) = V (Proc.devRef .tc main_arg7) :=
  (seg20_keep _ main_arg7 (by decide)).trans (sv20_main_arg7 V)
theorem sv21_main_arg8 (V : Valuation τ sig (Elt Ideal)) : sv21 V (Proc.devRef .tc main_arg8) = V (Proc.devRef .tc main_arg8) :=
  (seg20_keep _ main_arg8 (by decide)).trans (sv20_main_arg8 V)
theorem sv21_main_arg9 (V : Valuation τ sig (Elt Ideal)) : sv21 V (Proc.devRef .tc main_arg9) = V (Proc.devRef .tc main_arg9) :=
  (seg20_keep _ main_arg9 (by decide)).trans (sv20_main_arg9 V)
theorem sv21_main_arg10 (V : Valuation τ sig (Elt Ideal)) : sv21 V (Proc.devRef .tc main_arg10) = V (Proc.devRef .tc main_arg10) :=
  (seg20_keep _ main_arg10 (by decide)).trans (sv20_main_arg10 V)
theorem sv21_main_arg11 (V : Valuation τ sig (Elt Ideal)) : sv21 V (Proc.devRef .tc main_arg11) = V (Proc.devRef .tc main_arg11) :=
  (seg20_keep _ main_arg11 (by decide)).trans (sv20_main_arg11 V)
theorem sv21_main_arg12 (V : Valuation τ sig (Elt Ideal)) : sv21 V (Proc.devRef .tc main_arg12) = V (Proc.devRef .tc main_arg12) :=
  (seg20_keep _ main_arg12 (by decide)).trans (sv20_main_arg12 V)
theorem sv21_main_arg13 (V : Valuation τ sig (Elt Ideal)) : sv21 V (Proc.devRef .tc main_arg13) = V (Proc.devRef .tc main_arg13) :=
  (seg20_keep _ main_arg13 (by decide)).trans (sv20_main_arg13 V)
theorem sv21_main_arg14 (V : Valuation τ sig (Elt Ideal)) : sv21 V (Proc.devRef .tc main_arg14) = V (Proc.devRef .tc main_arg14) :=
  (seg20_keep _ main_arg14 (by decide)).trans (sv20_main_arg14 V)
theorem sv21_main_arg15 (V : Valuation τ sig (Elt Ideal)) : sv21 V (Proc.devRef .tc main_arg15) = V (Proc.devRef .tc main_arg15) :=
  (seg20_keep _ main_arg15 (by decide)).trans (sv20_main_arg15 V)
theorem sv21_main_arg16 (V : Valuation τ sig (Elt Ideal)) : sv21 V (Proc.devRef .tc main_arg16) = V (Proc.devRef .tc main_arg16) :=
  (seg20_keep _ main_arg16 (by decide)).trans (sv20_main_arg16 V)
theorem sv21_main_arg17 (V : Valuation τ sig (Elt Ideal)) : sv21 V (Proc.devRef .tc main_arg17) = V (Proc.devRef .tc main_arg17) :=
  (seg20_keep _ main_arg17 (by decide)).trans (sv20_main_arg17 V)
theorem sv21_main_arg18 (V : Valuation τ sig (Elt Ideal)) : sv21 V (Proc.devRef .tc main_arg18) = V (Proc.devRef .tc main_arg18) :=
  (seg20_keep _ main_arg18 (by decide)).trans (sv20_main_arg18 V)
theorem sv21_main_arg19 (V : Valuation τ sig (Elt Ideal)) : sv21 V (Proc.devRef .tc main_arg19) = V (Proc.devRef .tc main_arg19) :=
  (seg20_keep _ main_arg19 (by decide)).trans (sv20_main_arg19 V)
theorem sv21_main_arg20 (V : Valuation τ sig (Elt Ideal)) : sv21 V (Proc.devRef .tc main_arg20) = V (Proc.devRef .tc main_arg20) :=
  (seg20_keep _ main_arg20 (by decide)).trans (sv20_main_arg20 V)
theorem sv22_main_arg0 (V : Valuation τ sig (Elt Ideal)) : sv22 V (Proc.devRef .tc main_arg0) = V (Proc.devRef .tc main_arg0) :=
  (seg21_keep _ main_arg0 (by decide)).trans (sv21_main_arg0 V)
theorem sv22_main_arg1 (V : Valuation τ sig (Elt Ideal)) : sv22 V (Proc.devRef .tc main_arg1) = V (Proc.devRef .tc main_arg1) :=
  (seg21_keep _ main_arg1 (by decide)).trans (sv21_main_arg1 V)
theorem sv22_main_arg2 (V : Valuation τ sig (Elt Ideal)) : sv22 V (Proc.devRef .tc main_arg2) = V (Proc.devRef .tc main_arg2) :=
  (seg21_keep _ main_arg2 (by decide)).trans (sv21_main_arg2 V)
theorem sv22_main_arg3 (V : Valuation τ sig (Elt Ideal)) : sv22 V (Proc.devRef .tc main_arg3) = V (Proc.devRef .tc main_arg3) :=
  (seg21_keep _ main_arg3 (by decide)).trans (sv21_main_arg3 V)
theorem sv22_main_arg4 (V : Valuation τ sig (Elt Ideal)) : sv22 V (Proc.devRef .tc main_arg4) = V (Proc.devRef .tc main_arg4) :=
  (seg21_keep _ main_arg4 (by decide)).trans (sv21_main_arg4 V)
theorem sv22_main_arg5 (V : Valuation τ sig (Elt Ideal)) : sv22 V (Proc.devRef .tc main_arg5) = V (Proc.devRef .tc main_arg5) :=
  (seg21_keep _ main_arg5 (by decide)).trans (sv21_main_arg5 V)
theorem sv22_main_arg6 (V : Valuation τ sig (Elt Ideal)) : sv22 V (Proc.devRef .tc main_arg6) = V (Proc.devRef .tc main_arg6) :=
  (seg21_keep _ main_arg6 (by decide)).trans (sv21_main_arg6 V)
theorem sv22_main_arg7 (V : Valuation τ sig (Elt Ideal)) : sv22 V (Proc.devRef .tc main_arg7) = V (Proc.devRef .tc main_arg7) :=
  (seg21_keep _ main_arg7 (by decide)).trans (sv21_main_arg7 V)
theorem sv22_main_arg8 (V : Valuation τ sig (Elt Ideal)) : sv22 V (Proc.devRef .tc main_arg8) = V (Proc.devRef .tc main_arg8) :=
  (seg21_keep _ main_arg8 (by decide)).trans (sv21_main_arg8 V)
theorem sv22_main_arg9 (V : Valuation τ sig (Elt Ideal)) : sv22 V (Proc.devRef .tc main_arg9) = V (Proc.devRef .tc main_arg9) :=
  (seg21_keep _ main_arg9 (by decide)).trans (sv21_main_arg9 V)
theorem sv22_main_arg10 (V : Valuation τ sig (Elt Ideal)) : sv22 V (Proc.devRef .tc main_arg10) = V (Proc.devRef .tc main_arg10) :=
  (seg21_keep _ main_arg10 (by decide)).trans (sv21_main_arg10 V)
theorem sv22_main_arg11 (V : Valuation τ sig (Elt Ideal)) : sv22 V (Proc.devRef .tc main_arg11) = V (Proc.devRef .tc main_arg11) :=
  (seg21_keep _ main_arg11 (by decide)).trans (sv21_main_arg11 V)
theorem sv22_main_arg12 (V : Valuation τ sig (Elt Ideal)) : sv22 V (Proc.devRef .tc main_arg12) = V (Proc.devRef .tc main_arg12) :=
  (seg21_keep _ main_arg12 (by decide)).trans (sv21_main_arg12 V)
theorem sv22_main_arg13 (V : Valuation τ sig (Elt Ideal)) : sv22 V (Proc.devRef .tc main_arg13) = V (Proc.devRef .tc main_arg13) :=
  (seg21_keep _ main_arg13 (by decide)).trans (sv21_main_arg13 V)
theorem sv22_main_arg14 (V : Valuation τ sig (Elt Ideal)) : sv22 V (Proc.devRef .tc main_arg14) = V (Proc.devRef .tc main_arg14) :=
  (seg21_keep _ main_arg14 (by decide)).trans (sv21_main_arg14 V)
theorem sv22_main_arg15 (V : Valuation τ sig (Elt Ideal)) : sv22 V (Proc.devRef .tc main_arg15) = V (Proc.devRef .tc main_arg15) :=
  (seg21_keep _ main_arg15 (by decide)).trans (sv21_main_arg15 V)
theorem sv22_main_arg16 (V : Valuation τ sig (Elt Ideal)) : sv22 V (Proc.devRef .tc main_arg16) = V (Proc.devRef .tc main_arg16) :=
  (seg21_keep _ main_arg16 (by decide)).trans (sv21_main_arg16 V)
theorem sv22_main_arg17 (V : Valuation τ sig (Elt Ideal)) : sv22 V (Proc.devRef .tc main_arg17) = V (Proc.devRef .tc main_arg17) :=
  (seg21_keep _ main_arg17 (by decide)).trans (sv21_main_arg17 V)
theorem sv22_main_arg18 (V : Valuation τ sig (Elt Ideal)) : sv22 V (Proc.devRef .tc main_arg18) = V (Proc.devRef .tc main_arg18) :=
  (seg21_keep _ main_arg18 (by decide)).trans (sv21_main_arg18 V)
theorem sv22_main_arg19 (V : Valuation τ sig (Elt Ideal)) : sv22 V (Proc.devRef .tc main_arg19) = V (Proc.devRef .tc main_arg19) :=
  (seg21_keep _ main_arg19 (by decide)).trans (sv21_main_arg19 V)
theorem sv22_main_arg20 (V : Valuation τ sig (Elt Ideal)) : sv22 V (Proc.devRef .tc main_arg20) = V (Proc.devRef .tc main_arg20) :=
  (seg21_keep _ main_arg20 (by decide)).trans (sv21_main_arg20 V)
theorem sv23_main_arg0 (V : Valuation τ sig (Elt Ideal)) : sv23 V (Proc.devRef .tc main_arg0) = V (Proc.devRef .tc main_arg0) :=
  (seg22_keep _ main_arg0 (by decide)).trans (sv22_main_arg0 V)
theorem sv23_main_arg1 (V : Valuation τ sig (Elt Ideal)) : sv23 V (Proc.devRef .tc main_arg1) = V (Proc.devRef .tc main_arg1) :=
  (seg22_keep _ main_arg1 (by decide)).trans (sv22_main_arg1 V)
theorem sv23_main_arg2 (V : Valuation τ sig (Elt Ideal)) : sv23 V (Proc.devRef .tc main_arg2) = V (Proc.devRef .tc main_arg2) :=
  (seg22_keep _ main_arg2 (by decide)).trans (sv22_main_arg2 V)
theorem sv23_main_arg3 (V : Valuation τ sig (Elt Ideal)) : sv23 V (Proc.devRef .tc main_arg3) = V (Proc.devRef .tc main_arg3) :=
  (seg22_keep _ main_arg3 (by decide)).trans (sv22_main_arg3 V)
theorem sv23_main_arg4 (V : Valuation τ sig (Elt Ideal)) : sv23 V (Proc.devRef .tc main_arg4) = V (Proc.devRef .tc main_arg4) :=
  (seg22_keep _ main_arg4 (by decide)).trans (sv22_main_arg4 V)
theorem sv23_main_arg5 (V : Valuation τ sig (Elt Ideal)) : sv23 V (Proc.devRef .tc main_arg5) = V (Proc.devRef .tc main_arg5) :=
  (seg22_keep _ main_arg5 (by decide)).trans (sv22_main_arg5 V)
theorem sv23_main_arg6 (V : Valuation τ sig (Elt Ideal)) : sv23 V (Proc.devRef .tc main_arg6) = V (Proc.devRef .tc main_arg6) :=
  (seg22_keep _ main_arg6 (by decide)).trans (sv22_main_arg6 V)
theorem sv23_main_arg7 (V : Valuation τ sig (Elt Ideal)) : sv23 V (Proc.devRef .tc main_arg7) = V (Proc.devRef .tc main_arg7) :=
  (seg22_keep _ main_arg7 (by decide)).trans (sv22_main_arg7 V)
theorem sv23_main_arg8 (V : Valuation τ sig (Elt Ideal)) : sv23 V (Proc.devRef .tc main_arg8) = V (Proc.devRef .tc main_arg8) :=
  (seg22_keep _ main_arg8 (by decide)).trans (sv22_main_arg8 V)
theorem sv23_main_arg9 (V : Valuation τ sig (Elt Ideal)) : sv23 V (Proc.devRef .tc main_arg9) = V (Proc.devRef .tc main_arg9) :=
  (seg22_keep _ main_arg9 (by decide)).trans (sv22_main_arg9 V)
theorem sv23_main_arg10 (V : Valuation τ sig (Elt Ideal)) : sv23 V (Proc.devRef .tc main_arg10) = V (Proc.devRef .tc main_arg10) :=
  (seg22_keep _ main_arg10 (by decide)).trans (sv22_main_arg10 V)
theorem sv23_main_arg11 (V : Valuation τ sig (Elt Ideal)) : sv23 V (Proc.devRef .tc main_arg11) = V (Proc.devRef .tc main_arg11) :=
  (seg22_keep _ main_arg11 (by decide)).trans (sv22_main_arg11 V)
theorem sv23_main_arg12 (V : Valuation τ sig (Elt Ideal)) : sv23 V (Proc.devRef .tc main_arg12) = V (Proc.devRef .tc main_arg12) :=
  (seg22_keep _ main_arg12 (by decide)).trans (sv22_main_arg12 V)
theorem sv23_main_arg13 (V : Valuation τ sig (Elt Ideal)) : sv23 V (Proc.devRef .tc main_arg13) = V (Proc.devRef .tc main_arg13) :=
  (seg22_keep _ main_arg13 (by decide)).trans (sv22_main_arg13 V)
theorem sv23_main_arg14 (V : Valuation τ sig (Elt Ideal)) : sv23 V (Proc.devRef .tc main_arg14) = V (Proc.devRef .tc main_arg14) :=
  (seg22_keep _ main_arg14 (by decide)).trans (sv22_main_arg14 V)
theorem sv23_main_arg15 (V : Valuation τ sig (Elt Ideal)) : sv23 V (Proc.devRef .tc main_arg15) = V (Proc.devRef .tc main_arg15) :=
  (seg22_keep _ main_arg15 (by decide)).trans (sv22_main_arg15 V)
theorem sv23_main_arg16 (V : Valuation τ sig (Elt Ideal)) : sv23 V (Proc.devRef .tc main_arg16) = V (Proc.devRef .tc main_arg16) :=
  (seg22_keep _ main_arg16 (by decide)).trans (sv22_main_arg16 V)
theorem sv23_main_arg17 (V : Valuation τ sig (Elt Ideal)) : sv23 V (Proc.devRef .tc main_arg17) = V (Proc.devRef .tc main_arg17) :=
  (seg22_keep _ main_arg17 (by decide)).trans (sv22_main_arg17 V)
theorem sv23_main_arg18 (V : Valuation τ sig (Elt Ideal)) : sv23 V (Proc.devRef .tc main_arg18) = V (Proc.devRef .tc main_arg18) :=
  (seg22_keep _ main_arg18 (by decide)).trans (sv22_main_arg18 V)
theorem sv23_main_arg19 (V : Valuation τ sig (Elt Ideal)) : sv23 V (Proc.devRef .tc main_arg19) = V (Proc.devRef .tc main_arg19) :=
  (seg22_keep _ main_arg19 (by decide)).trans (sv22_main_arg19 V)
theorem sv23_main_arg20 (V : Valuation τ sig (Elt Ideal)) : sv23 V (Proc.devRef .tc main_arg20) = V (Proc.devRef .tc main_arg20) :=
  (seg22_keep _ main_arg20 (by decide)).trans (sv22_main_arg20 V)
theorem sv24_main_arg0 (V : Valuation τ sig (Elt Ideal)) : sv24 V (Proc.devRef .tc main_arg0) = V (Proc.devRef .tc main_arg0) :=
  (seg23_keep _ main_arg0 (by decide)).trans (sv23_main_arg0 V)
theorem sv24_main_arg1 (V : Valuation τ sig (Elt Ideal)) : sv24 V (Proc.devRef .tc main_arg1) = V (Proc.devRef .tc main_arg1) :=
  (seg23_keep _ main_arg1 (by decide)).trans (sv23_main_arg1 V)
theorem sv24_main_arg2 (V : Valuation τ sig (Elt Ideal)) : sv24 V (Proc.devRef .tc main_arg2) = V (Proc.devRef .tc main_arg2) :=
  (seg23_keep _ main_arg2 (by decide)).trans (sv23_main_arg2 V)
theorem sv24_main_arg3 (V : Valuation τ sig (Elt Ideal)) : sv24 V (Proc.devRef .tc main_arg3) = V (Proc.devRef .tc main_arg3) :=
  (seg23_keep _ main_arg3 (by decide)).trans (sv23_main_arg3 V)
theorem sv24_main_arg4 (V : Valuation τ sig (Elt Ideal)) : sv24 V (Proc.devRef .tc main_arg4) = V (Proc.devRef .tc main_arg4) :=
  (seg23_keep _ main_arg4 (by decide)).trans (sv23_main_arg4 V)
theorem sv24_main_arg5 (V : Valuation τ sig (Elt Ideal)) : sv24 V (Proc.devRef .tc main_arg5) = V (Proc.devRef .tc main_arg5) :=
  (seg23_keep _ main_arg5 (by decide)).trans (sv23_main_arg5 V)
theorem sv24_main_arg6 (V : Valuation τ sig (Elt Ideal)) : sv24 V (Proc.devRef .tc main_arg6) = V (Proc.devRef .tc main_arg6) :=
  (seg23_keep _ main_arg6 (by decide)).trans (sv23_main_arg6 V)
theorem sv24_main_arg7 (V : Valuation τ sig (Elt Ideal)) : sv24 V (Proc.devRef .tc main_arg7) = V (Proc.devRef .tc main_arg7) :=
  (seg23_keep _ main_arg7 (by decide)).trans (sv23_main_arg7 V)
theorem sv24_main_arg8 (V : Valuation τ sig (Elt Ideal)) : sv24 V (Proc.devRef .tc main_arg8) = V (Proc.devRef .tc main_arg8) :=
  (seg23_keep _ main_arg8 (by decide)).trans (sv23_main_arg8 V)
theorem sv24_main_arg9 (V : Valuation τ sig (Elt Ideal)) : sv24 V (Proc.devRef .tc main_arg9) = V (Proc.devRef .tc main_arg9) :=
  (seg23_keep _ main_arg9 (by decide)).trans (sv23_main_arg9 V)
theorem sv24_main_arg10 (V : Valuation τ sig (Elt Ideal)) : sv24 V (Proc.devRef .tc main_arg10) = V (Proc.devRef .tc main_arg10) :=
  (seg23_keep _ main_arg10 (by decide)).trans (sv23_main_arg10 V)
theorem sv24_main_arg11 (V : Valuation τ sig (Elt Ideal)) : sv24 V (Proc.devRef .tc main_arg11) = V (Proc.devRef .tc main_arg11) :=
  (seg23_keep _ main_arg11 (by decide)).trans (sv23_main_arg11 V)
theorem sv24_main_arg12 (V : Valuation τ sig (Elt Ideal)) : sv24 V (Proc.devRef .tc main_arg12) = V (Proc.devRef .tc main_arg12) :=
  (seg23_keep _ main_arg12 (by decide)).trans (sv23_main_arg12 V)
theorem sv24_main_arg13 (V : Valuation τ sig (Elt Ideal)) : sv24 V (Proc.devRef .tc main_arg13) = V (Proc.devRef .tc main_arg13) :=
  (seg23_keep _ main_arg13 (by decide)).trans (sv23_main_arg13 V)
theorem sv24_main_arg14 (V : Valuation τ sig (Elt Ideal)) : sv24 V (Proc.devRef .tc main_arg14) = V (Proc.devRef .tc main_arg14) :=
  (seg23_keep _ main_arg14 (by decide)).trans (sv23_main_arg14 V)
theorem sv24_main_arg15 (V : Valuation τ sig (Elt Ideal)) : sv24 V (Proc.devRef .tc main_arg15) = V (Proc.devRef .tc main_arg15) :=
  (seg23_keep _ main_arg15 (by decide)).trans (sv23_main_arg15 V)
theorem sv24_main_arg16 (V : Valuation τ sig (Elt Ideal)) : sv24 V (Proc.devRef .tc main_arg16) = V (Proc.devRef .tc main_arg16) :=
  (seg23_keep _ main_arg16 (by decide)).trans (sv23_main_arg16 V)
theorem sv24_main_arg17 (V : Valuation τ sig (Elt Ideal)) : sv24 V (Proc.devRef .tc main_arg17) = V (Proc.devRef .tc main_arg17) :=
  (seg23_keep _ main_arg17 (by decide)).trans (sv23_main_arg17 V)
theorem sv24_main_arg18 (V : Valuation τ sig (Elt Ideal)) : sv24 V (Proc.devRef .tc main_arg18) = V (Proc.devRef .tc main_arg18) :=
  (seg23_keep _ main_arg18 (by decide)).trans (sv23_main_arg18 V)
theorem sv24_main_arg19 (V : Valuation τ sig (Elt Ideal)) : sv24 V (Proc.devRef .tc main_arg19) = V (Proc.devRef .tc main_arg19) :=
  (seg23_keep _ main_arg19 (by decide)).trans (sv23_main_arg19 V)
theorem sv24_main_arg20 (V : Valuation τ sig (Elt Ideal)) : sv24 V (Proc.devRef .tc main_arg20) = V (Proc.devRef .tc main_arg20) :=
  (seg23_keep _ main_arg20 (by decide)).trans (sv23_main_arg20 V)
theorem sv25_main_arg0 (V : Valuation τ sig (Elt Ideal)) : sv25 V (Proc.devRef .tc main_arg0) = V (Proc.devRef .tc main_arg0) :=
  (seg24_keep _ main_arg0 (by decide)).trans (sv24_main_arg0 V)
theorem sv25_main_arg1 (V : Valuation τ sig (Elt Ideal)) : sv25 V (Proc.devRef .tc main_arg1) = V (Proc.devRef .tc main_arg1) :=
  (seg24_keep _ main_arg1 (by decide)).trans (sv24_main_arg1 V)
theorem sv25_main_arg2 (V : Valuation τ sig (Elt Ideal)) : sv25 V (Proc.devRef .tc main_arg2) = V (Proc.devRef .tc main_arg2) :=
  (seg24_keep _ main_arg2 (by decide)).trans (sv24_main_arg2 V)
theorem sv25_main_arg3 (V : Valuation τ sig (Elt Ideal)) : sv25 V (Proc.devRef .tc main_arg3) = V (Proc.devRef .tc main_arg3) :=
  (seg24_keep _ main_arg3 (by decide)).trans (sv24_main_arg3 V)
theorem sv25_main_arg4 (V : Valuation τ sig (Elt Ideal)) : sv25 V (Proc.devRef .tc main_arg4) = V (Proc.devRef .tc main_arg4) :=
  (seg24_keep _ main_arg4 (by decide)).trans (sv24_main_arg4 V)
theorem sv25_main_arg5 (V : Valuation τ sig (Elt Ideal)) : sv25 V (Proc.devRef .tc main_arg5) = V (Proc.devRef .tc main_arg5) :=
  (seg24_keep _ main_arg5 (by decide)).trans (sv24_main_arg5 V)
theorem sv25_main_arg6 (V : Valuation τ sig (Elt Ideal)) : sv25 V (Proc.devRef .tc main_arg6) = V (Proc.devRef .tc main_arg6) :=
  (seg24_keep _ main_arg6 (by decide)).trans (sv24_main_arg6 V)
theorem sv25_main_arg7 (V : Valuation τ sig (Elt Ideal)) : sv25 V (Proc.devRef .tc main_arg7) = V (Proc.devRef .tc main_arg7) :=
  (seg24_keep _ main_arg7 (by decide)).trans (sv24_main_arg7 V)
theorem sv25_main_arg8 (V : Valuation τ sig (Elt Ideal)) : sv25 V (Proc.devRef .tc main_arg8) = V (Proc.devRef .tc main_arg8) :=
  (seg24_keep _ main_arg8 (by decide)).trans (sv24_main_arg8 V)
theorem sv25_main_arg9 (V : Valuation τ sig (Elt Ideal)) : sv25 V (Proc.devRef .tc main_arg9) = V (Proc.devRef .tc main_arg9) :=
  (seg24_keep _ main_arg9 (by decide)).trans (sv24_main_arg9 V)
theorem sv25_main_arg10 (V : Valuation τ sig (Elt Ideal)) : sv25 V (Proc.devRef .tc main_arg10) = V (Proc.devRef .tc main_arg10) :=
  (seg24_keep _ main_arg10 (by decide)).trans (sv24_main_arg10 V)
theorem sv25_main_arg11 (V : Valuation τ sig (Elt Ideal)) : sv25 V (Proc.devRef .tc main_arg11) = V (Proc.devRef .tc main_arg11) :=
  (seg24_keep _ main_arg11 (by decide)).trans (sv24_main_arg11 V)
theorem sv25_main_arg12 (V : Valuation τ sig (Elt Ideal)) : sv25 V (Proc.devRef .tc main_arg12) = V (Proc.devRef .tc main_arg12) :=
  (seg24_keep _ main_arg12 (by decide)).trans (sv24_main_arg12 V)
theorem sv25_main_arg13 (V : Valuation τ sig (Elt Ideal)) : sv25 V (Proc.devRef .tc main_arg13) = V (Proc.devRef .tc main_arg13) :=
  (seg24_keep _ main_arg13 (by decide)).trans (sv24_main_arg13 V)
theorem sv25_main_arg14 (V : Valuation τ sig (Elt Ideal)) : sv25 V (Proc.devRef .tc main_arg14) = V (Proc.devRef .tc main_arg14) :=
  (seg24_keep _ main_arg14 (by decide)).trans (sv24_main_arg14 V)
theorem sv25_main_arg15 (V : Valuation τ sig (Elt Ideal)) : sv25 V (Proc.devRef .tc main_arg15) = V (Proc.devRef .tc main_arg15) :=
  (seg24_keep _ main_arg15 (by decide)).trans (sv24_main_arg15 V)
theorem sv25_main_arg16 (V : Valuation τ sig (Elt Ideal)) : sv25 V (Proc.devRef .tc main_arg16) = V (Proc.devRef .tc main_arg16) :=
  (seg24_keep _ main_arg16 (by decide)).trans (sv24_main_arg16 V)
theorem sv25_main_arg17 (V : Valuation τ sig (Elt Ideal)) : sv25 V (Proc.devRef .tc main_arg17) = V (Proc.devRef .tc main_arg17) :=
  (seg24_keep _ main_arg17 (by decide)).trans (sv24_main_arg17 V)
theorem sv25_main_arg18 (V : Valuation τ sig (Elt Ideal)) : sv25 V (Proc.devRef .tc main_arg18) = V (Proc.devRef .tc main_arg18) :=
  (seg24_keep _ main_arg18 (by decide)).trans (sv24_main_arg18 V)
theorem sv25_main_arg19 (V : Valuation τ sig (Elt Ideal)) : sv25 V (Proc.devRef .tc main_arg19) = V (Proc.devRef .tc main_arg19) :=
  (seg24_keep _ main_arg19 (by decide)).trans (sv24_main_arg19 V)
theorem sv25_main_arg20 (V : Valuation τ sig (Elt Ideal)) : sv25 V (Proc.devRef .tc main_arg20) = V (Proc.devRef .tc main_arg20) :=
  (seg24_keep _ main_arg20 (by decide)).trans (sv24_main_arg20 V)
theorem sv26_main_arg0 (V : Valuation τ sig (Elt Ideal)) : sv26 V (Proc.devRef .tc main_arg0) = V (Proc.devRef .tc main_arg0) :=
  (seg25_keep _ main_arg0 (by decide)).trans (sv25_main_arg0 V)
theorem sv26_main_arg1 (V : Valuation τ sig (Elt Ideal)) : sv26 V (Proc.devRef .tc main_arg1) = V (Proc.devRef .tc main_arg1) :=
  (seg25_keep _ main_arg1 (by decide)).trans (sv25_main_arg1 V)
theorem sv26_main_arg2 (V : Valuation τ sig (Elt Ideal)) : sv26 V (Proc.devRef .tc main_arg2) = V (Proc.devRef .tc main_arg2) :=
  (seg25_keep _ main_arg2 (by decide)).trans (sv25_main_arg2 V)
theorem sv26_main_arg3 (V : Valuation τ sig (Elt Ideal)) : sv26 V (Proc.devRef .tc main_arg3) = V (Proc.devRef .tc main_arg3) :=
  (seg25_keep _ main_arg3 (by decide)).trans (sv25_main_arg3 V)
theorem sv26_main_arg4 (V : Valuation τ sig (Elt Ideal)) : sv26 V (Proc.devRef .tc main_arg4) = V (Proc.devRef .tc main_arg4) :=
  (seg25_keep _ main_arg4 (by decide)).trans (sv25_main_arg4 V)
theorem sv26_main_arg5 (V : Valuation τ sig (Elt Ideal)) : sv26 V (Proc.devRef .tc main_arg5) = V (Proc.devRef .tc main_arg5) :=
  (seg25_keep _ main_arg5 (by decide)).trans (sv25_main_arg5 V)
theorem sv26_main_arg6 (V : Valuation τ sig (Elt Ideal)) : sv26 V (Proc.devRef .tc main_arg6) = V (Proc.devRef .tc main_arg6) :=
  (seg25_keep _ main_arg6 (by decide)).trans (sv25_main_arg6 V)
theorem sv26_main_arg7 (V : Valuation τ sig (Elt Ideal)) : sv26 V (Proc.devRef .tc main_arg7) = V (Proc.devRef .tc main_arg7) :=
  (seg25_keep _ main_arg7 (by decide)).trans (sv25_main_arg7 V)
theorem sv26_main_arg8 (V : Valuation τ sig (Elt Ideal)) : sv26 V (Proc.devRef .tc main_arg8) = V (Proc.devRef .tc main_arg8) :=
  (seg25_keep _ main_arg8 (by decide)).trans (sv25_main_arg8 V)
theorem sv26_main_arg9 (V : Valuation τ sig (Elt Ideal)) : sv26 V (Proc.devRef .tc main_arg9) = V (Proc.devRef .tc main_arg9) :=
  (seg25_keep _ main_arg9 (by decide)).trans (sv25_main_arg9 V)
theorem sv26_main_arg10 (V : Valuation τ sig (Elt Ideal)) : sv26 V (Proc.devRef .tc main_arg10) = V (Proc.devRef .tc main_arg10) :=
  (seg25_keep _ main_arg10 (by decide)).trans (sv25_main_arg10 V)
theorem sv26_main_arg11 (V : Valuation τ sig (Elt Ideal)) : sv26 V (Proc.devRef .tc main_arg11) = V (Proc.devRef .tc main_arg11) :=
  (seg25_keep _ main_arg11 (by decide)).trans (sv25_main_arg11 V)
theorem sv26_main_arg12 (V : Valuation τ sig (Elt Ideal)) : sv26 V (Proc.devRef .tc main_arg12) = V (Proc.devRef .tc main_arg12) :=
  (seg25_keep _ main_arg12 (by decide)).trans (sv25_main_arg12 V)
theorem sv26_main_arg13 (V : Valuation τ sig (Elt Ideal)) : sv26 V (Proc.devRef .tc main_arg13) = V (Proc.devRef .tc main_arg13) :=
  (seg25_keep _ main_arg13 (by decide)).trans (sv25_main_arg13 V)
theorem sv26_main_arg14 (V : Valuation τ sig (Elt Ideal)) : sv26 V (Proc.devRef .tc main_arg14) = V (Proc.devRef .tc main_arg14) :=
  (seg25_keep _ main_arg14 (by decide)).trans (sv25_main_arg14 V)
theorem sv26_main_arg15 (V : Valuation τ sig (Elt Ideal)) : sv26 V (Proc.devRef .tc main_arg15) = V (Proc.devRef .tc main_arg15) :=
  (seg25_keep _ main_arg15 (by decide)).trans (sv25_main_arg15 V)
theorem sv26_main_arg16 (V : Valuation τ sig (Elt Ideal)) : sv26 V (Proc.devRef .tc main_arg16) = V (Proc.devRef .tc main_arg16) :=
  (seg25_keep _ main_arg16 (by decide)).trans (sv25_main_arg16 V)
theorem sv26_main_arg17 (V : Valuation τ sig (Elt Ideal)) : sv26 V (Proc.devRef .tc main_arg17) = V (Proc.devRef .tc main_arg17) :=
  (seg25_keep _ main_arg17 (by decide)).trans (sv25_main_arg17 V)
theorem sv26_main_arg18 (V : Valuation τ sig (Elt Ideal)) : sv26 V (Proc.devRef .tc main_arg18) = V (Proc.devRef .tc main_arg18) :=
  (seg25_keep _ main_arg18 (by decide)).trans (sv25_main_arg18 V)
theorem sv26_main_arg19 (V : Valuation τ sig (Elt Ideal)) : sv26 V (Proc.devRef .tc main_arg19) = V (Proc.devRef .tc main_arg19) :=
  (seg25_keep _ main_arg19 (by decide)).trans (sv25_main_arg19 V)
theorem sv26_main_arg20 (V : Valuation τ sig (Elt Ideal)) : sv26 V (Proc.devRef .tc main_arg20) = V (Proc.devRef .tc main_arg20) :=
  (seg25_keep _ main_arg20 (by decide)).trans (sv25_main_arg20 V)
theorem sv27_main_arg0 (V : Valuation τ sig (Elt Ideal)) : sv27 V (Proc.devRef .tc main_arg0) = V (Proc.devRef .tc main_arg0) :=
  (seg26_keep _ main_arg0 (by decide)).trans (sv26_main_arg0 V)
theorem sv27_main_arg1 (V : Valuation τ sig (Elt Ideal)) : sv27 V (Proc.devRef .tc main_arg1) = V (Proc.devRef .tc main_arg1) :=
  (seg26_keep _ main_arg1 (by decide)).trans (sv26_main_arg1 V)
theorem sv27_main_arg2 (V : Valuation τ sig (Elt Ideal)) : sv27 V (Proc.devRef .tc main_arg2) = V (Proc.devRef .tc main_arg2) :=
  (seg26_keep _ main_arg2 (by decide)).trans (sv26_main_arg2 V)
theorem sv27_main_arg3 (V : Valuation τ sig (Elt Ideal)) : sv27 V (Proc.devRef .tc main_arg3) = V (Proc.devRef .tc main_arg3) :=
  (seg26_keep _ main_arg3 (by decide)).trans (sv26_main_arg3 V)
theorem sv27_main_arg4 (V : Valuation τ sig (Elt Ideal)) : sv27 V (Proc.devRef .tc main_arg4) = V (Proc.devRef .tc main_arg4) :=
  (seg26_keep _ main_arg4 (by decide)).trans (sv26_main_arg4 V)
theorem sv27_main_arg5 (V : Valuation τ sig (Elt Ideal)) : sv27 V (Proc.devRef .tc main_arg5) = V (Proc.devRef .tc main_arg5) :=
  (seg26_keep _ main_arg5 (by decide)).trans (sv26_main_arg5 V)
theorem sv27_main_arg6 (V : Valuation τ sig (Elt Ideal)) : sv27 V (Proc.devRef .tc main_arg6) = V (Proc.devRef .tc main_arg6) :=
  (seg26_keep _ main_arg6 (by decide)).trans (sv26_main_arg6 V)
theorem sv27_main_arg7 (V : Valuation τ sig (Elt Ideal)) : sv27 V (Proc.devRef .tc main_arg7) = V (Proc.devRef .tc main_arg7) :=
  (seg26_keep _ main_arg7 (by decide)).trans (sv26_main_arg7 V)
theorem sv27_main_arg8 (V : Valuation τ sig (Elt Ideal)) : sv27 V (Proc.devRef .tc main_arg8) = V (Proc.devRef .tc main_arg8) :=
  (seg26_keep _ main_arg8 (by decide)).trans (sv26_main_arg8 V)
theorem sv27_main_arg9 (V : Valuation τ sig (Elt Ideal)) : sv27 V (Proc.devRef .tc main_arg9) = V (Proc.devRef .tc main_arg9) :=
  (seg26_keep _ main_arg9 (by decide)).trans (sv26_main_arg9 V)
theorem sv27_main_arg10 (V : Valuation τ sig (Elt Ideal)) : sv27 V (Proc.devRef .tc main_arg10) = V (Proc.devRef .tc main_arg10) :=
  (seg26_keep _ main_arg10 (by decide)).trans (sv26_main_arg10 V)
theorem sv27_main_arg11 (V : Valuation τ sig (Elt Ideal)) : sv27 V (Proc.devRef .tc main_arg11) = V (Proc.devRef .tc main_arg11) :=
  (seg26_keep _ main_arg11 (by decide)).trans (sv26_main_arg11 V)
theorem sv27_main_arg12 (V : Valuation τ sig (Elt Ideal)) : sv27 V (Proc.devRef .tc main_arg12) = V (Proc.devRef .tc main_arg12) :=
  (seg26_keep _ main_arg12 (by decide)).trans (sv26_main_arg12 V)
theorem sv27_main_arg13 (V : Valuation τ sig (Elt Ideal)) : sv27 V (Proc.devRef .tc main_arg13) = V (Proc.devRef .tc main_arg13) :=
  (seg26_keep _ main_arg13 (by decide)).trans (sv26_main_arg13 V)
theorem sv27_main_arg14 (V : Valuation τ sig (Elt Ideal)) : sv27 V (Proc.devRef .tc main_arg14) = V (Proc.devRef .tc main_arg14) :=
  (seg26_keep _ main_arg14 (by decide)).trans (sv26_main_arg14 V)
theorem sv27_main_arg15 (V : Valuation τ sig (Elt Ideal)) : sv27 V (Proc.devRef .tc main_arg15) = V (Proc.devRef .tc main_arg15) :=
  (seg26_keep _ main_arg15 (by decide)).trans (sv26_main_arg15 V)
theorem sv27_main_arg16 (V : Valuation τ sig (Elt Ideal)) : sv27 V (Proc.devRef .tc main_arg16) = V (Proc.devRef .tc main_arg16) :=
  (seg26_keep _ main_arg16 (by decide)).trans (sv26_main_arg16 V)
theorem sv27_main_arg17 (V : Valuation τ sig (Elt Ideal)) : sv27 V (Proc.devRef .tc main_arg17) = V (Proc.devRef .tc main_arg17) :=
  (seg26_keep _ main_arg17 (by decide)).trans (sv26_main_arg17 V)
theorem sv27_main_arg18 (V : Valuation τ sig (Elt Ideal)) : sv27 V (Proc.devRef .tc main_arg18) = V (Proc.devRef .tc main_arg18) :=
  (seg26_keep _ main_arg18 (by decide)).trans (sv26_main_arg18 V)
theorem sv27_main_arg19 (V : Valuation τ sig (Elt Ideal)) : sv27 V (Proc.devRef .tc main_arg19) = V (Proc.devRef .tc main_arg19) :=
  (seg26_keep _ main_arg19 (by decide)).trans (sv26_main_arg19 V)
theorem sv27_main_arg20 (V : Valuation τ sig (Elt Ideal)) : sv27 V (Proc.devRef .tc main_arg20) = V (Proc.devRef .tc main_arg20) :=
  (seg26_keep _ main_arg20 (by decide)).trans (sv26_main_arg20 V)
theorem sv28_main_arg0 (V : Valuation τ sig (Elt Ideal)) : sv28 V (Proc.devRef .tc main_arg0) = V (Proc.devRef .tc main_arg0) :=
  (seg27_keep _ main_arg0 (by decide)).trans (sv27_main_arg0 V)
theorem sv28_main_arg1 (V : Valuation τ sig (Elt Ideal)) : sv28 V (Proc.devRef .tc main_arg1) = V (Proc.devRef .tc main_arg1) :=
  (seg27_keep _ main_arg1 (by decide)).trans (sv27_main_arg1 V)
theorem sv28_main_arg2 (V : Valuation τ sig (Elt Ideal)) : sv28 V (Proc.devRef .tc main_arg2) = V (Proc.devRef .tc main_arg2) :=
  (seg27_keep _ main_arg2 (by decide)).trans (sv27_main_arg2 V)
theorem sv28_main_arg3 (V : Valuation τ sig (Elt Ideal)) : sv28 V (Proc.devRef .tc main_arg3) = V (Proc.devRef .tc main_arg3) :=
  (seg27_keep _ main_arg3 (by decide)).trans (sv27_main_arg3 V)
theorem sv28_main_arg4 (V : Valuation τ sig (Elt Ideal)) : sv28 V (Proc.devRef .tc main_arg4) = V (Proc.devRef .tc main_arg4) :=
  (seg27_keep _ main_arg4 (by decide)).trans (sv27_main_arg4 V)
theorem sv28_main_arg5 (V : Valuation τ sig (Elt Ideal)) : sv28 V (Proc.devRef .tc main_arg5) = V (Proc.devRef .tc main_arg5) :=
  (seg27_keep _ main_arg5 (by decide)).trans (sv27_main_arg5 V)
theorem sv28_main_arg6 (V : Valuation τ sig (Elt Ideal)) : sv28 V (Proc.devRef .tc main_arg6) = V (Proc.devRef .tc main_arg6) :=
  (seg27_keep _ main_arg6 (by decide)).trans (sv27_main_arg6 V)
theorem sv28_main_arg7 (V : Valuation τ sig (Elt Ideal)) : sv28 V (Proc.devRef .tc main_arg7) = V (Proc.devRef .tc main_arg7) :=
  (seg27_keep _ main_arg7 (by decide)).trans (sv27_main_arg7 V)
theorem sv28_main_arg8 (V : Valuation τ sig (Elt Ideal)) : sv28 V (Proc.devRef .tc main_arg8) = V (Proc.devRef .tc main_arg8) :=
  (seg27_keep _ main_arg8 (by decide)).trans (sv27_main_arg8 V)
theorem sv28_main_arg9 (V : Valuation τ sig (Elt Ideal)) : sv28 V (Proc.devRef .tc main_arg9) = V (Proc.devRef .tc main_arg9) :=
  (seg27_keep _ main_arg9 (by decide)).trans (sv27_main_arg9 V)
theorem sv28_main_arg10 (V : Valuation τ sig (Elt Ideal)) : sv28 V (Proc.devRef .tc main_arg10) = V (Proc.devRef .tc main_arg10) :=
  (seg27_keep _ main_arg10 (by decide)).trans (sv27_main_arg10 V)
theorem sv28_main_arg11 (V : Valuation τ sig (Elt Ideal)) : sv28 V (Proc.devRef .tc main_arg11) = V (Proc.devRef .tc main_arg11) :=
  (seg27_keep _ main_arg11 (by decide)).trans (sv27_main_arg11 V)
theorem sv28_main_arg12 (V : Valuation τ sig (Elt Ideal)) : sv28 V (Proc.devRef .tc main_arg12) = V (Proc.devRef .tc main_arg12) :=
  (seg27_keep _ main_arg12 (by decide)).trans (sv27_main_arg12 V)
theorem sv28_main_arg13 (V : Valuation τ sig (Elt Ideal)) : sv28 V (Proc.devRef .tc main_arg13) = V (Proc.devRef .tc main_arg13) :=
  (seg27_keep _ main_arg13 (by decide)).trans (sv27_main_arg13 V)
theorem sv28_main_arg14 (V : Valuation τ sig (Elt Ideal)) : sv28 V (Proc.devRef .tc main_arg14) = V (Proc.devRef .tc main_arg14) :=
  (seg27_keep _ main_arg14 (by decide)).trans (sv27_main_arg14 V)
theorem sv28_main_arg15 (V : Valuation τ sig (Elt Ideal)) : sv28 V (Proc.devRef .tc main_arg15) = V (Proc.devRef .tc main_arg15) :=
  (seg27_keep _ main_arg15 (by decide)).trans (sv27_main_arg15 V)
theorem sv28_main_arg16 (V : Valuation τ sig (Elt Ideal)) : sv28 V (Proc.devRef .tc main_arg16) = V (Proc.devRef .tc main_arg16) :=
  (seg27_keep _ main_arg16 (by decide)).trans (sv27_main_arg16 V)
theorem sv28_main_arg17 (V : Valuation τ sig (Elt Ideal)) : sv28 V (Proc.devRef .tc main_arg17) = V (Proc.devRef .tc main_arg17) :=
  (seg27_keep _ main_arg17 (by decide)).trans (sv27_main_arg17 V)
theorem sv28_main_arg18 (V : Valuation τ sig (Elt Ideal)) : sv28 V (Proc.devRef .tc main_arg18) = V (Proc.devRef .tc main_arg18) :=
  (seg27_keep _ main_arg18 (by decide)).trans (sv27_main_arg18 V)
theorem sv28_main_arg19 (V : Valuation τ sig (Elt Ideal)) : sv28 V (Proc.devRef .tc main_arg19) = V (Proc.devRef .tc main_arg19) :=
  (seg27_keep _ main_arg19 (by decide)).trans (sv27_main_arg19 V)
theorem sv28_main_arg20 (V : Valuation τ sig (Elt Ideal)) : sv28 V (Proc.devRef .tc main_arg20) = V (Proc.devRef .tc main_arg20) :=
  (seg27_keep _ main_arg20 (by decide)).trans (sv27_main_arg20 V)
theorem sv29_main_arg0 (V : Valuation τ sig (Elt Ideal)) : sv29 V (Proc.devRef .tc main_arg0) = V (Proc.devRef .tc main_arg0) :=
  (seg28_keep _ main_arg0 (by decide)).trans (sv28_main_arg0 V)
theorem sv29_main_arg1 (V : Valuation τ sig (Elt Ideal)) : sv29 V (Proc.devRef .tc main_arg1) = V (Proc.devRef .tc main_arg1) :=
  (seg28_keep _ main_arg1 (by decide)).trans (sv28_main_arg1 V)
theorem sv29_main_arg2 (V : Valuation τ sig (Elt Ideal)) : sv29 V (Proc.devRef .tc main_arg2) = V (Proc.devRef .tc main_arg2) :=
  (seg28_keep _ main_arg2 (by decide)).trans (sv28_main_arg2 V)
theorem sv29_main_arg3 (V : Valuation τ sig (Elt Ideal)) : sv29 V (Proc.devRef .tc main_arg3) = V (Proc.devRef .tc main_arg3) :=
  (seg28_keep _ main_arg3 (by decide)).trans (sv28_main_arg3 V)
theorem sv29_main_arg4 (V : Valuation τ sig (Elt Ideal)) : sv29 V (Proc.devRef .tc main_arg4) = V (Proc.devRef .tc main_arg4) :=
  (seg28_keep _ main_arg4 (by decide)).trans (sv28_main_arg4 V)
theorem sv29_main_arg5 (V : Valuation τ sig (Elt Ideal)) : sv29 V (Proc.devRef .tc main_arg5) = V (Proc.devRef .tc main_arg5) :=
  (seg28_keep _ main_arg5 (by decide)).trans (sv28_main_arg5 V)
theorem sv29_main_arg6 (V : Valuation τ sig (Elt Ideal)) : sv29 V (Proc.devRef .tc main_arg6) = V (Proc.devRef .tc main_arg6) :=
  (seg28_keep _ main_arg6 (by decide)).trans (sv28_main_arg6 V)
theorem sv29_main_arg7 (V : Valuation τ sig (Elt Ideal)) : sv29 V (Proc.devRef .tc main_arg7) = V (Proc.devRef .tc main_arg7) :=
  (seg28_keep _ main_arg7 (by decide)).trans (sv28_main_arg7 V)
theorem sv29_main_arg8 (V : Valuation τ sig (Elt Ideal)) : sv29 V (Proc.devRef .tc main_arg8) = V (Proc.devRef .tc main_arg8) :=
  (seg28_keep _ main_arg8 (by decide)).trans (sv28_main_arg8 V)
theorem sv29_main_arg9 (V : Valuation τ sig (Elt Ideal)) : sv29 V (Proc.devRef .tc main_arg9) = V (Proc.devRef .tc main_arg9) :=
  (seg28_keep _ main_arg9 (by decide)).trans (sv28_main_arg9 V)
theorem sv29_main_arg10 (V : Valuation τ sig (Elt Ideal)) : sv29 V (Proc.devRef .tc main_arg10) = V (Proc.devRef .tc main_arg10) :=
  (seg28_keep _ main_arg10 (by decide)).trans (sv28_main_arg10 V)
theorem sv29_main_arg11 (V : Valuation τ sig (Elt Ideal)) : sv29 V (Proc.devRef .tc main_arg11) = V (Proc.devRef .tc main_arg11) :=
  (seg28_keep _ main_arg11 (by decide)).trans (sv28_main_arg11 V)
theorem sv29_main_arg12 (V : Valuation τ sig (Elt Ideal)) : sv29 V (Proc.devRef .tc main_arg12) = V (Proc.devRef .tc main_arg12) :=
  (seg28_keep _ main_arg12 (by decide)).trans (sv28_main_arg12 V)
theorem sv29_main_arg13 (V : Valuation τ sig (Elt Ideal)) : sv29 V (Proc.devRef .tc main_arg13) = V (Proc.devRef .tc main_arg13) :=
  (seg28_keep _ main_arg13 (by decide)).trans (sv28_main_arg13 V)
theorem sv29_main_arg14 (V : Valuation τ sig (Elt Ideal)) : sv29 V (Proc.devRef .tc main_arg14) = V (Proc.devRef .tc main_arg14) :=
  (seg28_keep _ main_arg14 (by decide)).trans (sv28_main_arg14 V)
theorem sv29_main_arg15 (V : Valuation τ sig (Elt Ideal)) : sv29 V (Proc.devRef .tc main_arg15) = V (Proc.devRef .tc main_arg15) :=
  (seg28_keep _ main_arg15 (by decide)).trans (sv28_main_arg15 V)
theorem sv29_main_arg16 (V : Valuation τ sig (Elt Ideal)) : sv29 V (Proc.devRef .tc main_arg16) = V (Proc.devRef .tc main_arg16) :=
  (seg28_keep _ main_arg16 (by decide)).trans (sv28_main_arg16 V)
theorem sv29_main_arg17 (V : Valuation τ sig (Elt Ideal)) : sv29 V (Proc.devRef .tc main_arg17) = V (Proc.devRef .tc main_arg17) :=
  (seg28_keep _ main_arg17 (by decide)).trans (sv28_main_arg17 V)
theorem sv29_main_arg18 (V : Valuation τ sig (Elt Ideal)) : sv29 V (Proc.devRef .tc main_arg18) = V (Proc.devRef .tc main_arg18) :=
  (seg28_keep _ main_arg18 (by decide)).trans (sv28_main_arg18 V)
theorem sv29_main_arg19 (V : Valuation τ sig (Elt Ideal)) : sv29 V (Proc.devRef .tc main_arg19) = V (Proc.devRef .tc main_arg19) :=
  (seg28_keep _ main_arg19 (by decide)).trans (sv28_main_arg19 V)
theorem sv29_main_arg20 (V : Valuation τ sig (Elt Ideal)) : sv29 V (Proc.devRef .tc main_arg20) = V (Proc.devRef .tc main_arg20) :=
  (seg28_keep _ main_arg20 (by decide)).trans (sv28_main_arg20 V)
theorem sv30_main_arg0 (V : Valuation τ sig (Elt Ideal)) : sv30 V (Proc.devRef .tc main_arg0) = V (Proc.devRef .tc main_arg0) :=
  (seg29_keep _ main_arg0 (by decide)).trans (sv29_main_arg0 V)
theorem sv30_main_arg1 (V : Valuation τ sig (Elt Ideal)) : sv30 V (Proc.devRef .tc main_arg1) = V (Proc.devRef .tc main_arg1) :=
  (seg29_keep _ main_arg1 (by decide)).trans (sv29_main_arg1 V)
theorem sv30_main_arg2 (V : Valuation τ sig (Elt Ideal)) : sv30 V (Proc.devRef .tc main_arg2) = V (Proc.devRef .tc main_arg2) :=
  (seg29_keep _ main_arg2 (by decide)).trans (sv29_main_arg2 V)
theorem sv30_main_arg3 (V : Valuation τ sig (Elt Ideal)) : sv30 V (Proc.devRef .tc main_arg3) = V (Proc.devRef .tc main_arg3) :=
  (seg29_keep _ main_arg3 (by decide)).trans (sv29_main_arg3 V)
theorem sv30_main_arg4 (V : Valuation τ sig (Elt Ideal)) : sv30 V (Proc.devRef .tc main_arg4) = V (Proc.devRef .tc main_arg4) :=
  (seg29_keep _ main_arg4 (by decide)).trans (sv29_main_arg4 V)
theorem sv30_main_arg5 (V : Valuation τ sig (Elt Ideal)) : sv30 V (Proc.devRef .tc main_arg5) = V (Proc.devRef .tc main_arg5) :=
  (seg29_keep _ main_arg5 (by decide)).trans (sv29_main_arg5 V)
theorem sv30_main_arg6 (V : Valuation τ sig (Elt Ideal)) : sv30 V (Proc.devRef .tc main_arg6) = V (Proc.devRef .tc main_arg6) :=
  (seg29_keep _ main_arg6 (by decide)).trans (sv29_main_arg6 V)
theorem sv30_main_arg7 (V : Valuation τ sig (Elt Ideal)) : sv30 V (Proc.devRef .tc main_arg7) = V (Proc.devRef .tc main_arg7) :=
  (seg29_keep _ main_arg7 (by decide)).trans (sv29_main_arg7 V)
theorem sv30_main_arg8 (V : Valuation τ sig (Elt Ideal)) : sv30 V (Proc.devRef .tc main_arg8) = V (Proc.devRef .tc main_arg8) :=
  (seg29_keep _ main_arg8 (by decide)).trans (sv29_main_arg8 V)
theorem sv30_main_arg9 (V : Valuation τ sig (Elt Ideal)) : sv30 V (Proc.devRef .tc main_arg9) = V (Proc.devRef .tc main_arg9) :=
  (seg29_keep _ main_arg9 (by decide)).trans (sv29_main_arg9 V)
theorem sv30_main_arg10 (V : Valuation τ sig (Elt Ideal)) : sv30 V (Proc.devRef .tc main_arg10) = V (Proc.devRef .tc main_arg10) :=
  (seg29_keep _ main_arg10 (by decide)).trans (sv29_main_arg10 V)
theorem sv30_main_arg11 (V : Valuation τ sig (Elt Ideal)) : sv30 V (Proc.devRef .tc main_arg11) = V (Proc.devRef .tc main_arg11) :=
  (seg29_keep _ main_arg11 (by decide)).trans (sv29_main_arg11 V)
theorem sv30_main_arg12 (V : Valuation τ sig (Elt Ideal)) : sv30 V (Proc.devRef .tc main_arg12) = V (Proc.devRef .tc main_arg12) :=
  (seg29_keep _ main_arg12 (by decide)).trans (sv29_main_arg12 V)
theorem sv30_main_arg13 (V : Valuation τ sig (Elt Ideal)) : sv30 V (Proc.devRef .tc main_arg13) = V (Proc.devRef .tc main_arg13) :=
  (seg29_keep _ main_arg13 (by decide)).trans (sv29_main_arg13 V)
theorem sv30_main_arg14 (V : Valuation τ sig (Elt Ideal)) : sv30 V (Proc.devRef .tc main_arg14) = V (Proc.devRef .tc main_arg14) :=
  (seg29_keep _ main_arg14 (by decide)).trans (sv29_main_arg14 V)
theorem sv30_main_arg15 (V : Valuation τ sig (Elt Ideal)) : sv30 V (Proc.devRef .tc main_arg15) = V (Proc.devRef .tc main_arg15) :=
  (seg29_keep _ main_arg15 (by decide)).trans (sv29_main_arg15 V)
theorem sv30_main_arg16 (V : Valuation τ sig (Elt Ideal)) : sv30 V (Proc.devRef .tc main_arg16) = V (Proc.devRef .tc main_arg16) :=
  (seg29_keep _ main_arg16 (by decide)).trans (sv29_main_arg16 V)
theorem sv30_main_arg17 (V : Valuation τ sig (Elt Ideal)) : sv30 V (Proc.devRef .tc main_arg17) = V (Proc.devRef .tc main_arg17) :=
  (seg29_keep _ main_arg17 (by decide)).trans (sv29_main_arg17 V)
theorem sv30_main_arg18 (V : Valuation τ sig (Elt Ideal)) : sv30 V (Proc.devRef .tc main_arg18) = V (Proc.devRef .tc main_arg18) :=
  (seg29_keep _ main_arg18 (by decide)).trans (sv29_main_arg18 V)
theorem sv30_main_arg19 (V : Valuation τ sig (Elt Ideal)) : sv30 V (Proc.devRef .tc main_arg19) = V (Proc.devRef .tc main_arg19) :=
  (seg29_keep _ main_arg19 (by decide)).trans (sv29_main_arg19 V)
theorem sv30_main_arg20 (V : Valuation τ sig (Elt Ideal)) : sv30 V (Proc.devRef .tc main_arg20) = V (Proc.devRef .tc main_arg20) :=
  (seg29_keep _ main_arg20 (by decide)).trans (sv29_main_arg20 V)
theorem sv31_main_arg0 (V : Valuation τ sig (Elt Ideal)) : sv31 V (Proc.devRef .tc main_arg0) = V (Proc.devRef .tc main_arg0) :=
  (seg30_keep _ main_arg0 (by decide)).trans (sv30_main_arg0 V)
theorem sv31_main_arg1 (V : Valuation τ sig (Elt Ideal)) : sv31 V (Proc.devRef .tc main_arg1) = V (Proc.devRef .tc main_arg1) :=
  (seg30_keep _ main_arg1 (by decide)).trans (sv30_main_arg1 V)
theorem sv31_main_arg2 (V : Valuation τ sig (Elt Ideal)) : sv31 V (Proc.devRef .tc main_arg2) = V (Proc.devRef .tc main_arg2) :=
  (seg30_keep _ main_arg2 (by decide)).trans (sv30_main_arg2 V)
theorem sv31_main_arg3 (V : Valuation τ sig (Elt Ideal)) : sv31 V (Proc.devRef .tc main_arg3) = V (Proc.devRef .tc main_arg3) :=
  (seg30_keep _ main_arg3 (by decide)).trans (sv30_main_arg3 V)
theorem sv31_main_arg4 (V : Valuation τ sig (Elt Ideal)) : sv31 V (Proc.devRef .tc main_arg4) = V (Proc.devRef .tc main_arg4) :=
  (seg30_keep _ main_arg4 (by decide)).trans (sv30_main_arg4 V)
theorem sv31_main_arg5 (V : Valuation τ sig (Elt Ideal)) : sv31 V (Proc.devRef .tc main_arg5) = V (Proc.devRef .tc main_arg5) :=
  (seg30_keep _ main_arg5 (by decide)).trans (sv30_main_arg5 V)
theorem sv31_main_arg6 (V : Valuation τ sig (Elt Ideal)) : sv31 V (Proc.devRef .tc main_arg6) = V (Proc.devRef .tc main_arg6) :=
  (seg30_keep _ main_arg6 (by decide)).trans (sv30_main_arg6 V)
theorem sv31_main_arg7 (V : Valuation τ sig (Elt Ideal)) : sv31 V (Proc.devRef .tc main_arg7) = V (Proc.devRef .tc main_arg7) :=
  (seg30_keep _ main_arg7 (by decide)).trans (sv30_main_arg7 V)
theorem sv31_main_arg8 (V : Valuation τ sig (Elt Ideal)) : sv31 V (Proc.devRef .tc main_arg8) = V (Proc.devRef .tc main_arg8) :=
  (seg30_keep _ main_arg8 (by decide)).trans (sv30_main_arg8 V)
theorem sv31_main_arg9 (V : Valuation τ sig (Elt Ideal)) : sv31 V (Proc.devRef .tc main_arg9) = V (Proc.devRef .tc main_arg9) :=
  (seg30_keep _ main_arg9 (by decide)).trans (sv30_main_arg9 V)
theorem sv31_main_arg10 (V : Valuation τ sig (Elt Ideal)) : sv31 V (Proc.devRef .tc main_arg10) = V (Proc.devRef .tc main_arg10) :=
  (seg30_keep _ main_arg10 (by decide)).trans (sv30_main_arg10 V)
theorem sv31_main_arg11 (V : Valuation τ sig (Elt Ideal)) : sv31 V (Proc.devRef .tc main_arg11) = V (Proc.devRef .tc main_arg11) :=
  (seg30_keep _ main_arg11 (by decide)).trans (sv30_main_arg11 V)
theorem sv31_main_arg12 (V : Valuation τ sig (Elt Ideal)) : sv31 V (Proc.devRef .tc main_arg12) = V (Proc.devRef .tc main_arg12) :=
  (seg30_keep _ main_arg12 (by decide)).trans (sv30_main_arg12 V)
theorem sv31_main_arg13 (V : Valuation τ sig (Elt Ideal)) : sv31 V (Proc.devRef .tc main_arg13) = V (Proc.devRef .tc main_arg13) :=
  (seg30_keep _ main_arg13 (by decide)).trans (sv30_main_arg13 V)
theorem sv31_main_arg14 (V : Valuation τ sig (Elt Ideal)) : sv31 V (Proc.devRef .tc main_arg14) = V (Proc.devRef .tc main_arg14) :=
  (seg30_keep _ main_arg14 (by decide)).trans (sv30_main_arg14 V)
theorem sv31_main_arg15 (V : Valuation τ sig (Elt Ideal)) : sv31 V (Proc.devRef .tc main_arg15) = V (Proc.devRef .tc main_arg15) :=
  (seg30_keep _ main_arg15 (by decide)).trans (sv30_main_arg15 V)
theorem sv31_main_arg16 (V : Valuation τ sig (Elt Ideal)) : sv31 V (Proc.devRef .tc main_arg16) = V (Proc.devRef .tc main_arg16) :=
  (seg30_keep _ main_arg16 (by decide)).trans (sv30_main_arg16 V)
theorem sv31_main_arg17 (V : Valuation τ sig (Elt Ideal)) : sv31 V (Proc.devRef .tc main_arg17) = V (Proc.devRef .tc main_arg17) :=
  (seg30_keep _ main_arg17 (by decide)).trans (sv30_main_arg17 V)
theorem sv31_main_arg18 (V : Valuation τ sig (Elt Ideal)) : sv31 V (Proc.devRef .tc main_arg18) = V (Proc.devRef .tc main_arg18) :=
  (seg30_keep _ main_arg18 (by decide)).trans (sv30_main_arg18 V)
theorem sv31_main_arg19 (V : Valuation τ sig (Elt Ideal)) : sv31 V (Proc.devRef .tc main_arg19) = V (Proc.devRef .tc main_arg19) :=
  (seg30_keep _ main_arg19 (by decide)).trans (sv30_main_arg19 V)
theorem sv31_main_arg20 (V : Valuation τ sig (Elt Ideal)) : sv31 V (Proc.devRef .tc main_arg20) = V (Proc.devRef .tc main_arg20) :=
  (seg30_keep _ main_arg20 (by decide)).trans (sv30_main_arg20 V)
theorem sv32_main_arg0 (V : Valuation τ sig (Elt Ideal)) : sv32 V (Proc.devRef .tc main_arg0) = V (Proc.devRef .tc main_arg0) :=
  (seg31_keep _ main_arg0 (by decide)).trans (sv31_main_arg0 V)
theorem sv32_main_arg1 (V : Valuation τ sig (Elt Ideal)) : sv32 V (Proc.devRef .tc main_arg1) = V (Proc.devRef .tc main_arg1) :=
  (seg31_keep _ main_arg1 (by decide)).trans (sv31_main_arg1 V)
theorem sv32_main_arg2 (V : Valuation τ sig (Elt Ideal)) : sv32 V (Proc.devRef .tc main_arg2) = V (Proc.devRef .tc main_arg2) :=
  (seg31_keep _ main_arg2 (by decide)).trans (sv31_main_arg2 V)
theorem sv32_main_arg3 (V : Valuation τ sig (Elt Ideal)) : sv32 V (Proc.devRef .tc main_arg3) = V (Proc.devRef .tc main_arg3) :=
  (seg31_keep _ main_arg3 (by decide)).trans (sv31_main_arg3 V)
theorem sv32_main_arg4 (V : Valuation τ sig (Elt Ideal)) : sv32 V (Proc.devRef .tc main_arg4) = V (Proc.devRef .tc main_arg4) :=
  (seg31_keep _ main_arg4 (by decide)).trans (sv31_main_arg4 V)
theorem sv32_main_arg5 (V : Valuation τ sig (Elt Ideal)) : sv32 V (Proc.devRef .tc main_arg5) = V (Proc.devRef .tc main_arg5) :=
  (seg31_keep _ main_arg5 (by decide)).trans (sv31_main_arg5 V)
theorem sv32_main_arg6 (V : Valuation τ sig (Elt Ideal)) : sv32 V (Proc.devRef .tc main_arg6) = V (Proc.devRef .tc main_arg6) :=
  (seg31_keep _ main_arg6 (by decide)).trans (sv31_main_arg6 V)
theorem sv32_main_arg7 (V : Valuation τ sig (Elt Ideal)) : sv32 V (Proc.devRef .tc main_arg7) = V (Proc.devRef .tc main_arg7) :=
  (seg31_keep _ main_arg7 (by decide)).trans (sv31_main_arg7 V)
theorem sv32_main_arg8 (V : Valuation τ sig (Elt Ideal)) : sv32 V (Proc.devRef .tc main_arg8) = V (Proc.devRef .tc main_arg8) :=
  (seg31_keep _ main_arg8 (by decide)).trans (sv31_main_arg8 V)
theorem sv32_main_arg9 (V : Valuation τ sig (Elt Ideal)) : sv32 V (Proc.devRef .tc main_arg9) = V (Proc.devRef .tc main_arg9) :=
  (seg31_keep _ main_arg9 (by decide)).trans (sv31_main_arg9 V)
theorem sv32_main_arg10 (V : Valuation τ sig (Elt Ideal)) : sv32 V (Proc.devRef .tc main_arg10) = V (Proc.devRef .tc main_arg10) :=
  (seg31_keep _ main_arg10 (by decide)).trans (sv31_main_arg10 V)
theorem sv32_main_arg11 (V : Valuation τ sig (Elt Ideal)) : sv32 V (Proc.devRef .tc main_arg11) = V (Proc.devRef .tc main_arg11) :=
  (seg31_keep _ main_arg11 (by decide)).trans (sv31_main_arg11 V)
theorem sv32_main_arg12 (V : Valuation τ sig (Elt Ideal)) : sv32 V (Proc.devRef .tc main_arg12) = V (Proc.devRef .tc main_arg12) :=
  (seg31_keep _ main_arg12 (by decide)).trans (sv31_main_arg12 V)
theorem sv32_main_arg13 (V : Valuation τ sig (Elt Ideal)) : sv32 V (Proc.devRef .tc main_arg13) = V (Proc.devRef .tc main_arg13) :=
  (seg31_keep _ main_arg13 (by decide)).trans (sv31_main_arg13 V)
theorem sv32_main_arg14 (V : Valuation τ sig (Elt Ideal)) : sv32 V (Proc.devRef .tc main_arg14) = V (Proc.devRef .tc main_arg14) :=
  (seg31_keep _ main_arg14 (by decide)).trans (sv31_main_arg14 V)
theorem sv32_main_arg15 (V : Valuation τ sig (Elt Ideal)) : sv32 V (Proc.devRef .tc main_arg15) = V (Proc.devRef .tc main_arg15) :=
  (seg31_keep _ main_arg15 (by decide)).trans (sv31_main_arg15 V)
theorem sv32_main_arg16 (V : Valuation τ sig (Elt Ideal)) : sv32 V (Proc.devRef .tc main_arg16) = V (Proc.devRef .tc main_arg16) :=
  (seg31_keep _ main_arg16 (by decide)).trans (sv31_main_arg16 V)
theorem sv32_main_arg17 (V : Valuation τ sig (Elt Ideal)) : sv32 V (Proc.devRef .tc main_arg17) = V (Proc.devRef .tc main_arg17) :=
  (seg31_keep _ main_arg17 (by decide)).trans (sv31_main_arg17 V)
theorem sv32_main_arg18 (V : Valuation τ sig (Elt Ideal)) : sv32 V (Proc.devRef .tc main_arg18) = V (Proc.devRef .tc main_arg18) :=
  (seg31_keep _ main_arg18 (by decide)).trans (sv31_main_arg18 V)
theorem sv32_main_arg19 (V : Valuation τ sig (Elt Ideal)) : sv32 V (Proc.devRef .tc main_arg19) = V (Proc.devRef .tc main_arg19) :=
  (seg31_keep _ main_arg19 (by decide)).trans (sv31_main_arg19 V)
theorem sv32_main_arg20 (V : Valuation τ sig (Elt Ideal)) : sv32 V (Proc.devRef .tc main_arg20) = V (Proc.devRef .tc main_arg20) :=
  (seg31_keep _ main_arg20 (by decide)).trans (sv31_main_arg20 V)

end Cert.ReferenceIdeal.RefRun

end
-- ==== Proof.RefStagesDefs.lean ====
/-
  The reference program's stages as pure functions.

  Each definition `val_vN` is the composition of host operations that the reference program applies to produce the
  buffer %N, written with the operations exactly as the program prints them, as a function of the stage values it reads
  (the parameters `x_vM`) and of the argument arrays (`aK`).  Between two named stages every intermediate value is
  inlined, so a definition never repeats an earlier stage's computation: it takes that stage's value as a parameter.
  All at the ideal values (floats are extended reals).
-/
import proofs.«130402_j14499809591446_2_alg».proof.ReferenceIdeal
import Idealize.ShloMosaic.PureOps.Ideal

noncomputable section

namespace Cert.ReferenceIdeal.RefRun

open Cert.ReferenceIdeal Idealize.ShloMosaic
open Facts₀

variable [Facts₀]

/-- The number of edges whose first index is each row, clamped below by one. -/
def val_v4 (a1 : IVec S1600000 32) :
    FVec Ideal S100000 .f32 :=
  (maximumf (broadcastInDim S100000 ![] bcast_S_S100000 (id (constant (F := Ideal) S_ .f32 0x3F800000#32 : FVec Ideal S_ .f32) : FVec Ideal S_ .f32) : FVec Ideal S100000 .f32) (Host.scatterAdd scatter_S100000_S1600000x1_S1600000_n_0_0_1 (broadcastInDim S100000 ![] bcast_S_S100000 (constant (F := Ideal) S_ .f32 0x00000000#32 : FVec Ideal S_ .f32) : FVec Ideal S100000 .f32) (broadcastInDim S1600000x1 ![0] bcast_S1600000_S1600000x1_0 a1 : IVec S1600000x1 32) (broadcastInDim S1600000 ![] bcast_S_S1600000 (constant (F := Ideal) S_ .f32 0x3F800000#32 : FVec Ideal S_ .f32) : FVec Ideal S1600000 .f32) : FVec Ideal S100000 .f32) : FVec Ideal S100000 .f32)

/-- The number of edges whose second index is each row, clamped below by one. -/
def val_v8 (a2 : IVec S1600000 32) :
    FVec Ideal S100000 .f32 :=
  (maximumf (broadcastInDim S100000 ![] bcast_S_S100000 (id (constant (F := Ideal) S_ .f32 0x3F800000#32 : FVec Ideal S_ .f32) : FVec Ideal S_ .f32) : FVec Ideal S100000 .f32) (Host.scatterAdd scatter_S100000_S1600000x1_S1600000_n_0_0_1 (broadcastInDim S100000 ![] bcast_S_S100000 (constant (F := Ideal) S_ .f32 0x00000000#32 : FVec Ideal S_ .f32) : FVec Ideal S100000 .f32) (broadcastInDim S1600000x1 ![0] bcast_S1600000_S1600000x1_0 a2 : IVec S1600000x1 32) (broadcastInDim S1600000 ![] bcast_S_S1600000 (constant (F := Ideal) S_ .f32 0x3F800000#32 : FVec Ideal S_ .f32) : FVec Ideal S1600000 .f32) : FVec Ideal S100000 .f32) : FVec Ideal S100000 .f32)

/-- The first degrees to the power -1/2. -/
def val_v10 (x_v4 : FVec Ideal S100000 .f32) :
    FVec Ideal S100000 .f32 :=
  (Host.powf x_v4 (broadcastInDim S100000 ![] bcast_S_S100000 (constant (F := Ideal) S_ .f32 0xBF000000#32 : FVec Ideal S_ .f32) : FVec Ideal S100000 .f32) : FVec Ideal S100000 .f32)

/-- The second degrees to the power -1/2. -/
def val_v12 (x_v8 : FVec Ideal S100000 .f32) :
    FVec Ideal S100000 .f32 :=
  (Host.powf x_v8 (broadcastInDim S100000 ![] bcast_S_S100000 (constant (F := Ideal) S_ .f32 0xBF000000#32 : FVec Ideal S_ .f32) : FVec Ideal S100000 .f32) : FVec Ideal S100000 .f32)

/-- The encoder: three matrix products with a bias row each, the first two clamped at zero. -/
def val_v26 (a0 : FVec Ideal S100000x128 .f32) (a3 : FVec Ideal S128x64 .f32) (a4 : FVec Ideal S64 .f32) (a5 : FVec Ideal S64x32 .f32) (a6 : FVec Ideal S32 .f32) (a7 : FVec Ideal S32x128 .f32) (a8 : FVec Ideal S128 .f32) :
    FVec Ideal S100000x128 .f32 :=
  (addf (Host.dotGeneral dot_S100000x32_S32x128_S100000x128_1_0_0_1_n_n none (maximumf (addf (Host.dotGeneral dot_S100000x64_S64x32_S100000x32_1_0_0_1_n_n none (maximumf (addf (Host.dotGeneral dot_S100000x128_S128x64_S100000x64_1_0_0_1_n_n none a0 a3 : FVec Ideal S100000x64 .f32) (broadcastInDim S100000x64 ![0, 1] bcast_S1x64_S100000x64_0_1 (broadcastInDim S1x64 ![1] bcast_S64_S1x64_1 a4 : FVec Ideal S1x64 .f32) : FVec Ideal S100000x64 .f32) : FVec Ideal S100000x64 .f32) (broadcastInDim S100000x64 ![] bcast_S_S100000x64 (constant (F := Ideal) S_ .f32 0x00000000#32 : FVec Ideal S_ .f32) : FVec Ideal S100000x64 .f32) : FVec Ideal S100000x64 .f32) a5 : FVec Ideal S100000x32 .f32) (broadcastInDim S100000x32 ![0, 1] bcast_S1x32_S100000x32_0_1 (broadcastInDim S1x32 ![1] bcast_S32_S1x32_1 a6 : FVec Ideal S1x32 .f32) : FVec Ideal S100000x32 .f32) : FVec Ideal S100000x32 .f32) (broadcastInDim S100000x32 ![] bcast_S_S100000x32 (constant (F := Ideal) S_ .f32 0x00000000#32 : FVec Ideal S_ .f32) : FVec Ideal S100000x32 .f32) : FVec Ideal S100000x32 .f32) a7 : FVec Ideal S100000x128 .f32) (broadcastInDim S100000x128 ![0, 1] bcast_S1x128_S100000x128_0_1 (broadcastInDim S1x128 ![1] bcast_S128_S1x128_1 a8 : FVec Ideal S1x128 .f32) : FVec Ideal S100000x128 .f32) : FVec Ideal S100000x128 .f32)

/-- Layer 0 before its normalisation: rows scaled, gathered along the edges, summed into their destination rows, scaled again, then a matrix product and a bias row. -/
def val_v46 (x_v10 : FVec Ideal S100000 .f32) (x_v12 : FVec Ideal S100000 .f32) (x_v26 : FVec Ideal S100000x128 .f32) (a1 : IVec S1600000 32) (a2 : IVec S1600000 32) (a13 : FVec Ideal S128x64 .f32) (a14 : FVec Ideal S64 .f32) :
    FVec Ideal S100000x64 .f32 :=
  (addf (Host.dotGeneral dot_S100000x128_S128x64_S100000x64_1_0_0_1_n_n none (mulf (Host.scatterAdd scatter_S100000x128_S1600000x1_S1600000x128_1_0_0_1 (broadcastInDim S100000x128 ![] bcast_S_S100000x128 (constant (F := Ideal) S_ .f32 0x00000000#32 : FVec Ideal S_ .f32) : FVec Ideal S100000x128 .f32) (broadcastInDim S1600000x1 ![0] bcast_S1600000_S1600000x1_0 a2 : IVec S1600000x1 32) (Host.gather gather_S100000x128_S1600000x1_S1600000x128_1_0_n_n_0_1_1128 (mulf x_v26 (broadcastInDim S100000x128 ![0, 1] bcast_S100000x1_S100000x128_0_1 (broadcastInDim S100000x1 ![0] bcast_S100000_S100000x1_0 x_v10 : FVec Ideal S100000x1 .f32) : FVec Ideal S100000x128 .f32) : FVec Ideal S100000x128 .f32) (broadcastInDim S1600000x1 ![0] bcast_S1600000_S1600000x1_0 (select (cmpi .slt a1 (broadcastInDim S1600000 ![] bcast_S_S1600000 (constantI S_ 32 0#32 : IVec S_ 32) : IVec S1600000 32) : IVec S1600000 1) (addi a1 (broadcastInDim S1600000 ![] bcast_S_S1600000 (constantI S_ 32 100000#32 : IVec S_ 32) : IVec S1600000 32) : IVec S1600000 32) a1 : IVec S1600000 32) : IVec S1600000x1 32) : FVec Ideal S1600000x128 .f32) : FVec Ideal S100000x128 .f32) (broadcastInDim S100000x128 ![0, 1] bcast_S100000x1_S100000x128_0_1 (broadcastInDim S100000x1 ![0] bcast_S100000_S100000x1_0 x_v12 : FVec Ideal S100000x1 .f32) : FVec Ideal S100000x128 .f32) : FVec Ideal S100000x128 .f32) a13 : FVec Ideal S100000x64 .f32) (broadcastInDim S100000x64 ![0, 1] bcast_S1x64_S100000x64_0_1 (broadcastInDim S1x64 ![1] bcast_S64_S1x64_1 a14 : FVec Ideal S1x64 .f32) : FVec Ideal S100000x64 .f32) : FVec Ideal S100000x64 .f32)

/-- The column means of layer 0's linear output. -/
def val_v53 (x_v46 : FVec Ideal S100000x64 .f32) :
    FVec Ideal S64 .f32 :=
  (Host.divf (Host.reduceAdd x_v46 (constant (F := Ideal) S_ .f32 0x00000000#32 : FVec Ideal S_ .f32) reducesTo_S100000x64_S64_d0 h_S_ : FVec Ideal S64 .f32) (broadcastInDim S64 ![] bcast_S_S64 (constant (F := Ideal) S_ .f32 0x47C35000#32 : FVec Ideal S_ .f32) : FVec Ideal S64 .f32) : FVec Ideal S64 .f32)

/-- The column variances of layer 0's linear output (mean of squared deviations; the select keeps it since the row count exceeds the correction 0). -/
def val_v54 (x_v46 : FVec Ideal S100000x64 .f32) :
    FVec Ideal S64 .f32 :=
  (select (broadcastInDim S64 ![] bcast_S_S64 (cmpf .ogt (subf (constant (F := Ideal) S_ .f32 0x47C35000#32 : FVec Ideal S_ .f32) (sitofp .f32 (constantI S_ 32 0#32 : IVec S_ 32) : FVec Ideal S_ .f32) : FVec Ideal S_ .f32) (constant (F := Ideal) S_ .f32 0x00000000#32 : FVec Ideal S_ .f32) : IVec S_ 1)) (Host.divf (Host.reduceAdd (mulf (subf x_v46 (broadcastInDim S100000x64 ![0, 1] bcast_S1x64_S100000x64_0_1 (Host.divf (broadcastInDim S1x64 ![1] bcast_S64_S1x64_1 (Host.reduceAdd x_v46 (constant (F := Ideal) S_ .f32 0x00000000#32 : FVec Ideal S_ .f32) reducesTo_S100000x64_S64_d0 h_S_ : FVec Ideal S64 .f32) : FVec Ideal S1x64 .f32) (broadcastInDim S1x64 ![] bcast_S_S1x64 (constant (F := Ideal) S_ .f32 0x47C35000#32 : FVec Ideal S_ .f32) : FVec Ideal S1x64 .f32) : FVec Ideal S1x64 .f32) : FVec Ideal S100000x64 .f32) : FVec Ideal S100000x64 .f32) (subf x_v46 (broadcastInDim S100000x64 ![0, 1] bcast_S1x64_S100000x64_0_1 (Host.divf (broadcastInDim S1x64 ![1] bcast_S64_S1x64_1 (Host.reduceAdd x_v46 (constant (F := Ideal) S_ .f32 0x00000000#32 : FVec Ideal S_ .f32) reducesTo_S100000x64_S64_d0 h_S_ : FVec Ideal S64 .f32) : FVec Ideal S1x64 .f32) (broadcastInDim S1x64 ![] bcast_S_S1x64 (constant (F := Ideal) S_ .f32 0x47C35000#32 : FVec Ideal S_ .f32) : FVec Ideal S1x64 .f32) : FVec Ideal S1x64 .f32) : FVec Ideal S100000x64 .f32) : FVec Ideal S100000x64 .f32) : FVec Ideal S100000x64 .f32) (constant (F := Ideal) S_ .f32 0x00000000#32 : FVec Ideal S_ .f32) reducesTo_S100000x64_S64_d0 h_S_ : FVec Ideal S64 .f32) (broadcastInDim S64 ![] bcast_S_S64 (subf (constant (F := Ideal) S_ .f32 0x47C35000#32 : FVec Ideal S_ .f32) (sitofp .f32 (constantI S_ 32 0#32 : IVec S_ 32) : FVec Ideal S_ .f32) : FVec Ideal S_ .f32) : FVec Ideal S64 .f32) : FVec Ideal S64 .f32) (broadcastInDim S64 ![] bcast_S_S64 (id (constant (F := Ideal) S_ .f32 0x7FC00000#32 : FVec Ideal S_ .f32) : FVec Ideal S_ .f32) : FVec Ideal S64 .f32) : FVec Ideal S64 .f32)

/-- Layer 0's output: the normalised linear output, scaled and shifted by row 0 of the two parameter tables, clamped at zero. -/
def val_v70 (x_v46 : FVec Ideal S100000x64 .f32) (x_v53 : FVec Ideal S64 .f32) (x_v54 : FVec Ideal S64 .f32) (a17 : FVec Ideal S4x64 .f32) (a18 : FVec Ideal S4x64 .f32) :
    FVec Ideal S100000x64 .f32 :=
  (maximumf (addf (mulf (mulf (subf x_v46 (broadcastInDim S100000x64 ![0, 1] bcast_S1x64_S100000x64_0_1 (broadcastInDim S1x64 ![1] bcast_S64_S1x64_1 x_v53 : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (Host.rsqrt (addf x_v54 (broadcastInDim S64 ![] bcast_S_S64 (constant (F := Ideal) S_ .f32 0x3727C5AC#32 : FVec Ideal S_ .f32) : FVec Ideal S64 .f32) : FVec Ideal S64 .f32) : FVec Ideal S64 .f32) : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (shapeCast S64 (extractStridedSlice S1x64 ![0, 0] a17 slices_S4x64_S1x64_0_0 : FVec Ideal S1x64 .f32) shapeCasts_S1x64_S64 : FVec Ideal S64 .f32) : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (shapeCast S64 (extractStridedSlice S1x64 ![0, 0] a18 slices_S4x64_S1x64_0_0 : FVec Ideal S1x64 .f32) shapeCasts_S1x64_S64 : FVec Ideal S64 .f32) : FVec Ideal S1x64 .f32) : FVec Ideal S100000x64 .f32) : FVec Ideal S100000x64 .f32) (broadcastInDim S100000x64 ![] bcast_S_S100000x64 (constant (F := Ideal) S_ .f32 0x00000000#32 : FVec Ideal S_ .f32) : FVec Ideal S100000x64 .f32) : FVec Ideal S100000x64 .f32)

/-- Layer 1: the mean over the incoming edges of the previous layer's rows (the edge sum divided by the clamped in-degree). -/
def val_v83 (x_v8 : FVec Ideal S100000 .f32) (x_v70 : FVec Ideal S100000x64 .f32) (a1 : IVec S1600000 32) (a2 : IVec S1600000 32) :
    FVec Ideal S100000x64 .f32 :=
  (Host.divf (Host.scatterAdd scatter_S100000x64_S1600000x1_S1600000x64_1_0_0_1 (broadcastInDim S100000x64 ![] bcast_S_S100000x64 (constant (F := Ideal) S_ .f32 0x00000000#32 : FVec Ideal S_ .f32) : FVec Ideal S100000x64 .f32) (broadcastInDim S1600000x1 ![0] bcast_S1600000_S1600000x1_0 a2 : IVec S1600000x1 32) (Host.gather gather_S100000x64_S1600000x1_S1600000x64_1_0_n_n_0_1_164 x_v70 (broadcastInDim S1600000x1 ![0] bcast_S1600000_S1600000x1_0 (select (cmpi .slt a1 (broadcastInDim S1600000 ![] bcast_S_S1600000 (constantI S_ 32 0#32 : IVec S_ 32) : IVec S1600000 32) : IVec S1600000 1) (addi a1 (broadcastInDim S1600000 ![] bcast_S_S1600000 (constantI S_ 32 100000#32 : IVec S_ 32) : IVec S1600000 32) : IVec S1600000 32) a1 : IVec S1600000 32) : IVec S1600000x1 32) : FVec Ideal S1600000x64 .f32) : FVec Ideal S100000x64 .f32) (broadcastInDim S100000x64 ![0, 1] bcast_S100000x1_S100000x64_0_1 (broadcastInDim S100000x1 ![0] bcast_S100000_S100000x1_0 x_v8 : FVec Ideal S100000x1 .f32) : FVec Ideal S100000x64 .f32) : FVec Ideal S100000x64 .f32)

/-- Layer 1: h plus the logistic gate of the joined row (h | neighbour mean) times the neighbour mean. -/
def val_v102 (x_v70 : FVec Ideal S100000x64 .f32) (x_v83 : FVec Ideal S100000x64 .f32) (a9 : FVec Ideal S128x64 .f32) (a10 : FVec Ideal S64 .f32) (a11 : FVec Ideal S64x1 .f32) (a12 : FVec Ideal S1 .f32) :
    FVec Ideal S100000x64 .f32 :=
  (addf x_v70 (mulf (broadcastInDim S100000x64 ![0, 1] bcast_S100000x1_S100000x64_0_1 (Host.divf (broadcastInDim S100000x1 ![] bcast_S_S100000x1 (constant (F := Ideal) S_ .f32 0x3F800000#32 : FVec Ideal S_ .f32) : FVec Ideal S100000x1 .f32) (addf (broadcastInDim S100000x1 ![] bcast_S_S100000x1 (constant (F := Ideal) S_ .f32 0x3F800000#32 : FVec Ideal S_ .f32) : FVec Ideal S100000x1 .f32) (Host.exp (Host.negf (addf (Host.dotGeneral dot_S100000x64_S64x1_S100000x1_1_0_0_1_n_n none (maximumf (addf (Host.dotGeneral dot_S100000x128_S128x64_S100000x64_1_0_0_1_n_n none (concatenate S100000x128 1 [⟨S100000x64, x_v70⟩, ⟨S100000x64, x_v83⟩] concatenates_S100000x64_S100000x64_S100000x128_d1 : FVec Ideal S100000x128 .f32) a9 : FVec Ideal S100000x64 .f32) (broadcastInDim S100000x64 ![0, 1] bcast_S1x64_S100000x64_0_1 (broadcastInDim S1x64 ![1] bcast_S64_S1x64_1 a10 : FVec Ideal S1x64 .f32) : FVec Ideal S100000x64 .f32) : FVec Ideal S100000x64 .f32) (broadcastInDim S100000x64 ![] bcast_S_S100000x64 (constant (F := Ideal) S_ .f32 0x00000000#32 : FVec Ideal S_ .f32) : FVec Ideal S100000x64 .f32) : FVec Ideal S100000x64 .f32) a11 : FVec Ideal S100000x1 .f32) (broadcastInDim S100000x1 ![0, 1] bcast_S1x1_S100000x1_0_1 (broadcastInDim S1x1 ![1] bcast_S1_S1x1_1 a12 : FVec Ideal S1x1 .f32) : FVec Ideal S100000x1 .f32) : FVec Ideal S100000x1 .f32) : FVec Ideal S100000x1 .f32) : FVec Ideal S100000x1 .f32) : FVec Ideal S100000x1 .f32) : FVec Ideal S100000x1 .f32) : FVec Ideal S100000x64 .f32) x_v83 : FVec Ideal S100000x64 .f32) : FVec Ideal S100000x64 .f32)

/-- Layer 1 before its normalisation: the normalised aggregation of the gated h, a matrix product with slice 0 of the stacked weights, and a bias row. -/
def val_v126 (x_v10 : FVec Ideal S100000 .f32) (x_v12 : FVec Ideal S100000 .f32) (x_v102 : FVec Ideal S100000x64 .f32) (a1 : IVec S1600000 32) (a2 : IVec S1600000 32) (a15 : FVec Ideal S3x64x64 .f32) (a16 : FVec Ideal S3x64 .f32) :
    FVec Ideal S100000x64 .f32 :=
  (addf (Host.dotGeneral dot_S100000x64_S64x64_S100000x64_1_0_0_1_n_n none (mulf (Host.scatterAdd scatter_S100000x64_S1600000x1_S1600000x64_1_0_0_1 (broadcastInDim S100000x64 ![] bcast_S_S100000x64 (constant (F := Ideal) S_ .f32 0x00000000#32 : FVec Ideal S_ .f32) : FVec Ideal S100000x64 .f32) (broadcastInDim S1600000x1 ![0] bcast_S1600000_S1600000x1_0 a2 : IVec S1600000x1 32) (Host.gather gather_S100000x64_S1600000x1_S1600000x64_1_0_n_n_0_1_164 (mulf x_v102 (broadcastInDim S100000x64 ![0, 1] bcast_S100000x1_S100000x64_0_1 (broadcastInDim S100000x1 ![0] bcast_S100000_S100000x1_0 x_v10 : FVec Ideal S100000x1 .f32) : FVec Ideal S100000x64 .f32) : FVec Ideal S100000x64 .f32) (broadcastInDim S1600000x1 ![0] bcast_S1600000_S1600000x1_0 (select (cmpi .slt a1 (broadcastInDim S1600000 ![] bcast_S_S1600000 (constantI S_ 32 0#32 : IVec S_ 32) : IVec S1600000 32) : IVec S1600000 1) (addi a1 (broadcastInDim S1600000 ![] bcast_S_S1600000 (constantI S_ 32 100000#32 : IVec S_ 32) : IVec S1600000 32) : IVec S1600000 32) a1 : IVec S1600000 32) : IVec S1600000x1 32) : FVec Ideal S1600000x64 .f32) : FVec Ideal S100000x64 .f32) (broadcastInDim S100000x64 ![0, 1] bcast_S100000x1_S100000x64_0_1 (broadcastInDim S100000x1 ![0] bcast_S100000_S100000x1_0 x_v12 : FVec Ideal S100000x1 .f32) : FVec Ideal S100000x64 .f32) : FVec Ideal S100000x64 .f32) (shapeCast S64x64 (extractStridedSlice S1x64x64 ![0, 0, 0] a15 slices_S3x64x64_S1x64x64_0_0_0 : FVec Ideal S1x64x64 .f32) shapeCasts_S1x64x64_S64x64 : FVec Ideal S64x64 .f32) : FVec Ideal S100000x64 .f32) (broadcastInDim S100000x64 ![0, 1] bcast_S1x64_S100000x64_0_1 (broadcastInDim S1x64 ![1] bcast_S64_S1x64_1 (shapeCast S64 (extractStridedSlice S1x64 ![0, 0] a16 slices_S3x64_S1x64_0_0 : FVec Ideal S1x64 .f32) shapeCasts_S1x64_S64 : FVec Ideal S64 .f32) : FVec Ideal S1x64 .f32) : FVec Ideal S100000x64 .f32) : FVec Ideal S100000x64 .f32)

/-- The column means of layer 1's linear output. -/
def val_v133 (x_v126 : FVec Ideal S100000x64 .f32) :
    FVec Ideal S64 .f32 :=
  (Host.divf (Host.reduceAdd x_v126 (constant (F := Ideal) S_ .f32 0x00000000#32 : FVec Ideal S_ .f32) reducesTo_S100000x64_S64_d0 h_S_ : FVec Ideal S64 .f32) (broadcastInDim S64 ![] bcast_S_S64 (constant (F := Ideal) S_ .f32 0x47C35000#32 : FVec Ideal S_ .f32) : FVec Ideal S64 .f32) : FVec Ideal S64 .f32)

/-- The column variances of layer 1's linear output. -/
def val_v134 (x_v126 : FVec Ideal S100000x64 .f32) :
    FVec Ideal S64 .f32 :=
  (select (broadcastInDim S64 ![] bcast_S_S64 (cmpf .ogt (subf (constant (F := Ideal) S_ .f32 0x47C35000#32 : FVec Ideal S_ .f32) (sitofp .f32 (constantI S_ 32 0#32 : IVec S_ 32) : FVec Ideal S_ .f32) : FVec Ideal S_ .f32) (constant (F := Ideal) S_ .f32 0x00000000#32 : FVec Ideal S_ .f32) : IVec S_ 1)) (Host.divf (Host.reduceAdd (mulf (subf x_v126 (broadcastInDim S100000x64 ![0, 1] bcast_S1x64_S100000x64_0_1 (Host.divf (broadcastInDim S1x64 ![1] bcast_S64_S1x64_1 (Host.reduceAdd x_v126 (constant (F := Ideal) S_ .f32 0x00000000#32 : FVec Ideal S_ .f32) reducesTo_S100000x64_S64_d0 h_S_ : FVec Ideal S64 .f32) : FVec Ideal S1x64 .f32) (broadcastInDim S1x64 ![] bcast_S_S1x64 (constant (F := Ideal) S_ .f32 0x47C35000#32 : FVec Ideal S_ .f32) : FVec Ideal S1x64 .f32) : FVec Ideal S1x64 .f32) : FVec Ideal S100000x64 .f32) : FVec Ideal S100000x64 .f32) (subf x_v126 (broadcastInDim S100000x64 ![0, 1] bcast_S1x64_S100000x64_0_1 (Host.divf (broadcastInDim S1x64 ![1] bcast_S64_S1x64_1 (Host.reduceAdd x_v126 (constant (F := Ideal) S_ .f32 0x00000000#32 : FVec Ideal S_ .f32) reducesTo_S100000x64_S64_d0 h_S_ : FVec Ideal S64 .f32) : FVec Ideal S1x64 .f32) (broadcastInDim S1x64 ![] bcast_S_S1x64 (constant (F := Ideal) S_ .f32 0x47C35000#32 : FVec Ideal S_ .f32) : FVec Ideal S1x64 .f32) : FVec Ideal S1x64 .f32) : FVec Ideal S100000x64 .f32) : FVec Ideal S100000x64 .f32) : FVec Ideal S100000x64 .f32) (constant (F := Ideal) S_ .f32 0x00000000#32 : FVec Ideal S_ .f32) reducesTo_S100000x64_S64_d0 h_S_ : FVec Ideal S64 .f32) (broadcastInDim S64 ![] bcast_S_S64 (subf (constant (F := Ideal) S_ .f32 0x47C35000#32 : FVec Ideal S_ .f32) (sitofp .f32 (constantI S_ 32 0#32 : IVec S_ 32) : FVec Ideal S_ .f32) : FVec Ideal S_ .f32) : FVec Ideal S64 .f32) : FVec Ideal S64 .f32) (broadcastInDim S64 ![] bcast_S_S64 (id (constant (F := Ideal) S_ .f32 0x7FC00000#32 : FVec Ideal S_ .f32) : FVec Ideal S_ .f32) : FVec Ideal S64 .f32) : FVec Ideal S64 .f32)

/-- Layer 1's output: the normalised linear output, scaled and shifted by row 1 of the parameter tables, plus the gated h, clamped at zero. -/
def val_v151 (x_v102 : FVec Ideal S100000x64 .f32) (x_v126 : FVec Ideal S100000x64 .f32) (x_v133 : FVec Ideal S64 .f32) (x_v134 : FVec Ideal S64 .f32) (a17 : FVec Ideal S4x64 .f32) (a18 : FVec Ideal S4x64 .f32) :
    FVec Ideal S100000x64 .f32 :=
  (maximumf (addf (addf (mulf (mulf (subf x_v126 (broadcastInDim S100000x64 ![0, 1] bcast_S1x64_S100000x64_0_1 (broadcastInDim S1x64 ![1] bcast_S64_S1x64_1 x_v133 : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (Host.rsqrt (addf x_v134 (broadcastInDim S64 ![] bcast_S_S64 (constant (F := Ideal) S_ .f32 0x3727C5AC#32 : FVec Ideal S_ .f32) : FVec Ideal S64 .f32) : FVec Ideal S64 .f32) : FVec Ideal S64 .f32) : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (shapeCast S64 (extractStridedSlice S1x64 ![1, 0] a17 slices_S4x64_S1x64_1_0 : FVec Ideal S1x64 .f32) shapeCasts_S1x64_S64 : FVec Ideal S64 .f32) : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (shapeCast S64 (extractStridedSlice S1x64 ![1, 0] a18 slices_S4x64_S1x64_1_0 : FVec Ideal S1x64 .f32) shapeCasts_S1x64_S64 : FVec Ideal S64 .f32) : FVec Ideal S1x64 .f32) : FVec Ideal S100000x64 .f32) : FVec Ideal S100000x64 .f32) x_v102 : FVec Ideal S100000x64 .f32) (broadcastInDim S100000x64 ![] bcast_S_S100000x64 (constant (F := Ideal) S_ .f32 0x00000000#32 : FVec Ideal S_ .f32) : FVec Ideal S100000x64 .f32) : FVec Ideal S100000x64 .f32)

/-- Layer 2: the mean over the incoming edges of the previous layer's rows (the edge sum divided by the clamped in-degree). -/
def val_v164 (x_v8 : FVec Ideal S100000 .f32) (x_v151 : FVec Ideal S100000x64 .f32) (a1 : IVec S1600000 32) (a2 : IVec S1600000 32) :
    FVec Ideal S100000x64 .f32 :=
  (Host.divf (Host.scatterAdd scatter_S100000x64_S1600000x1_S1600000x64_1_0_0_1 (broadcastInDim S100000x64 ![] bcast_S_S100000x64 (constant (F := Ideal) S_ .f32 0x00000000#32 : FVec Ideal S_ .f32) : FVec Ideal S100000x64 .f32) (broadcastInDim S1600000x1 ![0] bcast_S1600000_S1600000x1_0 a2 : IVec S1600000x1 32) (Host.gather gather_S100000x64_S1600000x1_S1600000x64_1_0_n_n_0_1_164 x_v151 (broadcastInDim S1600000x1 ![0] bcast_S1600000_S1600000x1_0 (select (cmpi .slt a1 (broadcastInDim S1600000 ![] bcast_S_S1600000 (constantI S_ 32 0#32 : IVec S_ 32) : IVec S1600000 32) : IVec S1600000 1) (addi a1 (broadcastInDim S1600000 ![] bcast_S_S1600000 (constantI S_ 32 100000#32 : IVec S_ 32) : IVec S1600000 32) : IVec S1600000 32) a1 : IVec S1600000 32) : IVec S1600000x1 32) : FVec Ideal S1600000x64 .f32) : FVec Ideal S100000x64 .f32) (broadcastInDim S100000x64 ![0, 1] bcast_S100000x1_S100000x64_0_1 (broadcastInDim S100000x1 ![0] bcast_S100000_S100000x1_0 x_v8 : FVec Ideal S100000x1 .f32) : FVec Ideal S100000x64 .f32) : FVec Ideal S100000x64 .f32)

/-- Layer 2: h plus the logistic gate of the joined row (h | neighbour mean) times the neighbour mean. -/
def val_v183 (x_v151 : FVec Ideal S100000x64 .f32) (x_v164 : FVec Ideal S100000x64 .f32) (a9 : FVec Ideal S128x64 .f32) (a10 : FVec Ideal S64 .f32) (a11 : FVec Ideal S64x1 .f32) (a12 : FVec Ideal S1 .f32) :
    FVec Ideal S100000x64 .f32 :=
  (addf x_v151 (mulf (broadcastInDim S100000x64 ![0, 1] bcast_S100000x1_S100000x64_0_1 (Host.divf (broadcastInDim S100000x1 ![] bcast_S_S100000x1 (constant (F := Ideal) S_ .f32 0x3F800000#32 : FVec Ideal S_ .f32) : FVec Ideal S100000x1 .f32) (addf (broadcastInDim S100000x1 ![] bcast_S_S100000x1 (constant (F := Ideal) S_ .f32 0x3F800000#32 : FVec Ideal S_ .f32) : FVec Ideal S100000x1 .f32) (Host.exp (Host.negf (addf (Host.dotGeneral dot_S100000x64_S64x1_S100000x1_1_0_0_1_n_n none (maximumf (addf (Host.dotGeneral dot_S100000x128_S128x64_S100000x64_1_0_0_1_n_n none (concatenate S100000x128 1 [⟨S100000x64, x_v151⟩, ⟨S100000x64, x_v164⟩] concatenates_S100000x64_S100000x64_S100000x128_d1 : FVec Ideal S100000x128 .f32) a9 : FVec Ideal S100000x64 .f32) (broadcastInDim S100000x64 ![0, 1] bcast_S1x64_S100000x64_0_1 (broadcastInDim S1x64 ![1] bcast_S64_S1x64_1 a10 : FVec Ideal S1x64 .f32) : FVec Ideal S100000x64 .f32) : FVec Ideal S100000x64 .f32) (broadcastInDim S100000x64 ![] bcast_S_S100000x64 (constant (F := Ideal) S_ .f32 0x00000000#32 : FVec Ideal S_ .f32) : FVec Ideal S100000x64 .f32) : FVec Ideal S100000x64 .f32) a11 : FVec Ideal S100000x1 .f32) (broadcastInDim S100000x1 ![0, 1] bcast_S1x1_S100000x1_0_1 (broadcastInDim S1x1 ![1] bcast_S1_S1x1_1 a12 : FVec Ideal S1x1 .f32) : FVec Ideal S100000x1 .f32) : FVec Ideal S100000x1 .f32) : FVec Ideal S100000x1 .f32) : FVec Ideal S100000x1 .f32) : FVec Ideal S100000x1 .f32) : FVec Ideal S100000x1 .f32) : FVec Ideal S100000x64 .f32) x_v164 : FVec Ideal S100000x64 .f32) : FVec Ideal S100000x64 .f32)

/-- Layer 2 before its normalisation: the normalised aggregation of the gated h, a matrix product with slice 1 of the stacked weights, and a bias row. -/
def val_v207 (x_v10 : FVec Ideal S100000 .f32) (x_v12 : FVec Ideal S100000 .f32) (x_v183 : FVec Ideal S100000x64 .f32) (a1 : IVec S1600000 32) (a2 : IVec S1600000 32) (a15 : FVec Ideal S3x64x64 .f32) (a16 : FVec Ideal S3x64 .f32) :
    FVec Ideal S100000x64 .f32 :=
  (addf (Host.dotGeneral dot_S100000x64_S64x64_S100000x64_1_0_0_1_n_n none (mulf (Host.scatterAdd scatter_S100000x64_S1600000x1_S1600000x64_1_0_0_1 (broadcastInDim S100000x64 ![] bcast_S_S100000x64 (constant (F := Ideal) S_ .f32 0x00000000#32 : FVec Ideal S_ .f32) : FVec Ideal S100000x64 .f32) (broadcastInDim S1600000x1 ![0] bcast_S1600000_S1600000x1_0 a2 : IVec S1600000x1 32) (Host.gather gather_S100000x64_S1600000x1_S1600000x64_1_0_n_n_0_1_164 (mulf x_v183 (broadcastInDim S100000x64 ![0, 1] bcast_S100000x1_S100000x64_0_1 (broadcastInDim S100000x1 ![0] bcast_S100000_S100000x1_0 x_v10 : FVec Ideal S100000x1 .f32) : FVec Ideal S100000x64 .f32) : FVec Ideal S100000x64 .f32) (broadcastInDim S1600000x1 ![0] bcast_S1600000_S1600000x1_0 (select (cmpi .slt a1 (broadcastInDim S1600000 ![] bcast_S_S1600000 (constantI S_ 32 0#32 : IVec S_ 32) : IVec S1600000 32) : IVec S1600000 1) (addi a1 (broadcastInDim S1600000 ![] bcast_S_S1600000 (constantI S_ 32 100000#32 : IVec S_ 32) : IVec S1600000 32) : IVec S1600000 32) a1 : IVec S1600000 32) : IVec S1600000x1 32) : FVec Ideal S1600000x64 .f32) : FVec Ideal S100000x64 .f32) (broadcastInDim S100000x64 ![0, 1] bcast_S100000x1_S100000x64_0_1 (broadcastInDim S100000x1 ![0] bcast_S100000_S100000x1_0 x_v12 : FVec Ideal S100000x1 .f32) : FVec Ideal S100000x64 .f32) : FVec Ideal S100000x64 .f32) (shapeCast S64x64 (extractStridedSlice S1x64x64 ![1, 0, 0] a15 slices_S3x64x64_S1x64x64_1_0_0 : FVec Ideal S1x64x64 .f32) shapeCasts_S1x64x64_S64x64 : FVec Ideal S64x64 .f32) : FVec Ideal S100000x64 .f32) (broadcastInDim S100000x64 ![0, 1] bcast_S1x64_S100000x64_0_1 (broadcastInDim S1x64 ![1] bcast_S64_S1x64_1 (shapeCast S64 (extractStridedSlice S1x64 ![1, 0] a16 slices_S3x64_S1x64_1_0 : FVec Ideal S1x64 .f32) shapeCasts_S1x64_S64 : FVec Ideal S64 .f32) : FVec Ideal S1x64 .f32) : FVec Ideal S100000x64 .f32) : FVec Ideal S100000x64 .f32)

/-- The column means of layer 2's linear output. -/
def val_v214 (x_v207 : FVec Ideal S100000x64 .f32) :
    FVec Ideal S64 .f32 :=
  (Host.divf (Host.reduceAdd x_v207 (constant (F := Ideal) S_ .f32 0x00000000#32 : FVec Ideal S_ .f32) reducesTo_S100000x64_S64_d0 h_S_ : FVec Ideal S64 .f32) (broadcastInDim S64 ![] bcast_S_S64 (constant (F := Ideal) S_ .f32 0x47C35000#32 : FVec Ideal S_ .f32) : FVec Ideal S64 .f32) : FVec Ideal S64 .f32)

/-- The column variances of layer 2's linear output. -/
def val_v215 (x_v207 : FVec Ideal S100000x64 .f32) :
    FVec Ideal S64 .f32 :=
  (select (broadcastInDim S64 ![] bcast_S_S64 (cmpf .ogt (subf (constant (F := Ideal) S_ .f32 0x47C35000#32 : FVec Ideal S_ .f32) (sitofp .f32 (constantI S_ 32 0#32 : IVec S_ 32) : FVec Ideal S_ .f32) : FVec Ideal S_ .f32) (constant (F := Ideal) S_ .f32 0x00000000#32 : FVec Ideal S_ .f32) : IVec S_ 1)) (Host.divf (Host.reduceAdd (mulf (subf x_v207 (broadcastInDim S100000x64 ![0, 1] bcast_S1x64_S100000x64_0_1 (Host.divf (broadcastInDim S1x64 ![1] bcast_S64_S1x64_1 (Host.reduceAdd x_v207 (constant (F := Ideal) S_ .f32 0x00000000#32 : FVec Ideal S_ .f32) reducesTo_S100000x64_S64_d0 h_S_ : FVec Ideal S64 .f32) : FVec Ideal S1x64 .f32) (broadcastInDim S1x64 ![] bcast_S_S1x64 (constant (F := Ideal) S_ .f32 0x47C35000#32 : FVec Ideal S_ .f32) : FVec Ideal S1x64 .f32) : FVec Ideal S1x64 .f32) : FVec Ideal S100000x64 .f32) : FVec Ideal S100000x64 .f32) (subf x_v207 (broadcastInDim S100000x64 ![0, 1] bcast_S1x64_S100000x64_0_1 (Host.divf (broadcastInDim S1x64 ![1] bcast_S64_S1x64_1 (Host.reduceAdd x_v207 (constant (F := Ideal) S_ .f32 0x00000000#32 : FVec Ideal S_ .f32) reducesTo_S100000x64_S64_d0 h_S_ : FVec Ideal S64 .f32) : FVec Ideal S1x64 .f32) (broadcastInDim S1x64 ![] bcast_S_S1x64 (constant (F := Ideal) S_ .f32 0x47C35000#32 : FVec Ideal S_ .f32) : FVec Ideal S1x64 .f32) : FVec Ideal S1x64 .f32) : FVec Ideal S100000x64 .f32) : FVec Ideal S100000x64 .f32) : FVec Ideal S100000x64 .f32) (constant (F := Ideal) S_ .f32 0x00000000#32 : FVec Ideal S_ .f32) reducesTo_S100000x64_S64_d0 h_S_ : FVec Ideal S64 .f32) (broadcastInDim S64 ![] bcast_S_S64 (subf (constant (F := Ideal) S_ .f32 0x47C35000#32 : FVec Ideal S_ .f32) (sitofp .f32 (constantI S_ 32 0#32 : IVec S_ 32) : FVec Ideal S_ .f32) : FVec Ideal S_ .f32) : FVec Ideal S64 .f32) : FVec Ideal S64 .f32) (broadcastInDim S64 ![] bcast_S_S64 (id (constant (F := Ideal) S_ .f32 0x7FC00000#32 : FVec Ideal S_ .f32) : FVec Ideal S_ .f32) : FVec Ideal S64 .f32) : FVec Ideal S64 .f32)

/-- Layer 2's output: the normalised linear output, scaled and shifted by row 2 of the parameter tables, plus the gated h, clamped at zero. -/
def val_v232 (x_v183 : FVec Ideal S100000x64 .f32) (x_v207 : FVec Ideal S100000x64 .f32) (x_v214 : FVec Ideal S64 .f32) (x_v215 : FVec Ideal S64 .f32) (a17 : FVec Ideal S4x64 .f32) (a18 : FVec Ideal S4x64 .f32) :
    FVec Ideal S100000x64 .f32 :=
  (maximumf (addf (addf (mulf (mulf (subf x_v207 (broadcastInDim S100000x64 ![0, 1] bcast_S1x64_S100000x64_0_1 (broadcastInDim S1x64 ![1] bcast_S64_S1x64_1 x_v214 : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (Host.rsqrt (addf x_v215 (broadcastInDim S64 ![] bcast_S_S64 (constant (F := Ideal) S_ .f32 0x3727C5AC#32 : FVec Ideal S_ .f32) : FVec Ideal S64 .f32) : FVec Ideal S64 .f32) : FVec Ideal S64 .f32) : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (shapeCast S64 (extractStridedSlice S1x64 ![2, 0] a17 slices_S4x64_S1x64_2_0 : FVec Ideal S1x64 .f32) shapeCasts_S1x64_S64 : FVec Ideal S64 .f32) : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (shapeCast S64 (extractStridedSlice S1x64 ![2, 0] a18 slices_S4x64_S1x64_2_0 : FVec Ideal S1x64 .f32) shapeCasts_S1x64_S64 : FVec Ideal S64 .f32) : FVec Ideal S1x64 .f32) : FVec Ideal S100000x64 .f32) : FVec Ideal S100000x64 .f32) x_v183 : FVec Ideal S100000x64 .f32) (broadcastInDim S100000x64 ![] bcast_S_S100000x64 (constant (F := Ideal) S_ .f32 0x00000000#32 : FVec Ideal S_ .f32) : FVec Ideal S100000x64 .f32) : FVec Ideal S100000x64 .f32)

/-- Layer 3: the mean over the incoming edges of the previous layer's rows (the edge sum divided by the clamped in-degree). -/
def val_v245 (x_v8 : FVec Ideal S100000 .f32) (x_v232 : FVec Ideal S100000x64 .f32) (a1 : IVec S1600000 32) (a2 : IVec S1600000 32) :
    FVec Ideal S100000x64 .f32 :=
  (Host.divf (Host.scatterAdd scatter_S100000x64_S1600000x1_S1600000x64_1_0_0_1 (broadcastInDim S100000x64 ![] bcast_S_S100000x64 (constant (F := Ideal) S_ .f32 0x00000000#32 : FVec Ideal S_ .f32) : FVec Ideal S100000x64 .f32) (broadcastInDim S1600000x1 ![0] bcast_S1600000_S1600000x1_0 a2 : IVec S1600000x1 32) (Host.gather gather_S100000x64_S1600000x1_S1600000x64_1_0_n_n_0_1_164 x_v232 (broadcastInDim S1600000x1 ![0] bcast_S1600000_S1600000x1_0 (select (cmpi .slt a1 (broadcastInDim S1600000 ![] bcast_S_S1600000 (constantI S_ 32 0#32 : IVec S_ 32) : IVec S1600000 32) : IVec S1600000 1) (addi a1 (broadcastInDim S1600000 ![] bcast_S_S1600000 (constantI S_ 32 100000#32 : IVec S_ 32) : IVec S1600000 32) : IVec S1600000 32) a1 : IVec S1600000 32) : IVec S1600000x1 32) : FVec Ideal S1600000x64 .f32) : FVec Ideal S100000x64 .f32) (broadcastInDim S100000x64 ![0, 1] bcast_S100000x1_S100000x64_0_1 (broadcastInDim S100000x1 ![0] bcast_S100000_S100000x1_0 x_v8 : FVec Ideal S100000x1 .f32) : FVec Ideal S100000x64 .f32) : FVec Ideal S100000x64 .f32)

/-- Layer 3: h plus the logistic gate of the joined row (h | neighbour mean) times the neighbour mean. -/
def val_v264 (x_v232 : FVec Ideal S100000x64 .f32) (x_v245 : FVec Ideal S100000x64 .f32) (a9 : FVec Ideal S128x64 .f32) (a10 : FVec Ideal S64 .f32) (a11 : FVec Ideal S64x1 .f32) (a12 : FVec Ideal S1 .f32) :
    FVec Ideal S100000x64 .f32 :=
  (addf x_v232 (mulf (broadcastInDim S100000x64 ![0, 1] bcast_S100000x1_S100000x64_0_1 (Host.divf (broadcastInDim S100000x1 ![] bcast_S_S100000x1 (constant (F := Ideal) S_ .f32 0x3F800000#32 : FVec Ideal S_ .f32) : FVec Ideal S100000x1 .f32) (addf (broadcastInDim S100000x1 ![] bcast_S_S100000x1 (constant (F := Ideal) S_ .f32 0x3F800000#32 : FVec Ideal S_ .f32) : FVec Ideal S100000x1 .f32) (Host.exp (Host.negf (addf (Host.dotGeneral dot_S100000x64_S64x1_S100000x1_1_0_0_1_n_n none (maximumf (addf (Host.dotGeneral dot_S100000x128_S128x64_S100000x64_1_0_0_1_n_n none (concatenate S100000x128 1 [⟨S100000x64, x_v232⟩, ⟨S100000x64, x_v245⟩] concatenates_S100000x64_S100000x64_S100000x128_d1 : FVec Ideal S100000x128 .f32) a9 : FVec Ideal S100000x64 .f32) (broadcastInDim S100000x64 ![0, 1] bcast_S1x64_S100000x64_0_1 (broadcastInDim S1x64 ![1] bcast_S64_S1x64_1 a10 : FVec Ideal S1x64 .f32) : FVec Ideal S100000x64 .f32) : FVec Ideal S100000x64 .f32) (broadcastInDim S100000x64 ![] bcast_S_S100000x64 (constant (F := Ideal) S_ .f32 0x00000000#32 : FVec Ideal S_ .f32) : FVec Ideal S100000x64 .f32) : FVec Ideal S100000x64 .f32) a11 : FVec Ideal S100000x1 .f32) (broadcastInDim S100000x1 ![0, 1] bcast_S1x1_S100000x1_0_1 (broadcastInDim S1x1 ![1] bcast_S1_S1x1_1 a12 : FVec Ideal S1x1 .f32) : FVec Ideal S100000x1 .f32) : FVec Ideal S100000x1 .f32) : FVec Ideal S100000x1 .f32) : FVec Ideal S100000x1 .f32) : FVec Ideal S100000x1 .f32) : FVec Ideal S100000x1 .f32) : FVec Ideal S100000x64 .f32) x_v245 : FVec Ideal S100000x64 .f32) : FVec Ideal S100000x64 .f32)

/-- Layer 3 before its normalisation: the normalised aggregation of the gated h, a matrix product with slice 2 of the stacked weights, and a bias row. -/
def val_v288 (x_v10 : FVec Ideal S100000 .f32) (x_v12 : FVec Ideal S100000 .f32) (x_v264 : FVec Ideal S100000x64 .f32) (a1 : IVec S1600000 32) (a2 : IVec S1600000 32) (a15 : FVec Ideal S3x64x64 .f32) (a16 : FVec Ideal S3x64 .f32) :
    FVec Ideal S100000x64 .f32 :=
  (addf (Host.dotGeneral dot_S100000x64_S64x64_S100000x64_1_0_0_1_n_n none (mulf (Host.scatterAdd scatter_S100000x64_S1600000x1_S1600000x64_1_0_0_1 (broadcastInDim S100000x64 ![] bcast_S_S100000x64 (constant (F := Ideal) S_ .f32 0x00000000#32 : FVec Ideal S_ .f32) : FVec Ideal S100000x64 .f32) (broadcastInDim S1600000x1 ![0] bcast_S1600000_S1600000x1_0 a2 : IVec S1600000x1 32) (Host.gather gather_S100000x64_S1600000x1_S1600000x64_1_0_n_n_0_1_164 (mulf x_v264 (broadcastInDim S100000x64 ![0, 1] bcast_S100000x1_S100000x64_0_1 (broadcastInDim S100000x1 ![0] bcast_S100000_S100000x1_0 x_v10 : FVec Ideal S100000x1 .f32) : FVec Ideal S100000x64 .f32) : FVec Ideal S100000x64 .f32) (broadcastInDim S1600000x1 ![0] bcast_S1600000_S1600000x1_0 (select (cmpi .slt a1 (broadcastInDim S1600000 ![] bcast_S_S1600000 (constantI S_ 32 0#32 : IVec S_ 32) : IVec S1600000 32) : IVec S1600000 1) (addi a1 (broadcastInDim S1600000 ![] bcast_S_S1600000 (constantI S_ 32 100000#32 : IVec S_ 32) : IVec S1600000 32) : IVec S1600000 32) a1 : IVec S1600000 32) : IVec S1600000x1 32) : FVec Ideal S1600000x64 .f32) : FVec Ideal S100000x64 .f32) (broadcastInDim S100000x64 ![0, 1] bcast_S100000x1_S100000x64_0_1 (broadcastInDim S100000x1 ![0] bcast_S100000_S100000x1_0 x_v12 : FVec Ideal S100000x1 .f32) : FVec Ideal S100000x64 .f32) : FVec Ideal S100000x64 .f32) (shapeCast S64x64 (extractStridedSlice S1x64x64 ![2, 0, 0] a15 slices_S3x64x64_S1x64x64_2_0_0 : FVec Ideal S1x64x64 .f32) shapeCasts_S1x64x64_S64x64 : FVec Ideal S64x64 .f32) : FVec Ideal S100000x64 .f32) (broadcastInDim S100000x64 ![0, 1] bcast_S1x64_S100000x64_0_1 (broadcastInDim S1x64 ![1] bcast_S64_S1x64_1 (shapeCast S64 (extractStridedSlice S1x64 ![2, 0] a16 slices_S3x64_S1x64_2_0 : FVec Ideal S1x64 .f32) shapeCasts_S1x64_S64 : FVec Ideal S64 .f32) : FVec Ideal S1x64 .f32) : FVec Ideal S100000x64 .f32) : FVec Ideal S100000x64 .f32)

/-- The column means of layer 3's linear output. -/
def val_v295 (x_v288 : FVec Ideal S100000x64 .f32) :
    FVec Ideal S64 .f32 :=
  (Host.divf (Host.reduceAdd x_v288 (constant (F := Ideal) S_ .f32 0x00000000#32 : FVec Ideal S_ .f32) reducesTo_S100000x64_S64_d0 h_S_ : FVec Ideal S64 .f32) (broadcastInDim S64 ![] bcast_S_S64 (constant (F := Ideal) S_ .f32 0x47C35000#32 : FVec Ideal S_ .f32) : FVec Ideal S64 .f32) : FVec Ideal S64 .f32)

/-- The column variances of layer 3's linear output. -/
def val_v296 (x_v288 : FVec Ideal S100000x64 .f32) :
    FVec Ideal S64 .f32 :=
  (select (broadcastInDim S64 ![] bcast_S_S64 (cmpf .ogt (subf (constant (F := Ideal) S_ .f32 0x47C35000#32 : FVec Ideal S_ .f32) (sitofp .f32 (constantI S_ 32 0#32 : IVec S_ 32) : FVec Ideal S_ .f32) : FVec Ideal S_ .f32) (constant (F := Ideal) S_ .f32 0x00000000#32 : FVec Ideal S_ .f32) : IVec S_ 1)) (Host.divf (Host.reduceAdd (mulf (subf x_v288 (broadcastInDim S100000x64 ![0, 1] bcast_S1x64_S100000x64_0_1 (Host.divf (broadcastInDim S1x64 ![1] bcast_S64_S1x64_1 (Host.reduceAdd x_v288 (constant (F := Ideal) S_ .f32 0x00000000#32 : FVec Ideal S_ .f32) reducesTo_S100000x64_S64_d0 h_S_ : FVec Ideal S64 .f32) : FVec Ideal S1x64 .f32) (broadcastInDim S1x64 ![] bcast_S_S1x64 (constant (F := Ideal) S_ .f32 0x47C35000#32 : FVec Ideal S_ .f32) : FVec Ideal S1x64 .f32) : FVec Ideal S1x64 .f32) : FVec Ideal S100000x64 .f32) : FVec Ideal S100000x64 .f32) (subf x_v288 (broadcastInDim S100000x64 ![0, 1] bcast_S1x64_S100000x64_0_1 (Host.divf (broadcastInDim S1x64 ![1] bcast_S64_S1x64_1 (Host.reduceAdd x_v288 (constant (F := Ideal) S_ .f32 0x00000000#32 : FVec Ideal S_ .f32) reducesTo_S100000x64_S64_d0 h_S_ : FVec Ideal S64 .f32) : FVec Ideal S1x64 .f32) (broadcastInDim S1x64 ![] bcast_S_S1x64 (constant (F := Ideal) S_ .f32 0x47C35000#32 : FVec Ideal S_ .f32) : FVec Ideal S1x64 .f32) : FVec Ideal S1x64 .f32) : FVec Ideal S100000x64 .f32) : FVec Ideal S100000x64 .f32) : FVec Ideal S100000x64 .f32) (constant (F := Ideal) S_ .f32 0x00000000#32 : FVec Ideal S_ .f32) reducesTo_S100000x64_S64_d0 h_S_ : FVec Ideal S64 .f32) (broadcastInDim S64 ![] bcast_S_S64 (subf (constant (F := Ideal) S_ .f32 0x47C35000#32 : FVec Ideal S_ .f32) (sitofp .f32 (constantI S_ 32 0#32 : IVec S_ 32) : FVec Ideal S_ .f32) : FVec Ideal S_ .f32) : FVec Ideal S64 .f32) : FVec Ideal S64 .f32) (broadcastInDim S64 ![] bcast_S_S64 (id (constant (F := Ideal) S_ .f32 0x7FC00000#32 : FVec Ideal S_ .f32) : FVec Ideal S_ .f32) : FVec Ideal S64 .f32) : FVec Ideal S64 .f32)

/-- The result: layer 3's output (normalised linear output, scaled and shifted by row 3 of the tables, plus the gated h, clamped at zero) times the classifier weights plus its bias row. -/
def val_v317 (x_v264 : FVec Ideal S100000x64 .f32) (x_v288 : FVec Ideal S100000x64 .f32) (x_v295 : FVec Ideal S64 .f32) (x_v296 : FVec Ideal S64 .f32) (a17 : FVec Ideal S4x64 .f32) (a18 : FVec Ideal S4x64 .f32) (a19 : FVec Ideal S64x16 .f32) (a20 : FVec Ideal S16 .f32) :
    FVec Ideal S100000x16 .f32 :=
  (addf (Host.dotGeneral dot_S100000x64_S64x16_S100000x16_1_0_0_1_n_n none (maximumf (addf (addf (mulf (mulf (subf x_v288 (broadcastInDim S100000x64 ![0, 1] bcast_S1x64_S100000x64_0_1 (broadcastInDim S1x64 ![1] bcast_S64_S1x64_1 x_v295 : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (Host.rsqrt (addf x_v296 (broadcastInDim S64 ![] bcast_S_S64 (constant (F := Ideal) S_ .f32 0x3727C5AC#32 : FVec Ideal S_ .f32) : FVec Ideal S64 .f32) : FVec Ideal S64 .f32) : FVec Ideal S64 .f32) : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (shapeCast S64 (extractStridedSlice S1x64 ![3, 0] a17 slices_S4x64_S1x64_3_0 : FVec Ideal S1x64 .f32) shapeCasts_S1x64_S64 : FVec Ideal S64 .f32) : FVec Ideal S1x64 .f32) : FVec Ideal S100000x64 .f32) : FVec Ideal S100000x64 .f32) (broadcastInDim S100000x64 ![0, 1] bcast_S1x64_S100000x64_0_1 (broadcastInDim S1x64 ![1] bcast_S64_S1x64_1 (shapeCast S64 (extractStridedSlice S1x64 ![3, 0] a18 slices_S4x64_S1x64_3_0 : FVec Ideal S1x64 .f32) shapeCasts_S1x64_S64 : FVec Ideal S64 .f32) : FVec Ideal S1x64 .f32) : FVec Ideal S100000x64 .f32) : FVec Ideal S100000x64 .f32) x_v264 : FVec Ideal S100000x64 .f32) (broadcastInDim S100000x64 ![] bcast_S_S100000x64 (constant (F := Ideal) S_ .f32 0x00000000#32 : FVec Ideal S_ .f32) : FVec Ideal S100000x64 .f32) : FVec Ideal S100000x64 .f32) a19 : FVec Ideal S100000x16 .f32) (broadcastInDim S100000x16 ![0, 1] bcast_S1x16_S100000x16_0_1 (broadcastInDim S1x16 ![1] bcast_S16_S1x16_1 a20 : FVec Ideal S1x16 .f32) : FVec Ideal S100000x16 .f32) : FVec Ideal S100000x16 .f32)

end Cert.ReferenceIdeal.RefRun

end
-- ==== Proof.RefStagesCasts.lean ====
/-
  Typed references at literal buffers carry no transport.

  A module-local function's operations are stated over references that carry the tensor value's type; at a call site
  the reference is a literal buffer whose type IS that type, so moving contents to and from the buffer's own type is the
  identity.  Per buffer and direction the same fact (each by computation) is stated for a value given at the carried
  type, at the buffer's own type, and as a plain vector; and the round trip for any typed reference.
-/
import proofs.«130402_j14499809591446_2_alg».proof.ReferenceIdeal
import Idealize.ShloMosaic.Lib.StableHlo

noncomputable section

namespace Cert.ReferenceIdeal.RefRun

open Cert.ReferenceIdeal Idealize.ShloMosaic Idealize.ShloMosaic.StableHlo

variable {Val : EltTy → Type} {F : FTy → Type}

/-- To the buffer's type and back is the identity. -/
theorem ofBuf_toBuf {sig : RefSig} {T : BufTy} (x : TRef sig T) (v : T.Contents Val) : x.ofBuf (x.toBuf v) = v := by
  obtain ⟨r, h, h2, h3⟩ := x
  subst h
  rfl

/-- A typed reference whose carried type is the buffer's own type moves nothing. -/
theorem toBuf_self {sig : RefSig} (r : Ref sig .tc) (h1 : r.ty = r.ty) (h2 h3) (v : r.ty.Contents Val) :
    (TRef.of (T := r.ty) r h1 h2 h3).toBuf v = v := rfl
theorem ofBuf_self {sig : RefSig} (r : Ref sig .tc) (h1 : r.ty = r.ty) (h2 h3) (v : r.ty.Contents Val) :
    (TRef.of (T := r.ty) r h1 h2 h3).ofBuf v = v := rfl

theorem toBuf_main_call0_v0 (h1 h2 h3) (v : (⟨S_, .f32⟩ : BufTy).Contents Val) :
    (TRef.of (sig := sig) (T := ⟨S_, .f32⟩) main_call0_v0 h1 h2 h3).toBuf v = v := rfl
theorem toBuf_main_call0_v0_v (h1 h2 h3) (v : FVec F S_ .f32) :
    (TRef.of (sig := sig) (T := ⟨S_, .f32⟩) main_call0_v0 h1 h2 h3).toBuf (Val := Elt F) v = v := rfl
theorem ofBuf_main_call0_v0 (h1 h2 h3) (v : (⟨S_, .f32⟩ : BufTy).Contents Val) :
    (TRef.of (sig := sig) (T := ⟨S_, .f32⟩) main_call0_v0 h1 h2 h3).ofBuf v = v := rfl
theorem ofBuf_main_call0_v0_d (h1 h2 h3) (v : (Proc.devRef (τ := τ) .tc main_call0_v0).ty.Contents Val) :
    (TRef.of (sig := sig) (T := ⟨S_, .f32⟩) main_call0_v0 h1 h2 h3).ofBuf v = v := rfl
theorem ofBuf_main_call0_v0_v (h1 h2 h3) (v : FVec F S_ .f32) :
    (TRef.of (sig := sig) (T := ⟨S_, .f32⟩) main_call0_v0 h1 h2 h3).ofBuf (Val := Elt F) v = v := rfl
theorem toBuf_main_cst_1 (h1 h2 h3) (v : (⟨S_, .f32⟩ : BufTy).Contents Val) :
    (TRef.of (sig := sig) (T := ⟨S_, .f32⟩) main_cst_1 h1 h2 h3).toBuf v = v := rfl
theorem toBuf_main_cst_1_v (h1 h2 h3) (v : FVec F S_ .f32) :
    (TRef.of (sig := sig) (T := ⟨S_, .f32⟩) main_cst_1 h1 h2 h3).toBuf (Val := Elt F) v = v := rfl
theorem ofBuf_main_cst_1 (h1 h2 h3) (v : (⟨S_, .f32⟩ : BufTy).Contents Val) :
    (TRef.of (sig := sig) (T := ⟨S_, .f32⟩) main_cst_1 h1 h2 h3).ofBuf v = v := rfl
theorem ofBuf_main_cst_1_d (h1 h2 h3) (v : (Proc.devRef (τ := τ) .tc main_cst_1).ty.Contents Val) :
    (TRef.of (sig := sig) (T := ⟨S_, .f32⟩) main_cst_1 h1 h2 h3).ofBuf v = v := rfl
theorem ofBuf_main_cst_1_v (h1 h2 h3) (v : FVec F S_ .f32) :
    (TRef.of (sig := sig) (T := ⟨S_, .f32⟩) main_cst_1 h1 h2 h3).ofBuf (Val := Elt F) v = v := rfl
theorem toBuf_main_call0_v1 (h1 h2 h3) (v : (⟨S100000, .f32⟩ : BufTy).Contents Val) :
    (TRef.of (sig := sig) (T := ⟨S100000, .f32⟩) main_call0_v1 h1 h2 h3).toBuf v = v := rfl
theorem toBuf_main_call0_v1_v (h1 h2 h3) (v : FVec F S100000 .f32) :
    (TRef.of (sig := sig) (T := ⟨S100000, .f32⟩) main_call0_v1 h1 h2 h3).toBuf (Val := Elt F) v = v := rfl
theorem ofBuf_main_call0_v1 (h1 h2 h3) (v : (⟨S100000, .f32⟩ : BufTy).Contents Val) :
    (TRef.of (sig := sig) (T := ⟨S100000, .f32⟩) main_call0_v1 h1 h2 h3).ofBuf v = v := rfl
theorem ofBuf_main_call0_v1_d (h1 h2 h3) (v : (Proc.devRef (τ := τ) .tc main_call0_v1).ty.Contents Val) :
    (TRef.of (sig := sig) (T := ⟨S100000, .f32⟩) main_call0_v1 h1 h2 h3).ofBuf v = v := rfl
theorem ofBuf_main_call0_v1_v (h1 h2 h3) (v : FVec F S100000 .f32) :
    (TRef.of (sig := sig) (T := ⟨S100000, .f32⟩) main_call0_v1 h1 h2 h3).ofBuf (Val := Elt F) v = v := rfl
theorem toBuf_main_v4 (h1 h2 h3) (v : (⟨S100000, .f32⟩ : BufTy).Contents Val) :
    (TRef.of (sig := sig) (T := ⟨S100000, .f32⟩) main_v4 h1 h2 h3).toBuf v = v := rfl
theorem toBuf_main_v4_v (h1 h2 h3) (v : FVec F S100000 .f32) :
    (TRef.of (sig := sig) (T := ⟨S100000, .f32⟩) main_v4 h1 h2 h3).toBuf (Val := Elt F) v = v := rfl
theorem ofBuf_main_v4 (h1 h2 h3) (v : (⟨S100000, .f32⟩ : BufTy).Contents Val) :
    (TRef.of (sig := sig) (T := ⟨S100000, .f32⟩) main_v4 h1 h2 h3).ofBuf v = v := rfl
theorem ofBuf_main_v4_d (h1 h2 h3) (v : (Proc.devRef (τ := τ) .tc main_v4).ty.Contents Val) :
    (TRef.of (sig := sig) (T := ⟨S100000, .f32⟩) main_v4 h1 h2 h3).ofBuf v = v := rfl
theorem ofBuf_main_v4_v (h1 h2 h3) (v : FVec F S100000 .f32) :
    (TRef.of (sig := sig) (T := ⟨S100000, .f32⟩) main_v4 h1 h2 h3).ofBuf (Val := Elt F) v = v := rfl
theorem toBuf_main_v3 (h1 h2 h3) (v : (⟨S100000, .f32⟩ : BufTy).Contents Val) :
    (TRef.of (sig := sig) (T := ⟨S100000, .f32⟩) main_v3 h1 h2 h3).toBuf v = v := rfl
theorem toBuf_main_v3_v (h1 h2 h3) (v : FVec F S100000 .f32) :
    (TRef.of (sig := sig) (T := ⟨S100000, .f32⟩) main_v3 h1 h2 h3).toBuf (Val := Elt F) v = v := rfl
theorem ofBuf_main_v3 (h1 h2 h3) (v : (⟨S100000, .f32⟩ : BufTy).Contents Val) :
    (TRef.of (sig := sig) (T := ⟨S100000, .f32⟩) main_v3 h1 h2 h3).ofBuf v = v := rfl
theorem ofBuf_main_v3_d (h1 h2 h3) (v : (Proc.devRef (τ := τ) .tc main_v3).ty.Contents Val) :
    (TRef.of (sig := sig) (T := ⟨S100000, .f32⟩) main_v3 h1 h2 h3).ofBuf v = v := rfl
theorem ofBuf_main_v3_v (h1 h2 h3) (v : FVec F S100000 .f32) :
    (TRef.of (sig := sig) (T := ⟨S100000, .f32⟩) main_v3 h1 h2 h3).ofBuf (Val := Elt F) v = v := rfl
theorem toBuf_main_call1_v0 (h1 h2 h3) (v : (⟨S_, .f32⟩ : BufTy).Contents Val) :
    (TRef.of (sig := sig) (T := ⟨S_, .f32⟩) main_call1_v0 h1 h2 h3).toBuf v = v := rfl
theorem toBuf_main_call1_v0_v (h1 h2 h3) (v : FVec F S_ .f32) :
    (TRef.of (sig := sig) (T := ⟨S_, .f32⟩) main_call1_v0 h1 h2 h3).toBuf (Val := Elt F) v = v := rfl
theorem ofBuf_main_call1_v0 (h1 h2 h3) (v : (⟨S_, .f32⟩ : BufTy).Contents Val) :
    (TRef.of (sig := sig) (T := ⟨S_, .f32⟩) main_call1_v0 h1 h2 h3).ofBuf v = v := rfl
theorem ofBuf_main_call1_v0_d (h1 h2 h3) (v : (Proc.devRef (τ := τ) .tc main_call1_v0).ty.Contents Val) :
    (TRef.of (sig := sig) (T := ⟨S_, .f32⟩) main_call1_v0 h1 h2 h3).ofBuf v = v := rfl
theorem ofBuf_main_call1_v0_v (h1 h2 h3) (v : FVec F S_ .f32) :
    (TRef.of (sig := sig) (T := ⟨S_, .f32⟩) main_call1_v0 h1 h2 h3).ofBuf (Val := Elt F) v = v := rfl
theorem toBuf_main_cst_3 (h1 h2 h3) (v : (⟨S_, .f32⟩ : BufTy).Contents Val) :
    (TRef.of (sig := sig) (T := ⟨S_, .f32⟩) main_cst_3 h1 h2 h3).toBuf v = v := rfl
theorem toBuf_main_cst_3_v (h1 h2 h3) (v : FVec F S_ .f32) :
    (TRef.of (sig := sig) (T := ⟨S_, .f32⟩) main_cst_3 h1 h2 h3).toBuf (Val := Elt F) v = v := rfl
theorem ofBuf_main_cst_3 (h1 h2 h3) (v : (⟨S_, .f32⟩ : BufTy).Contents Val) :
    (TRef.of (sig := sig) (T := ⟨S_, .f32⟩) main_cst_3 h1 h2 h3).ofBuf v = v := rfl
theorem ofBuf_main_cst_3_d (h1 h2 h3) (v : (Proc.devRef (τ := τ) .tc main_cst_3).ty.Contents Val) :
    (TRef.of (sig := sig) (T := ⟨S_, .f32⟩) main_cst_3 h1 h2 h3).ofBuf v = v := rfl
theorem ofBuf_main_cst_3_v (h1 h2 h3) (v : FVec F S_ .f32) :
    (TRef.of (sig := sig) (T := ⟨S_, .f32⟩) main_cst_3 h1 h2 h3).ofBuf (Val := Elt F) v = v := rfl
theorem toBuf_main_call1_v1 (h1 h2 h3) (v : (⟨S100000, .f32⟩ : BufTy).Contents Val) :
    (TRef.of (sig := sig) (T := ⟨S100000, .f32⟩) main_call1_v1 h1 h2 h3).toBuf v = v := rfl
theorem toBuf_main_call1_v1_v (h1 h2 h3) (v : FVec F S100000 .f32) :
    (TRef.of (sig := sig) (T := ⟨S100000, .f32⟩) main_call1_v1 h1 h2 h3).toBuf (Val := Elt F) v = v := rfl
theorem ofBuf_main_call1_v1 (h1 h2 h3) (v : (⟨S100000, .f32⟩ : BufTy).Contents Val) :
    (TRef.of (sig := sig) (T := ⟨S100000, .f32⟩) main_call1_v1 h1 h2 h3).ofBuf v = v := rfl
theorem ofBuf_main_call1_v1_d (h1 h2 h3) (v : (Proc.devRef (τ := τ) .tc main_call1_v1).ty.Contents Val) :
    (TRef.of (sig := sig) (T := ⟨S100000, .f32⟩) main_call1_v1 h1 h2 h3).ofBuf v = v := rfl
theorem ofBuf_main_call1_v1_v (h1 h2 h3) (v : FVec F S100000 .f32) :
    (TRef.of (sig := sig) (T := ⟨S100000, .f32⟩) main_call1_v1 h1 h2 h3).ofBuf (Val := Elt F) v = v := rfl
theorem toBuf_main_v8 (h1 h2 h3) (v : (⟨S100000, .f32⟩ : BufTy).Contents Val) :
    (TRef.of (sig := sig) (T := ⟨S100000, .f32⟩) main_v8 h1 h2 h3).toBuf v = v := rfl
theorem toBuf_main_v8_v (h1 h2 h3) (v : FVec F S100000 .f32) :
    (TRef.of (sig := sig) (T := ⟨S100000, .f32⟩) main_v8 h1 h2 h3).toBuf (Val := Elt F) v = v := rfl
theorem ofBuf_main_v8 (h1 h2 h3) (v : (⟨S100000, .f32⟩ : BufTy).Contents Val) :
    (TRef.of (sig := sig) (T := ⟨S100000, .f32⟩) main_v8 h1 h2 h3).ofBuf v = v := rfl
theorem ofBuf_main_v8_d (h1 h2 h3) (v : (Proc.devRef (τ := τ) .tc main_v8).ty.Contents Val) :
    (TRef.of (sig := sig) (T := ⟨S100000, .f32⟩) main_v8 h1 h2 h3).ofBuf v = v := rfl
theorem ofBuf_main_v8_v (h1 h2 h3) (v : FVec F S100000 .f32) :
    (TRef.of (sig := sig) (T := ⟨S100000, .f32⟩) main_v8 h1 h2 h3).ofBuf (Val := Elt F) v = v := rfl
theorem toBuf_main_v7 (h1 h2 h3) (v : (⟨S100000, .f32⟩ : BufTy).Contents Val) :
    (TRef.of (sig := sig) (T := ⟨S100000, .f32⟩) main_v7 h1 h2 h3).toBuf v = v := rfl
theorem toBuf_main_v7_v (h1 h2 h3) (v : FVec F S100000 .f32) :
    (TRef.of (sig := sig) (T := ⟨S100000, .f32⟩) main_v7 h1 h2 h3).toBuf (Val := Elt F) v = v := rfl
theorem ofBuf_main_v7 (h1 h2 h3) (v : (⟨S100000, .f32⟩ : BufTy).Contents Val) :
    (TRef.of (sig := sig) (T := ⟨S100000, .f32⟩) main_v7 h1 h2 h3).ofBuf v = v := rfl
theorem ofBuf_main_v7_d (h1 h2 h3) (v : (Proc.devRef (τ := τ) .tc main_v7).ty.Contents Val) :
    (TRef.of (sig := sig) (T := ⟨S100000, .f32⟩) main_v7 h1 h2 h3).ofBuf v = v := rfl
theorem ofBuf_main_v7_v (h1 h2 h3) (v : FVec F S100000 .f32) :
    (TRef.of (sig := sig) (T := ⟨S100000, .f32⟩) main_v7 h1 h2 h3).ofBuf (Val := Elt F) v = v := rfl
theorem toBuf_main_call2_cst (h1 h2 h3) (v : (⟨S_, .f32⟩ : BufTy).Contents Val) :
    (TRef.of (sig := sig) (T := ⟨S_, .f32⟩) main_call2_cst h1 h2 h3).toBuf v = v := rfl
theorem toBuf_main_call2_cst_v (h1 h2 h3) (v : FVec F S_ .f32) :
    (TRef.of (sig := sig) (T := ⟨S_, .f32⟩) main_call2_cst h1 h2 h3).toBuf (Val := Elt F) v = v := rfl
theorem ofBuf_main_call2_cst (h1 h2 h3) (v : (⟨S_, .f32⟩ : BufTy).Contents Val) :
    (TRef.of (sig := sig) (T := ⟨S_, .f32⟩) main_call2_cst h1 h2 h3).ofBuf v = v := rfl
theorem ofBuf_main_call2_cst_d (h1 h2 h3) (v : (Proc.devRef (τ := τ) .tc main_call2_cst).ty.Contents Val) :
    (TRef.of (sig := sig) (T := ⟨S_, .f32⟩) main_call2_cst h1 h2 h3).ofBuf v = v := rfl
theorem ofBuf_main_call2_cst_v (h1 h2 h3) (v : FVec F S_ .f32) :
    (TRef.of (sig := sig) (T := ⟨S_, .f32⟩) main_call2_cst h1 h2 h3).ofBuf (Val := Elt F) v = v := rfl
theorem toBuf_main_call2_v0 (h1 h2 h3) (v : (⟨S100000x64, .f32⟩ : BufTy).Contents Val) :
    (TRef.of (sig := sig) (T := ⟨S100000x64, .f32⟩) main_call2_v0 h1 h2 h3).toBuf v = v := rfl
theorem toBuf_main_call2_v0_v (h1 h2 h3) (v : FVec F S100000x64 .f32) :
    (TRef.of (sig := sig) (T := ⟨S100000x64, .f32⟩) main_call2_v0 h1 h2 h3).toBuf (Val := Elt F) v = v := rfl
theorem ofBuf_main_call2_v0 (h1 h2 h3) (v : (⟨S100000x64, .f32⟩ : BufTy).Contents Val) :
    (TRef.of (sig := sig) (T := ⟨S100000x64, .f32⟩) main_call2_v0 h1 h2 h3).ofBuf v = v := rfl
theorem ofBuf_main_call2_v0_d (h1 h2 h3) (v : (Proc.devRef (τ := τ) .tc main_call2_v0).ty.Contents Val) :
    (TRef.of (sig := sig) (T := ⟨S100000x64, .f32⟩) main_call2_v0 h1 h2 h3).ofBuf v = v := rfl
theorem ofBuf_main_call2_v0_v (h1 h2 h3) (v : FVec F S100000x64 .f32) :
    (TRef.of (sig := sig) (T := ⟨S100000x64, .f32⟩) main_call2_v0 h1 h2 h3).ofBuf (Val := Elt F) v = v := rfl
theorem toBuf_main_v17 (h1 h2 h3) (v : (⟨S100000x64, .f32⟩ : BufTy).Contents Val) :
    (TRef.of (sig := sig) (T := ⟨S100000x64, .f32⟩) main_v17 h1 h2 h3).toBuf v = v := rfl
theorem toBuf_main_v17_v (h1 h2 h3) (v : FVec F S100000x64 .f32) :
    (TRef.of (sig := sig) (T := ⟨S100000x64, .f32⟩) main_v17 h1 h2 h3).toBuf (Val := Elt F) v = v := rfl
theorem ofBuf_main_v17 (h1 h2 h3) (v : (⟨S100000x64, .f32⟩ : BufTy).Contents Val) :
    (TRef.of (sig := sig) (T := ⟨S100000x64, .f32⟩) main_v17 h1 h2 h3).ofBuf v = v := rfl
theorem ofBuf_main_v17_d (h1 h2 h3) (v : (Proc.devRef (τ := τ) .tc main_v17).ty.Contents Val) :
    (TRef.of (sig := sig) (T := ⟨S100000x64, .f32⟩) main_v17 h1 h2 h3).ofBuf v = v := rfl
theorem ofBuf_main_v17_v (h1 h2 h3) (v : FVec F S100000x64 .f32) :
    (TRef.of (sig := sig) (T := ⟨S100000x64, .f32⟩) main_v17 h1 h2 h3).ofBuf (Val := Elt F) v = v := rfl
theorem toBuf_main_v16 (h1 h2 h3) (v : (⟨S100000x64, .f32⟩ : BufTy).Contents Val) :
    (TRef.of (sig := sig) (T := ⟨S100000x64, .f32⟩) main_v16 h1 h2 h3).toBuf v = v := rfl
theorem toBuf_main_v16_v (h1 h2 h3) (v : FVec F S100000x64 .f32) :
    (TRef.of (sig := sig) (T := ⟨S100000x64, .f32⟩) main_v16 h1 h2 h3).toBuf (Val := Elt F) v = v := rfl
theorem ofBuf_main_v16 (h1 h2 h3) (v : (⟨S100000x64, .f32⟩ : BufTy).Contents Val) :
    (TRef.of (sig := sig) (T := ⟨S100000x64, .f32⟩) main_v16 h1 h2 h3).ofBuf v = v := rfl
theorem ofBuf_main_v16_d (h1 h2 h3) (v : (Proc.devRef (τ := τ) .tc main_v16).ty.Contents Val) :
    (TRef.of (sig := sig) (T := ⟨S100000x64, .f32⟩) main_v16 h1 h2 h3).ofBuf v = v := rfl
theorem ofBuf_main_v16_v (h1 h2 h3) (v : FVec F S100000x64 .f32) :
    (TRef.of (sig := sig) (T := ⟨S100000x64, .f32⟩) main_v16 h1 h2 h3).ofBuf (Val := Elt F) v = v := rfl
theorem toBuf_main_call3_cst (h1 h2 h3) (v : (⟨S_, .f32⟩ : BufTy).Contents Val) :
    (TRef.of (sig := sig) (T := ⟨S_, .f32⟩) main_call3_cst h1 h2 h3).toBuf v = v := rfl
theorem toBuf_main_call3_cst_v (h1 h2 h3) (v : FVec F S_ .f32) :
    (TRef.of (sig := sig) (T := ⟨S_, .f32⟩) main_call3_cst h1 h2 h3).toBuf (Val := Elt F) v = v := rfl
theorem ofBuf_main_call3_cst (h1 h2 h3) (v : (⟨S_, .f32⟩ : BufTy).Contents Val) :
    (TRef.of (sig := sig) (T := ⟨S_, .f32⟩) main_call3_cst h1 h2 h3).ofBuf v = v := rfl
theorem ofBuf_main_call3_cst_d (h1 h2 h3) (v : (Proc.devRef (τ := τ) .tc main_call3_cst).ty.Contents Val) :
    (TRef.of (sig := sig) (T := ⟨S_, .f32⟩) main_call3_cst h1 h2 h3).ofBuf v = v := rfl
theorem ofBuf_main_call3_cst_v (h1 h2 h3) (v : FVec F S_ .f32) :
    (TRef.of (sig := sig) (T := ⟨S_, .f32⟩) main_call3_cst h1 h2 h3).ofBuf (Val := Elt F) v = v := rfl
theorem toBuf_main_call3_v0 (h1 h2 h3) (v : (⟨S100000x32, .f32⟩ : BufTy).Contents Val) :
    (TRef.of (sig := sig) (T := ⟨S100000x32, .f32⟩) main_call3_v0 h1 h2 h3).toBuf v = v := rfl
theorem toBuf_main_call3_v0_v (h1 h2 h3) (v : FVec F S100000x32 .f32) :
    (TRef.of (sig := sig) (T := ⟨S100000x32, .f32⟩) main_call3_v0 h1 h2 h3).toBuf (Val := Elt F) v = v := rfl
theorem ofBuf_main_call3_v0 (h1 h2 h3) (v : (⟨S100000x32, .f32⟩ : BufTy).Contents Val) :
    (TRef.of (sig := sig) (T := ⟨S100000x32, .f32⟩) main_call3_v0 h1 h2 h3).ofBuf v = v := rfl
theorem ofBuf_main_call3_v0_d (h1 h2 h3) (v : (Proc.devRef (τ := τ) .tc main_call3_v0).ty.Contents Val) :
    (TRef.of (sig := sig) (T := ⟨S100000x32, .f32⟩) main_call3_v0 h1 h2 h3).ofBuf v = v := rfl
theorem ofBuf_main_call3_v0_v (h1 h2 h3) (v : FVec F S100000x32 .f32) :
    (TRef.of (sig := sig) (T := ⟨S100000x32, .f32⟩) main_call3_v0 h1 h2 h3).ofBuf (Val := Elt F) v = v := rfl
theorem toBuf_main_v22 (h1 h2 h3) (v : (⟨S100000x32, .f32⟩ : BufTy).Contents Val) :
    (TRef.of (sig := sig) (T := ⟨S100000x32, .f32⟩) main_v22 h1 h2 h3).toBuf v = v := rfl
theorem toBuf_main_v22_v (h1 h2 h3) (v : FVec F S100000x32 .f32) :
    (TRef.of (sig := sig) (T := ⟨S100000x32, .f32⟩) main_v22 h1 h2 h3).toBuf (Val := Elt F) v = v := rfl
theorem ofBuf_main_v22 (h1 h2 h3) (v : (⟨S100000x32, .f32⟩ : BufTy).Contents Val) :
    (TRef.of (sig := sig) (T := ⟨S100000x32, .f32⟩) main_v22 h1 h2 h3).ofBuf v = v := rfl
theorem ofBuf_main_v22_d (h1 h2 h3) (v : (Proc.devRef (τ := τ) .tc main_v22).ty.Contents Val) :
    (TRef.of (sig := sig) (T := ⟨S100000x32, .f32⟩) main_v22 h1 h2 h3).ofBuf v = v := rfl
theorem ofBuf_main_v22_v (h1 h2 h3) (v : FVec F S100000x32 .f32) :
    (TRef.of (sig := sig) (T := ⟨S100000x32, .f32⟩) main_v22 h1 h2 h3).ofBuf (Val := Elt F) v = v := rfl
theorem toBuf_main_v21 (h1 h2 h3) (v : (⟨S100000x32, .f32⟩ : BufTy).Contents Val) :
    (TRef.of (sig := sig) (T := ⟨S100000x32, .f32⟩) main_v21 h1 h2 h3).toBuf v = v := rfl
theorem toBuf_main_v21_v (h1 h2 h3) (v : FVec F S100000x32 .f32) :
    (TRef.of (sig := sig) (T := ⟨S100000x32, .f32⟩) main_v21 h1 h2 h3).toBuf (Val := Elt F) v = v := rfl
theorem ofBuf_main_v21 (h1 h2 h3) (v : (⟨S100000x32, .f32⟩ : BufTy).Contents Val) :
    (TRef.of (sig := sig) (T := ⟨S100000x32, .f32⟩) main_v21 h1 h2 h3).ofBuf v = v := rfl
theorem ofBuf_main_v21_d (h1 h2 h3) (v : (Proc.devRef (τ := τ) .tc main_v21).ty.Contents Val) :
    (TRef.of (sig := sig) (T := ⟨S100000x32, .f32⟩) main_v21 h1 h2 h3).ofBuf v = v := rfl
theorem ofBuf_main_v21_v (h1 h2 h3) (v : FVec F S100000x32 .f32) :
    (TRef.of (sig := sig) (T := ⟨S100000x32, .f32⟩) main_v21 h1 h2 h3).ofBuf (Val := Elt F) v = v := rfl
theorem toBuf_main_call4_cst (h1 h2 h3) (v : (⟨S_, .f32⟩ : BufTy).Contents Val) :
    (TRef.of (sig := sig) (T := ⟨S_, .f32⟩) main_call4_cst h1 h2 h3).toBuf v = v := rfl
theorem toBuf_main_call4_cst_v (h1 h2 h3) (v : FVec F S_ .f32) :
    (TRef.of (sig := sig) (T := ⟨S_, .f32⟩) main_call4_cst h1 h2 h3).toBuf (Val := Elt F) v = v := rfl
theorem ofBuf_main_call4_cst (h1 h2 h3) (v : (⟨S_, .f32⟩ : BufTy).Contents Val) :
    (TRef.of (sig := sig) (T := ⟨S_, .f32⟩) main_call4_cst h1 h2 h3).ofBuf v = v := rfl
theorem ofBuf_main_call4_cst_d (h1 h2 h3) (v : (Proc.devRef (τ := τ) .tc main_call4_cst).ty.Contents Val) :
    (TRef.of (sig := sig) (T := ⟨S_, .f32⟩) main_call4_cst h1 h2 h3).ofBuf v = v := rfl
theorem ofBuf_main_call4_cst_v (h1 h2 h3) (v : FVec F S_ .f32) :
    (TRef.of (sig := sig) (T := ⟨S_, .f32⟩) main_call4_cst h1 h2 h3).ofBuf (Val := Elt F) v = v := rfl
theorem toBuf_main_call4_v0 (h1 h2 h3) (v : (⟨S64, .f32⟩ : BufTy).Contents Val) :
    (TRef.of (sig := sig) (T := ⟨S64, .f32⟩) main_call4_v0 h1 h2 h3).toBuf v = v := rfl
theorem toBuf_main_call4_v0_v (h1 h2 h3) (v : FVec F S64 .f32) :
    (TRef.of (sig := sig) (T := ⟨S64, .f32⟩) main_call4_v0 h1 h2 h3).toBuf (Val := Elt F) v = v := rfl
theorem ofBuf_main_call4_v0 (h1 h2 h3) (v : (⟨S64, .f32⟩ : BufTy).Contents Val) :
    (TRef.of (sig := sig) (T := ⟨S64, .f32⟩) main_call4_v0 h1 h2 h3).ofBuf v = v := rfl
theorem ofBuf_main_call4_v0_d (h1 h2 h3) (v : (Proc.devRef (τ := τ) .tc main_call4_v0).ty.Contents Val) :
    (TRef.of (sig := sig) (T := ⟨S64, .f32⟩) main_call4_v0 h1 h2 h3).ofBuf v = v := rfl
theorem ofBuf_main_call4_v0_v (h1 h2 h3) (v : FVec F S64 .f32) :
    (TRef.of (sig := sig) (T := ⟨S64, .f32⟩) main_call4_v0 h1 h2 h3).ofBuf (Val := Elt F) v = v := rfl
theorem toBuf_main_v46 (h1 h2 h3) (v : (⟨S100000x64, .f32⟩ : BufTy).Contents Val) :
    (TRef.of (sig := sig) (T := ⟨S100000x64, .f32⟩) main_v46 h1 h2 h3).toBuf v = v := rfl
theorem toBuf_main_v46_v (h1 h2 h3) (v : FVec F S100000x64 .f32) :
    (TRef.of (sig := sig) (T := ⟨S100000x64, .f32⟩) main_v46 h1 h2 h3).toBuf (Val := Elt F) v = v := rfl
theorem ofBuf_main_v46 (h1 h2 h3) (v : (⟨S100000x64, .f32⟩ : BufTy).Contents Val) :
    (TRef.of (sig := sig) (T := ⟨S100000x64, .f32⟩) main_v46 h1 h2 h3).ofBuf v = v := rfl
theorem ofBuf_main_v46_d (h1 h2 h3) (v : (Proc.devRef (τ := τ) .tc main_v46).ty.Contents Val) :
    (TRef.of (sig := sig) (T := ⟨S100000x64, .f32⟩) main_v46 h1 h2 h3).ofBuf v = v := rfl
theorem ofBuf_main_v46_v (h1 h2 h3) (v : FVec F S100000x64 .f32) :
    (TRef.of (sig := sig) (T := ⟨S100000x64, .f32⟩) main_v46 h1 h2 h3).ofBuf (Val := Elt F) v = v := rfl
theorem toBuf_main_call4_v1 (h1 h2 h3) (v : (⟨S1x64, .f32⟩ : BufTy).Contents Val) :
    (TRef.of (sig := sig) (T := ⟨S1x64, .f32⟩) main_call4_v1 h1 h2 h3).toBuf v = v := rfl
theorem toBuf_main_call4_v1_v (h1 h2 h3) (v : FVec F S1x64 .f32) :
    (TRef.of (sig := sig) (T := ⟨S1x64, .f32⟩) main_call4_v1 h1 h2 h3).toBuf (Val := Elt F) v = v := rfl
theorem ofBuf_main_call4_v1 (h1 h2 h3) (v : (⟨S1x64, .f32⟩ : BufTy).Contents Val) :
    (TRef.of (sig := sig) (T := ⟨S1x64, .f32⟩) main_call4_v1 h1 h2 h3).ofBuf v = v := rfl
theorem ofBuf_main_call4_v1_d (h1 h2 h3) (v : (Proc.devRef (τ := τ) .tc main_call4_v1).ty.Contents Val) :
    (TRef.of (sig := sig) (T := ⟨S1x64, .f32⟩) main_call4_v1 h1 h2 h3).ofBuf v = v := rfl
theorem ofBuf_main_call4_v1_v (h1 h2 h3) (v : FVec F S1x64 .f32) :
    (TRef.of (sig := sig) (T := ⟨S1x64, .f32⟩) main_call4_v1 h1 h2 h3).ofBuf (Val := Elt F) v = v := rfl
theorem toBuf_main_call4_cst_0 (h1 h2 h3) (v : (⟨S_, .f32⟩ : BufTy).Contents Val) :
    (TRef.of (sig := sig) (T := ⟨S_, .f32⟩) main_call4_cst_0 h1 h2 h3).toBuf v = v := rfl
theorem toBuf_main_call4_cst_0_v (h1 h2 h3) (v : FVec F S_ .f32) :
    (TRef.of (sig := sig) (T := ⟨S_, .f32⟩) main_call4_cst_0 h1 h2 h3).toBuf (Val := Elt F) v = v := rfl
theorem ofBuf_main_call4_cst_0 (h1 h2 h3) (v : (⟨S_, .f32⟩ : BufTy).Contents Val) :
    (TRef.of (sig := sig) (T := ⟨S_, .f32⟩) main_call4_cst_0 h1 h2 h3).ofBuf v = v := rfl
theorem ofBuf_main_call4_cst_0_d (h1 h2 h3) (v : (Proc.devRef (τ := τ) .tc main_call4_cst_0).ty.Contents Val) :
    (TRef.of (sig := sig) (T := ⟨S_, .f32⟩) main_call4_cst_0 h1 h2 h3).ofBuf v = v := rfl
theorem ofBuf_main_call4_cst_0_v (h1 h2 h3) (v : FVec F S_ .f32) :
    (TRef.of (sig := sig) (T := ⟨S_, .f32⟩) main_call4_cst_0 h1 h2 h3).ofBuf (Val := Elt F) v = v := rfl
theorem toBuf_main_call4_v2 (h1 h2 h3) (v : (⟨S1x64, .f32⟩ : BufTy).Contents Val) :
    (TRef.of (sig := sig) (T := ⟨S1x64, .f32⟩) main_call4_v2 h1 h2 h3).toBuf v = v := rfl
theorem toBuf_main_call4_v2_v (h1 h2 h3) (v : FVec F S1x64 .f32) :
    (TRef.of (sig := sig) (T := ⟨S1x64, .f32⟩) main_call4_v2 h1 h2 h3).toBuf (Val := Elt F) v = v := rfl
theorem ofBuf_main_call4_v2 (h1 h2 h3) (v : (⟨S1x64, .f32⟩ : BufTy).Contents Val) :
    (TRef.of (sig := sig) (T := ⟨S1x64, .f32⟩) main_call4_v2 h1 h2 h3).ofBuf v = v := rfl
theorem ofBuf_main_call4_v2_d (h1 h2 h3) (v : (Proc.devRef (τ := τ) .tc main_call4_v2).ty.Contents Val) :
    (TRef.of (sig := sig) (T := ⟨S1x64, .f32⟩) main_call4_v2 h1 h2 h3).ofBuf v = v := rfl
theorem ofBuf_main_call4_v2_v (h1 h2 h3) (v : FVec F S1x64 .f32) :
    (TRef.of (sig := sig) (T := ⟨S1x64, .f32⟩) main_call4_v2 h1 h2 h3).ofBuf (Val := Elt F) v = v := rfl
theorem toBuf_main_call4_v3 (h1 h2 h3) (v : (⟨S1x64, .f32⟩ : BufTy).Contents Val) :
    (TRef.of (sig := sig) (T := ⟨S1x64, .f32⟩) main_call4_v3 h1 h2 h3).toBuf v = v := rfl
theorem toBuf_main_call4_v3_v (h1 h2 h3) (v : FVec F S1x64 .f32) :
    (TRef.of (sig := sig) (T := ⟨S1x64, .f32⟩) main_call4_v3 h1 h2 h3).toBuf (Val := Elt F) v = v := rfl
theorem ofBuf_main_call4_v3 (h1 h2 h3) (v : (⟨S1x64, .f32⟩ : BufTy).Contents Val) :
    (TRef.of (sig := sig) (T := ⟨S1x64, .f32⟩) main_call4_v3 h1 h2 h3).ofBuf v = v := rfl
theorem ofBuf_main_call4_v3_d (h1 h2 h3) (v : (Proc.devRef (τ := τ) .tc main_call4_v3).ty.Contents Val) :
    (TRef.of (sig := sig) (T := ⟨S1x64, .f32⟩) main_call4_v3 h1 h2 h3).ofBuf v = v := rfl
theorem ofBuf_main_call4_v3_v (h1 h2 h3) (v : FVec F S1x64 .f32) :
    (TRef.of (sig := sig) (T := ⟨S1x64, .f32⟩) main_call4_v3 h1 h2 h3).ofBuf (Val := Elt F) v = v := rfl
theorem toBuf_main_call4_v4 (h1 h2 h3) (v : (⟨S100000x64, .f32⟩ : BufTy).Contents Val) :
    (TRef.of (sig := sig) (T := ⟨S100000x64, .f32⟩) main_call4_v4 h1 h2 h3).toBuf v = v := rfl
theorem toBuf_main_call4_v4_v (h1 h2 h3) (v : FVec F S100000x64 .f32) :
    (TRef.of (sig := sig) (T := ⟨S100000x64, .f32⟩) main_call4_v4 h1 h2 h3).toBuf (Val := Elt F) v = v := rfl
theorem ofBuf_main_call4_v4 (h1 h2 h3) (v : (⟨S100000x64, .f32⟩ : BufTy).Contents Val) :
    (TRef.of (sig := sig) (T := ⟨S100000x64, .f32⟩) main_call4_v4 h1 h2 h3).ofBuf v = v := rfl
theorem ofBuf_main_call4_v4_d (h1 h2 h3) (v : (Proc.devRef (τ := τ) .tc main_call4_v4).ty.Contents Val) :
    (TRef.of (sig := sig) (T := ⟨S100000x64, .f32⟩) main_call4_v4 h1 h2 h3).ofBuf v = v := rfl
theorem ofBuf_main_call4_v4_v (h1 h2 h3) (v : FVec F S100000x64 .f32) :
    (TRef.of (sig := sig) (T := ⟨S100000x64, .f32⟩) main_call4_v4 h1 h2 h3).ofBuf (Val := Elt F) v = v := rfl
theorem toBuf_main_call4_v5 (h1 h2 h3) (v : (⟨S100000x64, .f32⟩ : BufTy).Contents Val) :
    (TRef.of (sig := sig) (T := ⟨S100000x64, .f32⟩) main_call4_v5 h1 h2 h3).toBuf v = v := rfl
theorem toBuf_main_call4_v5_v (h1 h2 h3) (v : FVec F S100000x64 .f32) :
    (TRef.of (sig := sig) (T := ⟨S100000x64, .f32⟩) main_call4_v5 h1 h2 h3).toBuf (Val := Elt F) v = v := rfl
theorem ofBuf_main_call4_v5 (h1 h2 h3) (v : (⟨S100000x64, .f32⟩ : BufTy).Contents Val) :
    (TRef.of (sig := sig) (T := ⟨S100000x64, .f32⟩) main_call4_v5 h1 h2 h3).ofBuf v = v := rfl
theorem ofBuf_main_call4_v5_d (h1 h2 h3) (v : (Proc.devRef (τ := τ) .tc main_call4_v5).ty.Contents Val) :
    (TRef.of (sig := sig) (T := ⟨S100000x64, .f32⟩) main_call4_v5 h1 h2 h3).ofBuf v = v := rfl
theorem ofBuf_main_call4_v5_v (h1 h2 h3) (v : FVec F S100000x64 .f32) :
    (TRef.of (sig := sig) (T := ⟨S100000x64, .f32⟩) main_call4_v5 h1 h2 h3).ofBuf (Val := Elt F) v = v := rfl
theorem toBuf_main_call4_v6 (h1 h2 h3) (v : (⟨S100000x64, .f32⟩ : BufTy).Contents Val) :
    (TRef.of (sig := sig) (T := ⟨S100000x64, .f32⟩) main_call4_v6 h1 h2 h3).toBuf v = v := rfl
theorem toBuf_main_call4_v6_v (h1 h2 h3) (v : FVec F S100000x64 .f32) :
    (TRef.of (sig := sig) (T := ⟨S100000x64, .f32⟩) main_call4_v6 h1 h2 h3).toBuf (Val := Elt F) v = v := rfl
theorem ofBuf_main_call4_v6 (h1 h2 h3) (v : (⟨S100000x64, .f32⟩ : BufTy).Contents Val) :
    (TRef.of (sig := sig) (T := ⟨S100000x64, .f32⟩) main_call4_v6 h1 h2 h3).ofBuf v = v := rfl
theorem ofBuf_main_call4_v6_d (h1 h2 h3) (v : (Proc.devRef (τ := τ) .tc main_call4_v6).ty.Contents Val) :
    (TRef.of (sig := sig) (T := ⟨S100000x64, .f32⟩) main_call4_v6 h1 h2 h3).ofBuf v = v := rfl
theorem ofBuf_main_call4_v6_v (h1 h2 h3) (v : FVec F S100000x64 .f32) :
    (TRef.of (sig := sig) (T := ⟨S100000x64, .f32⟩) main_call4_v6 h1 h2 h3).ofBuf (Val := Elt F) v = v := rfl
theorem toBuf_main_call4_v7 (h1 h2 h3) (v : (⟨S_, .f32⟩ : BufTy).Contents Val) :
    (TRef.of (sig := sig) (T := ⟨S_, .f32⟩) main_call4_v7 h1 h2 h3).toBuf v = v := rfl
theorem toBuf_main_call4_v7_v (h1 h2 h3) (v : FVec F S_ .f32) :
    (TRef.of (sig := sig) (T := ⟨S_, .f32⟩) main_call4_v7 h1 h2 h3).toBuf (Val := Elt F) v = v := rfl
theorem ofBuf_main_call4_v7 (h1 h2 h3) (v : (⟨S_, .f32⟩ : BufTy).Contents Val) :
    (TRef.of (sig := sig) (T := ⟨S_, .f32⟩) main_call4_v7 h1 h2 h3).ofBuf v = v := rfl
theorem ofBuf_main_call4_v7_d (h1 h2 h3) (v : (Proc.devRef (τ := τ) .tc main_call4_v7).ty.Contents Val) :
    (TRef.of (sig := sig) (T := ⟨S_, .f32⟩) main_call4_v7 h1 h2 h3).ofBuf v = v := rfl
theorem ofBuf_main_call4_v7_v (h1 h2 h3) (v : FVec F S_ .f32) :
    (TRef.of (sig := sig) (T := ⟨S_, .f32⟩) main_call4_v7 h1 h2 h3).ofBuf (Val := Elt F) v = v := rfl
theorem toBuf_main_c_10 (h1 h2 h3) (v : (⟨S_, .i32⟩ : BufTy).Contents Val) :
    (TRef.of (sig := sig) (T := ⟨S_, .i32⟩) main_c_10 h1 h2 h3).toBuf v = v := rfl
theorem toBuf_main_c_10_v (h1 h2 h3) (v : IVec S_ 32) :
    (TRef.of (sig := sig) (T := ⟨S_, .i32⟩) main_c_10 h1 h2 h3).toBuf (Val := Elt F) v = v := rfl
theorem ofBuf_main_c_10 (h1 h2 h3) (v : (⟨S_, .i32⟩ : BufTy).Contents Val) :
    (TRef.of (sig := sig) (T := ⟨S_, .i32⟩) main_c_10 h1 h2 h3).ofBuf v = v := rfl
theorem ofBuf_main_c_10_d (h1 h2 h3) (v : (Proc.devRef (τ := τ) .tc main_c_10).ty.Contents Val) :
    (TRef.of (sig := sig) (T := ⟨S_, .i32⟩) main_c_10 h1 h2 h3).ofBuf v = v := rfl
theorem ofBuf_main_c_10_v (h1 h2 h3) (v : IVec S_ 32) :
    (TRef.of (sig := sig) (T := ⟨S_, .i32⟩) main_c_10 h1 h2 h3).ofBuf (Val := Elt F) v = v := rfl
theorem toBuf_main_call4_cst_1 (h1 h2 h3) (v : (⟨S_, .f32⟩ : BufTy).Contents Val) :
    (TRef.of (sig := sig) (T := ⟨S_, .f32⟩) main_call4_cst_1 h1 h2 h3).toBuf v = v := rfl
theorem toBuf_main_call4_cst_1_v (h1 h2 h3) (v : FVec F S_ .f32) :
    (TRef.of (sig := sig) (T := ⟨S_, .f32⟩) main_call4_cst_1 h1 h2 h3).toBuf (Val := Elt F) v = v := rfl
theorem ofBuf_main_call4_cst_1 (h1 h2 h3) (v : (⟨S_, .f32⟩ : BufTy).Contents Val) :
    (TRef.of (sig := sig) (T := ⟨S_, .f32⟩) main_call4_cst_1 h1 h2 h3).ofBuf v = v := rfl
theorem ofBuf_main_call4_cst_1_d (h1 h2 h3) (v : (Proc.devRef (τ := τ) .tc main_call4_cst_1).ty.Contents Val) :
    (TRef.of (sig := sig) (T := ⟨S_, .f32⟩) main_call4_cst_1 h1 h2 h3).ofBuf v = v := rfl
theorem ofBuf_main_call4_cst_1_v (h1 h2 h3) (v : FVec F S_ .f32) :
    (TRef.of (sig := sig) (T := ⟨S_, .f32⟩) main_call4_cst_1 h1 h2 h3).ofBuf (Val := Elt F) v = v := rfl
theorem toBuf_main_call4_v8 (h1 h2 h3) (v : (⟨S_, .f32⟩ : BufTy).Contents Val) :
    (TRef.of (sig := sig) (T := ⟨S_, .f32⟩) main_call4_v8 h1 h2 h3).toBuf v = v := rfl
theorem toBuf_main_call4_v8_v (h1 h2 h3) (v : FVec F S_ .f32) :
    (TRef.of (sig := sig) (T := ⟨S_, .f32⟩) main_call4_v8 h1 h2 h3).toBuf (Val := Elt F) v = v := rfl
theorem ofBuf_main_call4_v8 (h1 h2 h3) (v : (⟨S_, .f32⟩ : BufTy).Contents Val) :
    (TRef.of (sig := sig) (T := ⟨S_, .f32⟩) main_call4_v8 h1 h2 h3).ofBuf v = v := rfl
theorem ofBuf_main_call4_v8_d (h1 h2 h3) (v : (Proc.devRef (τ := τ) .tc main_call4_v8).ty.Contents Val) :
    (TRef.of (sig := sig) (T := ⟨S_, .f32⟩) main_call4_v8 h1 h2 h3).ofBuf v = v := rfl
theorem ofBuf_main_call4_v8_v (h1 h2 h3) (v : FVec F S_ .f32) :
    (TRef.of (sig := sig) (T := ⟨S_, .f32⟩) main_call4_v8 h1 h2 h3).ofBuf (Val := Elt F) v = v := rfl
theorem toBuf_main_call4_cst_2 (h1 h2 h3) (v : (⟨S_, .f32⟩ : BufTy).Contents Val) :
    (TRef.of (sig := sig) (T := ⟨S_, .f32⟩) main_call4_cst_2 h1 h2 h3).toBuf v = v := rfl
theorem toBuf_main_call4_cst_2_v (h1 h2 h3) (v : FVec F S_ .f32) :
    (TRef.of (sig := sig) (T := ⟨S_, .f32⟩) main_call4_cst_2 h1 h2 h3).toBuf (Val := Elt F) v = v := rfl
theorem ofBuf_main_call4_cst_2 (h1 h2 h3) (v : (⟨S_, .f32⟩ : BufTy).Contents Val) :
    (TRef.of (sig := sig) (T := ⟨S_, .f32⟩) main_call4_cst_2 h1 h2 h3).ofBuf v = v := rfl
theorem ofBuf_main_call4_cst_2_d (h1 h2 h3) (v : (Proc.devRef (τ := τ) .tc main_call4_cst_2).ty.Contents Val) :
    (TRef.of (sig := sig) (T := ⟨S_, .f32⟩) main_call4_cst_2 h1 h2 h3).ofBuf v = v := rfl
theorem ofBuf_main_call4_cst_2_v (h1 h2 h3) (v : FVec F S_ .f32) :
    (TRef.of (sig := sig) (T := ⟨S_, .f32⟩) main_call4_cst_2 h1 h2 h3).ofBuf (Val := Elt F) v = v := rfl
theorem toBuf_main_call4_v9 (h1 h2 h3) (v : (⟨S64, .f32⟩ : BufTy).Contents Val) :
    (TRef.of (sig := sig) (T := ⟨S64, .f32⟩) main_call4_v9 h1 h2 h3).toBuf v = v := rfl
theorem toBuf_main_call4_v9_v (h1 h2 h3) (v : FVec F S64 .f32) :
    (TRef.of (sig := sig) (T := ⟨S64, .f32⟩) main_call4_v9 h1 h2 h3).toBuf (Val := Elt F) v = v := rfl
theorem ofBuf_main_call4_v9 (h1 h2 h3) (v : (⟨S64, .f32⟩ : BufTy).Contents Val) :
    (TRef.of (sig := sig) (T := ⟨S64, .f32⟩) main_call4_v9 h1 h2 h3).ofBuf v = v := rfl
theorem ofBuf_main_call4_v9_d (h1 h2 h3) (v : (Proc.devRef (τ := τ) .tc main_call4_v9).ty.Contents Val) :
    (TRef.of (sig := sig) (T := ⟨S64, .f32⟩) main_call4_v9 h1 h2 h3).ofBuf v = v := rfl
theorem ofBuf_main_call4_v9_v (h1 h2 h3) (v : FVec F S64 .f32) :
    (TRef.of (sig := sig) (T := ⟨S64, .f32⟩) main_call4_v9 h1 h2 h3).ofBuf (Val := Elt F) v = v := rfl
theorem toBuf_main_call4_v10 (h1 h2 h3) (v : (⟨S64, .f32⟩ : BufTy).Contents Val) :
    (TRef.of (sig := sig) (T := ⟨S64, .f32⟩) main_call4_v10 h1 h2 h3).toBuf v = v := rfl
theorem toBuf_main_call4_v10_v (h1 h2 h3) (v : FVec F S64 .f32) :
    (TRef.of (sig := sig) (T := ⟨S64, .f32⟩) main_call4_v10 h1 h2 h3).toBuf (Val := Elt F) v = v := rfl
theorem ofBuf_main_call4_v10 (h1 h2 h3) (v : (⟨S64, .f32⟩ : BufTy).Contents Val) :
    (TRef.of (sig := sig) (T := ⟨S64, .f32⟩) main_call4_v10 h1 h2 h3).ofBuf v = v := rfl
theorem ofBuf_main_call4_v10_d (h1 h2 h3) (v : (Proc.devRef (τ := τ) .tc main_call4_v10).ty.Contents Val) :
    (TRef.of (sig := sig) (T := ⟨S64, .f32⟩) main_call4_v10 h1 h2 h3).ofBuf v = v := rfl
theorem ofBuf_main_call4_v10_v (h1 h2 h3) (v : FVec F S64 .f32) :
    (TRef.of (sig := sig) (T := ⟨S64, .f32⟩) main_call4_v10 h1 h2 h3).ofBuf (Val := Elt F) v = v := rfl
theorem toBuf_main_call4_v11 (h1 h2 h3) (v : (⟨S64, .f32⟩ : BufTy).Contents Val) :
    (TRef.of (sig := sig) (T := ⟨S64, .f32⟩) main_call4_v11 h1 h2 h3).toBuf v = v := rfl
theorem toBuf_main_call4_v11_v (h1 h2 h3) (v : FVec F S64 .f32) :
    (TRef.of (sig := sig) (T := ⟨S64, .f32⟩) main_call4_v11 h1 h2 h3).toBuf (Val := Elt F) v = v := rfl
theorem ofBuf_main_call4_v11 (h1 h2 h3) (v : (⟨S64, .f32⟩ : BufTy).Contents Val) :
    (TRef.of (sig := sig) (T := ⟨S64, .f32⟩) main_call4_v11 h1 h2 h3).ofBuf v = v := rfl
theorem ofBuf_main_call4_v11_d (h1 h2 h3) (v : (Proc.devRef (τ := τ) .tc main_call4_v11).ty.Contents Val) :
    (TRef.of (sig := sig) (T := ⟨S64, .f32⟩) main_call4_v11 h1 h2 h3).ofBuf v = v := rfl
theorem ofBuf_main_call4_v11_v (h1 h2 h3) (v : FVec F S64 .f32) :
    (TRef.of (sig := sig) (T := ⟨S64, .f32⟩) main_call4_v11 h1 h2 h3).ofBuf (Val := Elt F) v = v := rfl
theorem toBuf_main_call4_cst_3 (h1 h2 h3) (v : (⟨S_, .f32⟩ : BufTy).Contents Val) :
    (TRef.of (sig := sig) (T := ⟨S_, .f32⟩) main_call4_cst_3 h1 h2 h3).toBuf v = v := rfl
theorem toBuf_main_call4_cst_3_v (h1 h2 h3) (v : FVec F S_ .f32) :
    (TRef.of (sig := sig) (T := ⟨S_, .f32⟩) main_call4_cst_3 h1 h2 h3).toBuf (Val := Elt F) v = v := rfl
theorem ofBuf_main_call4_cst_3 (h1 h2 h3) (v : (⟨S_, .f32⟩ : BufTy).Contents Val) :
    (TRef.of (sig := sig) (T := ⟨S_, .f32⟩) main_call4_cst_3 h1 h2 h3).ofBuf v = v := rfl
theorem ofBuf_main_call4_cst_3_d (h1 h2 h3) (v : (Proc.devRef (τ := τ) .tc main_call4_cst_3).ty.Contents Val) :
    (TRef.of (sig := sig) (T := ⟨S_, .f32⟩) main_call4_cst_3 h1 h2 h3).ofBuf v = v := rfl
theorem ofBuf_main_call4_cst_3_v (h1 h2 h3) (v : FVec F S_ .f32) :
    (TRef.of (sig := sig) (T := ⟨S_, .f32⟩) main_call4_cst_3 h1 h2 h3).ofBuf (Val := Elt F) v = v := rfl
theorem toBuf_main_call4_v12 (h1 h2 h3) (v : (⟨S_, .i1⟩ : BufTy).Contents Val) :
    (TRef.of (sig := sig) (T := ⟨S_, .i1⟩) main_call4_v12 h1 h2 h3).toBuf v = v := rfl
theorem toBuf_main_call4_v12_v (h1 h2 h3) (v : IVec S_ 1) :
    (TRef.of (sig := sig) (T := ⟨S_, .i1⟩) main_call4_v12 h1 h2 h3).toBuf (Val := Elt F) v = v := rfl
theorem ofBuf_main_call4_v12 (h1 h2 h3) (v : (⟨S_, .i1⟩ : BufTy).Contents Val) :
    (TRef.of (sig := sig) (T := ⟨S_, .i1⟩) main_call4_v12 h1 h2 h3).ofBuf v = v := rfl
theorem ofBuf_main_call4_v12_d (h1 h2 h3) (v : (Proc.devRef (τ := τ) .tc main_call4_v12).ty.Contents Val) :
    (TRef.of (sig := sig) (T := ⟨S_, .i1⟩) main_call4_v12 h1 h2 h3).ofBuf v = v := rfl
theorem ofBuf_main_call4_v12_v (h1 h2 h3) (v : IVec S_ 1) :
    (TRef.of (sig := sig) (T := ⟨S_, .i1⟩) main_call4_v12 h1 h2 h3).ofBuf (Val := Elt F) v = v := rfl
theorem toBuf_main_call4_cst_4 (h1 h2 h3) (v : (⟨S_, .f32⟩ : BufTy).Contents Val) :
    (TRef.of (sig := sig) (T := ⟨S_, .f32⟩) main_call4_cst_4 h1 h2 h3).toBuf v = v := rfl
theorem toBuf_main_call4_cst_4_v (h1 h2 h3) (v : FVec F S_ .f32) :
    (TRef.of (sig := sig) (T := ⟨S_, .f32⟩) main_call4_cst_4 h1 h2 h3).toBuf (Val := Elt F) v = v := rfl
theorem ofBuf_main_call4_cst_4 (h1 h2 h3) (v : (⟨S_, .f32⟩ : BufTy).Contents Val) :
    (TRef.of (sig := sig) (T := ⟨S_, .f32⟩) main_call4_cst_4 h1 h2 h3).ofBuf v = v := rfl
theorem ofBuf_main_call4_cst_4_d (h1 h2 h3) (v : (Proc.devRef (τ := τ) .tc main_call4_cst_4).ty.Contents Val) :
    (TRef.of (sig := sig) (T := ⟨S_, .f32⟩) main_call4_cst_4 h1 h2 h3).ofBuf v = v := rfl
theorem ofBuf_main_call4_cst_4_v (h1 h2 h3) (v : FVec F S_ .f32) :
    (TRef.of (sig := sig) (T := ⟨S_, .f32⟩) main_call4_cst_4 h1 h2 h3).ofBuf (Val := Elt F) v = v := rfl
theorem toBuf_main_call4_call0_v0 (h1 h2 h3) (v : (⟨S_, .f32⟩ : BufTy).Contents Val) :
    (TRef.of (sig := sig) (T := ⟨S_, .f32⟩) main_call4_call0_v0 h1 h2 h3).toBuf v = v := rfl
theorem toBuf_main_call4_call0_v0_v (h1 h2 h3) (v : FVec F S_ .f32) :
    (TRef.of (sig := sig) (T := ⟨S_, .f32⟩) main_call4_call0_v0 h1 h2 h3).toBuf (Val := Elt F) v = v := rfl
theorem ofBuf_main_call4_call0_v0 (h1 h2 h3) (v : (⟨S_, .f32⟩ : BufTy).Contents Val) :
    (TRef.of (sig := sig) (T := ⟨S_, .f32⟩) main_call4_call0_v0 h1 h2 h3).ofBuf v = v := rfl
theorem ofBuf_main_call4_call0_v0_d (h1 h2 h3) (v : (Proc.devRef (τ := τ) .tc main_call4_call0_v0).ty.Contents Val) :
    (TRef.of (sig := sig) (T := ⟨S_, .f32⟩) main_call4_call0_v0 h1 h2 h3).ofBuf v = v := rfl
theorem ofBuf_main_call4_call0_v0_v (h1 h2 h3) (v : FVec F S_ .f32) :
    (TRef.of (sig := sig) (T := ⟨S_, .f32⟩) main_call4_call0_v0 h1 h2 h3).ofBuf (Val := Elt F) v = v := rfl
theorem toBuf_main_call4_call0_v1 (h1 h2 h3) (v : (⟨S64, .f32⟩ : BufTy).Contents Val) :
    (TRef.of (sig := sig) (T := ⟨S64, .f32⟩) main_call4_call0_v1 h1 h2 h3).toBuf v = v := rfl
theorem toBuf_main_call4_call0_v1_v (h1 h2 h3) (v : FVec F S64 .f32) :
    (TRef.of (sig := sig) (T := ⟨S64, .f32⟩) main_call4_call0_v1 h1 h2 h3).toBuf (Val := Elt F) v = v := rfl
theorem ofBuf_main_call4_call0_v1 (h1 h2 h3) (v : (⟨S64, .f32⟩ : BufTy).Contents Val) :
    (TRef.of (sig := sig) (T := ⟨S64, .f32⟩) main_call4_call0_v1 h1 h2 h3).ofBuf v = v := rfl
theorem ofBuf_main_call4_call0_v1_d (h1 h2 h3) (v : (Proc.devRef (τ := τ) .tc main_call4_call0_v1).ty.Contents Val) :
    (TRef.of (sig := sig) (T := ⟨S64, .f32⟩) main_call4_call0_v1 h1 h2 h3).ofBuf v = v := rfl
theorem ofBuf_main_call4_call0_v1_v (h1 h2 h3) (v : FVec F S64 .f32) :
    (TRef.of (sig := sig) (T := ⟨S64, .f32⟩) main_call4_call0_v1 h1 h2 h3).ofBuf (Val := Elt F) v = v := rfl
theorem toBuf_main_v54 (h1 h2 h3) (v : (⟨S64, .f32⟩ : BufTy).Contents Val) :
    (TRef.of (sig := sig) (T := ⟨S64, .f32⟩) main_v54 h1 h2 h3).toBuf v = v := rfl
theorem toBuf_main_v54_v (h1 h2 h3) (v : FVec F S64 .f32) :
    (TRef.of (sig := sig) (T := ⟨S64, .f32⟩) main_v54 h1 h2 h3).toBuf (Val := Elt F) v = v := rfl
theorem ofBuf_main_v54 (h1 h2 h3) (v : (⟨S64, .f32⟩ : BufTy).Contents Val) :
    (TRef.of (sig := sig) (T := ⟨S64, .f32⟩) main_v54 h1 h2 h3).ofBuf v = v := rfl
theorem ofBuf_main_v54_d (h1 h2 h3) (v : (Proc.devRef (τ := τ) .tc main_v54).ty.Contents Val) :
    (TRef.of (sig := sig) (T := ⟨S64, .f32⟩) main_v54 h1 h2 h3).ofBuf v = v := rfl
theorem ofBuf_main_v54_v (h1 h2 h3) (v : FVec F S64 .f32) :
    (TRef.of (sig := sig) (T := ⟨S64, .f32⟩) main_v54 h1 h2 h3).ofBuf (Val := Elt F) v = v := rfl
theorem toBuf_main_call5_cst (h1 h2 h3) (v : (⟨S_, .f32⟩ : BufTy).Contents Val) :
    (TRef.of (sig := sig) (T := ⟨S_, .f32⟩) main_call5_cst h1 h2 h3).toBuf v = v := rfl
theorem toBuf_main_call5_cst_v (h1 h2 h3) (v : FVec F S_ .f32) :
    (TRef.of (sig := sig) (T := ⟨S_, .f32⟩) main_call5_cst h1 h2 h3).toBuf (Val := Elt F) v = v := rfl
theorem ofBuf_main_call5_cst (h1 h2 h3) (v : (⟨S_, .f32⟩ : BufTy).Contents Val) :
    (TRef.of (sig := sig) (T := ⟨S_, .f32⟩) main_call5_cst h1 h2 h3).ofBuf v = v := rfl
theorem ofBuf_main_call5_cst_d (h1 h2 h3) (v : (Proc.devRef (τ := τ) .tc main_call5_cst).ty.Contents Val) :
    (TRef.of (sig := sig) (T := ⟨S_, .f32⟩) main_call5_cst h1 h2 h3).ofBuf v = v := rfl
theorem ofBuf_main_call5_cst_v (h1 h2 h3) (v : FVec F S_ .f32) :
    (TRef.of (sig := sig) (T := ⟨S_, .f32⟩) main_call5_cst h1 h2 h3).ofBuf (Val := Elt F) v = v := rfl
theorem toBuf_main_call5_v0 (h1 h2 h3) (v : (⟨S100000x64, .f32⟩ : BufTy).Contents Val) :
    (TRef.of (sig := sig) (T := ⟨S100000x64, .f32⟩) main_call5_v0 h1 h2 h3).toBuf v = v := rfl
theorem toBuf_main_call5_v0_v (h1 h2 h3) (v : FVec F S100000x64 .f32) :
    (TRef.of (sig := sig) (T := ⟨S100000x64, .f32⟩) main_call5_v0 h1 h2 h3).toBuf (Val := Elt F) v = v := rfl
theorem ofBuf_main_call5_v0 (h1 h2 h3) (v : (⟨S100000x64, .f32⟩ : BufTy).Contents Val) :
    (TRef.of (sig := sig) (T := ⟨S100000x64, .f32⟩) main_call5_v0 h1 h2 h3).ofBuf v = v := rfl
theorem ofBuf_main_call5_v0_d (h1 h2 h3) (v : (Proc.devRef (τ := τ) .tc main_call5_v0).ty.Contents Val) :
    (TRef.of (sig := sig) (T := ⟨S100000x64, .f32⟩) main_call5_v0 h1 h2 h3).ofBuf v = v := rfl
theorem ofBuf_main_call5_v0_v (h1 h2 h3) (v : FVec F S100000x64 .f32) :
    (TRef.of (sig := sig) (T := ⟨S100000x64, .f32⟩) main_call5_v0 h1 h2 h3).ofBuf (Val := Elt F) v = v := rfl
theorem toBuf_main_v70 (h1 h2 h3) (v : (⟨S100000x64, .f32⟩ : BufTy).Contents Val) :
    (TRef.of (sig := sig) (T := ⟨S100000x64, .f32⟩) main_v70 h1 h2 h3).toBuf v = v := rfl
theorem toBuf_main_v70_v (h1 h2 h3) (v : FVec F S100000x64 .f32) :
    (TRef.of (sig := sig) (T := ⟨S100000x64, .f32⟩) main_v70 h1 h2 h3).toBuf (Val := Elt F) v = v := rfl
theorem ofBuf_main_v70 (h1 h2 h3) (v : (⟨S100000x64, .f32⟩ : BufTy).Contents Val) :
    (TRef.of (sig := sig) (T := ⟨S100000x64, .f32⟩) main_v70 h1 h2 h3).ofBuf v = v := rfl
theorem ofBuf_main_v70_d (h1 h2 h3) (v : (Proc.devRef (τ := τ) .tc main_v70).ty.Contents Val) :
    (TRef.of (sig := sig) (T := ⟨S100000x64, .f32⟩) main_v70 h1 h2 h3).ofBuf v = v := rfl
theorem ofBuf_main_v70_v (h1 h2 h3) (v : FVec F S100000x64 .f32) :
    (TRef.of (sig := sig) (T := ⟨S100000x64, .f32⟩) main_v70 h1 h2 h3).ofBuf (Val := Elt F) v = v := rfl
theorem toBuf_main_v69 (h1 h2 h3) (v : (⟨S100000x64, .f32⟩ : BufTy).Contents Val) :
    (TRef.of (sig := sig) (T := ⟨S100000x64, .f32⟩) main_v69 h1 h2 h3).toBuf v = v := rfl
theorem toBuf_main_v69_v (h1 h2 h3) (v : FVec F S100000x64 .f32) :
    (TRef.of (sig := sig) (T := ⟨S100000x64, .f32⟩) main_v69 h1 h2 h3).toBuf (Val := Elt F) v = v := rfl
theorem ofBuf_main_v69 (h1 h2 h3) (v : (⟨S100000x64, .f32⟩ : BufTy).Contents Val) :
    (TRef.of (sig := sig) (T := ⟨S100000x64, .f32⟩) main_v69 h1 h2 h3).ofBuf v = v := rfl
theorem ofBuf_main_v69_d (h1 h2 h3) (v : (Proc.devRef (τ := τ) .tc main_v69).ty.Contents Val) :
    (TRef.of (sig := sig) (T := ⟨S100000x64, .f32⟩) main_v69 h1 h2 h3).ofBuf v = v := rfl
theorem ofBuf_main_v69_v (h1 h2 h3) (v : FVec F S100000x64 .f32) :
    (TRef.of (sig := sig) (T := ⟨S100000x64, .f32⟩) main_v69 h1 h2 h3).ofBuf (Val := Elt F) v = v := rfl
theorem toBuf_main_call6_cst (h1 h2 h3) (v : (⟨S_, .f32⟩ : BufTy).Contents Val) :
    (TRef.of (sig := sig) (T := ⟨S_, .f32⟩) main_call6_cst h1 h2 h3).toBuf v = v := rfl
theorem toBuf_main_call6_cst_v (h1 h2 h3) (v : FVec F S_ .f32) :
    (TRef.of (sig := sig) (T := ⟨S_, .f32⟩) main_call6_cst h1 h2 h3).toBuf (Val := Elt F) v = v := rfl
theorem ofBuf_main_call6_cst (h1 h2 h3) (v : (⟨S_, .f32⟩ : BufTy).Contents Val) :
    (TRef.of (sig := sig) (T := ⟨S_, .f32⟩) main_call6_cst h1 h2 h3).ofBuf v = v := rfl
theorem ofBuf_main_call6_cst_d (h1 h2 h3) (v : (Proc.devRef (τ := τ) .tc main_call6_cst).ty.Contents Val) :
    (TRef.of (sig := sig) (T := ⟨S_, .f32⟩) main_call6_cst h1 h2 h3).ofBuf v = v := rfl
theorem ofBuf_main_call6_cst_v (h1 h2 h3) (v : FVec F S_ .f32) :
    (TRef.of (sig := sig) (T := ⟨S_, .f32⟩) main_call6_cst h1 h2 h3).ofBuf (Val := Elt F) v = v := rfl
theorem toBuf_main_call6_v0 (h1 h2 h3) (v : (⟨S100000x64, .f32⟩ : BufTy).Contents Val) :
    (TRef.of (sig := sig) (T := ⟨S100000x64, .f32⟩) main_call6_v0 h1 h2 h3).toBuf v = v := rfl
theorem toBuf_main_call6_v0_v (h1 h2 h3) (v : FVec F S100000x64 .f32) :
    (TRef.of (sig := sig) (T := ⟨S100000x64, .f32⟩) main_call6_v0 h1 h2 h3).toBuf (Val := Elt F) v = v := rfl
theorem ofBuf_main_call6_v0 (h1 h2 h3) (v : (⟨S100000x64, .f32⟩ : BufTy).Contents Val) :
    (TRef.of (sig := sig) (T := ⟨S100000x64, .f32⟩) main_call6_v0 h1 h2 h3).ofBuf v = v := rfl
theorem ofBuf_main_call6_v0_d (h1 h2 h3) (v : (Proc.devRef (τ := τ) .tc main_call6_v0).ty.Contents Val) :
    (TRef.of (sig := sig) (T := ⟨S100000x64, .f32⟩) main_call6_v0 h1 h2 h3).ofBuf v = v := rfl
theorem ofBuf_main_call6_v0_v (h1 h2 h3) (v : FVec F S100000x64 .f32) :
    (TRef.of (sig := sig) (T := ⟨S100000x64, .f32⟩) main_call6_v0 h1 h2 h3).ofBuf (Val := Elt F) v = v := rfl
theorem toBuf_main_v89 (h1 h2 h3) (v : (⟨S100000x64, .f32⟩ : BufTy).Contents Val) :
    (TRef.of (sig := sig) (T := ⟨S100000x64, .f32⟩) main_v89 h1 h2 h3).toBuf v = v := rfl
theorem toBuf_main_v89_v (h1 h2 h3) (v : FVec F S100000x64 .f32) :
    (TRef.of (sig := sig) (T := ⟨S100000x64, .f32⟩) main_v89 h1 h2 h3).toBuf (Val := Elt F) v = v := rfl
theorem ofBuf_main_v89 (h1 h2 h3) (v : (⟨S100000x64, .f32⟩ : BufTy).Contents Val) :
    (TRef.of (sig := sig) (T := ⟨S100000x64, .f32⟩) main_v89 h1 h2 h3).ofBuf v = v := rfl
theorem ofBuf_main_v89_d (h1 h2 h3) (v : (Proc.devRef (τ := τ) .tc main_v89).ty.Contents Val) :
    (TRef.of (sig := sig) (T := ⟨S100000x64, .f32⟩) main_v89 h1 h2 h3).ofBuf v = v := rfl
theorem ofBuf_main_v89_v (h1 h2 h3) (v : FVec F S100000x64 .f32) :
    (TRef.of (sig := sig) (T := ⟨S100000x64, .f32⟩) main_v89 h1 h2 h3).ofBuf (Val := Elt F) v = v := rfl
theorem toBuf_main_v88 (h1 h2 h3) (v : (⟨S100000x64, .f32⟩ : BufTy).Contents Val) :
    (TRef.of (sig := sig) (T := ⟨S100000x64, .f32⟩) main_v88 h1 h2 h3).toBuf v = v := rfl
theorem toBuf_main_v88_v (h1 h2 h3) (v : FVec F S100000x64 .f32) :
    (TRef.of (sig := sig) (T := ⟨S100000x64, .f32⟩) main_v88 h1 h2 h3).toBuf (Val := Elt F) v = v := rfl
theorem ofBuf_main_v88 (h1 h2 h3) (v : (⟨S100000x64, .f32⟩ : BufTy).Contents Val) :
    (TRef.of (sig := sig) (T := ⟨S100000x64, .f32⟩) main_v88 h1 h2 h3).ofBuf v = v := rfl
theorem ofBuf_main_v88_d (h1 h2 h3) (v : (Proc.devRef (τ := τ) .tc main_v88).ty.Contents Val) :
    (TRef.of (sig := sig) (T := ⟨S100000x64, .f32⟩) main_v88 h1 h2 h3).ofBuf v = v := rfl
theorem ofBuf_main_v88_v (h1 h2 h3) (v : FVec F S100000x64 .f32) :
    (TRef.of (sig := sig) (T := ⟨S100000x64, .f32⟩) main_v88 h1 h2 h3).ofBuf (Val := Elt F) v = v := rfl
theorem toBuf_main_call7_cst (h1 h2 h3) (v : (⟨S_, .f32⟩ : BufTy).Contents Val) :
    (TRef.of (sig := sig) (T := ⟨S_, .f32⟩) main_call7_cst h1 h2 h3).toBuf v = v := rfl
theorem toBuf_main_call7_cst_v (h1 h2 h3) (v : FVec F S_ .f32) :
    (TRef.of (sig := sig) (T := ⟨S_, .f32⟩) main_call7_cst h1 h2 h3).toBuf (Val := Elt F) v = v := rfl
theorem ofBuf_main_call7_cst (h1 h2 h3) (v : (⟨S_, .f32⟩ : BufTy).Contents Val) :
    (TRef.of (sig := sig) (T := ⟨S_, .f32⟩) main_call7_cst h1 h2 h3).ofBuf v = v := rfl
theorem ofBuf_main_call7_cst_d (h1 h2 h3) (v : (Proc.devRef (τ := τ) .tc main_call7_cst).ty.Contents Val) :
    (TRef.of (sig := sig) (T := ⟨S_, .f32⟩) main_call7_cst h1 h2 h3).ofBuf v = v := rfl
theorem ofBuf_main_call7_cst_v (h1 h2 h3) (v : FVec F S_ .f32) :
    (TRef.of (sig := sig) (T := ⟨S_, .f32⟩) main_call7_cst h1 h2 h3).ofBuf (Val := Elt F) v = v := rfl
theorem toBuf_main_call7_v0 (h1 h2 h3) (v : (⟨S64, .f32⟩ : BufTy).Contents Val) :
    (TRef.of (sig := sig) (T := ⟨S64, .f32⟩) main_call7_v0 h1 h2 h3).toBuf v = v := rfl
theorem toBuf_main_call7_v0_v (h1 h2 h3) (v : FVec F S64 .f32) :
    (TRef.of (sig := sig) (T := ⟨S64, .f32⟩) main_call7_v0 h1 h2 h3).toBuf (Val := Elt F) v = v := rfl
theorem ofBuf_main_call7_v0 (h1 h2 h3) (v : (⟨S64, .f32⟩ : BufTy).Contents Val) :
    (TRef.of (sig := sig) (T := ⟨S64, .f32⟩) main_call7_v0 h1 h2 h3).ofBuf v = v := rfl
theorem ofBuf_main_call7_v0_d (h1 h2 h3) (v : (Proc.devRef (τ := τ) .tc main_call7_v0).ty.Contents Val) :
    (TRef.of (sig := sig) (T := ⟨S64, .f32⟩) main_call7_v0 h1 h2 h3).ofBuf v = v := rfl
theorem ofBuf_main_call7_v0_v (h1 h2 h3) (v : FVec F S64 .f32) :
    (TRef.of (sig := sig) (T := ⟨S64, .f32⟩) main_call7_v0 h1 h2 h3).ofBuf (Val := Elt F) v = v := rfl
theorem toBuf_main_v126 (h1 h2 h3) (v : (⟨S100000x64, .f32⟩ : BufTy).Contents Val) :
    (TRef.of (sig := sig) (T := ⟨S100000x64, .f32⟩) main_v126 h1 h2 h3).toBuf v = v := rfl
theorem toBuf_main_v126_v (h1 h2 h3) (v : FVec F S100000x64 .f32) :
    (TRef.of (sig := sig) (T := ⟨S100000x64, .f32⟩) main_v126 h1 h2 h3).toBuf (Val := Elt F) v = v := rfl
theorem ofBuf_main_v126 (h1 h2 h3) (v : (⟨S100000x64, .f32⟩ : BufTy).Contents Val) :
    (TRef.of (sig := sig) (T := ⟨S100000x64, .f32⟩) main_v126 h1 h2 h3).ofBuf v = v := rfl
theorem ofBuf_main_v126_d (h1 h2 h3) (v : (Proc.devRef (τ := τ) .tc main_v126).ty.Contents Val) :
    (TRef.of (sig := sig) (T := ⟨S100000x64, .f32⟩) main_v126 h1 h2 h3).ofBuf v = v := rfl
theorem ofBuf_main_v126_v (h1 h2 h3) (v : FVec F S100000x64 .f32) :
    (TRef.of (sig := sig) (T := ⟨S100000x64, .f32⟩) main_v126 h1 h2 h3).ofBuf (Val := Elt F) v = v := rfl
theorem toBuf_main_call7_v1 (h1 h2 h3) (v : (⟨S1x64, .f32⟩ : BufTy).Contents Val) :
    (TRef.of (sig := sig) (T := ⟨S1x64, .f32⟩) main_call7_v1 h1 h2 h3).toBuf v = v := rfl
theorem toBuf_main_call7_v1_v (h1 h2 h3) (v : FVec F S1x64 .f32) :
    (TRef.of (sig := sig) (T := ⟨S1x64, .f32⟩) main_call7_v1 h1 h2 h3).toBuf (Val := Elt F) v = v := rfl
theorem ofBuf_main_call7_v1 (h1 h2 h3) (v : (⟨S1x64, .f32⟩ : BufTy).Contents Val) :
    (TRef.of (sig := sig) (T := ⟨S1x64, .f32⟩) main_call7_v1 h1 h2 h3).ofBuf v = v := rfl
theorem ofBuf_main_call7_v1_d (h1 h2 h3) (v : (Proc.devRef (τ := τ) .tc main_call7_v1).ty.Contents Val) :
    (TRef.of (sig := sig) (T := ⟨S1x64, .f32⟩) main_call7_v1 h1 h2 h3).ofBuf v = v := rfl
theorem ofBuf_main_call7_v1_v (h1 h2 h3) (v : FVec F S1x64 .f32) :
    (TRef.of (sig := sig) (T := ⟨S1x64, .f32⟩) main_call7_v1 h1 h2 h3).ofBuf (Val := Elt F) v = v := rfl
theorem toBuf_main_call7_cst_0 (h1 h2 h3) (v : (⟨S_, .f32⟩ : BufTy).Contents Val) :
    (TRef.of (sig := sig) (T := ⟨S_, .f32⟩) main_call7_cst_0 h1 h2 h3).toBuf v = v := rfl
theorem toBuf_main_call7_cst_0_v (h1 h2 h3) (v : FVec F S_ .f32) :
    (TRef.of (sig := sig) (T := ⟨S_, .f32⟩) main_call7_cst_0 h1 h2 h3).toBuf (Val := Elt F) v = v := rfl
theorem ofBuf_main_call7_cst_0 (h1 h2 h3) (v : (⟨S_, .f32⟩ : BufTy).Contents Val) :
    (TRef.of (sig := sig) (T := ⟨S_, .f32⟩) main_call7_cst_0 h1 h2 h3).ofBuf v = v := rfl
theorem ofBuf_main_call7_cst_0_d (h1 h2 h3) (v : (Proc.devRef (τ := τ) .tc main_call7_cst_0).ty.Contents Val) :
    (TRef.of (sig := sig) (T := ⟨S_, .f32⟩) main_call7_cst_0 h1 h2 h3).ofBuf v = v := rfl
theorem ofBuf_main_call7_cst_0_v (h1 h2 h3) (v : FVec F S_ .f32) :
    (TRef.of (sig := sig) (T := ⟨S_, .f32⟩) main_call7_cst_0 h1 h2 h3).ofBuf (Val := Elt F) v = v := rfl
theorem toBuf_main_call7_v2 (h1 h2 h3) (v : (⟨S1x64, .f32⟩ : BufTy).Contents Val) :
    (TRef.of (sig := sig) (T := ⟨S1x64, .f32⟩) main_call7_v2 h1 h2 h3).toBuf v = v := rfl
theorem toBuf_main_call7_v2_v (h1 h2 h3) (v : FVec F S1x64 .f32) :
    (TRef.of (sig := sig) (T := ⟨S1x64, .f32⟩) main_call7_v2 h1 h2 h3).toBuf (Val := Elt F) v = v := rfl
theorem ofBuf_main_call7_v2 (h1 h2 h3) (v : (⟨S1x64, .f32⟩ : BufTy).Contents Val) :
    (TRef.of (sig := sig) (T := ⟨S1x64, .f32⟩) main_call7_v2 h1 h2 h3).ofBuf v = v := rfl
theorem ofBuf_main_call7_v2_d (h1 h2 h3) (v : (Proc.devRef (τ := τ) .tc main_call7_v2).ty.Contents Val) :
    (TRef.of (sig := sig) (T := ⟨S1x64, .f32⟩) main_call7_v2 h1 h2 h3).ofBuf v = v := rfl
theorem ofBuf_main_call7_v2_v (h1 h2 h3) (v : FVec F S1x64 .f32) :
    (TRef.of (sig := sig) (T := ⟨S1x64, .f32⟩) main_call7_v2 h1 h2 h3).ofBuf (Val := Elt F) v = v := rfl
theorem toBuf_main_call7_v3 (h1 h2 h3) (v : (⟨S1x64, .f32⟩ : BufTy).Contents Val) :
    (TRef.of (sig := sig) (T := ⟨S1x64, .f32⟩) main_call7_v3 h1 h2 h3).toBuf v = v := rfl
theorem toBuf_main_call7_v3_v (h1 h2 h3) (v : FVec F S1x64 .f32) :
    (TRef.of (sig := sig) (T := ⟨S1x64, .f32⟩) main_call7_v3 h1 h2 h3).toBuf (Val := Elt F) v = v := rfl
theorem ofBuf_main_call7_v3 (h1 h2 h3) (v : (⟨S1x64, .f32⟩ : BufTy).Contents Val) :
    (TRef.of (sig := sig) (T := ⟨S1x64, .f32⟩) main_call7_v3 h1 h2 h3).ofBuf v = v := rfl
theorem ofBuf_main_call7_v3_d (h1 h2 h3) (v : (Proc.devRef (τ := τ) .tc main_call7_v3).ty.Contents Val) :
    (TRef.of (sig := sig) (T := ⟨S1x64, .f32⟩) main_call7_v3 h1 h2 h3).ofBuf v = v := rfl
theorem ofBuf_main_call7_v3_v (h1 h2 h3) (v : FVec F S1x64 .f32) :
    (TRef.of (sig := sig) (T := ⟨S1x64, .f32⟩) main_call7_v3 h1 h2 h3).ofBuf (Val := Elt F) v = v := rfl
theorem toBuf_main_call7_v4 (h1 h2 h3) (v : (⟨S100000x64, .f32⟩ : BufTy).Contents Val) :
    (TRef.of (sig := sig) (T := ⟨S100000x64, .f32⟩) main_call7_v4 h1 h2 h3).toBuf v = v := rfl
theorem toBuf_main_call7_v4_v (h1 h2 h3) (v : FVec F S100000x64 .f32) :
    (TRef.of (sig := sig) (T := ⟨S100000x64, .f32⟩) main_call7_v4 h1 h2 h3).toBuf (Val := Elt F) v = v := rfl
theorem ofBuf_main_call7_v4 (h1 h2 h3) (v : (⟨S100000x64, .f32⟩ : BufTy).Contents Val) :
    (TRef.of (sig := sig) (T := ⟨S100000x64, .f32⟩) main_call7_v4 h1 h2 h3).ofBuf v = v := rfl
theorem ofBuf_main_call7_v4_d (h1 h2 h3) (v : (Proc.devRef (τ := τ) .tc main_call7_v4).ty.Contents Val) :
    (TRef.of (sig := sig) (T := ⟨S100000x64, .f32⟩) main_call7_v4 h1 h2 h3).ofBuf v = v := rfl
theorem ofBuf_main_call7_v4_v (h1 h2 h3) (v : FVec F S100000x64 .f32) :
    (TRef.of (sig := sig) (T := ⟨S100000x64, .f32⟩) main_call7_v4 h1 h2 h3).ofBuf (Val := Elt F) v = v := rfl
theorem toBuf_main_call7_v5 (h1 h2 h3) (v : (⟨S100000x64, .f32⟩ : BufTy).Contents Val) :
    (TRef.of (sig := sig) (T := ⟨S100000x64, .f32⟩) main_call7_v5 h1 h2 h3).toBuf v = v := rfl
theorem toBuf_main_call7_v5_v (h1 h2 h3) (v : FVec F S100000x64 .f32) :
    (TRef.of (sig := sig) (T := ⟨S100000x64, .f32⟩) main_call7_v5 h1 h2 h3).toBuf (Val := Elt F) v = v := rfl
theorem ofBuf_main_call7_v5 (h1 h2 h3) (v : (⟨S100000x64, .f32⟩ : BufTy).Contents Val) :
    (TRef.of (sig := sig) (T := ⟨S100000x64, .f32⟩) main_call7_v5 h1 h2 h3).ofBuf v = v := rfl
theorem ofBuf_main_call7_v5_d (h1 h2 h3) (v : (Proc.devRef (τ := τ) .tc main_call7_v5).ty.Contents Val) :
    (TRef.of (sig := sig) (T := ⟨S100000x64, .f32⟩) main_call7_v5 h1 h2 h3).ofBuf v = v := rfl
theorem ofBuf_main_call7_v5_v (h1 h2 h3) (v : FVec F S100000x64 .f32) :
    (TRef.of (sig := sig) (T := ⟨S100000x64, .f32⟩) main_call7_v5 h1 h2 h3).ofBuf (Val := Elt F) v = v := rfl
theorem toBuf_main_call7_v6 (h1 h2 h3) (v : (⟨S100000x64, .f32⟩ : BufTy).Contents Val) :
    (TRef.of (sig := sig) (T := ⟨S100000x64, .f32⟩) main_call7_v6 h1 h2 h3).toBuf v = v := rfl
theorem toBuf_main_call7_v6_v (h1 h2 h3) (v : FVec F S100000x64 .f32) :
    (TRef.of (sig := sig) (T := ⟨S100000x64, .f32⟩) main_call7_v6 h1 h2 h3).toBuf (Val := Elt F) v = v := rfl
theorem ofBuf_main_call7_v6 (h1 h2 h3) (v : (⟨S100000x64, .f32⟩ : BufTy).Contents Val) :
    (TRef.of (sig := sig) (T := ⟨S100000x64, .f32⟩) main_call7_v6 h1 h2 h3).ofBuf v = v := rfl
theorem ofBuf_main_call7_v6_d (h1 h2 h3) (v : (Proc.devRef (τ := τ) .tc main_call7_v6).ty.Contents Val) :
    (TRef.of (sig := sig) (T := ⟨S100000x64, .f32⟩) main_call7_v6 h1 h2 h3).ofBuf v = v := rfl
theorem ofBuf_main_call7_v6_v (h1 h2 h3) (v : FVec F S100000x64 .f32) :
    (TRef.of (sig := sig) (T := ⟨S100000x64, .f32⟩) main_call7_v6 h1 h2 h3).ofBuf (Val := Elt F) v = v := rfl
theorem toBuf_main_call7_v7 (h1 h2 h3) (v : (⟨S_, .f32⟩ : BufTy).Contents Val) :
    (TRef.of (sig := sig) (T := ⟨S_, .f32⟩) main_call7_v7 h1 h2 h3).toBuf v = v := rfl
theorem toBuf_main_call7_v7_v (h1 h2 h3) (v : FVec F S_ .f32) :
    (TRef.of (sig := sig) (T := ⟨S_, .f32⟩) main_call7_v7 h1 h2 h3).toBuf (Val := Elt F) v = v := rfl
theorem ofBuf_main_call7_v7 (h1 h2 h3) (v : (⟨S_, .f32⟩ : BufTy).Contents Val) :
    (TRef.of (sig := sig) (T := ⟨S_, .f32⟩) main_call7_v7 h1 h2 h3).ofBuf v = v := rfl
theorem ofBuf_main_call7_v7_d (h1 h2 h3) (v : (Proc.devRef (τ := τ) .tc main_call7_v7).ty.Contents Val) :
    (TRef.of (sig := sig) (T := ⟨S_, .f32⟩) main_call7_v7 h1 h2 h3).ofBuf v = v := rfl
theorem ofBuf_main_call7_v7_v (h1 h2 h3) (v : FVec F S_ .f32) :
    (TRef.of (sig := sig) (T := ⟨S_, .f32⟩) main_call7_v7 h1 h2 h3).ofBuf (Val := Elt F) v = v := rfl
theorem toBuf_main_c_22 (h1 h2 h3) (v : (⟨S_, .i32⟩ : BufTy).Contents Val) :
    (TRef.of (sig := sig) (T := ⟨S_, .i32⟩) main_c_22 h1 h2 h3).toBuf v = v := rfl
theorem toBuf_main_c_22_v (h1 h2 h3) (v : IVec S_ 32) :
    (TRef.of (sig := sig) (T := ⟨S_, .i32⟩) main_c_22 h1 h2 h3).toBuf (Val := Elt F) v = v := rfl
theorem ofBuf_main_c_22 (h1 h2 h3) (v : (⟨S_, .i32⟩ : BufTy).Contents Val) :
    (TRef.of (sig := sig) (T := ⟨S_, .i32⟩) main_c_22 h1 h2 h3).ofBuf v = v := rfl
theorem ofBuf_main_c_22_d (h1 h2 h3) (v : (Proc.devRef (τ := τ) .tc main_c_22).ty.Contents Val) :
    (TRef.of (sig := sig) (T := ⟨S_, .i32⟩) main_c_22 h1 h2 h3).ofBuf v = v := rfl
theorem ofBuf_main_c_22_v (h1 h2 h3) (v : IVec S_ 32) :
    (TRef.of (sig := sig) (T := ⟨S_, .i32⟩) main_c_22 h1 h2 h3).ofBuf (Val := Elt F) v = v := rfl
theorem toBuf_main_call7_cst_1 (h1 h2 h3) (v : (⟨S_, .f32⟩ : BufTy).Contents Val) :
    (TRef.of (sig := sig) (T := ⟨S_, .f32⟩) main_call7_cst_1 h1 h2 h3).toBuf v = v := rfl
theorem toBuf_main_call7_cst_1_v (h1 h2 h3) (v : FVec F S_ .f32) :
    (TRef.of (sig := sig) (T := ⟨S_, .f32⟩) main_call7_cst_1 h1 h2 h3).toBuf (Val := Elt F) v = v := rfl
theorem ofBuf_main_call7_cst_1 (h1 h2 h3) (v : (⟨S_, .f32⟩ : BufTy).Contents Val) :
    (TRef.of (sig := sig) (T := ⟨S_, .f32⟩) main_call7_cst_1 h1 h2 h3).ofBuf v = v := rfl
theorem ofBuf_main_call7_cst_1_d (h1 h2 h3) (v : (Proc.devRef (τ := τ) .tc main_call7_cst_1).ty.Contents Val) :
    (TRef.of (sig := sig) (T := ⟨S_, .f32⟩) main_call7_cst_1 h1 h2 h3).ofBuf v = v := rfl
theorem ofBuf_main_call7_cst_1_v (h1 h2 h3) (v : FVec F S_ .f32) :
    (TRef.of (sig := sig) (T := ⟨S_, .f32⟩) main_call7_cst_1 h1 h2 h3).ofBuf (Val := Elt F) v = v := rfl
theorem toBuf_main_call7_v8 (h1 h2 h3) (v : (⟨S_, .f32⟩ : BufTy).Contents Val) :
    (TRef.of (sig := sig) (T := ⟨S_, .f32⟩) main_call7_v8 h1 h2 h3).toBuf v = v := rfl
theorem toBuf_main_call7_v8_v (h1 h2 h3) (v : FVec F S_ .f32) :
    (TRef.of (sig := sig) (T := ⟨S_, .f32⟩) main_call7_v8 h1 h2 h3).toBuf (Val := Elt F) v = v := rfl
theorem ofBuf_main_call7_v8 (h1 h2 h3) (v : (⟨S_, .f32⟩ : BufTy).Contents Val) :
    (TRef.of (sig := sig) (T := ⟨S_, .f32⟩) main_call7_v8 h1 h2 h3).ofBuf v = v := rfl
theorem ofBuf_main_call7_v8_d (h1 h2 h3) (v : (Proc.devRef (τ := τ) .tc main_call7_v8).ty.Contents Val) :
    (TRef.of (sig := sig) (T := ⟨S_, .f32⟩) main_call7_v8 h1 h2 h3).ofBuf v = v := rfl
theorem ofBuf_main_call7_v8_v (h1 h2 h3) (v : FVec F S_ .f32) :
    (TRef.of (sig := sig) (T := ⟨S_, .f32⟩) main_call7_v8 h1 h2 h3).ofBuf (Val := Elt F) v = v := rfl
theorem toBuf_main_call7_cst_2 (h1 h2 h3) (v : (⟨S_, .f32⟩ : BufTy).Contents Val) :
    (TRef.of (sig := sig) (T := ⟨S_, .f32⟩) main_call7_cst_2 h1 h2 h3).toBuf v = v := rfl
theorem toBuf_main_call7_cst_2_v (h1 h2 h3) (v : FVec F S_ .f32) :
    (TRef.of (sig := sig) (T := ⟨S_, .f32⟩) main_call7_cst_2 h1 h2 h3).toBuf (Val := Elt F) v = v := rfl
theorem ofBuf_main_call7_cst_2 (h1 h2 h3) (v : (⟨S_, .f32⟩ : BufTy).Contents Val) :
    (TRef.of (sig := sig) (T := ⟨S_, .f32⟩) main_call7_cst_2 h1 h2 h3).ofBuf v = v := rfl
theorem ofBuf_main_call7_cst_2_d (h1 h2 h3) (v : (Proc.devRef (τ := τ) .tc main_call7_cst_2).ty.Contents Val) :
    (TRef.of (sig := sig) (T := ⟨S_, .f32⟩) main_call7_cst_2 h1 h2 h3).ofBuf v = v := rfl
theorem ofBuf_main_call7_cst_2_v (h1 h2 h3) (v : FVec F S_ .f32) :
    (TRef.of (sig := sig) (T := ⟨S_, .f32⟩) main_call7_cst_2 h1 h2 h3).ofBuf (Val := Elt F) v = v := rfl
theorem toBuf_main_call7_v9 (h1 h2 h3) (v : (⟨S64, .f32⟩ : BufTy).Contents Val) :
    (TRef.of (sig := sig) (T := ⟨S64, .f32⟩) main_call7_v9 h1 h2 h3).toBuf v = v := rfl
theorem toBuf_main_call7_v9_v (h1 h2 h3) (v : FVec F S64 .f32) :
    (TRef.of (sig := sig) (T := ⟨S64, .f32⟩) main_call7_v9 h1 h2 h3).toBuf (Val := Elt F) v = v := rfl
theorem ofBuf_main_call7_v9 (h1 h2 h3) (v : (⟨S64, .f32⟩ : BufTy).Contents Val) :
    (TRef.of (sig := sig) (T := ⟨S64, .f32⟩) main_call7_v9 h1 h2 h3).ofBuf v = v := rfl
theorem ofBuf_main_call7_v9_d (h1 h2 h3) (v : (Proc.devRef (τ := τ) .tc main_call7_v9).ty.Contents Val) :
    (TRef.of (sig := sig) (T := ⟨S64, .f32⟩) main_call7_v9 h1 h2 h3).ofBuf v = v := rfl
theorem ofBuf_main_call7_v9_v (h1 h2 h3) (v : FVec F S64 .f32) :
    (TRef.of (sig := sig) (T := ⟨S64, .f32⟩) main_call7_v9 h1 h2 h3).ofBuf (Val := Elt F) v = v := rfl
theorem toBuf_main_call7_v10 (h1 h2 h3) (v : (⟨S64, .f32⟩ : BufTy).Contents Val) :
    (TRef.of (sig := sig) (T := ⟨S64, .f32⟩) main_call7_v10 h1 h2 h3).toBuf v = v := rfl
theorem toBuf_main_call7_v10_v (h1 h2 h3) (v : FVec F S64 .f32) :
    (TRef.of (sig := sig) (T := ⟨S64, .f32⟩) main_call7_v10 h1 h2 h3).toBuf (Val := Elt F) v = v := rfl
theorem ofBuf_main_call7_v10 (h1 h2 h3) (v : (⟨S64, .f32⟩ : BufTy).Contents Val) :
    (TRef.of (sig := sig) (T := ⟨S64, .f32⟩) main_call7_v10 h1 h2 h3).ofBuf v = v := rfl
theorem ofBuf_main_call7_v10_d (h1 h2 h3) (v : (Proc.devRef (τ := τ) .tc main_call7_v10).ty.Contents Val) :
    (TRef.of (sig := sig) (T := ⟨S64, .f32⟩) main_call7_v10 h1 h2 h3).ofBuf v = v := rfl
theorem ofBuf_main_call7_v10_v (h1 h2 h3) (v : FVec F S64 .f32) :
    (TRef.of (sig := sig) (T := ⟨S64, .f32⟩) main_call7_v10 h1 h2 h3).ofBuf (Val := Elt F) v = v := rfl
theorem toBuf_main_call7_v11 (h1 h2 h3) (v : (⟨S64, .f32⟩ : BufTy).Contents Val) :
    (TRef.of (sig := sig) (T := ⟨S64, .f32⟩) main_call7_v11 h1 h2 h3).toBuf v = v := rfl
theorem toBuf_main_call7_v11_v (h1 h2 h3) (v : FVec F S64 .f32) :
    (TRef.of (sig := sig) (T := ⟨S64, .f32⟩) main_call7_v11 h1 h2 h3).toBuf (Val := Elt F) v = v := rfl
theorem ofBuf_main_call7_v11 (h1 h2 h3) (v : (⟨S64, .f32⟩ : BufTy).Contents Val) :
    (TRef.of (sig := sig) (T := ⟨S64, .f32⟩) main_call7_v11 h1 h2 h3).ofBuf v = v := rfl
theorem ofBuf_main_call7_v11_d (h1 h2 h3) (v : (Proc.devRef (τ := τ) .tc main_call7_v11).ty.Contents Val) :
    (TRef.of (sig := sig) (T := ⟨S64, .f32⟩) main_call7_v11 h1 h2 h3).ofBuf v = v := rfl
theorem ofBuf_main_call7_v11_v (h1 h2 h3) (v : FVec F S64 .f32) :
    (TRef.of (sig := sig) (T := ⟨S64, .f32⟩) main_call7_v11 h1 h2 h3).ofBuf (Val := Elt F) v = v := rfl
theorem toBuf_main_call7_cst_3 (h1 h2 h3) (v : (⟨S_, .f32⟩ : BufTy).Contents Val) :
    (TRef.of (sig := sig) (T := ⟨S_, .f32⟩) main_call7_cst_3 h1 h2 h3).toBuf v = v := rfl
theorem toBuf_main_call7_cst_3_v (h1 h2 h3) (v : FVec F S_ .f32) :
    (TRef.of (sig := sig) (T := ⟨S_, .f32⟩) main_call7_cst_3 h1 h2 h3).toBuf (Val := Elt F) v = v := rfl
theorem ofBuf_main_call7_cst_3 (h1 h2 h3) (v : (⟨S_, .f32⟩ : BufTy).Contents Val) :
    (TRef.of (sig := sig) (T := ⟨S_, .f32⟩) main_call7_cst_3 h1 h2 h3).ofBuf v = v := rfl
theorem ofBuf_main_call7_cst_3_d (h1 h2 h3) (v : (Proc.devRef (τ := τ) .tc main_call7_cst_3).ty.Contents Val) :
    (TRef.of (sig := sig) (T := ⟨S_, .f32⟩) main_call7_cst_3 h1 h2 h3).ofBuf v = v := rfl
theorem ofBuf_main_call7_cst_3_v (h1 h2 h3) (v : FVec F S_ .f32) :
    (TRef.of (sig := sig) (T := ⟨S_, .f32⟩) main_call7_cst_3 h1 h2 h3).ofBuf (Val := Elt F) v = v := rfl
theorem toBuf_main_call7_v12 (h1 h2 h3) (v : (⟨S_, .i1⟩ : BufTy).Contents Val) :
    (TRef.of (sig := sig) (T := ⟨S_, .i1⟩) main_call7_v12 h1 h2 h3).toBuf v = v := rfl
theorem toBuf_main_call7_v12_v (h1 h2 h3) (v : IVec S_ 1) :
    (TRef.of (sig := sig) (T := ⟨S_, .i1⟩) main_call7_v12 h1 h2 h3).toBuf (Val := Elt F) v = v := rfl
theorem ofBuf_main_call7_v12 (h1 h2 h3) (v : (⟨S_, .i1⟩ : BufTy).Contents Val) :
    (TRef.of (sig := sig) (T := ⟨S_, .i1⟩) main_call7_v12 h1 h2 h3).ofBuf v = v := rfl
theorem ofBuf_main_call7_v12_d (h1 h2 h3) (v : (Proc.devRef (τ := τ) .tc main_call7_v12).ty.Contents Val) :
    (TRef.of (sig := sig) (T := ⟨S_, .i1⟩) main_call7_v12 h1 h2 h3).ofBuf v = v := rfl
theorem ofBuf_main_call7_v12_v (h1 h2 h3) (v : IVec S_ 1) :
    (TRef.of (sig := sig) (T := ⟨S_, .i1⟩) main_call7_v12 h1 h2 h3).ofBuf (Val := Elt F) v = v := rfl
theorem toBuf_main_call7_cst_4 (h1 h2 h3) (v : (⟨S_, .f32⟩ : BufTy).Contents Val) :
    (TRef.of (sig := sig) (T := ⟨S_, .f32⟩) main_call7_cst_4 h1 h2 h3).toBuf v = v := rfl
theorem toBuf_main_call7_cst_4_v (h1 h2 h3) (v : FVec F S_ .f32) :
    (TRef.of (sig := sig) (T := ⟨S_, .f32⟩) main_call7_cst_4 h1 h2 h3).toBuf (Val := Elt F) v = v := rfl
theorem ofBuf_main_call7_cst_4 (h1 h2 h3) (v : (⟨S_, .f32⟩ : BufTy).Contents Val) :
    (TRef.of (sig := sig) (T := ⟨S_, .f32⟩) main_call7_cst_4 h1 h2 h3).ofBuf v = v := rfl
theorem ofBuf_main_call7_cst_4_d (h1 h2 h3) (v : (Proc.devRef (τ := τ) .tc main_call7_cst_4).ty.Contents Val) :
    (TRef.of (sig := sig) (T := ⟨S_, .f32⟩) main_call7_cst_4 h1 h2 h3).ofBuf v = v := rfl
theorem ofBuf_main_call7_cst_4_v (h1 h2 h3) (v : FVec F S_ .f32) :
    (TRef.of (sig := sig) (T := ⟨S_, .f32⟩) main_call7_cst_4 h1 h2 h3).ofBuf (Val := Elt F) v = v := rfl
theorem toBuf_main_call7_call0_v0 (h1 h2 h3) (v : (⟨S_, .f32⟩ : BufTy).Contents Val) :
    (TRef.of (sig := sig) (T := ⟨S_, .f32⟩) main_call7_call0_v0 h1 h2 h3).toBuf v = v := rfl
theorem toBuf_main_call7_call0_v0_v (h1 h2 h3) (v : FVec F S_ .f32) :
    (TRef.of (sig := sig) (T := ⟨S_, .f32⟩) main_call7_call0_v0 h1 h2 h3).toBuf (Val := Elt F) v = v := rfl
theorem ofBuf_main_call7_call0_v0 (h1 h2 h3) (v : (⟨S_, .f32⟩ : BufTy).Contents Val) :
    (TRef.of (sig := sig) (T := ⟨S_, .f32⟩) main_call7_call0_v0 h1 h2 h3).ofBuf v = v := rfl
theorem ofBuf_main_call7_call0_v0_d (h1 h2 h3) (v : (Proc.devRef (τ := τ) .tc main_call7_call0_v0).ty.Contents Val) :
    (TRef.of (sig := sig) (T := ⟨S_, .f32⟩) main_call7_call0_v0 h1 h2 h3).ofBuf v = v := rfl
theorem ofBuf_main_call7_call0_v0_v (h1 h2 h3) (v : FVec F S_ .f32) :
    (TRef.of (sig := sig) (T := ⟨S_, .f32⟩) main_call7_call0_v0 h1 h2 h3).ofBuf (Val := Elt F) v = v := rfl
theorem toBuf_main_call7_call0_v1 (h1 h2 h3) (v : (⟨S64, .f32⟩ : BufTy).Contents Val) :
    (TRef.of (sig := sig) (T := ⟨S64, .f32⟩) main_call7_call0_v1 h1 h2 h3).toBuf v = v := rfl
theorem toBuf_main_call7_call0_v1_v (h1 h2 h3) (v : FVec F S64 .f32) :
    (TRef.of (sig := sig) (T := ⟨S64, .f32⟩) main_call7_call0_v1 h1 h2 h3).toBuf (Val := Elt F) v = v := rfl
theorem ofBuf_main_call7_call0_v1 (h1 h2 h3) (v : (⟨S64, .f32⟩ : BufTy).Contents Val) :
    (TRef.of (sig := sig) (T := ⟨S64, .f32⟩) main_call7_call0_v1 h1 h2 h3).ofBuf v = v := rfl
theorem ofBuf_main_call7_call0_v1_d (h1 h2 h3) (v : (Proc.devRef (τ := τ) .tc main_call7_call0_v1).ty.Contents Val) :
    (TRef.of (sig := sig) (T := ⟨S64, .f32⟩) main_call7_call0_v1 h1 h2 h3).ofBuf v = v := rfl
theorem ofBuf_main_call7_call0_v1_v (h1 h2 h3) (v : FVec F S64 .f32) :
    (TRef.of (sig := sig) (T := ⟨S64, .f32⟩) main_call7_call0_v1 h1 h2 h3).ofBuf (Val := Elt F) v = v := rfl
theorem toBuf_main_v134 (h1 h2 h3) (v : (⟨S64, .f32⟩ : BufTy).Contents Val) :
    (TRef.of (sig := sig) (T := ⟨S64, .f32⟩) main_v134 h1 h2 h3).toBuf v = v := rfl
theorem toBuf_main_v134_v (h1 h2 h3) (v : FVec F S64 .f32) :
    (TRef.of (sig := sig) (T := ⟨S64, .f32⟩) main_v134 h1 h2 h3).toBuf (Val := Elt F) v = v := rfl
theorem ofBuf_main_v134 (h1 h2 h3) (v : (⟨S64, .f32⟩ : BufTy).Contents Val) :
    (TRef.of (sig := sig) (T := ⟨S64, .f32⟩) main_v134 h1 h2 h3).ofBuf v = v := rfl
theorem ofBuf_main_v134_d (h1 h2 h3) (v : (Proc.devRef (τ := τ) .tc main_v134).ty.Contents Val) :
    (TRef.of (sig := sig) (T := ⟨S64, .f32⟩) main_v134 h1 h2 h3).ofBuf v = v := rfl
theorem ofBuf_main_v134_v (h1 h2 h3) (v : FVec F S64 .f32) :
    (TRef.of (sig := sig) (T := ⟨S64, .f32⟩) main_v134 h1 h2 h3).ofBuf (Val := Elt F) v = v := rfl
theorem toBuf_main_call8_cst (h1 h2 h3) (v : (⟨S_, .f32⟩ : BufTy).Contents Val) :
    (TRef.of (sig := sig) (T := ⟨S_, .f32⟩) main_call8_cst h1 h2 h3).toBuf v = v := rfl
theorem toBuf_main_call8_cst_v (h1 h2 h3) (v : FVec F S_ .f32) :
    (TRef.of (sig := sig) (T := ⟨S_, .f32⟩) main_call8_cst h1 h2 h3).toBuf (Val := Elt F) v = v := rfl
theorem ofBuf_main_call8_cst (h1 h2 h3) (v : (⟨S_, .f32⟩ : BufTy).Contents Val) :
    (TRef.of (sig := sig) (T := ⟨S_, .f32⟩) main_call8_cst h1 h2 h3).ofBuf v = v := rfl
theorem ofBuf_main_call8_cst_d (h1 h2 h3) (v : (Proc.devRef (τ := τ) .tc main_call8_cst).ty.Contents Val) :
    (TRef.of (sig := sig) (T := ⟨S_, .f32⟩) main_call8_cst h1 h2 h3).ofBuf v = v := rfl
theorem ofBuf_main_call8_cst_v (h1 h2 h3) (v : FVec F S_ .f32) :
    (TRef.of (sig := sig) (T := ⟨S_, .f32⟩) main_call8_cst h1 h2 h3).ofBuf (Val := Elt F) v = v := rfl
theorem toBuf_main_call8_v0 (h1 h2 h3) (v : (⟨S100000x64, .f32⟩ : BufTy).Contents Val) :
    (TRef.of (sig := sig) (T := ⟨S100000x64, .f32⟩) main_call8_v0 h1 h2 h3).toBuf v = v := rfl
theorem toBuf_main_call8_v0_v (h1 h2 h3) (v : FVec F S100000x64 .f32) :
    (TRef.of (sig := sig) (T := ⟨S100000x64, .f32⟩) main_call8_v0 h1 h2 h3).toBuf (Val := Elt F) v = v := rfl
theorem ofBuf_main_call8_v0 (h1 h2 h3) (v : (⟨S100000x64, .f32⟩ : BufTy).Contents Val) :
    (TRef.of (sig := sig) (T := ⟨S100000x64, .f32⟩) main_call8_v0 h1 h2 h3).ofBuf v = v := rfl
theorem ofBuf_main_call8_v0_d (h1 h2 h3) (v : (Proc.devRef (τ := τ) .tc main_call8_v0).ty.Contents Val) :
    (TRef.of (sig := sig) (T := ⟨S100000x64, .f32⟩) main_call8_v0 h1 h2 h3).ofBuf v = v := rfl
theorem ofBuf_main_call8_v0_v (h1 h2 h3) (v : FVec F S100000x64 .f32) :
    (TRef.of (sig := sig) (T := ⟨S100000x64, .f32⟩) main_call8_v0 h1 h2 h3).ofBuf (Val := Elt F) v = v := rfl
theorem toBuf_main_v151 (h1 h2 h3) (v : (⟨S100000x64, .f32⟩ : BufTy).Contents Val) :
    (TRef.of (sig := sig) (T := ⟨S100000x64, .f32⟩) main_v151 h1 h2 h3).toBuf v = v := rfl
theorem toBuf_main_v151_v (h1 h2 h3) (v : FVec F S100000x64 .f32) :
    (TRef.of (sig := sig) (T := ⟨S100000x64, .f32⟩) main_v151 h1 h2 h3).toBuf (Val := Elt F) v = v := rfl
theorem ofBuf_main_v151 (h1 h2 h3) (v : (⟨S100000x64, .f32⟩ : BufTy).Contents Val) :
    (TRef.of (sig := sig) (T := ⟨S100000x64, .f32⟩) main_v151 h1 h2 h3).ofBuf v = v := rfl
theorem ofBuf_main_v151_d (h1 h2 h3) (v : (Proc.devRef (τ := τ) .tc main_v151).ty.Contents Val) :
    (TRef.of (sig := sig) (T := ⟨S100000x64, .f32⟩) main_v151 h1 h2 h3).ofBuf v = v := rfl
theorem ofBuf_main_v151_v (h1 h2 h3) (v : FVec F S100000x64 .f32) :
    (TRef.of (sig := sig) (T := ⟨S100000x64, .f32⟩) main_v151 h1 h2 h3).ofBuf (Val := Elt F) v = v := rfl
theorem toBuf_main_v150 (h1 h2 h3) (v : (⟨S100000x64, .f32⟩ : BufTy).Contents Val) :
    (TRef.of (sig := sig) (T := ⟨S100000x64, .f32⟩) main_v150 h1 h2 h3).toBuf v = v := rfl
theorem toBuf_main_v150_v (h1 h2 h3) (v : FVec F S100000x64 .f32) :
    (TRef.of (sig := sig) (T := ⟨S100000x64, .f32⟩) main_v150 h1 h2 h3).toBuf (Val := Elt F) v = v := rfl
theorem ofBuf_main_v150 (h1 h2 h3) (v : (⟨S100000x64, .f32⟩ : BufTy).Contents Val) :
    (TRef.of (sig := sig) (T := ⟨S100000x64, .f32⟩) main_v150 h1 h2 h3).ofBuf v = v := rfl
theorem ofBuf_main_v150_d (h1 h2 h3) (v : (Proc.devRef (τ := τ) .tc main_v150).ty.Contents Val) :
    (TRef.of (sig := sig) (T := ⟨S100000x64, .f32⟩) main_v150 h1 h2 h3).ofBuf v = v := rfl
theorem ofBuf_main_v150_v (h1 h2 h3) (v : FVec F S100000x64 .f32) :
    (TRef.of (sig := sig) (T := ⟨S100000x64, .f32⟩) main_v150 h1 h2 h3).ofBuf (Val := Elt F) v = v := rfl
theorem toBuf_main_call9_cst (h1 h2 h3) (v : (⟨S_, .f32⟩ : BufTy).Contents Val) :
    (TRef.of (sig := sig) (T := ⟨S_, .f32⟩) main_call9_cst h1 h2 h3).toBuf v = v := rfl
theorem toBuf_main_call9_cst_v (h1 h2 h3) (v : FVec F S_ .f32) :
    (TRef.of (sig := sig) (T := ⟨S_, .f32⟩) main_call9_cst h1 h2 h3).toBuf (Val := Elt F) v = v := rfl
theorem ofBuf_main_call9_cst (h1 h2 h3) (v : (⟨S_, .f32⟩ : BufTy).Contents Val) :
    (TRef.of (sig := sig) (T := ⟨S_, .f32⟩) main_call9_cst h1 h2 h3).ofBuf v = v := rfl
theorem ofBuf_main_call9_cst_d (h1 h2 h3) (v : (Proc.devRef (τ := τ) .tc main_call9_cst).ty.Contents Val) :
    (TRef.of (sig := sig) (T := ⟨S_, .f32⟩) main_call9_cst h1 h2 h3).ofBuf v = v := rfl
theorem ofBuf_main_call9_cst_v (h1 h2 h3) (v : FVec F S_ .f32) :
    (TRef.of (sig := sig) (T := ⟨S_, .f32⟩) main_call9_cst h1 h2 h3).ofBuf (Val := Elt F) v = v := rfl
theorem toBuf_main_call9_v0 (h1 h2 h3) (v : (⟨S100000x64, .f32⟩ : BufTy).Contents Val) :
    (TRef.of (sig := sig) (T := ⟨S100000x64, .f32⟩) main_call9_v0 h1 h2 h3).toBuf v = v := rfl
theorem toBuf_main_call9_v0_v (h1 h2 h3) (v : FVec F S100000x64 .f32) :
    (TRef.of (sig := sig) (T := ⟨S100000x64, .f32⟩) main_call9_v0 h1 h2 h3).toBuf (Val := Elt F) v = v := rfl
theorem ofBuf_main_call9_v0 (h1 h2 h3) (v : (⟨S100000x64, .f32⟩ : BufTy).Contents Val) :
    (TRef.of (sig := sig) (T := ⟨S100000x64, .f32⟩) main_call9_v0 h1 h2 h3).ofBuf v = v := rfl
theorem ofBuf_main_call9_v0_d (h1 h2 h3) (v : (Proc.devRef (τ := τ) .tc main_call9_v0).ty.Contents Val) :
    (TRef.of (sig := sig) (T := ⟨S100000x64, .f32⟩) main_call9_v0 h1 h2 h3).ofBuf v = v := rfl
theorem ofBuf_main_call9_v0_v (h1 h2 h3) (v : FVec F S100000x64 .f32) :
    (TRef.of (sig := sig) (T := ⟨S100000x64, .f32⟩) main_call9_v0 h1 h2 h3).ofBuf (Val := Elt F) v = v := rfl
theorem toBuf_main_v170 (h1 h2 h3) (v : (⟨S100000x64, .f32⟩ : BufTy).Contents Val) :
    (TRef.of (sig := sig) (T := ⟨S100000x64, .f32⟩) main_v170 h1 h2 h3).toBuf v = v := rfl
theorem toBuf_main_v170_v (h1 h2 h3) (v : FVec F S100000x64 .f32) :
    (TRef.of (sig := sig) (T := ⟨S100000x64, .f32⟩) main_v170 h1 h2 h3).toBuf (Val := Elt F) v = v := rfl
theorem ofBuf_main_v170 (h1 h2 h3) (v : (⟨S100000x64, .f32⟩ : BufTy).Contents Val) :
    (TRef.of (sig := sig) (T := ⟨S100000x64, .f32⟩) main_v170 h1 h2 h3).ofBuf v = v := rfl
theorem ofBuf_main_v170_d (h1 h2 h3) (v : (Proc.devRef (τ := τ) .tc main_v170).ty.Contents Val) :
    (TRef.of (sig := sig) (T := ⟨S100000x64, .f32⟩) main_v170 h1 h2 h3).ofBuf v = v := rfl
theorem ofBuf_main_v170_v (h1 h2 h3) (v : FVec F S100000x64 .f32) :
    (TRef.of (sig := sig) (T := ⟨S100000x64, .f32⟩) main_v170 h1 h2 h3).ofBuf (Val := Elt F) v = v := rfl
theorem toBuf_main_v169 (h1 h2 h3) (v : (⟨S100000x64, .f32⟩ : BufTy).Contents Val) :
    (TRef.of (sig := sig) (T := ⟨S100000x64, .f32⟩) main_v169 h1 h2 h3).toBuf v = v := rfl
theorem toBuf_main_v169_v (h1 h2 h3) (v : FVec F S100000x64 .f32) :
    (TRef.of (sig := sig) (T := ⟨S100000x64, .f32⟩) main_v169 h1 h2 h3).toBuf (Val := Elt F) v = v := rfl
theorem ofBuf_main_v169 (h1 h2 h3) (v : (⟨S100000x64, .f32⟩ : BufTy).Contents Val) :
    (TRef.of (sig := sig) (T := ⟨S100000x64, .f32⟩) main_v169 h1 h2 h3).ofBuf v = v := rfl
theorem ofBuf_main_v169_d (h1 h2 h3) (v : (Proc.devRef (τ := τ) .tc main_v169).ty.Contents Val) :
    (TRef.of (sig := sig) (T := ⟨S100000x64, .f32⟩) main_v169 h1 h2 h3).ofBuf v = v := rfl
theorem ofBuf_main_v169_v (h1 h2 h3) (v : FVec F S100000x64 .f32) :
    (TRef.of (sig := sig) (T := ⟨S100000x64, .f32⟩) main_v169 h1 h2 h3).ofBuf (Val := Elt F) v = v := rfl
theorem toBuf_main_call10_cst (h1 h2 h3) (v : (⟨S_, .f32⟩ : BufTy).Contents Val) :
    (TRef.of (sig := sig) (T := ⟨S_, .f32⟩) main_call10_cst h1 h2 h3).toBuf v = v := rfl
theorem toBuf_main_call10_cst_v (h1 h2 h3) (v : FVec F S_ .f32) :
    (TRef.of (sig := sig) (T := ⟨S_, .f32⟩) main_call10_cst h1 h2 h3).toBuf (Val := Elt F) v = v := rfl
theorem ofBuf_main_call10_cst (h1 h2 h3) (v : (⟨S_, .f32⟩ : BufTy).Contents Val) :
    (TRef.of (sig := sig) (T := ⟨S_, .f32⟩) main_call10_cst h1 h2 h3).ofBuf v = v := rfl
theorem ofBuf_main_call10_cst_d (h1 h2 h3) (v : (Proc.devRef (τ := τ) .tc main_call10_cst).ty.Contents Val) :
    (TRef.of (sig := sig) (T := ⟨S_, .f32⟩) main_call10_cst h1 h2 h3).ofBuf v = v := rfl
theorem ofBuf_main_call10_cst_v (h1 h2 h3) (v : FVec F S_ .f32) :
    (TRef.of (sig := sig) (T := ⟨S_, .f32⟩) main_call10_cst h1 h2 h3).ofBuf (Val := Elt F) v = v := rfl
theorem toBuf_main_call10_v0 (h1 h2 h3) (v : (⟨S64, .f32⟩ : BufTy).Contents Val) :
    (TRef.of (sig := sig) (T := ⟨S64, .f32⟩) main_call10_v0 h1 h2 h3).toBuf v = v := rfl
theorem toBuf_main_call10_v0_v (h1 h2 h3) (v : FVec F S64 .f32) :
    (TRef.of (sig := sig) (T := ⟨S64, .f32⟩) main_call10_v0 h1 h2 h3).toBuf (Val := Elt F) v = v := rfl
theorem ofBuf_main_call10_v0 (h1 h2 h3) (v : (⟨S64, .f32⟩ : BufTy).Contents Val) :
    (TRef.of (sig := sig) (T := ⟨S64, .f32⟩) main_call10_v0 h1 h2 h3).ofBuf v = v := rfl
theorem ofBuf_main_call10_v0_d (h1 h2 h3) (v : (Proc.devRef (τ := τ) .tc main_call10_v0).ty.Contents Val) :
    (TRef.of (sig := sig) (T := ⟨S64, .f32⟩) main_call10_v0 h1 h2 h3).ofBuf v = v := rfl
theorem ofBuf_main_call10_v0_v (h1 h2 h3) (v : FVec F S64 .f32) :
    (TRef.of (sig := sig) (T := ⟨S64, .f32⟩) main_call10_v0 h1 h2 h3).ofBuf (Val := Elt F) v = v := rfl
theorem toBuf_main_v207 (h1 h2 h3) (v : (⟨S100000x64, .f32⟩ : BufTy).Contents Val) :
    (TRef.of (sig := sig) (T := ⟨S100000x64, .f32⟩) main_v207 h1 h2 h3).toBuf v = v := rfl
theorem toBuf_main_v207_v (h1 h2 h3) (v : FVec F S100000x64 .f32) :
    (TRef.of (sig := sig) (T := ⟨S100000x64, .f32⟩) main_v207 h1 h2 h3).toBuf (Val := Elt F) v = v := rfl
theorem ofBuf_main_v207 (h1 h2 h3) (v : (⟨S100000x64, .f32⟩ : BufTy).Contents Val) :
    (TRef.of (sig := sig) (T := ⟨S100000x64, .f32⟩) main_v207 h1 h2 h3).ofBuf v = v := rfl
theorem ofBuf_main_v207_d (h1 h2 h3) (v : (Proc.devRef (τ := τ) .tc main_v207).ty.Contents Val) :
    (TRef.of (sig := sig) (T := ⟨S100000x64, .f32⟩) main_v207 h1 h2 h3).ofBuf v = v := rfl
theorem ofBuf_main_v207_v (h1 h2 h3) (v : FVec F S100000x64 .f32) :
    (TRef.of (sig := sig) (T := ⟨S100000x64, .f32⟩) main_v207 h1 h2 h3).ofBuf (Val := Elt F) v = v := rfl
theorem toBuf_main_call10_v1 (h1 h2 h3) (v : (⟨S1x64, .f32⟩ : BufTy).Contents Val) :
    (TRef.of (sig := sig) (T := ⟨S1x64, .f32⟩) main_call10_v1 h1 h2 h3).toBuf v = v := rfl
theorem toBuf_main_call10_v1_v (h1 h2 h3) (v : FVec F S1x64 .f32) :
    (TRef.of (sig := sig) (T := ⟨S1x64, .f32⟩) main_call10_v1 h1 h2 h3).toBuf (Val := Elt F) v = v := rfl
theorem ofBuf_main_call10_v1 (h1 h2 h3) (v : (⟨S1x64, .f32⟩ : BufTy).Contents Val) :
    (TRef.of (sig := sig) (T := ⟨S1x64, .f32⟩) main_call10_v1 h1 h2 h3).ofBuf v = v := rfl
theorem ofBuf_main_call10_v1_d (h1 h2 h3) (v : (Proc.devRef (τ := τ) .tc main_call10_v1).ty.Contents Val) :
    (TRef.of (sig := sig) (T := ⟨S1x64, .f32⟩) main_call10_v1 h1 h2 h3).ofBuf v = v := rfl
theorem ofBuf_main_call10_v1_v (h1 h2 h3) (v : FVec F S1x64 .f32) :
    (TRef.of (sig := sig) (T := ⟨S1x64, .f32⟩) main_call10_v1 h1 h2 h3).ofBuf (Val := Elt F) v = v := rfl
theorem toBuf_main_call10_cst_0 (h1 h2 h3) (v : (⟨S_, .f32⟩ : BufTy).Contents Val) :
    (TRef.of (sig := sig) (T := ⟨S_, .f32⟩) main_call10_cst_0 h1 h2 h3).toBuf v = v := rfl
theorem toBuf_main_call10_cst_0_v (h1 h2 h3) (v : FVec F S_ .f32) :
    (TRef.of (sig := sig) (T := ⟨S_, .f32⟩) main_call10_cst_0 h1 h2 h3).toBuf (Val := Elt F) v = v := rfl
theorem ofBuf_main_call10_cst_0 (h1 h2 h3) (v : (⟨S_, .f32⟩ : BufTy).Contents Val) :
    (TRef.of (sig := sig) (T := ⟨S_, .f32⟩) main_call10_cst_0 h1 h2 h3).ofBuf v = v := rfl
theorem ofBuf_main_call10_cst_0_d (h1 h2 h3) (v : (Proc.devRef (τ := τ) .tc main_call10_cst_0).ty.Contents Val) :
    (TRef.of (sig := sig) (T := ⟨S_, .f32⟩) main_call10_cst_0 h1 h2 h3).ofBuf v = v := rfl
theorem ofBuf_main_call10_cst_0_v (h1 h2 h3) (v : FVec F S_ .f32) :
    (TRef.of (sig := sig) (T := ⟨S_, .f32⟩) main_call10_cst_0 h1 h2 h3).ofBuf (Val := Elt F) v = v := rfl
theorem toBuf_main_call10_v2 (h1 h2 h3) (v : (⟨S1x64, .f32⟩ : BufTy).Contents Val) :
    (TRef.of (sig := sig) (T := ⟨S1x64, .f32⟩) main_call10_v2 h1 h2 h3).toBuf v = v := rfl
theorem toBuf_main_call10_v2_v (h1 h2 h3) (v : FVec F S1x64 .f32) :
    (TRef.of (sig := sig) (T := ⟨S1x64, .f32⟩) main_call10_v2 h1 h2 h3).toBuf (Val := Elt F) v = v := rfl
theorem ofBuf_main_call10_v2 (h1 h2 h3) (v : (⟨S1x64, .f32⟩ : BufTy).Contents Val) :
    (TRef.of (sig := sig) (T := ⟨S1x64, .f32⟩) main_call10_v2 h1 h2 h3).ofBuf v = v := rfl
theorem ofBuf_main_call10_v2_d (h1 h2 h3) (v : (Proc.devRef (τ := τ) .tc main_call10_v2).ty.Contents Val) :
    (TRef.of (sig := sig) (T := ⟨S1x64, .f32⟩) main_call10_v2 h1 h2 h3).ofBuf v = v := rfl
theorem ofBuf_main_call10_v2_v (h1 h2 h3) (v : FVec F S1x64 .f32) :
    (TRef.of (sig := sig) (T := ⟨S1x64, .f32⟩) main_call10_v2 h1 h2 h3).ofBuf (Val := Elt F) v = v := rfl
theorem toBuf_main_call10_v3 (h1 h2 h3) (v : (⟨S1x64, .f32⟩ : BufTy).Contents Val) :
    (TRef.of (sig := sig) (T := ⟨S1x64, .f32⟩) main_call10_v3 h1 h2 h3).toBuf v = v := rfl
theorem toBuf_main_call10_v3_v (h1 h2 h3) (v : FVec F S1x64 .f32) :
    (TRef.of (sig := sig) (T := ⟨S1x64, .f32⟩) main_call10_v3 h1 h2 h3).toBuf (Val := Elt F) v = v := rfl
theorem ofBuf_main_call10_v3 (h1 h2 h3) (v : (⟨S1x64, .f32⟩ : BufTy).Contents Val) :
    (TRef.of (sig := sig) (T := ⟨S1x64, .f32⟩) main_call10_v3 h1 h2 h3).ofBuf v = v := rfl
theorem ofBuf_main_call10_v3_d (h1 h2 h3) (v : (Proc.devRef (τ := τ) .tc main_call10_v3).ty.Contents Val) :
    (TRef.of (sig := sig) (T := ⟨S1x64, .f32⟩) main_call10_v3 h1 h2 h3).ofBuf v = v := rfl
theorem ofBuf_main_call10_v3_v (h1 h2 h3) (v : FVec F S1x64 .f32) :
    (TRef.of (sig := sig) (T := ⟨S1x64, .f32⟩) main_call10_v3 h1 h2 h3).ofBuf (Val := Elt F) v = v := rfl
theorem toBuf_main_call10_v4 (h1 h2 h3) (v : (⟨S100000x64, .f32⟩ : BufTy).Contents Val) :
    (TRef.of (sig := sig) (T := ⟨S100000x64, .f32⟩) main_call10_v4 h1 h2 h3).toBuf v = v := rfl
theorem toBuf_main_call10_v4_v (h1 h2 h3) (v : FVec F S100000x64 .f32) :
    (TRef.of (sig := sig) (T := ⟨S100000x64, .f32⟩) main_call10_v4 h1 h2 h3).toBuf (Val := Elt F) v = v := rfl
theorem ofBuf_main_call10_v4 (h1 h2 h3) (v : (⟨S100000x64, .f32⟩ : BufTy).Contents Val) :
    (TRef.of (sig := sig) (T := ⟨S100000x64, .f32⟩) main_call10_v4 h1 h2 h3).ofBuf v = v := rfl
theorem ofBuf_main_call10_v4_d (h1 h2 h3) (v : (Proc.devRef (τ := τ) .tc main_call10_v4).ty.Contents Val) :
    (TRef.of (sig := sig) (T := ⟨S100000x64, .f32⟩) main_call10_v4 h1 h2 h3).ofBuf v = v := rfl
theorem ofBuf_main_call10_v4_v (h1 h2 h3) (v : FVec F S100000x64 .f32) :
    (TRef.of (sig := sig) (T := ⟨S100000x64, .f32⟩) main_call10_v4 h1 h2 h3).ofBuf (Val := Elt F) v = v := rfl
theorem toBuf_main_call10_v5 (h1 h2 h3) (v : (⟨S100000x64, .f32⟩ : BufTy).Contents Val) :
    (TRef.of (sig := sig) (T := ⟨S100000x64, .f32⟩) main_call10_v5 h1 h2 h3).toBuf v = v := rfl
theorem toBuf_main_call10_v5_v (h1 h2 h3) (v : FVec F S100000x64 .f32) :
    (TRef.of (sig := sig) (T := ⟨S100000x64, .f32⟩) main_call10_v5 h1 h2 h3).toBuf (Val := Elt F) v = v := rfl
theorem ofBuf_main_call10_v5 (h1 h2 h3) (v : (⟨S100000x64, .f32⟩ : BufTy).Contents Val) :
    (TRef.of (sig := sig) (T := ⟨S100000x64, .f32⟩) main_call10_v5 h1 h2 h3).ofBuf v = v := rfl
theorem ofBuf_main_call10_v5_d (h1 h2 h3) (v : (Proc.devRef (τ := τ) .tc main_call10_v5).ty.Contents Val) :
    (TRef.of (sig := sig) (T := ⟨S100000x64, .f32⟩) main_call10_v5 h1 h2 h3).ofBuf v = v := rfl
theorem ofBuf_main_call10_v5_v (h1 h2 h3) (v : FVec F S100000x64 .f32) :
    (TRef.of (sig := sig) (T := ⟨S100000x64, .f32⟩) main_call10_v5 h1 h2 h3).ofBuf (Val := Elt F) v = v := rfl
theorem toBuf_main_call10_v6 (h1 h2 h3) (v : (⟨S100000x64, .f32⟩ : BufTy).Contents Val) :
    (TRef.of (sig := sig) (T := ⟨S100000x64, .f32⟩) main_call10_v6 h1 h2 h3).toBuf v = v := rfl
theorem toBuf_main_call10_v6_v (h1 h2 h3) (v : FVec F S100000x64 .f32) :
    (TRef.of (sig := sig) (T := ⟨S100000x64, .f32⟩) main_call10_v6 h1 h2 h3).toBuf (Val := Elt F) v = v := rfl
theorem ofBuf_main_call10_v6 (h1 h2 h3) (v : (⟨S100000x64, .f32⟩ : BufTy).Contents Val) :
    (TRef.of (sig := sig) (T := ⟨S100000x64, .f32⟩) main_call10_v6 h1 h2 h3).ofBuf v = v := rfl
theorem ofBuf_main_call10_v6_d (h1 h2 h3) (v : (Proc.devRef (τ := τ) .tc main_call10_v6).ty.Contents Val) :
    (TRef.of (sig := sig) (T := ⟨S100000x64, .f32⟩) main_call10_v6 h1 h2 h3).ofBuf v = v := rfl
theorem ofBuf_main_call10_v6_v (h1 h2 h3) (v : FVec F S100000x64 .f32) :
    (TRef.of (sig := sig) (T := ⟨S100000x64, .f32⟩) main_call10_v6 h1 h2 h3).ofBuf (Val := Elt F) v = v := rfl
theorem toBuf_main_call10_v7 (h1 h2 h3) (v : (⟨S_, .f32⟩ : BufTy).Contents Val) :
    (TRef.of (sig := sig) (T := ⟨S_, .f32⟩) main_call10_v7 h1 h2 h3).toBuf v = v := rfl
theorem toBuf_main_call10_v7_v (h1 h2 h3) (v : FVec F S_ .f32) :
    (TRef.of (sig := sig) (T := ⟨S_, .f32⟩) main_call10_v7 h1 h2 h3).toBuf (Val := Elt F) v = v := rfl
theorem ofBuf_main_call10_v7 (h1 h2 h3) (v : (⟨S_, .f32⟩ : BufTy).Contents Val) :
    (TRef.of (sig := sig) (T := ⟨S_, .f32⟩) main_call10_v7 h1 h2 h3).ofBuf v = v := rfl
theorem ofBuf_main_call10_v7_d (h1 h2 h3) (v : (Proc.devRef (τ := τ) .tc main_call10_v7).ty.Contents Val) :
    (TRef.of (sig := sig) (T := ⟨S_, .f32⟩) main_call10_v7 h1 h2 h3).ofBuf v = v := rfl
theorem ofBuf_main_call10_v7_v (h1 h2 h3) (v : FVec F S_ .f32) :
    (TRef.of (sig := sig) (T := ⟨S_, .f32⟩) main_call10_v7 h1 h2 h3).ofBuf (Val := Elt F) v = v := rfl
theorem toBuf_main_c_34 (h1 h2 h3) (v : (⟨S_, .i32⟩ : BufTy).Contents Val) :
    (TRef.of (sig := sig) (T := ⟨S_, .i32⟩) main_c_34 h1 h2 h3).toBuf v = v := rfl
theorem toBuf_main_c_34_v (h1 h2 h3) (v : IVec S_ 32) :
    (TRef.of (sig := sig) (T := ⟨S_, .i32⟩) main_c_34 h1 h2 h3).toBuf (Val := Elt F) v = v := rfl
theorem ofBuf_main_c_34 (h1 h2 h3) (v : (⟨S_, .i32⟩ : BufTy).Contents Val) :
    (TRef.of (sig := sig) (T := ⟨S_, .i32⟩) main_c_34 h1 h2 h3).ofBuf v = v := rfl
theorem ofBuf_main_c_34_d (h1 h2 h3) (v : (Proc.devRef (τ := τ) .tc main_c_34).ty.Contents Val) :
    (TRef.of (sig := sig) (T := ⟨S_, .i32⟩) main_c_34 h1 h2 h3).ofBuf v = v := rfl
theorem ofBuf_main_c_34_v (h1 h2 h3) (v : IVec S_ 32) :
    (TRef.of (sig := sig) (T := ⟨S_, .i32⟩) main_c_34 h1 h2 h3).ofBuf (Val := Elt F) v = v := rfl
theorem toBuf_main_call10_cst_1 (h1 h2 h3) (v : (⟨S_, .f32⟩ : BufTy).Contents Val) :
    (TRef.of (sig := sig) (T := ⟨S_, .f32⟩) main_call10_cst_1 h1 h2 h3).toBuf v = v := rfl
theorem toBuf_main_call10_cst_1_v (h1 h2 h3) (v : FVec F S_ .f32) :
    (TRef.of (sig := sig) (T := ⟨S_, .f32⟩) main_call10_cst_1 h1 h2 h3).toBuf (Val := Elt F) v = v := rfl
theorem ofBuf_main_call10_cst_1 (h1 h2 h3) (v : (⟨S_, .f32⟩ : BufTy).Contents Val) :
    (TRef.of (sig := sig) (T := ⟨S_, .f32⟩) main_call10_cst_1 h1 h2 h3).ofBuf v = v := rfl
theorem ofBuf_main_call10_cst_1_d (h1 h2 h3) (v : (Proc.devRef (τ := τ) .tc main_call10_cst_1).ty.Contents Val) :
    (TRef.of (sig := sig) (T := ⟨S_, .f32⟩) main_call10_cst_1 h1 h2 h3).ofBuf v = v := rfl
theorem ofBuf_main_call10_cst_1_v (h1 h2 h3) (v : FVec F S_ .f32) :
    (TRef.of (sig := sig) (T := ⟨S_, .f32⟩) main_call10_cst_1 h1 h2 h3).ofBuf (Val := Elt F) v = v := rfl
theorem toBuf_main_call10_v8 (h1 h2 h3) (v : (⟨S_, .f32⟩ : BufTy).Contents Val) :
    (TRef.of (sig := sig) (T := ⟨S_, .f32⟩) main_call10_v8 h1 h2 h3).toBuf v = v := rfl
theorem toBuf_main_call10_v8_v (h1 h2 h3) (v : FVec F S_ .f32) :
    (TRef.of (sig := sig) (T := ⟨S_, .f32⟩) main_call10_v8 h1 h2 h3).toBuf (Val := Elt F) v = v := rfl
theorem ofBuf_main_call10_v8 (h1 h2 h3) (v : (⟨S_, .f32⟩ : BufTy).Contents Val) :
    (TRef.of (sig := sig) (T := ⟨S_, .f32⟩) main_call10_v8 h1 h2 h3).ofBuf v = v := rfl
theorem ofBuf_main_call10_v8_d (h1 h2 h3) (v : (Proc.devRef (τ := τ) .tc main_call10_v8).ty.Contents Val) :
    (TRef.of (sig := sig) (T := ⟨S_, .f32⟩) main_call10_v8 h1 h2 h3).ofBuf v = v := rfl
theorem ofBuf_main_call10_v8_v (h1 h2 h3) (v : FVec F S_ .f32) :
    (TRef.of (sig := sig) (T := ⟨S_, .f32⟩) main_call10_v8 h1 h2 h3).ofBuf (Val := Elt F) v = v := rfl
theorem toBuf_main_call10_cst_2 (h1 h2 h3) (v : (⟨S_, .f32⟩ : BufTy).Contents Val) :
    (TRef.of (sig := sig) (T := ⟨S_, .f32⟩) main_call10_cst_2 h1 h2 h3).toBuf v = v := rfl
theorem toBuf_main_call10_cst_2_v (h1 h2 h3) (v : FVec F S_ .f32) :
    (TRef.of (sig := sig) (T := ⟨S_, .f32⟩) main_call10_cst_2 h1 h2 h3).toBuf (Val := Elt F) v = v := rfl
theorem ofBuf_main_call10_cst_2 (h1 h2 h3) (v : (⟨S_, .f32⟩ : BufTy).Contents Val) :
    (TRef.of (sig := sig) (T := ⟨S_, .f32⟩) main_call10_cst_2 h1 h2 h3).ofBuf v = v := rfl
theorem ofBuf_main_call10_cst_2_d (h1 h2 h3) (v : (Proc.devRef (τ := τ) .tc main_call10_cst_2).ty.Contents Val) :
    (TRef.of (sig := sig) (T := ⟨S_, .f32⟩) main_call10_cst_2 h1 h2 h3).ofBuf v = v := rfl
theorem ofBuf_main_call10_cst_2_v (h1 h2 h3) (v : FVec F S_ .f32) :
    (TRef.of (sig := sig) (T := ⟨S_, .f32⟩) main_call10_cst_2 h1 h2 h3).ofBuf (Val := Elt F) v = v := rfl
theorem toBuf_main_call10_v9 (h1 h2 h3) (v : (⟨S64, .f32⟩ : BufTy).Contents Val) :
    (TRef.of (sig := sig) (T := ⟨S64, .f32⟩) main_call10_v9 h1 h2 h3).toBuf v = v := rfl
theorem toBuf_main_call10_v9_v (h1 h2 h3) (v : FVec F S64 .f32) :
    (TRef.of (sig := sig) (T := ⟨S64, .f32⟩) main_call10_v9 h1 h2 h3).toBuf (Val := Elt F) v = v := rfl
theorem ofBuf_main_call10_v9 (h1 h2 h3) (v : (⟨S64, .f32⟩ : BufTy).Contents Val) :
    (TRef.of (sig := sig) (T := ⟨S64, .f32⟩) main_call10_v9 h1 h2 h3).ofBuf v = v := rfl
theorem ofBuf_main_call10_v9_d (h1 h2 h3) (v : (Proc.devRef (τ := τ) .tc main_call10_v9).ty.Contents Val) :
    (TRef.of (sig := sig) (T := ⟨S64, .f32⟩) main_call10_v9 h1 h2 h3).ofBuf v = v := rfl
theorem ofBuf_main_call10_v9_v (h1 h2 h3) (v : FVec F S64 .f32) :
    (TRef.of (sig := sig) (T := ⟨S64, .f32⟩) main_call10_v9 h1 h2 h3).ofBuf (Val := Elt F) v = v := rfl
theorem toBuf_main_call10_v10 (h1 h2 h3) (v : (⟨S64, .f32⟩ : BufTy).Contents Val) :
    (TRef.of (sig := sig) (T := ⟨S64, .f32⟩) main_call10_v10 h1 h2 h3).toBuf v = v := rfl
theorem toBuf_main_call10_v10_v (h1 h2 h3) (v : FVec F S64 .f32) :
    (TRef.of (sig := sig) (T := ⟨S64, .f32⟩) main_call10_v10 h1 h2 h3).toBuf (Val := Elt F) v = v := rfl
theorem ofBuf_main_call10_v10 (h1 h2 h3) (v : (⟨S64, .f32⟩ : BufTy).Contents Val) :
    (TRef.of (sig := sig) (T := ⟨S64, .f32⟩) main_call10_v10 h1 h2 h3).ofBuf v = v := rfl
theorem ofBuf_main_call10_v10_d (h1 h2 h3) (v : (Proc.devRef (τ := τ) .tc main_call10_v10).ty.Contents Val) :
    (TRef.of (sig := sig) (T := ⟨S64, .f32⟩) main_call10_v10 h1 h2 h3).ofBuf v = v := rfl
theorem ofBuf_main_call10_v10_v (h1 h2 h3) (v : FVec F S64 .f32) :
    (TRef.of (sig := sig) (T := ⟨S64, .f32⟩) main_call10_v10 h1 h2 h3).ofBuf (Val := Elt F) v = v := rfl
theorem toBuf_main_call10_v11 (h1 h2 h3) (v : (⟨S64, .f32⟩ : BufTy).Contents Val) :
    (TRef.of (sig := sig) (T := ⟨S64, .f32⟩) main_call10_v11 h1 h2 h3).toBuf v = v := rfl
theorem toBuf_main_call10_v11_v (h1 h2 h3) (v : FVec F S64 .f32) :
    (TRef.of (sig := sig) (T := ⟨S64, .f32⟩) main_call10_v11 h1 h2 h3).toBuf (Val := Elt F) v = v := rfl
theorem ofBuf_main_call10_v11 (h1 h2 h3) (v : (⟨S64, .f32⟩ : BufTy).Contents Val) :
    (TRef.of (sig := sig) (T := ⟨S64, .f32⟩) main_call10_v11 h1 h2 h3).ofBuf v = v := rfl
theorem ofBuf_main_call10_v11_d (h1 h2 h3) (v : (Proc.devRef (τ := τ) .tc main_call10_v11).ty.Contents Val) :
    (TRef.of (sig := sig) (T := ⟨S64, .f32⟩) main_call10_v11 h1 h2 h3).ofBuf v = v := rfl
theorem ofBuf_main_call10_v11_v (h1 h2 h3) (v : FVec F S64 .f32) :
    (TRef.of (sig := sig) (T := ⟨S64, .f32⟩) main_call10_v11 h1 h2 h3).ofBuf (Val := Elt F) v = v := rfl
theorem toBuf_main_call10_cst_3 (h1 h2 h3) (v : (⟨S_, .f32⟩ : BufTy).Contents Val) :
    (TRef.of (sig := sig) (T := ⟨S_, .f32⟩) main_call10_cst_3 h1 h2 h3).toBuf v = v := rfl
theorem toBuf_main_call10_cst_3_v (h1 h2 h3) (v : FVec F S_ .f32) :
    (TRef.of (sig := sig) (T := ⟨S_, .f32⟩) main_call10_cst_3 h1 h2 h3).toBuf (Val := Elt F) v = v := rfl
theorem ofBuf_main_call10_cst_3 (h1 h2 h3) (v : (⟨S_, .f32⟩ : BufTy).Contents Val) :
    (TRef.of (sig := sig) (T := ⟨S_, .f32⟩) main_call10_cst_3 h1 h2 h3).ofBuf v = v := rfl
theorem ofBuf_main_call10_cst_3_d (h1 h2 h3) (v : (Proc.devRef (τ := τ) .tc main_call10_cst_3).ty.Contents Val) :
    (TRef.of (sig := sig) (T := ⟨S_, .f32⟩) main_call10_cst_3 h1 h2 h3).ofBuf v = v := rfl
theorem ofBuf_main_call10_cst_3_v (h1 h2 h3) (v : FVec F S_ .f32) :
    (TRef.of (sig := sig) (T := ⟨S_, .f32⟩) main_call10_cst_3 h1 h2 h3).ofBuf (Val := Elt F) v = v := rfl
theorem toBuf_main_call10_v12 (h1 h2 h3) (v : (⟨S_, .i1⟩ : BufTy).Contents Val) :
    (TRef.of (sig := sig) (T := ⟨S_, .i1⟩) main_call10_v12 h1 h2 h3).toBuf v = v := rfl
theorem toBuf_main_call10_v12_v (h1 h2 h3) (v : IVec S_ 1) :
    (TRef.of (sig := sig) (T := ⟨S_, .i1⟩) main_call10_v12 h1 h2 h3).toBuf (Val := Elt F) v = v := rfl
theorem ofBuf_main_call10_v12 (h1 h2 h3) (v : (⟨S_, .i1⟩ : BufTy).Contents Val) :
    (TRef.of (sig := sig) (T := ⟨S_, .i1⟩) main_call10_v12 h1 h2 h3).ofBuf v = v := rfl
theorem ofBuf_main_call10_v12_d (h1 h2 h3) (v : (Proc.devRef (τ := τ) .tc main_call10_v12).ty.Contents Val) :
    (TRef.of (sig := sig) (T := ⟨S_, .i1⟩) main_call10_v12 h1 h2 h3).ofBuf v = v := rfl
theorem ofBuf_main_call10_v12_v (h1 h2 h3) (v : IVec S_ 1) :
    (TRef.of (sig := sig) (T := ⟨S_, .i1⟩) main_call10_v12 h1 h2 h3).ofBuf (Val := Elt F) v = v := rfl
theorem toBuf_main_call10_cst_4 (h1 h2 h3) (v : (⟨S_, .f32⟩ : BufTy).Contents Val) :
    (TRef.of (sig := sig) (T := ⟨S_, .f32⟩) main_call10_cst_4 h1 h2 h3).toBuf v = v := rfl
theorem toBuf_main_call10_cst_4_v (h1 h2 h3) (v : FVec F S_ .f32) :
    (TRef.of (sig := sig) (T := ⟨S_, .f32⟩) main_call10_cst_4 h1 h2 h3).toBuf (Val := Elt F) v = v := rfl
theorem ofBuf_main_call10_cst_4 (h1 h2 h3) (v : (⟨S_, .f32⟩ : BufTy).Contents Val) :
    (TRef.of (sig := sig) (T := ⟨S_, .f32⟩) main_call10_cst_4 h1 h2 h3).ofBuf v = v := rfl
theorem ofBuf_main_call10_cst_4_d (h1 h2 h3) (v : (Proc.devRef (τ := τ) .tc main_call10_cst_4).ty.Contents Val) :
    (TRef.of (sig := sig) (T := ⟨S_, .f32⟩) main_call10_cst_4 h1 h2 h3).ofBuf v = v := rfl
theorem ofBuf_main_call10_cst_4_v (h1 h2 h3) (v : FVec F S_ .f32) :
    (TRef.of (sig := sig) (T := ⟨S_, .f32⟩) main_call10_cst_4 h1 h2 h3).ofBuf (Val := Elt F) v = v := rfl
theorem toBuf_main_call10_call0_v0 (h1 h2 h3) (v : (⟨S_, .f32⟩ : BufTy).Contents Val) :
    (TRef.of (sig := sig) (T := ⟨S_, .f32⟩) main_call10_call0_v0 h1 h2 h3).toBuf v = v := rfl
theorem toBuf_main_call10_call0_v0_v (h1 h2 h3) (v : FVec F S_ .f32) :
    (TRef.of (sig := sig) (T := ⟨S_, .f32⟩) main_call10_call0_v0 h1 h2 h3).toBuf (Val := Elt F) v = v := rfl
theorem ofBuf_main_call10_call0_v0 (h1 h2 h3) (v : (⟨S_, .f32⟩ : BufTy).Contents Val) :
    (TRef.of (sig := sig) (T := ⟨S_, .f32⟩) main_call10_call0_v0 h1 h2 h3).ofBuf v = v := rfl
theorem ofBuf_main_call10_call0_v0_d (h1 h2 h3) (v : (Proc.devRef (τ := τ) .tc main_call10_call0_v0).ty.Contents Val) :
    (TRef.of (sig := sig) (T := ⟨S_, .f32⟩) main_call10_call0_v0 h1 h2 h3).ofBuf v = v := rfl
theorem ofBuf_main_call10_call0_v0_v (h1 h2 h3) (v : FVec F S_ .f32) :
    (TRef.of (sig := sig) (T := ⟨S_, .f32⟩) main_call10_call0_v0 h1 h2 h3).ofBuf (Val := Elt F) v = v := rfl
theorem toBuf_main_call10_call0_v1 (h1 h2 h3) (v : (⟨S64, .f32⟩ : BufTy).Contents Val) :
    (TRef.of (sig := sig) (T := ⟨S64, .f32⟩) main_call10_call0_v1 h1 h2 h3).toBuf v = v := rfl
theorem toBuf_main_call10_call0_v1_v (h1 h2 h3) (v : FVec F S64 .f32) :
    (TRef.of (sig := sig) (T := ⟨S64, .f32⟩) main_call10_call0_v1 h1 h2 h3).toBuf (Val := Elt F) v = v := rfl
theorem ofBuf_main_call10_call0_v1 (h1 h2 h3) (v : (⟨S64, .f32⟩ : BufTy).Contents Val) :
    (TRef.of (sig := sig) (T := ⟨S64, .f32⟩) main_call10_call0_v1 h1 h2 h3).ofBuf v = v := rfl
theorem ofBuf_main_call10_call0_v1_d (h1 h2 h3) (v : (Proc.devRef (τ := τ) .tc main_call10_call0_v1).ty.Contents Val) :
    (TRef.of (sig := sig) (T := ⟨S64, .f32⟩) main_call10_call0_v1 h1 h2 h3).ofBuf v = v := rfl
theorem ofBuf_main_call10_call0_v1_v (h1 h2 h3) (v : FVec F S64 .f32) :
    (TRef.of (sig := sig) (T := ⟨S64, .f32⟩) main_call10_call0_v1 h1 h2 h3).ofBuf (Val := Elt F) v = v := rfl
theorem toBuf_main_v215 (h1 h2 h3) (v : (⟨S64, .f32⟩ : BufTy).Contents Val) :
    (TRef.of (sig := sig) (T := ⟨S64, .f32⟩) main_v215 h1 h2 h3).toBuf v = v := rfl
theorem toBuf_main_v215_v (h1 h2 h3) (v : FVec F S64 .f32) :
    (TRef.of (sig := sig) (T := ⟨S64, .f32⟩) main_v215 h1 h2 h3).toBuf (Val := Elt F) v = v := rfl
theorem ofBuf_main_v215 (h1 h2 h3) (v : (⟨S64, .f32⟩ : BufTy).Contents Val) :
    (TRef.of (sig := sig) (T := ⟨S64, .f32⟩) main_v215 h1 h2 h3).ofBuf v = v := rfl
theorem ofBuf_main_v215_d (h1 h2 h3) (v : (Proc.devRef (τ := τ) .tc main_v215).ty.Contents Val) :
    (TRef.of (sig := sig) (T := ⟨S64, .f32⟩) main_v215 h1 h2 h3).ofBuf v = v := rfl
theorem ofBuf_main_v215_v (h1 h2 h3) (v : FVec F S64 .f32) :
    (TRef.of (sig := sig) (T := ⟨S64, .f32⟩) main_v215 h1 h2 h3).ofBuf (Val := Elt F) v = v := rfl
theorem toBuf_main_call11_cst (h1 h2 h3) (v : (⟨S_, .f32⟩ : BufTy).Contents Val) :
    (TRef.of (sig := sig) (T := ⟨S_, .f32⟩) main_call11_cst h1 h2 h3).toBuf v = v := rfl
theorem toBuf_main_call11_cst_v (h1 h2 h3) (v : FVec F S_ .f32) :
    (TRef.of (sig := sig) (T := ⟨S_, .f32⟩) main_call11_cst h1 h2 h3).toBuf (Val := Elt F) v = v := rfl
theorem ofBuf_main_call11_cst (h1 h2 h3) (v : (⟨S_, .f32⟩ : BufTy).Contents Val) :
    (TRef.of (sig := sig) (T := ⟨S_, .f32⟩) main_call11_cst h1 h2 h3).ofBuf v = v := rfl
theorem ofBuf_main_call11_cst_d (h1 h2 h3) (v : (Proc.devRef (τ := τ) .tc main_call11_cst).ty.Contents Val) :
    (TRef.of (sig := sig) (T := ⟨S_, .f32⟩) main_call11_cst h1 h2 h3).ofBuf v = v := rfl
theorem ofBuf_main_call11_cst_v (h1 h2 h3) (v : FVec F S_ .f32) :
    (TRef.of (sig := sig) (T := ⟨S_, .f32⟩) main_call11_cst h1 h2 h3).ofBuf (Val := Elt F) v = v := rfl
theorem toBuf_main_call11_v0 (h1 h2 h3) (v : (⟨S100000x64, .f32⟩ : BufTy).Contents Val) :
    (TRef.of (sig := sig) (T := ⟨S100000x64, .f32⟩) main_call11_v0 h1 h2 h3).toBuf v = v := rfl
theorem toBuf_main_call11_v0_v (h1 h2 h3) (v : FVec F S100000x64 .f32) :
    (TRef.of (sig := sig) (T := ⟨S100000x64, .f32⟩) main_call11_v0 h1 h2 h3).toBuf (Val := Elt F) v = v := rfl
theorem ofBuf_main_call11_v0 (h1 h2 h3) (v : (⟨S100000x64, .f32⟩ : BufTy).Contents Val) :
    (TRef.of (sig := sig) (T := ⟨S100000x64, .f32⟩) main_call11_v0 h1 h2 h3).ofBuf v = v := rfl
theorem ofBuf_main_call11_v0_d (h1 h2 h3) (v : (Proc.devRef (τ := τ) .tc main_call11_v0).ty.Contents Val) :
    (TRef.of (sig := sig) (T := ⟨S100000x64, .f32⟩) main_call11_v0 h1 h2 h3).ofBuf v = v := rfl
theorem ofBuf_main_call11_v0_v (h1 h2 h3) (v : FVec F S100000x64 .f32) :
    (TRef.of (sig := sig) (T := ⟨S100000x64, .f32⟩) main_call11_v0 h1 h2 h3).ofBuf (Val := Elt F) v = v := rfl
theorem toBuf_main_v232 (h1 h2 h3) (v : (⟨S100000x64, .f32⟩ : BufTy).Contents Val) :
    (TRef.of (sig := sig) (T := ⟨S100000x64, .f32⟩) main_v232 h1 h2 h3).toBuf v = v := rfl
theorem toBuf_main_v232_v (h1 h2 h3) (v : FVec F S100000x64 .f32) :
    (TRef.of (sig := sig) (T := ⟨S100000x64, .f32⟩) main_v232 h1 h2 h3).toBuf (Val := Elt F) v = v := rfl
theorem ofBuf_main_v232 (h1 h2 h3) (v : (⟨S100000x64, .f32⟩ : BufTy).Contents Val) :
    (TRef.of (sig := sig) (T := ⟨S100000x64, .f32⟩) main_v232 h1 h2 h3).ofBuf v = v := rfl
theorem ofBuf_main_v232_d (h1 h2 h3) (v : (Proc.devRef (τ := τ) .tc main_v232).ty.Contents Val) :
    (TRef.of (sig := sig) (T := ⟨S100000x64, .f32⟩) main_v232 h1 h2 h3).ofBuf v = v := rfl
theorem ofBuf_main_v232_v (h1 h2 h3) (v : FVec F S100000x64 .f32) :
    (TRef.of (sig := sig) (T := ⟨S100000x64, .f32⟩) main_v232 h1 h2 h3).ofBuf (Val := Elt F) v = v := rfl
theorem toBuf_main_v231 (h1 h2 h3) (v : (⟨S100000x64, .f32⟩ : BufTy).Contents Val) :
    (TRef.of (sig := sig) (T := ⟨S100000x64, .f32⟩) main_v231 h1 h2 h3).toBuf v = v := rfl
theorem toBuf_main_v231_v (h1 h2 h3) (v : FVec F S100000x64 .f32) :
    (TRef.of (sig := sig) (T := ⟨S100000x64, .f32⟩) main_v231 h1 h2 h3).toBuf (Val := Elt F) v = v := rfl
theorem ofBuf_main_v231 (h1 h2 h3) (v : (⟨S100000x64, .f32⟩ : BufTy).Contents Val) :
    (TRef.of (sig := sig) (T := ⟨S100000x64, .f32⟩) main_v231 h1 h2 h3).ofBuf v = v := rfl
theorem ofBuf_main_v231_d (h1 h2 h3) (v : (Proc.devRef (τ := τ) .tc main_v231).ty.Contents Val) :
    (TRef.of (sig := sig) (T := ⟨S100000x64, .f32⟩) main_v231 h1 h2 h3).ofBuf v = v := rfl
theorem ofBuf_main_v231_v (h1 h2 h3) (v : FVec F S100000x64 .f32) :
    (TRef.of (sig := sig) (T := ⟨S100000x64, .f32⟩) main_v231 h1 h2 h3).ofBuf (Val := Elt F) v = v := rfl
theorem toBuf_main_call12_cst (h1 h2 h3) (v : (⟨S_, .f32⟩ : BufTy).Contents Val) :
    (TRef.of (sig := sig) (T := ⟨S_, .f32⟩) main_call12_cst h1 h2 h3).toBuf v = v := rfl
theorem toBuf_main_call12_cst_v (h1 h2 h3) (v : FVec F S_ .f32) :
    (TRef.of (sig := sig) (T := ⟨S_, .f32⟩) main_call12_cst h1 h2 h3).toBuf (Val := Elt F) v = v := rfl
theorem ofBuf_main_call12_cst (h1 h2 h3) (v : (⟨S_, .f32⟩ : BufTy).Contents Val) :
    (TRef.of (sig := sig) (T := ⟨S_, .f32⟩) main_call12_cst h1 h2 h3).ofBuf v = v := rfl
theorem ofBuf_main_call12_cst_d (h1 h2 h3) (v : (Proc.devRef (τ := τ) .tc main_call12_cst).ty.Contents Val) :
    (TRef.of (sig := sig) (T := ⟨S_, .f32⟩) main_call12_cst h1 h2 h3).ofBuf v = v := rfl
theorem ofBuf_main_call12_cst_v (h1 h2 h3) (v : FVec F S_ .f32) :
    (TRef.of (sig := sig) (T := ⟨S_, .f32⟩) main_call12_cst h1 h2 h3).ofBuf (Val := Elt F) v = v := rfl
theorem toBuf_main_call12_v0 (h1 h2 h3) (v : (⟨S100000x64, .f32⟩ : BufTy).Contents Val) :
    (TRef.of (sig := sig) (T := ⟨S100000x64, .f32⟩) main_call12_v0 h1 h2 h3).toBuf v = v := rfl
theorem toBuf_main_call12_v0_v (h1 h2 h3) (v : FVec F S100000x64 .f32) :
    (TRef.of (sig := sig) (T := ⟨S100000x64, .f32⟩) main_call12_v0 h1 h2 h3).toBuf (Val := Elt F) v = v := rfl
theorem ofBuf_main_call12_v0 (h1 h2 h3) (v : (⟨S100000x64, .f32⟩ : BufTy).Contents Val) :
    (TRef.of (sig := sig) (T := ⟨S100000x64, .f32⟩) main_call12_v0 h1 h2 h3).ofBuf v = v := rfl
theorem ofBuf_main_call12_v0_d (h1 h2 h3) (v : (Proc.devRef (τ := τ) .tc main_call12_v0).ty.Contents Val) :
    (TRef.of (sig := sig) (T := ⟨S100000x64, .f32⟩) main_call12_v0 h1 h2 h3).ofBuf v = v := rfl
theorem ofBuf_main_call12_v0_v (h1 h2 h3) (v : FVec F S100000x64 .f32) :
    (TRef.of (sig := sig) (T := ⟨S100000x64, .f32⟩) main_call12_v0 h1 h2 h3).ofBuf (Val := Elt F) v = v := rfl
theorem toBuf_main_v251 (h1 h2 h3) (v : (⟨S100000x64, .f32⟩ : BufTy).Contents Val) :
    (TRef.of (sig := sig) (T := ⟨S100000x64, .f32⟩) main_v251 h1 h2 h3).toBuf v = v := rfl
theorem toBuf_main_v251_v (h1 h2 h3) (v : FVec F S100000x64 .f32) :
    (TRef.of (sig := sig) (T := ⟨S100000x64, .f32⟩) main_v251 h1 h2 h3).toBuf (Val := Elt F) v = v := rfl
theorem ofBuf_main_v251 (h1 h2 h3) (v : (⟨S100000x64, .f32⟩ : BufTy).Contents Val) :
    (TRef.of (sig := sig) (T := ⟨S100000x64, .f32⟩) main_v251 h1 h2 h3).ofBuf v = v := rfl
theorem ofBuf_main_v251_d (h1 h2 h3) (v : (Proc.devRef (τ := τ) .tc main_v251).ty.Contents Val) :
    (TRef.of (sig := sig) (T := ⟨S100000x64, .f32⟩) main_v251 h1 h2 h3).ofBuf v = v := rfl
theorem ofBuf_main_v251_v (h1 h2 h3) (v : FVec F S100000x64 .f32) :
    (TRef.of (sig := sig) (T := ⟨S100000x64, .f32⟩) main_v251 h1 h2 h3).ofBuf (Val := Elt F) v = v := rfl
theorem toBuf_main_v250 (h1 h2 h3) (v : (⟨S100000x64, .f32⟩ : BufTy).Contents Val) :
    (TRef.of (sig := sig) (T := ⟨S100000x64, .f32⟩) main_v250 h1 h2 h3).toBuf v = v := rfl
theorem toBuf_main_v250_v (h1 h2 h3) (v : FVec F S100000x64 .f32) :
    (TRef.of (sig := sig) (T := ⟨S100000x64, .f32⟩) main_v250 h1 h2 h3).toBuf (Val := Elt F) v = v := rfl
theorem ofBuf_main_v250 (h1 h2 h3) (v : (⟨S100000x64, .f32⟩ : BufTy).Contents Val) :
    (TRef.of (sig := sig) (T := ⟨S100000x64, .f32⟩) main_v250 h1 h2 h3).ofBuf v = v := rfl
theorem ofBuf_main_v250_d (h1 h2 h3) (v : (Proc.devRef (τ := τ) .tc main_v250).ty.Contents Val) :
    (TRef.of (sig := sig) (T := ⟨S100000x64, .f32⟩) main_v250 h1 h2 h3).ofBuf v = v := rfl
theorem ofBuf_main_v250_v (h1 h2 h3) (v : FVec F S100000x64 .f32) :
    (TRef.of (sig := sig) (T := ⟨S100000x64, .f32⟩) main_v250 h1 h2 h3).ofBuf (Val := Elt F) v = v := rfl
theorem toBuf_main_call13_cst (h1 h2 h3) (v : (⟨S_, .f32⟩ : BufTy).Contents Val) :
    (TRef.of (sig := sig) (T := ⟨S_, .f32⟩) main_call13_cst h1 h2 h3).toBuf v = v := rfl
theorem toBuf_main_call13_cst_v (h1 h2 h3) (v : FVec F S_ .f32) :
    (TRef.of (sig := sig) (T := ⟨S_, .f32⟩) main_call13_cst h1 h2 h3).toBuf (Val := Elt F) v = v := rfl
theorem ofBuf_main_call13_cst (h1 h2 h3) (v : (⟨S_, .f32⟩ : BufTy).Contents Val) :
    (TRef.of (sig := sig) (T := ⟨S_, .f32⟩) main_call13_cst h1 h2 h3).ofBuf v = v := rfl
theorem ofBuf_main_call13_cst_d (h1 h2 h3) (v : (Proc.devRef (τ := τ) .tc main_call13_cst).ty.Contents Val) :
    (TRef.of (sig := sig) (T := ⟨S_, .f32⟩) main_call13_cst h1 h2 h3).ofBuf v = v := rfl
theorem ofBuf_main_call13_cst_v (h1 h2 h3) (v : FVec F S_ .f32) :
    (TRef.of (sig := sig) (T := ⟨S_, .f32⟩) main_call13_cst h1 h2 h3).ofBuf (Val := Elt F) v = v := rfl
theorem toBuf_main_call13_v0 (h1 h2 h3) (v : (⟨S64, .f32⟩ : BufTy).Contents Val) :
    (TRef.of (sig := sig) (T := ⟨S64, .f32⟩) main_call13_v0 h1 h2 h3).toBuf v = v := rfl
theorem toBuf_main_call13_v0_v (h1 h2 h3) (v : FVec F S64 .f32) :
    (TRef.of (sig := sig) (T := ⟨S64, .f32⟩) main_call13_v0 h1 h2 h3).toBuf (Val := Elt F) v = v := rfl
theorem ofBuf_main_call13_v0 (h1 h2 h3) (v : (⟨S64, .f32⟩ : BufTy).Contents Val) :
    (TRef.of (sig := sig) (T := ⟨S64, .f32⟩) main_call13_v0 h1 h2 h3).ofBuf v = v := rfl
theorem ofBuf_main_call13_v0_d (h1 h2 h3) (v : (Proc.devRef (τ := τ) .tc main_call13_v0).ty.Contents Val) :
    (TRef.of (sig := sig) (T := ⟨S64, .f32⟩) main_call13_v0 h1 h2 h3).ofBuf v = v := rfl
theorem ofBuf_main_call13_v0_v (h1 h2 h3) (v : FVec F S64 .f32) :
    (TRef.of (sig := sig) (T := ⟨S64, .f32⟩) main_call13_v0 h1 h2 h3).ofBuf (Val := Elt F) v = v := rfl
theorem toBuf_main_v288 (h1 h2 h3) (v : (⟨S100000x64, .f32⟩ : BufTy).Contents Val) :
    (TRef.of (sig := sig) (T := ⟨S100000x64, .f32⟩) main_v288 h1 h2 h3).toBuf v = v := rfl
theorem toBuf_main_v288_v (h1 h2 h3) (v : FVec F S100000x64 .f32) :
    (TRef.of (sig := sig) (T := ⟨S100000x64, .f32⟩) main_v288 h1 h2 h3).toBuf (Val := Elt F) v = v := rfl
theorem ofBuf_main_v288 (h1 h2 h3) (v : (⟨S100000x64, .f32⟩ : BufTy).Contents Val) :
    (TRef.of (sig := sig) (T := ⟨S100000x64, .f32⟩) main_v288 h1 h2 h3).ofBuf v = v := rfl
theorem ofBuf_main_v288_d (h1 h2 h3) (v : (Proc.devRef (τ := τ) .tc main_v288).ty.Contents Val) :
    (TRef.of (sig := sig) (T := ⟨S100000x64, .f32⟩) main_v288 h1 h2 h3).ofBuf v = v := rfl
theorem ofBuf_main_v288_v (h1 h2 h3) (v : FVec F S100000x64 .f32) :
    (TRef.of (sig := sig) (T := ⟨S100000x64, .f32⟩) main_v288 h1 h2 h3).ofBuf (Val := Elt F) v = v := rfl
theorem toBuf_main_call13_v1 (h1 h2 h3) (v : (⟨S1x64, .f32⟩ : BufTy).Contents Val) :
    (TRef.of (sig := sig) (T := ⟨S1x64, .f32⟩) main_call13_v1 h1 h2 h3).toBuf v = v := rfl
theorem toBuf_main_call13_v1_v (h1 h2 h3) (v : FVec F S1x64 .f32) :
    (TRef.of (sig := sig) (T := ⟨S1x64, .f32⟩) main_call13_v1 h1 h2 h3).toBuf (Val := Elt F) v = v := rfl
theorem ofBuf_main_call13_v1 (h1 h2 h3) (v : (⟨S1x64, .f32⟩ : BufTy).Contents Val) :
    (TRef.of (sig := sig) (T := ⟨S1x64, .f32⟩) main_call13_v1 h1 h2 h3).ofBuf v = v := rfl
theorem ofBuf_main_call13_v1_d (h1 h2 h3) (v : (Proc.devRef (τ := τ) .tc main_call13_v1).ty.Contents Val) :
    (TRef.of (sig := sig) (T := ⟨S1x64, .f32⟩) main_call13_v1 h1 h2 h3).ofBuf v = v := rfl
theorem ofBuf_main_call13_v1_v (h1 h2 h3) (v : FVec F S1x64 .f32) :
    (TRef.of (sig := sig) (T := ⟨S1x64, .f32⟩) main_call13_v1 h1 h2 h3).ofBuf (Val := Elt F) v = v := rfl
theorem toBuf_main_call13_cst_0 (h1 h2 h3) (v : (⟨S_, .f32⟩ : BufTy).Contents Val) :
    (TRef.of (sig := sig) (T := ⟨S_, .f32⟩) main_call13_cst_0 h1 h2 h3).toBuf v = v := rfl
theorem toBuf_main_call13_cst_0_v (h1 h2 h3) (v : FVec F S_ .f32) :
    (TRef.of (sig := sig) (T := ⟨S_, .f32⟩) main_call13_cst_0 h1 h2 h3).toBuf (Val := Elt F) v = v := rfl
theorem ofBuf_main_call13_cst_0 (h1 h2 h3) (v : (⟨S_, .f32⟩ : BufTy).Contents Val) :
    (TRef.of (sig := sig) (T := ⟨S_, .f32⟩) main_call13_cst_0 h1 h2 h3).ofBuf v = v := rfl
theorem ofBuf_main_call13_cst_0_d (h1 h2 h3) (v : (Proc.devRef (τ := τ) .tc main_call13_cst_0).ty.Contents Val) :
    (TRef.of (sig := sig) (T := ⟨S_, .f32⟩) main_call13_cst_0 h1 h2 h3).ofBuf v = v := rfl
theorem ofBuf_main_call13_cst_0_v (h1 h2 h3) (v : FVec F S_ .f32) :
    (TRef.of (sig := sig) (T := ⟨S_, .f32⟩) main_call13_cst_0 h1 h2 h3).ofBuf (Val := Elt F) v = v := rfl
theorem toBuf_main_call13_v2 (h1 h2 h3) (v : (⟨S1x64, .f32⟩ : BufTy).Contents Val) :
    (TRef.of (sig := sig) (T := ⟨S1x64, .f32⟩) main_call13_v2 h1 h2 h3).toBuf v = v := rfl
theorem toBuf_main_call13_v2_v (h1 h2 h3) (v : FVec F S1x64 .f32) :
    (TRef.of (sig := sig) (T := ⟨S1x64, .f32⟩) main_call13_v2 h1 h2 h3).toBuf (Val := Elt F) v = v := rfl
theorem ofBuf_main_call13_v2 (h1 h2 h3) (v : (⟨S1x64, .f32⟩ : BufTy).Contents Val) :
    (TRef.of (sig := sig) (T := ⟨S1x64, .f32⟩) main_call13_v2 h1 h2 h3).ofBuf v = v := rfl
theorem ofBuf_main_call13_v2_d (h1 h2 h3) (v : (Proc.devRef (τ := τ) .tc main_call13_v2).ty.Contents Val) :
    (TRef.of (sig := sig) (T := ⟨S1x64, .f32⟩) main_call13_v2 h1 h2 h3).ofBuf v = v := rfl
theorem ofBuf_main_call13_v2_v (h1 h2 h3) (v : FVec F S1x64 .f32) :
    (TRef.of (sig := sig) (T := ⟨S1x64, .f32⟩) main_call13_v2 h1 h2 h3).ofBuf (Val := Elt F) v = v := rfl
theorem toBuf_main_call13_v3 (h1 h2 h3) (v : (⟨S1x64, .f32⟩ : BufTy).Contents Val) :
    (TRef.of (sig := sig) (T := ⟨S1x64, .f32⟩) main_call13_v3 h1 h2 h3).toBuf v = v := rfl
theorem toBuf_main_call13_v3_v (h1 h2 h3) (v : FVec F S1x64 .f32) :
    (TRef.of (sig := sig) (T := ⟨S1x64, .f32⟩) main_call13_v3 h1 h2 h3).toBuf (Val := Elt F) v = v := rfl
theorem ofBuf_main_call13_v3 (h1 h2 h3) (v : (⟨S1x64, .f32⟩ : BufTy).Contents Val) :
    (TRef.of (sig := sig) (T := ⟨S1x64, .f32⟩) main_call13_v3 h1 h2 h3).ofBuf v = v := rfl
theorem ofBuf_main_call13_v3_d (h1 h2 h3) (v : (Proc.devRef (τ := τ) .tc main_call13_v3).ty.Contents Val) :
    (TRef.of (sig := sig) (T := ⟨S1x64, .f32⟩) main_call13_v3 h1 h2 h3).ofBuf v = v := rfl
theorem ofBuf_main_call13_v3_v (h1 h2 h3) (v : FVec F S1x64 .f32) :
    (TRef.of (sig := sig) (T := ⟨S1x64, .f32⟩) main_call13_v3 h1 h2 h3).ofBuf (Val := Elt F) v = v := rfl
theorem toBuf_main_call13_v4 (h1 h2 h3) (v : (⟨S100000x64, .f32⟩ : BufTy).Contents Val) :
    (TRef.of (sig := sig) (T := ⟨S100000x64, .f32⟩) main_call13_v4 h1 h2 h3).toBuf v = v := rfl
theorem toBuf_main_call13_v4_v (h1 h2 h3) (v : FVec F S100000x64 .f32) :
    (TRef.of (sig := sig) (T := ⟨S100000x64, .f32⟩) main_call13_v4 h1 h2 h3).toBuf (Val := Elt F) v = v := rfl
theorem ofBuf_main_call13_v4 (h1 h2 h3) (v : (⟨S100000x64, .f32⟩ : BufTy).Contents Val) :
    (TRef.of (sig := sig) (T := ⟨S100000x64, .f32⟩) main_call13_v4 h1 h2 h3).ofBuf v = v := rfl
theorem ofBuf_main_call13_v4_d (h1 h2 h3) (v : (Proc.devRef (τ := τ) .tc main_call13_v4).ty.Contents Val) :
    (TRef.of (sig := sig) (T := ⟨S100000x64, .f32⟩) main_call13_v4 h1 h2 h3).ofBuf v = v := rfl
theorem ofBuf_main_call13_v4_v (h1 h2 h3) (v : FVec F S100000x64 .f32) :
    (TRef.of (sig := sig) (T := ⟨S100000x64, .f32⟩) main_call13_v4 h1 h2 h3).ofBuf (Val := Elt F) v = v := rfl
theorem toBuf_main_call13_v5 (h1 h2 h3) (v : (⟨S100000x64, .f32⟩ : BufTy).Contents Val) :
    (TRef.of (sig := sig) (T := ⟨S100000x64, .f32⟩) main_call13_v5 h1 h2 h3).toBuf v = v := rfl
theorem toBuf_main_call13_v5_v (h1 h2 h3) (v : FVec F S100000x64 .f32) :
    (TRef.of (sig := sig) (T := ⟨S100000x64, .f32⟩) main_call13_v5 h1 h2 h3).toBuf (Val := Elt F) v = v := rfl
theorem ofBuf_main_call13_v5 (h1 h2 h3) (v : (⟨S100000x64, .f32⟩ : BufTy).Contents Val) :
    (TRef.of (sig := sig) (T := ⟨S100000x64, .f32⟩) main_call13_v5 h1 h2 h3).ofBuf v = v := rfl
theorem ofBuf_main_call13_v5_d (h1 h2 h3) (v : (Proc.devRef (τ := τ) .tc main_call13_v5).ty.Contents Val) :
    (TRef.of (sig := sig) (T := ⟨S100000x64, .f32⟩) main_call13_v5 h1 h2 h3).ofBuf v = v := rfl
theorem ofBuf_main_call13_v5_v (h1 h2 h3) (v : FVec F S100000x64 .f32) :
    (TRef.of (sig := sig) (T := ⟨S100000x64, .f32⟩) main_call13_v5 h1 h2 h3).ofBuf (Val := Elt F) v = v := rfl
theorem toBuf_main_call13_v6 (h1 h2 h3) (v : (⟨S100000x64, .f32⟩ : BufTy).Contents Val) :
    (TRef.of (sig := sig) (T := ⟨S100000x64, .f32⟩) main_call13_v6 h1 h2 h3).toBuf v = v := rfl
theorem toBuf_main_call13_v6_v (h1 h2 h3) (v : FVec F S100000x64 .f32) :
    (TRef.of (sig := sig) (T := ⟨S100000x64, .f32⟩) main_call13_v6 h1 h2 h3).toBuf (Val := Elt F) v = v := rfl
theorem ofBuf_main_call13_v6 (h1 h2 h3) (v : (⟨S100000x64, .f32⟩ : BufTy).Contents Val) :
    (TRef.of (sig := sig) (T := ⟨S100000x64, .f32⟩) main_call13_v6 h1 h2 h3).ofBuf v = v := rfl
theorem ofBuf_main_call13_v6_d (h1 h2 h3) (v : (Proc.devRef (τ := τ) .tc main_call13_v6).ty.Contents Val) :
    (TRef.of (sig := sig) (T := ⟨S100000x64, .f32⟩) main_call13_v6 h1 h2 h3).ofBuf v = v := rfl
theorem ofBuf_main_call13_v6_v (h1 h2 h3) (v : FVec F S100000x64 .f32) :
    (TRef.of (sig := sig) (T := ⟨S100000x64, .f32⟩) main_call13_v6 h1 h2 h3).ofBuf (Val := Elt F) v = v := rfl
theorem toBuf_main_call13_v7 (h1 h2 h3) (v : (⟨S_, .f32⟩ : BufTy).Contents Val) :
    (TRef.of (sig := sig) (T := ⟨S_, .f32⟩) main_call13_v7 h1 h2 h3).toBuf v = v := rfl
theorem toBuf_main_call13_v7_v (h1 h2 h3) (v : FVec F S_ .f32) :
    (TRef.of (sig := sig) (T := ⟨S_, .f32⟩) main_call13_v7 h1 h2 h3).toBuf (Val := Elt F) v = v := rfl
theorem ofBuf_main_call13_v7 (h1 h2 h3) (v : (⟨S_, .f32⟩ : BufTy).Contents Val) :
    (TRef.of (sig := sig) (T := ⟨S_, .f32⟩) main_call13_v7 h1 h2 h3).ofBuf v = v := rfl
theorem ofBuf_main_call13_v7_d (h1 h2 h3) (v : (Proc.devRef (τ := τ) .tc main_call13_v7).ty.Contents Val) :
    (TRef.of (sig := sig) (T := ⟨S_, .f32⟩) main_call13_v7 h1 h2 h3).ofBuf v = v := rfl
theorem ofBuf_main_call13_v7_v (h1 h2 h3) (v : FVec F S_ .f32) :
    (TRef.of (sig := sig) (T := ⟨S_, .f32⟩) main_call13_v7 h1 h2 h3).ofBuf (Val := Elt F) v = v := rfl
theorem toBuf_main_c_46 (h1 h2 h3) (v : (⟨S_, .i32⟩ : BufTy).Contents Val) :
    (TRef.of (sig := sig) (T := ⟨S_, .i32⟩) main_c_46 h1 h2 h3).toBuf v = v := rfl
theorem toBuf_main_c_46_v (h1 h2 h3) (v : IVec S_ 32) :
    (TRef.of (sig := sig) (T := ⟨S_, .i32⟩) main_c_46 h1 h2 h3).toBuf (Val := Elt F) v = v := rfl
theorem ofBuf_main_c_46 (h1 h2 h3) (v : (⟨S_, .i32⟩ : BufTy).Contents Val) :
    (TRef.of (sig := sig) (T := ⟨S_, .i32⟩) main_c_46 h1 h2 h3).ofBuf v = v := rfl
theorem ofBuf_main_c_46_d (h1 h2 h3) (v : (Proc.devRef (τ := τ) .tc main_c_46).ty.Contents Val) :
    (TRef.of (sig := sig) (T := ⟨S_, .i32⟩) main_c_46 h1 h2 h3).ofBuf v = v := rfl
theorem ofBuf_main_c_46_v (h1 h2 h3) (v : IVec S_ 32) :
    (TRef.of (sig := sig) (T := ⟨S_, .i32⟩) main_c_46 h1 h2 h3).ofBuf (Val := Elt F) v = v := rfl
theorem toBuf_main_call13_cst_1 (h1 h2 h3) (v : (⟨S_, .f32⟩ : BufTy).Contents Val) :
    (TRef.of (sig := sig) (T := ⟨S_, .f32⟩) main_call13_cst_1 h1 h2 h3).toBuf v = v := rfl
theorem toBuf_main_call13_cst_1_v (h1 h2 h3) (v : FVec F S_ .f32) :
    (TRef.of (sig := sig) (T := ⟨S_, .f32⟩) main_call13_cst_1 h1 h2 h3).toBuf (Val := Elt F) v = v := rfl
theorem ofBuf_main_call13_cst_1 (h1 h2 h3) (v : (⟨S_, .f32⟩ : BufTy).Contents Val) :
    (TRef.of (sig := sig) (T := ⟨S_, .f32⟩) main_call13_cst_1 h1 h2 h3).ofBuf v = v := rfl
theorem ofBuf_main_call13_cst_1_d (h1 h2 h3) (v : (Proc.devRef (τ := τ) .tc main_call13_cst_1).ty.Contents Val) :
    (TRef.of (sig := sig) (T := ⟨S_, .f32⟩) main_call13_cst_1 h1 h2 h3).ofBuf v = v := rfl
theorem ofBuf_main_call13_cst_1_v (h1 h2 h3) (v : FVec F S_ .f32) :
    (TRef.of (sig := sig) (T := ⟨S_, .f32⟩) main_call13_cst_1 h1 h2 h3).ofBuf (Val := Elt F) v = v := rfl
theorem toBuf_main_call13_v8 (h1 h2 h3) (v : (⟨S_, .f32⟩ : BufTy).Contents Val) :
    (TRef.of (sig := sig) (T := ⟨S_, .f32⟩) main_call13_v8 h1 h2 h3).toBuf v = v := rfl
theorem toBuf_main_call13_v8_v (h1 h2 h3) (v : FVec F S_ .f32) :
    (TRef.of (sig := sig) (T := ⟨S_, .f32⟩) main_call13_v8 h1 h2 h3).toBuf (Val := Elt F) v = v := rfl
theorem ofBuf_main_call13_v8 (h1 h2 h3) (v : (⟨S_, .f32⟩ : BufTy).Contents Val) :
    (TRef.of (sig := sig) (T := ⟨S_, .f32⟩) main_call13_v8 h1 h2 h3).ofBuf v = v := rfl
theorem ofBuf_main_call13_v8_d (h1 h2 h3) (v : (Proc.devRef (τ := τ) .tc main_call13_v8).ty.Contents Val) :
    (TRef.of (sig := sig) (T := ⟨S_, .f32⟩) main_call13_v8 h1 h2 h3).ofBuf v = v := rfl
theorem ofBuf_main_call13_v8_v (h1 h2 h3) (v : FVec F S_ .f32) :
    (TRef.of (sig := sig) (T := ⟨S_, .f32⟩) main_call13_v8 h1 h2 h3).ofBuf (Val := Elt F) v = v := rfl
theorem toBuf_main_call13_cst_2 (h1 h2 h3) (v : (⟨S_, .f32⟩ : BufTy).Contents Val) :
    (TRef.of (sig := sig) (T := ⟨S_, .f32⟩) main_call13_cst_2 h1 h2 h3).toBuf v = v := rfl
theorem toBuf_main_call13_cst_2_v (h1 h2 h3) (v : FVec F S_ .f32) :
    (TRef.of (sig := sig) (T := ⟨S_, .f32⟩) main_call13_cst_2 h1 h2 h3).toBuf (Val := Elt F) v = v := rfl
theorem ofBuf_main_call13_cst_2 (h1 h2 h3) (v : (⟨S_, .f32⟩ : BufTy).Contents Val) :
    (TRef.of (sig := sig) (T := ⟨S_, .f32⟩) main_call13_cst_2 h1 h2 h3).ofBuf v = v := rfl
theorem ofBuf_main_call13_cst_2_d (h1 h2 h3) (v : (Proc.devRef (τ := τ) .tc main_call13_cst_2).ty.Contents Val) :
    (TRef.of (sig := sig) (T := ⟨S_, .f32⟩) main_call13_cst_2 h1 h2 h3).ofBuf v = v := rfl
theorem ofBuf_main_call13_cst_2_v (h1 h2 h3) (v : FVec F S_ .f32) :
    (TRef.of (sig := sig) (T := ⟨S_, .f32⟩) main_call13_cst_2 h1 h2 h3).ofBuf (Val := Elt F) v = v := rfl
theorem toBuf_main_call13_v9 (h1 h2 h3) (v : (⟨S64, .f32⟩ : BufTy).Contents Val) :
    (TRef.of (sig := sig) (T := ⟨S64, .f32⟩) main_call13_v9 h1 h2 h3).toBuf v = v := rfl
theorem toBuf_main_call13_v9_v (h1 h2 h3) (v : FVec F S64 .f32) :
    (TRef.of (sig := sig) (T := ⟨S64, .f32⟩) main_call13_v9 h1 h2 h3).toBuf (Val := Elt F) v = v := rfl
theorem ofBuf_main_call13_v9 (h1 h2 h3) (v : (⟨S64, .f32⟩ : BufTy).Contents Val) :
    (TRef.of (sig := sig) (T := ⟨S64, .f32⟩) main_call13_v9 h1 h2 h3).ofBuf v = v := rfl
theorem ofBuf_main_call13_v9_d (h1 h2 h3) (v : (Proc.devRef (τ := τ) .tc main_call13_v9).ty.Contents Val) :
    (TRef.of (sig := sig) (T := ⟨S64, .f32⟩) main_call13_v9 h1 h2 h3).ofBuf v = v := rfl
theorem ofBuf_main_call13_v9_v (h1 h2 h3) (v : FVec F S64 .f32) :
    (TRef.of (sig := sig) (T := ⟨S64, .f32⟩) main_call13_v9 h1 h2 h3).ofBuf (Val := Elt F) v = v := rfl
theorem toBuf_main_call13_v10 (h1 h2 h3) (v : (⟨S64, .f32⟩ : BufTy).Contents Val) :
    (TRef.of (sig := sig) (T := ⟨S64, .f32⟩) main_call13_v10 h1 h2 h3).toBuf v = v := rfl
theorem toBuf_main_call13_v10_v (h1 h2 h3) (v : FVec F S64 .f32) :
    (TRef.of (sig := sig) (T := ⟨S64, .f32⟩) main_call13_v10 h1 h2 h3).toBuf (Val := Elt F) v = v := rfl
theorem ofBuf_main_call13_v10 (h1 h2 h3) (v : (⟨S64, .f32⟩ : BufTy).Contents Val) :
    (TRef.of (sig := sig) (T := ⟨S64, .f32⟩) main_call13_v10 h1 h2 h3).ofBuf v = v := rfl
theorem ofBuf_main_call13_v10_d (h1 h2 h3) (v : (Proc.devRef (τ := τ) .tc main_call13_v10).ty.Contents Val) :
    (TRef.of (sig := sig) (T := ⟨S64, .f32⟩) main_call13_v10 h1 h2 h3).ofBuf v = v := rfl
theorem ofBuf_main_call13_v10_v (h1 h2 h3) (v : FVec F S64 .f32) :
    (TRef.of (sig := sig) (T := ⟨S64, .f32⟩) main_call13_v10 h1 h2 h3).ofBuf (Val := Elt F) v = v := rfl
theorem toBuf_main_call13_v11 (h1 h2 h3) (v : (⟨S64, .f32⟩ : BufTy).Contents Val) :
    (TRef.of (sig := sig) (T := ⟨S64, .f32⟩) main_call13_v11 h1 h2 h3).toBuf v = v := rfl
theorem toBuf_main_call13_v11_v (h1 h2 h3) (v : FVec F S64 .f32) :
    (TRef.of (sig := sig) (T := ⟨S64, .f32⟩) main_call13_v11 h1 h2 h3).toBuf (Val := Elt F) v = v := rfl
theorem ofBuf_main_call13_v11 (h1 h2 h3) (v : (⟨S64, .f32⟩ : BufTy).Contents Val) :
    (TRef.of (sig := sig) (T := ⟨S64, .f32⟩) main_call13_v11 h1 h2 h3).ofBuf v = v := rfl
theorem ofBuf_main_call13_v11_d (h1 h2 h3) (v : (Proc.devRef (τ := τ) .tc main_call13_v11).ty.Contents Val) :
    (TRef.of (sig := sig) (T := ⟨S64, .f32⟩) main_call13_v11 h1 h2 h3).ofBuf v = v := rfl
theorem ofBuf_main_call13_v11_v (h1 h2 h3) (v : FVec F S64 .f32) :
    (TRef.of (sig := sig) (T := ⟨S64, .f32⟩) main_call13_v11 h1 h2 h3).ofBuf (Val := Elt F) v = v := rfl
theorem toBuf_main_call13_cst_3 (h1 h2 h3) (v : (⟨S_, .f32⟩ : BufTy).Contents Val) :
    (TRef.of (sig := sig) (T := ⟨S_, .f32⟩) main_call13_cst_3 h1 h2 h3).toBuf v = v := rfl
theorem toBuf_main_call13_cst_3_v (h1 h2 h3) (v : FVec F S_ .f32) :
    (TRef.of (sig := sig) (T := ⟨S_, .f32⟩) main_call13_cst_3 h1 h2 h3).toBuf (Val := Elt F) v = v := rfl
theorem ofBuf_main_call13_cst_3 (h1 h2 h3) (v : (⟨S_, .f32⟩ : BufTy).Contents Val) :
    (TRef.of (sig := sig) (T := ⟨S_, .f32⟩) main_call13_cst_3 h1 h2 h3).ofBuf v = v := rfl
theorem ofBuf_main_call13_cst_3_d (h1 h2 h3) (v : (Proc.devRef (τ := τ) .tc main_call13_cst_3).ty.Contents Val) :
    (TRef.of (sig := sig) (T := ⟨S_, .f32⟩) main_call13_cst_3 h1 h2 h3).ofBuf v = v := rfl
theorem ofBuf_main_call13_cst_3_v (h1 h2 h3) (v : FVec F S_ .f32) :
    (TRef.of (sig := sig) (T := ⟨S_, .f32⟩) main_call13_cst_3 h1 h2 h3).ofBuf (Val := Elt F) v = v := rfl
theorem toBuf_main_call13_v12 (h1 h2 h3) (v : (⟨S_, .i1⟩ : BufTy).Contents Val) :
    (TRef.of (sig := sig) (T := ⟨S_, .i1⟩) main_call13_v12 h1 h2 h3).toBuf v = v := rfl
theorem toBuf_main_call13_v12_v (h1 h2 h3) (v : IVec S_ 1) :
    (TRef.of (sig := sig) (T := ⟨S_, .i1⟩) main_call13_v12 h1 h2 h3).toBuf (Val := Elt F) v = v := rfl
theorem ofBuf_main_call13_v12 (h1 h2 h3) (v : (⟨S_, .i1⟩ : BufTy).Contents Val) :
    (TRef.of (sig := sig) (T := ⟨S_, .i1⟩) main_call13_v12 h1 h2 h3).ofBuf v = v := rfl
theorem ofBuf_main_call13_v12_d (h1 h2 h3) (v : (Proc.devRef (τ := τ) .tc main_call13_v12).ty.Contents Val) :
    (TRef.of (sig := sig) (T := ⟨S_, .i1⟩) main_call13_v12 h1 h2 h3).ofBuf v = v := rfl
theorem ofBuf_main_call13_v12_v (h1 h2 h3) (v : IVec S_ 1) :
    (TRef.of (sig := sig) (T := ⟨S_, .i1⟩) main_call13_v12 h1 h2 h3).ofBuf (Val := Elt F) v = v := rfl
theorem toBuf_main_call13_cst_4 (h1 h2 h3) (v : (⟨S_, .f32⟩ : BufTy).Contents Val) :
    (TRef.of (sig := sig) (T := ⟨S_, .f32⟩) main_call13_cst_4 h1 h2 h3).toBuf v = v := rfl
theorem toBuf_main_call13_cst_4_v (h1 h2 h3) (v : FVec F S_ .f32) :
    (TRef.of (sig := sig) (T := ⟨S_, .f32⟩) main_call13_cst_4 h1 h2 h3).toBuf (Val := Elt F) v = v := rfl
theorem ofBuf_main_call13_cst_4 (h1 h2 h3) (v : (⟨S_, .f32⟩ : BufTy).Contents Val) :
    (TRef.of (sig := sig) (T := ⟨S_, .f32⟩) main_call13_cst_4 h1 h2 h3).ofBuf v = v := rfl
theorem ofBuf_main_call13_cst_4_d (h1 h2 h3) (v : (Proc.devRef (τ := τ) .tc main_call13_cst_4).ty.Contents Val) :
    (TRef.of (sig := sig) (T := ⟨S_, .f32⟩) main_call13_cst_4 h1 h2 h3).ofBuf v = v := rfl
theorem ofBuf_main_call13_cst_4_v (h1 h2 h3) (v : FVec F S_ .f32) :
    (TRef.of (sig := sig) (T := ⟨S_, .f32⟩) main_call13_cst_4 h1 h2 h3).ofBuf (Val := Elt F) v = v := rfl
theorem toBuf_main_call13_call0_v0 (h1 h2 h3) (v : (⟨S_, .f32⟩ : BufTy).Contents Val) :
    (TRef.of (sig := sig) (T := ⟨S_, .f32⟩) main_call13_call0_v0 h1 h2 h3).toBuf v = v := rfl
theorem toBuf_main_call13_call0_v0_v (h1 h2 h3) (v : FVec F S_ .f32) :
    (TRef.of (sig := sig) (T := ⟨S_, .f32⟩) main_call13_call0_v0 h1 h2 h3).toBuf (Val := Elt F) v = v := rfl
theorem ofBuf_main_call13_call0_v0 (h1 h2 h3) (v : (⟨S_, .f32⟩ : BufTy).Contents Val) :
    (TRef.of (sig := sig) (T := ⟨S_, .f32⟩) main_call13_call0_v0 h1 h2 h3).ofBuf v = v := rfl
theorem ofBuf_main_call13_call0_v0_d (h1 h2 h3) (v : (Proc.devRef (τ := τ) .tc main_call13_call0_v0).ty.Contents Val) :
    (TRef.of (sig := sig) (T := ⟨S_, .f32⟩) main_call13_call0_v0 h1 h2 h3).ofBuf v = v := rfl
theorem ofBuf_main_call13_call0_v0_v (h1 h2 h3) (v : FVec F S_ .f32) :
    (TRef.of (sig := sig) (T := ⟨S_, .f32⟩) main_call13_call0_v0 h1 h2 h3).ofBuf (Val := Elt F) v = v := rfl
theorem toBuf_main_call13_call0_v1 (h1 h2 h3) (v : (⟨S64, .f32⟩ : BufTy).Contents Val) :
    (TRef.of (sig := sig) (T := ⟨S64, .f32⟩) main_call13_call0_v1 h1 h2 h3).toBuf v = v := rfl
theorem toBuf_main_call13_call0_v1_v (h1 h2 h3) (v : FVec F S64 .f32) :
    (TRef.of (sig := sig) (T := ⟨S64, .f32⟩) main_call13_call0_v1 h1 h2 h3).toBuf (Val := Elt F) v = v := rfl
theorem ofBuf_main_call13_call0_v1 (h1 h2 h3) (v : (⟨S64, .f32⟩ : BufTy).Contents Val) :
    (TRef.of (sig := sig) (T := ⟨S64, .f32⟩) main_call13_call0_v1 h1 h2 h3).ofBuf v = v := rfl
theorem ofBuf_main_call13_call0_v1_d (h1 h2 h3) (v : (Proc.devRef (τ := τ) .tc main_call13_call0_v1).ty.Contents Val) :
    (TRef.of (sig := sig) (T := ⟨S64, .f32⟩) main_call13_call0_v1 h1 h2 h3).ofBuf v = v := rfl
theorem ofBuf_main_call13_call0_v1_v (h1 h2 h3) (v : FVec F S64 .f32) :
    (TRef.of (sig := sig) (T := ⟨S64, .f32⟩) main_call13_call0_v1 h1 h2 h3).ofBuf (Val := Elt F) v = v := rfl
theorem toBuf_main_v296 (h1 h2 h3) (v : (⟨S64, .f32⟩ : BufTy).Contents Val) :
    (TRef.of (sig := sig) (T := ⟨S64, .f32⟩) main_v296 h1 h2 h3).toBuf v = v := rfl
theorem toBuf_main_v296_v (h1 h2 h3) (v : FVec F S64 .f32) :
    (TRef.of (sig := sig) (T := ⟨S64, .f32⟩) main_v296 h1 h2 h3).toBuf (Val := Elt F) v = v := rfl
theorem ofBuf_main_v296 (h1 h2 h3) (v : (⟨S64, .f32⟩ : BufTy).Contents Val) :
    (TRef.of (sig := sig) (T := ⟨S64, .f32⟩) main_v296 h1 h2 h3).ofBuf v = v := rfl
theorem ofBuf_main_v296_d (h1 h2 h3) (v : (Proc.devRef (τ := τ) .tc main_v296).ty.Contents Val) :
    (TRef.of (sig := sig) (T := ⟨S64, .f32⟩) main_v296 h1 h2 h3).ofBuf v = v := rfl
theorem ofBuf_main_v296_v (h1 h2 h3) (v : FVec F S64 .f32) :
    (TRef.of (sig := sig) (T := ⟨S64, .f32⟩) main_v296 h1 h2 h3).ofBuf (Val := Elt F) v = v := rfl
theorem toBuf_main_call14_cst (h1 h2 h3) (v : (⟨S_, .f32⟩ : BufTy).Contents Val) :
    (TRef.of (sig := sig) (T := ⟨S_, .f32⟩) main_call14_cst h1 h2 h3).toBuf v = v := rfl
theorem toBuf_main_call14_cst_v (h1 h2 h3) (v : FVec F S_ .f32) :
    (TRef.of (sig := sig) (T := ⟨S_, .f32⟩) main_call14_cst h1 h2 h3).toBuf (Val := Elt F) v = v := rfl
theorem ofBuf_main_call14_cst (h1 h2 h3) (v : (⟨S_, .f32⟩ : BufTy).Contents Val) :
    (TRef.of (sig := sig) (T := ⟨S_, .f32⟩) main_call14_cst h1 h2 h3).ofBuf v = v := rfl
theorem ofBuf_main_call14_cst_d (h1 h2 h3) (v : (Proc.devRef (τ := τ) .tc main_call14_cst).ty.Contents Val) :
    (TRef.of (sig := sig) (T := ⟨S_, .f32⟩) main_call14_cst h1 h2 h3).ofBuf v = v := rfl
theorem ofBuf_main_call14_cst_v (h1 h2 h3) (v : FVec F S_ .f32) :
    (TRef.of (sig := sig) (T := ⟨S_, .f32⟩) main_call14_cst h1 h2 h3).ofBuf (Val := Elt F) v = v := rfl
theorem toBuf_main_call14_v0 (h1 h2 h3) (v : (⟨S100000x64, .f32⟩ : BufTy).Contents Val) :
    (TRef.of (sig := sig) (T := ⟨S100000x64, .f32⟩) main_call14_v0 h1 h2 h3).toBuf v = v := rfl
theorem toBuf_main_call14_v0_v (h1 h2 h3) (v : FVec F S100000x64 .f32) :
    (TRef.of (sig := sig) (T := ⟨S100000x64, .f32⟩) main_call14_v0 h1 h2 h3).toBuf (Val := Elt F) v = v := rfl
theorem ofBuf_main_call14_v0 (h1 h2 h3) (v : (⟨S100000x64, .f32⟩ : BufTy).Contents Val) :
    (TRef.of (sig := sig) (T := ⟨S100000x64, .f32⟩) main_call14_v0 h1 h2 h3).ofBuf v = v := rfl
theorem ofBuf_main_call14_v0_d (h1 h2 h3) (v : (Proc.devRef (τ := τ) .tc main_call14_v0).ty.Contents Val) :
    (TRef.of (sig := sig) (T := ⟨S100000x64, .f32⟩) main_call14_v0 h1 h2 h3).ofBuf v = v := rfl
theorem ofBuf_main_call14_v0_v (h1 h2 h3) (v : FVec F S100000x64 .f32) :
    (TRef.of (sig := sig) (T := ⟨S100000x64, .f32⟩) main_call14_v0 h1 h2 h3).ofBuf (Val := Elt F) v = v := rfl
theorem toBuf_main_v313 (h1 h2 h3) (v : (⟨S100000x64, .f32⟩ : BufTy).Contents Val) :
    (TRef.of (sig := sig) (T := ⟨S100000x64, .f32⟩) main_v313 h1 h2 h3).toBuf v = v := rfl
theorem toBuf_main_v313_v (h1 h2 h3) (v : FVec F S100000x64 .f32) :
    (TRef.of (sig := sig) (T := ⟨S100000x64, .f32⟩) main_v313 h1 h2 h3).toBuf (Val := Elt F) v = v := rfl
theorem ofBuf_main_v313 (h1 h2 h3) (v : (⟨S100000x64, .f32⟩ : BufTy).Contents Val) :
    (TRef.of (sig := sig) (T := ⟨S100000x64, .f32⟩) main_v313 h1 h2 h3).ofBuf v = v := rfl
theorem ofBuf_main_v313_d (h1 h2 h3) (v : (Proc.devRef (τ := τ) .tc main_v313).ty.Contents Val) :
    (TRef.of (sig := sig) (T := ⟨S100000x64, .f32⟩) main_v313 h1 h2 h3).ofBuf v = v := rfl
theorem ofBuf_main_v313_v (h1 h2 h3) (v : FVec F S100000x64 .f32) :
    (TRef.of (sig := sig) (T := ⟨S100000x64, .f32⟩) main_v313 h1 h2 h3).ofBuf (Val := Elt F) v = v := rfl
theorem toBuf_main_v312 (h1 h2 h3) (v : (⟨S100000x64, .f32⟩ : BufTy).Contents Val) :
    (TRef.of (sig := sig) (T := ⟨S100000x64, .f32⟩) main_v312 h1 h2 h3).toBuf v = v := rfl
theorem toBuf_main_v312_v (h1 h2 h3) (v : FVec F S100000x64 .f32) :
    (TRef.of (sig := sig) (T := ⟨S100000x64, .f32⟩) main_v312 h1 h2 h3).toBuf (Val := Elt F) v = v := rfl
theorem ofBuf_main_v312 (h1 h2 h3) (v : (⟨S100000x64, .f32⟩ : BufTy).Contents Val) :
    (TRef.of (sig := sig) (T := ⟨S100000x64, .f32⟩) main_v312 h1 h2 h3).ofBuf v = v := rfl
theorem ofBuf_main_v312_d (h1 h2 h3) (v : (Proc.devRef (τ := τ) .tc main_v312).ty.Contents Val) :
    (TRef.of (sig := sig) (T := ⟨S100000x64, .f32⟩) main_v312 h1 h2 h3).ofBuf v = v := rfl
theorem ofBuf_main_v312_v (h1 h2 h3) (v : FVec F S100000x64 .f32) :
    (TRef.of (sig := sig) (T := ⟨S100000x64, .f32⟩) main_v312 h1 h2 h3).ofBuf (Val := Elt F) v = v := rfl

end Cert.ReferenceIdeal.RefRun

end
-- ==== Proof.RefStagesL0.lean ====
/-
  The reference's fold at its named stages: the degree vectors, their powers, the encoder and layer 0's linear output.

  Each theorem reads the fold of the whole line at one stage buffer: it equals the stage's pure function (`val_vN`,
  the host operations exactly as printed) of the fold at the stages it reads and of the argument arrays.  The proof
  moves every buffer to the piece of the line where the stage's operations start (buffers a later piece does not write
  keep their contents), evaluates the operations of the pieces in between on both sides, removes the identity transports
  of the typed references, and compares.
-/
import proofs.«130402_j14499809591446_2_alg».proof.Proof.RefStagesSVals
import proofs.«130402_j14499809591446_2_alg».proof.Proof.RefStagesDefs
import proofs.«130402_j14499809591446_2_alg».proof.Proof.RefStagesCasts

noncomputable section

namespace Cert.ReferenceIdeal.RefRun

open Cert.ReferenceIdeal Idealize.ShloMosaic Idealize.ShloMosaic.TcCoe Idealize.SL.Sem Idealize.ShloMosaic.StableHlo
open Facts₀ Facts

variable [Facts]

set_option maxRecDepth 8192 in
set_option maxHeartbeats 4000000 in
/-- The number of edges whose first index is each row, clamped below by one. -/
theorem after_v4 (V : Valuation τ sig (Elt Ideal)) :
    after ops V (Proc.devRef .tc main_v4) = val_v4 (V (Proc.devRef .tc main_arg1)) := by
  rw [sat_1 V main_v4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)]
  simp only [sv1, seg0]
  after_results_simp
  try simp only [ofBuf_toBuf, ofBuf_self, toBuf_self, toBuf_main_v4, toBuf_main_v4_v, ofBuf_main_v3, ofBuf_main_v3_d, ofBuf_main_v3_v, ofBuf_main_cst_1, ofBuf_main_cst_1_d, ofBuf_main_cst_1_v]
  unfold val_v4
  rfl

set_option maxRecDepth 8192 in
set_option maxHeartbeats 4000000 in
/-- The number of edges whose second index is each row, clamped below by one. -/
theorem after_v8 (V : Valuation τ sig (Elt Ideal)) :
    after ops V (Proc.devRef .tc main_v8) = val_v8 (V (Proc.devRef .tc main_arg2)) := by
  rw [sat_2 V main_v8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)]
  simp only [sv2, sv1, seg1, seg0]
  after_results_simp
  try simp only [ofBuf_toBuf, ofBuf_self, toBuf_self, toBuf_main_v8, toBuf_main_v8_v, ofBuf_main_v7, ofBuf_main_v7_d, ofBuf_main_v7_v, ofBuf_main_cst_3, ofBuf_main_cst_3_d, ofBuf_main_cst_3_v]
  unfold val_v8
  rfl

set_option maxRecDepth 8192 in
set_option maxHeartbeats 4000000 in
/-- The first degrees to the power -1/2. -/
theorem after_v10 (V : Valuation τ sig (Elt Ideal)) :
    after ops V (Proc.devRef .tc main_v10) = val_v10 (after ops V (Proc.devRef .tc main_v4)) := by
  rw [sat_3 V main_v10 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide),
    sat_2 V main_v4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)]
  simp only [sv3, seg2]
  after_results_simp
  try simp only [ofBuf_toBuf, ofBuf_self, toBuf_self]
  unfold val_v10
  rfl

set_option maxRecDepth 8192 in
set_option maxHeartbeats 4000000 in
/-- The second degrees to the power -1/2. -/
theorem after_v12 (V : Valuation τ sig (Elt Ideal)) :
    after ops V (Proc.devRef .tc main_v12) = val_v12 (after ops V (Proc.devRef .tc main_v8)) := by
  rw [sat_4 V main_v12 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide),
    sat_3 V main_v8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)]
  simp only [sv4, seg3]
  after_results_simp
  try simp only [ofBuf_toBuf, ofBuf_self, toBuf_self]
  unfold val_v12
  rfl

set_option maxRecDepth 8192 in
set_option maxHeartbeats 4000000 in
/-- The encoder: three matrix products with a bias row each, the first two clamped at zero. -/
theorem after_v26 (V : Valuation τ sig (Elt Ideal)) :
    after ops V (Proc.devRef .tc main_v26) = val_v26 (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [sat_5 V main_v26 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide),
    ← sv4_main_arg0 V,
    ← sv4_main_arg3 V,
    ← sv4_main_arg4 V,
    ← sv4_main_arg5 V,
    ← sv4_main_arg6 V,
    ← sv4_main_arg7 V,
    ← sv4_main_arg8 V]
  simp only [sv5, seg4]
  after_results_simp
  try simp only [ofBuf_toBuf, ofBuf_self, toBuf_self, toBuf_main_v22, toBuf_main_v22_v, ofBuf_main_v21, ofBuf_main_v21_d, ofBuf_main_v21_v, toBuf_main_v17, toBuf_main_v17_v, ofBuf_main_v16, ofBuf_main_v16_d, ofBuf_main_v16_v]
  unfold val_v26
  rfl

set_option maxRecDepth 8192 in
set_option maxHeartbeats 4000000 in
/-- Layer 0 before its normalisation: rows scaled, gathered along the edges, summed into their destination rows, scaled again, then a matrix product and a bias row. -/
theorem after_v46 (V : Valuation τ sig (Elt Ideal)) :
    after ops V (Proc.devRef .tc main_v46) = val_v46 (after ops V (Proc.devRef .tc main_v10)) (after ops V (Proc.devRef .tc main_v12)) (after ops V (Proc.devRef .tc main_v26)) (V (Proc.devRef .tc main_arg1)) (V (Proc.devRef .tc main_arg2)) (V (Proc.devRef .tc main_arg13)) (V (Proc.devRef .tc main_arg14)) := by
  rw [sat_6 V main_v46 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide),
    sat_5 V main_v10 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide),
    sat_5 V main_v12 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide),
    sat_5 V main_v26 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide),
    ← sv5_main_arg1 V,
    ← sv5_main_arg2 V,
    ← sv5_main_arg13 V,
    ← sv5_main_arg14 V]
  simp only [sv6, seg5]
  after_results_simp
  try simp only [ofBuf_toBuf, ofBuf_self, toBuf_self]
  unfold val_v46
  rfl

end Cert.ReferenceIdeal.RefRun

end
-- ==== Proof.RefStagesL0b.lean ====
/-
  The reference's fold at its named stages: layer 0's statistics and output, and layer 1's neighbour mean.

  Each theorem reads the fold of the whole line at one stage buffer: it equals the stage's pure function (`val_vN`,
  the host operations exactly as printed) of the fold at the stages it reads and of the argument arrays.  The proof
  moves every buffer to the piece of the line where the stage's operations start (buffers a later piece does not write
  keep their contents), evaluates the operations of the pieces in between on both sides, removes the identity transports
  of the typed references, and compares.
-/
import proofs.«130402_j14499809591446_2_alg».proof.Proof.RefStagesSVals
import proofs.«130402_j14499809591446_2_alg».proof.Proof.RefStagesDefs
import proofs.«130402_j14499809591446_2_alg».proof.Proof.RefStagesCasts

noncomputable section

namespace Cert.ReferenceIdeal.RefRun

open Cert.ReferenceIdeal Idealize.ShloMosaic Idealize.ShloMosaic.TcCoe Idealize.SL.Sem Idealize.ShloMosaic.StableHlo
open Facts₀ Facts

variable [Facts]

set_option maxRecDepth 8192 in
set_option maxHeartbeats 4000000 in
/-- The column means of layer 0's linear output. -/
theorem after_v53 (V : Valuation τ sig (Elt Ideal)) :
    after ops V (Proc.devRef .tc main_v53) = val_v53 (after ops V (Proc.devRef .tc main_v46)) := by
  rw [sat_8 V main_v53 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide),
    sat_7 V main_v46 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)]
  simp only [sv8, seg7]
  after_results_simp
  try simp only [ofBuf_toBuf, ofBuf_self, toBuf_self]
  unfold val_v53
  rfl

set_option maxRecDepth 8192 in
set_option maxHeartbeats 4000000 in
/-- The column variances of layer 0's linear output (mean of squared deviations; the select keeps it since the row count exceeds the correction 0). -/
theorem after_v54 (V : Valuation τ sig (Elt Ideal)) :
    after ops V (Proc.devRef .tc main_v54) = val_v54 (after ops V (Proc.devRef .tc main_v46)) := by
  rw [sat_9 V main_v54 (by decide) (by decide) (by decide) (by decide) (by decide) (by decide) (by decide) (by decide) (by decide) (by decide) (by decide) (by decide) (by decide) (by decide) (by decide) (by decide) (by decide) (by decide) (by decide) (by decide) (by decide) (by decide) (by decide) (by decide),
    sat_8 V main_v46 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)]
  simp only [sv9, seg8]
  after_results_simp
  try simp only [ofBuf_toBuf, ofBuf_self, toBuf_self, toBuf_main_v54, toBuf_main_v54_v, ofBuf_main_c_10, ofBuf_main_c_10_d, ofBuf_main_c_10_v, ofBuf_main_v46, ofBuf_main_v46_d, ofBuf_main_v46_v]
  unfold val_v54
  rfl

set_option maxRecDepth 8192 in
set_option maxHeartbeats 4000000 in
/-- Layer 0's output: the normalised linear output, scaled and shifted by row 0 of the two parameter tables, clamped at zero. -/
theorem after_v70 (V : Valuation τ sig (Elt Ideal)) :
    after ops V (Proc.devRef .tc main_v70) = val_v70 (after ops V (Proc.devRef .tc main_v46)) (after ops V (Proc.devRef .tc main_v53)) (after ops V (Proc.devRef .tc main_v54)) (V (Proc.devRef .tc main_arg17)) (V (Proc.devRef .tc main_arg18)) := by
  rw [sat_10 V main_v70 (by decide) (by decide) (by decide) (by decide) (by decide) (by decide) (by decide) (by decide) (by decide) (by decide) (by decide) (by decide) (by decide) (by decide) (by decide) (by decide) (by decide) (by decide) (by decide) (by decide) (by decide) (by decide) (by decide),
    sat_6 V main_v46 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide),
    sat_8 V main_v53 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide),
    sat_9 V main_v54 (by decide) (by decide) (by decide) (by decide) (by decide) (by decide) (by decide) (by decide) (by decide) (by decide) (by decide) (by decide) (by decide) (by decide) (by decide) (by decide) (by decide) (by decide) (by decide) (by decide) (by decide) (by decide) (by decide) (by decide),
    ← sv6_main_arg17 V,
    ← sv6_main_arg18 V]
  simp only [sv10, sv9, sv8, sv7, seg9, seg8, seg7, seg6]
  after_results_simp
  try simp only [ofBuf_toBuf, ofBuf_self, toBuf_self, toBuf_main_v70, toBuf_main_v70_v, ofBuf_main_v69, ofBuf_main_v69_d, ofBuf_main_v69_v, toBuf_main_v54, toBuf_main_v54_v, ofBuf_main_c_10, ofBuf_main_c_10_d, ofBuf_main_c_10_v, ofBuf_main_v46, ofBuf_main_v46_d, ofBuf_main_v46_v]
  unfold val_v70
  rfl

set_option maxRecDepth 8192 in
set_option maxHeartbeats 4000000 in
/-- Layer 1: the mean over the incoming edges of the previous layer's rows (the edge sum divided by the clamped in-degree). -/
theorem after_v83 (V : Valuation τ sig (Elt Ideal)) :
    after ops V (Proc.devRef .tc main_v83) = val_v83 (after ops V (Proc.devRef .tc main_v8)) (after ops V (Proc.devRef .tc main_v70)) (V (Proc.devRef .tc main_arg1)) (V (Proc.devRef .tc main_arg2)) := by
  rw [sat_11 V main_v83 (by decide) (by decide) (by decide) (by decide) (by decide) (by decide) (by decide) (by decide) (by decide) (by decide) (by decide) (by decide) (by decide) (by decide) (by decide) (by decide) (by decide) (by decide) (by decide) (by decide) (by decide) (by decide),
    sat_10 V main_v8 (by decide) (by decide) (by decide) (by decide) (by decide) (by decide) (by decide) (by decide) (by decide) (by decide) (by decide) (by decide) (by decide) (by decide) (by decide) (by decide) (by decide) (by decide) (by decide) (by decide) (by decide) (by decide) (by decide),
    sat_10 V main_v70 (by decide) (by decide) (by decide) (by decide) (by decide) (by decide) (by decide) (by decide) (by decide) (by decide) (by decide) (by decide) (by decide) (by decide) (by decide) (by decide) (by decide) (by decide) (by decide) (by decide) (by decide) (by decide) (by decide),
    ← sv10_main_arg1 V,
    ← sv10_main_arg2 V]
  simp only [sv11, seg10]
  after_results_simp
  try simp only [ofBuf_toBuf, ofBuf_self, toBuf_self]
  unfold val_v83
  rfl

end Cert.ReferenceIdeal.RefRun

end
-- ==== Proof.RefStagesL1.lean ====
/-
  The reference's fold at its named stages: layer 1.

  Each theorem reads the fold of the whole line at one stage buffer: it equals the stage's pure function (`val_vN`,
  the host operations exactly as printed) of the fold at the stages it reads and of the argument arrays.  The proof
  moves every buffer to the piece of the line where the stage's operations start (buffers a later piece does not write
  keep their contents), evaluates the operations of the pieces in between on both sides, removes the identity transports
  of the typed references, and compares.
-/
import proofs.«130402_j14499809591446_2_alg».proof.Proof.RefStagesSVals
import proofs.«130402_j14499809591446_2_alg».proof.Proof.RefStagesDefs
import proofs.«130402_j14499809591446_2_alg».proof.Proof.RefStagesCasts

noncomputable section

namespace Cert.ReferenceIdeal.RefRun

open Cert.ReferenceIdeal Idealize.ShloMosaic Idealize.ShloMosaic.TcCoe Idealize.SL.Sem Idealize.ShloMosaic.StableHlo
open Facts₀ Facts

variable [Facts]

set_option maxRecDepth 8192 in
set_option maxHeartbeats 4000000 in
/-- Layer 1: h plus the logistic gate of the joined row (h | neighbour mean) times the neighbour mean. -/
theorem after_v102 (V : Valuation τ sig (Elt Ideal)) :
    after ops V (Proc.devRef .tc main_v102) = val_v102 (after ops V (Proc.devRef .tc main_v70)) (after ops V (Proc.devRef .tc main_v83)) (V (Proc.devRef .tc main_arg9)) (V (Proc.devRef .tc main_arg10)) (V (Proc.devRef .tc main_arg11)) (V (Proc.devRef .tc main_arg12)) := by
  rw [sat_13 V main_v102 (by decide) (by decide) (by decide) (by decide) (by decide) (by decide) (by decide) (by decide) (by decide) (by decide) (by decide) (by decide) (by decide) (by decide) (by decide) (by decide) (by decide) (by decide) (by decide) (by decide),
    sat_11 V main_v70 (by decide) (by decide) (by decide) (by decide) (by decide) (by decide) (by decide) (by decide) (by decide) (by decide) (by decide) (by decide) (by decide) (by decide) (by decide) (by decide) (by decide) (by decide) (by decide) (by decide) (by decide) (by decide),
    sat_11 V main_v83 (by decide) (by decide) (by decide) (by decide) (by decide) (by decide) (by decide) (by decide) (by decide) (by decide) (by decide) (by decide) (by decide) (by decide) (by decide) (by decide) (by decide) (by decide) (by decide) (by decide) (by decide) (by decide),
    ← sv11_main_arg9 V,
    ← sv11_main_arg10 V,
    ← sv11_main_arg11 V,
    ← sv11_main_arg12 V]
  simp only [sv13, sv12, seg12, seg11]
  after_results_simp
  try simp only [ofBuf_toBuf, ofBuf_self, toBuf_self, toBuf_main_v89, toBuf_main_v89_v, ofBuf_main_v88, ofBuf_main_v88_d, ofBuf_main_v88_v]
  unfold val_v102
  rfl

set_option maxRecDepth 8192 in
set_option maxHeartbeats 4000000 in
/-- Layer 1 before its normalisation: the normalised aggregation of the gated h, a matrix product with slice 0 of the stacked weights, and a bias row. -/
theorem after_v126 (V : Valuation τ sig (Elt Ideal)) :
    after ops V (Proc.devRef .tc main_v126) = val_v126 (after ops V (Proc.devRef .tc main_v10)) (after ops V (Proc.devRef .tc main_v12)) (after ops V (Proc.devRef .tc main_v102)) (V (Proc.devRef .tc main_arg1)) (V (Proc.devRef .tc main_arg2)) (V (Proc.devRef .tc main_arg15)) (V (Proc.devRef .tc main_arg16)) := by
  rw [sat_14 V main_v126 (by decide) (by decide) (by decide) (by decide) (by decide) (by decide) (by decide) (by decide) (by decide) (by decide) (by decide) (by decide) (by decide) (by decide) (by decide) (by decide) (by decide) (by decide) (by decide),
    sat_13 V main_v10 (by decide) (by decide) (by decide) (by decide) (by decide) (by decide) (by decide) (by decide) (by decide) (by decide) (by decide) (by decide) (by decide) (by decide) (by decide) (by decide) (by decide) (by decide) (by decide) (by decide),
    sat_13 V main_v12 (by decide) (by decide) (by decide) (by decide) (by decide) (by decide) (by decide) (by decide) (by decide) (by decide) (by decide) (by decide) (by decide) (by decide) (by decide) (by decide) (by decide) (by decide) (by decide) (by decide),
    sat_13 V main_v102 (by decide) (by decide) (by decide) (by decide) (by decide) (by decide) (by decide) (by decide) (by decide) (by decide) (by decide) (by decide) (by decide) (by decide) (by decide) (by decide) (by decide) (by decide) (by decide) (by decide),
    ← sv13_main_arg1 V,
    ← sv13_main_arg2 V,
    ← sv13_main_arg15 V,
    ← sv13_main_arg16 V]
  simp only [sv14, seg13]
  after_results_simp
  try simp only [ofBuf_toBuf, ofBuf_self, toBuf_self]
  unfold val_v126
  rfl

set_option maxRecDepth 8192 in
set_option maxHeartbeats 4000000 in
/-- The column means of layer 1's linear output. -/
theorem after_v133 (V : Valuation τ sig (Elt Ideal)) :
    after ops V (Proc.devRef .tc main_v133) = val_v133 (after ops V (Proc.devRef .tc main_v126)) := by
  rw [sat_15 V main_v133 (by decide) (by decide) (by decide) (by decide) (by decide) (by decide) (by decide) (by decide) (by decide) (by decide) (by decide) (by decide) (by decide) (by decide) (by decide) (by decide) (by decide) (by decide),
    sat_14 V main_v126 (by decide) (by decide) (by decide) (by decide) (by decide) (by decide) (by decide) (by decide) (by decide) (by decide) (by decide) (by decide) (by decide) (by decide) (by decide) (by decide) (by decide) (by decide) (by decide)]
  simp only [sv15, seg14]
  after_results_simp
  try simp only [ofBuf_toBuf, ofBuf_self, toBuf_self]
  unfold val_v133
  rfl

set_option maxRecDepth 8192 in
set_option maxHeartbeats 4000000 in
/-- The column variances of layer 1's linear output. -/
theorem after_v134 (V : Valuation τ sig (Elt Ideal)) :
    after ops V (Proc.devRef .tc main_v134) = val_v134 (after ops V (Proc.devRef .tc main_v126)) := by
  rw [sat_16 V main_v134 (by decide) (by decide) (by decide) (by decide) (by decide) (by decide) (by decide) (by decide) (by decide) (by decide) (by decide) (by decide) (by decide) (by decide) (by decide) (by decide) (by decide),
    sat_15 V main_v126 (by decide) (by decide) (by decide) (by decide) (by decide) (by decide) (by decide) (by decide) (by decide) (by decide) (by decide) (by decide) (by decide) (by decide) (by decide) (by decide) (by decide) (by decide)]
  simp only [sv16, seg15]
  after_results_simp
  try simp only [ofBuf_toBuf, ofBuf_self, toBuf_self, toBuf_main_v134, toBuf_main_v134_v, ofBuf_main_c_22, ofBuf_main_c_22_d, ofBuf_main_c_22_v, ofBuf_main_v126, ofBuf_main_v126_d, ofBuf_main_v126_v]
  unfold val_v134
  rfl

set_option maxRecDepth 8192 in
set_option maxHeartbeats 4000000 in
/-- Layer 1's output: the normalised linear output, scaled and shifted by row 1 of the parameter tables, plus the gated h, clamped at zero. -/
theorem after_v151 (V : Valuation τ sig (Elt Ideal)) :
    after ops V (Proc.devRef .tc main_v151) = val_v151 (after ops V (Proc.devRef .tc main_v102)) (after ops V (Proc.devRef .tc main_v126)) (after ops V (Proc.devRef .tc main_v133)) (after ops V (Proc.devRef .tc main_v134)) (V (Proc.devRef .tc main_arg17)) (V (Proc.devRef .tc main_arg18)) := by
  rw [sat_17 V main_v151 (by decide) (by decide) (by decide) (by decide) (by decide) (by decide) (by decide) (by decide) (by decide) (by decide) (by decide) (by decide) (by decide) (by decide) (by decide) (by decide),
    sat_14 V main_v102 (by decide) (by decide) (by decide) (by decide) (by decide) (by decide) (by decide) (by decide) (by decide) (by decide) (by decide) (by decide) (by decide) (by decide) (by decide) (by decide) (by decide) (by decide) (by decide),
    sat_14 V main_v126 (by decide) (by decide) (by decide) (by decide) (by decide) (by decide) (by decide) (by decide) (by decide) (by decide) (by decide) (by decide) (by decide) (by decide) (by decide) (by decide) (by decide) (by decide) (by decide),
    sat_15 V main_v133 (by decide) (by decide) (by decide) (by decide) (by decide) (by decide) (by decide) (by decide) (by decide) (by decide) (by decide) (by decide) (by decide) (by decide) (by decide) (by decide) (by decide) (by decide),
    sat_16 V main_v134 (by decide) (by decide) (by decide) (by decide) (by decide) (by decide) (by decide) (by decide) (by decide) (by decide) (by decide) (by decide) (by decide) (by decide) (by decide) (by decide) (by decide),
    ← sv14_main_arg17 V,
    ← sv14_main_arg18 V]
  simp only [sv17, sv16, sv15, seg16, seg15, seg14]
  after_results_simp
  try simp only [ofBuf_toBuf, ofBuf_self, toBuf_self, toBuf_main_v151, toBuf_main_v151_v, ofBuf_main_v150, ofBuf_main_v150_d, ofBuf_main_v150_v, toBuf_main_v134, toBuf_main_v134_v, ofBuf_main_c_22, ofBuf_main_c_22_d, ofBuf_main_c_22_v, ofBuf_main_v126, ofBuf_main_v126_d, ofBuf_main_v126_v]
  unfold val_v151
  rfl

end Cert.ReferenceIdeal.RefRun

end
-- ==== Proof.RefStagesL2.lean ====
/-
  The reference's fold at its named stages: layer 2.

  Each theorem reads the fold of the whole line at one stage buffer: it equals the stage's pure function (`val_vN`,
  the host operations exactly as printed) of the fold at the stages it reads and of the argument arrays.  The proof
  moves every buffer to the piece of the line where the stage's operations start (buffers a later piece does not write
  keep their contents), evaluates the operations of the pieces in between on both sides, removes the identity transports
  of the typed references, and compares.
-/
import proofs.«130402_j14499809591446_2_alg».proof.Proof.RefStagesSVals
import proofs.«130402_j14499809591446_2_alg».proof.Proof.RefStagesDefs
import proofs.«130402_j14499809591446_2_alg».proof.Proof.RefStagesCasts

noncomputable section

namespace Cert.ReferenceIdeal.RefRun

open Cert.ReferenceIdeal Idealize.ShloMosaic Idealize.ShloMosaic.TcCoe Idealize.SL.Sem Idealize.ShloMosaic.StableHlo
open Facts₀ Facts

variable [Facts]

set_option maxRecDepth 8192 in
set_option maxHeartbeats 4000000 in
/-- Layer 2: the mean over the incoming edges of the previous layer's rows (the edge sum divided by the clamped in-degree). -/
theorem after_v164 (V : Valuation τ sig (Elt Ideal)) :
    after ops V (Proc.devRef .tc main_v164) = val_v164 (after ops V (Proc.devRef .tc main_v8)) (after ops V (Proc.devRef .tc main_v151)) (V (Proc.devRef .tc main_arg1)) (V (Proc.devRef .tc main_arg2)) := by
  rw [sat_19 V main_v164 (by decide) (by decide) (by decide) (by decide) (by decide) (by decide) (by decide) (by decide) (by decide) (by decide) (by decide) (by decide) (by decide) (by decide),
    sat_17 V main_v8 (by decide) (by decide) (by decide) (by decide) (by decide) (by decide) (by decide) (by decide) (by decide) (by decide) (by decide) (by decide) (by decide) (by decide) (by decide) (by decide),
    sat_17 V main_v151 (by decide) (by decide) (by decide) (by decide) (by decide) (by decide) (by decide) (by decide) (by decide) (by decide) (by decide) (by decide) (by decide) (by decide) (by decide) (by decide),
    ← sv17_main_arg1 V,
    ← sv17_main_arg2 V]
  simp only [sv19, sv18, seg18, seg17]
  after_results_simp
  try simp only [ofBuf_toBuf, ofBuf_self, toBuf_self]
  unfold val_v164
  rfl

set_option maxRecDepth 8192 in
set_option maxHeartbeats 4000000 in
/-- Layer 2: h plus the logistic gate of the joined row (h | neighbour mean) times the neighbour mean. -/
theorem after_v183 (V : Valuation τ sig (Elt Ideal)) :
    after ops V (Proc.devRef .tc main_v183) = val_v183 (after ops V (Proc.devRef .tc main_v151)) (after ops V (Proc.devRef .tc main_v164)) (V (Proc.devRef .tc main_arg9)) (V (Proc.devRef .tc main_arg10)) (V (Proc.devRef .tc main_arg11)) (V (Proc.devRef .tc main_arg12)) := by
  rw [sat_20 V main_v183 (by decide) (by decide) (by decide) (by decide) (by decide) (by decide) (by decide) (by decide) (by decide) (by decide) (by decide) (by decide) (by decide),
    sat_19 V main_v151 (by decide) (by decide) (by decide) (by decide) (by decide) (by decide) (by decide) (by decide) (by decide) (by decide) (by decide) (by decide) (by decide) (by decide),
    sat_19 V main_v164 (by decide) (by decide) (by decide) (by decide) (by decide) (by decide) (by decide) (by decide) (by decide) (by decide) (by decide) (by decide) (by decide) (by decide),
    ← sv19_main_arg9 V,
    ← sv19_main_arg10 V,
    ← sv19_main_arg11 V,
    ← sv19_main_arg12 V]
  simp only [sv20, seg19]
  after_results_simp
  try simp only [ofBuf_toBuf, ofBuf_self, toBuf_self, toBuf_main_v170, toBuf_main_v170_v, ofBuf_main_v169, ofBuf_main_v169_d, ofBuf_main_v169_v]
  unfold val_v183
  rfl

set_option maxRecDepth 8192 in
set_option maxHeartbeats 4000000 in
/-- Layer 2 before its normalisation: the normalised aggregation of the gated h, a matrix product with slice 1 of the stacked weights, and a bias row. -/
theorem after_v207 (V : Valuation τ sig (Elt Ideal)) :
    after ops V (Proc.devRef .tc main_v207) = val_v207 (after ops V (Proc.devRef .tc main_v10)) (after ops V (Proc.devRef .tc main_v12)) (after ops V (Proc.devRef .tc main_v183)) (V (Proc.devRef .tc main_arg1)) (V (Proc.devRef .tc main_arg2)) (V (Proc.devRef .tc main_arg15)) (V (Proc.devRef .tc main_arg16)) := by
  rw [sat_22 V main_v207 (by decide) (by decide) (by decide) (by decide) (by decide) (by decide) (by decide) (by decide) (by decide) (by decide) (by decide),
    sat_20 V main_v10 (by decide) (by decide) (by decide) (by decide) (by decide) (by decide) (by decide) (by decide) (by decide) (by decide) (by decide) (by decide) (by decide),
    sat_20 V main_v12 (by decide) (by decide) (by decide) (by decide) (by decide) (by decide) (by decide) (by decide) (by decide) (by decide) (by decide) (by decide) (by decide),
    sat_20 V main_v183 (by decide) (by decide) (by decide) (by decide) (by decide) (by decide) (by decide) (by decide) (by decide) (by decide) (by decide) (by decide) (by decide),
    ← sv20_main_arg1 V,
    ← sv20_main_arg2 V,
    ← sv20_main_arg15 V,
    ← sv20_main_arg16 V]
  simp only [sv22, sv21, seg21, seg20]
  after_results_simp
  try simp only [ofBuf_toBuf, ofBuf_self, toBuf_self]
  unfold val_v207
  rfl

set_option maxRecDepth 8192 in
set_option maxHeartbeats 4000000 in
/-- The column means of layer 2's linear output. -/
theorem after_v214 (V : Valuation τ sig (Elt Ideal)) :
    after ops V (Proc.devRef .tc main_v214) = val_v214 (after ops V (Proc.devRef .tc main_v207)) := by
  rw [sat_23 V main_v214 (by decide) (by decide) (by decide) (by decide) (by decide) (by decide) (by decide) (by decide) (by decide) (by decide),
    sat_22 V main_v207 (by decide) (by decide) (by decide) (by decide) (by decide) (by decide) (by decide) (by decide) (by decide) (by decide) (by decide)]
  simp only [sv23, seg22]
  after_results_simp
  try simp only [ofBuf_toBuf, ofBuf_self, toBuf_self]
  unfold val_v214
  rfl

set_option maxRecDepth 8192 in
set_option maxHeartbeats 4000000 in
/-- The column variances of layer 2's linear output. -/
theorem after_v215 (V : Valuation τ sig (Elt Ideal)) :
    after ops V (Proc.devRef .tc main_v215) = val_v215 (after ops V (Proc.devRef .tc main_v207)) := by
  rw [sat_24 V main_v215 (by decide) (by decide) (by decide) (by decide) (by decide) (by decide) (by decide) (by decide) (by decide),
    sat_23 V main_v207 (by decide) (by decide) (by decide) (by decide) (by decide) (by decide) (by decide) (by decide) (by decide) (by decide)]
  simp only [sv24, seg23]
  after_results_simp
  try simp only [ofBuf_toBuf, ofBuf_self, toBuf_self, toBuf_main_v215, toBuf_main_v215_v, ofBuf_main_c_34, ofBuf_main_c_34_d, ofBuf_main_c_34_v, ofBuf_main_v207, ofBuf_main_v207_d, ofBuf_main_v207_v]
  unfold val_v215
  rfl

set_option maxRecDepth 8192 in
set_option maxHeartbeats 4000000 in
/-- Layer 2's output: the normalised linear output, scaled and shifted by row 2 of the parameter tables, plus the gated h, clamped at zero. -/
theorem after_v232 (V : Valuation τ sig (Elt Ideal)) :
    after ops V (Proc.devRef .tc main_v232) = val_v232 (after ops V (Proc.devRef .tc main_v183)) (after ops V (Proc.devRef .tc main_v207)) (after ops V (Proc.devRef .tc main_v214)) (after ops V (Proc.devRef .tc main_v215)) (V (Proc.devRef .tc main_arg17)) (V (Proc.devRef .tc main_arg18)) := by
  rw [sat_25 V main_v232 (by decide) (by decide) (by decide) (by decide) (by decide) (by decide) (by decide) (by decide),
    sat_22 V main_v183 (by decide) (by decide) (by decide) (by decide) (by decide) (by decide) (by decide) (by decide) (by decide) (by decide) (by decide),
    sat_22 V main_v207 (by decide) (by decide) (by decide) (by decide) (by decide) (by decide) (by decide) (by decide) (by decide) (by decide) (by decide),
    sat_23 V main_v214 (by decide) (by decide) (by decide) (by decide) (by decide) (by decide) (by decide) (by decide) (by decide) (by decide),
    sat_24 V main_v215 (by decide) (by decide) (by decide) (by decide) (by decide) (by decide) (by decide) (by decide) (by decide),
    ← sv22_main_arg17 V,
    ← sv22_main_arg18 V]
  simp only [sv25, sv24, sv23, seg24, seg23, seg22]
  after_results_simp
  try simp only [ofBuf_toBuf, ofBuf_self, toBuf_self, toBuf_main_v232, toBuf_main_v232_v, ofBuf_main_v231, ofBuf_main_v231_d, ofBuf_main_v231_v, toBuf_main_v215, toBuf_main_v215_v, ofBuf_main_c_34, ofBuf_main_c_34_d, ofBuf_main_c_34_v, ofBuf_main_v207, ofBuf_main_v207_d, ofBuf_main_v207_v]
  unfold val_v232
  rfl

end Cert.ReferenceIdeal.RefRun

end
-- ==== Proof.RefStagesL3.lean ====
/-
  The reference's fold at its named stages: layer 3 and the result.

  Each theorem reads the fold of the whole line at one stage buffer: it equals the stage's pure function (`val_vN`,
  the host operations exactly as printed) of the fold at the stages it reads and of the argument arrays.  The proof
  moves every buffer to the piece of the line where the stage's operations start (buffers a later piece does not write
  keep their contents), evaluates the operations of the pieces in between on both sides, removes the identity transports
  of the typed references, and compares.
-/
import proofs.«130402_j14499809591446_2_alg».proof.Proof.RefStagesSVals
import proofs.«130402_j14499809591446_2_alg».proof.Proof.RefStagesDefs
import proofs.«130402_j14499809591446_2_alg».proof.Proof.RefStagesCasts

noncomputable section

namespace Cert.ReferenceIdeal.RefRun

open Cert.ReferenceIdeal Idealize.ShloMosaic Idealize.ShloMosaic.TcCoe Idealize.SL.Sem Idealize.ShloMosaic.StableHlo
open Facts₀ Facts

variable [Facts]

set_option maxRecDepth 8192 in
set_option maxHeartbeats 4000000 in
/-- Layer 3: the mean over the incoming edges of the previous layer's rows (the edge sum divided by the clamped in-degree). -/
theorem after_v245 (V : Valuation τ sig (Elt Ideal)) :
    after ops V (Proc.devRef .tc main_v245) = val_v245 (after ops V (Proc.devRef .tc main_v8)) (after ops V (Proc.devRef .tc main_v232)) (V (Proc.devRef .tc main_arg1)) (V (Proc.devRef .tc main_arg2)) := by
  rw [sat_26 V main_v245 (by decide) (by decide) (by decide) (by decide) (by decide) (by decide) (by decide),
    sat_25 V main_v8 (by decide) (by decide) (by decide) (by decide) (by decide) (by decide) (by decide) (by decide),
    sat_25 V main_v232 (by decide) (by decide) (by decide) (by decide) (by decide) (by decide) (by decide) (by decide),
    ← sv25_main_arg1 V,
    ← sv25_main_arg2 V]
  simp only [sv26, seg25]
  after_results_simp
  try simp only [ofBuf_toBuf, ofBuf_self, toBuf_self]
  unfold val_v245
  rfl

set_option maxRecDepth 8192 in
set_option maxHeartbeats 4000000 in
/-- Layer 3: h plus the logistic gate of the joined row (h | neighbour mean) times the neighbour mean. -/
theorem after_v264 (V : Valuation τ sig (Elt Ideal)) :
    after ops V (Proc.devRef .tc main_v264) = val_v264 (after ops V (Proc.devRef .tc main_v232)) (after ops V (Proc.devRef .tc main_v245)) (V (Proc.devRef .tc main_arg9)) (V (Proc.devRef .tc main_arg10)) (V (Proc.devRef .tc main_arg11)) (V (Proc.devRef .tc main_arg12)) := by
  rw [sat_28 V main_v264 (by decide) (by decide) (by decide) (by decide) (by decide),
    sat_26 V main_v232 (by decide) (by decide) (by decide) (by decide) (by decide) (by decide) (by decide),
    sat_26 V main_v245 (by decide) (by decide) (by decide) (by decide) (by decide) (by decide) (by decide),
    ← sv26_main_arg9 V,
    ← sv26_main_arg10 V,
    ← sv26_main_arg11 V,
    ← sv26_main_arg12 V]
  simp only [sv28, sv27, seg27, seg26]
  after_results_simp
  try simp only [ofBuf_toBuf, ofBuf_self, toBuf_self, toBuf_main_v251, toBuf_main_v251_v, ofBuf_main_v250, ofBuf_main_v250_d, ofBuf_main_v250_v]
  unfold val_v264
  rfl

set_option maxRecDepth 8192 in
set_option maxHeartbeats 4000000 in
/-- Layer 3 before its normalisation: the normalised aggregation of the gated h, a matrix product with slice 2 of the stacked weights, and a bias row. -/
theorem after_v288 (V : Valuation τ sig (Elt Ideal)) :
    after ops V (Proc.devRef .tc main_v288) = val_v288 (after ops V (Proc.devRef .tc main_v10)) (after ops V (Proc.devRef .tc main_v12)) (after ops V (Proc.devRef .tc main_v264)) (V (Proc.devRef .tc main_arg1)) (V (Proc.devRef .tc main_arg2)) (V (Proc.devRef .tc main_arg15)) (V (Proc.devRef .tc main_arg16)) := by
  rw [sat_29 V main_v288 (by decide) (by decide) (by decide) (by decide),
    sat_28 V main_v10 (by decide) (by decide) (by decide) (by decide) (by decide),
    sat_28 V main_v12 (by decide) (by decide) (by decide) (by decide) (by decide),
    sat_28 V main_v264 (by decide) (by decide) (by decide) (by decide) (by decide),
    ← sv28_main_arg1 V,
    ← sv28_main_arg2 V,
    ← sv28_main_arg15 V,
    ← sv28_main_arg16 V]
  simp only [sv29, seg28]
  after_results_simp
  try simp only [ofBuf_toBuf, ofBuf_self, toBuf_self]
  unfold val_v288
  rfl

set_option maxRecDepth 8192 in
set_option maxHeartbeats 4000000 in
/-- The column means of layer 3's linear output. -/
theorem after_v295 (V : Valuation τ sig (Elt Ideal)) :
    after ops V (Proc.devRef .tc main_v295) = val_v295 (after ops V (Proc.devRef .tc main_v288)) := by
  rw [sat_30 V main_v295 (by decide) (by decide) (by decide),
    sat_29 V main_v288 (by decide) (by decide) (by decide) (by decide)]
  simp only [sv30, seg29]
  after_results_simp
  try simp only [ofBuf_toBuf, ofBuf_self, toBuf_self]
  unfold val_v295
  rfl

set_option maxRecDepth 8192 in
set_option maxHeartbeats 4000000 in
/-- The column variances of layer 3's linear output. -/
theorem after_v296 (V : Valuation τ sig (Elt Ideal)) :
    after ops V (Proc.devRef .tc main_v296) = val_v296 (after ops V (Proc.devRef .tc main_v288)) := by
  rw [sat_31 V main_v296 (by decide) (by decide),
    sat_30 V main_v288 (by decide) (by decide) (by decide)]
  simp only [sv31, seg30]
  after_results_simp
  try simp only [ofBuf_toBuf, ofBuf_self, toBuf_self, toBuf_main_v296, toBuf_main_v296_v, ofBuf_main_c_46, ofBuf_main_c_46_d, ofBuf_main_c_46_v, ofBuf_main_v288, ofBuf_main_v288_d, ofBuf_main_v288_v]
  unfold val_v296
  rfl

set_option maxRecDepth 8192 in
set_option maxHeartbeats 4000000 in
/-- The result: layer 3's output (normalised linear output, scaled and shifted by row 3 of the tables, plus the gated h, clamped at zero) times the classifier weights plus its bias row. -/
theorem after_v317 (V : Valuation τ sig (Elt Ideal)) :
    after ops V (Proc.devRef .tc main_v317) = val_v317 (after ops V (Proc.devRef .tc main_v264)) (after ops V (Proc.devRef .tc main_v288)) (after ops V (Proc.devRef .tc main_v295)) (after ops V (Proc.devRef .tc main_v296)) (V (Proc.devRef .tc main_arg17)) (V (Proc.devRef .tc main_arg18)) (V (Proc.devRef .tc main_arg19)) (V (Proc.devRef .tc main_arg20)) := by
  rw [sat_33 V main_v317,
    sat_29 V main_v264 (by decide) (by decide) (by decide) (by decide),
    sat_29 V main_v288 (by decide) (by decide) (by decide) (by decide),
    sat_30 V main_v295 (by decide) (by decide) (by decide),
    sat_31 V main_v296 (by decide) (by decide),
    ← sv29_main_arg17 V,
    ← sv29_main_arg18 V,
    ← sv29_main_arg19 V,
    ← sv29_main_arg20 V]
  simp only [sv33, sv32, sv31, sv30, seg32, seg31, seg30, seg29]
  after_results_simp
  try simp only [ofBuf_toBuf, ofBuf_self, toBuf_self, toBuf_main_v313, toBuf_main_v313_v, ofBuf_main_v312, ofBuf_main_v312_d, ofBuf_main_v312_v, toBuf_main_v296, toBuf_main_v296_v, ofBuf_main_c_46, ofBuf_main_c_46_d, ofBuf_main_c_46_v, ofBuf_main_v288, ofBuf_main_v288_d, ofBuf_main_v288_v]
  unfold val_v317
  rfl

end Cert.ReferenceIdeal.RefRun

end
-- ==== Proof.RefSpellDense.lean ====
/-
  The plain program's dense stages, spelt with whole-array host operations, are the entry-by-entry stages of the network.

  A dense layer is a dot_general of plain dimension numbers, a sum with the bias vector broadcast to one row and then down
  the rows, and for a hidden layer the maximum with the zero literal broadcast to the whole array.  Entry (p, c) of that
  composition is Σ_k a(p, k) · W(k, c) + b(c) (clamped at zero or not), which is how the stages are defined.  The
  encoder is three such layers; a graph-convolution layer's linear map and the classifier's product are one each; the
  attention gate is two, over the concatenation of h and the neighbour mean along the columns, followed by the logistic
  function spelt 1 / (1 + exp (-z)).  The weights of layers 1 to 3 are slices of stacked tables reshaped to drop the unit
  axis; the reads at an entry show which row of the table each one is.
  Every statement is over arbitrary arrays: no entry needs to be finite.
-/
import Idealize.ShloMosaic.Lib.IdealHost
import proofs.«130402_j14499809591446_2_alg».proof.Proof.Spec
import proofs.«130402_j14499809591446_2_alg».proof.Proof.LibConcatCols

noncomputable section

namespace Cert.Spec

open Idealize.ShloMosaic Idealize.ShloMosaic.ValueIdx Cert.LibTileOps Cert.Net Cert.ReferenceIdeal
open scoped BigOperators

-- the printed program's shape facts, which its records and every broadcast / reduce / slice cite
variable [Facts₀]
open Facts₀

/-! ## Reading a one-row array made from a vector -/

theorem rowOf_apply {B : ℕ} (v : V B) (u : Fin 1) (q : Fin B) : rowOf v (ix2 u q) = v (ix1 q) := rfl

/-! ## A vector as a one-row array -/

/-- A vector cast to a one-row array is the vector read along that row. -/
theorem shapeCast_row {B : ℕ} (b : V B) (hc : (⟨1, ![B]⟩ : Shape).ShapeCasts ⟨2, ![1, B]⟩) :
    shapeCast ⟨2, ![1, B]⟩ b hc = rowOf b := by
  funext j
  obtain ⟨u, q, rfl⟩ : ∃ (u : Fin 1) (q : Fin B), j = ix2 u q := ⟨j 0, j 1, eq_ix2 j⟩
  rw [shapeCast_a_1a_apply]; rfl

/-- A vector broadcast to a one-row array is the same row. -/
theorem bcast_row {B : ℕ} (b : V B) (h1 : (⟨1, ![B]⟩ : Shape).BroadcastsInDim ⟨2, ![1, B]⟩ (![1] : Fin 1 → Fin 2)) :
    broadcastInDim ⟨2, ![1, B]⟩ ![1] h1 b = rowOf b := by
  funext j
  obtain ⟨u, q, rfl⟩ : ∃ (u : Fin 1) (q : Fin B), j = ix2 u q := ⟨j 0, j 1, eq_ix2 j⟩
  rw [Cert.LibRowBcast.bcast_vec_row_apply]; rfl

/-! ## One dense layer: a product with the weights, the bias added to every row, and (for a hidden layer) the maximum
    with zero.  The host spells the bias as the vector broadcast to one row and then down the rows, and the clamp as a
    maximum with the zero literal broadcast to the whole array; entry (p, c) of either spelling is
    Σ_k a(p,k) · W(k,c) + b(c), clamped or not. -/

section Generic
variable {A K B : ℕ}

theorem dense_generic {D : DotDims ⟨2, ![A, K]⟩ ⟨2, ![K, B]⟩ ⟨2, ![A, B]⟩} (hD : Cert.LibPlainDot.Plain D)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (a : Mat A K) (W : Mat K B) (b : V B) :
    addf (Host.dotGeneral D none a W) (broadcastInDim ⟨2, ![A, B]⟩ ![0, 1] h2 (broadcastInDim ⟨2, ![1, B]⟩ ![1] h1 b))
      = addRow (matProd a W) (rowOf b) := by
  have hc : (⟨1, ![B]⟩ : Shape).ShapeCasts ⟨2, ![1, B]⟩ := by
    show (⟨2, ![1, B]⟩ : Shape).numel = (⟨1, ![B]⟩ : Shape).numel
    simp [Shape.numel]
  rw [dotGeneral_eq_matProd hD, addf_bcast_row_eq_addRow h1 h2 hc, shapeCast_row]

theorem dense_relu_generic {D : DotDims ⟨2, ![A, K]⟩ ⟨2, ![K, B]⟩ ⟨2, ![A, B]⟩} (hD : Cert.LibPlainDot.Plain D)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2))
    (a : Mat A K) (W : Mat K B) (b : V B) :
    maximumf (addf (Host.dotGeneral D none a W) (broadcastInDim ⟨2, ![A, B]⟩ ![0, 1] h2 (broadcastInDim ⟨2, ![1, B]⟩ ![1] h1 b)))
        (broadcastInDim ⟨2, ![A, B]⟩ ![] h0 (constant (F := Ideal) ⟨0, ![]⟩ .f32 0x00000000#32))
      = addRowClamp (matProd a W) (rowOf b) := by
  have hc : (⟨1, ![B]⟩ : Shape).ShapeCasts ⟨2, ![1, B]⟩ := by
    show (⟨2, ![1, B]⟩ : Shape).numel = (⟨1, ![B]⟩ : Shape).numel
    simp [Shape.numel]
  rw [dotGeneral_eq_matProd hD, maximumf_addf_bcast_row_eq_addRowClamp h1 h2 hc h0, shapeCast_row]

end Generic

/-! ## The dense layers of this program, by their printed records -/

theorem spell_dense_relu_128_64 (a : Mat 100000 128) (W : Mat 128 64) (b : V 64) :
    maximumf
        (addf (Host.dotGeneral dot_S100000x128_S128x64_S100000x64_1_0_0_1_n_n none a W)
          (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32))
      = addRowClamp (matProd a W) (rowOf b) :=
  dense_relu_generic ⟨rfl, rfl, rfl, rfl, rfl, rfl⟩ bcast_S64_S1x64_1 bcast_S1x64_S100000x64_0_1 bcast_S_S100000x64 a W b

theorem spell_dense_relu_64_32 (a : Mat 100000 64) (W : Mat 64 32) (b : V 32) :
    maximumf
        (addf (Host.dotGeneral dot_S100000x64_S64x32_S100000x32_1_0_0_1_n_n none a W)
          (broadcastInDim S100000x32 ![0, 1] bcast_S1x32_S100000x32_0_1 (broadcastInDim S1x32 ![1] bcast_S32_S1x32_1 b)))
        (broadcastInDim S100000x32 ![] bcast_S_S100000x32 (constant (F := Ideal) S_ .f32 0x00000000#32))
      = addRowClamp (matProd a W) (rowOf b) :=
  dense_relu_generic ⟨rfl, rfl, rfl, rfl, rfl, rfl⟩ bcast_S32_S1x32_1 bcast_S1x32_S100000x32_0_1 bcast_S_S100000x32 a W b

theorem spell_dense_32_128 (a : Mat 100000 32) (W : Mat 32 128) (b : V 128) :
    addf (Host.dotGeneral dot_S100000x32_S32x128_S100000x128_1_0_0_1_n_n none a W)
        (broadcastInDim S100000x128 ![0, 1] bcast_S1x128_S100000x128_0_1 (broadcastInDim S1x128 ![1] bcast_S128_S1x128_1 b))
      = addRow (matProd a W) (rowOf b) :=
  dense_generic ⟨rfl, rfl, rfl, rfl, rfl, rfl⟩ bcast_S128_S1x128_1 bcast_S1x128_S100000x128_0_1 a W b

/-- The relation-pattern encoder: three dense layers, the first two clamped at zero. -/
theorem spell_encoder (x : Mat 100000 128) (W1 : Mat 128 64) (b1 : V 64) (W2 : Mat 64 32) (b2 : V 32) (W3 : Mat 32 128) (b3 : V 128) :
    addf
        (Host.dotGeneral dot_S100000x32_S32x128_S100000x128_1_0_0_1_n_n none
          (maximumf
            (addf
              (Host.dotGeneral dot_S100000x64_S64x32_S100000x32_1_0_0_1_n_n none
                (maximumf
                  (addf (Host.dotGeneral dot_S100000x128_S128x64_S100000x64_1_0_0_1_n_n none x W1)
                    (broadcastInDim S100000x64 ![0, 1] bcast_S1x64_S100000x64_0_1 (broadcastInDim S1x64 ![1] bcast_S64_S1x64_1 b1)))
                  (broadcastInDim S100000x64 ![] bcast_S_S100000x64 (constant (F := Ideal) S_ .f32 0x00000000#32)))
                W2)
              (broadcastInDim S100000x32 ![0, 1] bcast_S1x32_S100000x32_0_1 (broadcastInDim S1x32 ![1] bcast_S32_S1x32_1 b2)))
            (broadcastInDim S100000x32 ![] bcast_S_S100000x32 (constant (F := Ideal) S_ .f32 0x00000000#32)))
          W3)
        (broadcastInDim S100000x128 ![0, 1] bcast_S1x128_S100000x128_0_1 (broadcastInDim S1x128 ![1] bcast_S128_S1x128_1 b3))
      = encoder x W1 (rowOf b1) W2 (rowOf b2) W3 (rowOf b3) := by
  rw [spell_dense_relu_128_64, spell_dense_relu_64_32, spell_dense_32_128]; rfl

/-- A graph-convolution layer's linear map on a 128-column input (layer 0). -/
theorem spell_linear128 (a : Mat 100000 128) (W : Mat 128 64) (b : V 64) :
    addf (Host.dotGeneral dot_S100000x128_S128x64_S100000x64_1_0_0_1_n_n none a W)
        (broadcastInDim S100000x64 ![0, 1] bcast_S1x64_S100000x64_0_1 (broadcastInDim S1x64 ![1] bcast_S64_S1x64_1 b))
      = linear a W (rowOf b) :=
  dense_generic ⟨rfl, rfl, rfl, rfl, rfl, rfl⟩ bcast_S64_S1x64_1 bcast_S1x64_S100000x64_0_1 a W b

/-- The same on a 64-column input (layers 1 to 3). -/
theorem spell_linear64 (a : Mat 100000 64) (W : Mat 64 64) (b : V 64) :
    addf (Host.dotGeneral dot_S100000x64_S64x64_S100000x64_1_0_0_1_n_n none a W)
        (broadcastInDim S100000x64 ![0, 1] bcast_S1x64_S100000x64_0_1 (broadcastInDim S1x64 ![1] bcast_S64_S1x64_1 b))
      = linear a W (rowOf b) :=
  dense_generic ⟨rfl, rfl, rfl, rfl, rfl, rfl⟩ bcast_S64_S1x64_1 bcast_S1x64_S100000x64_0_1 a W b

/-- The gate's second layer: a 64-to-1 product and a one-entry bias. -/
theorem spell_dense_64_1 (a : Mat 100000 64) (W : Mat 64 1) (b : V 1) :
    addf (Host.dotGeneral dot_S100000x64_S64x1_S100000x1_1_0_0_1_n_n none a W)
        (broadcastInDim S100000x1 ![0, 1] bcast_S1x1_S100000x1_0_1 (broadcastInDim S1x1 ![1] bcast_S1_S1x1_1 b))
      = addRow (matProd a W) (rowOf b) :=
  dense_generic ⟨rfl, rfl, rfl, rfl, rfl, rfl⟩ bcast_S1_S1x1_1 bcast_S1x1_S100000x1_0_1 a W b

/-- The classifier's product and bias. -/
theorem spell_dense_64_16 (a : Mat 100000 64) (W : Mat 64 16) (b : V 16) :
    addf (Host.dotGeneral dot_S100000x64_S64x16_S100000x16_1_0_0_1_n_n none a W)
        (broadcastInDim S100000x16 ![0, 1] bcast_S1x16_S100000x16_0_1 (broadcastInDim S1x16 ![1] bcast_S16_S1x16_1 b))
      = addRow (matProd a W) (rowOf b) :=
  dense_generic ⟨rfl, rfl, rfl, rfl, rfl, rfl⟩ bcast_S16_S1x16_1 bcast_S1x16_S100000x16_0_1 a W b

/-! ## Rows and matrices cut out of the stacked parameter tables

  Layer i's weights are slice [i : i+1] of a stack along the leading axis, reshaped to drop that unit axis: entry
  (k, c) of the result is entry (i, k, c) of the stack, and entry c of a reshaped one-row slice is entry (i, c). -/

/-- A one-row slice of a table at row i, reshaped to a vector, read along a row, is row i of the table. -/
theorem rowOf_slice {R : ℕ} (t : Mat R 64) (i : Fin R) (off : Fin 2 → ℕ) (h0 : off 0 = i.val) (h1 : off 1 = 0)
    (hs : (⟨2, ![R, 64]⟩ : Shape).Slices off ⟨2, ![1, 64]⟩) (hc : (⟨2, ![1, 64]⟩ : Shape).ShapeCasts ⟨1, ![64]⟩) :
    rowOf (shapeCast ⟨1, ![64]⟩ (extractStridedSlice ⟨2, ![1, 64]⟩ off t hs) hc) = tableRow t i := by
  funext j
  obtain ⟨u, q, rfl⟩ : ∃ (u : Fin 1) (q : Fin 64), j = ix2 u q := ⟨j 0, j 1, eq_ix2 j⟩
  rw [rowOf_apply, shapeCast_1a_a_apply]
  refine extractStridedSlice_apply off t hs _ (ix2 i q) fun a => ?_
  match a with
  | ⟨0, _⟩ => show i.val = off 0 + 0; omega
  | ⟨1, _⟩ => show q.val = off 1 + q.val; omega

/-- A one-matrix slice of the weight stack at index i, reshaped to drop the unit axis, is matrix i of the stack. -/
theorem mat_slice (t : FVec Ideal ⟨3, ![3, 64, 64]⟩ .f32) (i : Fin 3) (off : Fin 3 → ℕ) (h0 : off 0 = i.val) (h1 : off 1 = 0)
    (h2 : off 2 = 0) (hs : (⟨3, ![3, 64, 64]⟩ : Shape).Slices off ⟨3, ![1, 64, 64]⟩)
    (hc : (⟨3, ![1, 64, 64]⟩ : Shape).ShapeCasts ⟨2, ![64, 64]⟩) :
    shapeCast ⟨2, ![64, 64]⟩ (extractStridedSlice ⟨3, ![1, 64, 64]⟩ off t hs) hc = tableMat t i := by
  funext j
  obtain ⟨k, c, rfl⟩ : ∃ (k : Fin 64) (c : Fin 64), j = ix2 k c := ⟨j 0, j 1, eq_ix2 j⟩
  rw [shapeCast_1ab_ab_apply]
  refine extractStridedSlice_apply off t hs _ (ix3 i k c) fun a => ?_
  match a with
  | ⟨0, _⟩ => show i.val = off 0 + 0; omega
  | ⟨1, _⟩ => show k.val = off 1 + k.val; omega
  | ⟨2, _⟩ => show c.val = off 2 + c.val; omega

theorem spell_tableMat_0 (t : FVec Ideal ⟨3, ![3, 64, 64]⟩ .f32) :
    shapeCast S64x64 (extractStridedSlice S1x64x64 ![0, 0, 0] t slices_S3x64x64_S1x64x64_0_0_0) shapeCasts_S1x64x64_S64x64
      = tableMat t 0 := mat_slice t 0 ![0, 0, 0] rfl rfl rfl _ _
theorem spell_tableMat_1 (t : FVec Ideal ⟨3, ![3, 64, 64]⟩ .f32) :
    shapeCast S64x64 (extractStridedSlice S1x64x64 ![1, 0, 0] t slices_S3x64x64_S1x64x64_1_0_0) shapeCasts_S1x64x64_S64x64
      = tableMat t 1 := mat_slice t 1 ![1, 0, 0] rfl rfl rfl _ _
theorem spell_tableMat_2 (t : FVec Ideal ⟨3, ![3, 64, 64]⟩ .f32) :
    shapeCast S64x64 (extractStridedSlice S1x64x64 ![2, 0, 0] t slices_S3x64x64_S1x64x64_2_0_0) shapeCasts_S1x64x64_S64x64
      = tableMat t 2 := mat_slice t 2 ![2, 0, 0] rfl rfl rfl _ _

theorem spell_tableRow3_0 (t : Mat 3 64) :
    rowOf (shapeCast S64 (extractStridedSlice S1x64 ![0, 0] t slices_S3x64_S1x64_0_0) shapeCasts_S1x64_S64) = tableRow t 0 :=
  rowOf_slice t 0 ![0, 0] rfl rfl _ _
theorem spell_tableRow3_1 (t : Mat 3 64) :
    rowOf (shapeCast S64 (extractStridedSlice S1x64 ![1, 0] t slices_S3x64_S1x64_1_0) shapeCasts_S1x64_S64) = tableRow t 1 :=
  rowOf_slice t 1 ![1, 0] rfl rfl _ _
theorem spell_tableRow3_2 (t : Mat 3 64) :
    rowOf (shapeCast S64 (extractStridedSlice S1x64 ![2, 0] t slices_S3x64_S1x64_2_0) shapeCasts_S1x64_S64) = tableRow t 2 :=
  rowOf_slice t 2 ![2, 0] rfl rfl _ _

theorem spell_tableRow4_0 (t : Mat 4 64) :
    rowOf (shapeCast S64 (extractStridedSlice S1x64 ![0, 0] t slices_S4x64_S1x64_0_0) shapeCasts_S1x64_S64) = tableRow t 0 :=
  rowOf_slice t 0 ![0, 0] rfl rfl _ _
theorem spell_tableRow4_1 (t : Mat 4 64) :
    rowOf (shapeCast S64 (extractStridedSlice S1x64 ![1, 0] t slices_S4x64_S1x64_1_0) shapeCasts_S1x64_S64) = tableRow t 1 :=
  rowOf_slice t 1 ![1, 0] rfl rfl _ _
theorem spell_tableRow4_2 (t : Mat 4 64) :
    rowOf (shapeCast S64 (extractStridedSlice S1x64 ![2, 0] t slices_S4x64_S1x64_2_0) shapeCasts_S1x64_S64) = tableRow t 2 :=
  rowOf_slice t 2 ![2, 0] rfl rfl _ _
theorem spell_tableRow4_3 (t : Mat 4 64) :
    rowOf (shapeCast S64 (extractStridedSlice S1x64 ![3, 0] t slices_S4x64_S1x64_3_0) shapeCasts_S1x64_S64) = tableRow t 3 :=
  rowOf_slice t 3 ![3, 0] rfl rfl _ _

/-! ## The attention gate

  The gate joins h and the neighbour mean side by side, runs a two-layer perceptron to one column, applies the logistic
  function spelt as 1 / (1 + exp (-z)), broadcasts the column along the rows, multiplies by the neighbour mean and adds h. -/

/-- Two 64-column arrays concatenated along the columns: column k < 64 comes from the first, column k ≥ 64 from the
    second at k - 64. -/
theorem spell_joinCols (h nb : Mat 100000 64) :
    concatenate S100000x128 1 [⟨S100000x64, h⟩, ⟨S100000x64, nb⟩] concatenates_S100000x64_S100000x64_S100000x128_d1
      = joinCols h nb := by
  funext i
  obtain ⟨p, k, rfl⟩ : ∃ (p : Fin 100000) (k : Fin 128), i = ix2 p k := ⟨i 0, i 1, eq_ix2 i⟩
  by_cases hk : k.val < 64
  · rw [joinCols_left _ _ _ _ hk]
    exact Cert.LibConcatCols.concat_cols_left h nb _ p ⟨k.val, hk⟩ k rfl
  · rw [joinCols_right _ _ _ _ hk]
    exact Cert.LibConcatCols.concat_cols_right h nb _ p ⟨k.val - 64, by have := k.isLt; omega⟩ k (by show k.val = 64 + (k.val - 64); omega)

/-- 1 / (1 + exp (-z)) with both ones the literal 1.0 broadcast to a column is the logistic function of each entry. -/
theorem spell_logistic (z : Mat 100000 1) :
    Host.divf (F := Ideal) (broadcastInDim S100000x1 ![] bcast_S_S100000x1 (constant (F := Ideal) S_ .f32 0x3F800000#32))
        (addf (broadcastInDim S100000x1 ![] bcast_S_S100000x1 (constant (F := Ideal) S_ .f32 0x3F800000#32))
          (Host.exp (F := Ideal) (Host.negf (F := Ideal) z)))
      = fun i => Ideal.logistic (z i) := by
  funext i
  rw [hostDivf_apply, addf_apply, Cert.LibJoinedRows.bcast_scalar_apply, constant_apply, Ideal.ofBits_one_f32]
  rfl

theorem spell_attn (h nb : Mat 100000 64) (W1 : Mat 128 64) (b1 : V 64) (W2 : Mat 64 1) (b2 : V 1) :
    addf h
        (mulf
          (broadcastInDim S100000x64 ![0, 1] bcast_S100000x1_S100000x64_0_1
            (Host.divf (F := Ideal) (broadcastInDim S100000x1 ![] bcast_S_S100000x1 (constant (F := Ideal) S_ .f32 0x3F800000#32))
              (addf (broadcastInDim S100000x1 ![] bcast_S_S100000x1 (constant (F := Ideal) S_ .f32 0x3F800000#32))
                (Host.exp (F := Ideal) (Host.negf (F := Ideal)
                  (addf
                    (Host.dotGeneral dot_S100000x64_S64x1_S100000x1_1_0_0_1_n_n none
                      (maximumf
                        (addf
                          (Host.dotGeneral dot_S100000x128_S128x64_S100000x64_1_0_0_1_n_n none
                            (concatenate S100000x128 1 [⟨S100000x64, h⟩, ⟨S100000x64, nb⟩]
                              concatenates_S100000x64_S100000x64_S100000x128_d1)
                            W1)
                          (broadcastInDim S100000x64 ![0, 1] bcast_S1x64_S100000x64_0_1 (broadcastInDim S1x64 ![1] bcast_S64_S1x64_1 b1)))
                        (broadcastInDim S100000x64 ![] bcast_S_S100000x64 (constant (F := Ideal) S_ .f32 0x00000000#32)))
                      W2)
                    (broadcastInDim S100000x1 ![0, 1] bcast_S1x1_S100000x1_0_1 (broadcastInDim S1x1 ![1] bcast_S1_S1x1_1 b2))))))))
          nb)
      = attn h nb W1 (rowOf b1) W2 (rowOf b2) := by
  rw [spell_joinCols, spell_dense_relu_128_64, spell_dense_64_1, spell_logistic]
  funext i
  obtain ⟨p, q, rfl⟩ : ∃ (p : Fin 100000) (q : Fin 64), i = ix2 p q := ⟨i 0, i 1, eq_ix2 i⟩
  rw [attn_apply, gate_apply, addf_apply, mulf_apply, Cert.LibJoinedRows.bcast_col_rows_apply]

end Cert.Spec

end
-- ==== Proof.LibVariance.lean ====
import Idealize.ShloMosaic.PureOps.Ideal
import Mathlib.Tactic.FieldSimp
import Mathlib.Tactic.Ring
import Mathlib.Tactic.NormNum

/-!
# The two forms of a population variance agree on real samples

For samples `f r` that are all real numbers and a count `N` equal to the number of samples,
the mean of the squares minus the square of the mean is the mean of the squared deviations
from the mean:  `(Σ f²)/N − ((Σ f)/N)² = (Σ (f − (Σ f)/N)²)/N`.
On the extended reals the two sides differ when a sample is infinite, so the hypothesis that
every sample is real is needed.  Division is the extended-real division `Ideal.div`; by a nonzero
real it is the product with the reciprocal.
-/

namespace Cert.LibVariance

open Idealize.ShloMosaic

/-- The coercion of reals into the extended reals commutes with finite sums. -/
theorem coe_finset_sum {ι : Type*} (s : Finset ι) (x : ι → ℝ) :
    (∑ r ∈ s, ((x r : ℝ) : EReal)) = ((∑ r ∈ s, x r : ℝ) : EReal) := by
  classical
  induction s using Finset.induction_on with
  | empty => simp
  | insert a s ha ih => rw [Finset.sum_insert ha, Finset.sum_insert ha, ih, EReal.coe_add]

/-- The real identity: with `m = s/N` the mean of `N` samples,
    `(Σ x²)/N − m² = (Σ (x − m)²)/N`. -/
theorem real_variance {n : ℕ} (x : Fin n → ℝ) (N : ℝ) (hN : N = (n : ℝ)) (hn : N ≠ 0) (m : ℝ)
    (hm : m = (∑ r, x r) * (1 / N)) :
    (∑ r, x r * x r) * (1 / N) - m * m = (∑ r, (x r - m) * (x r - m)) * (1 / N) := by
  have hs : (∑ r, x r) = N * m := by rw [hm]; field_simp
  have hsq : ∀ r, (x r - m) * (x r - m) = x r * x r - 2 * m * x r + m * m := fun r => by ring
  have hsum : (∑ r, (x r - m) * (x r - m)) = (∑ r, x r * x r) - 2 * m * (∑ r, x r) + N * (m * m) := by
    simp only [hsq, Finset.sum_add_distrib, Finset.sum_sub_distrib, ← Finset.mul_sum,
      Finset.sum_const, Finset.card_univ, Fintype.card_fin, nsmul_eq_mul, hN]
    ring
  rw [hsum, hs]
  field_simp
  ring

/-- The mean of the squares minus the square of the mean is the mean of the squared deviations,
    for real samples and `N` the (nonzero) number of samples. -/
theorem variance_law {n : ℕ} (f : Fin n → EReal) (hf : ∀ r, ∃ x : ℝ, f r = (x : EReal)) (N : ℝ) (hN : N = (n : ℝ)) (hn : N ≠ 0) :
    Ideal.div (∑ r, f r * f r) (N : EReal) - Ideal.div (∑ r, f r) (N : EReal) * Ideal.div (∑ r, f r) (N : EReal)
      = Ideal.div (∑ r, (f r - Ideal.div (∑ r, f r) (N : EReal)) * (f r - Ideal.div (∑ r, f r) (N : EReal))) (N : EReal) := by
  choose x hx using hf
  obtain rfl : f = fun r => ((x r : ℝ) : EReal) := funext hx
  simp only [Ideal.div_coe hn]
  -- the sum of the samples and the mean, as reals
  have h1 : (∑ r, ((x r : ℝ) : EReal)) = ((∑ r, x r : ℝ) : EReal) := coe_finset_sum _ _
  rw [h1]
  obtain ⟨m, hm⟩ : ∃ m : ℝ, m = (∑ r, x r) * (1 / N) := ⟨_, rfl⟩
  have hmE : ((∑ r, x r : ℝ) : EReal) * ((1 / N : ℝ) : EReal) = (m : EReal) := by
    rw [hm, EReal.coe_mul]
  rw [hmE]
  -- the sum of the squares and the sum of the squared deviations, as reals
  have h2 : (∑ r, ((x r : ℝ) : EReal) * ((x r : ℝ) : EReal)) = ((∑ r, x r * x r : ℝ) : EReal) := by
    simp only [← EReal.coe_mul]; exact coe_finset_sum _ _
  have h3 : (∑ r, (((x r : ℝ) : EReal) - (m : EReal)) * (((x r : ℝ) : EReal) - (m : EReal)))
      = ((∑ r, (x r - m) * (x r - m) : ℝ) : EReal) := by
    simp only [← EReal.coe_sub, ← EReal.coe_mul]; exact coe_finset_sum _ _
  rw [h2, h3, ← EReal.coe_mul, ← EReal.coe_mul, ← EReal.coe_mul, ← EReal.coe_sub]
  exact congrArg _ (real_variance x N hN hn m hm)

/-- The single-precision word `0x47C35000` is the number 100000. -/
theorem ofBits_1e5 : Ideal.ofBits .f32 0x47C35000#32 = ((100000 : ℝ) : EReal) := by
  simp [Ideal.ofBits, Ideal.ieee, -EReal.coe_mul]; norm_num

end Cert.LibVariance
-- ==== Proof.RefSpellNorm.lean ====
/-
  The plain program's column statistics and normalisation are the network's.

  The mean of a [100000, 64] array over its rows is the host's sum over axis 0 from the zero literal (0 + Σ_r y(r, q) at
  column q) divided by the count literal 100000.0; the program spells it once as a vector and once, inside its variance
  function, as a one-row array.  The variance function subtracts that row broadcast down the rows, squares, sums over the
  rows again and divides by the count minus a converted integer zero; its guard compares that difference with zero and
  selects the quotient, because 100000 - 0 = 100000 > 0.  That is the two-pass variance: the mean of the squared
  deviations from the mean.  The normalisation (y - mean) · rsqrt (var + eps) · gamma + beta broadcasts each vector to a
  row and down the rows, so entry (p, q) reads entry q of each vector; the clamp is the maximum with a broadcast zero.
-/
import Idealize.ShloMosaic.Lib.IdealHost
import proofs.«130402_j14499809591446_2_alg».proof.Proof.RefSpellDense
import proofs.«130402_j14499809591446_2_alg».proof.Proof.LibVariance

noncomputable section

namespace Cert.Spec

open Idealize.ShloMosaic Idealize.ShloMosaic.ValueIdx Cert.LibTileOps Cert.Net Cert.ReferenceIdeal
open scoped BigOperators

-- the printed program's shape facts, which its records and every broadcast / reduce / slice cite
variable [Facts₀]
open Facts₀

/-! ## Column statistics

  The host sums a [100000, 64] array down its rows (a reduce over axis 0 started from the zero literal), and divides by
  the row count 100000.0 broadcast to the result's shape.  Column q of the sum is 0 + Σ_r y(r, q). -/

/-- The host's sum over the rows, at column q. -/
theorem colSum_apply (y : Mat 100000 64) (q : Fin 64) :
    Host.reduceAdd (F := Ideal) y (constant (F := Ideal) S_ .f32 0x00000000#32) reducesTo_S100000x64_S64_d0 h_S_ (ix1 q)
      = ∑ r : Fin 100000, y (ix2 r q) := by
  rw [hostReduceAdd_apply, Ideal.hostReduceAdd_single reducesTo_S100000x64_S64_d0 (by decide : S100000x64.Reduces [0] S64),
    constant_apply, Ideal.ofBits_zero_f32, zero_add]
  refine Finset.sum_congr rfl fun k _ => congrArg y ?_
  funext ax; apply Fin.ext
  match ax with
  | ⟨0, _⟩ => rfl
  | ⟨1, _⟩ => rfl

/-- The mean as the program's main body spells it: the column sums divided by the count broadcast to a vector, read
    along a row. -/
theorem spell_meanRow (y : Mat 100000 64) :
    rowOf (Host.divf (F := Ideal)
        (Host.reduceAdd (F := Ideal) y (constant (F := Ideal) S_ .f32 0x00000000#32) reducesTo_S100000x64_S64_d0 h_S_)
        (broadcastInDim S64 ![] bcast_S_S64 (constant (F := Ideal) S_ .f32 0x47C35000#32)))
      = meanRow y := by
  funext j
  obtain ⟨u, q, rfl⟩ : ∃ (u : Fin 1) (q : Fin 64), j = ix2 u q := ⟨j 0, j 1, eq_ix2 j⟩
  rw [rowOf_apply, hostDivf_apply, colSum_apply, Cert.LibJoinedRows.bcast_scalar_apply, constant_apply]; rfl

/-- The mean as the variance function spells it: the column sums kept as one row, divided by the count broadcast to a
    row. -/
theorem spell_meanRow_keepdims (y : Mat 100000 64) :
    Host.divf (F := Ideal)
        (broadcastInDim S1x64 ![1] bcast_S64_S1x64_1
          (Host.reduceAdd (F := Ideal) y (constant (F := Ideal) S_ .f32 0x00000000#32) reducesTo_S100000x64_S64_d0 h_S_))
        (broadcastInDim S1x64 ![] bcast_S_S1x64 (constant (F := Ideal) S_ .f32 0x47C35000#32))
      = meanRow y := by
  funext j
  obtain ⟨u, q, rfl⟩ : ∃ (u : Fin 1) (q : Fin 64), j = ix2 u q := ⟨j 0, j 1, eq_ix2 j⟩
  rw [hostDivf_apply, Cert.LibRowBcast.bcast_vec_row_apply, colSum_apply, Cert.LibJoinedRows.bcast_scalar_apply, constant_apply]; rfl

/-- The integer zero converted to a float is zero, so the count minus it is the count. -/
theorem count_sub_zero :
    subf (constant (F := Ideal) S_ .f32 0x47C35000#32) (sitofp .f32 (constantI S_ 32 0#32))
      = constant (F := Ideal) S_ .f32 0x47C35000#32 := by
  funext i
  rw [subf_apply, sitofp_apply, constant_apply]
  show Ideal.ofBits .f32 0x47C35000#32 - (((0#32 : BitVec 32).toInt : ℝ) : EReal) = _
  simp

/-- The count is positive: the comparison the variance function's guard makes is true. -/
theorem count_pos :
    cmpf .ogt (constant (F := Ideal) S_ .f32 0x47C35000#32) (constant (F := Ideal) S_ .f32 0x00000000#32) ix0 = 1#1 := by
  rw [cmpf_apply, constant_apply, constant_apply, Cert.LibVariance.ofBits_1e5, Ideal.ofBits_zero_f32]
  show Ideal.cmp .ogt _ _ = _
  simp [Ideal.cmp]

/-- The variance function's whole body, read along a row: the deviations from the (keepdims) mean broadcast down the
    rows, squared, summed over the rows, divided by the count minus the converted integer zero; the guard "count minus
    zero is positive" holds, so the selection takes the quotient and never the not-a-number word. -/
theorem spell_varTwoPass (y : Mat 100000 64) :
    rowOf (select
        (broadcastInDim S64 ![] bcast_S_S64
          (cmpf .ogt (subf (constant (F := Ideal) S_ .f32 0x47C35000#32) (sitofp .f32 (constantI S_ 32 0#32)))
            (constant (F := Ideal) S_ .f32 0x00000000#32)))
        (Host.divf (F := Ideal)
          (Host.reduceAdd (F := Ideal)
            (mulf
              (subf y (broadcastInDim S100000x64 ![0, 1] bcast_S1x64_S100000x64_0_1
                (Host.divf (F := Ideal)
                  (broadcastInDim S1x64 ![1] bcast_S64_S1x64_1
                    (Host.reduceAdd (F := Ideal) y (constant (F := Ideal) S_ .f32 0x00000000#32) reducesTo_S100000x64_S64_d0 h_S_))
                  (broadcastInDim S1x64 ![] bcast_S_S1x64 (constant (F := Ideal) S_ .f32 0x47C35000#32)))))
              (subf y (broadcastInDim S100000x64 ![0, 1] bcast_S1x64_S100000x64_0_1
                (Host.divf (F := Ideal)
                  (broadcastInDim S1x64 ![1] bcast_S64_S1x64_1
                    (Host.reduceAdd (F := Ideal) y (constant (F := Ideal) S_ .f32 0x00000000#32) reducesTo_S100000x64_S64_d0 h_S_))
                  (broadcastInDim S1x64 ![] bcast_S_S1x64 (constant (F := Ideal) S_ .f32 0x47C35000#32))))))
            (constant (F := Ideal) S_ .f32 0x00000000#32) reducesTo_S100000x64_S64_d0 h_S_)
          (broadcastInDim S64 ![] bcast_S_S64
            (subf (constant (F := Ideal) S_ .f32 0x47C35000#32) (sitofp .f32 (constantI S_ 32 0#32)))))
        (broadcastInDim S64 ![] bcast_S_S64 (id (constant (F := Ideal) S_ .f32 0x7FC00000#32))))
      = varTwoPass y := by
  rw [count_sub_zero, spell_meanRow_keepdims]
  funext j
  obtain ⟨u, q, rfl⟩ : ∃ (u : Fin 1) (q : Fin 64), j = ix2 u q := ⟨j 0, j 1, eq_ix2 j⟩
  rw [rowOf_apply, select_apply, Cert.LibJoinedRows.bcast_scalar_apply, count_pos, select_one, hostDivf_apply, colSum_apply,
    Cert.LibJoinedRows.bcast_scalar_apply, constant_apply]
  simp only [mulf_apply, subf_apply, Cert.LibRowBcast.bcast_row_rows_apply]
  rfl

/-! ## The normalisation

  (y - mean) * rsqrt (var + eps) * gamma + beta, every one-column-vector operand broadcast to a row and then down the
  rows; then (plus the residual and) the maximum with the zero literal broadcast to the whole array.  Entry (p, q) uses
  only entry q of each vector. -/

/-- A vector broadcast to a row and then down the rows reads its entry q in column q. -/
theorem bcast2_apply (v : V 64) (p : Fin 100000) (q : Fin 64) :
    broadcastInDim S100000x64 ![0, 1] bcast_S1x64_S100000x64_0_1 (broadcastInDim S1x64 ![1] bcast_S64_S1x64_1 v) (ix2 p q)
      = v (ix1 q) :=
  Cert.LibRowBcast.bcast_vec_rows_apply _ _ v p q

theorem spell_bnAffine (y : Mat 100000 64) (mu var g bt : V 64) :
    addf
        (mulf
          (mulf
            (subf y (broadcastInDim S100000x64 ![0, 1] bcast_S1x64_S100000x64_0_1 (broadcastInDim S1x64 ![1] bcast_S64_S1x64_1 mu)))
            (broadcastInDim S100000x64 ![0, 1] bcast_S1x64_S100000x64_0_1 (broadcastInDim S1x64 ![1] bcast_S64_S1x64_1
              (Host.rsqrt (F := Ideal)
                (addf var (broadcastInDim S64 ![] bcast_S_S64 (constant (F := Ideal) S_ .f32 0x3727C5AC#32)))))))
          (broadcastInDim S100000x64 ![0, 1] bcast_S1x64_S100000x64_0_1 (broadcastInDim S1x64 ![1] bcast_S64_S1x64_1 g)))
        (broadcastInDim S100000x64 ![0, 1] bcast_S1x64_S100000x64_0_1 (broadcastInDim S1x64 ![1] bcast_S64_S1x64_1 bt))
      = bnAffine y (rowOf g) (rowOf bt) (rowOf mu) (rowOf var) := by
  funext i
  obtain ⟨p, q, rfl⟩ : ∃ (p : Fin 100000) (q : Fin 64), i = ix2 p q := ⟨i 0, i 1, eq_ix2 i⟩
  rw [bnAffine_apply, addf_apply, mulf_apply, mulf_apply, subf_apply, bcast2_apply, bcast2_apply, bcast2_apply, bcast2_apply]
  rfl

theorem spell_bnRelu (y : Mat 100000 64) (mu var g bt : V 64) :
    maximumf
        (addf
          (mulf
            (mulf
              (subf y (broadcastInDim S100000x64 ![0, 1] bcast_S1x64_S100000x64_0_1 (broadcastInDim S1x64 ![1] bcast_S64_S1x64_1 mu)))
              (broadcastInDim S100000x64 ![0, 1] bcast_S1x64_S100000x64_0_1 (broadcastInDim S1x64 ![1] bcast_S64_S1x64_1
                (Host.rsqrt (F := Ideal)
                  (addf var (broadcastInDim S64 ![] bcast_S_S64 (constant (F := Ideal) S_ .f32 0x3727C5AC#32)))))))
            (broadcastInDim S100000x64 ![0, 1] bcast_S1x64_S100000x64_0_1 (broadcastInDim S1x64 ![1] bcast_S64_S1x64_1 g)))
          (broadcastInDim S100000x64 ![0, 1] bcast_S1x64_S100000x64_0_1 (broadcastInDim S1x64 ![1] bcast_S64_S1x64_1 bt)))
        (broadcastInDim S100000x64 ![] bcast_S_S100000x64 (constant (F := Ideal) S_ .f32 0x00000000#32))
      = bnRelu y (rowOf g) (rowOf bt) (rowOf mu) (rowOf var) := by
  rw [spell_bnAffine]
  funext i
  rw [maximumf_apply, Cert.LibJoinedRows.bcast_scalar_apply, constant_apply]
  rfl

theorem spell_bnResRelu (y : Mat 100000 64) (mu var g bt : V 64) (h : Mat 100000 64) :
    maximumf
        (addf
          (addf
            (mulf
              (mulf
                (subf y (broadcastInDim S100000x64 ![0, 1] bcast_S1x64_S100000x64_0_1 (broadcastInDim S1x64 ![1] bcast_S64_S1x64_1 mu)))
                (broadcastInDim S100000x64 ![0, 1] bcast_S1x64_S100000x64_0_1 (broadcastInDim S1x64 ![1] bcast_S64_S1x64_1
                  (Host.rsqrt (F := Ideal)
                    (addf var (broadcastInDim S64 ![] bcast_S_S64 (constant (F := Ideal) S_ .f32 0x3727C5AC#32)))))))
              (broadcastInDim S100000x64 ![0, 1] bcast_S1x64_S100000x64_0_1 (broadcastInDim S1x64 ![1] bcast_S64_S1x64_1 g)))
            (broadcastInDim S100000x64 ![0, 1] bcast_S1x64_S100000x64_0_1 (broadcastInDim S1x64 ![1] bcast_S64_S1x64_1 bt)))
          h)
        (broadcastInDim S100000x64 ![] bcast_S_S100000x64 (constant (F := Ideal) S_ .f32 0x00000000#32))
      = bnResRelu y (rowOf g) (rowOf bt) (rowOf mu) (rowOf var) h := by
  rw [spell_bnAffine]
  funext i
  rw [maximumf_apply, addf_apply, Cert.LibJoinedRows.bcast_scalar_apply, constant_apply]
  rfl

end Cert.Spec

end
-- ==== Proof.RefSpellEdge.lean ====
/-
  The plain program's edge-indexed chains are the network's.

  A vector broadcast to one column and then along the rows multiplies, or divides, row p of an array by its entry p.  The
  clamped degree, its power -1/2, and the gather of rows by the wrapped source numbers followed by the scatter with
  addition at the destination numbers are printed exactly as the network's definitions spell them, so those equations
  hold by unfolding the definitions.
-/
import Idealize.ShloMosaic.Lib.IdealHost
import proofs.«130402_j14499809591446_2_alg».proof.Proof.Spec

noncomputable section

namespace Cert.Spec

open Idealize.ShloMosaic Idealize.ShloMosaic.ValueIdx Cert.LibTileOps Cert.Net Cert.ReferenceIdeal
open scoped BigOperators

-- the printed program's shape facts, which its records and every broadcast / reduce / slice cite
variable [Facts₀]
open Facts₀

/-! ## The edge-indexed chains

  A vector n broadcast to one column and then along the rows multiplies (or divides) row p by n(p).  The gather by the
  wrapped source numbers followed by the scatter with addition by the destination numbers is carried unopened: the plain
  program prints it exactly as segSum spells it. -/

section Edge
variable {B : ℕ}

/-- Row p multiplied by entry p of a vector, as the host spells it. -/
theorem scaleVec_generic (h1 : (⟨1, ![100000]⟩ : Shape).BroadcastsInDim ⟨2, ![100000, 1]⟩ (![0] : Fin 1 → Fin 2))
    (h2 : (⟨2, ![100000, 1]⟩ : Shape).BroadcastsInDim ⟨2, ![100000, B]⟩ (![0, 1] : Fin 2 → Fin 2))
    (x : Mat 100000 B) (n : V 100000) :
    mulf x (broadcastInDim ⟨2, ![100000, B]⟩ ![0, 1] h2 (broadcastInDim ⟨2, ![100000, 1]⟩ ![0] h1 n)) = scaleVec x n := by
  funext i
  obtain ⟨p, q, rfl⟩ : ∃ (p : Fin 100000) (q : Fin B), i = ix2 p q := ⟨i 0, i 1, eq_ix2 i⟩
  rw [mulf_apply, Cert.LibJoinedRows.bcast_col_rows_apply, Cert.LibJoinedRows.bcast_vec_col_apply]; rfl

/-- Row p divided by entry p of a vector, as the host spells it. -/
theorem divVec_generic (h1 : (⟨1, ![100000]⟩ : Shape).BroadcastsInDim ⟨2, ![100000, 1]⟩ (![0] : Fin 1 → Fin 2))
    (h2 : (⟨2, ![100000, 1]⟩ : Shape).BroadcastsInDim ⟨2, ![100000, B]⟩ (![0, 1] : Fin 2 → Fin 2))
    (x : Mat 100000 B) (n : V 100000) :
    Host.divf (F := Ideal) x (broadcastInDim ⟨2, ![100000, B]⟩ ![0, 1] h2 (broadcastInDim ⟨2, ![100000, 1]⟩ ![0] h1 n))
      = divVec x n := by
  funext i
  obtain ⟨p, q, rfl⟩ : ∃ (p : Fin 100000) (q : Fin B), i = ix2 p q := ⟨i 0, i 1, eq_ix2 i⟩
  rw [hostDivf_apply, Cert.LibJoinedRows.bcast_col_rows_apply, Cert.LibJoinedRows.bcast_vec_col_apply]; rfl

end Edge

theorem spell_scaleVec64 (x : Mat 100000 64) (n : V 100000) :
    mulf x (broadcastInDim S100000x64 ![0, 1] bcast_S100000x1_S100000x64_0_1 (broadcastInDim S100000x1 ![0] bcast_S100000_S100000x1_0 n))
      = scaleVec x n := scaleVec_generic _ _ x n

theorem spell_scaleVec128 (x : Mat 100000 128) (n : V 100000) :
    mulf x (broadcastInDim S100000x128 ![0, 1] bcast_S100000x1_S100000x128_0_1 (broadcastInDim S100000x1 ![0] bcast_S100000_S100000x1_0 n))
      = scaleVec x n := scaleVec_generic _ _ x n

theorem spell_divVec64 (x : Mat 100000 64) (n : V 100000) :
    Host.divf (F := Ideal) x
        (broadcastInDim S100000x64 ![0, 1] bcast_S100000x1_S100000x64_0_1 (broadcastInDim S100000x1 ![0] bcast_S100000_S100000x1_0 n))
      = divVec x n := divVec_generic _ _ x n

/-- The clamped degree as printed: the maximum of the literal 1.0 (converted f32 to f32, the identity) broadcast to a
    vector with the scatter-add of ones at the row numbers. -/
theorem spell_deg (a : EdgeIdx) :
    maximumf (broadcastInDim S100000 ![] bcast_S_S100000 (id (constant (F := Ideal) S_ .f32 0x3F800000#32)))
        (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 a)
          (broadcastInDim S1600000 ![] bcast_S_S1600000 (constant (F := Ideal) S_ .f32 0x3F800000#32)))
      = deg a := rfl

theorem spell_nrm (d : V 100000) :
    Host.powf (F := Ideal) d (broadcastInDim S100000 ![] bcast_S_S100000 (constant (F := Ideal) S_ .f32 0xBF000000#32)) = nrm d := rfl

/-- The gather of rows by the wrapped source numbers, scattered with addition to the destination rows. -/
theorem spell_segSum64 (src dst : EdgeIdx) (x : Mat 100000 64) :
    Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 dst)
        (Host.gather gather_S100000x64_S1600000x1_S1600000x64_1_0_n_n_0_1_164 x
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src)))
      = segSum64 src dst x := rfl

theorem spell_segSum128 (src dst : EdgeIdx) (x : Mat 100000 128) :
    Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dst)
        (Host.gather gather_S100000x128_S1600000x1_S1600000x128_1_0_n_n_0_1_1128 x
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src)))
      = segSum128 src dst x := rfl

/-- The symmetric-normalised aggregation as printed, with any two scaling vectors. -/
theorem spell_scaled_segSum64 (src dst : EdgeIdx) (x : Mat 100000 64) (n1 n2 : V 100000) :
    mulf
        (Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 dst)
          (Host.gather gather_S100000x64_S1600000x1_S1600000x64_1_0_n_n_0_1_164
            (mulf x (broadcastInDim S100000x64 ![0, 1] bcast_S100000x1_S100000x64_0_1
              (broadcastInDim S100000x1 ![0] bcast_S100000_S100000x1_0 n1)))
            (broadcastInDim S1600000x1 ![0] bcast_S1600000_S1600000x1_0
              (select (cmpi .slt src (broadcastInDim S1600000 ![] bcast_S_S1600000 (constantI S_ 32 0#32)))
                (addi src (broadcastInDim S1600000 ![] bcast_S_S1600000 (constantI S_ 32 100000#32))) src))))
        (broadcastInDim S100000x64 ![0, 1] bcast_S100000x1_S100000x64_0_1 (broadcastInDim S100000x1 ![0] bcast_S100000_S100000x1_0 n2))
      = scaleVec (segSum64 src dst (scaleVec x n1)) n2 := by
  rw [spell_scaleVec64 x n1, spell_segSum64, spell_scaleVec64]

theorem spell_scaled_segSum128 (src dst : EdgeIdx) (x : Mat 100000 128) (n1 n2 : V 100000) :
    mulf
        (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 dst)
          (Host.gather gather_S100000x128_S1600000x1_S1600000x128_1_0_n_n_0_1_1128
            (mulf x (broadcastInDim S100000x128 ![0, 1] bcast_S100000x1_S100000x128_0_1
              (broadcastInDim S100000x1 ![0] bcast_S100000_S100000x1_0 n1)))
            (broadcastInDim S1600000x1 ![0] bcast_S1600000_S1600000x1_0
              (select (cmpi .slt src (broadcastInDim S1600000 ![] bcast_S_S1600000 (constantI S_ 32 0#32)))
                (addi src (broadcastInDim S1600000 ![] bcast_S_S1600000 (constantI S_ 32 100000#32))) src))))
        (broadcastInDim S100000x128 ![0, 1] bcast_S100000x1_S100000x128_0_1 (broadcastInDim S100000x1 ![0] bcast_S100000_S100000x1_0 n2))
      = scaleVec (segSum128 src dst (scaleVec x n1)) n2 := by
  rw [spell_scaleVec128 x n1, spell_segSum128, spell_scaleVec128]

/-- With the two vectors the normalised out- and in-degrees, that is the aggregation. -/
theorem spell_aggregate64 (src dst : EdgeIdx) (x : Mat 100000 64) :
    scaleVec (segSum64 src dst (scaleVec x (nrm (deg src)))) (nrm (deg dst)) = aggregate64 src dst x := rfl

theorem spell_aggregate128 (src dst : EdgeIdx) (x : Mat 100000 128) :
    scaleVec (segSum128 src dst (scaleVec x (nrm (deg src)))) (nrm (deg dst)) = aggregate128 src dst x := rfl

/-- The mean of the incoming neighbours as printed: the segment sum divided by the in-degree broadcast along the rows. -/
theorem spell_nbMean (src dst : EdgeIdx) (x : Mat 100000 64) (d : V 100000) :
    Host.divf (F := Ideal)
        (Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 dst)
          (Host.gather gather_S100000x64_S1600000x1_S1600000x64_1_0_n_n_0_1_164 x
            (broadcastInDim S1600000x1 ![0] bcast_S1600000_S1600000x1_0
              (select (cmpi .slt src (broadcastInDim S1600000 ![] bcast_S_S1600000 (constantI S_ 32 0#32)))
                (addi src (broadcastInDim S1600000 ![] bcast_S_S1600000 (constantI S_ 32 100000#32))) src))))
        (broadcastInDim S100000x64 ![0, 1] bcast_S100000x1_S100000x64_0_1 (broadcastInDim S100000x1 ![0] bcast_S100000_S100000x1_0 d))
      = divVec (segSum64 src dst x) d := by
  rw [spell_segSum64, spell_divVec64]

end Cert.Spec

end
-- ==== Proof.RefSpell.lean ====
/-
  The plain program's layers are the network's layers.

  Each statement takes the previous layer's output as an arbitrary array and spells one stage exactly as the plain program
  prints it, the degree vectors and the column statistics included, and identifies it with the network's entry-by-entry
  stage: the aggregation followed by the linear map; the normalisation by the mean and two-pass variance of the array being
  normalised, with or without the residual; the gate applied to h and the mean of its incoming neighbours; the last layer
  fused with the classifier.
-/
import proofs.«130402_j14499809591446_2_alg».proof.Proof.RefSpellDense
import proofs.«130402_j14499809591446_2_alg».proof.Proof.RefSpellNorm
import proofs.«130402_j14499809591446_2_alg».proof.Proof.RefSpellEdge

noncomputable section

namespace Cert.Spec

open Idealize.ShloMosaic Idealize.ShloMosaic.ValueIdx Cert.LibTileOps Cert.Net Cert.ReferenceIdeal
open scoped BigOperators

-- the printed program's shape facts, which its records and every broadcast / reduce / slice cite
variable [Facts₀]
open Facts₀

/-! ## The normalisation with the statistics of its own operand -/

/-- Layer 0's normalisation: the mean and the two-pass variance are those of the array being normalised. -/
theorem spell_bnRelu_stats (y : Mat 100000 64) (g bt : V 64) :
    maximumf (addf (mulf (mulf (subf y (broadcastInDim S100000x64 ![0, 1] bcast_S1x64_S100000x64_0_1 (broadcastInDim S1x64 ![1] bcast_S64_S1x64_1 (Host.divf (F := Ideal) (Host.reduceAdd (F := Ideal) y (constant (F := Ideal) S_ .f32 0x00000000#32) reducesTo_S100000x64_S64_d0 h_S_) (broadcastInDim S64 ![] bcast_S_S64 (constant (F := Ideal) S_ .f32 0x47C35000#32)))))) (broadcastInDim S100000x64 ![0, 1] bcast_S1x64_S100000x64_0_1 (broadcastInDim S1x64 ![1] bcast_S64_S1x64_1 (Host.rsqrt (F := Ideal) (addf (select (broadcastInDim S64 ![] bcast_S_S64 (cmpf .ogt (subf (constant (F := Ideal) S_ .f32 0x47C35000#32) (sitofp .f32 (constantI S_ 32 0#32))) (constant (F := Ideal) S_ .f32 0x00000000#32))) (Host.divf (F := Ideal) (Host.reduceAdd (F := Ideal) (mulf (subf y (broadcastInDim S100000x64 ![0, 1] bcast_S1x64_S100000x64_0_1 (Host.divf (F := Ideal) (broadcastInDim S1x64 ![1] bcast_S64_S1x64_1 (Host.reduceAdd (F := Ideal) y (constant (F := Ideal) S_ .f32 0x00000000#32) reducesTo_S100000x64_S64_d0 h_S_)) (broadcastInDim S1x64 ![] bcast_S_S1x64 (constant (F := Ideal) S_ .f32 0x47C35000#32))))) (subf y (broadcastInDim S100000x64 ![0, 1] bcast_S1x64_S100000x64_0_1 (Host.divf (F := Ideal) (broadcastInDim S1x64 ![1] bcast_S64_S1x64_1 (Host.reduceAdd (F := Ideal) y (constant (F := Ideal) S_ .f32 0x00000000#32) reducesTo_S100000x64_S64_d0 h_S_)) (broadcastInDim S1x64 ![] bcast_S_S1x64 (constant (F := Ideal) S_ .f32 0x47C35000#32)))))) (constant (F := Ideal) S_ .f32 0x00000000#32) reducesTo_S100000x64_S64_d0 h_S_) (broadcastInDim S64 ![] bcast_S_S64 (subf (constant (F := Ideal) S_ .f32 0x47C35000#32) (sitofp .f32 (constantI S_ 32 0#32))))) (broadcastInDim S64 ![] bcast_S_S64 (id (constant (F := Ideal) S_ .f32 0x7FC00000#32)))) (broadcastInDim S64 ![] bcast_S_S64 (constant (F := Ideal) S_ .f32 0x3727C5AC#32))))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 bt))) (broadcastInDim S100000x64 ![] bcast_S_S100000x64 (constant (F := Ideal) S_ .f32 0x00000000#32))
      = bnRelu y (rowOf g) (rowOf bt) (meanRow y) (varTwoPass y) := by
  rw [spell_bnRelu, spell_meanRow, spell_varTwoPass]

/-- Layers 1 to 3: the same plus the residual h before the clamp. -/
theorem spell_bnResRelu_stats (y : Mat 100000 64) (g bt : V 64) (h : Mat 100000 64) :
    maximumf (addf (addf (mulf (mulf (subf y (broadcastInDim S100000x64 ![0, 1] bcast_S1x64_S100000x64_0_1 (broadcastInDim S1x64 ![1] bcast_S64_S1x64_1 (Host.divf (F := Ideal) (Host.reduceAdd (F := Ideal) y (constant (F := Ideal) S_ .f32 0x00000000#32) reducesTo_S100000x64_S64_d0 h_S_) (broadcastInDim S64 ![] bcast_S_S64 (constant (F := Ideal) S_ .f32 0x47C35000#32)))))) (broadcastInDim S100000x64 ![0, 1] bcast_S1x64_S100000x64_0_1 (broadcastInDim S1x64 ![1] bcast_S64_S1x64_1 (Host.rsqrt (F := Ideal) (addf (select (broadcastInDim S64 ![] bcast_S_S64 (cmpf .ogt (subf (constant (F := Ideal) S_ .f32 0x47C35000#32) (sitofp .f32 (constantI S_ 32 0#32))) (constant (F := Ideal) S_ .f32 0x00000000#32))) (Host.divf (F := Ideal) (Host.reduceAdd (F := Ideal) (mulf (subf y (broadcastInDim S100000x64 ![0, 1] bcast_S1x64_S100000x64_0_1 (Host.divf (F := Ideal) (broadcastInDim S1x64 ![1] bcast_S64_S1x64_1 (Host.reduceAdd (F := Ideal) y (constant (F := Ideal) S_ .f32 0x00000000#32) reducesTo_S100000x64_S64_d0 h_S_)) (broadcastInDim S1x64 ![] bcast_S_S1x64 (constant (F := Ideal) S_ .f32 0x47C35000#32))))) (subf y (broadcastInDim S100000x64 ![0, 1] bcast_S1x64_S100000x64_0_1 (Host.divf (F := Ideal) (broadcastInDim S1x64 ![1] bcast_S64_S1x64_1 (Host.reduceAdd (F := Ideal) y (constant (F := Ideal) S_ .f32 0x00000000#32) reducesTo_S100000x64_S64_d0 h_S_)) (broadcastInDim S1x64 ![] bcast_S_S1x64 (constant (F := Ideal) S_ .f32 0x47C35000#32)))))) (constant (F := Ideal) S_ .f32 0x00000000#32) reducesTo_S100000x64_S64_d0 h_S_) (broadcastInDim S64 ![] bcast_S_S64 (subf (constant (F := Ideal) S_ .f32 0x47C35000#32) (sitofp .f32 (constantI S_ 32 0#32))))) (broadcastInDim S64 ![] bcast_S_S64 (id (constant (F := Ideal) S_ .f32 0x7FC00000#32)))) (broadcastInDim S64 ![] bcast_S_S64 (constant (F := Ideal) S_ .f32 0x3727C5AC#32))))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 bt))) h) (broadcastInDim S100000x64 ![] bcast_S_S100000x64 (constant (F := Ideal) S_ .f32 0x00000000#32))
      = bnResRelu y (rowOf g) (rowOf bt) (meanRow y) (varTwoPass y) h := by
  rw [spell_bnResRelu, spell_meanRow, spell_varTwoPass]

/-- The last layer with the classifier's product and bias. -/
theorem spell_classifier (y : Mat 100000 64) (g bt : V 64) (h : Mat 100000 64) (fcW : Mat 64 16) (fcb : V 16) :
    addf (Host.dotGeneral dot_S100000x64_S64x16_S100000x16_1_0_0_1_n_n none
        (maximumf (addf (addf (mulf (mulf (subf y (broadcastInDim S100000x64 ![0, 1] bcast_S1x64_S100000x64_0_1 (broadcastInDim S1x64 ![1] bcast_S64_S1x64_1 (Host.divf (F := Ideal) (Host.reduceAdd (F := Ideal) y (constant (F := Ideal) S_ .f32 0x00000000#32) reducesTo_S100000x64_S64_d0 h_S_) (broadcastInDim S64 ![] bcast_S_S64 (constant (F := Ideal) S_ .f32 0x47C35000#32)))))) (broadcastInDim S100000x64 ![0, 1] bcast_S1x64_S100000x64_0_1 (broadcastInDim S1x64 ![1] bcast_S64_S1x64_1 (Host.rsqrt (F := Ideal) (addf (select (broadcastInDim S64 ![] bcast_S_S64 (cmpf .ogt (subf (constant (F := Ideal) S_ .f32 0x47C35000#32) (sitofp .f32 (constantI S_ 32 0#32))) (constant (F := Ideal) S_ .f32 0x00000000#32))) (Host.divf (F := Ideal) (Host.reduceAdd (F := Ideal) (mulf (subf y (broadcastInDim S100000x64 ![0, 1] bcast_S1x64_S100000x64_0_1 (Host.divf (F := Ideal) (broadcastInDim S1x64 ![1] bcast_S64_S1x64_1 (Host.reduceAdd (F := Ideal) y (constant (F := Ideal) S_ .f32 0x00000000#32) reducesTo_S100000x64_S64_d0 h_S_)) (broadcastInDim S1x64 ![] bcast_S_S1x64 (constant (F := Ideal) S_ .f32 0x47C35000#32))))) (subf y (broadcastInDim S100000x64 ![0, 1] bcast_S1x64_S100000x64_0_1 (Host.divf (F := Ideal) (broadcastInDim S1x64 ![1] bcast_S64_S1x64_1 (Host.reduceAdd (F := Ideal) y (constant (F := Ideal) S_ .f32 0x00000000#32) reducesTo_S100000x64_S64_d0 h_S_)) (broadcastInDim S1x64 ![] bcast_S_S1x64 (constant (F := Ideal) S_ .f32 0x47C35000#32)))))) (constant (F := Ideal) S_ .f32 0x00000000#32) reducesTo_S100000x64_S64_d0 h_S_) (broadcastInDim S64 ![] bcast_S_S64 (subf (constant (F := Ideal) S_ .f32 0x47C35000#32) (sitofp .f32 (constantI S_ 32 0#32))))) (broadcastInDim S64 ![] bcast_S_S64 (id (constant (F := Ideal) S_ .f32 0x7FC00000#32)))) (broadcastInDim S64 ![] bcast_S_S64 (constant (F := Ideal) S_ .f32 0x3727C5AC#32))))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 bt))) h) (broadcastInDim S100000x64 ![] bcast_S_S100000x64 (constant (F := Ideal) S_ .f32 0x00000000#32))) fcW) (broadcastInDim S100000x16 ![0, 1] bcast_S1x16_S100000x16_0_1 (broadcastInDim S1x16 ![1] bcast_S16_S1x16_1 fcb))
      = classifier y (rowOf g) (rowOf bt) (meanRow y) (varTwoPass y) h fcW (rowOf fcb) := by
  rw [spell_bnResRelu_stats, spell_dense_64_16]; rfl

/-! ## A graph-convolution layer before its normalisation: the aggregation with the degrees as printed, then the linear map -/

theorem spell_y0 (h : Mat 100000 128) (src dst : EdgeIdx) (W : Mat 128 64) (b : V 64) :
    addf (Host.dotGeneral dot_S100000x128_S128x64_S100000x64_1_0_0_1_n_n none (mulf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 (mulf h (broadcastInDim S100000x128 ![0, 1] bcast_S100000x1_S100000x128_0_1 (broadcastInDim S100000x1 ![0] bcast_S100000_S100000x1_0 (Host.powf (F := Ideal) (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 src) (broadcastInDim S1600000 ![] bcast_S_S1600000 (constant (F := Ideal) S_ .f32 0x3F800000#32)))) (broadcastInDim S100000 ![] bcast_S_S100000 (constant (F := Ideal) S_ .f32 0xBF000000#32)))))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (Host.powf (F := Ideal) (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000 ![] bcast_S_S100000 (constant (F := Ideal) S_ .f32 0xBF000000#32)))))) W) (broadcastInDim S100000x64 ![0, 1] bcast_S1x64_S100000x64_0_1 (broadcastInDim S1x64 ![1] bcast_S64_S1x64_1 b))
      = linear (aggregate128 src dst h) W (rowOf b) := by
  rw [spell_deg src, spell_deg dst, spell_nrm, spell_nrm, spell_scaled_segSum128, spell_aggregate128, spell_linear128]

theorem spell_yL (hg : Mat 100000 64) (src dst : EdgeIdx) (W : Mat 64 64) (b : V 64) :
    addf (Host.dotGeneral dot_S100000x64_S64x64_S100000x64_1_0_0_1_n_n none (mulf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (Host.gather gather_S100000x64_S1600000x1_S1600000x64_1_0_n_n_0_1_164 (mulf hg (broadcastInDim S100000x64 ![0, 1] bcast_S100000x1_S100000x64_0_1 (broadcastInDim S100000x1 ![0] bcast_S100000_S100000x1_0 (Host.powf (F := Ideal) (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 src) (broadcastInDim S1600000 ![] bcast_S_S1600000 (constant (F := Ideal) S_ .f32 0x3F800000#32)))) (broadcastInDim S100000 ![] bcast_S_S100000 (constant (F := Ideal) S_ .f32 0xBF000000#32)))))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (Host.powf (F := Ideal) (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000 ![] bcast_S_S100000 (constant (F := Ideal) S_ .f32 0xBF000000#32)))))) W) (broadcastInDim S100000x64 ![0, 1] bcast_S1x64_S100000x64_0_1 (broadcastInDim S1x64 ![1] bcast_S64_S1x64_1 b))
      = linear (aggregate64 src dst hg) W (rowOf b) := by
  rw [spell_deg src, spell_deg dst, spell_nrm, spell_nrm, spell_scaled_segSum64, spell_aggregate64, spell_linear64]

/-! ## The gated input of layers 1 to 3: h plus the gate times the mean of the incoming neighbours -/

theorem spell_gated (h : Mat 100000 64) (src dst : EdgeIdx) (W1 : Mat 128 64) (b1 : V 64) (W2 : Mat 64 1) (b2 : V 1) :
    (addf h (mulf (broadcastInDim S100000x64 ![0, 1] bcast_S100000x1_S100000x64_0_1 (Host.divf (F := Ideal) (broadcastInDim S100000x1 ![] bcast_S_S100000x1 (constant (F := Ideal) S_ .f32 0x3F800000#32)) (addf (broadcastInDim S100000x1 ![] bcast_S_S100000x1 (constant (F := Ideal) S_ .f32 0x3F800000#32)) (Host.exp (F := Ideal) (Host.negf (F := Ideal) (addf (Host.dotGeneral dot_S100000x64_S64x1_S100000x1_1_0_0_1_n_n none (maximumf (addf (Host.dotGeneral dot_S100000x128_S128x64_S100000x64_1_0_0_1_n_n none (concatenate S100000x128 1 [⟨S100000x64, h⟩, ⟨S100000x64, (Host.divf (F := Ideal) (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (Host.gather gather_S100000x64_S1600000x1_S1600000x64_1_0_n_n_0_1_164 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))))))⟩] concatenates_S100000x64_S100000x64_S100000x128_d1) W1) (broadcastInDim S100000x64 ![0, 1] bcast_S1x64_S100000x64_0_1 (broadcastInDim S1x64 ![1] bcast_S64_S1x64_1 b1))) (broadcastInDim S100000x64 ![] bcast_S_S100000x64 (constant (F := Ideal) S_ .f32 0x00000000#32))) W2) (broadcastInDim S100000x1 ![0, 1] bcast_S1x1_S100000x1_0_1 (broadcastInDim S1x1 ![1] bcast_S1_S1x1_1 b2)))))))) (Host.divf (F := Ideal) (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (Host.gather gather_S100000x64_S1600000x1_S1600000x64_1_0_n_n_0_1_164 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))))))))
      = attn h (nbMean src dst h) W1 (rowOf b1) W2 (rowOf b2) := by
  rw [spell_deg dst, spell_nbMean, spell_attn]; rfl

end Cert.Spec

end
-- ==== Proof.RefSpellStages.lean ====
/-
  The plain program's stages, as pure functions of the stages they read, are the network's stages; composed over the
  argument arrays they are the whole network with the two-pass variance.

  Every stage function is the host composition the plain program prints between two named values.  Unfolding it and
  rewriting with the spellings of the dense layers, the edge chains, the statistics and the normalisation gives the
  network's entry-by-entry stage at the same operands; the parameter tables' slices become the table rows and matrices.
  The composition then follows the program's data flow: degrees, encoder, layer 0, and three times gate, aggregation with
  the linear map, statistics, normalisation with the residual; the last normalisation is fused with the classifier.
-/
import proofs.«130402_j14499809591446_2_alg».proof.Proof.RefStagesDefs
import proofs.«130402_j14499809591446_2_alg».proof.Proof.RefSpell

noncomputable section

namespace Cert.Spec

open Idealize.ShloMosaic Idealize.ShloMosaic.ValueIdx Cert.LibTileOps Cert.Net Cert.ReferenceIdeal Cert.ReferenceIdeal.RefRun
open scoped BigOperators

-- the printed program's shape facts, which its records and every broadcast / reduce / slice cite
variable [Facts₀]
open Facts₀

/-! ## The degrees, the encoder and layer 0 -/

theorem stage_v4 (a1 : EdgeIdx) : val_v4 a1 = deg a1 := rfl
theorem stage_v8 (a2 : EdgeIdx) : val_v8 a2 = deg a2 := rfl
theorem stage_v10 (d : V 100000) : val_v10 d = nrm d := rfl
theorem stage_v12 (d : V 100000) : val_v12 d = nrm d := rfl

theorem stage_v26 (a0 : Mat 100000 128) (a3 : Mat 128 64) (a4 : V 64) (a5 : Mat 64 32) (a6 : V 32) (a7 : Mat 32 128) (a8 : V 128) :
    val_v26 a0 a3 a4 a5 a6 a7 a8 = encoder a0 a3 (rowOf a4) a5 (rowOf a6) a7 (rowOf a8) :=
  spell_encoder a0 a3 a4 a5 a6 a7 a8

theorem stage_v46 (n1 n2 : V 100000) (h : Mat 100000 128) (a1 a2 : EdgeIdx) (W : Mat 128 64) (b : V 64) :
    val_v46 n1 n2 h a1 a2 W b = linear (scaleVec (segSum128 a1 a2 (scaleVec h n1)) n2) W (rowOf b) := by
  unfold val_v46
  rw [spell_scaled_segSum128, spell_linear128]

theorem stage_v53 (y : Mat 100000 64) : rowOf (val_v53 y) = meanRow y := spell_meanRow y
theorem stage_v54 (y : Mat 100000 64) : rowOf (val_v54 y) = varTwoPass y := spell_varTwoPass y

theorem stage_v70 (y : Mat 100000 64) (mu var : V 64) (a17 a18 : Mat 4 64) :
    val_v70 y mu var a17 a18 = bnRelu y (tableRow a17 0) (tableRow a18 0) (rowOf mu) (rowOf var) := by
  unfold val_v70
  rw [spell_bnRelu, spell_tableRow4_0, spell_tableRow4_0]

/-! ## Layer 1 -/

theorem stage_v83 (d : V 100000) (h : Mat 100000 64) (a1 a2 : EdgeIdx) :
    val_v83 d h a1 a2 = divVec (segSum64 a1 a2 h) d :=
  spell_nbMean a1 a2 h d

theorem stage_v102 (h nb : Mat 100000 64) (a9 : Mat 128 64) (a10 : V 64) (a11 : Mat 64 1) (a12 : V 1) :
    val_v102 h nb a9 a10 a11 a12 = attn h nb a9 (rowOf a10) a11 (rowOf a12) :=
  spell_attn h nb a9 a10 a11 a12

theorem stage_v126 (n1 n2 : V 100000) (hg : Mat 100000 64) (a1 a2 : EdgeIdx) (a15 : FVec Ideal ⟨3, ![3, 64, 64]⟩ .f32) (a16 : Mat 3 64) :
    val_v126 n1 n2 hg a1 a2 a15 a16
      = linear (scaleVec (segSum64 a1 a2 (scaleVec hg n1)) n2) (tableMat a15 0) (tableRow a16 0) := by
  unfold val_v126
  rw [spell_scaled_segSum64, spell_linear64, spell_tableMat_0, spell_tableRow3_0]

theorem stage_v133 (y : Mat 100000 64) : rowOf (val_v133 y) = meanRow y := spell_meanRow y
theorem stage_v134 (y : Mat 100000 64) : rowOf (val_v134 y) = varTwoPass y := spell_varTwoPass y

theorem stage_v151 (hg y : Mat 100000 64) (mu var : V 64) (a17 a18 : Mat 4 64) :
    val_v151 hg y mu var a17 a18 = bnResRelu y (tableRow a17 1) (tableRow a18 1) (rowOf mu) (rowOf var) hg := by
  unfold val_v151
  rw [spell_bnResRelu, spell_tableRow4_1, spell_tableRow4_1]

/-! ## Layer 2 -/

theorem stage_v164 (d : V 100000) (h : Mat 100000 64) (a1 a2 : EdgeIdx) :
    val_v164 d h a1 a2 = divVec (segSum64 a1 a2 h) d :=
  spell_nbMean a1 a2 h d

theorem stage_v183 (h nb : Mat 100000 64) (a9 : Mat 128 64) (a10 : V 64) (a11 : Mat 64 1) (a12 : V 1) :
    val_v183 h nb a9 a10 a11 a12 = attn h nb a9 (rowOf a10) a11 (rowOf a12) :=
  spell_attn h nb a9 a10 a11 a12

theorem stage_v207 (n1 n2 : V 100000) (hg : Mat 100000 64) (a1 a2 : EdgeIdx) (a15 : FVec Ideal ⟨3, ![3, 64, 64]⟩ .f32) (a16 : Mat 3 64) :
    val_v207 n1 n2 hg a1 a2 a15 a16
      = linear (scaleVec (segSum64 a1 a2 (scaleVec hg n1)) n2) (tableMat a15 1) (tableRow a16 1) := by
  unfold val_v207
  rw [spell_scaled_segSum64, spell_linear64, spell_tableMat_1, spell_tableRow3_1]

theorem stage_v214 (y : Mat 100000 64) : rowOf (val_v214 y) = meanRow y := spell_meanRow y
theorem stage_v215 (y : Mat 100000 64) : rowOf (val_v215 y) = varTwoPass y := spell_varTwoPass y

theorem stage_v232 (hg y : Mat 100000 64) (mu var : V 64) (a17 a18 : Mat 4 64) :
    val_v232 hg y mu var a17 a18 = bnResRelu y (tableRow a17 2) (tableRow a18 2) (rowOf mu) (rowOf var) hg := by
  unfold val_v232
  rw [spell_bnResRelu, spell_tableRow4_2, spell_tableRow4_2]

/-! ## Layer 3 -/

theorem stage_v245 (d : V 100000) (h : Mat 100000 64) (a1 a2 : EdgeIdx) :
    val_v245 d h a1 a2 = divVec (segSum64 a1 a2 h) d :=
  spell_nbMean a1 a2 h d

theorem stage_v264 (h nb : Mat 100000 64) (a9 : Mat 128 64) (a10 : V 64) (a11 : Mat 64 1) (a12 : V 1) :
    val_v264 h nb a9 a10 a11 a12 = attn h nb a9 (rowOf a10) a11 (rowOf a12) :=
  spell_attn h nb a9 a10 a11 a12

theorem stage_v288 (n1 n2 : V 100000) (hg : Mat 100000 64) (a1 a2 : EdgeIdx) (a15 : FVec Ideal ⟨3, ![3, 64, 64]⟩ .f32) (a16 : Mat 3 64) :
    val_v288 n1 n2 hg a1 a2 a15 a16
      = linear (scaleVec (segSum64 a1 a2 (scaleVec hg n1)) n2) (tableMat a15 2) (tableRow a16 2) := by
  unfold val_v288
  rw [spell_scaled_segSum64, spell_linear64, spell_tableMat_2, spell_tableRow3_2]

theorem stage_v295 (y : Mat 100000 64) : rowOf (val_v295 y) = meanRow y := spell_meanRow y
theorem stage_v296 (y : Mat 100000 64) : rowOf (val_v296 y) = varTwoPass y := spell_varTwoPass y

theorem stage_v317 (hg y : Mat 100000 64) (mu var : V 64) (a17 a18 : Mat 4 64) (a19 : Mat 64 16) (a20 : V 16) :
    val_v317 hg y mu var a17 a18 a19 a20
      = classifier y (tableRow a17 3) (tableRow a18 3) (rowOf mu) (rowOf var) hg a19 (rowOf a20) := by
  unfold val_v317
  rw [spell_bnResRelu, spell_dense_64_16, spell_tableRow4_3, spell_tableRow4_3]; rfl

/-! ## The stages composed over the argument arrays

  Feeding each stage the stages it reads, from the 21 argument arrays, gives the network with the two-pass variance:
  the encoder's output, layer 0, and for each later layer the gated input, the aggregation and linear map, and the
  normalisation with the statistics of its own operand. -/

variable (x : Args)

def r4 : V 100000 := val_v4 x.a1
def r8 : V 100000 := val_v8 x.a2
def r10 : V 100000 := val_v10 (r4 x)
def r12 : V 100000 := val_v12 (r8 x)
def r26 : Mat 100000 128 := val_v26 x.a0 x.a3 x.a4 x.a5 x.a6 x.a7 x.a8
def r46 : Mat 100000 64 := val_v46 (r10 x) (r12 x) (r26 x) x.a1 x.a2 x.a13 x.a14
def r53 : V 64 := val_v53 (r46 x)
def r54 : V 64 := val_v54 (r46 x)
def r70 : Mat 100000 64 := val_v70 (r46 x) (r53 x) (r54 x) x.a17 x.a18
def r83 : Mat 100000 64 := val_v83 (r8 x) (r70 x) x.a1 x.a2
def r102 : Mat 100000 64 := val_v102 (r70 x) (r83 x) x.a9 x.a10 x.a11 x.a12
def r126 : Mat 100000 64 := val_v126 (r10 x) (r12 x) (r102 x) x.a1 x.a2 x.a15 x.a16
def r133 : V 64 := val_v133 (r126 x)
def r134 : V 64 := val_v134 (r126 x)
def r151 : Mat 100000 64 := val_v151 (r102 x) (r126 x) (r133 x) (r134 x) x.a17 x.a18
def r164 : Mat 100000 64 := val_v164 (r8 x) (r151 x) x.a1 x.a2
def r183 : Mat 100000 64 := val_v183 (r151 x) (r164 x) x.a9 x.a10 x.a11 x.a12
def r207 : Mat 100000 64 := val_v207 (r10 x) (r12 x) (r183 x) x.a1 x.a2 x.a15 x.a16
def r214 : V 64 := val_v214 (r207 x)
def r215 : V 64 := val_v215 (r207 x)
def r232 : Mat 100000 64 := val_v232 (r183 x) (r207 x) (r214 x) (r215 x) x.a17 x.a18
def r245 : Mat 100000 64 := val_v245 (r8 x) (r232 x) x.a1 x.a2
def r264 : Mat 100000 64 := val_v264 (r232 x) (r245 x) x.a9 x.a10 x.a11 x.a12
def r288 : Mat 100000 64 := val_v288 (r10 x) (r12 x) (r264 x) x.a1 x.a2 x.a15 x.a16
def r295 : V 64 := val_v295 (r288 x)
def r296 : V 64 := val_v296 (r288 x)
def r317 : Mat 100000 16 := val_v317 (r264 x) (r288 x) (r295 x) (r296 x) x.a17 x.a18 x.a19 x.a20

theorem r26_eq : r26 x = h0 x := stage_v26 _ _ _ _ _ _ _

theorem r46_eq : r46 x = y0 x := by
  unfold r46
  rw [stage_v46, r26_eq]; rfl

theorem r70_eq : r70 x = h1 varTwoPass x := by
  unfold r70 r53 r54
  rw [stage_v70, stage_v53, stage_v54, r46_eq]; rfl

/-- The gated input of a layer from the previous layer's output. -/
theorem gated_eq (h : Mat 100000 64) : attn h (divVec (segSum64 x.a1 x.a2 h) (r8 x)) x.a9 (rowOf x.a10) x.a11 (rowOf x.a12) = gated x h := rfl

theorem r102_eq : r102 x = gated x (h1 varTwoPass x) := by
  unfold r102 r83
  rw [stage_v102, stage_v83, r70_eq]; rfl

/-- A later layer before its normalisation, from its gated input. -/
theorem yL_eq (i : Fin 3) (hg : Mat 100000 64) :
    linear (scaleVec (segSum64 x.a1 x.a2 (scaleVec hg (r10 x))) (r12 x)) (tableMat x.a15 i) (tableRow x.a16 i) = yL x i hg := rfl

theorem r126_eq : r126 x = yL x 0 (gated x (h1 varTwoPass x)) := by
  unfold r126
  rw [stage_v126, r102_eq]; rfl

theorem r151_eq : r151 x = stepL varTwoPass x 0 (h1 varTwoPass x) := by
  unfold r151 r133 r134
  rw [stage_v151, stage_v133, stage_v134, r126_eq, r102_eq]; rfl

theorem r183_eq : r183 x = gated x (stepL varTwoPass x 0 (h1 varTwoPass x)) := by
  unfold r183 r164
  rw [stage_v183, stage_v164, r151_eq]; rfl

theorem r207_eq : r207 x = yL x 1 (gated x (stepL varTwoPass x 0 (h1 varTwoPass x))) := by
  unfold r207
  rw [stage_v207, r183_eq]; rfl

theorem r232_eq : r232 x = h3 varTwoPass x := by
  unfold r232 r214 r215
  rw [stage_v232, stage_v214, stage_v215, r207_eq, r183_eq]; rfl

theorem r264_eq : r264 x = gated x (h3 varTwoPass x) := by
  unfold r264 r245
  rw [stage_v264, stage_v245, r232_eq]; rfl

theorem r288_eq : r288 x = yL x 2 (gated x (h3 varTwoPass x)) := by
  unfold r288
  rw [stage_v288, r264_eq]; rfl

/-- The plain program's stages, composed, are the network with the two-pass variance. -/
theorem r317_eq : r317 x = out varTwoPass x := by
  unfold r317 r295 r296
  rw [stage_v317, stage_v295, stage_v296, r288_eq, r264_eq]; rfl

end Cert.Spec

end
-- ==== Proof.RArgs.lean ====
/-
  The plain program's argument arrays as the network's argument record.
-/
import proofs.«130402_j14499809591446_2_alg».proof.ReferenceIdeal
import proofs.«130402_j14499809591446_2_alg».proof.Proof.Spec

noncomputable section

namespace Cert.ReferenceIdeal.RefRun

open Cert.ReferenceIdeal Idealize.ShloMosaic Idealize.ShloMosaic.TcCoe Idealize.SL.Sem

/-- The launch contents of the 21 argument arrays on core c, as the network's argument record. -/
def rargs (m : (ℓ : Loc nD τ sig) → Buf (Elt Ideal) ℓ) (c : Dev nD) : Cert.Spec.Args :=
  ⟨m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13),
    m ((c.tc : Thread nD τ).loc main_arg14),
    m ((c.tc : Thread nD τ).loc main_arg15),
    m ((c.tc : Thread nD τ).loc main_arg16),
    m ((c.tc : Thread nD τ).loc main_arg17),
    m ((c.tc : Thread nD τ).loc main_arg18),
    m ((c.tc : Thread nD τ).loc main_arg19),
    m ((c.tc : Thread nD τ).loc main_arg20)⟩

end Cert.ReferenceIdeal.RefRun

end
-- ==== Proof.RefStages.lean ====
/-
  The reference's result.

  The fold of the whole line at each named stage buffer is the stage's pure function of the fold at the stages it reads
  (`after_vN`).  Chaining these from the argument arrays upward, the fold at the result buffer is the network function
  of the launch arrays in its plain spelling (`after_result`); with the run (`run_raw`) and the untouched arguments this
  is the reference's whole behaviour (`run_result`).
-/
import proofs.«130402_j14499809591446_2_alg».proof.Proof.RefStagesL0
import proofs.«130402_j14499809591446_2_alg».proof.Proof.RefStagesL0b
import proofs.«130402_j14499809591446_2_alg».proof.Proof.RefStagesL1
import proofs.«130402_j14499809591446_2_alg».proof.Proof.RefStagesL2
import proofs.«130402_j14499809591446_2_alg».proof.Proof.RefStagesL3
import proofs.«130402_j14499809591446_2_alg».proof.Proof.RefSpellStages
import proofs.«130402_j14499809591446_2_alg».proof.Proof.RArgs

noncomputable section

namespace Cert.ReferenceIdeal.RefRun

open Cert.ReferenceIdeal Idealize.ShloMosaic Idealize.ShloMosaic.TcCoe Idealize.SL.Sem Idealize.ShloMosaic.StableHlo
open Facts₀ Facts

variable [Facts]

/-- The 21 argument arrays as a valuation holds them, as the network's argument record. -/
def argsOf (V : Valuation τ sig (Elt Ideal)) : Cert.Spec.Args :=
  ⟨V (Proc.devRef .tc main_arg0),
    V (Proc.devRef .tc main_arg1),
    V (Proc.devRef .tc main_arg2),
    V (Proc.devRef .tc main_arg3),
    V (Proc.devRef .tc main_arg4),
    V (Proc.devRef .tc main_arg5),
    V (Proc.devRef .tc main_arg6),
    V (Proc.devRef .tc main_arg7),
    V (Proc.devRef .tc main_arg8),
    V (Proc.devRef .tc main_arg9),
    V (Proc.devRef .tc main_arg10),
    V (Proc.devRef .tc main_arg11),
    V (Proc.devRef .tc main_arg12),
    V (Proc.devRef .tc main_arg13),
    V (Proc.devRef .tc main_arg14),
    V (Proc.devRef .tc main_arg15),
    V (Proc.devRef .tc main_arg16),
    V (Proc.devRef .tc main_arg17),
    V (Proc.devRef .tc main_arg18),
    V (Proc.devRef .tc main_arg19),
    V (Proc.devRef .tc main_arg20)⟩

theorem A_v4 (V : Valuation τ sig (Elt Ideal)) : after ops V (Proc.devRef .tc main_v4) = Cert.Spec.r4 (argsOf V) := by
  rw [after_v4]
  rfl
theorem A_v8 (V : Valuation τ sig (Elt Ideal)) : after ops V (Proc.devRef .tc main_v8) = Cert.Spec.r8 (argsOf V) := by
  rw [after_v8]
  rfl
theorem A_v10 (V : Valuation τ sig (Elt Ideal)) : after ops V (Proc.devRef .tc main_v10) = Cert.Spec.r10 (argsOf V) := by
  rw [after_v10, A_v4]
  rfl
theorem A_v12 (V : Valuation τ sig (Elt Ideal)) : after ops V (Proc.devRef .tc main_v12) = Cert.Spec.r12 (argsOf V) := by
  rw [after_v12, A_v8]
  rfl
theorem A_v26 (V : Valuation τ sig (Elt Ideal)) : after ops V (Proc.devRef .tc main_v26) = Cert.Spec.r26 (argsOf V) := by
  rw [after_v26]
  rfl
theorem A_v46 (V : Valuation τ sig (Elt Ideal)) : after ops V (Proc.devRef .tc main_v46) = Cert.Spec.r46 (argsOf V) := by
  rw [after_v46, A_v10, A_v12, A_v26]
  rfl
theorem A_v53 (V : Valuation τ sig (Elt Ideal)) : after ops V (Proc.devRef .tc main_v53) = Cert.Spec.r53 (argsOf V) := by
  rw [after_v53, A_v46]
  rfl
theorem A_v54 (V : Valuation τ sig (Elt Ideal)) : after ops V (Proc.devRef .tc main_v54) = Cert.Spec.r54 (argsOf V) := by
  rw [after_v54, A_v46]
  rfl
theorem A_v70 (V : Valuation τ sig (Elt Ideal)) : after ops V (Proc.devRef .tc main_v70) = Cert.Spec.r70 (argsOf V) := by
  rw [after_v70, A_v46, A_v53, A_v54]
  rfl
theorem A_v83 (V : Valuation τ sig (Elt Ideal)) : after ops V (Proc.devRef .tc main_v83) = Cert.Spec.r83 (argsOf V) := by
  rw [after_v83, A_v8, A_v70]
  rfl
theorem A_v102 (V : Valuation τ sig (Elt Ideal)) : after ops V (Proc.devRef .tc main_v102) = Cert.Spec.r102 (argsOf V) := by
  rw [after_v102, A_v70, A_v83]
  rfl
theorem A_v126 (V : Valuation τ sig (Elt Ideal)) : after ops V (Proc.devRef .tc main_v126) = Cert.Spec.r126 (argsOf V) := by
  rw [after_v126, A_v10, A_v12, A_v102]
  rfl
theorem A_v133 (V : Valuation τ sig (Elt Ideal)) : after ops V (Proc.devRef .tc main_v133) = Cert.Spec.r133 (argsOf V) := by
  rw [after_v133, A_v126]
  rfl
theorem A_v134 (V : Valuation τ sig (Elt Ideal)) : after ops V (Proc.devRef .tc main_v134) = Cert.Spec.r134 (argsOf V) := by
  rw [after_v134, A_v126]
  rfl
theorem A_v151 (V : Valuation τ sig (Elt Ideal)) : after ops V (Proc.devRef .tc main_v151) = Cert.Spec.r151 (argsOf V) := by
  rw [after_v151, A_v102, A_v126, A_v133, A_v134]
  rfl
theorem A_v164 (V : Valuation τ sig (Elt Ideal)) : after ops V (Proc.devRef .tc main_v164) = Cert.Spec.r164 (argsOf V) := by
  rw [after_v164, A_v8, A_v151]
  rfl
theorem A_v183 (V : Valuation τ sig (Elt Ideal)) : after ops V (Proc.devRef .tc main_v183) = Cert.Spec.r183 (argsOf V) := by
  rw [after_v183, A_v151, A_v164]
  rfl
theorem A_v207 (V : Valuation τ sig (Elt Ideal)) : after ops V (Proc.devRef .tc main_v207) = Cert.Spec.r207 (argsOf V) := by
  rw [after_v207, A_v10, A_v12, A_v183]
  rfl
theorem A_v214 (V : Valuation τ sig (Elt Ideal)) : after ops V (Proc.devRef .tc main_v214) = Cert.Spec.r214 (argsOf V) := by
  rw [after_v214, A_v207]
  rfl
theorem A_v215 (V : Valuation τ sig (Elt Ideal)) : after ops V (Proc.devRef .tc main_v215) = Cert.Spec.r215 (argsOf V) := by
  rw [after_v215, A_v207]
  rfl
theorem A_v232 (V : Valuation τ sig (Elt Ideal)) : after ops V (Proc.devRef .tc main_v232) = Cert.Spec.r232 (argsOf V) := by
  rw [after_v232, A_v183, A_v207, A_v214, A_v215]
  rfl
theorem A_v245 (V : Valuation τ sig (Elt Ideal)) : after ops V (Proc.devRef .tc main_v245) = Cert.Spec.r245 (argsOf V) := by
  rw [after_v245, A_v8, A_v232]
  rfl
theorem A_v264 (V : Valuation τ sig (Elt Ideal)) : after ops V (Proc.devRef .tc main_v264) = Cert.Spec.r264 (argsOf V) := by
  rw [after_v264, A_v232, A_v245]
  rfl
theorem A_v288 (V : Valuation τ sig (Elt Ideal)) : after ops V (Proc.devRef .tc main_v288) = Cert.Spec.r288 (argsOf V) := by
  rw [after_v288, A_v10, A_v12, A_v264]
  rfl
theorem A_v295 (V : Valuation τ sig (Elt Ideal)) : after ops V (Proc.devRef .tc main_v295) = Cert.Spec.r295 (argsOf V) := by
  rw [after_v295, A_v288]
  rfl
theorem A_v296 (V : Valuation τ sig (Elt Ideal)) : after ops V (Proc.devRef .tc main_v296) = Cert.Spec.r296 (argsOf V) := by
  rw [after_v296, A_v288]
  rfl
theorem A_v317 (V : Valuation τ sig (Elt Ideal)) : after ops V (Proc.devRef .tc main_v317) = Cert.Spec.r317 (argsOf V) := by
  rw [after_v317, A_v264, A_v288, A_v295, A_v296]
  rfl

/-- The fold at the result buffer is the network function of the launch arrays (its plain spelling). -/
theorem after_result (m : (ℓ : Loc nD τ sig) → Buf (Elt Ideal) ℓ) (c : Dev nD) :
    after ops (fun b => m (c, b)) (Proc.devRef .tc main_v317) = Cert.Spec.out Cert.Spec.varTwoPass (rargs m c) :=
  (A_v317 _).trans (Cert.Spec.r317_eq (rargs m c))

/-- The reference's run: it terminates, the result buffer holds the network function of the launch arrays, and the
    arguments end as launched. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v317) = Cert.Spec.out Cert.Spec.varTwoPass (rargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v317).trans (after_result m c),
      (h c main_arg0).trans (after_main_arg0 _),
      (h c main_arg1).trans (after_main_arg1 _),
      (h c main_arg2).trans (after_main_arg2 _),
      (h c main_arg3).trans (after_main_arg3 _),
      (h c main_arg4).trans (after_main_arg4 _),
      (h c main_arg5).trans (after_main_arg5 _),
      (h c main_arg6).trans (after_main_arg6 _),
      (h c main_arg7).trans (after_main_arg7 _),
      (h c main_arg8).trans (after_main_arg8 _),
      (h c main_arg9).trans (after_main_arg9 _),
      (h c main_arg10).trans (after_main_arg10 _),
      (h c main_arg11).trans (after_main_arg11 _),
      (h c main_arg12).trans (after_main_arg12 _),
      (h c main_arg13).trans (after_main_arg13 _),
      (h c main_arg14).trans (after_main_arg14 _),
      (h c main_arg15).trans (after_main_arg15 _),
      (h c main_arg16).trans (after_main_arg16 _),
      (h c main_arg17).trans (after_main_arg17 _),
      (h c main_arg18).trans (after_main_arg18 _),
      (h c main_arg19).trans (after_main_arg19 _),
      (h c main_arg20).trans (after_main_arg20 _)⟩)
    (run_raw m ρ)

end Cert.ReferenceIdeal.RefRun

end
-- ==== Proof.BridgeReal.lean ====
/-
  Real entries along the network.

  An extended real is either a real number or one of the two infinities.  Every operation the network is made of sends
  real numbers to real numbers, with three places where more than realness is needed:

  * a division: the divisor has to be a nonzero real.  The network divides by the row count 100000 (the means) and by
    a clamped degree, which is a real number that is at least one;
  * the power d ^ (-1/2) of a clamped degree: a real base and a real exponent give a real number;
  * the reciprocal square root in a normalisation: its argument var + eps has to be a positive real.  The variance,
    spelt as the mean of the squared deviations of real samples, is a sum of squares of real numbers over 100000, hence
    a real number that is at least zero, and eps is a positive real literal.

  This file proves these closure facts stage by stage: the literals, the edge-indexed chains (degree, its power,
  the sums over the edges, the two aggregations and the neighbour mean), the dense stages (matrix products, bias rows,
  the clamp at zero, the joined rows, the gate and the gated sum), and the normalisation with the column means and the
  two-pass column variances of the array it normalises.
-/
import proofs.«130402_j14499809591446_2_alg».proof.Proof.Spec
import proofs.«130402_j14499809591446_2_alg».proof.Proof.LibVariance

noncomputable section

namespace Cert.Spec

open Idealize.ShloMosaic Idealize.ShloMosaic.ValueIdx Cert.LibTileOps Cert.Net Cert.ReferenceIdeal Cert.LibRealEntries
open scoped BigOperators

/-- Every entry of an array is a real number. -/
abbrev AllReal {s : Shape} (a : FVec Ideal s .f32) : Prop := ∀ i, IsReal (a i)

/-- Every entry of a vector is a real number that is at least one. -/
abbrev RealGeOne {n : ℕ} (d : V n) : Prop := ∀ i, ∃ b : ℝ, 1 ≤ b ∧ d i = (b : EReal)

/-! ## Scalars -/

/-- A difference of real numbers is real. -/
theorem isReal_sub {x y : EReal} (hx : IsReal x) (hy : IsReal y) : IsReal (x - y) := by
  obtain ⟨a, rfl⟩ := hx; obtain ⟨b, rfl⟩ := hy; exact ⟨a - b, (EReal.coe_sub a b).symm⟩

/-- A real number divided by a nonzero real number is real: it is the product with the reciprocal. -/
theorem isReal_div {x y : EReal} (hx : IsReal x) {b : ℝ} (hy : y = (b : EReal)) (hb : b ≠ 0) : IsReal (Ideal.div x y) := by
  obtain ⟨a, rfl⟩ := hx; subst hy
  rw [Ideal.div_coe hb]; exact ⟨a * (1 / b), (EReal.coe_mul _ _).symm⟩

/-- The logistic function of a real number is the real number 1 / (1 + e^(-x)). -/
theorem isReal_logistic {x : EReal} (hx : IsReal x) : IsReal (Ideal.logistic x) := by
  obtain ⟨a, rfl⟩ := hx; rw [Ideal.logistic_coe]; exact ⟨_, rfl⟩

/-- The reciprocal square root of a positive real number is real (neither the pole at zero nor the negative branch). -/
theorem isReal_rsqrt_of_pos {r : ℝ} (h : 0 < r) : IsReal (Ideal.rsqrt (r : EReal)) := by
  rw [Ideal.rsqrt_coe, if_neg (not_lt.mpr h.le), if_neg h.ne']; exact ⟨_, rfl⟩

/-- A real base to a real exponent is real. -/
theorem isReal_pow {x y : EReal} (hx : IsReal x) (hy : IsReal y) : IsReal (Ideal.pow x y) := by
  obtain ⟨a, rfl⟩ := hx; obtain ⟨b, rfl⟩ := hy; rw [Ideal.pow_coe_coe]; exact ⟨_, rfl⟩

/-! ## The literals -/

/-- The word 0x3F800000 is the number one. -/
theorem one_word : Ideal.ofBits .f32 0x3F800000#32 = 1 := by
  simp [Ideal.ofBits, Ideal.ieee, -EReal.coe_mul]; norm_num

/-- The exponent word 0xBF000000 is minus one half, a real number. -/
theorem half_word : Ideal.ofBits .f32 0xBF000000#32 = ((-(1 / 2) : ℝ) : EReal) := by
  simp [Ideal.ofBits, Ideal.ieee, -EReal.coe_mul]; norm_num

theorem isReal_half_word : IsReal (Ideal.ofBits .f32 0xBF000000#32) := ⟨_, half_word⟩

/-- The epsilon word 0x3727C5AC is 10995116 · 2^(-40) (about 1e-5), a positive real number. -/
theorem eps_word : Ideal.ofBits .f32 0x3727C5AC#32 = ((10995116 * (2 : ℝ) ^ (-40 : ℤ) : ℝ) : EReal) := by
  simp [Ideal.ofBits, Ideal.ieee, -EReal.coe_mul]

theorem eps_pos : ∃ e : ℝ, 0 < e ∧ eps = (e : EReal) := ⟨_, by positivity, eps_word⟩

/-- The row-count word is the number 100000. -/
theorem nf_eq : nf = ((100000 : ℝ) : EReal) := Cert.LibVariance.ofBits_1e5

/-! ## Rows scaled or divided by a vector -/

variable {B : ℕ}

theorem real_scaleVec (x : Mat 100000 B) (n : V 100000) (hx : AllReal x) (hn : AllReal n) : AllReal (scaleVec x n) :=
  fun i => (hx i).mul (hn _)

/-- Rows divided by a vector of real numbers that are at least one: the divisors are nonzero reals. -/
theorem real_divVec (x : Mat 100000 B) (n : V 100000) (hx : AllReal x) (hn : RealGeOne n) : AllReal (divVec x n) := by
  intro i
  obtain ⟨b, hb1, hb⟩ := hn (ix1 (i 0))
  exact isReal_div (hx i) hb (lt_of_lt_of_le one_pos hb1).ne'

/-! ## The edge-indexed chains -/

section Edges

-- the printed program's shape facts, which the edge-indexed chains cite through their records
variable [Facts₀]
open Facts₀

/-- A degree is the maximum of the literal one with a count accumulated from zeros by adding ones: real, and at least one. -/
theorem real_deg (a : EdgeIdx) : AllReal (deg a) := by
  intro i
  unfold deg
  refine real_maximumf _ _ (real_bcast _ _ _ fun _ => ?_)
    (real_scatterAdd _ _ _ _ (real_bcast _ _ _ fun _ => isReal_zero_word) (real_bcast _ _ _ fun _ => ?_)) i
  · rw [constant_apply, one_word]; exact IsReal.one
  · rw [constant_apply, one_word]; exact IsReal.one

theorem one_le_deg (a : EdgeIdx) (i : S100000.Idx) : (1 : EReal) ≤ deg a i := by
  unfold deg
  rw [maximumf_apply]
  exact le_trans (le_of_eq one_word.symm) (le_max_left _ _)

theorem deg_realGeOne (a : EdgeIdx) : RealGeOne (deg a) := by
  intro i
  obtain ⟨b, hb⟩ := real_deg a i
  refine ⟨b, ?_, hb⟩
  have h := one_le_deg a i
  rw [hb] at h
  exact_mod_cast h

/-- The power d ^ (-1/2) of real entries: a real base to a real exponent. -/
theorem real_nrm (d : V 100000) (hd : AllReal d) : AllReal (nrm d) := by
  intro i
  show IsReal (Ideal.pow (d i) (Ideal.ofBits .f32 0xBF000000#32))
  exact isReal_pow (hd i) isReal_half_word

/-- A sum over the edges of gathered rows, accumulated from zeros: every entry is a finite sum of entries of h. -/
theorem real_segSum64 (src dst : EdgeIdx) (h : Mat 100000 64) (hh : AllReal h) : AllReal (segSum64 src dst h) := by
  intro i
  unfold segSum64
  exact real_scatterAdd _ _ _ _ (real_bcast _ _ _ fun _ => isReal_zero_word) (real_gather _ _ _ hh) i

theorem real_segSum128 (src dst : EdgeIdx) (h : Mat 100000 128) (hh : AllReal h) : AllReal (segSum128 src dst h) := by
  intro i
  unfold segSum128
  exact real_scatterAdd _ _ _ _ (real_bcast _ _ _ fun _ => isReal_zero_word) (real_gather _ _ _ hh) i

theorem real_aggregate64 (src dst : EdgeIdx) (h : Mat 100000 64) (hh : AllReal h) : AllReal (aggregate64 src dst h) :=
  real_scaleVec _ _ (real_segSum64 _ _ _ (real_scaleVec _ _ hh (real_nrm _ (real_deg src)))) (real_nrm _ (real_deg dst))

theorem real_aggregate128 (src dst : EdgeIdx) (h : Mat 100000 128) (hh : AllReal h) : AllReal (aggregate128 src dst h) :=
  real_scaleVec _ _ (real_segSum128 _ _ _ (real_scaleVec _ _ hh (real_nrm _ (real_deg src)))) (real_nrm _ (real_deg dst))

theorem real_nbMean (src dst : EdgeIdx) (h : Mat 100000 64) (hh : AllReal h) : AllReal (nbMean src dst h) :=
  real_divVec _ _ (real_segSum64 _ _ _ hh) (deg_realGeOne dst)

end Edges

/-! ## The dense stages -/

variable {A K : ℕ}

theorem real_matProd (x : Mat A K) (w : Mat K B) (hx : AllReal x) (hw : AllReal w) : AllReal (matProd x w) :=
  fun _ => IsReal.sum _ _ fun _ _ => (hx _).mul (hw _)

theorem real_addRow (x : Mat A B) (b : Mat 1 B) (hx : AllReal x) (hb : AllReal b) : AllReal (addRow x b) :=
  fun i => (hx i).add (hb _)

theorem real_addRowClamp (x : Mat A B) (b : Mat 1 B) (hx : AllReal x) (hb : AllReal b) : AllReal (addRowClamp x b) :=
  fun i => ((hx i).add (hb _)).max isReal_zero_word

theorem real_rowOf (v : V B) (hv : AllReal v) : AllReal (rowOf v) := fun _ => hv _

theorem real_tableRow {R : ℕ} (t : Mat R 64) (i : Fin R) (ht : AllReal t) : AllReal (tableRow t i) := fun _ => ht _

theorem real_tableMat (t : FVec Ideal ⟨3, ![3, 64, 64]⟩ .f32) (i : Fin 3) (ht : AllReal t) : AllReal (tableMat t i) := fun _ => ht _

theorem real_encoder (x : Mat A 128) (W1 : Mat 128 64) (b1 : Mat 1 64) (W2 : Mat 64 32) (b2 : Mat 1 32) (W3 : Mat 32 128) (b3 : Mat 1 128)
    (hx : AllReal x) (hW1 : AllReal W1) (hb1 : AllReal b1) (hW2 : AllReal W2) (hb2 : AllReal b2) (hW3 : AllReal W3) (hb3 : AllReal b3) :
    AllReal (encoder x W1 b1 W2 b2 W3 b3) :=
  real_addRow _ _ (real_matProd _ _ (real_addRowClamp _ _ (real_matProd _ _ (real_addRowClamp _ _ (real_matProd _ _ hx hW1) hb1) hW2) hb2) hW3) hb3

theorem real_linear (a : Mat A K) (W : Mat K 64) (b : Mat 1 64) (ha : AllReal a) (hW : AllReal W) (hb : AllReal b) :
    AllReal (linear a W b) :=
  real_addRow _ _ (real_matProd _ _ ha hW) hb

/-- Two arrays side by side: every entry is an entry of one of them. -/
theorem real_joinCols (h nb : Mat A 64) (hh : AllReal h) (hn : AllReal nb) : AllReal (joinCols h nb) := by
  intro i
  unfold joinCols
  split
  · exact hh _
  · exact hn _

/-- The gate: the logistic function of a two-layer perceptron of real entries. -/
theorem real_gate (h nb : Mat A 64) (W1 : Mat 128 64) (b1 : Mat 1 64) (W2 : Mat 64 1) (b2 : Mat 1 1)
    (hh : AllReal h) (hn : AllReal nb) (hW1 : AllReal W1) (hb1 : AllReal b1) (hW2 : AllReal W2) (hb2 : AllReal b2) :
    AllReal (gate h nb W1 b1 W2 b2) :=
  fun i => isReal_logistic
    (real_addRow _ _ (real_matProd _ _ (real_addRowClamp _ _ (real_matProd _ _ (real_joinCols h nb hh hn) hW1) hb1) hW2) hb2 i)

theorem real_attn (h nb : Mat A 64) (W1 : Mat 128 64) (b1 : Mat 1 64) (W2 : Mat 64 1) (b2 : Mat 1 1)
    (hh : AllReal h) (hn : AllReal nb) (hW1 : AllReal W1) (hb1 : AllReal b1) (hW2 : AllReal W2) (hb2 : AllReal b2) :
    AllReal (attn h nb W1 b1 W2 b2) :=
  fun i => (hh i).add ((real_gate h nb W1 b1 W2 b2 hh hn hW1 hb1 hW2 hb2 _).mul (hn i))

/-! ## The normalisation -/

/-- A column mean of real entries: a finite sum of reals divided by 100000. -/
theorem real_meanRow (y : Mat 100000 64) (hy : AllReal y) : AllReal (meanRow y) :=
  fun _ => isReal_div (IsReal.sum _ _ fun _ _ => hy _) nf_eq (by norm_num)

/-- A two-pass column variance of real entries is a real number that is at least zero: the sum of the squares of the
    real deviations from the real mean, divided by 100000. -/
theorem varTwoPass_real_nonneg (y : Mat 100000 64) (hy : AllReal y) (j : (⟨2, ![1, 64]⟩ : Shape).Idx) :
    ∃ v : ℝ, 0 ≤ v ∧ varTwoPass y j = (v : EReal) := by
  obtain ⟨m, hm⟩ := real_meanRow y hy (ix2 (0 : Fin 1) (j 1))
  choose f hf using fun r : Fin 100000 => hy (ix2 r (j 1))
  refine ⟨(∑ r, (f r - m) * (f r - m)) * (1 / 100000),
    mul_nonneg (Finset.sum_nonneg fun r _ => mul_self_nonneg _) (by norm_num), ?_⟩
  show Ideal.div (∑ r : Fin 100000, (y (ix2 r (j 1)) - meanRow y (ix2 (0 : Fin 1) (j 1)))
    * (y (ix2 r (j 1)) - meanRow y (ix2 (0 : Fin 1) (j 1)))) nf = _
  rw [hm, nf_eq, Ideal.div_coe (by norm_num)]
  simp only [hf, ← EReal.coe_sub, ← EReal.coe_mul]
  rw [Cert.LibVariance.coe_finset_sum, ← EReal.coe_mul]

/-- The normalisation of real entries by their own column means and two-pass column variances, with real scale and
    shift rows: var + eps is a positive real, so its reciprocal square root is real. -/
theorem real_bnAffine (y : Mat 100000 64) (g bt : Mat 1 64) (hy : AllReal y) (hg : AllReal g) (hbt : AllReal bt) :
    AllReal (bnAffine y g bt (meanRow y) (varTwoPass y)) := by
  intro i
  obtain ⟨v, hv0, hv⟩ := varTwoPass_real_nonneg y hy (ix2 (0 : Fin 1) (i 1))
  obtain ⟨e, he0, he⟩ := eps_pos
  have hr : IsReal (Ideal.rsqrt (varTwoPass y (ix2 (0 : Fin 1) (i 1)) + eps)) := by
    rw [hv, he, ← EReal.coe_add]; exact isReal_rsqrt_of_pos (by linarith)
  unfold bnAffine
  exact ((((isReal_sub (hy i) (real_meanRow y hy _)).mul hr).mul (hg _)).add (hbt _))

theorem real_bnRelu (y : Mat 100000 64) (g bt : Mat 1 64) (hy : AllReal y) (hg : AllReal g) (hbt : AllReal bt) :
    AllReal (bnRelu y g bt (meanRow y) (varTwoPass y)) :=
  fun i => (real_bnAffine y g bt hy hg hbt i).max isReal_zero_word

theorem real_bnResRelu (y : Mat 100000 64) (g bt : Mat 1 64) (h : Mat 100000 64) (hy : AllReal y) (hg : AllReal g) (hbt : AllReal bt)
    (hh : AllReal h) : AllReal (bnResRelu y g bt (meanRow y) (varTwoPass y) h) :=
  fun i => ((real_bnAffine y g bt hy hg hbt i).add (hh i)).max isReal_zero_word

end Cert.Spec

end
-- ==== Proof.Bridge.lean ====
/-
  The two programs compute the same network; they differ in how a layer's column variance is spelt.

  The tiled program takes the mean of the squares minus the squared mean (one pass over the rows); the plain one takes
  the mean of the squared deviations from the mean (two passes).  For real samples these are the same number — expand
  (y - m)² = y² - 2 m y + m², sum over the N rows and use Σ y = N m — but over the extended reals they differ as soon as
  one sample is infinite.  So the two networks are joined layer by layer: the array a layer normalises has real entries
  (it is built from the real arguments by operations that keep entries real, the previous layers' normalisations
  included once these are read in their two-pass form), hence the two spellings of its variance agree, hence the
  layer's output is the same array in both networks, and the next layer starts from equal arrays.
-/
import proofs.«130402_j14499809591446_2_alg».proof.Proof.BridgeReal

noncomputable section

namespace Cert.Spec

open Idealize.ShloMosaic Idealize.ShloMosaic.ValueIdx Cert.LibTileOps Cert.Net Cert.ReferenceIdeal Cert.LibRealEntries
open scoped BigOperators

/-- For an array of real entries the one-pass and the two-pass column variances are the same row: column by column,
    the variance law for the 100000 real samples of that column. -/
theorem var_eq (y : Mat 100000 64) (hy : ∀ i, Cert.LibRealEntries.IsReal (y i)) : varOnePass y = varTwoPass y := by
  funext j
  have h := Cert.LibVariance.variance_law (n := 100000) (fun r => y (ix2 r (j 1))) (fun r => hy _) 100000
    (by norm_num) (by norm_num)
  unfold varOnePass varTwoPass meanRow
  rw [nf_eq]
  exact h

/-! ## Real entries along the two-pass network -/

-- the printed program's shape facts, which the edge-indexed chains cite through their records
variable [Facts₀]
open Facts₀

variable (x : Args)

/-- The encoder's output: matrix products, bias rows and clamps of real arguments. -/
theorem real_h0 (hx : x.Finite) : AllReal (h0 x) :=
  real_encoder _ _ _ _ _ _ _ hx.r0 hx.r3 (real_rowOf _ hx.r4) hx.r5 (real_rowOf _ hx.r6) hx.r7 (real_rowOf _ hx.r8)

/-- Layer 0 before its normalisation: the aggregation of the encoder's output, a matrix product and a bias row. -/
theorem real_y0 (hx : x.Finite) : AllReal (y0 x) :=
  real_linear _ _ _ (real_aggregate128 _ _ _ (real_h0 x hx)) hx.r13 (real_rowOf _ hx.r14)

/-- Layer 0's output in the two-pass network. -/
theorem real_h1 (hx : x.Finite) : AllReal (h1 varTwoPass x) :=
  real_bnRelu _ _ _ (real_y0 x hx) (real_tableRow _ _ hx.r17) (real_tableRow _ _ hx.r18)

/-- The gated sum of a real array with the mean of its neighbours. -/
theorem real_gated (hx : x.Finite) (h : Mat 100000 64) (hh : AllReal h) : AllReal (gated x h) :=
  real_attn _ _ _ _ _ _ hh (real_nbMean _ _ _ hh) hx.r9 (real_rowOf _ hx.r10) hx.r11 (real_rowOf _ hx.r12)

/-- A later layer before its normalisation, from a real gated array. -/
theorem real_yL (hx : x.Finite) (i : Fin 3) (hg : Mat 100000 64) (hhg : AllReal hg) : AllReal (yL x i hg) :=
  real_linear _ _ _ (real_aggregate64 _ _ _ hhg) (real_tableMat _ _ hx.r15) (real_tableRow _ _ hx.r16)

/-- A later layer's output in the two-pass network, from a real input. -/
theorem real_stepL (hx : x.Finite) (i : Fin 3) (h : Mat 100000 64) (hh : AllReal h) : AllReal (stepL varTwoPass x i h) :=
  real_bnResRelu _ _ _ _ (real_yL x hx i _ (real_gated x hx h hh)) (real_tableRow _ _ hx.r17) (real_tableRow _ _ hx.r18)
    (real_gated x hx h hh)

/-! ## The two networks agree -/

/-- Layer 0: the array it normalises does not depend on the variance spelling and has real entries. -/
theorem h1_eq (hx : x.Finite) : h1 varOnePass x = h1 varTwoPass x := by
  unfold h1; rw [var_eq (y0 x) (real_y0 x hx)]

/-- A later layer from a real input: the array it normalises has real entries. -/
theorem stepL_eq (hx : x.Finite) (i : Fin 3) (h : Mat 100000 64) (hh : AllReal h) :
    stepL varOnePass x i h = stepL varTwoPass x i h := by
  unfold stepL; rw [var_eq _ (real_yL x hx i _ (real_gated x hx h hh))]

/-- Layer 2's output in the two-pass network has real entries. -/
theorem real_h3 (hx : x.Finite) : AllReal (h3 varTwoPass x) :=
  real_stepL x hx 1 _ (real_stepL x hx 0 _ (real_h1 x hx))

/-- Layers 0 to 2: each starts from the array the previous equation made equal. -/
theorem h3_eq (hx : x.Finite) : h3 varOnePass x = h3 varTwoPass x := by
  unfold h3
  rw [h1_eq x hx, stepL_eq x hx 0 _ (real_h1 x hx), stepL_eq x hx 1 _ (real_stepL x hx 0 _ (real_h1 x hx))]

/-- The two networks compute the same result when every float argument has real entries. -/
theorem out_eq (x : Args) (hx : x.Finite) : out varOnePass x = out varTwoPass x := by
  unfold out
  rw [h3_eq x hx, var_eq _ (real_yL x hx 2 _ (real_gated x hx _ (real_h3 x hx)))]

end Cert.Spec

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«130402_j14499809591446_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.PreReal.lean ====
/-
  The precondition read back: every entry of every float argument is a real number.

  The precondition is one word: the conjunction, over the 19 float arguments a, of "every entry of |a| is below +∞".
  Each conjunct is printed as a reduction by `and`, over all axes and from the word 1, of the entrywise comparison
  of |a| with the constant +∞ broadcast to a's shape; the conjuncts are joined by `and` on one-bit words, nested to
  the left. The two integer arguments (the edge lists) do not occur in it.

  Reading it at its one index: a conjunction of one-bit words is 1 exactly when both words are 1, so the claim that the
  whole word is 1 splits into the 19 claims that each reduction is 1. A reduction by `and` from 1 that comes out 1
  met a 1 at every entry, so at every index i the comparison |a i| < +∞ holds; over the extended reals |x| is
  max x (-x), and max x (-x) < +∞ excludes both x = +∞ and x = -∞, which leaves x a real number.
-/
import proofs.«130402_j14499809591446_2_alg».proof.Pre_finite_inputs
import proofs.«130402_j14499809591446_2_alg».proof.Proof.Spec
import proofs.«130402_j14499809591446_2_alg».proof.Proof.LibAllFinite

noncomputable section

namespace Cert.Spec

open Idealize.ShloMosaic Idealize.ShloMosaic.ValueIdx Cert.Pre_finite_inputs Cert.LibRealEntries Cert.LibAllFinite

/-- The precondition's word being 1 makes every entry of each of the 19 float arguments a real number: the word is
    read at its one index, the nested conjunction is split into its 19 all-reductions, and each all-reduction of
    |a| < +∞ that is 1 gives a real number at every index of a. -/
theorem finite_of_pre [Cert.Pre_finite_inputs.Facts] (a0 : FVec Ideal S100000x128 .f32) (a1 : IVec S1600000 32) (a2 : IVec S1600000 32) (a3 : FVec Ideal S128x64 .f32) (a4 : FVec Ideal S64 .f32) (a5 : FVec Ideal S64x32 .f32) (a6 : FVec Ideal S32 .f32) (a7 : FVec Ideal S32x128 .f32) (a8 : FVec Ideal S128 .f32) (a9 : FVec Ideal S128x64 .f32) (a10 : FVec Ideal S64 .f32) (a11 : FVec Ideal S64x1 .f32) (a12 : FVec Ideal S1 .f32) (a13 : FVec Ideal S128x64 .f32) (a14 : FVec Ideal S64 .f32) (a15 : FVec Ideal S3x64x64 .f32) (a16 : FVec Ideal S3x64 .f32) (a17 : FVec Ideal S4x64 .f32) (a18 : FVec Ideal S4x64 .f32) (a19 : FVec Ideal S64x16 .f32) (a20 : FVec Ideal S16 .f32)
    (h : Cert.Pre_finite_inputs.fn (F := Ideal) a0 a1 a2 a3 a4 a5 a6 a7 a8 a9 a10 a11 a12 a13 a14 a15 a16 a17 a18 a19 a20 = (fun _ => 1#1)) :
    Args.Finite ⟨a0, a1, a2, a3, a4, a5, a6, a7, a8, a9, a10, a11, a12, a13, a14, a15, a16, a17, a18, a19, a20⟩ := by
  -- the word at its one index
  have e := congrFun h ix0
  -- the printed chain of operations, its five parts opened in turn
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5 at e
  -- a conjunction of one-bit words is 1 exactly when both are: 19 all-reductions, each equal to 1
  simp only [Idealize.ShloMosaic.andi, IntOp.andi_eq_one] at e
  obtain ⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩ := e
  -- each all-reduction of |a| < +∞ that is 1 makes every entry of a real
  exact
    { r0 := real_of_all a0 _ _ _ _ h0
      r3 := real_of_all a3 _ _ _ _ h3
      r4 := real_of_all a4 _ _ _ _ h4
      r5 := real_of_all a5 _ _ _ _ h5
      r6 := real_of_all a6 _ _ _ _ h6
      r7 := real_of_all a7 _ _ _ _ h7
      r8 := real_of_all a8 _ _ _ _ h8
      r9 := real_of_all a9 _ _ _ _ h9
      r10 := real_of_all a10 _ _ _ _ h10
      r11 := real_of_all a11 _ _ _ _ h11
      r12 := real_of_all a12 _ _ _ _ h12
      r13 := real_of_all a13 _ _ _ _ h13
      r14 := real_of_all a14 _ _ _ _ h14
      r15 := real_of_all a15 _ _ _ _ h15
      r16 := real_of_all a16 _ _ _ _ h16
      r17 := real_of_all a17 _ _ _ _ h17
      r18 := real_of_all a18 _ _ _ _ h18
      r19 := real_of_all a19 _ _ _ _ h19
      r20 := real_of_all a20 _ _ _ _ h20 }

end Cert.Spec

end
-- ==== Proof.lean ====
/-
  The certificate: the tiled graph network and the plain one compute the same function.

  Both programs run a four-layer graph convolution network over 100000 nodes and 1600000 edges: an encoder of three
  dense layers; per layer an aggregation over the edges (rows scaled by the out-degree normaliser, summed into their
  destination rows, scaled by the in-degree normaliser), a dense layer, a batch normalisation over the nodes, from the
  second layer on an attention gate mixing in the mean of the neighbours and a residual, the clamp at zero; and a
  classifier.  The tiled program computes every dense stage in pallas regions over blocks of 5000 rows and keeps the
  edge-indexed sums on the host; the plain program is host operations throughout.

  * The two frames of the tiled program are the generated ones; the plain program's frame is its run (a straight line
    of host operations) with the result dropped.
  * The idealisation rewrote nothing, so it preserves the program trivially.
  * Over the extended reals: every region's output array is its row-local stage of the arrays it finds (a block of rows
    of the result depends on the same block of rows of the operands), the stretches of host operations between the regions
    are the same operations the plain program applies, so the tiled program's result is the network `out` with the
    variance spelt as the mean of the squares minus the squared mean, the plain program's the same network with the
    variance spelt as the mean of the squared deviations.  The two spellings agree on real samples; the precondition
    makes every float input real and every stage of the network keeps its entries real, so the results are equal.
-/
import proofs.«130402_j14499809591446_2_alg».proof.Defs
import proofs.«130402_j14499809591446_2_alg».proof.Proof.Gen.Kernel
import proofs.«130402_j14499809591446_2_alg».proof.Proof.Gen.Kernel.Frame
import proofs.«130402_j14499809591446_2_alg».proof.Proof.Gen.KernelIdeal
import proofs.«130402_j14499809591446_2_alg».proof.Proof.Gen.KernelIdeal.Frame
import proofs.«130402_j14499809591446_2_alg».proof.Proof.Gen.ReferenceIdeal
import proofs.«130402_j14499809591446_2_alg».proof.Proof.Gen.Pre_finite_inputs
import proofs.«130402_j14499809591446_2_alg».proof.Proof.KRun
import proofs.«130402_j14499809591446_2_alg».proof.Proof.KArgs
import proofs.«130402_j14499809591446_2_alg».proof.Proof.KArgs10
import proofs.«130402_j14499809591446_2_alg».proof.Proof.KChainA
import proofs.«130402_j14499809591446_2_alg».proof.Proof.KChainA2
import proofs.«130402_j14499809591446_2_alg».proof.Proof.KChainB
import proofs.«130402_j14499809591446_2_alg».proof.Proof.RegEncoder
import proofs.«130402_j14499809591446_2_alg».proof.Proof.RegLinear1
import proofs.«130402_j14499809591446_2_alg».proof.Proof.RegLinear4
import proofs.«130402_j14499809591446_2_alg».proof.Proof.RegLinear7
import proofs.«130402_j14499809591446_2_alg».proof.Proof.RegLinear10
import proofs.«130402_j14499809591446_2_alg».proof.Proof.RegAttn3
import proofs.«130402_j14499809591446_2_alg».proof.Proof.RegAttn6
import proofs.«130402_j14499809591446_2_alg».proof.Proof.RegAttn9
import proofs.«130402_j14499809591446_2_alg».proof.Proof.RegBn2
import proofs.«130402_j14499809591446_2_alg».proof.Proof.RegBn5
import proofs.«130402_j14499809591446_2_alg».proof.Proof.RegBn8
import proofs.«130402_j14499809591446_2_alg».proof.Proof.RegBnCls11
import proofs.«130402_j14499809591446_2_alg».proof.Proof.RefRun
import proofs.«130402_j14499809591446_2_alg».proof.Proof.RefStages
import proofs.«130402_j14499809591446_2_alg».proof.Proof.RArgs
import proofs.«130402_j14499809591446_2_alg».proof.Proof.Bridge
import proofs.«130402_j14499809591446_2_alg».proof.Proof.PreReal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := Cert.ReferenceIdeal.RefRun.frame

theorem preserves : Cert.preserves_Kernel_KernelIdeal := trivial

open Cert.KernelIdeal.KChain Cert.KernelIdeal.Regions in
/-- The tiled program's result array is the one-pass network of its launch arrays. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W28 m ρ c (Proc.devRef .tc Cert.KernelIdeal.main_v235)
      = Cert.Spec.out Cert.Spec.varOnePass (kargs m c) :=
  value_of_live16 final6 final7 final8 final9 final10 final11 m ρ c (live16_of_live10 final3 final4 final5 m ρ c (live10 final0 final1 final2 m ρ c))

/-- Memories agreeing on the arguments give the same argument record. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.RefRun.rargs m' c = Cert.KernelIdeal.KChain.kargs m c := by
  obtain ⟨h0, h1, h2, h3, h4, h5, h6, h7, h8, h9, h10, h11, h12, h13, h14, h15, h16, h17, h18, h19, h20⟩ := h
  unfold Cert.ReferenceIdeal.RefRun.rargs Cert.KernelIdeal.KChain.kargs
  rw [h0, h1, h2, h3, h4, h5, h6, h7, h8, h9, h10, h11, h12, h13, h14, h15, h16, h17, h18, h19, h20]

theorem algebraic : Cert.algebraic_KernelIdeal_ReferenceIdeal := by
  intro m ρ m' ρ' hpre hagree
  refine ⟨fun c => Cert.Spec.out Cert.Spec.varTwoPass (Cert.KernelIdeal.KChain.kargs m c), ?_, ?_⟩
  · refine (θ_run (Cert.KernelIdeal.defs (F := Ideal)) _ _).mono (fun r h c => ⟨(h c).1.trans ?_, (h c).2⟩)
      (Cert.KernelIdeal.KRun.run_result (F := Ideal) m ρ)
    rw [kernel_value m ρ c]
    exact Cert.Spec.out_eq _ (Cert.Spec.finite_of_pre _ _ _ _ _ _ _ _ _ _ _ _ _ _ _ _ _ _ _ _ _ (hpre c))
  · refine (θ_run (Cert.ReferenceIdeal.defs (F := Ideal)) _ _).mono (fun r h c => ⟨(h c).1.trans ?_, (h c).2⟩)
      (Cert.ReferenceIdeal.RefRun.run_result m' ρ')
    rw [args_agree m m' c (hagree c)]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
